-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v238)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v238) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1x64 : Shape := ⟨3, ![50000, 1, 64]⟩
abbrev S2x800000 : Shape := ⟨2, ![2, 800000]⟩
abbrev S800000x3 : Shape := ⟨2, ![800000, 3]⟩
abbrev S800000 : Shape := ⟨1, ![800000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S_ : Shape := ⟨0, ![]⟩

class Facts : Prop where
  bcast_S_S50000x1x64 : S_.BroadcastsInDim S50000x1x64 (![] : Fin 0 → Fin S50000x1x64.rank)
  reducesTo_S50000x1x64_S_d0_1_2 : S50000x1x64.ReducesTo [0, 1, 2] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part3 {F : FTy → Type} [FloatOps F] (main_arg12 : FVec F S4x64 .f32) (main_arg13 : FVec F S4x64 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S4x64 .f32 := Host.absf main_arg12
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_v59 : FVec F S4x64 .f32 := Host.absf main_arg13
  let main_cst_22 : FVec F S_ .f32 := constant S_ .f32 0x7F800000#32
  let main_v60 : FVec F S4x64 .f32 := broadcastInDim S4x64 ![] bcast_S_S4x64 main_cst_22
  let main_v61 : IVec S4x64 1 := cmpf .olt main_v59 main_v60
  let main_c_23 : IVec S_ 1 := constantI S_ 1 1#1
  let main_v62 : IVec S_ 1 := (fun x v => Host.reduce IntOp.andi x v reducesTo_S4x64_S_d0_1 h_S_) main_v61 main_c_23
  let main_v63 : IVec S_ 1 := andi main_v58 main_v62
  main_v63

def fn_part2 {F : FTy → Type} [FloatOps F] (main_arg8 : FVec F S4x64 .f32) (main_arg9 : FVec F S4x64 .f32) (main_arg10 : FVec F S4x64x64 .f32) (main_arg11 : FVec F S4x64 .f32) (main_arg12 : FVec F S4x64 .f32) (main_arg13 : FVec F S4x64 .f32) (main_v33 : IVec S_ 1) : IVec S_ 1 :=
  let main_v34 : FVec F S4x64 .f32 := Host.absf main_arg8
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S4x64 .f32 := Host.absf main_arg9
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S4x64x64 .f32 := Host.absf main_arg10
  let main_cst_16 : FVec F S_ .f32 := constant S_ .f32 0x7F800000#32
  let main_v45 : FVec F S4x64x64 .f32 := broadcastInDim S4x64x64 ![] bcast_S_S4x64x64 main_cst_16
  let main_v46 : IVec S4x64x64 1 := cmpf .olt main_v44 main_v45
  let main_c_17 : IVec S_ 1 := constantI S_ 1 1#1
  let main_v47 : IVec S_ 1 := (fun x v => Host.reduce IntOp.andi x v reducesTo_S4x64x64_S_d0_1_2 h_S_) main_v46 main_c_17
  let main_v48 : IVec S_ 1 := andi main_v43 main_v47
  let main_v49 : FVec F S4x64 .f32 := Host.absf main_arg11
  let main_cst_18 : FVec F S_ .f32 := constant S_ .f32 0x7F800000#32
  let main_v50 : FVec F S4x64 .f32 := broadcastInDim S4x64 ![] bcast_S_S4x64 main_cst_18
  fn_part3 (F := F) main_arg12 main_arg13 main_v48 main_v49 main_v50

def fn_part1 {F : FTy → Type} [FloatOps F] (main_arg5 : FVec F S64 .f32) (main_arg6 : FVec F S4x64x64 .f32) (main_arg7 : FVec F S4x64 .f32) (main_arg8 : FVec F S4x64 .f32) (main_arg9 : FVec F S4x64 .f32) (main_arg10 : FVec F S4x64x64 .f32) (main_arg11 : FVec F S4x64 .f32) (main_arg12 : FVec F S4x64 .f32) (main_arg13 : FVec F S4x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x64x64 .f32 := Host.absf main_arg6
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S4x64 .f32 := Host.absf main_arg7
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x1x64 .f32) (main_arg1 : IVec S2x800000 32) (main_arg2 : FVec F S800000x3 .f32) (main_arg3 : FVec F S800000 .f32) (main_arg4 : FVec F S64x64 .f32) (main_arg5 : FVec F S64 .f32) (main_arg6 : FVec F S4x64x64 .f32) (main_arg7 : FVec F S4x64 .f32) (main_arg8 : FVec F S4x64 .f32) (main_arg9 : FVec F S4x64 .f32) (main_arg10 : FVec F S4x64x64 .f32) (main_arg11 : FVec F S4x64 .f32) (main_arg12 : FVec F S4x64 .f32) (main_arg13 : FVec F S4x64 .f32) : IVec S_ 1 :=
  let main_v0 : FVec F S50000x1x64 .f32 := Host.absf main_arg0
  let main_cst : FVec F S_ .f32 := constant S_ .f32 0x7F800000#32
  let main_v1 : FVec F S50000x1x64 .f32 := broadcastInDim S50000x1x64 ![] bcast_S_S50000x1x64 main_cst
  let main_v2 : IVec S50000x1x64 1 := cmpf .olt main_v0 main_v1
  let main_c : IVec S_ 1 := constantI S_ 1 1#1
  let main_v3 : IVec S_ 1 := (fun x v => Host.reduce IntOp.andi x v reducesTo_S50000x1x64_S_d0_1_2 h_S_) main_v2 main_c
  let main_v4 : FVec F S800000x3 .f32 := Host.absf main_arg2
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S50000x1x64 : Shape := ⟨3, ![50000, 1, 64]⟩
abbrev S2x800000 : Shape := ⟨2, ![2, 800000]⟩
abbrev S800000x3 : Shape := ⟨2, ![800000, 3]⟩
abbrev S800000 : Shape := ⟨1, ![800000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S50000x64 : Shape := ⟨2, ![50000, 64]⟩
abbrev S1x64 : Shape := ⟨2, ![1, 64]⟩
abbrev S5000x64 : Shape := ⟨2, ![5000, 64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩

abbrev nBuf : Space → Nat
  | .hbm => 465
  | .vmem => 102
  | .smem => 0
  | _ => 0

abbrev hbmTy0_0 (i : Nat) : BufTy := match i % 128 with
  | 0 => ⟨S50000x1x64, .f32⟩
  | 1 => ⟨S2x800000, .i32⟩
  | 2 => ⟨S800000x3, .f32⟩
  | 3 => ⟨S800000, .f32⟩
  | 4 => ⟨S64x64, .f32⟩
  | 5 => ⟨S64, .f32⟩
  | 6 => ⟨S4x64x64, .f32⟩
  | 7 => ⟨S4x64, .f32⟩
  | 8 => ⟨S4x64, .f32⟩
  | 9 => ⟨S4x64, .f32⟩
  | 10 => ⟨S4x64x64, .f32⟩
  | 11 => ⟨S4x64, .f32⟩
  | 12 => ⟨S4x64, .f32⟩
  | 13 => ⟨S4x64, .f32⟩
  | 14 => ⟨S50000x64, .f32⟩
  | 15 => ⟨S1x64, .f32⟩
  | 16 => ⟨S50000x64, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S800000x1, .f32⟩
  | 31 => ⟨S800000x64, .f32⟩
  | 32 => ⟨S800000x64, .f32⟩
  | 33 => ⟨S_, .f32⟩
  | 34 => ⟨S50000x64, .f32⟩
  | 35 => ⟨S800000x1, .i32⟩
  | 36 => ⟨S50000x64, .f32⟩
  | 37 => ⟨S1x64x64, .f32⟩
  | 38 => ⟨S64x64, .f32⟩
  | 39 => ⟨S1x64, .f32⟩
  | 40 => ⟨S64, .f32⟩
  | 41 => ⟨S1x64, .f32⟩
  | 42 => ⟨S50000x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S64, .f32⟩
  | 75 => ⟨S1x64, .f32⟩
  | 76 => ⟨S64, .f32⟩
  | 77 => ⟨S64, .f32⟩
  | 78 => ⟨S1x64, .f32⟩
  | 79 => ⟨S64, .f32⟩
  | 80 => ⟨S64, .f32⟩
  | 81 => ⟨S64, .f32⟩
  | 82 => ⟨S1x64x64, .f32⟩
  | 83 => ⟨S64x64, .f32⟩
  | 84 => ⟨S1x64, .f32⟩
  | 85 => ⟨S64, .f32⟩
  | 86 => ⟨S1x64, .f32⟩
  | 87 => ⟨S1x64, .f32⟩
  | 88 => ⟨S1x64, .f32⟩
  | 89 => ⟨S50000x64, .f32⟩
  | 90 => ⟨S_, .f32⟩
  | 91 => ⟨S64, .f32⟩
  | 92 => ⟨S_, .f32⟩
  | 93 => ⟨S64, .f32⟩
  | 94 => ⟨S64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S50000x64, .f32⟩
  | 103 => ⟨S50000x64, .f32⟩
  | 104 => ⟨S50000x64, .f32⟩
  | 105 => ⟨S_, .f32⟩
  | 106 => ⟨S_, .f32⟩
  | 107 => ⟨S_, .f32⟩
  | 108 => ⟨S_, .f32⟩
  | 109 => ⟨S64, .f32⟩
  | 110 => ⟨S64, .f32⟩
  | 111 => ⟨S64, .f32⟩
  | 112 => ⟨S_, .f32⟩
  | 113 => ⟨S_, .i1⟩
  | 114 => ⟨S_, .f32⟩
  | 115 => ⟨S_, .f32⟩
  | 116 => ⟨S64, .f32⟩
  | 117 => ⟨S64, .f32⟩
  | 118 => ⟨S_, .f32⟩
  | 119 => ⟨S64, .f32⟩
  | 120 => ⟨S64, .f32⟩
  | 121 => ⟨S64, .f32⟩
  | 122 => ⟨S1x64, .f32⟩
  | 123 => ⟨S64, .f32⟩
  | 124 => ⟨S64, .f32⟩
  | 125 => ⟨S1x64, .f32⟩
  | 126 => ⟨S64, .f32⟩
  | 127 => ⟨S64, .f32⟩
  | _ => ⟨S50000x1x64, .f32⟩

abbrev hbmTy0_1 (i : Nat) : BufTy := match i % 128 with
  | 0 => ⟨S64, .f32⟩
  | 1 => ⟨S1x64, .f32⟩
  | 2 => ⟨S1x64, .f32⟩
  | 3 => ⟨S50000x64, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x64, .f32⟩
  | 13 => ⟨S800000x1, .f32⟩
  | 14 => ⟨S800000x64, .f32⟩
  | 15 => ⟨S800000x64, .f32⟩
  | 16 => ⟨S_, .f32⟩
  | 17 => ⟨S50000x64, .f32⟩
  | 18 => ⟨S800000x1, .i32⟩
  | 19 => ⟨S50000x64, .f32⟩
  | 20 => ⟨S1x64x64, .f32⟩
  | 21 => ⟨S64x64, .f32⟩
  | 22 => ⟨S1x64, .f32⟩
  | 23 => ⟨S64, .f32⟩
  | 24 => ⟨S1x64, .f32⟩
  | 25 => ⟨S50000x64, .f32⟩
  | 26 => ⟨S_, .f32⟩
  | 27 => ⟨S64, .f32⟩
  | 28 => ⟨S_, .f32⟩
  | 29 => ⟨S64, .f32⟩
  | 30 => ⟨S64, .f32⟩
  | 31 => ⟨S_, .i32⟩
  | 32 => ⟨S_, .f32⟩
  | 33 => ⟨S64, .f32⟩
  | 34 => ⟨S1x64, .f32⟩
  | 35 => ⟨S_, .f32⟩
  | 36 => ⟨S1x64, .f32⟩
  | 37 => ⟨S1x64, .f32⟩
  | 38 => ⟨S50000x64, .f32⟩
  | 39 => ⟨S50000x64, .f32⟩
  | 40 => ⟨S50000x64, .f32⟩
  | 41 => ⟨S_, .f32⟩
  | 42 => ⟨S_, .f32⟩
  | 43 => ⟨S_, .f32⟩
  | 44 => ⟨S_, .f32⟩
  | 45 => ⟨S64, .f32⟩
  | 46 => ⟨S64, .f32⟩
  | 47 => ⟨S64, .f32⟩
  | 48 => ⟨S_, .f32⟩
  | 49 => ⟨S_, .i1⟩
  | 50 => ⟨S_, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S64, .f32⟩
  | 58 => ⟨S1x64, .f32⟩
  | 59 => ⟨S64, .f32⟩
  | 60 => ⟨S64, .f32⟩
  | 61 => ⟨S1x64, .f32⟩
  | 62 => ⟨S64, .f32⟩
  | 63 => ⟨S64, .f32⟩
  | 64 => ⟨S64, .f32⟩
  | 65 => ⟨S1x64x64, .f32⟩
  | 66 => ⟨S64x64, .f32⟩
  | 67 => ⟨S1x64, .f32⟩
  | 68 => ⟨S64, .f32⟩
  | 69 => ⟨S1x64, .f32⟩
  | 70 => ⟨S1x64, .f32⟩
  | 71 => ⟨S1x64, .f32⟩
  | 72 => ⟨S50000x64, .f32⟩
  | 73 => ⟨S_, .f32⟩
  | 74 => ⟨S64, .f32⟩
  | 75 => ⟨S_, .f32⟩
  | 76 => ⟨S64, .f32⟩
  | 77 => ⟨S64, .f32⟩
  | 78 => ⟨S_, .i32⟩
  | 79 => ⟨S_, .f32⟩
  | 80 => ⟨S64, .f32⟩
  | 81 => ⟨S1x64, .f32⟩
  | 82 => ⟨S_, .f32⟩
  | 83 => ⟨S1x64, .f32⟩
  | 84 => ⟨S1x64, .f32⟩
  | 85 => ⟨S50000x64, .f32⟩
  | 86 => ⟨S50000x64, .f32⟩
  | 87 => ⟨S50000x64, .f32⟩
  | 88 => ⟨S_, .f32⟩
  | 89 => ⟨S_, .f32⟩
  | 90 => ⟨S_, .f32⟩
  | 91 => ⟨S_, .f32⟩
  | 92 => ⟨S64, .f32⟩
  | 93 => ⟨S64, .f32⟩
  | 94 => ⟨S64, .f32⟩
  | 95 => ⟨S_, .f32⟩
  | 96 => ⟨S_, .i1⟩
  | 97 => ⟨S_, .f32⟩
  | 98 => ⟨S_, .f32⟩
  | 99 => ⟨S64, .f32⟩
  | 100 => ⟨S64, .f32⟩
  | 101 => ⟨S_, .f32⟩
  | 102 => ⟨S64, .f32⟩
  | 103 => ⟨S64, .f32⟩
  | 104 => ⟨S64, .f32⟩
  | 105 => ⟨S1x64, .f32⟩
  | 106 => ⟨S64, .f32⟩
  | 107 => ⟨S64, .f32⟩
  | 108 => ⟨S1x64, .f32⟩
  | 109 => ⟨S64, .f32⟩
  | 110 => ⟨S64, .f32⟩
  | 111 => ⟨S64, .f32⟩
  | 112 => ⟨S1x64, .f32⟩
  | 113 => ⟨S1x64, .f32⟩
  | 114 => ⟨S50000x64, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S800000x1, .f32⟩
  | 125 => ⟨S800000x64, .f32⟩
  | 126 => ⟨S800000x64, .f32⟩
  | 127 => ⟨S_, .f32⟩
  | _ => ⟨S50000x1x64, .f32⟩

abbrev hbmTy0_2 (i : Nat) : BufTy := match i % 128 with
  | 0 => ⟨S50000x64, .f32⟩
  | 1 => ⟨S800000x1, .i32⟩
  | 2 => ⟨S50000x64, .f32⟩
  | 3 => ⟨S1x64x64, .f32⟩
  | 4 => ⟨S64x64, .f32⟩
  | 5 => ⟨S1x64, .f32⟩
  | 6 => ⟨S64, .f32⟩
  | 7 => ⟨S1x64, .f32⟩
  | 8 => ⟨S50000x64, .f32⟩
  | 9 => ⟨S_, .f32⟩
  | 10 => ⟨S64, .f32⟩
  | 11 => ⟨S_, .f32⟩
  | 12 => ⟨S64, .f32⟩
  | 13 => ⟨S64, .f32⟩
  | 14 => ⟨S_, .i32⟩
  | 15 => ⟨S_, .f32⟩
  | 16 => ⟨S64, .f32⟩
  | 17 => ⟨S1x64, .f32⟩
  | 18 => ⟨S_, .f32⟩
  | 19 => ⟨S1x64, .f32⟩
  | 20 => ⟨S1x64, .f32⟩
  | 21 => ⟨S50000x64, .f32⟩
  | 22 => ⟨S50000x64, .f32⟩
  | 23 => ⟨S50000x64, .f32⟩
  | 24 => ⟨S_, .f32⟩
  | 25 => ⟨S_, .f32⟩
  | 26 => ⟨S_, .f32⟩
  | 27 => ⟨S_, .f32⟩
  | 28 => ⟨S64, .f32⟩
  | 29 => ⟨S64, .f32⟩
  | 30 => ⟨S64, .f32⟩
  | 31 => ⟨S_, .f32⟩
  | 32 => ⟨S_, .i1⟩
  | 33 => ⟨S_, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S64, .f32⟩
  | 41 => ⟨S1x64, .f32⟩
  | 42 => ⟨S64, .f32⟩
  | 43 => ⟨S64, .f32⟩
  | 44 => ⟨S1x64, .f32⟩
  | 45 => ⟨S64, .f32⟩
  | 46 => ⟨S64, .f32⟩
  | 47 => ⟨S64, .f32⟩
  | 48 => ⟨S1x64x64, .f32⟩
  | 49 => ⟨S64x64, .f32⟩
  | 50 => ⟨S1x64, .f32⟩
  | 51 => ⟨S64, .f32⟩
  | 52 => ⟨S1x64, .f32⟩
  | 53 => ⟨S1x64, .f32⟩
  | 54 => ⟨S1x64, .f32⟩
  | 55 => ⟨S50000x64, .f32⟩
  | 56 => ⟨S_, .f32⟩
  | 57 => ⟨S64, .f32⟩
  | 58 => ⟨S_, .f32⟩
  | 59 => ⟨S64, .f32⟩
  | 60 => ⟨S64, .f32⟩
  | 61 => ⟨S_, .i32⟩
  | 62 => ⟨S_, .f32⟩
  | 63 => ⟨S64, .f32⟩
  | 64 => ⟨S1x64, .f32⟩
  | 65 => ⟨S_, .f32⟩
  | 66 => ⟨S1x64, .f32⟩
  | 67 => ⟨S1x64, .f32⟩
  | 68 => ⟨S50000x64, .f32⟩
  | 69 => ⟨S50000x64, .f32⟩
  | 70 => ⟨S50000x64, .f32⟩
  | 71 => ⟨S_, .f32⟩
  | 72 => ⟨S_, .f32⟩
  | 73 => ⟨S_, .f32⟩
  | 74 => ⟨S_, .f32⟩
  | 75 => ⟨S64, .f32⟩
  | 76 => ⟨S64, .f32⟩
  | 77 => ⟨S64, .f32⟩
  | 78 => ⟨S_, .f32⟩
  | 79 => ⟨S_, .i1⟩
  | 80 => ⟨S_, .f32⟩
  | 81 => ⟨S_, .f32⟩
  | 82 => ⟨S64, .f32⟩
  | 83 => ⟨S64, .f32⟩
  | 84 => ⟨S_, .f32⟩
  | 85 => ⟨S64, .f32⟩
  | 86 => ⟨S64, .f32⟩
  | 87 => ⟨S64, .f32⟩
  | 88 => ⟨S1x64, .f32⟩
  | 89 => ⟨S64, .f32⟩
  | 90 => ⟨S64, .f32⟩
  | 91 => ⟨S1x64, .f32⟩
  | 92 => ⟨S64, .f32⟩
  | 93 => ⟨S64, .f32⟩
  | 94 => ⟨S64, .f32⟩
  | 95 => ⟨S1x64, .f32⟩
  | 96 => ⟨S1x64, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x1, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S1x64x64, .f32⟩
  | 115 => ⟨S64x64, .f32⟩
  | 116 => ⟨S1x64, .f32⟩
  | 117 => ⟨S64, .f32⟩
  | 118 => ⟨S1x64, .f32⟩
  | 119 => ⟨S50000x64, .f32⟩
  | 120 => ⟨S_, .f32⟩
  | 121 => ⟨S64, .f32⟩
  | 122 => ⟨S_, .f32⟩
  | 123 => ⟨S64, .f32⟩
  | 124 => ⟨S64, .f32⟩
  | 125 => ⟨S_, .i32⟩
  | 126 => ⟨S_, .f32⟩
  | 127 => ⟨S64, .f32⟩
  | _ => ⟨S50000x1x64, .f32⟩

abbrev hbmTy0_3 (i : Nat) : BufTy := match i % 128 with
  | 0 => ⟨S1x64, .f32⟩
  | 1 => ⟨S_, .f32⟩
  | 2 => ⟨S1x64, .f32⟩
  | 3 => ⟨S1x64, .f32⟩
  | 4 => ⟨S50000x64, .f32⟩
  | 5 => ⟨S50000x64, .f32⟩
  | 6 => ⟨S50000x64, .f32⟩
  | 7 => ⟨S_, .f32⟩
  | 8 => ⟨S_, .f32⟩
  | 9 => ⟨S_, .f32⟩
  | 10 => ⟨S_, .f32⟩
  | 11 => ⟨S64, .f32⟩
  | 12 => ⟨S64, .f32⟩
  | 13 => ⟨S64, .f32⟩
  | 14 => ⟨S_, .f32⟩
  | 15 => ⟨S_, .i1⟩
  | 16 => ⟨S_, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S64, .f32⟩
  | 24 => ⟨S1x64, .f32⟩
  | 25 => ⟨S64, .f32⟩
  | 26 => ⟨S64, .f32⟩
  | 27 => ⟨S1x64, .f32⟩
  | 28 => ⟨S64, .f32⟩
  | 29 => ⟨S64, .f32⟩
  | 30 => ⟨S64, .f32⟩
  | 31 => ⟨S1x64x64, .f32⟩
  | 32 => ⟨S64x64, .f32⟩
  | 33 => ⟨S1x64, .f32⟩
  | 34 => ⟨S64, .f32⟩
  | 35 => ⟨S1x64, .f32⟩
  | 36 => ⟨S1x64, .f32⟩
  | 37 => ⟨S1x64, .f32⟩
  | 38 => ⟨S50000x64, .f32⟩
  | 39 => ⟨S_, .f32⟩
  | 40 => ⟨S64, .f32⟩
  | 41 => ⟨S_, .f32⟩
  | 42 => ⟨S64, .f32⟩
  | 43 => ⟨S64, .f32⟩
  | 44 => ⟨S_, .i32⟩
  | 45 => ⟨S_, .f32⟩
  | 46 => ⟨S64, .f32⟩
  | 47 => ⟨S1x64, .f32⟩
  | 48 => ⟨S_, .f32⟩
  | 49 => ⟨S1x64, .f32⟩
  | 50 => ⟨S1x64, .f32⟩
  | 51 => ⟨S50000x64, .f32⟩
  | 52 => ⟨S50000x64, .f32⟩
  | 53 => ⟨S50000x64, .f32⟩
  | 54 => ⟨S_, .f32⟩
  | 55 => ⟨S_, .f32⟩
  | 56 => ⟨S_, .f32⟩
  | 57 => ⟨S_, .f32⟩
  | 58 => ⟨S64, .f32⟩
  | 59 => ⟨S64, .f32⟩
  | 60 => ⟨S64, .f32⟩
  | 61 => ⟨S_, .f32⟩
  | 62 => ⟨S_, .i1⟩
  | 63 => ⟨S_, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S64, .f32⟩
  | 71 => ⟨S1x64, .f32⟩
  | 72 => ⟨S64, .f32⟩
  | 73 => ⟨S64, .f32⟩
  | 74 => ⟨S1x64, .f32⟩
  | 75 => ⟨S64, .f32⟩
  | 76 => ⟨S64, .f32⟩
  | 77 => ⟨S64, .f32⟩
  | 78 => ⟨S1x64, .f32⟩
  | 79 => ⟨S1x64, .f32⟩
  | 80 => ⟨S50000x64, .f32⟩
  | _ => ⟨S50000x1x64, .f32⟩

abbrev hbmTy (i : Nat) : BufTy := match i / 128 with
  | 0 => hbmTy0_0 i
  | 1 => hbmTy0_1 i
  | 2 => hbmTy0_2 i
  | 3 => hbmTy0_3 i
  | _ => ⟨S50000x1x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S1x64, .f32⟩
  | .local _ .vmem, ⟨41, _⟩ => ⟨S1x64, .f32⟩
  | .local _ .vmem, ⟨42, _⟩ => ⟨S64x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S1x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x64, .f32⟩
  | .local _ .vmem, ⟨59, _⟩ => ⟨S1x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S1x64, .f32⟩
  | .local _ .vmem, ⟨65, _⟩ => ⟨S1x64, .f32⟩
  | .local _ .vmem, ⟨66, _⟩ => ⟨S64x64, .f32⟩
  | .local _ .vmem, ⟨67, _⟩ => ⟨S1x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S1x64, .f32⟩
  | .local _ .vmem, ⟨73, _⟩ => ⟨S1x64, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S5000x64, .f32⟩
  | .local _ .vmem, ⟨82, _⟩ => ⟨S64x64, .f32⟩
  | .local _ .vmem, ⟨83, _⟩ => ⟨S1x64, .f32⟩
  | .local _ .vmem, ⟨84, _⟩ => ⟨S5000x64, .f32⟩
  | .local _ .vmem, ⟨85, _⟩ => ⟨S5000x64, .f32⟩
  | .local _ .vmem, ⟨86, _⟩ => ⟨S5000x64, .f32⟩
  | .local _ .vmem, ⟨87, _⟩ => ⟨S5000x64, .f32⟩
  | .local _ .vmem, ⟨88, _⟩ => ⟨S1x64, .f32⟩
  | .local _ .vmem, ⟨89, _⟩ => ⟨S1x64, .f32⟩
  | .local _ .vmem, ⟨90, _⟩ => ⟨S64x64, .f32⟩
  | .local _ .vmem, ⟨91, _⟩ => ⟨S1x64, .f32⟩
  | .local _ .vmem, ⟨92, _⟩ => ⟨S5000x64, .f32⟩
  | .local _ .vmem, ⟨93, _⟩ => ⟨S5000x64, .f32⟩
  | .local _ .vmem, ⟨94, _⟩ => ⟨S5000x64, .f32⟩
  | .local _ .vmem, ⟨95, _⟩ => ⟨S5000x64, .f32⟩
  | .local _ .vmem, ⟨96, _⟩ => ⟨S1x64, .f32⟩
  | .local _ .vmem, ⟨97, _⟩ => ⟨S1x64, .f32⟩
  | .local _ .vmem, ⟨98, _⟩ => ⟨S5000x64, .f32⟩
  | .local _ .vmem, ⟨99, _⟩ => ⟨S5000x64, .f32⟩
  | .local _ .vmem, ⟨100, _⟩ => ⟨S5000x64, .f32⟩
  | .local _ .vmem, ⟨101, _⟩ => ⟨S5000x64, .f32⟩
  | _, _ => ⟨S50000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v29 : Ref sig .tc := ⟨.hbm, 70, rfl⟩
abbrev main_cst_4 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_5 : Ref sig .tc := ⟨.hbm, 90, rfl⟩
abbrev main_v48 : Ref sig .tc := ⟨.hbm, 91, rfl⟩
abbrev main_cst_6 : Ref sig .tc := ⟨.hbm, 92, rfl⟩
abbrev main_v49 : Ref sig .tc := ⟨.hbm, 93, rfl⟩
abbrev main_v50 : Ref sig .tc := ⟨.hbm, 94, rfl⟩
abbrev main_c_7 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_cst_3 : Ref sig .tc := ⟨.hbm, 112, rfl⟩
abbrev main_call1_v12 : Ref sig .tc := ⟨.hbm, 113, rfl⟩
abbrev main_call1_cst_4 : Ref sig .tc := ⟨.hbm, 114, rfl⟩
abbrev main_call1_call0_v0 : Ref sig .tc := ⟨.hbm, 115, rfl⟩
abbrev main_call1_call0_v1 : Ref sig .tc := ⟨.hbm, 116, rfl⟩
abbrev main_v51 : Ref sig .tc := ⟨.hbm, 117, rfl⟩
abbrev main_cst_8 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_c_9 : Ref sig .tc := ⟨.hbm, 132, rfl⟩
abbrev main_v65 : Ref sig .tc := ⟨.hbm, 133, rfl⟩
abbrev main_v66 : Ref sig .tc := ⟨.hbm, 134, rfl⟩
abbrev main_c_10 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_cst_11 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_cst_12 : Ref sig .tc := ⟨.hbm, 154, rfl⟩
abbrev main_v84 : Ref sig .tc := ⟨.hbm, 155, rfl⟩
abbrev main_cst_13 : Ref sig .tc := ⟨.hbm, 156, rfl⟩
abbrev main_v85 : Ref sig .tc := ⟨.hbm, 157, rfl⟩
abbrev main_v86 : Ref sig .tc := ⟨.hbm, 158, rfl⟩
abbrev main_c_14 : Ref sig .tc := ⟨.hbm, 159, rfl⟩
abbrev main_call2_cst : Ref sig .tc := ⟨.hbm, 160, rfl⟩
abbrev main_call2_v0 : Ref sig .tc := ⟨.hbm, 161, rfl⟩
abbrev main_call2_v1 : Ref sig .tc := ⟨.hbm, 162, rfl⟩
abbrev main_call2_cst_0 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_v7 : Ref sig .tc := ⟨.hbm, 169, rfl⟩
abbrev main_call2_cst_1 : Ref sig .tc := ⟨.hbm, 170, rfl⟩
abbrev main_call2_v8 : Ref sig .tc := ⟨.hbm, 171, rfl⟩
abbrev main_call2_cst_2 : Ref sig .tc := ⟨.hbm, 172, rfl⟩
abbrev main_call2_v9 : Ref sig .tc := ⟨.hbm, 173, rfl⟩
abbrev main_call2_v10 : Ref sig .tc := ⟨.hbm, 174, rfl⟩
abbrev main_call2_v11 : Ref sig .tc := ⟨.hbm, 175, rfl⟩
abbrev main_call2_cst_3 : Ref sig .tc := ⟨.hbm, 176, rfl⟩
abbrev main_call2_v12 : Ref sig .tc := ⟨.hbm, 177, rfl⟩
abbrev main_call2_cst_4 : Ref sig .tc := ⟨.hbm, 178, rfl⟩
abbrev main_call2_call0_v0 : Ref sig .tc := ⟨.hbm, 179, rfl⟩
abbrev main_call2_call0_v1 : Ref sig .tc := ⟨.hbm, 180, rfl⟩
abbrev main_v87 : Ref sig .tc := ⟨.hbm, 181, rfl⟩
abbrev main_cst_15 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_cst_16 : Ref sig .tc := ⟨.hbm, 201, rfl⟩
abbrev main_v106 : Ref sig .tc := ⟨.hbm, 202, rfl⟩
abbrev main_cst_17 : Ref sig .tc := ⟨.hbm, 203, rfl⟩
abbrev main_v107 : Ref sig .tc := ⟨.hbm, 204, rfl⟩
abbrev main_v108 : Ref sig .tc := ⟨.hbm, 205, rfl⟩
abbrev main_c_18 : Ref sig .tc := ⟨.hbm, 206, rfl⟩
abbrev main_call3_cst : Ref sig .tc := ⟨.hbm, 207, rfl⟩
abbrev main_call3_v0 : Ref sig .tc := ⟨.hbm, 208, rfl⟩
abbrev main_call3_v1 : Ref sig .tc := ⟨.hbm, 209, rfl⟩
abbrev main_call3_cst_0 : Ref sig .tc := ⟨.hbm, 210, rfl⟩
abbrev main_call3_v2 : Ref sig .tc := ⟨.hbm, 211, rfl⟩
abbrev main_call3_v3 : Ref sig .tc := ⟨.hbm, 212, rfl⟩
abbrev main_call3_v4 : Ref sig .tc := ⟨.hbm, 213, rfl⟩
abbrev main_call3_v5 : Ref sig .tc := ⟨.hbm, 214, rfl⟩
abbrev main_call3_v6 : Ref sig .tc := ⟨.hbm, 215, rfl⟩
abbrev main_call3_v7 : Ref sig .tc := ⟨.hbm, 216, rfl⟩
abbrev main_call3_cst_1 : Ref sig .tc := ⟨.hbm, 217, rfl⟩
abbrev main_call3_v8 : Ref sig .tc := ⟨.hbm, 218, rfl⟩
abbrev main_call3_cst_2 : Ref sig .tc := ⟨.hbm, 219, rfl⟩
abbrev main_call3_v9 : Ref sig .tc := ⟨.hbm, 220, rfl⟩
abbrev main_call3_v10 : Ref sig .tc := ⟨.hbm, 221, rfl⟩
abbrev main_call3_v11 : Ref sig .tc := ⟨.hbm, 222, rfl⟩
abbrev main_call3_cst_3 : Ref sig .tc := ⟨.hbm, 223, rfl⟩
abbrev main_call3_v12 : Ref sig .tc := ⟨.hbm, 224, rfl⟩
abbrev main_call3_cst_4 : Ref sig .tc := ⟨.hbm, 225, rfl⟩
abbrev main_call3_call0_v0 : Ref sig .tc := ⟨.hbm, 226, rfl⟩
abbrev main_call3_call0_v1 : Ref sig .tc := ⟨.hbm, 227, rfl⟩
abbrev main_v109 : Ref sig .tc := ⟨.hbm, 228, rfl⟩
abbrev main_cst_19 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_c_20 : Ref sig .tc := ⟨.hbm, 243, rfl⟩
abbrev main_v123 : Ref sig .tc := ⟨.hbm, 244, rfl⟩
abbrev main_v124 : Ref sig .tc := ⟨.hbm, 245, rfl⟩
abbrev main_c_21 : Ref sig .tc := ⟨.hbm, 246, rfl⟩
abbrev main_v125 : Ref sig .tc := ⟨.hbm, 247, rfl⟩
abbrev main_v126 : Ref sig .tc := ⟨.hbm, 248, rfl⟩
abbrev main_v127 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_cst_22 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩
abbrev main_cst_23 : Ref sig .tc := ⟨.hbm, 265, rfl⟩
abbrev main_v142 : Ref sig .tc := ⟨.hbm, 266, rfl⟩
abbrev main_cst_24 : Ref sig .tc := ⟨.hbm, 267, rfl⟩
abbrev main_v143 : Ref sig .tc := ⟨.hbm, 268, rfl⟩
abbrev main_v144 : Ref sig .tc := ⟨.hbm, 269, rfl⟩
abbrev main_c_25 : Ref sig .tc := ⟨.hbm, 270, rfl⟩
abbrev main_call4_cst : Ref sig .tc := ⟨.hbm, 271, rfl⟩
abbrev main_call4_v0 : Ref sig .tc := ⟨.hbm, 272, rfl⟩
abbrev main_call4_v1 : Ref sig .tc := ⟨.hbm, 273, rfl⟩
abbrev main_call4_cst_0 : Ref sig .tc := ⟨.hbm, 274, rfl⟩
abbrev main_call4_v2 : Ref sig .tc := ⟨.hbm, 275, rfl⟩
abbrev main_call4_v3 : Ref sig .tc := ⟨.hbm, 276, rfl⟩
abbrev main_call4_v4 : Ref sig .tc := ⟨.hbm, 277, rfl⟩
abbrev main_call4_v5 : Ref sig .tc := ⟨.hbm, 278, rfl⟩
abbrev main_call4_v6 : Ref sig .tc := ⟨.hbm, 279, rfl⟩
abbrev main_call4_v7 : Ref sig .tc := ⟨.hbm, 280, rfl⟩
abbrev main_call4_cst_1 : Ref sig .tc := ⟨.hbm, 281, rfl⟩
abbrev main_call4_v8 : Ref sig .tc := ⟨.hbm, 282, rfl⟩
abbrev main_call4_cst_2 : Ref sig .tc := ⟨.hbm, 283, rfl⟩
abbrev main_call4_v9 : Ref sig .tc := ⟨.hbm, 284, rfl⟩
abbrev main_call4_v10 : Ref sig .tc := ⟨.hbm, 285, rfl⟩
abbrev main_call4_v11 : Ref sig .tc := ⟨.hbm, 286, rfl⟩
abbrev main_call4_cst_3 : Ref sig .tc := ⟨.hbm, 287, rfl⟩
abbrev main_call4_v12 : Ref sig .tc := ⟨.hbm, 288, rfl⟩
abbrev main_call4_cst_4 : Ref sig .tc := ⟨.hbm, 289, rfl⟩
abbrev main_call4_call0_v0 : Ref sig .tc := ⟨.hbm, 290, rfl⟩
abbrev main_call4_call0_v1 : Ref sig .tc := ⟨.hbm, 291, rfl⟩
abbrev main_v145 : Ref sig .tc := ⟨.hbm, 292, rfl⟩
abbrev main_cst_26 : Ref sig .tc := ⟨.hbm, 293, rfl⟩
abbrev main_v146 : Ref sig .tc := ⟨.hbm, 294, rfl⟩
abbrev main_v147 : Ref sig .tc := ⟨.hbm, 295, rfl⟩
abbrev main_v148 : Ref sig .tc := ⟨.hbm, 296, rfl⟩
abbrev main_v149 : Ref sig .tc := ⟨.hbm, 297, rfl⟩
abbrev main_v150 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_v156 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_v162 : Ref sig .tc := ⟨.hbm, 310, rfl⟩
abbrev main_v163 : Ref sig .tc := ⟨.hbm, 311, rfl⟩
abbrev main_cst_27 : Ref sig .tc := ⟨.hbm, 312, rfl⟩
abbrev main_v164 : Ref sig .tc := ⟨.hbm, 313, rfl⟩
abbrev main_cst_28 : Ref sig .tc := ⟨.hbm, 314, rfl⟩
abbrev main_v165 : Ref sig .tc := ⟨.hbm, 315, rfl⟩
abbrev main_v166 : Ref sig .tc := ⟨.hbm, 316, rfl⟩
abbrev main_c_29 : Ref sig .tc := ⟨.hbm, 317, rfl⟩
abbrev main_call5_cst : Ref sig .tc := ⟨.hbm, 318, rfl⟩
abbrev main_call5_v0 : Ref sig .tc := ⟨.hbm, 319, rfl⟩
abbrev main_call5_v1 : Ref sig .tc := ⟨.hbm, 320, rfl⟩
abbrev main_call5_cst_0 : Ref sig .tc := ⟨.hbm, 321, rfl⟩
abbrev main_call5_v2 : Ref sig .tc := ⟨.hbm, 322, rfl⟩
abbrev main_call5_v3 : Ref sig .tc := ⟨.hbm, 323, rfl⟩
abbrev main_call5_v4 : Ref sig .tc := ⟨.hbm, 324, rfl⟩
abbrev main_call5_v5 : Ref sig .tc := ⟨.hbm, 325, rfl⟩
abbrev main_call5_v6 : Ref sig .tc := ⟨.hbm, 326, rfl⟩
abbrev main_call5_v7 : Ref sig .tc := ⟨.hbm, 327, rfl⟩
abbrev main_call5_cst_1 : Ref sig .tc := ⟨.hbm, 328, rfl⟩
abbrev main_call5_v8 : Ref sig .tc := ⟨.hbm, 329, rfl⟩
abbrev main_call5_cst_2 : Ref sig .tc := ⟨.hbm, 330, rfl⟩
abbrev main_call5_v9 : Ref sig .tc := ⟨.hbm, 331, rfl⟩
abbrev main_call5_v10 : Ref sig .tc := ⟨.hbm, 332, rfl⟩
abbrev main_call5_v11 : Ref sig .tc := ⟨.hbm, 333, rfl⟩
abbrev main_call5_cst_3 : Ref sig .tc := ⟨.hbm, 334, rfl⟩
abbrev main_call5_v12 : Ref sig .tc := ⟨.hbm, 335, rfl⟩
abbrev main_call5_cst_4 : Ref sig .tc := ⟨.hbm, 336, rfl⟩
abbrev main_call5_call0_v0 : Ref sig .tc := ⟨.hbm, 337, rfl⟩
abbrev main_call5_call0_v1 : Ref sig .tc := ⟨.hbm, 338, rfl⟩
abbrev main_v167 : Ref sig .tc := ⟨.hbm, 339, rfl⟩
abbrev main_cst_30 : Ref sig .tc := ⟨.hbm, 340, rfl⟩
abbrev main_v168 : Ref sig .tc := ⟨.hbm, 341, rfl⟩
abbrev main_v169 : Ref sig .tc := ⟨.hbm, 342, rfl⟩
abbrev main_v170 : Ref sig .tc := ⟨.hbm, 343, rfl⟩
abbrev main_v171 : Ref sig .tc := ⟨.hbm, 344, rfl⟩
abbrev main_v172 : Ref sig .tc := ⟨.hbm, 345, rfl⟩
abbrev main_v173 : Ref sig .tc := ⟨.hbm, 346, rfl⟩
abbrev main_v174 : Ref sig .tc := ⟨.hbm, 347, rfl⟩
abbrev main_v175 : Ref sig .tc := ⟨.hbm, 348, rfl⟩
abbrev main_v176 : Ref sig .tc := ⟨.hbm, 349, rfl⟩
abbrev main_v177 : Ref sig .tc := ⟨.hbm, 350, rfl⟩
abbrev main_v178 : Ref sig .tc := ⟨.hbm, 351, rfl⟩
abbrev main_v179 : Ref sig .tc := ⟨.hbm, 352, rfl⟩
abbrev main_v180 : Ref sig .tc := ⟨.hbm, 353, rfl⟩
abbrev main_c_31 : Ref sig .tc := ⟨.hbm, 354, rfl⟩
abbrev main_v181 : Ref sig .tc := ⟨.hbm, 355, rfl⟩
abbrev main_v182 : Ref sig .tc := ⟨.hbm, 356, rfl⟩
abbrev main_c_32 : Ref sig .tc := ⟨.hbm, 357, rfl⟩
abbrev main_v183 : Ref sig .tc := ⟨.hbm, 358, rfl⟩
abbrev main_v184 : Ref sig .tc := ⟨.hbm, 359, rfl⟩
abbrev main_v185 : Ref sig .tc := ⟨.hbm, 360, rfl⟩
abbrev main_v186 : Ref sig .tc := ⟨.hbm, 361, rfl⟩
abbrev main_v187 : Ref sig .tc := ⟨.hbm, 362, rfl⟩
abbrev main_v188 : Ref sig .tc := ⟨.hbm, 363, rfl⟩
abbrev main_v189 : Ref sig .tc := ⟨.hbm, 364, rfl⟩
abbrev main_v190 : Ref sig .tc := ⟨.hbm, 365, rfl⟩
abbrev main_cst_33 : Ref sig .tc := ⟨.hbm, 366, rfl⟩
abbrev main_v191 : Ref sig .tc := ⟨.hbm, 367, rfl⟩
abbrev main_v192 : Ref sig .tc := ⟨.hbm, 368, rfl⟩
abbrev main_v193 : Ref sig .tc := ⟨.hbm, 369, rfl⟩
abbrev main_v194 : Ref sig .tc := ⟨.hbm, 370, rfl⟩
abbrev main_v195 : Ref sig .tc := ⟨.hbm, 371, rfl⟩
abbrev main_v196 : Ref sig .tc := ⟨.hbm, 372, rfl⟩
abbrev main_v197 : Ref sig .tc := ⟨.hbm, 373, rfl⟩
abbrev main_v198 : Ref sig .tc := ⟨.hbm, 374, rfl⟩
abbrev main_v199 : Ref sig .tc := ⟨.hbm, 375, rfl⟩
abbrev main_cst_34 : Ref sig .tc := ⟨.hbm, 376, rfl⟩
abbrev main_v200 : Ref sig .tc := ⟨.hbm, 377, rfl⟩
abbrev main_cst_35 : Ref sig .tc := ⟨.hbm, 378, rfl⟩
abbrev main_v201 : Ref sig .tc := ⟨.hbm, 379, rfl⟩
abbrev main_v202 : Ref sig .tc := ⟨.hbm, 380, rfl⟩
abbrev main_c_36 : Ref sig .tc := ⟨.hbm, 381, rfl⟩
abbrev main_call6_cst : Ref sig .tc := ⟨.hbm, 382, rfl⟩
abbrev main_call6_v0 : Ref sig .tc := ⟨.hbm, 383, rfl⟩
abbrev main_call6_v1 : Ref sig .tc := ⟨.hbm, 384, rfl⟩
abbrev main_call6_cst_0 : Ref sig .tc := ⟨.hbm, 385, rfl⟩
abbrev main_call6_v2 : Ref sig .tc := ⟨.hbm, 386, rfl⟩
abbrev main_call6_v3 : Ref sig .tc := ⟨.hbm, 387, rfl⟩
abbrev main_call6_v4 : Ref sig .tc := ⟨.hbm, 388, rfl⟩
abbrev main_call6_v5 : Ref sig .tc := ⟨.hbm, 389, rfl⟩
abbrev main_call6_v6 : Ref sig .tc := ⟨.hbm, 390, rfl⟩
abbrev main_call6_v7 : Ref sig .tc := ⟨.hbm, 391, rfl⟩
abbrev main_call6_cst_1 : Ref sig .tc := ⟨.hbm, 392, rfl⟩
abbrev main_call6_v8 : Ref sig .tc := ⟨.hbm, 393, rfl⟩
abbrev main_call6_cst_2 : Ref sig .tc := ⟨.hbm, 394, rfl⟩
abbrev main_call6_v9 : Ref sig .tc := ⟨.hbm, 395, rfl⟩
abbrev main_call6_v10 : Ref sig .tc := ⟨.hbm, 396, rfl⟩
abbrev main_call6_v11 : Ref sig .tc := ⟨.hbm, 397, rfl⟩
abbrev main_call6_cst_3 : Ref sig .tc := ⟨.hbm, 398, rfl⟩
abbrev main_call6_v12 : Ref sig .tc := ⟨.hbm, 399, rfl⟩
abbrev main_call6_cst_4 : Ref sig .tc := ⟨.hbm, 400, rfl⟩
abbrev main_call6_call0_v0 : Ref sig .tc := ⟨.hbm, 401, rfl⟩
abbrev main_call6_call0_v1 : Ref sig .tc := ⟨.hbm, 402, rfl⟩
abbrev main_v203 : Ref sig .tc := ⟨.hbm, 403, rfl⟩
abbrev main_cst_37 : Ref sig .tc := ⟨.hbm, 404, rfl⟩
abbrev main_v204 : Ref sig .tc := ⟨.hbm, 405, rfl⟩
abbrev main_v205 : Ref sig .tc := ⟨.hbm, 406, rfl⟩
abbrev main_v206 : Ref sig .tc := ⟨.hbm, 407, rfl⟩
abbrev main_v207 : Ref sig .tc := ⟨.hbm, 408, rfl⟩
abbrev main_v208 : Ref sig .tc := ⟨.hbm, 409, rfl⟩
abbrev main_v209 : Ref sig .tc := ⟨.hbm, 410, rfl⟩
abbrev main_v210 : Ref sig .tc := ⟨.hbm, 411, rfl⟩
abbrev main_v211 : Ref sig .tc := ⟨.hbm, 412, rfl⟩
abbrev main_v212 : Ref sig .tc := ⟨.hbm, 413, rfl⟩
abbrev main_v213 : Ref sig .tc := ⟨.hbm, 414, rfl⟩
abbrev main_v214 : Ref sig .tc := ⟨.hbm, 415, rfl⟩
abbrev main_v215 : Ref sig .tc := ⟨.hbm, 416, rfl⟩
abbrev main_v216 : Ref sig .tc := ⟨.hbm, 417, rfl⟩
abbrev main_v217 : Ref sig .tc := ⟨.hbm, 418, rfl⟩
abbrev main_v218 : Ref sig .tc := ⟨.hbm, 419, rfl⟩
abbrev main_v219 : Ref sig .tc := ⟨.hbm, 420, rfl⟩
abbrev main_v220 : Ref sig .tc := ⟨.hbm, 421, rfl⟩
abbrev main_v221 : Ref sig .tc := ⟨.hbm, 422, rfl⟩
abbrev main_cst_38 : Ref sig .tc := ⟨.hbm, 423, rfl⟩
abbrev main_v222 : Ref sig .tc := ⟨.hbm, 424, rfl⟩
abbrev main_cst_39 : Ref sig .tc := ⟨.hbm, 425, rfl⟩
abbrev main_v223 : Ref sig .tc := ⟨.hbm, 426, rfl⟩
abbrev main_v224 : Ref sig .tc := ⟨.hbm, 427, rfl⟩
abbrev main_c_40 : Ref sig .tc := ⟨.hbm, 428, rfl⟩
abbrev main_call7_cst : Ref sig .tc := ⟨.hbm, 429, rfl⟩
abbrev main_call7_v0 : Ref sig .tc := ⟨.hbm, 430, rfl⟩
abbrev main_call7_v1 : Ref sig .tc := ⟨.hbm, 431, rfl⟩
abbrev main_call7_cst_0 : Ref sig .tc := ⟨.hbm, 432, rfl⟩
abbrev main_call7_v2 : Ref sig .tc := ⟨.hbm, 433, rfl⟩
abbrev main_call7_v3 : Ref sig .tc := ⟨.hbm, 434, rfl⟩
abbrev main_call7_v4 : Ref sig .tc := ⟨.hbm, 435, rfl⟩
abbrev main_call7_v5 : Ref sig .tc := ⟨.hbm, 436, rfl⟩
abbrev main_call7_v6 : Ref sig .tc := ⟨.hbm, 437, rfl⟩
abbrev main_call7_v7 : Ref sig .tc := ⟨.hbm, 438, rfl⟩
abbrev main_call7_cst_1 : Ref sig .tc := ⟨.hbm, 439, rfl⟩
abbrev main_call7_v8 : Ref sig .tc := ⟨.hbm, 440, rfl⟩
abbrev main_call7_cst_2 : Ref sig .tc := ⟨.hbm, 441, rfl⟩
abbrev main_call7_v9 : Ref sig .tc := ⟨.hbm, 442, rfl⟩
abbrev main_call7_v10 : Ref sig .tc := ⟨.hbm, 443, rfl⟩
abbrev main_call7_v11 : Ref sig .tc := ⟨.hbm, 444, rfl⟩
abbrev main_call7_cst_3 : Ref sig .tc := ⟨.hbm, 445, rfl⟩
abbrev main_call7_v12 : Ref sig .tc := ⟨.hbm, 446, rfl⟩
abbrev main_call7_cst_4 : Ref sig .tc := ⟨.hbm, 447, rfl⟩
abbrev main_call7_call0_v0 : Ref sig .tc := ⟨.hbm, 448, rfl⟩
abbrev main_call7_call0_v1 : Ref sig .tc := ⟨.hbm, 449, rfl⟩
abbrev main_v225 : Ref sig .tc := ⟨.hbm, 450, rfl⟩
abbrev main_cst_41 : Ref sig .tc := ⟨.hbm, 451, rfl⟩
abbrev main_v226 : Ref sig .tc := ⟨.hbm, 452, rfl⟩
abbrev main_v227 : Ref sig .tc := ⟨.hbm, 453, rfl⟩
abbrev main_v228 : Ref sig .tc := ⟨.hbm, 454, rfl⟩
abbrev main_v229 : Ref sig .tc := ⟨.hbm, 455, rfl⟩
abbrev main_v230 : Ref sig .tc := ⟨.hbm, 456, rfl⟩
abbrev main_v231 : Ref sig .tc := ⟨.hbm, 457, rfl⟩
abbrev main_v232 : Ref sig .tc := ⟨.hbm, 458, rfl⟩
abbrev main_v233 : Ref sig .tc := ⟨.hbm, 459, rfl⟩
abbrev main_v234 : Ref sig .tc := ⟨.hbm, 460, rfl⟩
abbrev main_v235 : Ref sig .tc := ⟨.hbm, 461, rfl⟩
abbrev main_v236 : Ref sig .tc := ⟨.hbm, 462, rfl⟩
abbrev main_v237 : Ref sig .tc := ⟨.hbm, 463, rfl⟩
abbrev main_v238 : Ref sig .tc := ⟨.hbm, 464, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg4_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg4_0 : Ref sig .tc := ⟨.vmem, 67, rfl⟩
abbrev cc8_stg5_0 : Ref sig .tc := ⟨.vmem, 68, rfl⟩
abbrev cc8_stg5_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg2_0 : Ref sig .tc := ⟨.vmem, 73, rfl⟩
abbrev cc9_stg3_0 : Ref sig .tc := ⟨.vmem, 74, rfl⟩
abbrev cc9_stg3_1 : Ref sig .tc := ⟨.vmem, 75, rfl⟩
abbrev cc9_stg4_0 : Ref sig .tc := ⟨.vmem, 76, rfl⟩
abbrev cc9_stg4_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg1_1 : Ref sig .tc := ⟨.vmem, 81, rfl⟩
abbrev cc10_stg2_0 : Ref sig .tc := ⟨.vmem, 82, rfl⟩
abbrev cc10_stg3_0 : Ref sig .tc := ⟨.vmem, 83, rfl⟩
abbrev cc10_stg4_0 : Ref sig .tc := ⟨.vmem, 84, rfl⟩
abbrev cc10_stg4_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg2_0 : Ref sig .tc := ⟨.vmem, 89, rfl⟩
abbrev cc11_stg3_0 : Ref sig .tc := ⟨.vmem, 90, rfl⟩
abbrev cc11_stg4_0 : Ref sig .tc := ⟨.vmem, 91, rfl⟩
abbrev cc11_stg5_0 : Ref sig .tc := ⟨.vmem, 92, rfl⟩
abbrev cc11_stg5_1 : Ref sig .tc := ⟨.vmem, 93, rfl⟩
abbrev cc12_stg0_0 : Ref sig .tc := ⟨.vmem, 94, rfl⟩
abbrev cc12_stg0_1 : Ref sig .tc := ⟨.vmem, 95, rfl⟩
abbrev cc12_stg1_0 : Ref sig .tc := ⟨.vmem, 96, rfl⟩
abbrev cc12_stg2_0 : Ref sig .tc := ⟨.vmem, 97, rfl⟩
abbrev cc12_stg3_0 : Ref sig .tc := ⟨.vmem, 98, rfl⟩
abbrev cc12_stg3_1 : Ref sig .tc := ⟨.vmem, 99, rfl⟩
abbrev cc12_stg4_0 : Ref sig .tc := ⟨.vmem, 100, rfl⟩
abbrev cc12_stg4_1 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem3_1 : DmaSem sig := 51
abbrev cc6_sem4_0 : DmaSem sig := 52
abbrev cc6_sem4_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem4_1 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem3_0 : DmaSem sig := 66
abbrev cc8_sem4_0 : DmaSem sig := 67
abbrev cc8_sem5_0 : DmaSem sig := 68
abbrev cc8_sem5_1 : DmaSem sig := 69
abbrev cc9_sem0_0 : DmaSem sig := 70
abbrev cc9_sem0_1 : DmaSem sig := 71
abbrev cc9_sem1_0 : DmaSem sig := 72
abbrev cc9_sem2_0 : DmaSem sig := 73
abbrev cc9_sem3_0 : DmaSem sig := 74
abbrev cc9_sem3_1 : DmaSem sig := 75
abbrev cc9_sem4_0 : DmaSem sig := 76
abbrev cc9_sem4_1 : DmaSem sig := 77
abbrev cc10_sem0_0 : DmaSem sig := 78
abbrev cc10_sem0_1 : DmaSem sig := 79
abbrev cc10_sem1_0 : DmaSem sig := 80
abbrev cc10_sem1_1 : DmaSem sig := 81
abbrev cc10_sem2_0 : DmaSem sig := 82
abbrev cc10_sem3_0 : DmaSem sig := 83
abbrev cc10_sem4_0 : DmaSem sig := 84
abbrev cc10_sem4_1 : DmaSem sig := 85
abbrev cc11_sem0_0 : DmaSem sig := 86
abbrev cc11_sem0_1 : DmaSem sig := 87
abbrev cc11_sem1_0 : DmaSem sig := 88
abbrev cc11_sem2_0 : DmaSem sig := 89
abbrev cc11_sem3_0 : DmaSem sig := 90
abbrev cc11_sem4_0 : DmaSem sig := 91
abbrev cc11_sem5_0 : DmaSem sig := 92
abbrev cc11_sem5_1 : DmaSem sig := 93
abbrev cc12_sem0_0 : DmaSem sig := 94
abbrev cc12_sem0_1 : DmaSem sig := 95
abbrev cc12_sem1_0 : DmaSem sig := 96
abbrev cc12_sem2_0 : DmaSem sig := 97
abbrev cc12_sem3_0 : DmaSem sig := 98
abbrev cc12_sem3_1 : DmaSem sig := 99
abbrev cc12_sem4_0 : DmaSem sig := 100
abbrev cc12_sem4_1 : DmaSem sig := 101

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S5000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S5000x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

class Facts₀ : Prop where
  shapeCasts_S50000x1x64_S50000x64 : S50000x1x64.ShapeCasts S50000x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S64x64_S64x64 : S64x64.ShapeCasts S64x64
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S50000x64.size a
  hwx6_4 : ∀ i : grid6.Coords, EltTy.bits .f32 = 32 ∨ (Rect.block (s := S50000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S50000x64.size a
  hwx7_4 : ∀ i : grid7.Coords, EltTy.bits .f32 = 32 ∨ (Rect.block (s := S50000x64) S5000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S50000x64.size a
  hwx8_5 : ∀ i : grid8.Coords, EltTy.bits .f32 = 32 ∨ (Rect.block (s := S50000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S50000x64.size a
  hwx9_3 : ∀ i : grid9.Coords, EltTy.bits .f32 = 32 ∨ (Rect.block (s := S50000x64) S5000x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x64.size a ≤ S50000x64.size a
  hwx9_4 : ∀ i : grid9.Coords, EltTy.bits .f32 = 32 ∨ (Rect.block (s := S50000x64) S5000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S50000x64.size a
  hwx10_1 : ∀ i : grid10.Coords, EltTy.bits .f32 = 32 ∨ (Rect.block (s := S50000x64) S5000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x64.size a ≤ S64x64.size a
  hwx10_2 : ∀ i : grid10.Coords, EltTy.bits .f32 = 32 ∨ (Rect.block (s := S64x64) S64x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x64.size a ≤ S50000x64.size a
  hwx10_4 : ∀ i : grid10.Coords, EltTy.bits .f32 = 32 ∨ (Rect.block (s := S50000x64) S5000x64.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S50000x64.size a
  hwx11_5 : ∀ i : grid11.Coords, EltTy.bits .f32 = 32 ∨ (Rect.block (s := S50000x64) S5000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x64.size a ≤ S1x64.size a
  hwx12_1 : ∀ i : grid12.Coords, EltTy.bits .f32 = 32 ∨ (Rect.block (s := S1x64) S1x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x64.size a ≤ S50000x64.size a
  hwx12_3 : ∀ i : grid12.Coords, EltTy.bits .f32 = 32 ∨ (Rect.block (s := S50000x64) S5000x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x64.size a ≤ S50000x64.size a
  hwx12_4 : ∀ i : grid12.Coords, EltTy.bits .f32 = 32 ∨ (Rect.block (s := S50000x64) S5000x64.size (cc12_transform_4 i) (hinb12_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v64) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v77) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v83) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v105) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v120) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v121) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v64) S5000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v122) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v135) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v122) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v137) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v140) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v141) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v141) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v160) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v161) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v157) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v162) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v163) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v163) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v178) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v179) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v122) S5000x64.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v180) S5000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v193) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v180) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v195) S64x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v198) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v199) S5000x64.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v199) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v218) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v219) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v215) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v220) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v221) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v221) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v236) S1x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v237) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v180) S5000x64.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v238) S5000x64.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

class Facts : Prop extends Facts₀ where

variable [Facts]
-- ==== ReferenceIdeal.lean ====
abbrev S50000x1x64 : Shape := ⟨3, ![50000, 1, 64]⟩
abbrev S2x800000 : Shape := ⟨2, ![2, 800000]⟩
abbrev S800000x3 : Shape := ⟨2, ![800000, 3]⟩
abbrev S800000 : Shape := ⟨1, ![800000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S50000x64 : Shape := ⟨2, ![50000, 64]⟩
abbrev S1x64 : Shape := ⟨2, ![1, 64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩

abbrev nBuf : Space → Nat
  | .hbm => 567
  | .vmem => 0
  | .smem => 0
  | _ => 0

abbrev hbmTy0_0 (i : Nat) : BufTy := match i % 128 with
  | 0 => ⟨S50000x1x64, .f32⟩
  | 1 => ⟨S2x800000, .i32⟩
  | 2 => ⟨S800000x3, .f32⟩
  | 3 => ⟨S800000, .f32⟩
  | 4 => ⟨S64x64, .f32⟩
  | 5 => ⟨S64, .f32⟩
  | 6 => ⟨S4x64x64, .f32⟩
  | 7 => ⟨S4x64, .f32⟩
  | 8 => ⟨S4x64, .f32⟩
  | 9 => ⟨S4x64, .f32⟩
  | 10 => ⟨S4x64x64, .f32⟩
  | 11 => ⟨S4x64, .f32⟩
  | 12 => ⟨S4x64, .f32⟩
  | 13 => ⟨S4x64, .f32⟩
  | 14 => ⟨S50000x64, .f32⟩
  | 15 => ⟨S50000x64, .f32⟩
  | 16 => ⟨S1x64, .f32⟩
  | 17 => ⟨S50000x64, .f32⟩
  | 18 => ⟨S50000x64, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x1, .f32⟩
  | 33 => ⟨S800000x64, .f32⟩
  | 34 => ⟨S800000x64, .f32⟩
  | 35 => ⟨S_, .f32⟩
  | 36 => ⟨S50000x64, .f32⟩
  | 37 => ⟨S800000x1, .i32⟩
  | 38 => ⟨S50000x64, .f32⟩
  | 39 => ⟨S50000x64, .f32⟩
  | 40 => ⟨S1x64x64, .f32⟩
  | 41 => ⟨S64x64, .f32⟩
  | 42 => ⟨S50000x64, .f32⟩
  | 43 => ⟨S1x64, .f32⟩
  | 44 => ⟨S64, .f32⟩
  | 45 => ⟨S1x64, .f32⟩
  | 46 => ⟨S50000x64, .f32⟩
  | 47 => ⟨S50000x64, .f32⟩
  | 48 => ⟨S1x64, .f32⟩
  | 49 => ⟨S64, .f32⟩
  | 50 => ⟨S1x64, .f32⟩
  | 51 => ⟨S64, .f32⟩
  | 52 => ⟨S_, .f32⟩
  | 53 => ⟨S64, .f32⟩
  | 54 => ⟨S_, .f32⟩
  | 55 => ⟨S64, .f32⟩
  | 56 => ⟨S64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S50000x64, .f32⟩
  | 65 => ⟨S50000x64, .f32⟩
  | 66 => ⟨S50000x64, .f32⟩
  | 67 => ⟨S_, .f32⟩
  | 68 => ⟨S_, .f32⟩
  | 69 => ⟨S_, .f32⟩
  | 70 => ⟨S_, .f32⟩
  | 71 => ⟨S64, .f32⟩
  | 72 => ⟨S64, .f32⟩
  | 73 => ⟨S64, .f32⟩
  | 74 => ⟨S_, .f32⟩
  | 75 => ⟨S_, .i1⟩
  | 76 => ⟨S_, .f32⟩
  | 77 => ⟨S_, .f32⟩
  | 78 => ⟨S64, .f32⟩
  | 79 => ⟨S64, .f32⟩
  | 80 => ⟨S1x64, .f32⟩
  | 81 => ⟨S50000x64, .f32⟩
  | 82 => ⟨S50000x64, .f32⟩
  | 83 => ⟨S_, .f32⟩
  | 84 => ⟨S64, .f32⟩
  | 85 => ⟨S64, .f32⟩
  | 86 => ⟨S64, .f32⟩
  | 87 => ⟨S1x64, .f32⟩
  | 88 => ⟨S50000x64, .f32⟩
  | 89 => ⟨S50000x64, .f32⟩
  | 90 => ⟨S1x64, .f32⟩
  | 91 => ⟨S50000x64, .f32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S1x64x64, .f32⟩
  | 100 => ⟨S64x64, .f32⟩
  | 101 => ⟨S50000x64, .f32⟩
  | 102 => ⟨S1x64, .f32⟩
  | 103 => ⟨S64, .f32⟩
  | 104 => ⟨S1x64, .f32⟩
  | 105 => ⟨S50000x64, .f32⟩
  | 106 => ⟨S50000x64, .f32⟩
  | 107 => ⟨S1x64, .f32⟩
  | 108 => ⟨S64, .f32⟩
  | 109 => ⟨S1x64, .f32⟩
  | 110 => ⟨S64, .f32⟩
  | 111 => ⟨S_, .f32⟩
  | 112 => ⟨S64, .f32⟩
  | 113 => ⟨S_, .f32⟩
  | 114 => ⟨S64, .f32⟩
  | 115 => ⟨S64, .f32⟩
  | 116 => ⟨S_, .i32⟩
  | 117 => ⟨S_, .f32⟩
  | 118 => ⟨S64, .f32⟩
  | 119 => ⟨S1x64, .f32⟩
  | 120 => ⟨S_, .f32⟩
  | 121 => ⟨S1x64, .f32⟩
  | 122 => ⟨S1x64, .f32⟩
  | 123 => ⟨S50000x64, .f32⟩
  | 124 => ⟨S50000x64, .f32⟩
  | 125 => ⟨S50000x64, .f32⟩
  | 126 => ⟨S_, .f32⟩
  | 127 => ⟨S_, .f32⟩
  | _ => ⟨S50000x1x64, .f32⟩

abbrev hbmTy0_1 (i : Nat) : BufTy := match i % 128 with
  | 0 => ⟨S_, .f32⟩
  | 1 => ⟨S_, .f32⟩
  | 2 => ⟨S64, .f32⟩
  | 3 => ⟨S64, .f32⟩
  | 4 => ⟨S64, .f32⟩
  | 5 => ⟨S_, .f32⟩
  | 6 => ⟨S_, .i1⟩
  | 7 => ⟨S_, .f32⟩
  | 8 => ⟨S_, .f32⟩
  | 9 => ⟨S64, .f32⟩
  | 10 => ⟨S64, .f32⟩
  | 11 => ⟨S1x64, .f32⟩
  | 12 => ⟨S50000x64, .f32⟩
  | 13 => ⟨S50000x64, .f32⟩
  | 14 => ⟨S_, .f32⟩
  | 15 => ⟨S64, .f32⟩
  | 16 => ⟨S64, .f32⟩
  | 17 => ⟨S64, .f32⟩
  | 18 => ⟨S1x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S1x64, .f32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S50000x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S800000x1, .f32⟩
  | 41 => ⟨S800000x64, .f32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S50000x64, .f32⟩
  | 48 => ⟨S1x64x64, .f32⟩
  | 49 => ⟨S64x64, .f32⟩
  | 50 => ⟨S50000x64, .f32⟩
  | 51 => ⟨S1x64, .f32⟩
  | 52 => ⟨S64, .f32⟩
  | 53 => ⟨S1x64, .f32⟩
  | 54 => ⟨S50000x64, .f32⟩
  | 55 => ⟨S50000x64, .f32⟩
  | 56 => ⟨S1x64, .f32⟩
  | 57 => ⟨S64, .f32⟩
  | 58 => ⟨S1x64, .f32⟩
  | 59 => ⟨S64, .f32⟩
  | 60 => ⟨S_, .f32⟩
  | 61 => ⟨S64, .f32⟩
  | 62 => ⟨S_, .f32⟩
  | 63 => ⟨S64, .f32⟩
  | 64 => ⟨S64, .f32⟩
  | 65 => ⟨S_, .i32⟩
  | 66 => ⟨S_, .f32⟩
  | 67 => ⟨S64, .f32⟩
  | 68 => ⟨S1x64, .f32⟩
  | 69 => ⟨S_, .f32⟩
  | 70 => ⟨S1x64, .f32⟩
  | 71 => ⟨S1x64, .f32⟩
  | 72 => ⟨S50000x64, .f32⟩
  | 73 => ⟨S50000x64, .f32⟩
  | 74 => ⟨S50000x64, .f32⟩
  | 75 => ⟨S_, .f32⟩
  | 76 => ⟨S_, .f32⟩
  | 77 => ⟨S_, .f32⟩
  | 78 => ⟨S_, .f32⟩
  | 79 => ⟨S64, .f32⟩
  | 80 => ⟨S64, .f32⟩
  | 81 => ⟨S64, .f32⟩
  | 82 => ⟨S_, .f32⟩
  | 83 => ⟨S_, .i1⟩
  | 84 => ⟨S_, .f32⟩
  | 85 => ⟨S_, .f32⟩
  | 86 => ⟨S64, .f32⟩
  | 87 => ⟨S64, .f32⟩
  | 88 => ⟨S1x64, .f32⟩
  | 89 => ⟨S50000x64, .f32⟩
  | 90 => ⟨S50000x64, .f32⟩
  | 91 => ⟨S_, .f32⟩
  | 92 => ⟨S64, .f32⟩
  | 93 => ⟨S64, .f32⟩
  | 94 => ⟨S64, .f32⟩
  | 95 => ⟨S1x64, .f32⟩
  | 96 => ⟨S50000x64, .f32⟩
  | 97 => ⟨S50000x64, .f32⟩
  | 98 => ⟨S1x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S1x64x64, .f32⟩
  | 108 => ⟨S64x64, .f32⟩
  | 109 => ⟨S50000x64, .f32⟩
  | 110 => ⟨S1x64, .f32⟩
  | 111 => ⟨S64, .f32⟩
  | 112 => ⟨S1x64, .f32⟩
  | 113 => ⟨S50000x64, .f32⟩
  | 114 => ⟨S50000x64, .f32⟩
  | 115 => ⟨S1x64, .f32⟩
  | 116 => ⟨S64, .f32⟩
  | 117 => ⟨S1x64, .f32⟩
  | 118 => ⟨S64, .f32⟩
  | 119 => ⟨S_, .f32⟩
  | 120 => ⟨S64, .f32⟩
  | 121 => ⟨S_, .f32⟩
  | 122 => ⟨S64, .f32⟩
  | 123 => ⟨S64, .f32⟩
  | 124 => ⟨S_, .i32⟩
  | 125 => ⟨S_, .f32⟩
  | 126 => ⟨S64, .f32⟩
  | 127 => ⟨S1x64, .f32⟩
  | _ => ⟨S50000x1x64, .f32⟩

abbrev hbmTy0_2 (i : Nat) : BufTy := match i % 128 with
  | 0 => ⟨S_, .f32⟩
  | 1 => ⟨S1x64, .f32⟩
  | 2 => ⟨S1x64, .f32⟩
  | 3 => ⟨S50000x64, .f32⟩
  | 4 => ⟨S50000x64, .f32⟩
  | 5 => ⟨S50000x64, .f32⟩
  | 6 => ⟨S_, .f32⟩
  | 7 => ⟨S_, .f32⟩
  | 8 => ⟨S_, .f32⟩
  | 9 => ⟨S_, .f32⟩
  | 10 => ⟨S64, .f32⟩
  | 11 => ⟨S64, .f32⟩
  | 12 => ⟨S64, .f32⟩
  | 13 => ⟨S_, .f32⟩
  | 14 => ⟨S_, .i1⟩
  | 15 => ⟨S_, .f32⟩
  | 16 => ⟨S_, .f32⟩
  | 17 => ⟨S64, .f32⟩
  | 18 => ⟨S64, .f32⟩
  | 19 => ⟨S1x64, .f32⟩
  | 20 => ⟨S50000x64, .f32⟩
  | 21 => ⟨S50000x64, .f32⟩
  | 22 => ⟨S_, .f32⟩
  | 23 => ⟨S64, .f32⟩
  | 24 => ⟨S64, .f32⟩
  | 25 => ⟨S64, .f32⟩
  | 26 => ⟨S1x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S50000x64, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S800000x1, .f32⟩
  | 49 => ⟨S800000x64, .f32⟩
  | 50 => ⟨S800000x64, .f32⟩
  | 51 => ⟨S_, .f32⟩
  | 52 => ⟨S50000x64, .f32⟩
  | 53 => ⟨S800000x1, .i32⟩
  | 54 => ⟨S50000x64, .f32⟩
  | 55 => ⟨S50000x64, .f32⟩
  | 56 => ⟨S1x64x64, .f32⟩
  | 57 => ⟨S64x64, .f32⟩
  | 58 => ⟨S50000x64, .f32⟩
  | 59 => ⟨S1x64, .f32⟩
  | 60 => ⟨S64, .f32⟩
  | 61 => ⟨S1x64, .f32⟩
  | 62 => ⟨S50000x64, .f32⟩
  | 63 => ⟨S50000x64, .f32⟩
  | 64 => ⟨S1x64, .f32⟩
  | 65 => ⟨S64, .f32⟩
  | 66 => ⟨S1x64, .f32⟩
  | 67 => ⟨S64, .f32⟩
  | 68 => ⟨S_, .f32⟩
  | 69 => ⟨S64, .f32⟩
  | 70 => ⟨S_, .f32⟩
  | 71 => ⟨S64, .f32⟩
  | 72 => ⟨S64, .f32⟩
  | 73 => ⟨S_, .i32⟩
  | 74 => ⟨S_, .f32⟩
  | 75 => ⟨S64, .f32⟩
  | 76 => ⟨S1x64, .f32⟩
  | 77 => ⟨S_, .f32⟩
  | 78 => ⟨S1x64, .f32⟩
  | 79 => ⟨S1x64, .f32⟩
  | 80 => ⟨S50000x64, .f32⟩
  | 81 => ⟨S50000x64, .f32⟩
  | 82 => ⟨S50000x64, .f32⟩
  | 83 => ⟨S_, .f32⟩
  | 84 => ⟨S_, .f32⟩
  | 85 => ⟨S_, .f32⟩
  | 86 => ⟨S_, .f32⟩
  | 87 => ⟨S64, .f32⟩
  | 88 => ⟨S64, .f32⟩
  | 89 => ⟨S64, .f32⟩
  | 90 => ⟨S_, .f32⟩
  | 91 => ⟨S_, .i1⟩
  | 92 => ⟨S_, .f32⟩
  | 93 => ⟨S_, .f32⟩
  | 94 => ⟨S64, .f32⟩
  | 95 => ⟨S64, .f32⟩
  | 96 => ⟨S1x64, .f32⟩
  | 97 => ⟨S50000x64, .f32⟩
  | 98 => ⟨S50000x64, .f32⟩
  | 99 => ⟨S_, .f32⟩
  | 100 => ⟨S64, .f32⟩
  | 101 => ⟨S64, .f32⟩
  | 102 => ⟨S64, .f32⟩
  | 103 => ⟨S1x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S1x64x64, .f32⟩
  | 116 => ⟨S64x64, .f32⟩
  | 117 => ⟨S50000x64, .f32⟩
  | 118 => ⟨S1x64, .f32⟩
  | 119 => ⟨S64, .f32⟩
  | 120 => ⟨S1x64, .f32⟩
  | 121 => ⟨S50000x64, .f32⟩
  | 122 => ⟨S50000x64, .f32⟩
  | 123 => ⟨S1x64, .f32⟩
  | 124 => ⟨S64, .f32⟩
  | 125 => ⟨S1x64, .f32⟩
  | 126 => ⟨S64, .f32⟩
  | 127 => ⟨S_, .f32⟩
  | _ => ⟨S50000x1x64, .f32⟩

abbrev hbmTy0_3 (i : Nat) : BufTy := match i % 128 with
  | 0 => ⟨S64, .f32⟩
  | 1 => ⟨S_, .f32⟩
  | 2 => ⟨S64, .f32⟩
  | 3 => ⟨S64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S50000x64, .f32⟩
  | 12 => ⟨S50000x64, .f32⟩
  | 13 => ⟨S50000x64, .f32⟩
  | 14 => ⟨S_, .f32⟩
  | 15 => ⟨S_, .f32⟩
  | 16 => ⟨S_, .f32⟩
  | 17 => ⟨S_, .f32⟩
  | 18 => ⟨S64, .f32⟩
  | 19 => ⟨S64, .f32⟩
  | 20 => ⟨S64, .f32⟩
  | 21 => ⟨S_, .f32⟩
  | 22 => ⟨S_, .i1⟩
  | 23 => ⟨S_, .f32⟩
  | 24 => ⟨S_, .f32⟩
  | 25 => ⟨S64, .f32⟩
  | 26 => ⟨S64, .f32⟩
  | 27 => ⟨S1x64, .f32⟩
  | 28 => ⟨S50000x64, .f32⟩
  | 29 => ⟨S50000x64, .f32⟩
  | 30 => ⟨S_, .f32⟩
  | 31 => ⟨S64, .f32⟩
  | 32 => ⟨S64, .f32⟩
  | 33 => ⟨S64, .f32⟩
  | 34 => ⟨S1x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S50000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S800000x1, .f32⟩
  | 57 => ⟨S800000x64, .f32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S50000x64, .f32⟩
  | 64 => ⟨S1x64x64, .f32⟩
  | 65 => ⟨S64x64, .f32⟩
  | 66 => ⟨S50000x64, .f32⟩
  | 67 => ⟨S1x64, .f32⟩
  | 68 => ⟨S64, .f32⟩
  | 69 => ⟨S1x64, .f32⟩
  | 70 => ⟨S50000x64, .f32⟩
  | 71 => ⟨S50000x64, .f32⟩
  | 72 => ⟨S1x64, .f32⟩
  | 73 => ⟨S64, .f32⟩
  | 74 => ⟨S1x64, .f32⟩
  | 75 => ⟨S64, .f32⟩
  | 76 => ⟨S_, .f32⟩
  | 77 => ⟨S64, .f32⟩
  | 78 => ⟨S_, .f32⟩
  | 79 => ⟨S64, .f32⟩
  | 80 => ⟨S64, .f32⟩
  | 81 => ⟨S_, .i32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S50000x64, .f32⟩
  | 89 => ⟨S50000x64, .f32⟩
  | 90 => ⟨S50000x64, .f32⟩
  | 91 => ⟨S_, .f32⟩
  | 92 => ⟨S_, .f32⟩
  | 93 => ⟨S_, .f32⟩
  | 94 => ⟨S_, .f32⟩
  | 95 => ⟨S64, .f32⟩
  | 96 => ⟨S64, .f32⟩
  | 97 => ⟨S64, .f32⟩
  | 98 => ⟨S_, .f32⟩
  | 99 => ⟨S_, .i1⟩
  | 100 => ⟨S_, .f32⟩
  | 101 => ⟨S_, .f32⟩
  | 102 => ⟨S64, .f32⟩
  | 103 => ⟨S64, .f32⟩
  | 104 => ⟨S1x64, .f32⟩
  | 105 => ⟨S50000x64, .f32⟩
  | 106 => ⟨S50000x64, .f32⟩
  | 107 => ⟨S_, .f32⟩
  | 108 => ⟨S64, .f32⟩
  | 109 => ⟨S64, .f32⟩
  | 110 => ⟨S64, .f32⟩
  | 111 => ⟨S1x64, .f32⟩
  | 112 => ⟨S50000x64, .f32⟩
  | 113 => ⟨S50000x64, .f32⟩
  | 114 => ⟨S1x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S1x64x64, .f32⟩
  | 124 => ⟨S64x64, .f32⟩
  | 125 => ⟨S50000x64, .f32⟩
  | 126 => ⟨S1x64, .f32⟩
  | 127 => ⟨S64, .f32⟩
  | _ => ⟨S50000x1x64, .f32⟩

abbrev hbmTy0_4 (i : Nat) : BufTy := match i % 128 with
  | 0 => ⟨S1x64, .f32⟩
  | 1 => ⟨S50000x64, .f32⟩
  | 2 => ⟨S50000x64, .f32⟩
  | 3 => ⟨S1x64, .f32⟩
  | 4 => ⟨S64, .f32⟩
  | 5 => ⟨S1x64, .f32⟩
  | 6 => ⟨S64, .f32⟩
  | 7 => ⟨S_, .f32⟩
  | 8 => ⟨S64, .f32⟩
  | 9 => ⟨S_, .f32⟩
  | 10 => ⟨S64, .f32⟩
  | 11 => ⟨S64, .f32⟩
  | 12 => ⟨S_, .i32⟩
  | 13 => ⟨S_, .f32⟩
  | 14 => ⟨S64, .f32⟩
  | 15 => ⟨S1x64, .f32⟩
  | 16 => ⟨S_, .f32⟩
  | 17 => ⟨S1x64, .f32⟩
  | 18 => ⟨S1x64, .f32⟩
  | 19 => ⟨S50000x64, .f32⟩
  | 20 => ⟨S50000x64, .f32⟩
  | 21 => ⟨S50000x64, .f32⟩
  | 22 => ⟨S_, .f32⟩
  | 23 => ⟨S_, .f32⟩
  | 24 => ⟨S_, .f32⟩
  | 25 => ⟨S_, .f32⟩
  | 26 => ⟨S64, .f32⟩
  | 27 => ⟨S64, .f32⟩
  | 28 => ⟨S64, .f32⟩
  | 29 => ⟨S_, .f32⟩
  | 30 => ⟨S_, .i1⟩
  | 31 => ⟨S_, .f32⟩
  | 32 => ⟨S_, .f32⟩
  | 33 => ⟨S64, .f32⟩
  | 34 => ⟨S64, .f32⟩
  | 35 => ⟨S1x64, .f32⟩
  | 36 => ⟨S50000x64, .f32⟩
  | 37 => ⟨S50000x64, .f32⟩
  | 38 => ⟨S_, .f32⟩
  | 39 => ⟨S64, .f32⟩
  | 40 => ⟨S64, .f32⟩
  | 41 => ⟨S64, .f32⟩
  | 42 => ⟨S1x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | _ => ⟨S50000x1x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x1x64, .f32⟩

abbrev bufTy : (tb : Table) → Fin (tcTables nBuf tb) → BufTy
  | .hbm, ⟨i, _⟩ => hbmTy i
  | _, _ => ⟨S50000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_1 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_c_3 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_4 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_call1_cst : Ref sig .tc := ⟨.hbm, 96, rfl⟩
abbrev main_call1_v0 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_5 : Ref sig .tc := ⟨.hbm, 111, rfl⟩
abbrev main_v67 : Ref sig .tc := ⟨.hbm, 112, rfl⟩
abbrev main_cst_6 : Ref sig .tc := ⟨.hbm, 113, rfl⟩
abbrev main_v68 : Ref sig .tc := ⟨.hbm, 114, rfl⟩
abbrev main_v69 : Ref sig .tc := ⟨.hbm, 115, rfl⟩
abbrev main_c_7 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_cst_3 : Ref sig .tc := ⟨.hbm, 133, rfl⟩
abbrev main_call2_v12 : Ref sig .tc := ⟨.hbm, 134, rfl⟩
abbrev main_call2_cst_4 : Ref sig .tc := ⟨.hbm, 135, rfl⟩
abbrev main_call2_call0_v0 : Ref sig .tc := ⟨.hbm, 136, rfl⟩
abbrev main_call2_call0_v1 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_8 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_call3_cst : Ref sig .tc := ⟨.hbm, 155, rfl⟩
abbrev main_call3_v0 : Ref sig .tc := ⟨.hbm, 156, rfl⟩
abbrev main_v86 : Ref sig .tc := ⟨.hbm, 157, rfl⟩
abbrev main_v87 : Ref sig .tc := ⟨.hbm, 158, rfl⟩
abbrev main_c_9 : Ref sig .tc := ⟨.hbm, 159, rfl⟩
abbrev main_v88 : Ref sig .tc := ⟨.hbm, 160, rfl⟩
abbrev main_v89 : Ref sig .tc := ⟨.hbm, 161, rfl⟩
abbrev main_c_10 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_cst_11 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_12 : Ref sig .tc := ⟨.hbm, 188, rfl⟩
abbrev main_v114 : Ref sig .tc := ⟨.hbm, 189, rfl⟩
abbrev main_cst_13 : Ref sig .tc := ⟨.hbm, 190, rfl⟩
abbrev main_v115 : Ref sig .tc := ⟨.hbm, 191, rfl⟩
abbrev main_v116 : Ref sig .tc := ⟨.hbm, 192, rfl⟩
abbrev main_c_14 : Ref sig .tc := ⟨.hbm, 193, rfl⟩
abbrev main_call4_cst : Ref sig .tc := ⟨.hbm, 194, rfl⟩
abbrev main_call4_v0 : Ref sig .tc := ⟨.hbm, 195, rfl⟩
abbrev main_call4_v1 : Ref sig .tc := ⟨.hbm, 196, rfl⟩
abbrev main_call4_cst_0 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_call4_v5 : Ref sig .tc := ⟨.hbm, 201, rfl⟩
abbrev main_call4_v6 : Ref sig .tc := ⟨.hbm, 202, rfl⟩
abbrev main_call4_v7 : Ref sig .tc := ⟨.hbm, 203, rfl⟩
abbrev main_call4_cst_1 : Ref sig .tc := ⟨.hbm, 204, rfl⟩
abbrev main_call4_v8 : Ref sig .tc := ⟨.hbm, 205, rfl⟩
abbrev main_call4_cst_2 : Ref sig .tc := ⟨.hbm, 206, rfl⟩
abbrev main_call4_v9 : Ref sig .tc := ⟨.hbm, 207, rfl⟩
abbrev main_call4_v10 : Ref sig .tc := ⟨.hbm, 208, rfl⟩
abbrev main_call4_v11 : Ref sig .tc := ⟨.hbm, 209, rfl⟩
abbrev main_call4_cst_3 : Ref sig .tc := ⟨.hbm, 210, rfl⟩
abbrev main_call4_v12 : Ref sig .tc := ⟨.hbm, 211, rfl⟩
abbrev main_call4_cst_4 : Ref sig .tc := ⟨.hbm, 212, rfl⟩
abbrev main_call4_call0_v0 : Ref sig .tc := ⟨.hbm, 213, rfl⟩
abbrev main_call4_call0_v1 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_cst_15 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_call5_cst : Ref sig .tc := ⟨.hbm, 232, rfl⟩
abbrev main_call5_v0 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_cst_16 : Ref sig .tc := ⟨.hbm, 247, rfl⟩
abbrev main_v146 : Ref sig .tc := ⟨.hbm, 248, rfl⟩
abbrev main_cst_17 : Ref sig .tc := ⟨.hbm, 249, rfl⟩
abbrev main_v147 : Ref sig .tc := ⟨.hbm, 250, rfl⟩
abbrev main_v148 : Ref sig .tc := ⟨.hbm, 251, rfl⟩
abbrev main_c_18 : Ref sig .tc := ⟨.hbm, 252, rfl⟩
abbrev main_call6_cst : Ref sig .tc := ⟨.hbm, 253, rfl⟩
abbrev main_call6_v0 : Ref sig .tc := ⟨.hbm, 254, rfl⟩
abbrev main_call6_v1 : Ref sig .tc := ⟨.hbm, 255, rfl⟩
abbrev main_call6_cst_0 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_call6_v5 : Ref sig .tc := ⟨.hbm, 260, rfl⟩
abbrev main_call6_v6 : Ref sig .tc := ⟨.hbm, 261, rfl⟩
abbrev main_call6_v7 : Ref sig .tc := ⟨.hbm, 262, rfl⟩
abbrev main_call6_cst_1 : Ref sig .tc := ⟨.hbm, 263, rfl⟩
abbrev main_call6_v8 : Ref sig .tc := ⟨.hbm, 264, rfl⟩
abbrev main_call6_cst_2 : Ref sig .tc := ⟨.hbm, 265, rfl⟩
abbrev main_call6_v9 : Ref sig .tc := ⟨.hbm, 266, rfl⟩
abbrev main_call6_v10 : Ref sig .tc := ⟨.hbm, 267, rfl⟩
abbrev main_call6_v11 : Ref sig .tc := ⟨.hbm, 268, rfl⟩
abbrev main_call6_cst_3 : Ref sig .tc := ⟨.hbm, 269, rfl⟩
abbrev main_call6_v12 : Ref sig .tc := ⟨.hbm, 270, rfl⟩
abbrev main_call6_cst_4 : Ref sig .tc := ⟨.hbm, 271, rfl⟩
abbrev main_call6_call0_v0 : Ref sig .tc := ⟨.hbm, 272, rfl⟩
abbrev main_call6_call0_v1 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_cst_19 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_call7_cst : Ref sig .tc := ⟨.hbm, 291, rfl⟩
abbrev main_call7_v0 : Ref sig .tc := ⟨.hbm, 292, rfl⟩
abbrev main_v165 : Ref sig .tc := ⟨.hbm, 293, rfl⟩
abbrev main_v166 : Ref sig .tc := ⟨.hbm, 294, rfl⟩
abbrev main_c_20 : Ref sig .tc := ⟨.hbm, 295, rfl⟩
abbrev main_v167 : Ref sig .tc := ⟨.hbm, 296, rfl⟩
abbrev main_v168 : Ref sig .tc := ⟨.hbm, 297, rfl⟩
abbrev main_c_21 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_cst_22 : Ref sig .tc := ⟨.hbm, 307, rfl⟩
abbrev main_v177 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_v182 : Ref sig .tc := ⟨.hbm, 313, rfl⟩
abbrev main_v183 : Ref sig .tc := ⟨.hbm, 314, rfl⟩
abbrev main_v184 : Ref sig .tc := ⟨.hbm, 315, rfl⟩
abbrev main_v185 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_cst_23 : Ref sig .tc := ⟨.hbm, 324, rfl⟩
abbrev main_v193 : Ref sig .tc := ⟨.hbm, 325, rfl⟩
abbrev main_cst_24 : Ref sig .tc := ⟨.hbm, 326, rfl⟩
abbrev main_v194 : Ref sig .tc := ⟨.hbm, 327, rfl⟩
abbrev main_v195 : Ref sig .tc := ⟨.hbm, 328, rfl⟩
abbrev main_c_25 : Ref sig .tc := ⟨.hbm, 329, rfl⟩
abbrev main_call8_cst : Ref sig .tc := ⟨.hbm, 330, rfl⟩
abbrev main_call8_v0 : Ref sig .tc := ⟨.hbm, 331, rfl⟩
abbrev main_call8_v1 : Ref sig .tc := ⟨.hbm, 332, rfl⟩
abbrev main_call8_cst_0 : Ref sig .tc := ⟨.hbm, 333, rfl⟩
abbrev main_call8_v2 : Ref sig .tc := ⟨.hbm, 334, rfl⟩
abbrev main_call8_v3 : Ref sig .tc := ⟨.hbm, 335, rfl⟩
abbrev main_call8_v4 : Ref sig .tc := ⟨.hbm, 336, rfl⟩
abbrev main_call8_v5 : Ref sig .tc := ⟨.hbm, 337, rfl⟩
abbrev main_call8_v6 : Ref sig .tc := ⟨.hbm, 338, rfl⟩
abbrev main_call8_v7 : Ref sig .tc := ⟨.hbm, 339, rfl⟩
abbrev main_call8_cst_1 : Ref sig .tc := ⟨.hbm, 340, rfl⟩
abbrev main_call8_v8 : Ref sig .tc := ⟨.hbm, 341, rfl⟩
abbrev main_call8_cst_2 : Ref sig .tc := ⟨.hbm, 342, rfl⟩
abbrev main_call8_v9 : Ref sig .tc := ⟨.hbm, 343, rfl⟩
abbrev main_call8_v10 : Ref sig .tc := ⟨.hbm, 344, rfl⟩
abbrev main_call8_v11 : Ref sig .tc := ⟨.hbm, 345, rfl⟩
abbrev main_call8_cst_3 : Ref sig .tc := ⟨.hbm, 346, rfl⟩
abbrev main_call8_v12 : Ref sig .tc := ⟨.hbm, 347, rfl⟩
abbrev main_call8_cst_4 : Ref sig .tc := ⟨.hbm, 348, rfl⟩
abbrev main_call8_call0_v0 : Ref sig .tc := ⟨.hbm, 349, rfl⟩
abbrev main_call8_call0_v1 : Ref sig .tc := ⟨.hbm, 350, rfl⟩
abbrev main_v196 : Ref sig .tc := ⟨.hbm, 351, rfl⟩
abbrev main_v197 : Ref sig .tc := ⟨.hbm, 352, rfl⟩
abbrev main_v198 : Ref sig .tc := ⟨.hbm, 353, rfl⟩
abbrev main_v199 : Ref sig .tc := ⟨.hbm, 354, rfl⟩
abbrev main_cst_26 : Ref sig .tc := ⟨.hbm, 355, rfl⟩
abbrev main_v200 : Ref sig .tc := ⟨.hbm, 356, rfl⟩
abbrev main_v201 : Ref sig .tc := ⟨.hbm, 357, rfl⟩
abbrev main_v202 : Ref sig .tc := ⟨.hbm, 358, rfl⟩
abbrev main_v203 : Ref sig .tc := ⟨.hbm, 359, rfl⟩
abbrev main_v204 : Ref sig .tc := ⟨.hbm, 360, rfl⟩
abbrev main_v205 : Ref sig .tc := ⟨.hbm, 361, rfl⟩
abbrev main_v206 : Ref sig .tc := ⟨.hbm, 362, rfl⟩
abbrev main_v207 : Ref sig .tc := ⟨.hbm, 363, rfl⟩
abbrev main_v208 : Ref sig .tc := ⟨.hbm, 364, rfl⟩
abbrev main_v209 : Ref sig .tc := ⟨.hbm, 365, rfl⟩
abbrev main_v210 : Ref sig .tc := ⟨.hbm, 366, rfl⟩
abbrev main_v211 : Ref sig .tc := ⟨.hbm, 367, rfl⟩
abbrev main_call9_cst : Ref sig .tc := ⟨.hbm, 368, rfl⟩
abbrev main_call9_v0 : Ref sig .tc := ⟨.hbm, 369, rfl⟩
abbrev main_v212 : Ref sig .tc := ⟨.hbm, 370, rfl⟩
abbrev main_v213 : Ref sig .tc := ⟨.hbm, 371, rfl⟩
abbrev main_v214 : Ref sig .tc := ⟨.hbm, 372, rfl⟩
abbrev main_v215 : Ref sig .tc := ⟨.hbm, 373, rfl⟩
abbrev main_v216 : Ref sig .tc := ⟨.hbm, 374, rfl⟩
abbrev main_v217 : Ref sig .tc := ⟨.hbm, 375, rfl⟩
abbrev main_v218 : Ref sig .tc := ⟨.hbm, 376, rfl⟩
abbrev main_v219 : Ref sig .tc := ⟨.hbm, 377, rfl⟩
abbrev main_v220 : Ref sig .tc := ⟨.hbm, 378, rfl⟩
abbrev main_v221 : Ref sig .tc := ⟨.hbm, 379, rfl⟩
abbrev main_v222 : Ref sig .tc := ⟨.hbm, 380, rfl⟩
abbrev main_v223 : Ref sig .tc := ⟨.hbm, 381, rfl⟩
abbrev main_v224 : Ref sig .tc := ⟨.hbm, 382, rfl⟩
abbrev main_cst_27 : Ref sig .tc := ⟨.hbm, 383, rfl⟩
abbrev main_v225 : Ref sig .tc := ⟨.hbm, 384, rfl⟩
abbrev main_cst_28 : Ref sig .tc := ⟨.hbm, 385, rfl⟩
abbrev main_v226 : Ref sig .tc := ⟨.hbm, 386, rfl⟩
abbrev main_v227 : Ref sig .tc := ⟨.hbm, 387, rfl⟩
abbrev main_c_29 : Ref sig .tc := ⟨.hbm, 388, rfl⟩
abbrev main_call10_cst : Ref sig .tc := ⟨.hbm, 389, rfl⟩
abbrev main_call10_v0 : Ref sig .tc := ⟨.hbm, 390, rfl⟩
abbrev main_call10_v1 : Ref sig .tc := ⟨.hbm, 391, rfl⟩
abbrev main_call10_cst_0 : Ref sig .tc := ⟨.hbm, 392, rfl⟩
abbrev main_call10_v2 : Ref sig .tc := ⟨.hbm, 393, rfl⟩
abbrev main_call10_v3 : Ref sig .tc := ⟨.hbm, 394, rfl⟩
abbrev main_call10_v4 : Ref sig .tc := ⟨.hbm, 395, rfl⟩
abbrev main_call10_v5 : Ref sig .tc := ⟨.hbm, 396, rfl⟩
abbrev main_call10_v6 : Ref sig .tc := ⟨.hbm, 397, rfl⟩
abbrev main_call10_v7 : Ref sig .tc := ⟨.hbm, 398, rfl⟩
abbrev main_call10_cst_1 : Ref sig .tc := ⟨.hbm, 399, rfl⟩
abbrev main_call10_v8 : Ref sig .tc := ⟨.hbm, 400, rfl⟩
abbrev main_call10_cst_2 : Ref sig .tc := ⟨.hbm, 401, rfl⟩
abbrev main_call10_v9 : Ref sig .tc := ⟨.hbm, 402, rfl⟩
abbrev main_call10_v10 : Ref sig .tc := ⟨.hbm, 403, rfl⟩
abbrev main_call10_v11 : Ref sig .tc := ⟨.hbm, 404, rfl⟩
abbrev main_call10_cst_3 : Ref sig .tc := ⟨.hbm, 405, rfl⟩
abbrev main_call10_v12 : Ref sig .tc := ⟨.hbm, 406, rfl⟩
abbrev main_call10_cst_4 : Ref sig .tc := ⟨.hbm, 407, rfl⟩
abbrev main_call10_call0_v0 : Ref sig .tc := ⟨.hbm, 408, rfl⟩
abbrev main_call10_call0_v1 : Ref sig .tc := ⟨.hbm, 409, rfl⟩
abbrev main_v228 : Ref sig .tc := ⟨.hbm, 410, rfl⟩
abbrev main_v229 : Ref sig .tc := ⟨.hbm, 411, rfl⟩
abbrev main_v230 : Ref sig .tc := ⟨.hbm, 412, rfl⟩
abbrev main_v231 : Ref sig .tc := ⟨.hbm, 413, rfl⟩
abbrev main_cst_30 : Ref sig .tc := ⟨.hbm, 414, rfl⟩
abbrev main_v232 : Ref sig .tc := ⟨.hbm, 415, rfl⟩
abbrev main_v233 : Ref sig .tc := ⟨.hbm, 416, rfl⟩
abbrev main_v234 : Ref sig .tc := ⟨.hbm, 417, rfl⟩
abbrev main_v235 : Ref sig .tc := ⟨.hbm, 418, rfl⟩
abbrev main_v236 : Ref sig .tc := ⟨.hbm, 419, rfl⟩
abbrev main_v237 : Ref sig .tc := ⟨.hbm, 420, rfl⟩
abbrev main_v238 : Ref sig .tc := ⟨.hbm, 421, rfl⟩
abbrev main_v239 : Ref sig .tc := ⟨.hbm, 422, rfl⟩
abbrev main_v240 : Ref sig .tc := ⟨.hbm, 423, rfl⟩
abbrev main_v241 : Ref sig .tc := ⟨.hbm, 424, rfl⟩
abbrev main_v242 : Ref sig .tc := ⟨.hbm, 425, rfl⟩
abbrev main_v243 : Ref sig .tc := ⟨.hbm, 426, rfl⟩
abbrev main_call11_cst : Ref sig .tc := ⟨.hbm, 427, rfl⟩
abbrev main_call11_v0 : Ref sig .tc := ⟨.hbm, 428, rfl⟩
abbrev main_v244 : Ref sig .tc := ⟨.hbm, 429, rfl⟩
abbrev main_v245 : Ref sig .tc := ⟨.hbm, 430, rfl⟩
abbrev main_c_31 : Ref sig .tc := ⟨.hbm, 431, rfl⟩
abbrev main_v246 : Ref sig .tc := ⟨.hbm, 432, rfl⟩
abbrev main_v247 : Ref sig .tc := ⟨.hbm, 433, rfl⟩
abbrev main_c_32 : Ref sig .tc := ⟨.hbm, 434, rfl⟩
abbrev main_v248 : Ref sig .tc := ⟨.hbm, 435, rfl⟩
abbrev main_v249 : Ref sig .tc := ⟨.hbm, 436, rfl⟩
abbrev main_v250 : Ref sig .tc := ⟨.hbm, 437, rfl⟩
abbrev main_v251 : Ref sig .tc := ⟨.hbm, 438, rfl⟩
abbrev main_v252 : Ref sig .tc := ⟨.hbm, 439, rfl⟩
abbrev main_v253 : Ref sig .tc := ⟨.hbm, 440, rfl⟩
abbrev main_v254 : Ref sig .tc := ⟨.hbm, 441, rfl⟩
abbrev main_v255 : Ref sig .tc := ⟨.hbm, 442, rfl⟩
abbrev main_cst_33 : Ref sig .tc := ⟨.hbm, 443, rfl⟩
abbrev main_v256 : Ref sig .tc := ⟨.hbm, 444, rfl⟩
abbrev main_v257 : Ref sig .tc := ⟨.hbm, 445, rfl⟩
abbrev main_v258 : Ref sig .tc := ⟨.hbm, 446, rfl⟩
abbrev main_v259 : Ref sig .tc := ⟨.hbm, 447, rfl⟩
abbrev main_v260 : Ref sig .tc := ⟨.hbm, 448, rfl⟩
abbrev main_v261 : Ref sig .tc := ⟨.hbm, 449, rfl⟩
abbrev main_v262 : Ref sig .tc := ⟨.hbm, 450, rfl⟩
abbrev main_v263 : Ref sig .tc := ⟨.hbm, 451, rfl⟩
abbrev main_v264 : Ref sig .tc := ⟨.hbm, 452, rfl⟩
abbrev main_v265 : Ref sig .tc := ⟨.hbm, 453, rfl⟩
abbrev main_v266 : Ref sig .tc := ⟨.hbm, 454, rfl⟩
abbrev main_v267 : Ref sig .tc := ⟨.hbm, 455, rfl⟩
abbrev main_v268 : Ref sig .tc := ⟨.hbm, 456, rfl⟩
abbrev main_v269 : Ref sig .tc := ⟨.hbm, 457, rfl⟩
abbrev main_v270 : Ref sig .tc := ⟨.hbm, 458, rfl⟩
abbrev main_v271 : Ref sig .tc := ⟨.hbm, 459, rfl⟩
abbrev main_cst_34 : Ref sig .tc := ⟨.hbm, 460, rfl⟩
abbrev main_v272 : Ref sig .tc := ⟨.hbm, 461, rfl⟩
abbrev main_cst_35 : Ref sig .tc := ⟨.hbm, 462, rfl⟩
abbrev main_v273 : Ref sig .tc := ⟨.hbm, 463, rfl⟩
abbrev main_v274 : Ref sig .tc := ⟨.hbm, 464, rfl⟩
abbrev main_c_36 : Ref sig .tc := ⟨.hbm, 465, rfl⟩
abbrev main_call12_cst : Ref sig .tc := ⟨.hbm, 466, rfl⟩
abbrev main_call12_v0 : Ref sig .tc := ⟨.hbm, 467, rfl⟩
abbrev main_call12_v1 : Ref sig .tc := ⟨.hbm, 468, rfl⟩
abbrev main_call12_cst_0 : Ref sig .tc := ⟨.hbm, 469, rfl⟩
abbrev main_call12_v2 : Ref sig .tc := ⟨.hbm, 470, rfl⟩
abbrev main_call12_v3 : Ref sig .tc := ⟨.hbm, 471, rfl⟩
abbrev main_call12_v4 : Ref sig .tc := ⟨.hbm, 472, rfl⟩
abbrev main_call12_v5 : Ref sig .tc := ⟨.hbm, 473, rfl⟩
abbrev main_call12_v6 : Ref sig .tc := ⟨.hbm, 474, rfl⟩
abbrev main_call12_v7 : Ref sig .tc := ⟨.hbm, 475, rfl⟩
abbrev main_call12_cst_1 : Ref sig .tc := ⟨.hbm, 476, rfl⟩
abbrev main_call12_v8 : Ref sig .tc := ⟨.hbm, 477, rfl⟩
abbrev main_call12_cst_2 : Ref sig .tc := ⟨.hbm, 478, rfl⟩
abbrev main_call12_v9 : Ref sig .tc := ⟨.hbm, 479, rfl⟩
abbrev main_call12_v10 : Ref sig .tc := ⟨.hbm, 480, rfl⟩
abbrev main_call12_v11 : Ref sig .tc := ⟨.hbm, 481, rfl⟩
abbrev main_call12_cst_3 : Ref sig .tc := ⟨.hbm, 482, rfl⟩
abbrev main_call12_v12 : Ref sig .tc := ⟨.hbm, 483, rfl⟩
abbrev main_call12_cst_4 : Ref sig .tc := ⟨.hbm, 484, rfl⟩
abbrev main_call12_call0_v0 : Ref sig .tc := ⟨.hbm, 485, rfl⟩
abbrev main_call12_call0_v1 : Ref sig .tc := ⟨.hbm, 486, rfl⟩
abbrev main_v275 : Ref sig .tc := ⟨.hbm, 487, rfl⟩
abbrev main_v276 : Ref sig .tc := ⟨.hbm, 488, rfl⟩
abbrev main_v277 : Ref sig .tc := ⟨.hbm, 489, rfl⟩
abbrev main_v278 : Ref sig .tc := ⟨.hbm, 490, rfl⟩
abbrev main_cst_37 : Ref sig .tc := ⟨.hbm, 491, rfl⟩
abbrev main_v279 : Ref sig .tc := ⟨.hbm, 492, rfl⟩
abbrev main_v280 : Ref sig .tc := ⟨.hbm, 493, rfl⟩
abbrev main_v281 : Ref sig .tc := ⟨.hbm, 494, rfl⟩
abbrev main_v282 : Ref sig .tc := ⟨.hbm, 495, rfl⟩
abbrev main_v283 : Ref sig .tc := ⟨.hbm, 496, rfl⟩
abbrev main_v284 : Ref sig .tc := ⟨.hbm, 497, rfl⟩
abbrev main_v285 : Ref sig .tc := ⟨.hbm, 498, rfl⟩
abbrev main_v286 : Ref sig .tc := ⟨.hbm, 499, rfl⟩
abbrev main_v287 : Ref sig .tc := ⟨.hbm, 500, rfl⟩
abbrev main_v288 : Ref sig .tc := ⟨.hbm, 501, rfl⟩
abbrev main_v289 : Ref sig .tc := ⟨.hbm, 502, rfl⟩
abbrev main_v290 : Ref sig .tc := ⟨.hbm, 503, rfl⟩
abbrev main_call13_cst : Ref sig .tc := ⟨.hbm, 504, rfl⟩
abbrev main_call13_v0 : Ref sig .tc := ⟨.hbm, 505, rfl⟩
abbrev main_v291 : Ref sig .tc := ⟨.hbm, 506, rfl⟩
abbrev main_v292 : Ref sig .tc := ⟨.hbm, 507, rfl⟩
abbrev main_v293 : Ref sig .tc := ⟨.hbm, 508, rfl⟩
abbrev main_v294 : Ref sig .tc := ⟨.hbm, 509, rfl⟩
abbrev main_v295 : Ref sig .tc := ⟨.hbm, 510, rfl⟩
abbrev main_v296 : Ref sig .tc := ⟨.hbm, 511, rfl⟩
abbrev main_v297 : Ref sig .tc := ⟨.hbm, 512, rfl⟩
abbrev main_v298 : Ref sig .tc := ⟨.hbm, 513, rfl⟩
abbrev main_v299 : Ref sig .tc := ⟨.hbm, 514, rfl⟩
abbrev main_v300 : Ref sig .tc := ⟨.hbm, 515, rfl⟩
abbrev main_v301 : Ref sig .tc := ⟨.hbm, 516, rfl⟩
abbrev main_v302 : Ref sig .tc := ⟨.hbm, 517, rfl⟩
abbrev main_v303 : Ref sig .tc := ⟨.hbm, 518, rfl⟩
abbrev main_cst_38 : Ref sig .tc := ⟨.hbm, 519, rfl⟩
abbrev main_v304 : Ref sig .tc := ⟨.hbm, 520, rfl⟩
abbrev main_cst_39 : Ref sig .tc := ⟨.hbm, 521, rfl⟩
abbrev main_v305 : Ref sig .tc := ⟨.hbm, 522, rfl⟩
abbrev main_v306 : Ref sig .tc := ⟨.hbm, 523, rfl⟩
abbrev main_c_40 : Ref sig .tc := ⟨.hbm, 524, rfl⟩
abbrev main_call14_cst : Ref sig .tc := ⟨.hbm, 525, rfl⟩
abbrev main_call14_v0 : Ref sig .tc := ⟨.hbm, 526, rfl⟩
abbrev main_call14_v1 : Ref sig .tc := ⟨.hbm, 527, rfl⟩
abbrev main_call14_cst_0 : Ref sig .tc := ⟨.hbm, 528, rfl⟩
abbrev main_call14_v2 : Ref sig .tc := ⟨.hbm, 529, rfl⟩
abbrev main_call14_v3 : Ref sig .tc := ⟨.hbm, 530, rfl⟩
abbrev main_call14_v4 : Ref sig .tc := ⟨.hbm, 531, rfl⟩
abbrev main_call14_v5 : Ref sig .tc := ⟨.hbm, 532, rfl⟩
abbrev main_call14_v6 : Ref sig .tc := ⟨.hbm, 533, rfl⟩
abbrev main_call14_v7 : Ref sig .tc := ⟨.hbm, 534, rfl⟩
abbrev main_call14_cst_1 : Ref sig .tc := ⟨.hbm, 535, rfl⟩
abbrev main_call14_v8 : Ref sig .tc := ⟨.hbm, 536, rfl⟩
abbrev main_call14_cst_2 : Ref sig .tc := ⟨.hbm, 537, rfl⟩
abbrev main_call14_v9 : Ref sig .tc := ⟨.hbm, 538, rfl⟩
abbrev main_call14_v10 : Ref sig .tc := ⟨.hbm, 539, rfl⟩
abbrev main_call14_v11 : Ref sig .tc := ⟨.hbm, 540, rfl⟩
abbrev main_call14_cst_3 : Ref sig .tc := ⟨.hbm, 541, rfl⟩
abbrev main_call14_v12 : Ref sig .tc := ⟨.hbm, 542, rfl⟩
abbrev main_call14_cst_4 : Ref sig .tc := ⟨.hbm, 543, rfl⟩
abbrev main_call14_call0_v0 : Ref sig .tc := ⟨.hbm, 544, rfl⟩
abbrev main_call14_call0_v1 : Ref sig .tc := ⟨.hbm, 545, rfl⟩
abbrev main_v307 : Ref sig .tc := ⟨.hbm, 546, rfl⟩
abbrev main_v308 : Ref sig .tc := ⟨.hbm, 547, rfl⟩
abbrev main_v309 : Ref sig .tc := ⟨.hbm, 548, rfl⟩
abbrev main_v310 : Ref sig .tc := ⟨.hbm, 549, rfl⟩
abbrev main_cst_41 : Ref sig .tc := ⟨.hbm, 550, rfl⟩
abbrev main_v311 : Ref sig .tc := ⟨.hbm, 551, rfl⟩
abbrev main_v312 : Ref sig .tc := ⟨.hbm, 552, rfl⟩
abbrev main_v313 : Ref sig .tc := ⟨.hbm, 553, rfl⟩
abbrev main_v314 : Ref sig .tc := ⟨.hbm, 554, rfl⟩
abbrev main_v315 : Ref sig .tc := ⟨.hbm, 555, rfl⟩
abbrev main_v316 : Ref sig .tc := ⟨.hbm, 556, rfl⟩
abbrev main_v317 : Ref sig .tc := ⟨.hbm, 557, rfl⟩
abbrev main_v318 : Ref sig .tc := ⟨.hbm, 558, rfl⟩
abbrev main_v319 : Ref sig .tc := ⟨.hbm, 559, rfl⟩
abbrev main_v320 : Ref sig .tc := ⟨.hbm, 560, rfl⟩
abbrev main_v321 : Ref sig .tc := ⟨.hbm, 561, rfl⟩
abbrev main_v322 : Ref sig .tc := ⟨.hbm, 562, rfl⟩
abbrev main_call15_cst : Ref sig .tc := ⟨.hbm, 563, rfl⟩
abbrev main_call15_v0 : Ref sig .tc := ⟨.hbm, 564, rfl⟩
abbrev main_v323 : Ref sig .tc := ⟨.hbm, 565, rfl⟩
abbrev main_v324 : Ref sig .tc := ⟨.hbm, 566, rfl⟩

abbrev nD : Nat := 1
abbrev τ : Topo := Topo.v7x

variable {F : FTy → Type} [FloatOps F]

class Facts₀ : Prop where
  shapeCasts_S50000x1x64_S50000x64 : S50000x1x64.ShapeCasts S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel program's run with its result named: the thirteen regions among the stretches of host
  operations run to the end, the argument arrays end as launched, and the result buffer ends at the last boundary's
  contents (the fold of every stretch's operations and every region's write-backs from the launch memory).
-/
import proofs.«100402_j28432683499906_1_alg».proof.Proof.KernelIdealFrameP

set_option maxRecDepth 16384

noncomputable section

namespace Cert.KernelIdeal.Run

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer holds the last boundary's
    contents and every argument array its launch contents. -/
theorem run_main : θ_run defs (onTc (τ := τ) (main (F := F))) ⟨m, fun _ => 0, ρ⟩ (fun r => ∀ c : Dev nD,
      r.2.mem ((c.tc : Thread nD τ).loc main_v238) = W42 m ρ c (Proc.devRef .tc main_v238)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W42 m ρ c b)
    (hfin := fun c s' => by
      iintro ⟨⟨Hh, -⟩, HSI⟩
      unfold StableHlo.held
      imodintro
      iapply (pointsTo_read_all (Pipeline.ucRefs τ sig) (fun b => (((c : Thread nD τ)).1, b)) (W42 m ρ c) s')
      isplitl [Hh] <;> iassumption)
    (hQ := fun s h c =>
      ⟨h c _ (mem_uc main_v238 (by decide)),
       (h c _ (mem_uc main_arg0 (by decide))).trans (W42_main_arg0 m ρ c),
       (h c _ (mem_uc main_arg1 (by decide))).trans (W42_main_arg1 m ρ c),
       (h c _ (mem_uc main_arg2 (by decide))).trans (W42_main_arg2 m ρ c),
       (h c _ (mem_uc main_arg3 (by decide))).trans (W42_main_arg3 m ρ c),
       (h c _ (mem_uc main_arg4 (by decide))).trans (W42_main_arg4 m ρ c),
       (h c _ (mem_uc main_arg5 (by decide))).trans (W42_main_arg5 m ρ c),
       (h c _ (mem_uc main_arg6 (by decide))).trans (W42_main_arg6 m ρ c),
       (h c _ (mem_uc main_arg7 (by decide))).trans (W42_main_arg7 m ρ c),
       (h c _ (mem_uc main_arg8 (by decide))).trans (W42_main_arg8 m ρ c),
       (h c _ (mem_uc main_arg9 (by decide))).trans (W42_main_arg9 m ρ c),
       (h c _ (mem_uc main_arg10 (by decide))).trans (W42_main_arg10 m ρ c),
       (h c _ (mem_uc main_arg11 (by decide))).trans (W42_main_arg11 m ρ c),
       (h c _ (mem_uc main_arg12 (by decide))).trans (W42_main_arg12 m ρ c),
       (h c _ (mem_uc main_arg13 (by decide))).trans (W42_main_arg13 m ρ c)⟩)

end Cert.KernelIdeal.Run

end
-- ==== Proof.KHostDefs.lean ====
/-
  The host program between the vector regions, one layer's worth, as named terms over contents of any float type.

  Each layer aggregates the node features over the edges (gather the source rows, a negative source index wrapped around
  by the node count, weight them edge by edge, and add them into the destination rows from zero), takes column statistics
  of a region's result twice (the mean; the variance through the outlined function with its count N − ddof and the guard
  on that count; the reciprocal square root after adding ε), folds them with the normalisation's parameters into a scale
  g · r and a shift be − mean · (g · r), and cuts each layer's weights out of the stacked parameter arrays.
  The terms are spelled exactly as the operations compose, so that reading a stretch of operations back gives them.
-/
import proofs.«100402_j28432683499906_1_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo

variable {F : FTy → Type} [FloatOps F]

/-- Float contents of a shape. -/
abbrev CF (F : FTy → Type) (s : Shape) : Type := (⟨s, .f32⟩ : BufTy).Contents (Elt F)
/-- Index-word contents of a shape. -/
abbrev CI (F : FTy → Type) (s : Shape) : Type := (⟨s, .i32⟩ : BufTy).Contents (Elt F)

/-! ## The input features -/

/-- The [N, 1, C] input features as an [N, C] matrix. -/
def featIn (x : CF F S50000x1x64) : CF F S50000x64 := fun i =>
  shapeCast S50000x64 x shapeCasts_S50000x1x64_S50000x64 i

/-! ## The edges -/

/-- Row 0 of the edge table: each edge's source node. -/
def edgeSrc (e : CI F S2x800000) : CI F S800000 := fun i =>
  shapeCast S800000 (extractStridedSlice S1x800000 ![0, 0] e slices_S2x800000_S1x800000_0_0) shapeCasts_S1x800000_S800000 i

/-- Row 1 of the edge table: each edge's destination node. -/
def edgeDst (e : CI F S2x800000) : CI F S800000 := fun i =>
  shapeCast S800000 (extractStridedSlice S1x800000 ![1, 0] e slices_S2x800000_S1x800000_1_0) shapeCasts_S1x800000_S800000 i

/-- The weighted aggregation: row d of the result is the sum, from zero, over the edges into d of the edge's weight times
    the features' row at the edge's source (a negative source counted from the end). -/
def agg (src dst : CI F S800000) (w : CF F S800000) (h : CF F S50000x64) : CF F S50000x64 :=
  Host.scatterAdd scatter_S50000x64_S800000x1_S800000x64_1_0_0_1
    (broadcastInDim S50000x64 ![] bcast_S_S50000x64 (constant (F := F) S_ FTy.f32 0x00000000#32))
    (broadcastInDim S800000x1 ![0] bcast_S800000_S800000x1_0 dst)
    (mulf
      (Host.gather gather_S50000x64_S800000x1_S800000x64_1_0_n_n_0_1_164 h
        (broadcastInDim S800000x1 ![0] bcast_S800000_S800000x1_0
          (select
            (cmpi CmpIPredicate.slt src (broadcastInDim S800000 ![] bcast_S_S800000 (constantI S_ 32 0#32)))
            (addi src (broadcastInDim S800000 ![] bcast_S_S800000 (constantI S_ 32 50000#32)))
            src)))
      (broadcastInDim S800000x64 ![0, 1] bcast_S800000x1_S800000x64_0_1
        (broadcastInDim S800000x1 ![0] bcast_S800000_S800000x1_0 w)))

/-! ## A layer's parameters out of the stacked arrays -/

/-- A [64] vector laid out as a [1, 64] block. -/
def asRow (v : CF F S64) : CF F S1x64 := fun i => shapeCast S1x64 v shapeCasts_S64_S1x64 i

/-- One [64, 64] matrix of a stack of four. -/
def matAt (a : CF F S4x64x64) (o : Fin 3 → Nat) (hs : S4x64x64.Slices o S1x64x64) : CF F S64x64 := fun i =>
  shapeCast S64x64 (extractStridedSlice S1x64x64 o a hs) shapeCasts_S1x64x64_S64x64 i

/-- One [64] vector of a stack of four. -/
def vecAt (a : CF F S4x64) (o : Fin 2 → Nat) (hs : S4x64.Slices o S1x64) : CF F S64 := fun i =>
  shapeCast S64 (extractStridedSlice S1x64 o a hs) shapeCasts_S1x64_S64 i

/-! ## Column statistics -/

/-- The column mean: the sum down the rows from zero over the row count. -/
def mean (t : CF F S50000x64) : CF F S64 :=
  Host.divf (Host.reduceAdd t (constant (F := F) S_ FTy.f32 0x00000000#32) reducesTo_S50000x64_S64_d0 h_S_)
    (broadcastInDim S64 ![] bcast_S_S64 (constant (F := F) S_ FTy.f32 0x47435000#32))

/-- The column variance as the outlined function computes it from the features and the ddof word. -/
def var (t : CF F S50000x64) (ddof : CI F S_) : CF F S64 :=
  select
    (broadcastInDim S64 ![] bcast_S_S64
      (cmpf CmpFPredicate.ogt (subf (constant (F := F) S_ FTy.f32 0x47435000#32) (sitofp FTy.f32 ddof)) (constant (F := F) S_ FTy.f32 0x00000000#32)))
    (Host.divf
      (Host.reduceAdd
        (mulf
          (subf t (broadcastInDim S50000x64 ![0, 1] bcast_S1x64_S50000x64_0_1
            (Host.divf
              (broadcastInDim S1x64 ![1] bcast_S64_S1x64_1
                (Host.reduceAdd t (constant (F := F) S_ FTy.f32 0x00000000#32) reducesTo_S50000x64_S64_d0 h_S_))
              (broadcastInDim S1x64 ![] bcast_S_S1x64 (constant (F := F) S_ FTy.f32 0x47435000#32)))))
          (subf t (broadcastInDim S50000x64 ![0, 1] bcast_S1x64_S50000x64_0_1
            (Host.divf
              (broadcastInDim S1x64 ![1] bcast_S64_S1x64_1
                (Host.reduceAdd t (constant (F := F) S_ FTy.f32 0x00000000#32) reducesTo_S50000x64_S64_d0 h_S_))
              (broadcastInDim S1x64 ![] bcast_S_S1x64 (constant (F := F) S_ FTy.f32 0x47435000#32))))))
        (constant (F := F) S_ FTy.f32 0x00000000#32) reducesTo_S50000x64_S64_d0 h_S_)
      (broadcastInDim S64 ![] bcast_S_S64 (subf (constant (F := F) S_ FTy.f32 0x47435000#32) (sitofp FTy.f32 ddof))))
    (broadcastInDim S64 ![] bcast_S_S64 (id (constant (F := F) S_ FTy.f32 0x7FC00000#32)))

/-- The ddof word of the program: zero. -/
def ddof0 : CI F S_ := constantI S_ 32 0#32

/-- 1 / √(v + ε), column by column. -/
def inv (v : CF F S64) : CF F S64 :=
  Host.rsqrt (addf v (broadcastInDim S64 ![] bcast_S_S64 (constant (F := F) S_ FTy.f32 0x3727C5AC#32)))

/-- The folded scale g · r. -/
def scale (g r : CF F S64) : CF F S64 := mulf g r

/-- The folded shift be − mean · scale. -/
def shift (be mu sc : CF F S64) : CF F S64 := subf be (mulf mu sc)

end Cert.KernelIdeal.KHost

end
-- ==== Proof.KHostLayer.lean ====
/-
  One layer of the kernel program as a term, over the three functions its vector regions compute.

  The layer's first region takes the aggregated features, the features, a weight matrix and a bias row; its second the
  first's result, a scale row and a shift row (the column statistics of that result folded with the normalisation's
  parameters), a weight matrix and a bias row; its third the second's result, a scale row and a shift row folded from the
  second result's statistics, and the features. The host program between them is the same in every layer.
-/
import proofs.«100402_j28432683499906_1_alg».proof.Proof.KHostDefs

noncomputable section

namespace Cert.KernelIdeal.KHost

open Cert.KernelIdeal Cert.KernelIdeal.Gen
open Idealize.ShloMosaic

variable {F : FTy → Type} [FloatOps F]

/-- What a layer's first region computes from (aggregate, features, weights, bias row). -/
abbrev Reg1 (F : FTy → Type) : Type := CF F S50000x64 → CF F S50000x64 → CF F S64x64 → CF F S1x64 → CF F S50000x64
/-- What a layer's second region computes from (input, scale row, shift row, weights, bias row). -/
abbrev Reg2 (F : FTy → Type) : Type := CF F S50000x64 → CF F S1x64 → CF F S1x64 → CF F S64x64 → CF F S1x64 → CF F S50000x64
/-- What a layer's third region computes from (input, scale row, shift row, features). -/
abbrev Reg3 (F : FTy → Type) : Type := CF F S50000x64 → CF F S1x64 → CF F S1x64 → CF F S50000x64 → CF F S50000x64

/-- The folded scale of t's column statistics: g · (1 / √(var t + ε)). -/
def foldSc (g : CF F S64) (t : CF F S50000x64) : CF F S64 := scale g (inv (var t ddof0))

/-- The folded shift: be − mean t · scale. -/
def foldSh (g be : CF F S64) (t : CF F S50000x64) : CF F S64 := shift be (mean t) (foldSc g t)

/-- The first region's result. -/
def kT1 (R1 : Reg1 F) (src dst : CI F S800000) (w : CF F S800000) (W1 : CF F S64x64) (b1 : CF F S64)
    (h : CF F S50000x64) : CF F S50000x64 :=
  R1 (agg src dst w h) h W1 (asRow b1)

/-- The second region's result from the first's. -/
def kT2 (R2 : Reg2 F) (t1 : CF F S50000x64) (g1 be1 : CF F S64) (W2 : CF F S64x64) (b2 : CF F S64) : CF F S50000x64 :=
  R2 t1 (asRow (foldSc g1 t1)) (asRow (foldSh g1 be1 t1)) W2 (asRow b2)

/-- The third region's result from the second's and the features. -/
def kOut (R3 : Reg3 F) (t2 : CF F S50000x64) (go beo : CF F S64) (h : CF F S50000x64) : CF F S50000x64 :=
  R3 t2 (asRow (foldSc go t2)) (asRow (foldSh go beo t2)) h

/-- One layer. -/
def kLayer (R1 : Reg1 F) (R2 : Reg2 F) (R3 : Reg3 F) (src dst : CI F S800000) (w : CF F S800000)
    (W1 : CF F S64x64) (b1 g1 be1 : CF F S64) (W2 : CF F S64x64) (b2 go beo : CF F S64) (h : CF F S50000x64) :
    CF F S50000x64 :=
  kOut R3 (kT2 R2 (kT1 R1 src dst w W1 b1 h) g1 be1 W2 b2) go beo h

end Cert.KernelIdeal.KHost

end
-- ==== Proof.KHostS0.lean ====
/-
  Layer 0's stretches of host operations read back: from ANY contents V before a stretch, each buffer the stretch
  writes and a later region or stretch reads holds the named term of V at the stretch's inputs.
-/
import proofs.«100402_j28432683499906_1_alg».proof.Proof.KHostDefs

set_option maxRecDepth 16384

noncomputable section

namespace Cert.KernelIdeal.KHost

open Cert.KernelIdeal Cert.KernelIdeal.Gen
open Idealize.ShloMosaic Idealize.ShloMosaic.TcCoe Idealize.ShloMosaic.StableHlo

variable {F : FTy → Type} [FloatOps F]

/-! ## Before the first region -/

theorem ops0_v0 (V : Valuation τ sig (Elt F)) :
    StableHlo.after hostOps0 V (Proc.devRef .tc main_v0) = featIn (V (Proc.devRef .tc main_arg0)) := by
  after_results_simp
  rfl
theorem ops0_v1 (V : Valuation τ sig (Elt F)) :
    StableHlo.after hostOps0 V (Proc.devRef .tc main_v1) = asRow (V (Proc.devRef .tc main_arg5)) := by
  after_results_simp
  rfl

/-! ## Layer 0 -/

theorem ops1_v4 (V : Valuation τ sig (Elt F)) :
    StableHlo.after hostOps1 V (Proc.devRef .tc main_v4) = edgeSrc (V (Proc.devRef .tc main_arg1)) := by
  after_results_simp
  rfl
theorem ops1_v6 (V : Valuation τ sig (Elt F)) :
    StableHlo.after hostOps1 V (Proc.devRef .tc main_v6) = edgeDst (V (Proc.devRef .tc main_arg1)) := by
  after_results_simp
  rfl
theorem ops1_v19 (V : Valuation τ sig (Elt F)) :
    StableHlo.after hostOps1 V (Proc.devRef .tc main_v19) = agg (edgeSrc (V (Proc.devRef .tc main_arg1))) (edgeDst (V (Proc.devRef .tc main_arg1))) (V (Proc.devRef .tc main_arg3)) (V (Proc.devRef .tc main_v2)) := by
  after_results_simp
  rfl
theorem ops1_v21 (V : Valuation τ sig (Elt F)) :
    StableHlo.after hostOps1 V (Proc.devRef .tc main_v21) = matAt (V (Proc.devRef .tc main_arg6)) ![0, 0, 0] slices_S4x64x64_S1x64x64_0_0_0 := by
  after_results_simp
  rfl
theorem ops1_v24 (V : Valuation τ sig (Elt F)) :
    StableHlo.after hostOps1 V (Proc.devRef .tc main_v24) = asRow (vecAt (V (Proc.devRef .tc main_arg7)) ![0, 0] slices_S4x64_S1x64_0_0) := by
  after_results_simp
  rfl
theorem ops2_v28 (V : Valuation τ sig (Elt F)) :
    StableHlo.after hostOps2 V (Proc.devRef .tc main_v28) = mean (V (Proc.devRef .tc main_v25)) := by
  after_results_simp
  rfl
theorem ops2_c_3 (V : Valuation τ sig (Elt F)) :
    StableHlo.after hostOps2 V (Proc.devRef .tc main_c_3) = ddof0 := by
  after_results_simp
  rfl
theorem ops2_1_v29 (V : Valuation τ sig (Elt F)) :
    StableHlo.after hostOps2_1 V (Proc.devRef .tc main_v29) = var (V (Proc.devRef .tc main_v25)) (V (Proc.devRef .tc main_c_3)) := by
  after_results_simp
  rfl
theorem ops2_2_v44 (V : Valuation τ sig (Elt F)) :
    StableHlo.after hostOps2_2 V (Proc.devRef .tc main_v44) = asRow (scale (vecAt (V (Proc.devRef .tc main_arg8)) ![0, 0] slices_S4x64_S1x64_0_0) (inv (V (Proc.devRef .tc main_v29)))) := by
  after_results_simp
  rfl
theorem ops2_2_v45 (V : Valuation τ sig (Elt F)) :
    StableHlo.after hostOps2_2 V (Proc.devRef .tc main_v45) = asRow (shift (vecAt (V (Proc.devRef .tc main_arg9)) ![0, 0] slices_S4x64_S1x64_0_0) (V (Proc.devRef .tc main_v28)) (scale (vecAt (V (Proc.devRef .tc main_arg8)) ![0, 0] slices_S4x64_S1x64_0_0) (inv (V (Proc.devRef .tc main_v29))))) := by
  after_results_simp
  rfl
theorem ops2_2_v41 (V : Valuation τ sig (Elt F)) :
    StableHlo.after hostOps2_2 V (Proc.devRef .tc main_v41) = matAt (V (Proc.devRef .tc main_arg10)) ![0, 0, 0] slices_S4x64x64_S1x64x64_0_0_0 := by
  after_results_simp
  rfl
theorem ops2_2_v46 (V : Valuation τ sig (Elt F)) :
    StableHlo.after hostOps2_2 V (Proc.devRef .tc main_v46) = asRow (vecAt (V (Proc.devRef .tc main_arg11)) ![0, 0] slices_S4x64_S1x64_0_0) := by
  after_results_simp
  rfl
theorem ops3_v50 (V : Valuation τ sig (Elt F)) :
    StableHlo.after hostOps3 V (Proc.devRef .tc main_v50) = mean (V (Proc.devRef .tc main_v47)) := by
  after_results_simp
  rfl
theorem ops3_c_7 (V : Valuation τ sig (Elt F)) :
    StableHlo.after hostOps3 V (Proc.devRef .tc main_c_7) = ddof0 := by
  after_results_simp
  rfl
theorem ops3_1_v51 (V : Valuation τ sig (Elt F)) :
    StableHlo.after hostOps3_1 V (Proc.devRef .tc main_v51) = var (V (Proc.devRef .tc main_v47)) (V (Proc.devRef .tc main_c_7)) := by
  after_results_simp
  rfl
theorem ops3_2_v62 (V : Valuation τ sig (Elt F)) :
    StableHlo.after hostOps3_2 V (Proc.devRef .tc main_v62) = asRow (scale (vecAt (V (Proc.devRef .tc main_arg12)) ![0, 0] slices_S4x64_S1x64_0_0) (inv (V (Proc.devRef .tc main_v51)))) := by
  after_results_simp
  rfl
theorem ops3_2_v63 (V : Valuation τ sig (Elt F)) :
    StableHlo.after hostOps3_2 V (Proc.devRef .tc main_v63) = asRow (shift (vecAt (V (Proc.devRef .tc main_arg13)) ![0, 0] slices_S4x64_S1x64_0_0) (V (Proc.devRef .tc main_v50)) (scale (vecAt (V (Proc.devRef .tc main_arg12)) ![0, 0] slices_S4x64_S1x64_0_0) (inv (V (Proc.devRef .tc main_v51))))) := by
  after_results_simp
  rfl

end Cert.KernelIdeal.KHost

end
-- ==== Proof.KHostKeep0.lean ====
/-
  What layer 0's stretches (and the stretch before the first region) leave alone.
  A stretch of host operations changes only the buffers its operations write: each stretch's written references as one
  literal list, and every other reference's contents carried across the stretch unchanged, from ANY contents before it.
-/
import proofs.«100402_j28432683499906_1_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo

variable {F : FTy → Type} [FloatOps F]

/-- The references `hostOps0` writes. -/
abbrev written0 : List (Ref sig .tc) := [main_v0, main_v1]
theorem writes0 : (hostOps0 : List (HloOp τ sig (Elt F))).Forall fun op => op.writes ⊆ ((written0).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps0` does not write keeps its contents. -/
theorem keep0 (V : Valuation τ sig (Elt F)) {r : Ref sig .tc} (h : r ∉ written0) :
    StableHlo.after hostOps0 V (Proc.devRef .tc r) = V (Proc.devRef .tc r) :=
  StableHlo.after_of_writes_sub hostOps0 V writes0 h

/-- The references `hostOps1` writes. -/
abbrev written1 : List (Ref sig .tc) := [main_v3, main_v4, main_v5, main_v6, main_c, main_v7, main_v8, main_c_0, main_v9, main_v10, main_v11, main_v12, main_v13, main_v14, main_v15, main_v16, main_cst, main_v17, main_v18, main_v19, main_v20, main_v21, main_v22, main_v23, main_v24]
theorem writes1 : (hostOps1 : List (HloOp τ sig (Elt F))).Forall fun op => op.writes ⊆ ((written1).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps1` does not write keeps its contents. -/
theorem keep1 (V : Valuation τ sig (Elt F)) {r : Ref sig .tc} (h : r ∉ written1) :
    StableHlo.after hostOps1 V (Proc.devRef .tc r) = V (Proc.devRef .tc r) :=
  StableHlo.after_of_writes_sub hostOps1 V writes1 h

/-- The references `hostOps2` writes. -/
abbrev written2 : List (Ref sig .tc) := [main_cst_1, main_v26, main_cst_2, main_v27, main_v28, main_c_3]
theorem writes2 : (hostOps2 : List (HloOp τ sig (Elt F))).Forall fun op => op.writes ⊆ ((written2).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps2` does not write keeps its contents. -/
theorem keep2 (V : Valuation τ sig (Elt F)) {r : Ref sig .tc} (h : r ∉ written2) :
    StableHlo.after hostOps2 V (Proc.devRef .tc r) = V (Proc.devRef .tc r) :=
  StableHlo.after_of_writes_sub hostOps2 V writes2 h

/-- The references `hostOps2_1` writes. -/
abbrev written2_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v29]
theorem writes2_1 : (hostOps2_1 : List (HloOp τ sig (Elt F))).Forall fun op => op.writes ⊆ ((written2_1).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps2_1` does not write keeps its contents. -/
theorem keep2_1 (V : Valuation τ sig (Elt F)) {r : Ref sig .tc} (h : r ∉ written2_1) :
    StableHlo.after hostOps2_1 V (Proc.devRef .tc r) = V (Proc.devRef .tc r) :=
  StableHlo.after_of_writes_sub hostOps2_1 V writes2_1 h

/-- The references `hostOps2_2` writes. -/
abbrev written2_2 : List (Ref sig .tc) := [main_cst_4, main_v30, main_v31, main_v32, main_v33, main_v34, main_v35, main_v36, main_v37, main_v38, main_v39, main_v40, main_v41, main_v42, main_v43, main_v44, main_v45, main_v46]
theorem writes2_2 : (hostOps2_2 : List (HloOp τ sig (Elt F))).Forall fun op => op.writes ⊆ ((written2_2).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps2_2` does not write keeps its contents. -/
theorem keep2_2 (V : Valuation τ sig (Elt F)) {r : Ref sig .tc} (h : r ∉ written2_2) :
    StableHlo.after hostOps2_2 V (Proc.devRef .tc r) = V (Proc.devRef .tc r) :=
  StableHlo.after_of_writes_sub hostOps2_2 V writes2_2 h

/-- The references `hostOps3` writes. -/
abbrev written3 : List (Ref sig .tc) := [main_cst_5, main_v48, main_cst_6, main_v49, main_v50, main_c_7]
theorem writes3 : (hostOps3 : List (HloOp τ sig (Elt F))).Forall fun op => op.writes ⊆ ((written3).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps3` does not write keeps its contents. -/
theorem keep3 (V : Valuation τ sig (Elt F)) {r : Ref sig .tc} (h : r ∉ written3) :
    StableHlo.after hostOps3 V (Proc.devRef .tc r) = V (Proc.devRef .tc r) :=
  StableHlo.after_of_writes_sub hostOps3 V writes3 h

/-- The references `hostOps3_1` writes. -/
abbrev written3_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v51]
theorem writes3_1 : (hostOps3_1 : List (HloOp τ sig (Elt F))).Forall fun op => op.writes ⊆ ((written3_1).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps3_1` does not write keeps its contents. -/
theorem keep3_1 (V : Valuation τ sig (Elt F)) {r : Ref sig .tc} (h : r ∉ written3_1) :
    StableHlo.after hostOps3_1 V (Proc.devRef .tc r) = V (Proc.devRef .tc r) :=
  StableHlo.after_of_writes_sub hostOps3_1 V writes3_1 h

/-- The references `hostOps3_2` writes. -/
abbrev written3_2 : List (Ref sig .tc) := [main_cst_8, main_v52, main_v53, main_v54, main_v55, main_v56, main_v57, main_v58, main_v59, main_v60, main_v61, main_v62, main_v63]
theorem writes3_2 : (hostOps3_2 : List (HloOp τ sig (Elt F))).Forall fun op => op.writes ⊆ ((written3_2).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps3_2` does not write keeps its contents. -/
theorem keep3_2 (V : Valuation τ sig (Elt F)) {r : Ref sig .tc} (h : r ∉ written3_2) :
    StableHlo.after hostOps3_2 V (Proc.devRef .tc r) = V (Proc.devRef .tc r) :=
  StableHlo.after_of_writes_sub hostOps3_2 V writes3_2 h

end Cert.KernelIdeal.KHost

end
-- ==== Proof.KHostL0.lean ====
/-
  Layer 0 of the kernel program read off the buffer contents at its segment boundaries.

  The contents at a boundary are a fold from the launch memory: a stretch of host operations rewrites the buffers its
  operations write, a region rewrites its output array and leaves every other buffer. Reading the fold at the buffers
  each region takes gives the region's inputs as terms of the launch contents of the arguments and of the features the
  layer was entered with; a buffer nothing in between writes is carried across unchanged.
-/
import proofs.«100402_j28432683499906_1_alg».proof.Proof.KernelIdealFrameP
import proofs.«100402_j28432683499906_1_alg».proof.Proof.KHostLayer
import proofs.«100402_j28432683499906_1_alg».proof.Proof.KHostS0
import proofs.«100402_j28432683499906_1_alg».proof.Proof.KHostKeep0

set_option maxRecDepth 16384

noncomputable section

namespace Cert.KernelIdeal.KHost

open Cert.KernelIdeal Cert.KernelIdeal.Gen Cert.KernelIdeal.GenP
open Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-! ## What crosses the layer untouched -/

/-- Neither the region after the first stretch nor the two stretches after it write the reference. -/
abbrev QuietA'0 (r : Ref sig .tc) : Prop :=
  (∀ w, Pipeline.arrRef spec1 w ≠ r) ∧ r ∉ written2 ∧ r ∉ written2_1
/-- From the layer's entry to the second stretch of the first statistics. -/
abbrev QuietA0 (r : Ref sig .tc) : Prop := r ∉ written1 ∧ QuietA'0 r
/-- From there to the second stretch of the second statistics. -/
abbrev QuietB0 (r : Ref sig .tc) : Prop :=
  r ∉ written2_2 ∧ (∀ w, Pipeline.arrRef spec2 w ≠ r) ∧ r ∉ written3 ∧ r ∉ written3_1
/-- From there to the layer's exit. -/
abbrev QuietC0 (r : Ref sig .tc) : Prop := r ∉ written3_2 ∧ (∀ w, Pipeline.arrRef spec3 w ≠ r)
/-- Across the whole layer. -/
abbrev QuietL0 (r : Ref sig .tc) : Prop := QuietA0 r ∧ QuietB0 r ∧ QuietC0 r

theorem carryA'0 (c : Dev nD) (r : Ref sig .tc) (h : QuietA'0 r) :
    W6 m ρ c (Proc.devRef .tc r) = W3 m ρ c (Proc.devRef .tc r) :=
  (keep2_1 (W5 m ρ c) h.2.2).trans ((keep2 (W4 m ρ c) h.2.1).trans (W4_of_ne m ρ c r h.1))
theorem carryA0 (c : Dev nD) (r : Ref sig .tc) (h : QuietA0 r) :
    W6 m ρ c (Proc.devRef .tc r) = W2 m ρ c (Proc.devRef .tc r) :=
  (carryA'0 m ρ c r h.2).trans (keep1 (W2 m ρ c) h.1)
theorem carryB0 (c : Dev nD) (r : Ref sig .tc) (h : QuietB0 r) :
    W10 m ρ c (Proc.devRef .tc r) = W6 m ρ c (Proc.devRef .tc r) :=
  (keep3_1 (W9 m ρ c) h.2.2.2).trans ((keep3 (W8 m ρ c) h.2.2.1).trans
    ((W8_of_ne m ρ c r h.2.1).trans (keep2_2 (W6 m ρ c) h.1)))
theorem carryC0 (c : Dev nD) (r : Ref sig .tc) (h : QuietC0 r) :
    W12 m ρ c (Proc.devRef .tc r) = W10 m ρ c (Proc.devRef .tc r) :=
  (W12_of_ne m ρ c r h.2).trans (keep3_2 (W10 m ρ c) h.1)
theorem carryL0 (c : Dev nD) (r : Ref sig .tc) (h : QuietL0 r) :
    W12 m ρ c (Proc.devRef .tc r) = W2 m ρ c (Proc.devRef .tc r) :=
  (carryC0 m ρ c r h.2.2).trans ((carryB0 m ρ c r h.2.1).trans (carryA0 m ρ c r h.1))

/-- Neither the first stretch nor the first region writes the reference. -/
abbrev QuietTo2 (r : Ref sig .tc) : Prop := r ∉ written0 ∧ ∀ w, Pipeline.arrRef spec0 w ≠ r
/-- Such a reference holds its launch contents when layer 0 is entered. -/
theorem W2_arg (c : Dev nD) (r : Ref sig .tc) (h : QuietTo2 r) :
    W2 m ρ c (Proc.devRef .tc r) = m ((c : Thread nD τ).loc r) :=
  (W2_of_ne m ρ c r h.2).trans (keep0 (W0 m ρ c) h.1)

/-- Untouched from the launch to this layer's exit. -/
abbrev QuietTo12 (r : Ref sig .tc) : Prop := QuietTo2 r ∧ QuietL0 r
/-- Such a reference holds its launch contents at this layer's exit. -/
theorem W12_arg (c : Dev nD) (r : Ref sig .tc) (h : QuietTo12 r) :
    W12 m ρ c (Proc.devRef .tc r) = m ((c : Thread nD τ).loc r) :=
  (carryL0 m ρ c r h.2).trans (W2_arg m ρ c r h.1)

/-! ## The edges' endpoints, computed once in layer 0's first stretch and read by every later layer -/

theorem W3_src (c : Dev nD) : W3 m ρ c (Proc.devRef .tc main_v4) = edgeSrc (m ((c : Thread nD τ).loc main_arg1)) :=
  (ops1_v4 (W2 m ρ c)).trans (by rw [W2_arg m ρ c main_arg1 (by decide)])
theorem W3_dst (c : Dev nD) : W3 m ρ c (Proc.devRef .tc main_v6) = edgeDst (m ((c : Thread nD τ).loc main_arg1)) :=
  (ops1_v6 (W2 m ρ c)).trans (by rw [W2_arg m ρ c main_arg1 (by decide)])
theorem W12_src (c : Dev nD) : W12 m ρ c (Proc.devRef .tc main_v4) = edgeSrc (m ((c : Thread nD τ).loc main_arg1)) :=
  (carryC0 m ρ c main_v4 (by decide)).trans ((carryB0 m ρ c main_v4 (by decide)).trans
    ((carryA'0 m ρ c main_v4 (by decide)).trans (W3_src m ρ c)))
theorem W12_dst (c : Dev nD) : W12 m ρ c (Proc.devRef .tc main_v6) = edgeDst (m ((c : Thread nD τ).loc main_arg1)) :=
  (carryC0 m ρ c main_v6 (by decide)).trans ((carryB0 m ρ c main_v6 (by decide)).trans
    ((carryA'0 m ρ c main_v6 (by decide)).trans (W3_dst m ρ c)))

/-! ## The first region: entry contents and result -/

theorem V3_agg (c : Dev nD) : V3 m ρ c main_v19 = agg (edgeSrc (m ((c : Thread nD τ).loc main_arg1))) (edgeDst (m ((c : Thread nD τ).loc main_arg1))) (m ((c : Thread nD τ).loc main_arg3)) (W2 m ρ c (Proc.devRef .tc main_v2)) :=
  (ops1_v19 (W2 m ρ c)).trans (by rw [W2_arg m ρ c main_arg1 (by decide), W2_arg m ρ c main_arg3 (by decide)])
theorem V3_h (c : Dev nD) : V3 m ρ c main_v2 = W2 m ρ c (Proc.devRef .tc main_v2) :=
  keep1 (W2 m ρ c) (by decide)
theorem V3_w1 (c : Dev nD) : V3 m ρ c main_v21 = (matAt (m ((c : Thread nD τ).loc main_arg6)) ![0, 0, 0] slices_S4x64x64_S1x64x64_0_0_0) :=
  (ops1_v21 (W2 m ρ c)).trans (by rw [W2_arg m ρ c main_arg6 (by decide)])
theorem V3_b1 (c : Dev nD) : V3 m ρ c main_v24 = asRow (vecAt (m ((c : Thread nD τ).loc main_arg7)) ![0, 0] slices_S4x64_S1x64_0_0) :=
  (ops1_v24 (W2 m ρ c)).trans (by rw [W2_arg m ρ c main_arg7 (by decide)])

/-- The first region's result, given what the region computes from its entry contents. -/
theorem W4_t1 (c : Dev nD) (R1 : Reg1 F)
    (hR1 : (dat1 (V3 m ρ) c).arrAt 4 cfg1.N = R1 (V3 m ρ c main_v19) (V3 m ρ c main_v2) (V3 m ρ c main_v21) (V3 m ρ c main_v24)) :
    W4 m ρ c (Proc.devRef .tc main_v25) = kT1 R1 (edgeSrc (m ((c : Thread nD τ).loc main_arg1))) (edgeDst (m ((c : Thread nD τ).loc main_arg1))) (m ((c : Thread nD τ).loc main_arg3)) (matAt (m ((c : Thread nD τ).loc main_arg6)) ![0, 0, 0] slices_S4x64x64_S1x64x64_0_0_0) (vecAt (m ((c : Thread nD τ).loc main_arg7)) ![0, 0] slices_S4x64_S1x64_0_0) (W2 m ρ c (Proc.devRef .tc main_v2)) :=
  (W4_arr m ρ c 4).trans (hR1.trans (by rw [V3_agg, V3_h, V3_w1, V3_b1]; rfl))

/-! ## The first statistics -/

theorem W5_t1 (c : Dev nD) : W5 m ρ c (Proc.devRef .tc main_v25) = W4 m ρ c (Proc.devRef .tc main_v25) := keep2 (W4 m ρ c) (by decide)
theorem W5_mu1 (c : Dev nD) : W5 m ρ c (Proc.devRef .tc main_v28) = mean (W4 m ρ c (Proc.devRef .tc main_v25)) := ops2_v28 (W4 m ρ c)
theorem W5_c1 (c : Dev nD) : W5 m ρ c (Proc.devRef .tc main_c_3) = ddof0 := ops2_c_3 (W4 m ρ c)
theorem W6_t1 (c : Dev nD) : W6 m ρ c (Proc.devRef .tc main_v25) = W4 m ρ c (Proc.devRef .tc main_v25) :=
  (keep2_1 (W5 m ρ c) (by decide)).trans (W5_t1 m ρ c)
theorem W6_mu1 (c : Dev nD) : W6 m ρ c (Proc.devRef .tc main_v28) = mean (W4 m ρ c (Proc.devRef .tc main_v25)) :=
  (keep2_1 (W5 m ρ c) (by decide)).trans (W5_mu1 m ρ c)
theorem W6_var1 (c : Dev nD) : W6 m ρ c (Proc.devRef .tc main_v29) = var (W4 m ρ c (Proc.devRef .tc main_v25)) ddof0 :=
  (ops2_1_v29 (W5 m ρ c)).trans (by rw [W5_t1 m ρ c, W5_c1 m ρ c])

/-! ## The second region: entry contents and result -/

theorem V7_t1 (c : Dev nD) : V7 m ρ c main_v25 = W4 m ρ c (Proc.devRef .tc main_v25) :=
  (keep2_2 (W6 m ρ c) (by decide)).trans (W6_t1 m ρ c)
theorem V7_sc1 (c : Dev nD) : V7 m ρ c main_v44 = asRow (foldSc (vecAt (m ((c : Thread nD τ).loc main_arg8)) ![0, 0] slices_S4x64_S1x64_0_0) (W4 m ρ c (Proc.devRef .tc main_v25))) :=
  (ops2_2_v44 (W6 m ρ c)).trans (by
    rw [((carryA0 m ρ c main_arg8 (by decide)).trans (W2_arg m ρ c main_arg8 (by decide))), W6_var1 m ρ c]; rfl)
theorem V7_sh1 (c : Dev nD) : V7 m ρ c main_v45 = asRow (foldSh (vecAt (m ((c : Thread nD τ).loc main_arg8)) ![0, 0] slices_S4x64_S1x64_0_0) (vecAt (m ((c : Thread nD τ).loc main_arg9)) ![0, 0] slices_S4x64_S1x64_0_0) (W4 m ρ c (Proc.devRef .tc main_v25))) :=
  (ops2_2_v45 (W6 m ρ c)).trans (by
    rw [((carryA0 m ρ c main_arg8 (by decide)).trans (W2_arg m ρ c main_arg8 (by decide))), ((carryA0 m ρ c main_arg9 (by decide)).trans (W2_arg m ρ c main_arg9 (by decide))), W6_var1 m ρ c, W6_mu1 m ρ c]; rfl)
theorem V7_w2 (c : Dev nD) : V7 m ρ c main_v41 = (matAt (m ((c : Thread nD τ).loc main_arg10)) ![0, 0, 0] slices_S4x64x64_S1x64x64_0_0_0) :=
  (ops2_2_v41 (W6 m ρ c)).trans (by rw [((carryA0 m ρ c main_arg10 (by decide)).trans (W2_arg m ρ c main_arg10 (by decide)))])
theorem V7_b2 (c : Dev nD) : V7 m ρ c main_v46 = asRow (vecAt (m ((c : Thread nD τ).loc main_arg11)) ![0, 0] slices_S4x64_S1x64_0_0) :=
  (ops2_2_v46 (W6 m ρ c)).trans (by rw [((carryA0 m ρ c main_arg11 (by decide)).trans (W2_arg m ρ c main_arg11 (by decide)))])

/-- The second region's result, given what the region computes from its entry contents. -/
theorem W8_t2 (c : Dev nD) (R2 : Reg2 F)
    (hR2 : (dat2 (V7 m ρ) c).arrAt 5 cfg2.N
      = R2 (V7 m ρ c main_v25) (V7 m ρ c main_v44) (V7 m ρ c main_v45) (V7 m ρ c main_v41) (V7 m ρ c main_v46)) :
    W8 m ρ c (Proc.devRef .tc main_v47) = kT2 R2 (W4 m ρ c (Proc.devRef .tc main_v25)) (vecAt (m ((c : Thread nD τ).loc main_arg8)) ![0, 0] slices_S4x64_S1x64_0_0) (vecAt (m ((c : Thread nD τ).loc main_arg9)) ![0, 0] slices_S4x64_S1x64_0_0) (matAt (m ((c : Thread nD τ).loc main_arg10)) ![0, 0, 0] slices_S4x64x64_S1x64x64_0_0_0) (vecAt (m ((c : Thread nD τ).loc main_arg11)) ![0, 0] slices_S4x64_S1x64_0_0) :=
  (W8_arr m ρ c 5).trans (hR2.trans (by rw [V7_t1, V7_sc1, V7_sh1, V7_w2, V7_b2]; rfl))

/-! ## The second statistics -/

theorem W9_t2 (c : Dev nD) : W9 m ρ c (Proc.devRef .tc main_v47) = W8 m ρ c (Proc.devRef .tc main_v47) := keep3 (W8 m ρ c) (by decide)
theorem W9_mu2 (c : Dev nD) : W9 m ρ c (Proc.devRef .tc main_v50) = mean (W8 m ρ c (Proc.devRef .tc main_v47)) := ops3_v50 (W8 m ρ c)
theorem W9_c2 (c : Dev nD) : W9 m ρ c (Proc.devRef .tc main_c_7) = ddof0 := ops3_c_7 (W8 m ρ c)
theorem W10_t2 (c : Dev nD) : W10 m ρ c (Proc.devRef .tc main_v47) = W8 m ρ c (Proc.devRef .tc main_v47) :=
  (keep3_1 (W9 m ρ c) (by decide)).trans (W9_t2 m ρ c)
theorem W10_mu2 (c : Dev nD) : W10 m ρ c (Proc.devRef .tc main_v50) = mean (W8 m ρ c (Proc.devRef .tc main_v47)) :=
  (keep3_1 (W9 m ρ c) (by decide)).trans (W9_mu2 m ρ c)
theorem W10_var2 (c : Dev nD) : W10 m ρ c (Proc.devRef .tc main_v51) = var (W8 m ρ c (Proc.devRef .tc main_v47)) ddof0 :=
  (ops3_1_v51 (W9 m ρ c)).trans (by rw [W9_t2 m ρ c, W9_c2 m ρ c])

/-! ## The third region: entry contents and result -/

/-- The features are an input of the first and third regions and no stretch writes them: they cross the layer. -/
theorem W4_h (c : Dev nD) : W4 m ρ c (Proc.devRef .tc main_v2) = W2 m ρ c (Proc.devRef .tc main_v2) :=
  ((W4_arr m ρ c 1).trans (((dat1 (V3 m ρ) c).arrAt_in 1 rfl _).trans (A_eq1 (V3 m ρ) c 1))).trans (V3_h m ρ c)
theorem V11_h (c : Dev nD) : V11 m ρ c main_v2 = W2 m ρ c (Proc.devRef .tc main_v2) :=
  (keep3_2 (W10 m ρ c) (by decide)).trans ((keep3_1 (W9 m ρ c) (by decide)).trans
    ((keep3 (W8 m ρ c) (by decide)).trans ((W8_of_ne m ρ c main_v2 (by decide)).trans
      ((keep2_2 (W6 m ρ c) (by decide)).trans ((keep2_1 (W5 m ρ c) (by decide)).trans
        ((keep2 (W4 m ρ c) (by decide)).trans (W4_h m ρ c)))))))
theorem V11_t2 (c : Dev nD) : V11 m ρ c main_v47 = W8 m ρ c (Proc.devRef .tc main_v47) :=
  (keep3_2 (W10 m ρ c) (by decide)).trans (W10_t2 m ρ c)
theorem V11_sc2 (c : Dev nD) : V11 m ρ c main_v62 = asRow (foldSc (vecAt (m ((c : Thread nD τ).loc main_arg12)) ![0, 0] slices_S4x64_S1x64_0_0) (W8 m ρ c (Proc.devRef .tc main_v47))) :=
  (ops3_2_v62 (W10 m ρ c)).trans (by
    rw [((carryB0 m ρ c main_arg12 (by decide)).trans ((carryA0 m ρ c main_arg12 (by decide)).trans (W2_arg m ρ c main_arg12 (by decide)))), W10_var2 m ρ c]; rfl)
theorem V11_sh2 (c : Dev nD) : V11 m ρ c main_v63 = asRow (foldSh (vecAt (m ((c : Thread nD τ).loc main_arg12)) ![0, 0] slices_S4x64_S1x64_0_0) (vecAt (m ((c : Thread nD τ).loc main_arg13)) ![0, 0] slices_S4x64_S1x64_0_0) (W8 m ρ c (Proc.devRef .tc main_v47))) :=
  (ops3_2_v63 (W10 m ρ c)).trans (by
    rw [((carryB0 m ρ c main_arg12 (by decide)).trans ((carryA0 m ρ c main_arg12 (by decide)).trans (W2_arg m ρ c main_arg12 (by decide)))), ((carryB0 m ρ c main_arg13 (by decide)).trans ((carryA0 m ρ c main_arg13 (by decide)).trans (W2_arg m ρ c main_arg13 (by decide)))), W10_var2 m ρ c, W10_mu2 m ρ c]; rfl)

/-- The third region's result, given what the region computes from its entry contents. -/
theorem W12_out (c : Dev nD) (R3 : Reg3 F)
    (hR3 : (dat3 (V11 m ρ) c).arrAt 4 cfg3.N
      = R3 (V11 m ρ c main_v47) (V11 m ρ c main_v62) (V11 m ρ c main_v63) (V11 m ρ c main_v2)) :
    W12 m ρ c (Proc.devRef .tc main_v64) = kOut R3 (W8 m ρ c (Proc.devRef .tc main_v47)) (vecAt (m ((c : Thread nD τ).loc main_arg12)) ![0, 0] slices_S4x64_S1x64_0_0) (vecAt (m ((c : Thread nD τ).loc main_arg13)) ![0, 0] slices_S4x64_S1x64_0_0) (W2 m ρ c (Proc.devRef .tc main_v2)) :=
  (W12_arr m ρ c 4).trans (hR3.trans (by rw [V11_t2, V11_sc2, V11_sh2, V11_h]; rfl))

/-! ## The layer -/

/-- Layer 0 end to end: the features at its exit are one layer of the features at its entry, over the launch contents
    of the edge table, the edge weights and the stacked parameters, given what its three regions compute. -/
theorem layer0 (c : Dev nD) (R1 : Reg1 F) (R2 : Reg2 F) (R3 : Reg3 F)
    (hR1 : (dat1 (V3 m ρ) c).arrAt 4 cfg1.N = R1 (V3 m ρ c main_v19) (V3 m ρ c main_v2) (V3 m ρ c main_v21) (V3 m ρ c main_v24))
    (hR2 : (dat2 (V7 m ρ) c).arrAt 5 cfg2.N
      = R2 (V7 m ρ c main_v25) (V7 m ρ c main_v44) (V7 m ρ c main_v45) (V7 m ρ c main_v41) (V7 m ρ c main_v46))
    (hR3 : (dat3 (V11 m ρ) c).arrAt 4 cfg3.N
      = R3 (V11 m ρ c main_v47) (V11 m ρ c main_v62) (V11 m ρ c main_v63) (V11 m ρ c main_v2)) :
    W12 m ρ c (Proc.devRef .tc main_v64) = kLayer R1 R2 R3 (edgeSrc (m ((c : Thread nD τ).loc main_arg1))) (edgeDst (m ((c : Thread nD τ).loc main_arg1))) (m ((c : Thread nD τ).loc main_arg3))
      (matAt (m ((c : Thread nD τ).loc main_arg6)) ![0, 0, 0] slices_S4x64x64_S1x64x64_0_0_0) (vecAt (m ((c : Thread nD τ).loc main_arg7)) ![0, 0] slices_S4x64_S1x64_0_0) (vecAt (m ((c : Thread nD τ).loc main_arg8)) ![0, 0] slices_S4x64_S1x64_0_0) (vecAt (m ((c : Thread nD τ).loc main_arg9)) ![0, 0] slices_S4x64_S1x64_0_0)
      (matAt (m ((c : Thread nD τ).loc main_arg10)) ![0, 0, 0] slices_S4x64x64_S1x64x64_0_0_0) (vecAt (m ((c : Thread nD τ).loc main_arg11)) ![0, 0] slices_S4x64_S1x64_0_0) (vecAt (m ((c : Thread nD τ).loc main_arg12)) ![0, 0] slices_S4x64_S1x64_0_0) (vecAt (m ((c : Thread nD τ).loc main_arg13)) ![0, 0] slices_S4x64_S1x64_0_0) (W2 m ρ c (Proc.devRef .tc main_v2)) := by
  rw [W12_out m ρ c R3 hR3, W8_t2 m ρ c R2 hR2, W4_t1 m ρ c R1 hR1]
  rfl

end Cert.KernelIdeal.KHost

end
-- ==== Proof.KHostS1.lean ====
/-
  Layer 1's stretches of host operations read back: from ANY contents V before a stretch, each buffer the stretch
  writes and a later region or stretch reads holds the named term of V at the stretch's inputs.
-/
import proofs.«100402_j28432683499906_1_alg».proof.Proof.KHostDefs

set_option maxRecDepth 16384

noncomputable section

namespace Cert.KernelIdeal.KHost

open Cert.KernelIdeal Cert.KernelIdeal.Gen
open Idealize.ShloMosaic Idealize.ShloMosaic.TcCoe Idealize.ShloMosaic.StableHlo

variable {F : FTy → Type} [FloatOps F]

theorem ops4_v77 (V : Valuation τ sig (Elt F)) :
    StableHlo.after hostOps4 V (Proc.devRef .tc main_v77) = agg (V (Proc.devRef .tc main_v4)) (V (Proc.devRef .tc main_v6)) (V (Proc.devRef .tc main_arg3)) (V (Proc.devRef .tc main_v64)) := by
  after_results_simp
  rfl
theorem ops4_v79 (V : Valuation τ sig (Elt F)) :
    StableHlo.after hostOps4 V (Proc.devRef .tc main_v79) = matAt (V (Proc.devRef .tc main_arg6)) ![1, 0, 0] slices_S4x64x64_S1x64x64_1_0_0 := by
  after_results_simp
  rfl
theorem ops4_v82 (V : Valuation τ sig (Elt F)) :
    StableHlo.after hostOps4 V (Proc.devRef .tc main_v82) = asRow (vecAt (V (Proc.devRef .tc main_arg7)) ![1, 0] slices_S4x64_S1x64_1_0) := by
  after_results_simp
  rfl
theorem ops5_v86 (V : Valuation τ sig (Elt F)) :
    StableHlo.after hostOps5 V (Proc.devRef .tc main_v86) = mean (V (Proc.devRef .tc main_v83)) := by
  after_results_simp
  rfl
theorem ops5_c_14 (V : Valuation τ sig (Elt F)) :
    StableHlo.after hostOps5 V (Proc.devRef .tc main_c_14) = ddof0 := by
  after_results_simp
  rfl
theorem ops5_1_v87 (V : Valuation τ sig (Elt F)) :
    StableHlo.after hostOps5_1 V (Proc.devRef .tc main_v87) = var (V (Proc.devRef .tc main_v83)) (V (Proc.devRef .tc main_c_14)) := by
  after_results_simp
  rfl
theorem ops5_2_v102 (V : Valuation τ sig (Elt F)) :
    StableHlo.after hostOps5_2 V (Proc.devRef .tc main_v102) = asRow (scale (vecAt (V (Proc.devRef .tc main_arg8)) ![1, 0] slices_S4x64_S1x64_1_0) (inv (V (Proc.devRef .tc main_v87)))) := by
  after_results_simp
  rfl
theorem ops5_2_v103 (V : Valuation τ sig (Elt F)) :
    StableHlo.after hostOps5_2 V (Proc.devRef .tc main_v103) = asRow (shift (vecAt (V (Proc.devRef .tc main_arg9)) ![1, 0] slices_S4x64_S1x64_1_0) (V (Proc.devRef .tc main_v86)) (scale (vecAt (V (Proc.devRef .tc main_arg8)) ![1, 0] slices_S4x64_S1x64_1_0) (inv (V (Proc.devRef .tc main_v87))))) := by
  after_results_simp
  rfl
theorem ops5_2_v99 (V : Valuation τ sig (Elt F)) :
    StableHlo.after hostOps5_2 V (Proc.devRef .tc main_v99) = matAt (V (Proc.devRef .tc main_arg10)) ![1, 0, 0] slices_S4x64x64_S1x64x64_1_0_0 := by
  after_results_simp
  rfl
theorem ops5_2_v104 (V : Valuation τ sig (Elt F)) :
    StableHlo.after hostOps5_2 V (Proc.devRef .tc main_v104) = asRow (vecAt (V (Proc.devRef .tc main_arg11)) ![1, 0] slices_S4x64_S1x64_1_0) := by
  after_results_simp
  rfl
theorem ops6_v108 (V : Valuation τ sig (Elt F)) :
    StableHlo.after hostOps6 V (Proc.devRef .tc main_v108) = mean (V (Proc.devRef .tc main_v105)) := by
  after_results_simp
  rfl
theorem ops6_c_18 (V : Valuation τ sig (Elt F)) :
    StableHlo.after hostOps6 V (Proc.devRef .tc main_c_18) = ddof0 := by
  after_results_simp
  rfl
theorem ops6_1_v109 (V : Valuation τ sig (Elt F)) :
    StableHlo.after hostOps6_1 V (Proc.devRef .tc main_v109) = var (V (Proc.devRef .tc main_v105)) (V (Proc.devRef .tc main_c_18)) := by
  after_results_simp
  rfl
theorem ops6_2_v120 (V : Valuation τ sig (Elt F)) :
    StableHlo.after hostOps6_2 V (Proc.devRef .tc main_v120) = asRow (scale (vecAt (V (Proc.devRef .tc main_arg12)) ![1, 0] slices_S4x64_S1x64_1_0) (inv (V (Proc.devRef .tc main_v109)))) := by
  after_results_simp
  rfl
theorem ops6_2_v121 (V : Valuation τ sig (Elt F)) :
    StableHlo.after hostOps6_2 V (Proc.devRef .tc main_v121) = asRow (shift (vecAt (V (Proc.devRef .tc main_arg13)) ![1, 0] slices_S4x64_S1x64_1_0) (V (Proc.devRef .tc main_v108)) (scale (vecAt (V (Proc.devRef .tc main_arg12)) ![1, 0] slices_S4x64_S1x64_1_0) (inv (V (Proc.devRef .tc main_v109))))) := by
  after_results_simp
  rfl

end Cert.KernelIdeal.KHost

end
-- ==== Proof.KHostKeep1.lean ====
/-
  What layer 1's stretches leave alone.
  A stretch of host operations changes only the buffers its operations write: each stretch's written references as one
  literal list, and every other reference's contents carried across the stretch unchanged, from ANY contents before it.
-/
import proofs.«100402_j28432683499906_1_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo

variable {F : FTy → Type} [FloatOps F]

/-- The references `hostOps4` writes. -/
abbrev written4 : List (Ref sig .tc) := [main_c_9, main_v65, main_v66, main_c_10, main_v67, main_v68, main_v69, main_v70, main_v71, main_v72, main_v73, main_v74, main_cst_11, main_v75, main_v76, main_v77, main_v78, main_v79, main_v80, main_v81, main_v82]
theorem writes4 : (hostOps4 : List (HloOp τ sig (Elt F))).Forall fun op => op.writes ⊆ ((written4).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps4` does not write keeps its contents. -/
theorem keep4 (V : Valuation τ sig (Elt F)) {r : Ref sig .tc} (h : r ∉ written4) :
    StableHlo.after hostOps4 V (Proc.devRef .tc r) = V (Proc.devRef .tc r) :=
  StableHlo.after_of_writes_sub hostOps4 V writes4 h

/-- The references `hostOps5` writes. -/
abbrev written5 : List (Ref sig .tc) := [main_cst_12, main_v84, main_cst_13, main_v85, main_v86, main_c_14]
theorem writes5 : (hostOps5 : List (HloOp τ sig (Elt F))).Forall fun op => op.writes ⊆ ((written5).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps5` does not write keeps its contents. -/
theorem keep5 (V : Valuation τ sig (Elt F)) {r : Ref sig .tc} (h : r ∉ written5) :
    StableHlo.after hostOps5 V (Proc.devRef .tc r) = V (Proc.devRef .tc r) :=
  StableHlo.after_of_writes_sub hostOps5 V writes5 h

/-- The references `hostOps5_1` writes. -/
abbrev written5_1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v87]
theorem writes5_1 : (hostOps5_1 : List (HloOp τ sig (Elt F))).Forall fun op => op.writes ⊆ ((written5_1).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps5_1` does not write keeps its contents. -/
theorem keep5_1 (V : Valuation τ sig (Elt F)) {r : Ref sig .tc} (h : r ∉ written5_1) :
    StableHlo.after hostOps5_1 V (Proc.devRef .tc r) = V (Proc.devRef .tc r) :=
  StableHlo.after_of_writes_sub hostOps5_1 V writes5_1 h

/-- The references `hostOps5_2` writes. -/
abbrev written5_2 : List (Ref sig .tc) := [main_cst_15, main_v88, main_v89, main_v90, main_v91, main_v92, main_v93, main_v94, main_v95, main_v96, main_v97, main_v98, main_v99, main_v100, main_v101, main_v102, main_v103, main_v104]
theorem writes5_2 : (hostOps5_2 : List (HloOp τ sig (Elt F))).Forall fun op => op.writes ⊆ ((written5_2).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps5_2` does not write keeps its contents. -/
theorem keep5_2 (V : Valuation τ sig (Elt F)) {r : Ref sig .tc} (h : r ∉ written5_2) :
    StableHlo.after hostOps5_2 V (Proc.devRef .tc r) = V (Proc.devRef .tc r) :=
  StableHlo.after_of_writes_sub hostOps5_2 V writes5_2 h

/-- The references `hostOps6` writes. -/
abbrev written6 : List (Ref sig .tc) := [main_cst_16, main_v106, main_cst_17, main_v107, main_v108, main_c_18]
theorem writes6 : (hostOps6 : List (HloOp τ sig (Elt F))).Forall fun op => op.writes ⊆ ((written6).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps6` does not write keeps its contents. -/
theorem keep6 (V : Valuation τ sig (Elt F)) {r : Ref sig .tc} (h : r ∉ written6) :
    StableHlo.after hostOps6 V (Proc.devRef .tc r) = V (Proc.devRef .tc r) :=
  StableHlo.after_of_writes_sub hostOps6 V writes6 h

/-- The references `hostOps6_1` writes. -/
abbrev written6_1 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v109]
theorem writes6_1 : (hostOps6_1 : List (HloOp τ sig (Elt F))).Forall fun op => op.writes ⊆ ((written6_1).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps6_1` does not write keeps its contents. -/
theorem keep6_1 (V : Valuation τ sig (Elt F)) {r : Ref sig .tc} (h : r ∉ written6_1) :
    StableHlo.after hostOps6_1 V (Proc.devRef .tc r) = V (Proc.devRef .tc r) :=
  StableHlo.after_of_writes_sub hostOps6_1 V writes6_1 h

/-- The references `hostOps6_2` writes. -/
abbrev written6_2 : List (Ref sig .tc) := [main_cst_19, main_v110, main_v111, main_v112, main_v113, main_v114, main_v115, main_v116, main_v117, main_v118, main_v119, main_v120, main_v121]
theorem writes6_2 : (hostOps6_2 : List (HloOp τ sig (Elt F))).Forall fun op => op.writes ⊆ ((written6_2).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps6_2` does not write keeps its contents. -/
theorem keep6_2 (V : Valuation τ sig (Elt F)) {r : Ref sig .tc} (h : r ∉ written6_2) :
    StableHlo.after hostOps6_2 V (Proc.devRef .tc r) = V (Proc.devRef .tc r) :=
  StableHlo.after_of_writes_sub hostOps6_2 V writes6_2 h

end Cert.KernelIdeal.KHost

end
-- ==== Proof.KHostL1.lean ====
/-
  Layer 1 of the kernel program read off the buffer contents at its segment boundaries.

  The contents at a boundary are a fold from the launch memory: a stretch of host operations rewrites the buffers its
  operations write, a region rewrites its output array and leaves every other buffer. Reading the fold at the buffers
  each region takes gives the region's inputs as terms of the launch contents of the arguments and of the features the
  layer was entered with; a buffer nothing in between writes is carried across unchanged.
-/
import proofs.«100402_j28432683499906_1_alg».proof.Proof.KHostL0
import proofs.«100402_j28432683499906_1_alg».proof.Proof.KHostS1
import proofs.«100402_j28432683499906_1_alg».proof.Proof.KHostKeep1

set_option maxRecDepth 16384

noncomputable section

namespace Cert.KernelIdeal.KHost

open Cert.KernelIdeal Cert.KernelIdeal.Gen Cert.KernelIdeal.GenP
open Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-! ## What crosses the layer untouched -/

/-- Neither the region after the first stretch nor the two stretches after it write the reference. -/
abbrev QuietA'1 (r : Ref sig .tc) : Prop :=
  (∀ w, Pipeline.arrRef spec4 w ≠ r) ∧ r ∉ written5 ∧ r ∉ written5_1
/-- From the layer's entry to the second stretch of the first statistics. -/
abbrev QuietA1 (r : Ref sig .tc) : Prop := r ∉ written4 ∧ QuietA'1 r
/-- From there to the second stretch of the second statistics. -/
abbrev QuietB1 (r : Ref sig .tc) : Prop :=
  r ∉ written5_2 ∧ (∀ w, Pipeline.arrRef spec5 w ≠ r) ∧ r ∉ written6 ∧ r ∉ written6_1
/-- From there to the layer's exit. -/
abbrev QuietC1 (r : Ref sig .tc) : Prop := r ∉ written6_2 ∧ (∀ w, Pipeline.arrRef spec6 w ≠ r)
/-- Across the whole layer. -/
abbrev QuietL1 (r : Ref sig .tc) : Prop := QuietA1 r ∧ QuietB1 r ∧ QuietC1 r

theorem carryA'1 (c : Dev nD) (r : Ref sig .tc) (h : QuietA'1 r) :
    W16 m ρ c (Proc.devRef .tc r) = W13 m ρ c (Proc.devRef .tc r) :=
  (keep5_1 (W15 m ρ c) h.2.2).trans ((keep5 (W14 m ρ c) h.2.1).trans (W14_of_ne m ρ c r h.1))
theorem carryA1 (c : Dev nD) (r : Ref sig .tc) (h : QuietA1 r) :
    W16 m ρ c (Proc.devRef .tc r) = W12 m ρ c (Proc.devRef .tc r) :=
  (carryA'1 m ρ c r h.2).trans (keep4 (W12 m ρ c) h.1)
theorem carryB1 (c : Dev nD) (r : Ref sig .tc) (h : QuietB1 r) :
    W20 m ρ c (Proc.devRef .tc r) = W16 m ρ c (Proc.devRef .tc r) :=
  (keep6_1 (W19 m ρ c) h.2.2.2).trans ((keep6 (W18 m ρ c) h.2.2.1).trans
    ((W18_of_ne m ρ c r h.2.1).trans (keep5_2 (W16 m ρ c) h.1)))
theorem carryC1 (c : Dev nD) (r : Ref sig .tc) (h : QuietC1 r) :
    W22 m ρ c (Proc.devRef .tc r) = W20 m ρ c (Proc.devRef .tc r) :=
  (W22_of_ne m ρ c r h.2).trans (keep6_2 (W20 m ρ c) h.1)
theorem carryL1 (c : Dev nD) (r : Ref sig .tc) (h : QuietL1 r) :
    W22 m ρ c (Proc.devRef .tc r) = W12 m ρ c (Proc.devRef .tc r) :=
  (carryC1 m ρ c r h.2.2).trans ((carryB1 m ρ c r h.2.1).trans (carryA1 m ρ c r h.1))

/-- Untouched from the launch to this layer's exit. -/
abbrev QuietTo22 (r : Ref sig .tc) : Prop := QuietTo12 r ∧ QuietL1 r
/-- Such a reference holds its launch contents at this layer's exit. -/
theorem W22_arg (c : Dev nD) (r : Ref sig .tc) (h : QuietTo22 r) :
    W22 m ρ c (Proc.devRef .tc r) = m ((c : Thread nD τ).loc r) :=
  (carryL1 m ρ c r h.2).trans (W12_arg m ρ c r h.1)

/-! ## The edges' endpoints carried across the layer -/

theorem W22_src (c : Dev nD) : W22 m ρ c (Proc.devRef .tc main_v4) = edgeSrc (m ((c : Thread nD τ).loc main_arg1)) :=
  (carryL1 m ρ c main_v4 (by decide)).trans (W12_src m ρ c)
theorem W22_dst (c : Dev nD) : W22 m ρ c (Proc.devRef .tc main_v6) = edgeDst (m ((c : Thread nD τ).loc main_arg1)) :=
  (carryL1 m ρ c main_v6 (by decide)).trans (W12_dst m ρ c)

/-! ## The first region: entry contents and result -/

theorem V13_agg (c : Dev nD) : V13 m ρ c main_v77 = agg (edgeSrc (m ((c : Thread nD τ).loc main_arg1))) (edgeDst (m ((c : Thread nD τ).loc main_arg1))) (m ((c : Thread nD τ).loc main_arg3)) (W12 m ρ c (Proc.devRef .tc main_v64)) :=
  (ops4_v77 (W12 m ρ c)).trans (by rw [W12_src m ρ c, W12_dst m ρ c, W12_arg m ρ c main_arg3 (by decide)])
theorem V13_h (c : Dev nD) : V13 m ρ c main_v64 = W12 m ρ c (Proc.devRef .tc main_v64) :=
  keep4 (W12 m ρ c) (by decide)
theorem V13_w1 (c : Dev nD) : V13 m ρ c main_v79 = (matAt (m ((c : Thread nD τ).loc main_arg6)) ![1, 0, 0] slices_S4x64x64_S1x64x64_1_0_0) :=
  (ops4_v79 (W12 m ρ c)).trans (by rw [W12_arg m ρ c main_arg6 (by decide)])
theorem V13_b1 (c : Dev nD) : V13 m ρ c main_v82 = asRow (vecAt (m ((c : Thread nD τ).loc main_arg7)) ![1, 0] slices_S4x64_S1x64_1_0) :=
  (ops4_v82 (W12 m ρ c)).trans (by rw [W12_arg m ρ c main_arg7 (by decide)])

/-- The first region's result, given what the region computes from its entry contents. -/
theorem W14_t1 (c : Dev nD) (R1 : Reg1 F)
    (hR1 : (dat4 (V13 m ρ) c).arrAt 4 cfg4.N = R1 (V13 m ρ c main_v77) (V13 m ρ c main_v64) (V13 m ρ c main_v79) (V13 m ρ c main_v82)) :
    W14 m ρ c (Proc.devRef .tc main_v83) = kT1 R1 (edgeSrc (m ((c : Thread nD τ).loc main_arg1))) (edgeDst (m ((c : Thread nD τ).loc main_arg1))) (m ((c : Thread nD τ).loc main_arg3)) (matAt (m ((c : Thread nD τ).loc main_arg6)) ![1, 0, 0] slices_S4x64x64_S1x64x64_1_0_0) (vecAt (m ((c : Thread nD τ).loc main_arg7)) ![1, 0] slices_S4x64_S1x64_1_0) (W12 m ρ c (Proc.devRef .tc main_v64)) :=
  (W14_arr m ρ c 4).trans (hR1.trans (by rw [V13_agg, V13_h, V13_w1, V13_b1]; rfl))

/-! ## The first statistics -/

theorem W15_t1 (c : Dev nD) : W15 m ρ c (Proc.devRef .tc main_v83) = W14 m ρ c (Proc.devRef .tc main_v83) := keep5 (W14 m ρ c) (by decide)
theorem W15_mu1 (c : Dev nD) : W15 m ρ c (Proc.devRef .tc main_v86) = mean (W14 m ρ c (Proc.devRef .tc main_v83)) := ops5_v86 (W14 m ρ c)
theorem W15_c1 (c : Dev nD) : W15 m ρ c (Proc.devRef .tc main_c_14) = ddof0 := ops5_c_14 (W14 m ρ c)
theorem W16_t1 (c : Dev nD) : W16 m ρ c (Proc.devRef .tc main_v83) = W14 m ρ c (Proc.devRef .tc main_v83) :=
  (keep5_1 (W15 m ρ c) (by decide)).trans (W15_t1 m ρ c)
theorem W16_mu1 (c : Dev nD) : W16 m ρ c (Proc.devRef .tc main_v86) = mean (W14 m ρ c (Proc.devRef .tc main_v83)) :=
  (keep5_1 (W15 m ρ c) (by decide)).trans (W15_mu1 m ρ c)
theorem W16_var1 (c : Dev nD) : W16 m ρ c (Proc.devRef .tc main_v87) = var (W14 m ρ c (Proc.devRef .tc main_v83)) ddof0 :=
  (ops5_1_v87 (W15 m ρ c)).trans (by rw [W15_t1 m ρ c, W15_c1 m ρ c])

/-! ## The second region: entry contents and result -/

theorem V17_t1 (c : Dev nD) : V17 m ρ c main_v83 = W14 m ρ c (Proc.devRef .tc main_v83) :=
  (keep5_2 (W16 m ρ c) (by decide)).trans (W16_t1 m ρ c)
theorem V17_sc1 (c : Dev nD) : V17 m ρ c main_v102 = asRow (foldSc (vecAt (m ((c : Thread nD τ).loc main_arg8)) ![1, 0] slices_S4x64_S1x64_1_0) (W14 m ρ c (Proc.devRef .tc main_v83))) :=
  (ops5_2_v102 (W16 m ρ c)).trans (by
    rw [((carryA1 m ρ c main_arg8 (by decide)).trans (W12_arg m ρ c main_arg8 (by decide))), W16_var1 m ρ c]; rfl)
theorem V17_sh1 (c : Dev nD) : V17 m ρ c main_v103 = asRow (foldSh (vecAt (m ((c : Thread nD τ).loc main_arg8)) ![1, 0] slices_S4x64_S1x64_1_0) (vecAt (m ((c : Thread nD τ).loc main_arg9)) ![1, 0] slices_S4x64_S1x64_1_0) (W14 m ρ c (Proc.devRef .tc main_v83))) :=
  (ops5_2_v103 (W16 m ρ c)).trans (by
    rw [((carryA1 m ρ c main_arg8 (by decide)).trans (W12_arg m ρ c main_arg8 (by decide))), ((carryA1 m ρ c main_arg9 (by decide)).trans (W12_arg m ρ c main_arg9 (by decide))), W16_var1 m ρ c, W16_mu1 m ρ c]; rfl)
theorem V17_w2 (c : Dev nD) : V17 m ρ c main_v99 = (matAt (m ((c : Thread nD τ).loc main_arg10)) ![1, 0, 0] slices_S4x64x64_S1x64x64_1_0_0) :=
  (ops5_2_v99 (W16 m ρ c)).trans (by rw [((carryA1 m ρ c main_arg10 (by decide)).trans (W12_arg m ρ c main_arg10 (by decide)))])
theorem V17_b2 (c : Dev nD) : V17 m ρ c main_v104 = asRow (vecAt (m ((c : Thread nD τ).loc main_arg11)) ![1, 0] slices_S4x64_S1x64_1_0) :=
  (ops5_2_v104 (W16 m ρ c)).trans (by rw [((carryA1 m ρ c main_arg11 (by decide)).trans (W12_arg m ρ c main_arg11 (by decide)))])

/-- The second region's result, given what the region computes from its entry contents. -/
theorem W18_t2 (c : Dev nD) (R2 : Reg2 F)
    (hR2 : (dat5 (V17 m ρ) c).arrAt 5 cfg5.N
      = R2 (V17 m ρ c main_v83) (V17 m ρ c main_v102) (V17 m ρ c main_v103) (V17 m ρ c main_v99) (V17 m ρ c main_v104)) :
    W18 m ρ c (Proc.devRef .tc main_v105) = kT2 R2 (W14 m ρ c (Proc.devRef .tc main_v83)) (vecAt (m ((c : Thread nD τ).loc main_arg8)) ![1, 0] slices_S4x64_S1x64_1_0) (vecAt (m ((c : Thread nD τ).loc main_arg9)) ![1, 0] slices_S4x64_S1x64_1_0) (matAt (m ((c : Thread nD τ).loc main_arg10)) ![1, 0, 0] slices_S4x64x64_S1x64x64_1_0_0) (vecAt (m ((c : Thread nD τ).loc main_arg11)) ![1, 0] slices_S4x64_S1x64_1_0) :=
  (W18_arr m ρ c 5).trans (hR2.trans (by rw [V17_t1, V17_sc1, V17_sh1, V17_w2, V17_b2]; rfl))

/-! ## The second statistics -/

theorem W19_t2 (c : Dev nD) : W19 m ρ c (Proc.devRef .tc main_v105) = W18 m ρ c (Proc.devRef .tc main_v105) := keep6 (W18 m ρ c) (by decide)
theorem W19_mu2 (c : Dev nD) : W19 m ρ c (Proc.devRef .tc main_v108) = mean (W18 m ρ c (Proc.devRef .tc main_v105)) := ops6_v108 (W18 m ρ c)
theorem W19_c2 (c : Dev nD) : W19 m ρ c (Proc.devRef .tc main_c_18) = ddof0 := ops6_c_18 (W18 m ρ c)
theorem W20_t2 (c : Dev nD) : W20 m ρ c (Proc.devRef .tc main_v105) = W18 m ρ c (Proc.devRef .tc main_v105) :=
  (keep6_1 (W19 m ρ c) (by decide)).trans (W19_t2 m ρ c)
theorem W20_mu2 (c : Dev nD) : W20 m ρ c (Proc.devRef .tc main_v108) = mean (W18 m ρ c (Proc.devRef .tc main_v105)) :=
  (keep6_1 (W19 m ρ c) (by decide)).trans (W19_mu2 m ρ c)
theorem W20_var2 (c : Dev nD) : W20 m ρ c (Proc.devRef .tc main_v109) = var (W18 m ρ c (Proc.devRef .tc main_v105)) ddof0 :=
  (ops6_1_v109 (W19 m ρ c)).trans (by rw [W19_t2 m ρ c, W19_c2 m ρ c])

/-! ## The third region: entry contents and result -/

/-- The features are an input of the first and third regions and no stretch writes them: they cross the layer. -/
theorem W14_h (c : Dev nD) : W14 m ρ c (Proc.devRef .tc main_v64) = W12 m ρ c (Proc.devRef .tc main_v64) :=
  ((W14_arr m ρ c 1).trans (((dat4 (V13 m ρ) c).arrAt_in 1 rfl _).trans (A_eq4 (V13 m ρ) c 1))).trans (V13_h m ρ c)
theorem V21_h (c : Dev nD) : V21 m ρ c main_v64 = W12 m ρ c (Proc.devRef .tc main_v64) :=
  (keep6_2 (W20 m ρ c) (by decide)).trans ((keep6_1 (W19 m ρ c) (by decide)).trans
    ((keep6 (W18 m ρ c) (by decide)).trans ((W18_of_ne m ρ c main_v64 (by decide)).trans
      ((keep5_2 (W16 m ρ c) (by decide)).trans ((keep5_1 (W15 m ρ c) (by decide)).trans
        ((keep5 (W14 m ρ c) (by decide)).trans (W14_h m ρ c)))))))
theorem V21_t2 (c : Dev nD) : V21 m ρ c main_v105 = W18 m ρ c (Proc.devRef .tc main_v105) :=
  (keep6_2 (W20 m ρ c) (by decide)).trans (W20_t2 m ρ c)
theorem V21_sc2 (c : Dev nD) : V21 m ρ c main_v120 = asRow (foldSc (vecAt (m ((c : Thread nD τ).loc main_arg12)) ![1, 0] slices_S4x64_S1x64_1_0) (W18 m ρ c (Proc.devRef .tc main_v105))) :=
  (ops6_2_v120 (W20 m ρ c)).trans (by
    rw [((carryB1 m ρ c main_arg12 (by decide)).trans ((carryA1 m ρ c main_arg12 (by decide)).trans (W12_arg m ρ c main_arg12 (by decide)))), W20_var2 m ρ c]; rfl)
theorem V21_sh2 (c : Dev nD) : V21 m ρ c main_v121 = asRow (foldSh (vecAt (m ((c : Thread nD τ).loc main_arg12)) ![1, 0] slices_S4x64_S1x64_1_0) (vecAt (m ((c : Thread nD τ).loc main_arg13)) ![1, 0] slices_S4x64_S1x64_1_0) (W18 m ρ c (Proc.devRef .tc main_v105))) :=
  (ops6_2_v121 (W20 m ρ c)).trans (by
    rw [((carryB1 m ρ c main_arg12 (by decide)).trans ((carryA1 m ρ c main_arg12 (by decide)).trans (W12_arg m ρ c main_arg12 (by decide)))), ((carryB1 m ρ c main_arg13 (by decide)).trans ((carryA1 m ρ c main_arg13 (by decide)).trans (W12_arg m ρ c main_arg13 (by decide)))), W20_var2 m ρ c, W20_mu2 m ρ c]; rfl)

/-- The third region's result, given what the region computes from its entry contents. -/
theorem W22_out (c : Dev nD) (R3 : Reg3 F)
    (hR3 : (dat6 (V21 m ρ) c).arrAt 4 cfg6.N
      = R3 (V21 m ρ c main_v105) (V21 m ρ c main_v120) (V21 m ρ c main_v121) (V21 m ρ c main_v64)) :
    W22 m ρ c (Proc.devRef .tc main_v122) = kOut R3 (W18 m ρ c (Proc.devRef .tc main_v105)) (vecAt (m ((c : Thread nD τ).loc main_arg12)) ![1, 0] slices_S4x64_S1x64_1_0) (vecAt (m ((c : Thread nD τ).loc main_arg13)) ![1, 0] slices_S4x64_S1x64_1_0) (W12 m ρ c (Proc.devRef .tc main_v64)) :=
  (W22_arr m ρ c 4).trans (hR3.trans (by rw [V21_t2, V21_sc2, V21_sh2, V21_h]; rfl))

/-! ## The layer -/

/-- Layer 1 end to end: the features at its exit are one layer of the features at its entry, over the launch contents
    of the edge table, the edge weights and the stacked parameters, given what its three regions compute. -/
theorem layer1 (c : Dev nD) (R1 : Reg1 F) (R2 : Reg2 F) (R3 : Reg3 F)
    (hR1 : (dat4 (V13 m ρ) c).arrAt 4 cfg4.N = R1 (V13 m ρ c main_v77) (V13 m ρ c main_v64) (V13 m ρ c main_v79) (V13 m ρ c main_v82))
    (hR2 : (dat5 (V17 m ρ) c).arrAt 5 cfg5.N
      = R2 (V17 m ρ c main_v83) (V17 m ρ c main_v102) (V17 m ρ c main_v103) (V17 m ρ c main_v99) (V17 m ρ c main_v104))
    (hR3 : (dat6 (V21 m ρ) c).arrAt 4 cfg6.N
      = R3 (V21 m ρ c main_v105) (V21 m ρ c main_v120) (V21 m ρ c main_v121) (V21 m ρ c main_v64)) :
    W22 m ρ c (Proc.devRef .tc main_v122) = kLayer R1 R2 R3 (edgeSrc (m ((c : Thread nD τ).loc main_arg1))) (edgeDst (m ((c : Thread nD τ).loc main_arg1))) (m ((c : Thread nD τ).loc main_arg3))
      (matAt (m ((c : Thread nD τ).loc main_arg6)) ![1, 0, 0] slices_S4x64x64_S1x64x64_1_0_0) (vecAt (m ((c : Thread nD τ).loc main_arg7)) ![1, 0] slices_S4x64_S1x64_1_0) (vecAt (m ((c : Thread nD τ).loc main_arg8)) ![1, 0] slices_S4x64_S1x64_1_0) (vecAt (m ((c : Thread nD τ).loc main_arg9)) ![1, 0] slices_S4x64_S1x64_1_0)
      (matAt (m ((c : Thread nD τ).loc main_arg10)) ![1, 0, 0] slices_S4x64x64_S1x64x64_1_0_0) (vecAt (m ((c : Thread nD τ).loc main_arg11)) ![1, 0] slices_S4x64_S1x64_1_0) (vecAt (m ((c : Thread nD τ).loc main_arg12)) ![1, 0] slices_S4x64_S1x64_1_0) (vecAt (m ((c : Thread nD τ).loc main_arg13)) ![1, 0] slices_S4x64_S1x64_1_0) (W12 m ρ c (Proc.devRef .tc main_v64)) := by
  rw [W22_out m ρ c R3 hR3, W18_t2 m ρ c R2 hR2, W14_t1 m ρ c R1 hR1]
  rfl

end Cert.KernelIdeal.KHost

end
-- ==== Proof.KHostS2.lean ====
/-
  Layer 2's stretches of host operations read back: from ANY contents V before a stretch, each buffer the stretch
  writes and a later region or stretch reads holds the named term of V at the stretch's inputs.
-/
import proofs.«100402_j28432683499906_1_alg».proof.Proof.KHostDefs

set_option maxRecDepth 16384

noncomputable section

namespace Cert.KernelIdeal.KHost

open Cert.KernelIdeal Cert.KernelIdeal.Gen
open Idealize.ShloMosaic Idealize.ShloMosaic.TcCoe Idealize.ShloMosaic.StableHlo

variable {F : FTy → Type} [FloatOps F]

theorem ops7_v135 (V : Valuation τ sig (Elt F)) :
    StableHlo.after hostOps7 V (Proc.devRef .tc main_v135) = agg (V (Proc.devRef .tc main_v4)) (V (Proc.devRef .tc main_v6)) (V (Proc.devRef .tc main_arg3)) (V (Proc.devRef .tc main_v122)) := by
  after_results_simp
  rfl
theorem ops7_v137 (V : Valuation τ sig (Elt F)) :
    StableHlo.after hostOps7 V (Proc.devRef .tc main_v137) = matAt (V (Proc.devRef .tc main_arg6)) ![2, 0, 0] slices_S4x64x64_S1x64x64_2_0_0 := by
  after_results_simp
  rfl
theorem ops7_v140 (V : Valuation τ sig (Elt F)) :
    StableHlo.after hostOps7 V (Proc.devRef .tc main_v140) = asRow (vecAt (V (Proc.devRef .tc main_arg7)) ![2, 0] slices_S4x64_S1x64_2_0) := by
  after_results_simp
  rfl
theorem ops8_v144 (V : Valuation τ sig (Elt F)) :
    StableHlo.after hostOps8 V (Proc.devRef .tc main_v144) = mean (V (Proc.devRef .tc main_v141)) := by
  after_results_simp
  rfl
theorem ops8_c_25 (V : Valuation τ sig (Elt F)) :
    StableHlo.after hostOps8 V (Proc.devRef .tc main_c_25) = ddof0 := by
  after_results_simp
  rfl
theorem ops8_1_v145 (V : Valuation τ sig (Elt F)) :
    StableHlo.after hostOps8_1 V (Proc.devRef .tc main_v145) = var (V (Proc.devRef .tc main_v141)) (V (Proc.devRef .tc main_c_25)) := by
  after_results_simp
  rfl
theorem ops8_2_v160 (V : Valuation τ sig (Elt F)) :
    StableHlo.after hostOps8_2 V (Proc.devRef .tc main_v160) = asRow (scale (vecAt (V (Proc.devRef .tc main_arg8)) ![2, 0] slices_S4x64_S1x64_2_0) (inv (V (Proc.devRef .tc main_v145)))) := by
  after_results_simp
  rfl
theorem ops8_2_v161 (V : Valuation τ sig (Elt F)) :
    StableHlo.after hostOps8_2 V (Proc.devRef .tc main_v161) = asRow (shift (vecAt (V (Proc.devRef .tc main_arg9)) ![2, 0] slices_S4x64_S1x64_2_0) (V (Proc.devRef .tc main_v144)) (scale (vecAt (V (Proc.devRef .tc main_arg8)) ![2, 0] slices_S4x64_S1x64_2_0) (inv (V (Proc.devRef .tc main_v145))))) := by
  after_results_simp
  rfl
theorem ops8_2_v157 (V : Valuation τ sig (Elt F)) :
    StableHlo.after hostOps8_2 V (Proc.devRef .tc main_v157) = matAt (V (Proc.devRef .tc main_arg10)) ![2, 0, 0] slices_S4x64x64_S1x64x64_2_0_0 := by
  after_results_simp
  rfl
theorem ops8_2_v162 (V : Valuation τ sig (Elt F)) :
    StableHlo.after hostOps8_2 V (Proc.devRef .tc main_v162) = asRow (vecAt (V (Proc.devRef .tc main_arg11)) ![2, 0] slices_S4x64_S1x64_2_0) := by
  after_results_simp
  rfl
theorem ops9_v166 (V : Valuation τ sig (Elt F)) :
    StableHlo.after hostOps9 V (Proc.devRef .tc main_v166) = mean (V (Proc.devRef .tc main_v163)) := by
  after_results_simp
  rfl
theorem ops9_c_29 (V : Valuation τ sig (Elt F)) :
    StableHlo.after hostOps9 V (Proc.devRef .tc main_c_29) = ddof0 := by
  after_results_simp
  rfl
theorem ops9_1_v167 (V : Valuation τ sig (Elt F)) :
    StableHlo.after hostOps9_1 V (Proc.devRef .tc main_v167) = var (V (Proc.devRef .tc main_v163)) (V (Proc.devRef .tc main_c_29)) := by
  after_results_simp
  rfl
theorem ops9_2_v178 (V : Valuation τ sig (Elt F)) :
    StableHlo.after hostOps9_2 V (Proc.devRef .tc main_v178) = asRow (scale (vecAt (V (Proc.devRef .tc main_arg12)) ![2, 0] slices_S4x64_S1x64_2_0) (inv (V (Proc.devRef .tc main_v167)))) := by
  after_results_simp
  rfl
theorem ops9_2_v179 (V : Valuation τ sig (Elt F)) :
    StableHlo.after hostOps9_2 V (Proc.devRef .tc main_v179) = asRow (shift (vecAt (V (Proc.devRef .tc main_arg13)) ![2, 0] slices_S4x64_S1x64_2_0) (V (Proc.devRef .tc main_v166)) (scale (vecAt (V (Proc.devRef .tc main_arg12)) ![2, 0] slices_S4x64_S1x64_2_0) (inv (V (Proc.devRef .tc main_v167))))) := by
  after_results_simp
  rfl

end Cert.KernelIdeal.KHost

end
-- ==== Proof.KHostKeep2.lean ====
/-
  What layer 2's stretches leave alone.
  A stretch of host operations changes only the buffers its operations write: each stretch's written references as one
  literal list, and every other reference's contents carried across the stretch unchanged, from ANY contents before it.
-/
import proofs.«100402_j28432683499906_1_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo

variable {F : FTy → Type} [FloatOps F]

/-- The references `hostOps7` writes. -/
abbrev written7 : List (Ref sig .tc) := [main_c_20, main_v123, main_v124, main_c_21, main_v125, main_v126, main_v127, main_v128, main_v129, main_v130, main_v131, main_v132, main_cst_22, main_v133, main_v134, main_v135, main_v136, main_v137, main_v138, main_v139, main_v140]
theorem writes7 : (hostOps7 : List (HloOp τ sig (Elt F))).Forall fun op => op.writes ⊆ ((written7).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps7` does not write keeps its contents. -/
theorem keep7 (V : Valuation τ sig (Elt F)) {r : Ref sig .tc} (h : r ∉ written7) :
    StableHlo.after hostOps7 V (Proc.devRef .tc r) = V (Proc.devRef .tc r) :=
  StableHlo.after_of_writes_sub hostOps7 V writes7 h

/-- The references `hostOps8` writes. -/
abbrev written8 : List (Ref sig .tc) := [main_cst_23, main_v142, main_cst_24, main_v143, main_v144, main_c_25]
theorem writes8 : (hostOps8 : List (HloOp τ sig (Elt F))).Forall fun op => op.writes ⊆ ((written8).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps8` does not write keeps its contents. -/
theorem keep8 (V : Valuation τ sig (Elt F)) {r : Ref sig .tc} (h : r ∉ written8) :
    StableHlo.after hostOps8 V (Proc.devRef .tc r) = V (Proc.devRef .tc r) :=
  StableHlo.after_of_writes_sub hostOps8 V writes8 h

/-- The references `hostOps8_1` writes. -/
abbrev written8_1 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v145]
theorem writes8_1 : (hostOps8_1 : List (HloOp τ sig (Elt F))).Forall fun op => op.writes ⊆ ((written8_1).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps8_1` does not write keeps its contents. -/
theorem keep8_1 (V : Valuation τ sig (Elt F)) {r : Ref sig .tc} (h : r ∉ written8_1) :
    StableHlo.after hostOps8_1 V (Proc.devRef .tc r) = V (Proc.devRef .tc r) :=
  StableHlo.after_of_writes_sub hostOps8_1 V writes8_1 h

/-- The references `hostOps8_2` writes. -/
abbrev written8_2 : List (Ref sig .tc) := [main_cst_26, main_v146, main_v147, main_v148, main_v149, main_v150, main_v151, main_v152, main_v153, main_v154, main_v155, main_v156, main_v157, main_v158, main_v159, main_v160, main_v161, main_v162]
theorem writes8_2 : (hostOps8_2 : List (HloOp τ sig (Elt F))).Forall fun op => op.writes ⊆ ((written8_2).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps8_2` does not write keeps its contents. -/
theorem keep8_2 (V : Valuation τ sig (Elt F)) {r : Ref sig .tc} (h : r ∉ written8_2) :
    StableHlo.after hostOps8_2 V (Proc.devRef .tc r) = V (Proc.devRef .tc r) :=
  StableHlo.after_of_writes_sub hostOps8_2 V writes8_2 h

/-- The references `hostOps9` writes. -/
abbrev written9 : List (Ref sig .tc) := [main_cst_27, main_v164, main_cst_28, main_v165, main_v166, main_c_29]
theorem writes9 : (hostOps9 : List (HloOp τ sig (Elt F))).Forall fun op => op.writes ⊆ ((written9).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps9` does not write keeps its contents. -/
theorem keep9 (V : Valuation τ sig (Elt F)) {r : Ref sig .tc} (h : r ∉ written9) :
    StableHlo.after hostOps9 V (Proc.devRef .tc r) = V (Proc.devRef .tc r) :=
  StableHlo.after_of_writes_sub hostOps9 V writes9 h

/-- The references `hostOps9_1` writes. -/
abbrev written9_1 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v167]
theorem writes9_1 : (hostOps9_1 : List (HloOp τ sig (Elt F))).Forall fun op => op.writes ⊆ ((written9_1).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps9_1` does not write keeps its contents. -/
theorem keep9_1 (V : Valuation τ sig (Elt F)) {r : Ref sig .tc} (h : r ∉ written9_1) :
    StableHlo.after hostOps9_1 V (Proc.devRef .tc r) = V (Proc.devRef .tc r) :=
  StableHlo.after_of_writes_sub hostOps9_1 V writes9_1 h

/-- The references `hostOps9_2` writes. -/
abbrev written9_2 : List (Ref sig .tc) := [main_cst_30, main_v168, main_v169, main_v170, main_v171, main_v172, main_v173, main_v174, main_v175, main_v176, main_v177, main_v178, main_v179]
theorem writes9_2 : (hostOps9_2 : List (HloOp τ sig (Elt F))).Forall fun op => op.writes ⊆ ((written9_2).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps9_2` does not write keeps its contents. -/
theorem keep9_2 (V : Valuation τ sig (Elt F)) {r : Ref sig .tc} (h : r ∉ written9_2) :
    StableHlo.after hostOps9_2 V (Proc.devRef .tc r) = V (Proc.devRef .tc r) :=
  StableHlo.after_of_writes_sub hostOps9_2 V writes9_2 h

end Cert.KernelIdeal.KHost

end
-- ==== Proof.KHostL2.lean ====
/-
  Layer 2 of the kernel program read off the buffer contents at its segment boundaries.

  The contents at a boundary are a fold from the launch memory: a stretch of host operations rewrites the buffers its
  operations write, a region rewrites its output array and leaves every other buffer. Reading the fold at the buffers
  each region takes gives the region's inputs as terms of the launch contents of the arguments and of the features the
  layer was entered with; a buffer nothing in between writes is carried across unchanged.
-/
import proofs.«100402_j28432683499906_1_alg».proof.Proof.KHostL1
import proofs.«100402_j28432683499906_1_alg».proof.Proof.KHostS2
import proofs.«100402_j28432683499906_1_alg».proof.Proof.KHostKeep2

set_option maxRecDepth 16384

noncomputable section

namespace Cert.KernelIdeal.KHost

open Cert.KernelIdeal Cert.KernelIdeal.Gen Cert.KernelIdeal.GenP
open Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-! ## What crosses the layer untouched -/

/-- Neither the region after the first stretch nor the two stretches after it write the reference. -/
abbrev QuietA'2 (r : Ref sig .tc) : Prop :=
  (∀ w, Pipeline.arrRef spec7 w ≠ r) ∧ r ∉ written8 ∧ r ∉ written8_1
/-- From the layer's entry to the second stretch of the first statistics. -/
abbrev QuietA2 (r : Ref sig .tc) : Prop := r ∉ written7 ∧ QuietA'2 r
/-- From there to the second stretch of the second statistics. -/
abbrev QuietB2 (r : Ref sig .tc) : Prop :=
  r ∉ written8_2 ∧ (∀ w, Pipeline.arrRef spec8 w ≠ r) ∧ r ∉ written9 ∧ r ∉ written9_1
/-- From there to the layer's exit. -/
abbrev QuietC2 (r : Ref sig .tc) : Prop := r ∉ written9_2 ∧ (∀ w, Pipeline.arrRef spec9 w ≠ r)
/-- Across the whole layer. -/
abbrev QuietL2 (r : Ref sig .tc) : Prop := QuietA2 r ∧ QuietB2 r ∧ QuietC2 r

theorem carryA'2 (c : Dev nD) (r : Ref sig .tc) (h : QuietA'2 r) :
    W26 m ρ c (Proc.devRef .tc r) = W23 m ρ c (Proc.devRef .tc r) :=
  (keep8_1 (W25 m ρ c) h.2.2).trans ((keep8 (W24 m ρ c) h.2.1).trans (W24_of_ne m ρ c r h.1))
theorem carryA2 (c : Dev nD) (r : Ref sig .tc) (h : QuietA2 r) :
    W26 m ρ c (Proc.devRef .tc r) = W22 m ρ c (Proc.devRef .tc r) :=
  (carryA'2 m ρ c r h.2).trans (keep7 (W22 m ρ c) h.1)
theorem carryB2 (c : Dev nD) (r : Ref sig .tc) (h : QuietB2 r) :
    W30 m ρ c (Proc.devRef .tc r) = W26 m ρ c (Proc.devRef .tc r) :=
  (keep9_1 (W29 m ρ c) h.2.2.2).trans ((keep9 (W28 m ρ c) h.2.2.1).trans
    ((W28_of_ne m ρ c r h.2.1).trans (keep8_2 (W26 m ρ c) h.1)))
theorem carryC2 (c : Dev nD) (r : Ref sig .tc) (h : QuietC2 r) :
    W32 m ρ c (Proc.devRef .tc r) = W30 m ρ c (Proc.devRef .tc r) :=
  (W32_of_ne m ρ c r h.2).trans (keep9_2 (W30 m ρ c) h.1)
theorem carryL2 (c : Dev nD) (r : Ref sig .tc) (h : QuietL2 r) :
    W32 m ρ c (Proc.devRef .tc r) = W22 m ρ c (Proc.devRef .tc r) :=
  (carryC2 m ρ c r h.2.2).trans ((carryB2 m ρ c r h.2.1).trans (carryA2 m ρ c r h.1))

/-- Untouched from the launch to this layer's exit. -/
abbrev QuietTo32 (r : Ref sig .tc) : Prop := QuietTo22 r ∧ QuietL2 r
/-- Such a reference holds its launch contents at this layer's exit. -/
theorem W32_arg (c : Dev nD) (r : Ref sig .tc) (h : QuietTo32 r) :
    W32 m ρ c (Proc.devRef .tc r) = m ((c : Thread nD τ).loc r) :=
  (carryL2 m ρ c r h.2).trans (W22_arg m ρ c r h.1)

/-! ## The edges' endpoints carried across the layer -/

theorem W32_src (c : Dev nD) : W32 m ρ c (Proc.devRef .tc main_v4) = edgeSrc (m ((c : Thread nD τ).loc main_arg1)) :=
  (carryL2 m ρ c main_v4 (by decide)).trans (W22_src m ρ c)
theorem W32_dst (c : Dev nD) : W32 m ρ c (Proc.devRef .tc main_v6) = edgeDst (m ((c : Thread nD τ).loc main_arg1)) :=
  (carryL2 m ρ c main_v6 (by decide)).trans (W22_dst m ρ c)

/-! ## The first region: entry contents and result -/

theorem V23_agg (c : Dev nD) : V23 m ρ c main_v135 = agg (edgeSrc (m ((c : Thread nD τ).loc main_arg1))) (edgeDst (m ((c : Thread nD τ).loc main_arg1))) (m ((c : Thread nD τ).loc main_arg3)) (W22 m ρ c (Proc.devRef .tc main_v122)) :=
  (ops7_v135 (W22 m ρ c)).trans (by rw [W22_src m ρ c, W22_dst m ρ c, W22_arg m ρ c main_arg3 (by decide)])
theorem V23_h (c : Dev nD) : V23 m ρ c main_v122 = W22 m ρ c (Proc.devRef .tc main_v122) :=
  keep7 (W22 m ρ c) (by decide)
theorem V23_w1 (c : Dev nD) : V23 m ρ c main_v137 = (matAt (m ((c : Thread nD τ).loc main_arg6)) ![2, 0, 0] slices_S4x64x64_S1x64x64_2_0_0) :=
  (ops7_v137 (W22 m ρ c)).trans (by rw [W22_arg m ρ c main_arg6 (by decide)])
theorem V23_b1 (c : Dev nD) : V23 m ρ c main_v140 = asRow (vecAt (m ((c : Thread nD τ).loc main_arg7)) ![2, 0] slices_S4x64_S1x64_2_0) :=
  (ops7_v140 (W22 m ρ c)).trans (by rw [W22_arg m ρ c main_arg7 (by decide)])

/-- The first region's result, given what the region computes from its entry contents. -/
theorem W24_t1 (c : Dev nD) (R1 : Reg1 F)
    (hR1 : (dat7 (V23 m ρ) c).arrAt 4 cfg7.N = R1 (V23 m ρ c main_v135) (V23 m ρ c main_v122) (V23 m ρ c main_v137) (V23 m ρ c main_v140)) :
    W24 m ρ c (Proc.devRef .tc main_v141) = kT1 R1 (edgeSrc (m ((c : Thread nD τ).loc main_arg1))) (edgeDst (m ((c : Thread nD τ).loc main_arg1))) (m ((c : Thread nD τ).loc main_arg3)) (matAt (m ((c : Thread nD τ).loc main_arg6)) ![2, 0, 0] slices_S4x64x64_S1x64x64_2_0_0) (vecAt (m ((c : Thread nD τ).loc main_arg7)) ![2, 0] slices_S4x64_S1x64_2_0) (W22 m ρ c (Proc.devRef .tc main_v122)) :=
  (W24_arr m ρ c 4).trans (hR1.trans (by rw [V23_agg, V23_h, V23_w1, V23_b1]; rfl))

/-! ## The first statistics -/

theorem W25_t1 (c : Dev nD) : W25 m ρ c (Proc.devRef .tc main_v141) = W24 m ρ c (Proc.devRef .tc main_v141) := keep8 (W24 m ρ c) (by decide)
theorem W25_mu1 (c : Dev nD) : W25 m ρ c (Proc.devRef .tc main_v144) = mean (W24 m ρ c (Proc.devRef .tc main_v141)) := ops8_v144 (W24 m ρ c)
theorem W25_c1 (c : Dev nD) : W25 m ρ c (Proc.devRef .tc main_c_25) = ddof0 := ops8_c_25 (W24 m ρ c)
theorem W26_t1 (c : Dev nD) : W26 m ρ c (Proc.devRef .tc main_v141) = W24 m ρ c (Proc.devRef .tc main_v141) :=
  (keep8_1 (W25 m ρ c) (by decide)).trans (W25_t1 m ρ c)
theorem W26_mu1 (c : Dev nD) : W26 m ρ c (Proc.devRef .tc main_v144) = mean (W24 m ρ c (Proc.devRef .tc main_v141)) :=
  (keep8_1 (W25 m ρ c) (by decide)).trans (W25_mu1 m ρ c)
theorem W26_var1 (c : Dev nD) : W26 m ρ c (Proc.devRef .tc main_v145) = var (W24 m ρ c (Proc.devRef .tc main_v141)) ddof0 :=
  (ops8_1_v145 (W25 m ρ c)).trans (by rw [W25_t1 m ρ c, W25_c1 m ρ c])

/-! ## The second region: entry contents and result -/

theorem V27_t1 (c : Dev nD) : V27 m ρ c main_v141 = W24 m ρ c (Proc.devRef .tc main_v141) :=
  (keep8_2 (W26 m ρ c) (by decide)).trans (W26_t1 m ρ c)
theorem V27_sc1 (c : Dev nD) : V27 m ρ c main_v160 = asRow (foldSc (vecAt (m ((c : Thread nD τ).loc main_arg8)) ![2, 0] slices_S4x64_S1x64_2_0) (W24 m ρ c (Proc.devRef .tc main_v141))) :=
  (ops8_2_v160 (W26 m ρ c)).trans (by
    rw [((carryA2 m ρ c main_arg8 (by decide)).trans (W22_arg m ρ c main_arg8 (by decide))), W26_var1 m ρ c]; rfl)
theorem V27_sh1 (c : Dev nD) : V27 m ρ c main_v161 = asRow (foldSh (vecAt (m ((c : Thread nD τ).loc main_arg8)) ![2, 0] slices_S4x64_S1x64_2_0) (vecAt (m ((c : Thread nD τ).loc main_arg9)) ![2, 0] slices_S4x64_S1x64_2_0) (W24 m ρ c (Proc.devRef .tc main_v141))) :=
  (ops8_2_v161 (W26 m ρ c)).trans (by
    rw [((carryA2 m ρ c main_arg8 (by decide)).trans (W22_arg m ρ c main_arg8 (by decide))), ((carryA2 m ρ c main_arg9 (by decide)).trans (W22_arg m ρ c main_arg9 (by decide))), W26_var1 m ρ c, W26_mu1 m ρ c]; rfl)
theorem V27_w2 (c : Dev nD) : V27 m ρ c main_v157 = (matAt (m ((c : Thread nD τ).loc main_arg10)) ![2, 0, 0] slices_S4x64x64_S1x64x64_2_0_0) :=
  (ops8_2_v157 (W26 m ρ c)).trans (by rw [((carryA2 m ρ c main_arg10 (by decide)).trans (W22_arg m ρ c main_arg10 (by decide)))])
theorem V27_b2 (c : Dev nD) : V27 m ρ c main_v162 = asRow (vecAt (m ((c : Thread nD τ).loc main_arg11)) ![2, 0] slices_S4x64_S1x64_2_0) :=
  (ops8_2_v162 (W26 m ρ c)).trans (by rw [((carryA2 m ρ c main_arg11 (by decide)).trans (W22_arg m ρ c main_arg11 (by decide)))])

/-- The second region's result, given what the region computes from its entry contents. -/
theorem W28_t2 (c : Dev nD) (R2 : Reg2 F)
    (hR2 : (dat8 (V27 m ρ) c).arrAt 5 cfg8.N
      = R2 (V27 m ρ c main_v141) (V27 m ρ c main_v160) (V27 m ρ c main_v161) (V27 m ρ c main_v157) (V27 m ρ c main_v162)) :
    W28 m ρ c (Proc.devRef .tc main_v163) = kT2 R2 (W24 m ρ c (Proc.devRef .tc main_v141)) (vecAt (m ((c : Thread nD τ).loc main_arg8)) ![2, 0] slices_S4x64_S1x64_2_0) (vecAt (m ((c : Thread nD τ).loc main_arg9)) ![2, 0] slices_S4x64_S1x64_2_0) (matAt (m ((c : Thread nD τ).loc main_arg10)) ![2, 0, 0] slices_S4x64x64_S1x64x64_2_0_0) (vecAt (m ((c : Thread nD τ).loc main_arg11)) ![2, 0] slices_S4x64_S1x64_2_0) :=
  (W28_arr m ρ c 5).trans (hR2.trans (by rw [V27_t1, V27_sc1, V27_sh1, V27_w2, V27_b2]; rfl))

/-! ## The second statistics -/

theorem W29_t2 (c : Dev nD) : W29 m ρ c (Proc.devRef .tc main_v163) = W28 m ρ c (Proc.devRef .tc main_v163) := keep9 (W28 m ρ c) (by decide)
theorem W29_mu2 (c : Dev nD) : W29 m ρ c (Proc.devRef .tc main_v166) = mean (W28 m ρ c (Proc.devRef .tc main_v163)) := ops9_v166 (W28 m ρ c)
theorem W29_c2 (c : Dev nD) : W29 m ρ c (Proc.devRef .tc main_c_29) = ddof0 := ops9_c_29 (W28 m ρ c)
theorem W30_t2 (c : Dev nD) : W30 m ρ c (Proc.devRef .tc main_v163) = W28 m ρ c (Proc.devRef .tc main_v163) :=
  (keep9_1 (W29 m ρ c) (by decide)).trans (W29_t2 m ρ c)
theorem W30_mu2 (c : Dev nD) : W30 m ρ c (Proc.devRef .tc main_v166) = mean (W28 m ρ c (Proc.devRef .tc main_v163)) :=
  (keep9_1 (W29 m ρ c) (by decide)).trans (W29_mu2 m ρ c)
theorem W30_var2 (c : Dev nD) : W30 m ρ c (Proc.devRef .tc main_v167) = var (W28 m ρ c (Proc.devRef .tc main_v163)) ddof0 :=
  (ops9_1_v167 (W29 m ρ c)).trans (by rw [W29_t2 m ρ c, W29_c2 m ρ c])

/-! ## The third region: entry contents and result -/

/-- The features are an input of the first and third regions and no stretch writes them: they cross the layer. -/
theorem W24_h (c : Dev nD) : W24 m ρ c (Proc.devRef .tc main_v122) = W22 m ρ c (Proc.devRef .tc main_v122) :=
  ((W24_arr m ρ c 1).trans (((dat7 (V23 m ρ) c).arrAt_in 1 rfl _).trans (A_eq7 (V23 m ρ) c 1))).trans (V23_h m ρ c)
theorem V31_h (c : Dev nD) : V31 m ρ c main_v122 = W22 m ρ c (Proc.devRef .tc main_v122) :=
  (keep9_2 (W30 m ρ c) (by decide)).trans ((keep9_1 (W29 m ρ c) (by decide)).trans
    ((keep9 (W28 m ρ c) (by decide)).trans ((W28_of_ne m ρ c main_v122 (by decide)).trans
      ((keep8_2 (W26 m ρ c) (by decide)).trans ((keep8_1 (W25 m ρ c) (by decide)).trans
        ((keep8 (W24 m ρ c) (by decide)).trans (W24_h m ρ c)))))))
theorem V31_t2 (c : Dev nD) : V31 m ρ c main_v163 = W28 m ρ c (Proc.devRef .tc main_v163) :=
  (keep9_2 (W30 m ρ c) (by decide)).trans (W30_t2 m ρ c)
theorem V31_sc2 (c : Dev nD) : V31 m ρ c main_v178 = asRow (foldSc (vecAt (m ((c : Thread nD τ).loc main_arg12)) ![2, 0] slices_S4x64_S1x64_2_0) (W28 m ρ c (Proc.devRef .tc main_v163))) :=
  (ops9_2_v178 (W30 m ρ c)).trans (by
    rw [((carryB2 m ρ c main_arg12 (by decide)).trans ((carryA2 m ρ c main_arg12 (by decide)).trans (W22_arg m ρ c main_arg12 (by decide)))), W30_var2 m ρ c]; rfl)
theorem V31_sh2 (c : Dev nD) : V31 m ρ c main_v179 = asRow (foldSh (vecAt (m ((c : Thread nD τ).loc main_arg12)) ![2, 0] slices_S4x64_S1x64_2_0) (vecAt (m ((c : Thread nD τ).loc main_arg13)) ![2, 0] slices_S4x64_S1x64_2_0) (W28 m ρ c (Proc.devRef .tc main_v163))) :=
  (ops9_2_v179 (W30 m ρ c)).trans (by
    rw [((carryB2 m ρ c main_arg12 (by decide)).trans ((carryA2 m ρ c main_arg12 (by decide)).trans (W22_arg m ρ c main_arg12 (by decide)))), ((carryB2 m ρ c main_arg13 (by decide)).trans ((carryA2 m ρ c main_arg13 (by decide)).trans (W22_arg m ρ c main_arg13 (by decide)))), W30_var2 m ρ c, W30_mu2 m ρ c]; rfl)

/-- The third region's result, given what the region computes from its entry contents. -/
theorem W32_out (c : Dev nD) (R3 : Reg3 F)
    (hR3 : (dat9 (V31 m ρ) c).arrAt 4 cfg9.N
      = R3 (V31 m ρ c main_v163) (V31 m ρ c main_v178) (V31 m ρ c main_v179) (V31 m ρ c main_v122)) :
    W32 m ρ c (Proc.devRef .tc main_v180) = kOut R3 (W28 m ρ c (Proc.devRef .tc main_v163)) (vecAt (m ((c : Thread nD τ).loc main_arg12)) ![2, 0] slices_S4x64_S1x64_2_0) (vecAt (m ((c : Thread nD τ).loc main_arg13)) ![2, 0] slices_S4x64_S1x64_2_0) (W22 m ρ c (Proc.devRef .tc main_v122)) :=
  (W32_arr m ρ c 4).trans (hR3.trans (by rw [V31_t2, V31_sc2, V31_sh2, V31_h]; rfl))

/-! ## The layer -/

/-- Layer 2 end to end: the features at its exit are one layer of the features at its entry, over the launch contents
    of the edge table, the edge weights and the stacked parameters, given what its three regions compute. -/
theorem layer2 (c : Dev nD) (R1 : Reg1 F) (R2 : Reg2 F) (R3 : Reg3 F)
    (hR1 : (dat7 (V23 m ρ) c).arrAt 4 cfg7.N = R1 (V23 m ρ c main_v135) (V23 m ρ c main_v122) (V23 m ρ c main_v137) (V23 m ρ c main_v140))
    (hR2 : (dat8 (V27 m ρ) c).arrAt 5 cfg8.N
      = R2 (V27 m ρ c main_v141) (V27 m ρ c main_v160) (V27 m ρ c main_v161) (V27 m ρ c main_v157) (V27 m ρ c main_v162))
    (hR3 : (dat9 (V31 m ρ) c).arrAt 4 cfg9.N
      = R3 (V31 m ρ c main_v163) (V31 m ρ c main_v178) (V31 m ρ c main_v179) (V31 m ρ c main_v122)) :
    W32 m ρ c (Proc.devRef .tc main_v180) = kLayer R1 R2 R3 (edgeSrc (m ((c : Thread nD τ).loc main_arg1))) (edgeDst (m ((c : Thread nD τ).loc main_arg1))) (m ((c : Thread nD τ).loc main_arg3))
      (matAt (m ((c : Thread nD τ).loc main_arg6)) ![2, 0, 0] slices_S4x64x64_S1x64x64_2_0_0) (vecAt (m ((c : Thread nD τ).loc main_arg7)) ![2, 0] slices_S4x64_S1x64_2_0) (vecAt (m ((c : Thread nD τ).loc main_arg8)) ![2, 0] slices_S4x64_S1x64_2_0) (vecAt (m ((c : Thread nD τ).loc main_arg9)) ![2, 0] slices_S4x64_S1x64_2_0)
      (matAt (m ((c : Thread nD τ).loc main_arg10)) ![2, 0, 0] slices_S4x64x64_S1x64x64_2_0_0) (vecAt (m ((c : Thread nD τ).loc main_arg11)) ![2, 0] slices_S4x64_S1x64_2_0) (vecAt (m ((c : Thread nD τ).loc main_arg12)) ![2, 0] slices_S4x64_S1x64_2_0) (vecAt (m ((c : Thread nD τ).loc main_arg13)) ![2, 0] slices_S4x64_S1x64_2_0) (W22 m ρ c (Proc.devRef .tc main_v122)) := by
  rw [W32_out m ρ c R3 hR3, W28_t2 m ρ c R2 hR2, W24_t1 m ρ c R1 hR1]
  rfl

end Cert.KernelIdeal.KHost

end
-- ==== Proof.KHostS3.lean ====
/-
  Layer 3's stretches of host operations read back: from ANY contents V before a stretch, each buffer the stretch
  writes and a later region or stretch reads holds the named term of V at the stretch's inputs.
-/
import proofs.«100402_j28432683499906_1_alg».proof.Proof.KHostDefs

set_option maxRecDepth 16384

noncomputable section

namespace Cert.KernelIdeal.KHost

open Cert.KernelIdeal Cert.KernelIdeal.Gen
open Idealize.ShloMosaic Idealize.ShloMosaic.TcCoe Idealize.ShloMosaic.StableHlo

variable {F : FTy → Type} [FloatOps F]

theorem ops10_v193 (V : Valuation τ sig (Elt F)) :
    StableHlo.after hostOps10 V (Proc.devRef .tc main_v193) = agg (V (Proc.devRef .tc main_v4)) (V (Proc.devRef .tc main_v6)) (V (Proc.devRef .tc main_arg3)) (V (Proc.devRef .tc main_v180)) := by
  after_results_simp
  rfl
theorem ops10_v195 (V : Valuation τ sig (Elt F)) :
    StableHlo.after hostOps10 V (Proc.devRef .tc main_v195) = matAt (V (Proc.devRef .tc main_arg6)) ![3, 0, 0] slices_S4x64x64_S1x64x64_3_0_0 := by
  after_results_simp
  rfl
theorem ops10_v198 (V : Valuation τ sig (Elt F)) :
    StableHlo.after hostOps10 V (Proc.devRef .tc main_v198) = asRow (vecAt (V (Proc.devRef .tc main_arg7)) ![3, 0] slices_S4x64_S1x64_3_0) := by
  after_results_simp
  rfl
theorem ops11_v202 (V : Valuation τ sig (Elt F)) :
    StableHlo.after hostOps11 V (Proc.devRef .tc main_v202) = mean (V (Proc.devRef .tc main_v199)) := by
  after_results_simp
  rfl
theorem ops11_c_36 (V : Valuation τ sig (Elt F)) :
    StableHlo.after hostOps11 V (Proc.devRef .tc main_c_36) = ddof0 := by
  after_results_simp
  rfl
theorem ops11_1_v203 (V : Valuation τ sig (Elt F)) :
    StableHlo.after hostOps11_1 V (Proc.devRef .tc main_v203) = var (V (Proc.devRef .tc main_v199)) (V (Proc.devRef .tc main_c_36)) := by
  after_results_simp
  rfl
theorem ops11_2_v218 (V : Valuation τ sig (Elt F)) :
    StableHlo.after hostOps11_2 V (Proc.devRef .tc main_v218) = asRow (scale (vecAt (V (Proc.devRef .tc main_arg8)) ![3, 0] slices_S4x64_S1x64_3_0) (inv (V (Proc.devRef .tc main_v203)))) := by
  after_results_simp
  rfl
theorem ops11_2_v219 (V : Valuation τ sig (Elt F)) :
    StableHlo.after hostOps11_2 V (Proc.devRef .tc main_v219) = asRow (shift (vecAt (V (Proc.devRef .tc main_arg9)) ![3, 0] slices_S4x64_S1x64_3_0) (V (Proc.devRef .tc main_v202)) (scale (vecAt (V (Proc.devRef .tc main_arg8)) ![3, 0] slices_S4x64_S1x64_3_0) (inv (V (Proc.devRef .tc main_v203))))) := by
  after_results_simp
  rfl
theorem ops11_2_v215 (V : Valuation τ sig (Elt F)) :
    StableHlo.after hostOps11_2 V (Proc.devRef .tc main_v215) = matAt (V (Proc.devRef .tc main_arg10)) ![3, 0, 0] slices_S4x64x64_S1x64x64_3_0_0 := by
  after_results_simp
  rfl
theorem ops11_2_v220 (V : Valuation τ sig (Elt F)) :
    StableHlo.after hostOps11_2 V (Proc.devRef .tc main_v220) = asRow (vecAt (V (Proc.devRef .tc main_arg11)) ![3, 0] slices_S4x64_S1x64_3_0) := by
  after_results_simp
  rfl
theorem ops12_v224 (V : Valuation τ sig (Elt F)) :
    StableHlo.after hostOps12 V (Proc.devRef .tc main_v224) = mean (V (Proc.devRef .tc main_v221)) := by
  after_results_simp
  rfl
theorem ops12_c_40 (V : Valuation τ sig (Elt F)) :
    StableHlo.after hostOps12 V (Proc.devRef .tc main_c_40) = ddof0 := by
  after_results_simp
  rfl
theorem ops12_1_v225 (V : Valuation τ sig (Elt F)) :
    StableHlo.after hostOps12_1 V (Proc.devRef .tc main_v225) = var (V (Proc.devRef .tc main_v221)) (V (Proc.devRef .tc main_c_40)) := by
  after_results_simp
  rfl
theorem ops12_2_v236 (V : Valuation τ sig (Elt F)) :
    StableHlo.after hostOps12_2 V (Proc.devRef .tc main_v236) = asRow (scale (vecAt (V (Proc.devRef .tc main_arg12)) ![3, 0] slices_S4x64_S1x64_3_0) (inv (V (Proc.devRef .tc main_v225)))) := by
  after_results_simp
  rfl
theorem ops12_2_v237 (V : Valuation τ sig (Elt F)) :
    StableHlo.after hostOps12_2 V (Proc.devRef .tc main_v237) = asRow (shift (vecAt (V (Proc.devRef .tc main_arg13)) ![3, 0] slices_S4x64_S1x64_3_0) (V (Proc.devRef .tc main_v224)) (scale (vecAt (V (Proc.devRef .tc main_arg12)) ![3, 0] slices_S4x64_S1x64_3_0) (inv (V (Proc.devRef .tc main_v225))))) := by
  after_results_simp
  rfl

end Cert.KernelIdeal.KHost

end
-- ==== Proof.KHostKeep3.lean ====
/-
  What layer 3's stretches leave alone.
  A stretch of host operations changes only the buffers its operations write: each stretch's written references as one
  literal list, and every other reference's contents carried across the stretch unchanged, from ANY contents before it.
-/
import proofs.«100402_j28432683499906_1_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo

variable {F : FTy → Type} [FloatOps F]

/-- The references `hostOps10` writes. -/
abbrev written10 : List (Ref sig .tc) := [main_c_31, main_v181, main_v182, main_c_32, main_v183, main_v184, main_v185, main_v186, main_v187, main_v188, main_v189, main_v190, main_cst_33, main_v191, main_v192, main_v193, main_v194, main_v195, main_v196, main_v197, main_v198]
theorem writes10 : (hostOps10 : List (HloOp τ sig (Elt F))).Forall fun op => op.writes ⊆ ((written10).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps10` does not write keeps its contents. -/
theorem keep10 (V : Valuation τ sig (Elt F)) {r : Ref sig .tc} (h : r ∉ written10) :
    StableHlo.after hostOps10 V (Proc.devRef .tc r) = V (Proc.devRef .tc r) :=
  StableHlo.after_of_writes_sub hostOps10 V writes10 h

/-- The references `hostOps11` writes. -/
abbrev written11 : List (Ref sig .tc) := [main_cst_34, main_v200, main_cst_35, main_v201, main_v202, main_c_36]
theorem writes11 : (hostOps11 : List (HloOp τ sig (Elt F))).Forall fun op => op.writes ⊆ ((written11).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps11` does not write keeps its contents. -/
theorem keep11 (V : Valuation τ sig (Elt F)) {r : Ref sig .tc} (h : r ∉ written11) :
    StableHlo.after hostOps11 V (Proc.devRef .tc r) = V (Proc.devRef .tc r) :=
  StableHlo.after_of_writes_sub hostOps11 V writes11 h

/-- The references `hostOps11_1` writes. -/
abbrev written11_1 : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v203]
theorem writes11_1 : (hostOps11_1 : List (HloOp τ sig (Elt F))).Forall fun op => op.writes ⊆ ((written11_1).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps11_1` does not write keeps its contents. -/
theorem keep11_1 (V : Valuation τ sig (Elt F)) {r : Ref sig .tc} (h : r ∉ written11_1) :
    StableHlo.after hostOps11_1 V (Proc.devRef .tc r) = V (Proc.devRef .tc r) :=
  StableHlo.after_of_writes_sub hostOps11_1 V writes11_1 h

/-- The references `hostOps11_2` writes. -/
abbrev written11_2 : List (Ref sig .tc) := [main_cst_37, main_v204, main_v205, main_v206, main_v207, main_v208, main_v209, main_v210, main_v211, main_v212, main_v213, main_v214, main_v215, main_v216, main_v217, main_v218, main_v219, main_v220]
theorem writes11_2 : (hostOps11_2 : List (HloOp τ sig (Elt F))).Forall fun op => op.writes ⊆ ((written11_2).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps11_2` does not write keeps its contents. -/
theorem keep11_2 (V : Valuation τ sig (Elt F)) {r : Ref sig .tc} (h : r ∉ written11_2) :
    StableHlo.after hostOps11_2 V (Proc.devRef .tc r) = V (Proc.devRef .tc r) :=
  StableHlo.after_of_writes_sub hostOps11_2 V writes11_2 h

/-- The references `hostOps12` writes. -/
abbrev written12 : List (Ref sig .tc) := [main_cst_38, main_v222, main_cst_39, main_v223, main_v224, main_c_40]
theorem writes12 : (hostOps12 : List (HloOp τ sig (Elt F))).Forall fun op => op.writes ⊆ ((written12).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps12` does not write keeps its contents. -/
theorem keep12 (V : Valuation τ sig (Elt F)) {r : Ref sig .tc} (h : r ∉ written12) :
    StableHlo.after hostOps12 V (Proc.devRef .tc r) = V (Proc.devRef .tc r) :=
  StableHlo.after_of_writes_sub hostOps12 V writes12 h

/-- The references `hostOps12_1` writes. -/
abbrev written12_1 : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v225]
theorem writes12_1 : (hostOps12_1 : List (HloOp τ sig (Elt F))).Forall fun op => op.writes ⊆ ((written12_1).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps12_1` does not write keeps its contents. -/
theorem keep12_1 (V : Valuation τ sig (Elt F)) {r : Ref sig .tc} (h : r ∉ written12_1) :
    StableHlo.after hostOps12_1 V (Proc.devRef .tc r) = V (Proc.devRef .tc r) :=
  StableHlo.after_of_writes_sub hostOps12_1 V writes12_1 h

/-- The references `hostOps12_2` writes. -/
abbrev written12_2 : List (Ref sig .tc) := [main_cst_41, main_v226, main_v227, main_v228, main_v229, main_v230, main_v231, main_v232, main_v233, main_v234, main_v235, main_v236, main_v237]
theorem writes12_2 : (hostOps12_2 : List (HloOp τ sig (Elt F))).Forall fun op => op.writes ⊆ ((written12_2).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference `hostOps12_2` does not write keeps its contents. -/
theorem keep12_2 (V : Valuation τ sig (Elt F)) {r : Ref sig .tc} (h : r ∉ written12_2) :
    StableHlo.after hostOps12_2 V (Proc.devRef .tc r) = V (Proc.devRef .tc r) :=
  StableHlo.after_of_writes_sub hostOps12_2 V writes12_2 h

end Cert.KernelIdeal.KHost

end
-- ==== Proof.KHostL3.lean ====
/-
  Layer 3 of the kernel program read off the buffer contents at its segment boundaries.

  The contents at a boundary are a fold from the launch memory: a stretch of host operations rewrites the buffers its
  operations write, a region rewrites its output array and leaves every other buffer. Reading the fold at the buffers
  each region takes gives the region's inputs as terms of the launch contents of the arguments and of the features the
  layer was entered with; a buffer nothing in between writes is carried across unchanged.
-/
import proofs.«100402_j28432683499906_1_alg».proof.Proof.KHostL2
import proofs.«100402_j28432683499906_1_alg».proof.Proof.KHostS3
import proofs.«100402_j28432683499906_1_alg».proof.Proof.KHostKeep3

set_option maxRecDepth 16384

noncomputable section

namespace Cert.KernelIdeal.KHost

open Cert.KernelIdeal Cert.KernelIdeal.Gen Cert.KernelIdeal.GenP
open Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-! ## What crosses the layer untouched -/

/-- Neither the region after the first stretch nor the two stretches after it write the reference. -/
abbrev QuietA'3 (r : Ref sig .tc) : Prop :=
  (∀ w, Pipeline.arrRef spec10 w ≠ r) ∧ r ∉ written11 ∧ r ∉ written11_1
/-- From the layer's entry to the second stretch of the first statistics. -/
abbrev QuietA3 (r : Ref sig .tc) : Prop := r ∉ written10 ∧ QuietA'3 r
/-- From there to the second stretch of the second statistics. -/
abbrev QuietB3 (r : Ref sig .tc) : Prop :=
  r ∉ written11_2 ∧ (∀ w, Pipeline.arrRef spec11 w ≠ r) ∧ r ∉ written12 ∧ r ∉ written12_1
/-- From there to the layer's exit. -/
abbrev QuietC3 (r : Ref sig .tc) : Prop := r ∉ written12_2 ∧ (∀ w, Pipeline.arrRef spec12 w ≠ r)
/-- Across the whole layer. -/
abbrev QuietL3 (r : Ref sig .tc) : Prop := QuietA3 r ∧ QuietB3 r ∧ QuietC3 r

theorem carryA'3 (c : Dev nD) (r : Ref sig .tc) (h : QuietA'3 r) :
    W36 m ρ c (Proc.devRef .tc r) = W33 m ρ c (Proc.devRef .tc r) :=
  (keep11_1 (W35 m ρ c) h.2.2).trans ((keep11 (W34 m ρ c) h.2.1).trans (W34_of_ne m ρ c r h.1))
theorem carryA3 (c : Dev nD) (r : Ref sig .tc) (h : QuietA3 r) :
    W36 m ρ c (Proc.devRef .tc r) = W32 m ρ c (Proc.devRef .tc r) :=
  (carryA'3 m ρ c r h.2).trans (keep10 (W32 m ρ c) h.1)
theorem carryB3 (c : Dev nD) (r : Ref sig .tc) (h : QuietB3 r) :
    W40 m ρ c (Proc.devRef .tc r) = W36 m ρ c (Proc.devRef .tc r) :=
  (keep12_1 (W39 m ρ c) h.2.2.2).trans ((keep12 (W38 m ρ c) h.2.2.1).trans
    ((W38_of_ne m ρ c r h.2.1).trans (keep11_2 (W36 m ρ c) h.1)))
theorem carryC3 (c : Dev nD) (r : Ref sig .tc) (h : QuietC3 r) :
    W42 m ρ c (Proc.devRef .tc r) = W40 m ρ c (Proc.devRef .tc r) :=
  (W42_of_ne m ρ c r h.2).trans (keep12_2 (W40 m ρ c) h.1)
theorem carryL3 (c : Dev nD) (r : Ref sig .tc) (h : QuietL3 r) :
    W42 m ρ c (Proc.devRef .tc r) = W32 m ρ c (Proc.devRef .tc r) :=
  (carryC3 m ρ c r h.2.2).trans ((carryB3 m ρ c r h.2.1).trans (carryA3 m ρ c r h.1))

/-- Untouched from the launch to this layer's exit. -/
abbrev QuietTo42 (r : Ref sig .tc) : Prop := QuietTo32 r ∧ QuietL3 r
/-- Such a reference holds its launch contents at this layer's exit. -/
theorem W42_arg (c : Dev nD) (r : Ref sig .tc) (h : QuietTo42 r) :
    W42 m ρ c (Proc.devRef .tc r) = m ((c : Thread nD τ).loc r) :=
  (carryL3 m ρ c r h.2).trans (W32_arg m ρ c r h.1)

/-! ## The edges' endpoints carried across the layer -/

theorem W42_src (c : Dev nD) : W42 m ρ c (Proc.devRef .tc main_v4) = edgeSrc (m ((c : Thread nD τ).loc main_arg1)) :=
  (carryL3 m ρ c main_v4 (by decide)).trans (W32_src m ρ c)
theorem W42_dst (c : Dev nD) : W42 m ρ c (Proc.devRef .tc main_v6) = edgeDst (m ((c : Thread nD τ).loc main_arg1)) :=
  (carryL3 m ρ c main_v6 (by decide)).trans (W32_dst m ρ c)

/-! ## The first region: entry contents and result -/

theorem V33_agg (c : Dev nD) : V33 m ρ c main_v193 = agg (edgeSrc (m ((c : Thread nD τ).loc main_arg1))) (edgeDst (m ((c : Thread nD τ).loc main_arg1))) (m ((c : Thread nD τ).loc main_arg3)) (W32 m ρ c (Proc.devRef .tc main_v180)) :=
  (ops10_v193 (W32 m ρ c)).trans (by rw [W32_src m ρ c, W32_dst m ρ c, W32_arg m ρ c main_arg3 (⟨⟨⟨by decide, by decide⟩, by decide⟩, by decide⟩)])
theorem V33_h (c : Dev nD) : V33 m ρ c main_v180 = W32 m ρ c (Proc.devRef .tc main_v180) :=
  keep10 (W32 m ρ c) (by decide)
theorem V33_w1 (c : Dev nD) : V33 m ρ c main_v195 = (matAt (m ((c : Thread nD τ).loc main_arg6)) ![3, 0, 0] slices_S4x64x64_S1x64x64_3_0_0) :=
  (ops10_v195 (W32 m ρ c)).trans (by rw [W32_arg m ρ c main_arg6 (⟨⟨⟨by decide, by decide⟩, by decide⟩, by decide⟩)])
theorem V33_b1 (c : Dev nD) : V33 m ρ c main_v198 = asRow (vecAt (m ((c : Thread nD τ).loc main_arg7)) ![3, 0] slices_S4x64_S1x64_3_0) :=
  (ops10_v198 (W32 m ρ c)).trans (by rw [W32_arg m ρ c main_arg7 (⟨⟨⟨by decide, by decide⟩, by decide⟩, by decide⟩)])

/-- The first region's result, given what the region computes from its entry contents. -/
theorem W34_t1 (c : Dev nD) (R1 : Reg1 F)
    (hR1 : (dat10 (V33 m ρ) c).arrAt 4 cfg10.N = R1 (V33 m ρ c main_v193) (V33 m ρ c main_v180) (V33 m ρ c main_v195) (V33 m ρ c main_v198)) :
    W34 m ρ c (Proc.devRef .tc main_v199) = kT1 R1 (edgeSrc (m ((c : Thread nD τ).loc main_arg1))) (edgeDst (m ((c : Thread nD τ).loc main_arg1))) (m ((c : Thread nD τ).loc main_arg3)) (matAt (m ((c : Thread nD τ).loc main_arg6)) ![3, 0, 0] slices_S4x64x64_S1x64x64_3_0_0) (vecAt (m ((c : Thread nD τ).loc main_arg7)) ![3, 0] slices_S4x64_S1x64_3_0) (W32 m ρ c (Proc.devRef .tc main_v180)) :=
  (W34_arr m ρ c 4).trans (hR1.trans (by rw [V33_agg, V33_h, V33_w1, V33_b1]; rfl))

/-! ## The first statistics -/

theorem W35_t1 (c : Dev nD) : W35 m ρ c (Proc.devRef .tc main_v199) = W34 m ρ c (Proc.devRef .tc main_v199) := keep11 (W34 m ρ c) (by decide)
theorem W35_mu1 (c : Dev nD) : W35 m ρ c (Proc.devRef .tc main_v202) = mean (W34 m ρ c (Proc.devRef .tc main_v199)) := ops11_v202 (W34 m ρ c)
theorem W35_c1 (c : Dev nD) : W35 m ρ c (Proc.devRef .tc main_c_36) = ddof0 := ops11_c_36 (W34 m ρ c)
theorem W36_t1 (c : Dev nD) : W36 m ρ c (Proc.devRef .tc main_v199) = W34 m ρ c (Proc.devRef .tc main_v199) :=
  (keep11_1 (W35 m ρ c) (by decide)).trans (W35_t1 m ρ c)
theorem W36_mu1 (c : Dev nD) : W36 m ρ c (Proc.devRef .tc main_v202) = mean (W34 m ρ c (Proc.devRef .tc main_v199)) :=
  (keep11_1 (W35 m ρ c) (by decide)).trans (W35_mu1 m ρ c)
theorem W36_var1 (c : Dev nD) : W36 m ρ c (Proc.devRef .tc main_v203) = var (W34 m ρ c (Proc.devRef .tc main_v199)) ddof0 :=
  (ops11_1_v203 (W35 m ρ c)).trans (by rw [W35_t1 m ρ c, W35_c1 m ρ c])

/-! ## The second region: entry contents and result -/

theorem V37_t1 (c : Dev nD) : V37 m ρ c main_v199 = W34 m ρ c (Proc.devRef .tc main_v199) :=
  (keep11_2 (W36 m ρ c) (by decide)).trans (W36_t1 m ρ c)
theorem V37_sc1 (c : Dev nD) : V37 m ρ c main_v218 = asRow (foldSc (vecAt (m ((c : Thread nD τ).loc main_arg8)) ![3, 0] slices_S4x64_S1x64_3_0) (W34 m ρ c (Proc.devRef .tc main_v199))) :=
  (ops11_2_v218 (W36 m ρ c)).trans (by
    rw [((carryA3 m ρ c main_arg8 (by decide)).trans (W32_arg m ρ c main_arg8 (⟨⟨⟨by decide, by decide⟩, by decide⟩, by decide⟩))), W36_var1 m ρ c]; rfl)
theorem V37_sh1 (c : Dev nD) : V37 m ρ c main_v219 = asRow (foldSh (vecAt (m ((c : Thread nD τ).loc main_arg8)) ![3, 0] slices_S4x64_S1x64_3_0) (vecAt (m ((c : Thread nD τ).loc main_arg9)) ![3, 0] slices_S4x64_S1x64_3_0) (W34 m ρ c (Proc.devRef .tc main_v199))) :=
  (ops11_2_v219 (W36 m ρ c)).trans (by
    rw [((carryA3 m ρ c main_arg8 (by decide)).trans (W32_arg m ρ c main_arg8 (⟨⟨⟨by decide, by decide⟩, by decide⟩, by decide⟩))), ((carryA3 m ρ c main_arg9 (by decide)).trans (W32_arg m ρ c main_arg9 (⟨⟨⟨by decide, by decide⟩, by decide⟩, by decide⟩))), W36_var1 m ρ c, W36_mu1 m ρ c]; rfl)
theorem V37_w2 (c : Dev nD) : V37 m ρ c main_v215 = (matAt (m ((c : Thread nD τ).loc main_arg10)) ![3, 0, 0] slices_S4x64x64_S1x64x64_3_0_0) :=
  (ops11_2_v215 (W36 m ρ c)).trans (by rw [((carryA3 m ρ c main_arg10 (by decide)).trans (W32_arg m ρ c main_arg10 (⟨⟨⟨by decide, by decide⟩, by decide⟩, by decide⟩)))])
theorem V37_b2 (c : Dev nD) : V37 m ρ c main_v220 = asRow (vecAt (m ((c : Thread nD τ).loc main_arg11)) ![3, 0] slices_S4x64_S1x64_3_0) :=
  (ops11_2_v220 (W36 m ρ c)).trans (by rw [((carryA3 m ρ c main_arg11 (by decide)).trans (W32_arg m ρ c main_arg11 (⟨⟨⟨by decide, by decide⟩, by decide⟩, by decide⟩)))])

/-- The second region's result, given what the region computes from its entry contents. -/
theorem W38_t2 (c : Dev nD) (R2 : Reg2 F)
    (hR2 : (dat11 (V37 m ρ) c).arrAt 5 cfg11.N
      = R2 (V37 m ρ c main_v199) (V37 m ρ c main_v218) (V37 m ρ c main_v219) (V37 m ρ c main_v215) (V37 m ρ c main_v220)) :
    W38 m ρ c (Proc.devRef .tc main_v221) = kT2 R2 (W34 m ρ c (Proc.devRef .tc main_v199)) (vecAt (m ((c : Thread nD τ).loc main_arg8)) ![3, 0] slices_S4x64_S1x64_3_0) (vecAt (m ((c : Thread nD τ).loc main_arg9)) ![3, 0] slices_S4x64_S1x64_3_0) (matAt (m ((c : Thread nD τ).loc main_arg10)) ![3, 0, 0] slices_S4x64x64_S1x64x64_3_0_0) (vecAt (m ((c : Thread nD τ).loc main_arg11)) ![3, 0] slices_S4x64_S1x64_3_0) :=
  (W38_arr m ρ c 5).trans (hR2.trans (by rw [V37_t1, V37_sc1, V37_sh1, V37_w2, V37_b2]; rfl))

/-! ## The second statistics -/

theorem W39_t2 (c : Dev nD) : W39 m ρ c (Proc.devRef .tc main_v221) = W38 m ρ c (Proc.devRef .tc main_v221) := keep12 (W38 m ρ c) (by decide)
theorem W39_mu2 (c : Dev nD) : W39 m ρ c (Proc.devRef .tc main_v224) = mean (W38 m ρ c (Proc.devRef .tc main_v221)) := ops12_v224 (W38 m ρ c)
theorem W39_c2 (c : Dev nD) : W39 m ρ c (Proc.devRef .tc main_c_40) = ddof0 := ops12_c_40 (W38 m ρ c)
theorem W40_t2 (c : Dev nD) : W40 m ρ c (Proc.devRef .tc main_v221) = W38 m ρ c (Proc.devRef .tc main_v221) :=
  (keep12_1 (W39 m ρ c) (by decide)).trans (W39_t2 m ρ c)
theorem W40_mu2 (c : Dev nD) : W40 m ρ c (Proc.devRef .tc main_v224) = mean (W38 m ρ c (Proc.devRef .tc main_v221)) :=
  (keep12_1 (W39 m ρ c) (by decide)).trans (W39_mu2 m ρ c)
theorem W40_var2 (c : Dev nD) : W40 m ρ c (Proc.devRef .tc main_v225) = var (W38 m ρ c (Proc.devRef .tc main_v221)) ddof0 :=
  (ops12_1_v225 (W39 m ρ c)).trans (by rw [W39_t2 m ρ c, W39_c2 m ρ c])

/-! ## The third region: entry contents and result -/

/-- The features are an input of the first and third regions and no stretch writes them: they cross the layer. -/
theorem W34_h (c : Dev nD) : W34 m ρ c (Proc.devRef .tc main_v180) = W32 m ρ c (Proc.devRef .tc main_v180) :=
  ((W34_arr m ρ c 1).trans (((dat10 (V33 m ρ) c).arrAt_in 1 rfl _).trans (A_eq10 (V33 m ρ) c 1))).trans (V33_h m ρ c)
theorem V41_h (c : Dev nD) : V41 m ρ c main_v180 = W32 m ρ c (Proc.devRef .tc main_v180) :=
  (keep12_2 (W40 m ρ c) (by decide)).trans ((keep12_1 (W39 m ρ c) (by decide)).trans
    ((keep12 (W38 m ρ c) (by decide)).trans ((W38_of_ne m ρ c main_v180 (by decide)).trans
      ((keep11_2 (W36 m ρ c) (by decide)).trans ((keep11_1 (W35 m ρ c) (by decide)).trans
        ((keep11 (W34 m ρ c) (by decide)).trans (W34_h m ρ c)))))))
theorem V41_t2 (c : Dev nD) : V41 m ρ c main_v221 = W38 m ρ c (Proc.devRef .tc main_v221) :=
  (keep12_2 (W40 m ρ c) (by decide)).trans (W40_t2 m ρ c)
theorem V41_sc2 (c : Dev nD) : V41 m ρ c main_v236 = asRow (foldSc (vecAt (m ((c : Thread nD τ).loc main_arg12)) ![3, 0] slices_S4x64_S1x64_3_0) (W38 m ρ c (Proc.devRef .tc main_v221))) :=
  (ops12_2_v236 (W40 m ρ c)).trans (by
    rw [((carryB3 m ρ c main_arg12 (by decide)).trans ((carryA3 m ρ c main_arg12 (by decide)).trans (W32_arg m ρ c main_arg12 (⟨⟨⟨by decide, by decide⟩, by decide⟩, by decide⟩)))), W40_var2 m ρ c]; rfl)
theorem V41_sh2 (c : Dev nD) : V41 m ρ c main_v237 = asRow (foldSh (vecAt (m ((c : Thread nD τ).loc main_arg12)) ![3, 0] slices_S4x64_S1x64_3_0) (vecAt (m ((c : Thread nD τ).loc main_arg13)) ![3, 0] slices_S4x64_S1x64_3_0) (W38 m ρ c (Proc.devRef .tc main_v221))) :=
  (ops12_2_v237 (W40 m ρ c)).trans (by
    rw [((carryB3 m ρ c main_arg12 (by decide)).trans ((carryA3 m ρ c main_arg12 (by decide)).trans (W32_arg m ρ c main_arg12 (⟨⟨⟨by decide, by decide⟩, by decide⟩, by decide⟩)))), ((carryB3 m ρ c main_arg13 (by decide)).trans ((carryA3 m ρ c main_arg13 (by decide)).trans (W32_arg m ρ c main_arg13 (⟨⟨⟨by decide, by decide⟩, by decide⟩, by decide⟩)))), W40_var2 m ρ c, W40_mu2 m ρ c]; rfl)

/-- The third region's result, given what the region computes from its entry contents. -/
theorem W42_out (c : Dev nD) (R3 : Reg3 F)
    (hR3 : (dat12 (V41 m ρ) c).arrAt 4 cfg12.N
      = R3 (V41 m ρ c main_v221) (V41 m ρ c main_v236) (V41 m ρ c main_v237) (V41 m ρ c main_v180)) :
    W42 m ρ c (Proc.devRef .tc main_v238) = kOut R3 (W38 m ρ c (Proc.devRef .tc main_v221)) (vecAt (m ((c : Thread nD τ).loc main_arg12)) ![3, 0] slices_S4x64_S1x64_3_0) (vecAt (m ((c : Thread nD τ).loc main_arg13)) ![3, 0] slices_S4x64_S1x64_3_0) (W32 m ρ c (Proc.devRef .tc main_v180)) :=
  (W42_arr m ρ c 4).trans (hR3.trans (by rw [V41_t2, V41_sc2, V41_sh2, V41_h]; rfl))

/-! ## The layer -/

/-- Layer 3 end to end: the features at its exit are one layer of the features at its entry, over the launch contents
    of the edge table, the edge weights and the stacked parameters, given what its three regions compute. -/
theorem layer3 (c : Dev nD) (R1 : Reg1 F) (R2 : Reg2 F) (R3 : Reg3 F)
    (hR1 : (dat10 (V33 m ρ) c).arrAt 4 cfg10.N = R1 (V33 m ρ c main_v193) (V33 m ρ c main_v180) (V33 m ρ c main_v195) (V33 m ρ c main_v198))
    (hR2 : (dat11 (V37 m ρ) c).arrAt 5 cfg11.N
      = R2 (V37 m ρ c main_v199) (V37 m ρ c main_v218) (V37 m ρ c main_v219) (V37 m ρ c main_v215) (V37 m ρ c main_v220))
    (hR3 : (dat12 (V41 m ρ) c).arrAt 4 cfg12.N
      = R3 (V41 m ρ c main_v221) (V41 m ρ c main_v236) (V41 m ρ c main_v237) (V41 m ρ c main_v180)) :
    W42 m ρ c (Proc.devRef .tc main_v238) = kLayer R1 R2 R3 (edgeSrc (m ((c : Thread nD τ).loc main_arg1))) (edgeDst (m ((c : Thread nD τ).loc main_arg1))) (m ((c : Thread nD τ).loc main_arg3))
      (matAt (m ((c : Thread nD τ).loc main_arg6)) ![3, 0, 0] slices_S4x64x64_S1x64x64_3_0_0) (vecAt (m ((c : Thread nD τ).loc main_arg7)) ![3, 0] slices_S4x64_S1x64_3_0) (vecAt (m ((c : Thread nD τ).loc main_arg8)) ![3, 0] slices_S4x64_S1x64_3_0) (vecAt (m ((c : Thread nD τ).loc main_arg9)) ![3, 0] slices_S4x64_S1x64_3_0)
      (matAt (m ((c : Thread nD τ).loc main_arg10)) ![3, 0, 0] slices_S4x64x64_S1x64x64_3_0_0) (vecAt (m ((c : Thread nD τ).loc main_arg11)) ![3, 0] slices_S4x64_S1x64_3_0) (vecAt (m ((c : Thread nD τ).loc main_arg12)) ![3, 0] slices_S4x64_S1x64_3_0) (vecAt (m ((c : Thread nD τ).loc main_arg13)) ![3, 0] slices_S4x64_S1x64_3_0) (W32 m ρ c (Proc.devRef .tc main_v180)) := by
  rw [W42_out m ρ c R3 hR3, W38_t2 m ρ c R2 hR2, W34_t1 m ρ c R1 hR1]
  rfl

end Cert.KernelIdeal.KHost

end
-- ==== Proof.KHostNet.lean ====
/-
  The kernel program end to end, read off the buffer contents at its last segment boundary: the result buffer holds four
  layers, one after the other, of the first region's value of the input features, every layer over the launch contents
  of the edge table, the edge weights and its own cut of the stacked parameters — given what each of the thirteen
  regions computes from its entry contents.
-/
import proofs.«100402_j28432683499906_1_alg».proof.Proof.KHostL3

set_option maxRecDepth 16384

noncomputable section

namespace Cert.KernelIdeal.KHost

open Cert.KernelIdeal Cert.KernelIdeal.Gen Cert.KernelIdeal.GenP
open Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-- What the region before the first layer computes from (features, weights, bias row). -/
abbrev Reg0 (F : FTy → Type) : Type := CF F S50000x64 → CF F S64x64 → CF F S1x64 → CF F S50000x64

/-! ## The first region: entry contents and result -/

theorem V1_x (c : Dev nD) : V1 m ρ c main_v0 = featIn (m ((c : Thread nD τ).loc main_arg0)) := ops0_v0 (W0 m ρ c)
theorem V1_w (c : Dev nD) : V1 m ρ c main_arg4 = (m ((c : Thread nD τ).loc main_arg4)) := keep0 (W0 m ρ c) (by decide)
theorem V1_b (c : Dev nD) : V1 m ρ c main_v1 = asRow (m ((c : Thread nD τ).loc main_arg5)) := ops0_v1 (W0 m ρ c)

/-- The features layer 0 is entered with. -/
theorem W2_feat (c : Dev nD) (R0 : Reg0 F)
    (h0 : (dat0 (V1 m ρ) c).arrAt 3 cfg0.N = R0 (V1 m ρ c main_v0) (V1 m ρ c main_arg4) (V1 m ρ c main_v1)) :
    W2 m ρ c (Proc.devRef .tc main_v2) = R0 (featIn (m ((c : Thread nD τ).loc main_arg0))) (m ((c : Thread nD τ).loc main_arg4)) (asRow (m ((c : Thread nD τ).loc main_arg5))) :=
  (W2_arr m ρ c 3).trans (h0.trans (by rw [V1_x, V1_w, V1_b]))

/-! ## The four layers -/

/-- The result buffer at the last boundary. -/
theorem net (c : Dev nD) (R0 : Reg0 F) (R1 : Reg1 F) (R2 : Reg2 F) (R3 : Reg3 F)
    (h0 : (dat0 (V1 m ρ) c).arrAt 3 cfg0.N = R0 (V1 m ρ c main_v0) (V1 m ρ c main_arg4) (V1 m ρ c main_v1))
    (h1 : (dat1 (V3 m ρ) c).arrAt 4 cfg1.N = R1 (V3 m ρ c main_v19) (V3 m ρ c main_v2) (V3 m ρ c main_v21) (V3 m ρ c main_v24))
    (h2 : (dat2 (V7 m ρ) c).arrAt 5 cfg2.N
      = R2 (V7 m ρ c main_v25) (V7 m ρ c main_v44) (V7 m ρ c main_v45) (V7 m ρ c main_v41) (V7 m ρ c main_v46))
    (h3 : (dat3 (V11 m ρ) c).arrAt 4 cfg3.N
      = R3 (V11 m ρ c main_v47) (V11 m ρ c main_v62) (V11 m ρ c main_v63) (V11 m ρ c main_v2))
    (h4 : (dat4 (V13 m ρ) c).arrAt 4 cfg4.N = R1 (V13 m ρ c main_v77) (V13 m ρ c main_v64) (V13 m ρ c main_v79) (V13 m ρ c main_v82))
    (h5 : (dat5 (V17 m ρ) c).arrAt 5 cfg5.N
      = R2 (V17 m ρ c main_v83) (V17 m ρ c main_v102) (V17 m ρ c main_v103) (V17 m ρ c main_v99) (V17 m ρ c main_v104))
    (h6 : (dat6 (V21 m ρ) c).arrAt 4 cfg6.N
      = R3 (V21 m ρ c main_v105) (V21 m ρ c main_v120) (V21 m ρ c main_v121) (V21 m ρ c main_v64))
    (h7 : (dat7 (V23 m ρ) c).arrAt 4 cfg7.N = R1 (V23 m ρ c main_v135) (V23 m ρ c main_v122) (V23 m ρ c main_v137) (V23 m ρ c main_v140))
    (h8 : (dat8 (V27 m ρ) c).arrAt 5 cfg8.N
      = R2 (V27 m ρ c main_v141) (V27 m ρ c main_v160) (V27 m ρ c main_v161) (V27 m ρ c main_v157) (V27 m ρ c main_v162))
    (h9 : (dat9 (V31 m ρ) c).arrAt 4 cfg9.N
      = R3 (V31 m ρ c main_v163) (V31 m ρ c main_v178) (V31 m ρ c main_v179) (V31 m ρ c main_v122))
    (h10 : (dat10 (V33 m ρ) c).arrAt 4 cfg10.N = R1 (V33 m ρ c main_v193) (V33 m ρ c main_v180) (V33 m ρ c main_v195) (V33 m ρ c main_v198))
    (h11 : (dat11 (V37 m ρ) c).arrAt 5 cfg11.N
      = R2 (V37 m ρ c main_v199) (V37 m ρ c main_v218) (V37 m ρ c main_v219) (V37 m ρ c main_v215) (V37 m ρ c main_v220))
    (h12 : (dat12 (V41 m ρ) c).arrAt 4 cfg12.N
      = R3 (V41 m ρ c main_v221) (V41 m ρ c main_v236) (V41 m ρ c main_v237) (V41 m ρ c main_v180)) :
    W42 m ρ c (Proc.devRef .tc main_v238) =
      kLayer R1 R2 R3 (edgeSrc (m ((c : Thread nD τ).loc main_arg1))) (edgeDst (m ((c : Thread nD τ).loc main_arg1))) (m ((c : Thread nD τ).loc main_arg3))
      (matAt (m ((c : Thread nD τ).loc main_arg6)) ![3, 0, 0] slices_S4x64x64_S1x64x64_3_0_0) (vecAt (m ((c : Thread nD τ).loc main_arg7)) ![3, 0] slices_S4x64_S1x64_3_0) (vecAt (m ((c : Thread nD τ).loc main_arg8)) ![3, 0] slices_S4x64_S1x64_3_0) (vecAt (m ((c : Thread nD τ).loc main_arg9)) ![3, 0] slices_S4x64_S1x64_3_0) (matAt (m ((c : Thread nD τ).loc main_arg10)) ![3, 0, 0] slices_S4x64x64_S1x64x64_3_0_0) (vecAt (m ((c : Thread nD τ).loc main_arg11)) ![3, 0] slices_S4x64_S1x64_3_0) (vecAt (m ((c : Thread nD τ).loc main_arg12)) ![3, 0] slices_S4x64_S1x64_3_0) (vecAt (m ((c : Thread nD τ).loc main_arg13)) ![3, 0] slices_S4x64_S1x64_3_0)
      (kLayer R1 R2 R3 (edgeSrc (m ((c : Thread nD τ).loc main_arg1))) (edgeDst (m ((c : Thread nD τ).loc main_arg1))) (m ((c : Thread nD τ).loc main_arg3))
      (matAt (m ((c : Thread nD τ).loc main_arg6)) ![2, 0, 0] slices_S4x64x64_S1x64x64_2_0_0) (vecAt (m ((c : Thread nD τ).loc main_arg7)) ![2, 0] slices_S4x64_S1x64_2_0) (vecAt (m ((c : Thread nD τ).loc main_arg8)) ![2, 0] slices_S4x64_S1x64_2_0) (vecAt (m ((c : Thread nD τ).loc main_arg9)) ![2, 0] slices_S4x64_S1x64_2_0) (matAt (m ((c : Thread nD τ).loc main_arg10)) ![2, 0, 0] slices_S4x64x64_S1x64x64_2_0_0) (vecAt (m ((c : Thread nD τ).loc main_arg11)) ![2, 0] slices_S4x64_S1x64_2_0) (vecAt (m ((c : Thread nD τ).loc main_arg12)) ![2, 0] slices_S4x64_S1x64_2_0) (vecAt (m ((c : Thread nD τ).loc main_arg13)) ![2, 0] slices_S4x64_S1x64_2_0)
      (kLayer R1 R2 R3 (edgeSrc (m ((c : Thread nD τ).loc main_arg1))) (edgeDst (m ((c : Thread nD τ).loc main_arg1))) (m ((c : Thread nD τ).loc main_arg3))
      (matAt (m ((c : Thread nD τ).loc main_arg6)) ![1, 0, 0] slices_S4x64x64_S1x64x64_1_0_0) (vecAt (m ((c : Thread nD τ).loc main_arg7)) ![1, 0] slices_S4x64_S1x64_1_0) (vecAt (m ((c : Thread nD τ).loc main_arg8)) ![1, 0] slices_S4x64_S1x64_1_0) (vecAt (m ((c : Thread nD τ).loc main_arg9)) ![1, 0] slices_S4x64_S1x64_1_0) (matAt (m ((c : Thread nD τ).loc main_arg10)) ![1, 0, 0] slices_S4x64x64_S1x64x64_1_0_0) (vecAt (m ((c : Thread nD τ).loc main_arg11)) ![1, 0] slices_S4x64_S1x64_1_0) (vecAt (m ((c : Thread nD τ).loc main_arg12)) ![1, 0] slices_S4x64_S1x64_1_0) (vecAt (m ((c : Thread nD τ).loc main_arg13)) ![1, 0] slices_S4x64_S1x64_1_0)
      (kLayer R1 R2 R3 (edgeSrc (m ((c : Thread nD τ).loc main_arg1))) (edgeDst (m ((c : Thread nD τ).loc main_arg1))) (m ((c : Thread nD τ).loc main_arg3))
      (matAt (m ((c : Thread nD τ).loc main_arg6)) ![0, 0, 0] slices_S4x64x64_S1x64x64_0_0_0) (vecAt (m ((c : Thread nD τ).loc main_arg7)) ![0, 0] slices_S4x64_S1x64_0_0) (vecAt (m ((c : Thread nD τ).loc main_arg8)) ![0, 0] slices_S4x64_S1x64_0_0) (vecAt (m ((c : Thread nD τ).loc main_arg9)) ![0, 0] slices_S4x64_S1x64_0_0) (matAt (m ((c : Thread nD τ).loc main_arg10)) ![0, 0, 0] slices_S4x64x64_S1x64x64_0_0_0) (vecAt (m ((c : Thread nD τ).loc main_arg11)) ![0, 0] slices_S4x64_S1x64_0_0) (vecAt (m ((c : Thread nD τ).loc main_arg12)) ![0, 0] slices_S4x64_S1x64_0_0) (vecAt (m ((c : Thread nD τ).loc main_arg13)) ![0, 0] slices_S4x64_S1x64_0_0)
      (R0 (featIn (m ((c : Thread nD τ).loc main_arg0))) (m ((c : Thread nD τ).loc main_arg4)) (asRow (m ((c : Thread nD τ).loc main_arg5))))))) := by
  rw [layer3 m ρ c R1 R2 R3 h10 h11 h12, layer2 m ρ c R1 R2 R3 h7 h8 h9, layer1 m ρ c R1 R2 R3 h4 h5 h6,
    layer0 m ρ c R1 R2 R3 h1 h2 h3, W2_feat m ρ c R0 h0]

end Cert.KernelIdeal.KHost

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«100402_j28432683499906_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«100402_j28432683499906_1_alg».proof.Proof.LibMatmulPlain
import proofs.«100402_j28432683499906_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibMeanConv.lean ====
/-
  The layers of the network as index formulas on the extended reals, for any extents.

  For a node-feature matrix x [n, a]:
    enc      two dense layers, each followed by the rectifier:        max (max (x·w1 + b1, 0)·w2 + b2, 0);
    conv     one graph convolution on an already averaged neighbourhood mean [n, a]:
                                                                     max ((mean·wl + bl) + x·wr, 0);
    readout  a rectified dense layer followed by a plain one:         max (h·w1 + b1, 0)·w2 + b2.
  The neighbourhood mean is the summed neighbour features s [n, a] divided row by row by a divisor d [n]
  (divRow), or multiplied row by row by a column inv [n, 1] of reciprocals (scaleCol). Row p of each result
  depends on row p of the row-indexed operands only, so a block of consecutive rows of the result is the same
  formula of the same rows of the operands (the _rows lemmas).

  The one law of arithmetic: on the extended reals a quotient s / d by a divisor d ≠ 0 is s · d⁻¹, with the
  inverse of either infinity being 0; so s · (1 / d) = s · (1 · d⁻¹) = s / d for EVERY extended real s — no
  entry need be finite. The divisor here is max (count, 1) ≥ 1, never 0.
-/
import proofs.«100402_j28432683499906_1_alg».proof.Proof.LibDenseLayers

noncomputable section

namespace Cert.Net

open Idealize.ShloMosaic Idealize.ShloMosaic.ValueIdx Cert.LibMatmulPlain Cert.Layers

variable {n n' a b c : Nat}

/-- The one row of a [1, b] matrix, as a vector. -/
def rowOf (r : Mat 1 b) : Row b := fun i => r (ix2 (0 : Fin 1) (i 0))

/-- Two dense layers, each rectified. -/
def enc (x : Mat n a) (w1 : Mat a b) (b1 : Row b) (w2 : Mat b c) (b2 : Row c) : Mat n c :=
  rect (dense (rect (dense x w1 b1)) w2 b2)

/-- Every row of s multiplied by that row's entry of the column inv. -/
def scaleCol (s : Mat n a) (inv : Mat n 1) : Mat n a := fun i => s i * inv (ix2 (i 0) (0 : Fin 1))

/-- Every row of s divided by that row's entry of the vector d. -/
def divRow (s : Mat n a) (d : Row n) : Mat n a := fun i => Ideal.div (s i) (d (ix1 (i 0)))

/-- One graph convolution on the neighbourhood mean: (mean · wl + bl) + x · wr, rectified. -/
def conv (mean x : Mat n a) (wl : Mat a b) (bl : Row b) (wr : Mat a b) : Mat n b :=
  rect fun i => dense mean wl bl i + mm x wr i

/-- A rectified dense layer followed by a plain dense layer. -/
def readout (h : Mat n a) (w1 : Mat a b) (b1 : Row b) (w2 : Mat b c) (b2 : Row c) : Mat n c :=
  dense (rect (dense h w1 b1)) w2 b2

/-! ## Each row of a result depends on that row of the operands -/

theorem rect_congr {s s' : Shape} (f : s.Idx → EReal) (g : s'.Idx → EReal) (i : s.Idx) (j : s'.Idx)
    (h : f i = g j) : rect f i = rect g j :=
  congrArg (max · (Ideal.ofBits .f32 0x00000000#32)) h

theorem mm_rows (x : Mat n a) (x' : Mat n' a) (w : Mat a b) (p' : Fin n') (p : Fin n)
    (hx : ∀ j, x' (ix2 p' j) = x (ix2 p j)) (q : Fin b) : mm x' w (ix2 p' q) = mm x w (ix2 p q) := by
  rw [mm_apply, mm_apply]
  simp only [hx]

theorem dense_rows (x : Mat n a) (x' : Mat n' a) (w : Mat a b) (bb : Row b) (p' : Fin n') (p : Fin n)
    (hx : ∀ j, x' (ix2 p' j) = x (ix2 p j)) (q : Fin b) :
    dense x' w bb (ix2 p' q) = dense x w bb (ix2 p q) := by
  show mm x' w (ix2 p' q) + bias n' bb (ix2 p' q) = mm x w (ix2 p q) + bias n bb (ix2 p q)
  rw [mm_rows x x' w p' p hx q]
  rfl

theorem enc_rows (x : Mat n a) (x' : Mat n' a) (w1 : Mat a b) (b1 : Row b) (w2 : Mat b c) (b2 : Row c)
    (p' : Fin n') (p : Fin n) (hx : ∀ j, x' (ix2 p' j) = x (ix2 p j)) (q : Fin c) :
    enc x' w1 b1 w2 b2 (ix2 p' q) = enc x w1 b1 w2 b2 (ix2 p q) := by
  unfold enc
  exact rect_congr _ _ _ _
    (dense_rows _ _ w2 b2 p' p (fun k => rect_congr _ _ _ _ (dense_rows x x' w1 b1 p' p hx k)) q)

theorem scaleCol_rows (s : Mat n a) (s' : Mat n' a) (inv : Mat n 1) (inv' : Mat n' 1) (p' : Fin n') (p : Fin n)
    (hs : ∀ j, s' (ix2 p' j) = s (ix2 p j)) (hi : inv' (ix2 p' (0 : Fin 1)) = inv (ix2 p (0 : Fin 1)))
    (j : Fin a) : scaleCol s' inv' (ix2 p' j) = scaleCol s inv (ix2 p j) := by
  show s' (ix2 p' j) * inv' (ix2 p' (0 : Fin 1)) = s (ix2 p j) * inv (ix2 p (0 : Fin 1))
  rw [hs, hi]

theorem conv_rows (mean x : Mat n a) (mean' x' : Mat n' a) (wl : Mat a b) (bl : Row b) (wr : Mat a b)
    (p' : Fin n') (p : Fin n) (hm : ∀ j, mean' (ix2 p' j) = mean (ix2 p j))
    (hx : ∀ j, x' (ix2 p' j) = x (ix2 p j)) (q : Fin b) :
    conv mean' x' wl bl wr (ix2 p' q) = conv mean x wl bl wr (ix2 p q) := by
  unfold conv
  refine rect_congr _ _ _ _ ?_
  show dense mean' wl bl (ix2 p' q) + mm x' wr (ix2 p' q) = dense mean wl bl (ix2 p q) + mm x wr (ix2 p q)
  rw [dense_rows mean mean' wl bl p' p hm q, mm_rows x x' wr p' p hx q]

theorem readout_rows (h : Mat n a) (h' : Mat n' a) (w1 : Mat a b) (b1 : Row b) (w2 : Mat b c) (b2 : Row c)
    (p' : Fin n') (p : Fin n) (hh : ∀ j, h' (ix2 p' j) = h (ix2 p j)) (q : Fin c) :
    readout h' w1 b1 w2 b2 (ix2 p' q) = readout h w1 b1 w2 b2 (ix2 p q) := by
  unfold readout
  exact dense_rows _ _ w2 b2 p' p (fun k => rect_congr _ _ _ _ (dense_rows h h' w1 b1 p' p hh k)) q

/-! ## The product with a reciprocal is the quotient -/

/-- The pattern of 1.0 denotes 1. -/
theorem ofBits_one : Ideal.ofBits .f32 0x3F800000#32 = 1 := by
  simp [Ideal.ofBits, Ideal.ieee, -EReal.coe_mul]; norm_num

/-- s · (1 / d) = s / d for a divisor d ≠ 0, at every extended real s. -/
theorem mul_recip (s u d : EReal) (hu : u = 1) (hd : d ≠ 0) : s * Ideal.div u d = Ideal.div s d := by
  subst hu
  unfold Ideal.div
  rw [if_neg hd, if_neg hd, one_mul]

/-- The larger of anything and 1 is not 0. -/
theorem max_one_ne_zero (x u : EReal) (hu : u = 1) : max x u ≠ 0 := by
  subst hu
  exact ne_of_gt (lt_of_lt_of_le zero_lt_one (le_max_right x 1))

/-- Scaling the rows by the reciprocals of nonzero divisors is dividing the rows by the divisors. -/
theorem scaleCol_eq_divRow (s : Mat n a) (inv : Mat n 1) (d : Row n) (u : EReal) (hu : u = 1)
    (hd : ∀ p, d (ix1 p) ≠ 0) (hinv : ∀ p, inv (ix2 p (0 : Fin 1)) = Ideal.div u (d (ix1 p))) :
    scaleCol s inv = divRow s d := by
  funext i
  obtain ⟨p, q, rfl⟩ : ∃ (p : Fin n) (q : Fin a), i = ix2 p q := ⟨i 0, i 1, eq_ix2 i⟩
  show s (ix2 p q) * inv (ix2 p (0 : Fin 1)) = Ideal.div (s (ix2 p q)) (d (ix1 p))
  rw [hinv p, mul_recip _ _ _ hu (hd p)]

end Cert.Net

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibTileRows.lean ====
/-
  The vector program's spellings of the layers' pieces, on the extended reals, for any extents.

  A bias that reaches the body as a [1, n] block is cast to its own shape (the identity) and repeated down the m rows:
  entry (p, q) is the block's entry (0, q). A column [m, 1] of per-row factors is cast to its own shape and repeated
  across the n columns, and multiplies an [m, n] block entry by entry: entry (p, q) is s(p, q) times the column's
  row p. A product on the matrix unit into a zero accumulator, the weight cast to a narrower float format first (the
  identity on the extended reals), plus such a bias is one dense layer.
-/
import proofs.«100402_j28432683499906_1_alg».proof.Proof.LibMeanConv
import proofs.«100402_j28432683499906_1_alg».proof.Proof.LibKeepdims
import Idealize.ShloMosaic.Lib.ValueLayout
import Idealize.ShloMosaic.Lib.Pipeline.Value

noncomputable section

namespace Cert.Net

open Idealize.ShloMosaic Idealize.ShloMosaic.ValueIdx Cert.LibMatmulPlain Cert.Layers

variable {m k n : Nat}

/-- A [1, n] bias block, cast to its own shape and repeated down m rows. -/
theorem tileBiasRow_eq (r : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ r hc) hb = bias m (rowOf r) := by
  rw [shapeCast_self]
  funext i
  obtain ⟨p, q, rfl⟩ : ∃ (p : Fin m) (q : Fin n), i = ix2 p q := ⟨i 0, i 1, eq_ix2 i⟩
  exact broadcastTo_1b_ab_apply r hb p q

/-- An [m, n] block (cast to its own shape) times an [m, 1] column (cast to its own shape) repeated across the columns. -/
theorem tileScaleCol_eq (s : FVec Ideal ⟨2, ![m, n]⟩ .f32) (inv : FVec Ideal ⟨2, ![m, 1]⟩ .f32)
    (hs : (⟨2, ![m, n]⟩ : Shape).ShapeCasts ⟨2, ![m, n]⟩) (hc : (⟨2, ![m, 1]⟩ : Shape).ShapeCasts ⟨2, ![m, 1]⟩)
    (hb : (⟨2, ![m, 1]⟩ : Shape).Broadcasts ⟨2, ![m, n]⟩) :
    mulf (shapeCast ⟨2, ![m, n]⟩ s hs) (broadcastTo ⟨2, ![m, n]⟩ (shapeCast ⟨2, ![m, 1]⟩ inv hc) hb) = scaleCol s inv := by
  rw [shapeCast_self, shapeCast_self]
  funext i
  obtain ⟨p, q, rfl⟩ : ∃ (p : Fin m) (q : Fin n), i = ix2 p q := ⟨i 0, i 1, eq_ix2 i⟩
  show s (ix2 p q) * broadcastTo ⟨2, ![m, n]⟩ inv hb (ix2 p q) = s (ix2 p q) * inv (ix2 p (0 : Fin 1))
  rw [Cert.Lib.Keepdims.bcastCol_apply inv hb p q]

/-- One dense layer as the vector program spells it: the product into a zero accumulator, the weight cast to a
    narrower format first, plus the [1, n] bias block repeated down the rows. -/
theorem tileDenseRow_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits)
    (r : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) :
    addf (matmul d none a (truncf ψ w hψ) (constant ⟨2, ![m, n]⟩ .f32 0x00000000#32))
        (broadcastTo ⟨2, ![m, n]⟩ (shapeCast ⟨2, ![1, n]⟩ r hc) hb)
      = dense a w (rowOf r) := by
  rw [tileMm_eq d wf hd a w hψ, tileBiasRow_eq r hc hb]
  rfl

end Cert.Net

end
-- ==== Proof.LibERealBridge.lean ====
/-
  The float operations of the extended-real ("ideal") instance, at real arguments, are the real operations.

  An extended real is -∞, +∞ or a real. The instance's exp, tanh and quotient are defined by cases on that, and the sums,
  products and maxima are those of the extended reals; at reals every one of them is the real operation, carried into the
  extended reals by the inclusion. These are the lemmas that move a formula whose inputs are all real from the extended reals
  down to the reals, one operation at a time: the exponential, the hyperbolic tangent, a quotient with a nonzero denominator,
  a finite sum, a finite sum of products, a maximum (of two, and of a nonempty finite family folded from -∞), an absolute
  value written as a maximum with the negation, and the remark that an extended real that is neither infinity is a real.
-/
import Idealize.ShloMosaic.PureOps.Ideal

namespace LibERealBridge

open Idealize.ShloMosaic
open scoped BigOperators

/-- The instance's exponential at a real is the real exponential. -/
theorem exp_coe (r : ℝ) : Ideal.exp (r : EReal) = ((Real.exp r : ℝ) : EReal) := Ideal.exp_coe r

/-- The instance's hyperbolic tangent at a real is the real hyperbolic tangent. -/
theorem tanh_coe (r : ℝ) : Ideal.tanh (r : EReal) = ((Real.tanh r : ℝ) : EReal) := Ideal.tanh_coe r

/-- The instance's quotient of two reals, the second not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- The inclusion of the reals carries a finite sum to the sum of the inclusions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- A finite sum of products of reals, taken in the extended reals, is the real sum of the real products. -/
theorem sum_mul_coe {ι : Type*} (t : Finset ι) (f g : ι → ℝ) :
    (∑ i ∈ t, ((f i : ℝ) : EReal) * ((g i : ℝ) : EReal)) = ((∑ i ∈ t, f i * g i : ℝ) : EReal) := by
  rw [coe_finset_sum]
  exact Finset.sum_congr rfl fun i _ => (EReal.coe_mul (f i) (g i)).symm

/-- A finite sum of products of reals, taken in the extended reals, is a real. -/
theorem sum_exists_real {ι : Type*} (t : Finset ι) (f g : ι → ℝ) :
    ∃ r : ℝ, (∑ i ∈ t, ((f i : ℝ) : EReal) * ((g i : ℝ) : EReal)) = (r : EReal) :=
  ⟨∑ i ∈ t, f i * g i, sum_mul_coe t f g⟩

/-- The maximum of two reals, taken in the extended reals, is the real maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum of a real and its negation, taken in the extended reals, is the real absolute value. -/
theorem abs_coe (x : ℝ) : max (x : EReal) (-(x : EReal)) = ((|x| : ℝ) : EReal) := by
  rw [← EReal.coe_neg, max_coe, abs_eq_max_neg]

/-- The maximum of a nonempty finite family of reals, folded in the extended reals from -∞, is the real maximum of the
    family. -/
theorem fold_max_coe {n : ℕ} (f : Fin (n + 1) → ℝ) :
    Finset.univ.fold max (⊥ : EReal) (fun i => (f i : EReal))
      = ((Finset.univ.sup' Finset.univ_nonempty f : ℝ) : EReal) := by
  apply le_antisymm
  · rw [Finset.fold_max_le]
    exact ⟨bot_le, fun i hi => EReal.coe_le_coe_iff.mpr (Finset.le_sup' f hi)⟩
  · obtain ⟨i, hi, h⟩ := Finset.exists_mem_eq_sup' Finset.univ_nonempty f
    rw [h, Finset.le_fold_max]
    exact Or.inr ⟨i, hi, le_rfl⟩

/-- An extended real that is neither infinity is a real. -/
theorem exists_real_of_ne (x : EReal) (h1 : x ≠ ⊤) (h2 : x ≠ ⊥) : ∃ r : ℝ, x = (r : EReal) :=
  ⟨x.toReal, (EReal.coe_toReal h1 h2).symm⟩

end LibERealBridge
-- ==== Proof.LibIsReal.lean ====
/-
  Extended reals that are real numbers, and the operations that keep them so.

  An extended real is -∞, +∞ or a real. A float computation whose inputs are all real and whose operations are sums,
  differences, products, maxima, finite sums, the logistic function, a quotient by a nonzero real, or the reciprocal
  square root of a positive real, has a real result: at reals each of these is the real operation. The predicate
  below names "is a real", and the lemmas are its closure under those operations; they are what lets a formula be
  moved from the extended reals, where distributivity and cancellation fail at the infinities, down to the reals.
-/
import proofs.«100402_j28432683499906_1_alg».proof.Proof.LibERealBridge

open scoped BigOperators

namespace Cert.Alg

open Idealize.ShloMosaic LibERealBridge

/-- The extended real x is (the inclusion of) a real number. -/
def IsReal (x : EReal) : Prop := ∃ r : ℝ, x = (r : EReal)

namespace IsReal

/-- The inclusion of a real is a real. -/
theorem coe (r : ℝ) : IsReal (r : EReal) := ⟨r, rfl⟩

/-- Zero is a real. -/
theorem zero : IsReal 0 := ⟨0, rfl⟩

/-- One is a real. -/
theorem one : IsReal 1 := ⟨1, rfl⟩

/-- Anything equal to a real is a real. -/
theorem of_eq {x : EReal} {r : ℝ} (h : x = (r : EReal)) : IsReal x := ⟨r, h⟩

/-- A real is not +∞. -/
theorem ne_top {x : EReal} (hx : IsReal x) : x ≠ ⊤ := by
  obtain ⟨a, rfl⟩ := hx; exact EReal.coe_ne_top a

/-- A real is not -∞. -/
theorem ne_bot {x : EReal} (hx : IsReal x) : x ≠ ⊥ := by
  obtain ⟨a, rfl⟩ := hx; exact EReal.coe_ne_bot a

/-- An extended real that is neither infinity is a real. -/
theorem of_ne {x : EReal} (h1 : x ≠ ⊤) (h2 : x ≠ ⊥) : IsReal x := exists_real_of_ne x h1 h2

/-- A real is the inclusion of its real part. -/
theorem coe_toReal {x : EReal} (hx : IsReal x) : ((x.toReal : ℝ) : EReal) = x :=
  EReal.coe_toReal hx.ne_top hx.ne_bot

/-- The sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- The negation of a real is a real. -/
theorem neg {x : EReal} (hx : IsReal x) : IsReal (-x) := by
  obtain ⟨a, rfl⟩ := hx; exact ⟨-a, (EReal.coe_neg a).symm⟩

/-- The difference of two reals is a real. -/
theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is a real. -/
theorem max {x y : EReal} (hx : IsReal x) (hy : IsReal y) : IsReal (max x y) := by
  obtain ⟨a, rfl⟩ := hx; obtain ⟨b, rfl⟩ := hy; exact ⟨_, max_coe a b⟩

/-- A finite sum of reals is a real. -/
theorem sum {ι : Type*} (t : Finset ι) (f : ι → EReal) (h : ∀ i ∈ t, IsReal (f i)) : IsReal (∑ i ∈ t, f i) := by
  classical
  induction t using Finset.induction_on with
  | empty => rw [Finset.sum_empty]; exact zero
  | insert a s ha ih =>
    rw [Finset.sum_insert ha]
    exact add (h a (Finset.mem_insert_self a s)) (ih fun i hi => h i (Finset.mem_insert_of_mem hi))

/-- A sum of reals over a finite type is a real. -/
theorem sum_univ {ι : Type*} [Fintype ι] (f : ι → EReal) (h : ∀ i, IsReal (f i)) : IsReal (∑ i, f i) :=
  sum Finset.univ f fun i _ => h i

/-- The logistic function 1 / (1 + e^(-x)) of a real is a real. -/
theorem logistic {x : EReal} (hx : IsReal x) : IsReal (Ideal.logistic x) := by
  obtain ⟨a, rfl⟩ := hx; exact ⟨_, Ideal.logistic_coe a⟩

/-- The exponential of a real is a real. -/
theorem exp {x : EReal} (hx : IsReal x) : IsReal (Ideal.exp x) := by
  obtain ⟨a, rfl⟩ := hx; exact ⟨_, Ideal.exp_coe a⟩

/-- The quotient of a real by a nonzero real is a real. -/
theorem div_coe {x : EReal} (hx : IsReal x) {c : ℝ} (hc : c ≠ 0) : IsReal (Ideal.div x (c : EReal)) := by
  obtain ⟨a, rfl⟩ := hx; exact ⟨a / c, div_coe_coe a c hc⟩

/-- The quotient of a real by a real that is not zero is a real. -/
theorem div {x y : EReal} (hx : IsReal x) (hy : IsReal y) (hy0 : y ≠ 0) : IsReal (Ideal.div x y) := by
  obtain ⟨b, rfl⟩ := hy
  exact div_coe hx (fun hb => hy0 (by rw [hb]; rfl))

/-- The reciprocal square root of a positive real is a real. -/
theorem rsqrt_pos {x : EReal} (hx : IsReal x) (h0 : 0 < x) : IsReal (Ideal.rsqrt x) := by
  obtain ⟨a, rfl⟩ := hx
  have ha : 0 < a := by exact_mod_cast h0
  refine ⟨(Real.sqrt a)⁻¹, ?_⟩
  rw [Ideal.rsqrt_coe, if_neg (not_lt.mpr ha.le), if_neg ha.ne']

/-- The sum of two reals, the first nonnegative and the second positive, is positive. -/
theorem add_pos_of_nonneg_of_pos {x y : EReal} (hx : 0 ≤ x) (hy : 0 < y) : 0 < x + y := by
  calc (0 : EReal) < y := hy
    _ = 0 + y := (zero_add y).symm
    _ ≤ x + y := add_le_add hx le_rfl

end IsReal

end Cert.Alg
-- ==== Proof.GinSpec.lean ====
/-
  The network as index formulas on the extended reals, for any extents: a graph-isomorphism layer

      h  ↦  act (dense (act (dense (agg h + h) W1 b1) g1 be1) W2 b2) go beo  +  h,

  where agg is any neighbourhood aggregation that keeps real arrays real, dense a w b = a · w + b, and act is a batch
  normalisation over the rows followed by the rectifier. With m the column mean of t, v the column mean of the squared
  deviations from m, and r = 1 / √(v + ε), the normalisation is written two ways:

      normS t = t · (g · r) + (be − m · (g · r))        (scale and shift folded into two vectors first),
      normD t = ((t − m) · r) · g + be                  (the deviation normalised, then scaled and shifted).

  The two agree whenever t, m, r, g, be are REAL: it is distributivity, which the extended reals have on reals only. So
  the proof carries "every entry is a real" through the layers: sums and products of reals are real, a column mean of
  reals is real, the mean of squared real deviations is a nonnegative real, so v + ε > 0 and r is a real.
-/
import proofs.«100402_j28432683499906_1_alg».proof.Proof.LibMeanConv
import proofs.«100402_j28432683499906_1_alg».proof.Proof.LibIsReal

noncomputable section

namespace Cert.Gin

open Idealize.ShloMosaic Idealize.ShloMosaic.ValueIdx Cert.Layers Cert.Net Cert.Alg

variable {n c k : Nat}

/-- Every entry is a real. -/
def AllReal {s : Shape} (a : s.Idx → EReal) : Prop := ∀ i, IsReal (a i)

/-! ## The two spellings of the normalisation at one entry -/

/-- Scale and shift folded first. -/
def normS (t m r g be : EReal) : EReal := t * (g * r) + (be - m * (g * r))
/-- The deviation normalised, then scaled and shifted. -/
def normD (t m r g be : EReal) : EReal := (t - m) * r * g + be

theorem normS_eq_normD {t m r g be : EReal} (ht : IsReal t) (hm : IsReal m) (hr : IsReal r) (hg : IsReal g)
    (hbe : IsReal be) : normS t m r g be = normD t m r g be := by
  obtain ⟨t, rfl⟩ := ht
  obtain ⟨m, rfl⟩ := hm
  obtain ⟨r, rfl⟩ := hr
  obtain ⟨g, rfl⟩ := hg
  obtain ⟨be, rfl⟩ := hbe
  unfold normS normD
  simp only [← EReal.coe_mul, ← EReal.coe_sub, ← EReal.coe_add]
  congr 1
  ring

theorem normD_isReal {t m r g be : EReal} (ht : IsReal t) (hm : IsReal m) (hr : IsReal r) (hg : IsReal g)
    (hbe : IsReal be) : IsReal (normD t m r g be) :=
  ((((ht.sub hm).mul hr).mul hg).add hbe)

/-! ## Column statistics -/

/-- The column mean: the sum down a column, from zero, over the count. -/
def colMean (cnt : EReal) (t : Mat n c) : Row c := fun i => Ideal.div (0 + ∑ p : Fin n, t (ix2 p (i 0))) cnt

/-- The column mean of the squared deviations from the column mean. -/
def colVar (cnt cnt' : EReal) (t : Mat n c) : Row c := fun i =>
  Ideal.div (0 + ∑ p : Fin n, (t (ix2 p (i 0)) - colMean cnt t i) * (t (ix2 p (i 0)) - colMean cnt t i)) cnt'

/-- 1 / √(v + ε), column by column. -/
def colInv (eps : EReal) (v : Row c) : Row c := fun i => Ideal.rsqrt (v i + eps)

theorem colMean_isReal {cnt : EReal} {N : ℝ} (hcnt : cnt = (N : EReal)) (hN : N ≠ 0) (t : Mat n c) (ht : AllReal t) :
    AllReal (colMean cnt t) := fun i => by
  subst hcnt
  exact IsReal.div_coe (IsReal.zero.add (IsReal.sum_univ _ fun p => ht _)) hN

theorem colVar_isReal {cnt cnt' : EReal} {N N' : ℝ} (hcnt : cnt = (N : EReal)) (hN : N ≠ 0) (hcnt' : cnt' = (N' : EReal))
    (hN' : N' ≠ 0) (t : Mat n c) (ht : AllReal t) : AllReal (colVar cnt cnt' t) := fun i => by
  subst hcnt'
  have hm := colMean_isReal hcnt hN t ht i
  exact IsReal.div_coe (IsReal.zero.add (IsReal.sum_univ _ fun p => ((ht _).sub hm).mul ((ht _).sub hm))) hN'

/-- The square of a real is not negative. -/
theorem mul_self_nonneg_of_isReal {x : EReal} (hx : IsReal x) : 0 ≤ x * x := by
  obtain ⟨a, rfl⟩ := hx
  rw [← EReal.coe_mul]
  exact_mod_cast mul_self_nonneg a

theorem colVar_nonneg {cnt cnt' : EReal} {N N' : ℝ} (hcnt : cnt = (N : EReal)) (hN : N ≠ 0) (hcnt' : cnt' = (N' : EReal))
    (hN' : 0 < N') (t : Mat n c) (ht : AllReal t) (i) : 0 ≤ colVar cnt cnt' t i := by
  have hm := colMean_isReal hcnt hN t ht i
  have hs : IsReal (0 + ∑ p : Fin n, (t (ix2 p (i 0)) - colMean cnt t i) * (t (ix2 p (i 0)) - colMean cnt t i)) :=
    IsReal.zero.add (IsReal.sum_univ _ fun p => ((ht _).sub hm).mul ((ht _).sub hm))
  have h0 : 0 ≤ 0 + ∑ p : Fin n, (t (ix2 p (i 0)) - colMean cnt t i) * (t (ix2 p (i 0)) - colMean cnt t i) := by
    rw [zero_add]
    exact Finset.sum_nonneg fun p _ => mul_self_nonneg_of_isReal ((ht _).sub hm)
  obtain ⟨s, hs⟩ := hs
  unfold colVar
  rw [hs] at h0 ⊢
  subst hcnt'
  rw [LibERealBridge.div_coe_coe s N' hN'.ne']
  have hs0 : 0 ≤ s := by exact_mod_cast h0
  exact_mod_cast div_nonneg hs0 hN'.le

theorem colInv_isReal {eps : EReal} {e : ℝ} (heps : eps = (e : EReal)) (he : 0 < e) (v : Row c) (hv : AllReal v)
    (hv0 : ∀ i, 0 ≤ v i) : AllReal (colInv eps v) := fun i => by
  subst heps
  exact IsReal.rsqrt_pos ((hv i).add (IsReal.coe e)) (IsReal.add_pos_of_nonneg_of_pos (hv0 i) (by exact_mod_cast he))

/-! ## The activation, both ways -/

/-- Normalise with scale and shift folded first, then rectify. -/
def actS (t : Mat n c) (m r g be : Row c) : Mat n c :=
  rect fun i => normS (t i) (m (ix1 (i 1))) (r (ix1 (i 1))) (g (ix1 (i 1))) (be (ix1 (i 1)))

/-- Normalise the deviation, scale, shift, then rectify. -/
def actD (t : Mat n c) (m r g be : Row c) : Mat n c :=
  rect fun i => normD (t i) (m (ix1 (i 1))) (r (ix1 (i 1))) (g (ix1 (i 1))) (be (ix1 (i 1)))

theorem actS_eq_actD (t : Mat n c) (m r g be : Row c) (ht : AllReal t) (hm : AllReal m) (hr : AllReal r) (hg : AllReal g)
    (hbe : AllReal be) : actS t m r g be = actD t m r g be := by
  funext i
  exact congrArg (max · (Ideal.ofBits .f32 0x00000000#32)) (normS_eq_normD (ht i) (hm _) (hr _) (hg _) (hbe _))

theorem rect_isReal {s : Shape} (a : s.Idx → EReal) (ha : AllReal a) : AllReal (rect a) := fun i => by
  refine (ha i).max ?_
  rw [Ideal.ofBits_zero_f32]
  exact IsReal.zero

theorem actD_isReal (t : Mat n c) (m r g be : Row c) (ht : AllReal t) (hm : AllReal m) (hr : AllReal r) (hg : AllReal g)
    (hbe : AllReal be) : AllReal (actD t m r g be) :=
  rect_isReal _ fun i => normD_isReal (ht i) (hm _) (hr _) (hg _) (hbe _)

theorem dense_isReal (a : Mat n k) (w : Mat k c) (b : Row c) (ha : AllReal a) (hw : AllReal w) (hb : AllReal b) :
    AllReal (dense a w b) := fun i =>
  (IsReal.sum_univ _ fun j => (ha _).mul (hw _)).add (hb _)

/-! ## One layer, both ways, and the stack -/

/-- The parameters of one layer. -/
structure Params (c : Nat) where
  w1 : Mat c c
  b1 : Row c
  g1 : Row c
  be1 : Row c
  w2 : Mat c c
  b2 : Row c
  go : Row c
  beo : Row c

/-- Every parameter is a real. -/
def Params.Real (P : Params c) : Prop :=
  AllReal P.w1 ∧ AllReal P.b1 ∧ AllReal P.g1 ∧ AllReal P.be1 ∧ AllReal P.w2 ∧ AllReal P.b2 ∧ AllReal P.go ∧ AllReal P.beo

/-- The activation of t with its own column statistics, by either spelling act. -/
def actWith (act : Mat n c → Row c → Row c → Row c → Row c → Mat n c) (cnt cnt' eps : EReal) (t : Mat n c) (g be : Row c) :
    Mat n c :=
  act t (colMean cnt t) (colInv eps (colVar cnt cnt' t)) g be

/-- One layer over the activation's spelling. -/
def layer (act : Mat n c → Row c → Row c → Row c → Row c → Mat n c) (agg : Mat n c → Mat n c) (cnt cnt' eps : EReal)
    (P : Params c) (h : Mat n c) : Mat n c :=
  fun i => actWith act cnt cnt' eps
    (dense (actWith act cnt cnt' eps (dense (fun j => agg h j + h j) P.w1 P.b1) P.g1 P.be1) P.w2 P.b2) P.go P.beo i + h i

section
variable {cnt cnt' eps : EReal} {N N' e : ℝ} (hcnt : cnt = (N : EReal)) (hN : N ≠ 0) (hcnt' : cnt' = (N' : EReal))
  (hN' : 0 < N') (heps : eps = (e : EReal)) (he : 0 < e)
include hcnt hN hcnt' hN' heps he

theorem actWith_eq (t : Mat n c) (g be : Row c) (ht : AllReal t) (hg : AllReal g) (hbe : AllReal be) :
    actWith actS cnt cnt' eps t g be = actWith actD cnt cnt' eps t g be :=
  actS_eq_actD t _ _ g be ht (colMean_isReal hcnt hN t ht)
    (colInv_isReal heps he _ (colVar_isReal hcnt hN hcnt' hN'.ne' t ht) (colVar_nonneg hcnt hN hcnt' hN' t ht)) hg hbe

theorem actWith_isReal (t : Mat n c) (g be : Row c) (ht : AllReal t) (hg : AllReal g) (hbe : AllReal be) :
    AllReal (actWith actD cnt cnt' eps t g be) :=
  actD_isReal t _ _ g be ht (colMean_isReal hcnt hN t ht)
    (colInv_isReal heps he _ (colVar_isReal hcnt hN hcnt' hN'.ne' t ht) (colVar_nonneg hcnt hN hcnt' hN' t ht)) hg hbe

/-- The two spellings give one layer on real features and real parameters, and the layer's result is real. -/
theorem layer_eq (agg : Mat n c → Mat n c) (hagg : ∀ h, AllReal h → AllReal (agg h)) (P : Params c) (hP : P.Real)
    (h : Mat n c) (hh : AllReal h) :
    layer actS agg cnt cnt' eps P h = layer actD agg cnt cnt' eps P h ∧ AllReal (layer actD agg cnt cnt' eps P h) := by
  obtain ⟨hw1, hb1, hg1, hbe1, hw2, hb2, hgo, hbeo⟩ := hP
  have ht1 : AllReal (dense (fun j => agg h j + h j) P.w1 P.b1) :=
    dense_isReal _ _ _ (fun j => (hagg h hh j).add (hh j)) hw1 hb1
  have ha1 := actWith_isReal hcnt hN hcnt' hN' heps he _ P.g1 P.be1 ht1 hg1 hbe1
  have e1 := actWith_eq hcnt hN hcnt' hN' heps he _ P.g1 P.be1 ht1 hg1 hbe1
  have ht2 : AllReal (dense (actWith actD cnt cnt' eps (dense (fun j => agg h j + h j) P.w1 P.b1) P.g1 P.be1) P.w2 P.b2) :=
    dense_isReal _ _ _ ha1 hw2 hb2
  have ha2 := actWith_isReal hcnt hN hcnt' hN' heps he _ P.go P.beo ht2 hgo hbeo
  have e2 := actWith_eq hcnt hN hcnt' hN' heps he _ P.go P.beo ht2 hgo hbeo
  refine ⟨?_, fun i => (ha2 i).add (hh i)⟩
  funext i
  unfold layer
  rw [e1, e2]

end

end Cert.Gin

end
-- ==== Proof.GinTile.lean ====
/-
  The four vector programs of the network, each as an index formula on the extended reals, for any extents.

  On the extended reals a change of float format is the identity, and a cast of a block to its own shape is the identity,
  so a product on the matrix unit of two operands cast to a narrower format, into a zero accumulator, plus a [1, n] bias
  block repeated down the rows, is one dense layer of the operands as loaded. A [1, n] block of per-column factors
  repeated down the rows multiplies a block column by column.
-/
import proofs.«100402_j28432683499906_1_alg».proof.Proof.LibTileRows
import proofs.«100402_j28432683499906_1_alg».proof.Proof.GinSpec

noncomputable section

namespace Cert.Gin

open Idealize.ShloMosaic Idealize.ShloMosaic.ValueIdx Cert.LibMatmulPlain Cert.Layers Cert.Net

variable {m k n : Nat}

/-- On the extended reals a cast to a narrower float format is the identity. -/
theorem truncf_id {s : Shape} {φ ψ : FTy} (x : FVec Ideal s φ) (h : ψ.bits < φ.bits) : truncf ψ x h = x := rfl

/-- A [1, n] block repeated down m rows, read at (p, q), is its entry (0, q). -/
theorem bcRow_apply (r : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (i : (⟨2, ![m, n]⟩ : Shape).Idx) :
    broadcastTo ⟨2, ![m, n]⟩ (shapeCast ⟨2, ![1, n]⟩ r hc) hb i = rowOf r (ix1 (i 1)) :=
  congrFun (tileBiasRow_eq (m := m) r hc hb) i

/-- x · w + b with both operands cast to a narrower format on the way into the matrix unit. -/
theorem tileLinear_eq {ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (x : FVec Ideal ⟨2, ![m, k]⟩ .f32) (w : FVec Ideal ⟨2, ![k, n]⟩ .f32) (hψ : ψ.bits < FTy.f32.bits)
    (r : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) :
    addf (matmul d none (truncf ψ x hψ) (truncf ψ w hψ) (constant ⟨2, ![m, n]⟩ .f32 0x00000000#32))
        (broadcastTo ⟨2, ![m, n]⟩ (shapeCast ⟨2, ![1, n]⟩ r hc) hb)
      = dense x w (rowOf r) :=
  tileDenseRow_eq d wf hd (truncf ψ x hψ) w hψ r hc hb

/-- The folded normalisation and rectifier of a block: max (t · sc + sh, 0) with sc, sh [1, n] blocks. -/
def affRect (t : Mat m n) (sc sh : Mat 1 n) : Mat m n :=
  rect fun i => t i * rowOf sc (ix1 (i 1)) + rowOf sh (ix1 (i 1))

theorem tileAffRect_eq (t : FVec Ideal ⟨2, ![m, n]⟩ .f32) (sc sh : FVec Ideal ⟨2, ![1, n]⟩ .f32)
    (hc : (⟨2, ![1, n]⟩ : Shape).ShapeCasts ⟨2, ![1, n]⟩) (hb : (⟨2, ![1, n]⟩ : Shape).Broadcasts ⟨2, ![m, n]⟩) :
    maximumf (addf (mulf t (broadcastTo ⟨2, ![m, n]⟩ (shapeCast ⟨2, ![1, n]⟩ sc hc) hb))
        (broadcastTo ⟨2, ![m, n]⟩ (shapeCast ⟨2, ![1, n]⟩ sh hc) hb))
      (broadcast ⟨2, ![m, n]⟩ (Scalar.ofBits (F := Ideal) .f32 0x00000000#32)) = affRect t sc sh := by
  rw [tileRect_eq]
  unfold affRect
  refine congrArg rect (funext fun i => ?_)
  show t i * broadcastTo ⟨2, ![m, n]⟩ (shapeCast ⟨2, ![1, n]⟩ sc hc) hb i
      + broadcastTo ⟨2, ![m, n]⟩ (shapeCast ⟨2, ![1, n]⟩ sh hc) hb i = _
  rw [bcRow_apply sc hc hb i, bcRow_apply sh hc hb i]

/-- Row p of affRect depends on row p of t only. -/
theorem affRect_rows {m' : Nat} (t : Mat m n) (t' : Mat m' n) (sc sh : Mat 1 n) (p' : Fin m') (p : Fin m) (q : Fin n)
    (ht : t' (ix2 p' q) = t (ix2 p q)) : affRect t' sc sh (ix2 p' q) = affRect t sc sh (ix2 p q) := by
  unfold affRect
  refine rect_congr _ _ _ _ ?_
  show t' (ix2 p' q) * rowOf sc (ix1 q) + rowOf sh (ix1 q) = t (ix2 p q) * rowOf sc (ix1 q) + rowOf sh (ix1 q)
  rw [ht]

/-- With sc = g · r and sh = be − m · (g · r) laid out as [1, n] blocks, affRect is the folded activation. -/
theorem affRect_eq_actS (t : Mat m n) (sc sh : Mat 1 n) (mu r g be : Row n)
    (hsc : ∀ q : Fin n, rowOf sc (ix1 q) = g (ix1 q) * r (ix1 q))
    (hsh : ∀ q : Fin n, rowOf sh (ix1 q) = be (ix1 q) - mu (ix1 q) * (g (ix1 q) * r (ix1 q))) :
    affRect t sc sh = actS t mu r g be := by
  unfold affRect actS normS
  refine congrArg rect (funext fun i => ?_)
  obtain ⟨p, q, rfl⟩ : ∃ (p : Fin m) (q : Fin n), i = ix2 p q := ⟨i 0, i 1, eq_ix2 i⟩
  show t (ix2 p q) * rowOf sc (ix1 q) + rowOf sh (ix1 q) = _
  rw [hsc q, hsh q]
  rfl

end Cert.Gin

end
-- ==== Proof.KRegionLinear.lean ====
/-
  The linear layer's block program on the extended reals: a [5000, 64] block times the [64, 64] weight, both cast to a
  narrower float format on the way into the matrix unit (the identity on the extended reals), into a zero accumulator,
  plus the [1, 64] bias block repeated down the rows, is one dense layer of the block; and a row of a dense layer
  depends on that row of its input only, so a block whose rows are rows of a taller array gives those rows of the
  taller array's dense layer.
-/
import proofs.«100402_j28432683499906_1_alg».proof.Proof.Gen.KernelIdeal.Skeleton
import proofs.«100402_j28432683499906_1_alg».proof.Proof.GinTile

set_option maxRecDepth 16384

noncomputable section

namespace Cert.KernelIdeal.Regions

open Idealize.ShloMosaic Idealize.ShloMosaic.ValueIdx
open Cert.KernelIdeal Cert.KernelIdeal.Gen
open Cert.LibMatmulPlain Cert.Layers Cert.Net Cert.Gin

/-- The body of the linear layer is the dense layer of its three loaded blocks. -/
theorem linearBody_eq (x : Vec Ideal S5000x64 .f32) (w : Vec Ideal S64x64 .f32) (b : Vec Ideal S1x64 .f32) :
    addf (F := Ideal) (matmul (F := Ideal) dot_S5000x64_S64x64_S5000x64_1_0_0_1_n_n none
          (truncf (F := Ideal) .bf16 (shapeCast S5000x64 x shapeCasts_S5000x64_S5000x64) bitsLt_bf16_f32)
          (truncf (F := Ideal) .bf16 w bitsLt_bf16_f32) (constant (F := Ideal) S5000x64 .f32 0x00000000#32))
        (broadcastTo S5000x64 (shapeCast S1x64 b shapeCasts_S1x64_S1x64) broadcasts_S1x64_S5000x64)
      = dense (m := 5000) (k := 64) (n := 64) x w (rowOf b) :=
  (tileLinear_eq dot_S5000x64_S64x64_S5000x64_1_0_0_1_n_n dot_S5000x64_S64x64_S5000x64_1_0_0_1_n_n_wf rfl
      (shapeCast S5000x64 x shapeCasts_S5000x64_S5000x64) w bitsLt_bf16_f32 b shapeCasts_S1x64_S1x64
      broadcasts_S1x64_S5000x64).trans
    (congrArg (fun z : Mat 5000 64 => dense z w (rowOf b)) (shapeCast_self x shapeCasts_S5000x64_S5000x64))

/-- Row p of the block's dense layer is row P of the whole array's, when row p of the block is row P of the array
    and the weight and bias blocks are the whole weight and bias. -/
theorem linear_rows (X : Mat 50000 64) (W : Mat 64 64) (B : Mat 1 64)
    (x : Mat 5000 64) (w : Mat 64 64) (b : Mat 1 64) (p : Fin 5000) (P : Fin 50000) (q : Fin 64)
    (hx : ∀ j : Fin 64, x (ix2 p j) = X (ix2 P j)) (hw : w = W) (hb : b = B) :
    dense x w (rowOf b) (ix2 p q) = dense X W (rowOf B) (ix2 P q) := by
  subst hw hb
  exact dense_rows X x w (rowOf b) p P hx q

end Cert.KernelIdeal.Regions

end
-- ==== Proof.KRegion0.lean ====
/-
  Region 0 of the kernel program (the linear layer), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionLinear

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 0: the linear layer -/

/-- Which buffer each window of region 0 stages. -/
theorem arrRef0_0 : Pipeline.arrRef spec0 0 = main_v0 := rfl
theorem arrRef0_1 : Pipeline.arrRef spec0 1 = main_arg4 := rfl
theorem arrRef0_2 : Pipeline.arrRef spec0 2 = main_v1 := rfl
theorem arrRef0_3 : Pipeline.arrRef spec0 3 = main_v2 := rfl

/-- The block indices over the grid: a [5000, 64] window steps down the rows with the point, the other windows stay
    at their whole array. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point t is rows 5000 t … 5000 t + 4999 of its array. -/
theorem blk0_0 (c : Dev nD) (t : Fin cfg0.N) (p : Fin 5000) (j : Fin 64) (P : Fin 50000)
    (hP : P.val = 5000 * t.val + p.val) :
    (iblk0 V c 0 t : Vec Ideal S5000x64 .f32) (ix2 p j) = (V c (Pipeline.arrRef spec0 0) : Mat 50000 64) (ix2 P j) := by
  obtain ⟨e0, e1, -⟩ := idx0 t
  unfold iblk0
  rw [View.read_apply]
  refine congrArg (fun i => (V c (Pipeline.arrRef spec0 0) : Mat 50000 64) i) ?_
  funext a; apply Fin.ext
  match a with
  | ⟨0, _⟩ => show win0_0.index t (0 : Fin 2) * 5000 + 1 * p.val = P.val; omega
  | ⟨1, _⟩ => show win0_0.index t (1 : Fin 2) * 64 + 1 * j.val = j.val; omega

/-- Window 1's block at every point is its whole array. -/
theorem blk0_1 (c : Dev nD) (t : Fin cfg0.N) :
    (iblk0 V c 1 t : Vec Ideal S64x64 .f32) = (V c (Pipeline.arrRef spec0 1) : Mat 64 64) := by
  obtain ⟨-, -, e2, e3, -⟩ := idx0 t
  unfold iblk0
  funext y
  rw [View.read_apply]
  refine congrArg (fun i => (V c (Pipeline.arrRef spec0 1) : Mat 64 64) i) ?_
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- Window 2's block at every point is its whole array. -/
theorem blk0_2 (c : Dev nD) (t : Fin cfg0.N) :
    (iblk0 V c 2 t : Vec Ideal S1x64 .f32) = (V c (Pipeline.arrRef spec0 2) : Mat 1 64) := by
  obtain ⟨-, -, -, -, e4, e5, -⟩ := idx0 t
  unfold iblk0
  funext y
  rw [View.read_apply]
  refine congrArg (fun i => (V c (Pipeline.arrRef spec0 2) : Mat 1 64) i) ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What region 0 leaves in its output array: the dense layer of the arrays it reads, as the region finds them. -/
abbrev val0 (c : Dev nD) : Mat 50000 64 :=
  dense (V c (Pipeline.arrRef spec0 0) : Mat 50000 64) (V c (Pipeline.arrRef spec0 1) : Mat 64 64)
    (rowOf (V c (Pipeline.arrRef spec0 2) : Mat 1 64))

/-- What point t writes back is block t of that array. -/
theorem flushed0 (c : Dev nD) (t : Fin cfg0.N) :
    (dat0 V c).flushed 3 t = ((cfg0.win 3).blk t).view.read (Elt Ideal) (val0 V c) := by
  show (cfg0.win 3).cut (grid0.coords t) ((dat0 V c).after 3 t) = _
  rw [after0_3]
  unfold out0_3
  rw [View.canon_unit_zero zeroOff]
  simp only [View.ld_unit_zero (S := S5000x64) zeroOff, View.ld_unit_zero (S := S64x64) zeroOff, View.ld_unit_zero (S := S1x64) zeroOff]
  obtain ⟨-, -, -, -, -, -, e6, e7⟩ := idx0 t
  funext y
  obtain ⟨p, q, rfl⟩ : ∃ (p : Fin 5000) (q : Fin 64), y = ix2 p q := ⟨y 0, y 1, eq_ix2 y⟩
  have hN : cfg0.N = 10 := N_0
  have hP : 5000 * t.val + p.val < 50000 := by have := t.isLt; omega
  show k0_pay1 (iblk0 V c 0 t) (iblk0 V c 1 t) (iblk0 V c 2 t) (ix2 p q)
      = val0 V c (((cfg0.win 3).blk t).view.emb (ix2 p q))
  have hemb : ((cfg0.win 3).blk t).view.emb (ix2 p q) = ix2 (⟨5000 * t.val + p.val, hP⟩ : Fin 50000) q := by
    funext a; apply Fin.ext
    match a with
    | ⟨0, _⟩ => show win0_3.index t (0 : Fin 2) * 5000 + 1 * p.val = 5000 * t.val + p.val; omega
    | ⟨1, _⟩ => show win0_3.index t (1 : Fin 2) * 64 + 1 * q.val = q.val; omega
  rw [hemb]
  refine (congrFun (linearBody_eq (iblk0 V c 0 t) (iblk0 V c 1 t) (iblk0 V c 2 t)) (ix2 p q)).trans ?_
  exact linear_rows (V c (Pipeline.arrRef spec0 0) : Mat 50000 64) (V c (Pipeline.arrRef spec0 1) : Mat 64 64) (V c (Pipeline.arrRef spec0 2) : Mat 1 64) (iblk0 V c 0 t) (iblk0 V c 1 t) (iblk0 V c 2 t) p (⟨5000 * t.val + p.val, hP⟩ : Fin 50000) q
    (fun j => blk0_0 V c t p j (⟨5000 * t.val + p.val, hP⟩ : Fin 50000) rfl) (blk0_1 V c t) (blk0_2 V c t)

/-- Every row of the output array is in the block of the point its row number divided by 5000 names. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, e6, e7⟩ := idx0 t
  refine ⟨t, flush0_3 t, ?_⟩
  show i ∈ ((View.whole main_v2).slice (win0_3.rect t)).set
  rw [View.set_slice_whole, Rect.mem_set_unit]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- REGION 0: its output array ends holding the dense layer of the arrays it reads. -/
theorem region0 (c : Dev nD) :
    (dat0 V c).arrAt 3 cfg0.N
      = (dense (V c (Pipeline.arrRef spec0 0) : Mat 50000 64) (V c (Pipeline.arrRef spec0 1) : Mat 64 64)
        (rowOf (V c (Pipeline.arrRef spec0 2) : Mat 1 64)) : Mat 50000 64) :=
  (dat0 V c).arrAt_eq_of_cover 3 (val0 V c) (fun t _ => flushed0 V c t) (fun i => cover0 i)

end Cert.KernelIdeal.Regions

end
-- ==== Proof.KRegionAddLinear.lean ====
/-
  The sum-then-linear block program on the extended reals: two [5000, 64] blocks added entry by entry, then the dense
  layer of the sum (the casts to a narrower float format on the way into the matrix unit are the identity on the
  extended reals). Row p of the result depends on row p of the two blocks only.
-/
import proofs.«100402_j28432683499906_1_alg».proof.Proof.Gen.KernelIdeal.Skeleton
import proofs.«100402_j28432683499906_1_alg».proof.Proof.GinTile

set_option maxRecDepth 16384

noncomputable section

namespace Cert.KernelIdeal.Regions

open Idealize.ShloMosaic Idealize.ShloMosaic.ValueIdx
open Cert.KernelIdeal Cert.KernelIdeal.Gen
open Cert.LibMatmulPlain Cert.Layers Cert.Net Cert.Gin

/-- The body of the sum-then-linear layer is the dense layer of the sum of its first two loaded blocks. -/
theorem addLinearBody_eq (a h : Vec Ideal S5000x64 .f32) (w : Vec Ideal S64x64 .f32) (b : Vec Ideal S1x64 .f32) :
    addf (F := Ideal) (matmul (F := Ideal) dot_S5000x64_S64x64_S5000x64_1_0_0_1_n_n none
          (truncf (F := Ideal) .bf16 (addf (F := Ideal) (shapeCast S5000x64 a shapeCasts_S5000x64_S5000x64)
            (shapeCast S5000x64 h shapeCasts_S5000x64_S5000x64)) bitsLt_bf16_f32)
          (truncf (F := Ideal) .bf16 (shapeCast S64x64 w shapeCasts_S64x64_S64x64) bitsLt_bf16_f32)
          (constant (F := Ideal) S5000x64 .f32 0x00000000#32))
        (broadcastTo S5000x64 (shapeCast S1x64 b shapeCasts_S1x64_S1x64) broadcasts_S1x64_S5000x64)
      = dense (m := 5000) (k := 64) (n := 64) (fun j => a j + h j : Mat 5000 64) w (rowOf b) :=
  (tileLinear_eq dot_S5000x64_S64x64_S5000x64_1_0_0_1_n_n dot_S5000x64_S64x64_S5000x64_1_0_0_1_n_n_wf rfl
      (addf (F := Ideal) (shapeCast S5000x64 a shapeCasts_S5000x64_S5000x64) (shapeCast S5000x64 h shapeCasts_S5000x64_S5000x64))
      (shapeCast S64x64 w shapeCasts_S64x64_S64x64) bitsLt_bf16_f32 b shapeCasts_S1x64_S1x64
      broadcasts_S1x64_S5000x64).trans
    (congrArg₂ (fun (z : Mat 5000 64) (u : Mat 64 64) => dense z u (rowOf b))
      (congrArg₂ (fun (z z' : Mat 5000 64) => (addf (F := Ideal) z z' : Mat 5000 64))
        (shapeCast_self a shapeCasts_S5000x64_S5000x64) (shapeCast_self h shapeCasts_S5000x64_S5000x64))
      (shapeCast_self w shapeCasts_S64x64_S64x64))

/-- Row p of the block program's result is row P of the whole arrays' result. -/
theorem addLinear_rows (A H : Mat 50000 64) (W : Mat 64 64) (B : Mat 1 64)
    (a h : Mat 5000 64) (w : Mat 64 64) (b : Mat 1 64) (p : Fin 5000) (P : Fin 50000) (q : Fin 64)
    (ha : ∀ j : Fin 64, a (ix2 p j) = A (ix2 P j)) (hh : ∀ j : Fin 64, h (ix2 p j) = H (ix2 P j))
    (hw : w = W) (hb : b = B) :
    dense (fun j => a j + h j) w (rowOf b) (ix2 p q) = dense (fun j => A j + H j) W (rowOf B) (ix2 P q) := by
  subst hw hb
  refine dense_rows (fun j => A j + H j) (fun j => a j + h j) w (rowOf b) p P (fun j => ?_) q
  show a (ix2 p j) + h (ix2 p j) = A (ix2 P j) + H (ix2 P j)
  rw [ha j, hh j]

end Cert.KernelIdeal.Regions

end
-- ==== Proof.KRegion1.lean ====
/-
  Region 1 of the kernel program (the sum of two arrays, then a linear layer), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAddLinear

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 1: the sum of two arrays, then a linear layer -/

/-- Which buffer each window of region 1 stages. -/
theorem arrRef1_0 : Pipeline.arrRef spec1 0 = main_v19 := rfl
theorem arrRef1_1 : Pipeline.arrRef spec1 1 = main_v2 := rfl
theorem arrRef1_2 : Pipeline.arrRef spec1 2 = main_v21 := rfl
theorem arrRef1_3 : Pipeline.arrRef spec1 3 = main_v24 := rfl
theorem arrRef1_4 : Pipeline.arrRef spec1 4 = main_v25 := rfl

/-- The block indices over the grid: a [5000, 64] window steps down the rows with the point, the other windows stay
    at their whole array. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t is rows 5000 t … 5000 t + 4999 of its array. -/
theorem blk1_0 (c : Dev nD) (t : Fin cfg1.N) (p : Fin 5000) (j : Fin 64) (P : Fin 50000)
    (hP : P.val = 5000 * t.val + p.val) :
    (iblk1 V c 0 t : Vec Ideal S5000x64 .f32) (ix2 p j) = (V c (Pipeline.arrRef spec1 0) : Mat 50000 64) (ix2 P j) := by
  obtain ⟨e0, e1, -⟩ := idx1 t
  unfold iblk1
  rw [View.read_apply]
  refine congrArg (fun i => (V c (Pipeline.arrRef spec1 0) : Mat 50000 64) i) ?_
  funext a; apply Fin.ext
  match a with
  | ⟨0, _⟩ => show win1_0.index t (0 : Fin 2) * 5000 + 1 * p.val = P.val; omega
  | ⟨1, _⟩ => show win1_0.index t (1 : Fin 2) * 64 + 1 * j.val = j.val; omega

/-- Window 1's block at point t is rows 5000 t … 5000 t + 4999 of its array. -/
theorem blk1_1 (c : Dev nD) (t : Fin cfg1.N) (p : Fin 5000) (j : Fin 64) (P : Fin 50000)
    (hP : P.val = 5000 * t.val + p.val) :
    (iblk1 V c 1 t : Vec Ideal S5000x64 .f32) (ix2 p j) = (V c (Pipeline.arrRef spec1 1) : Mat 50000 64) (ix2 P j) := by
  obtain ⟨-, -, e2, e3, -⟩ := idx1 t
  unfold iblk1
  rw [View.read_apply]
  refine congrArg (fun i => (V c (Pipeline.arrRef spec1 1) : Mat 50000 64) i) ?_
  funext a; apply Fin.ext
  match a with
  | ⟨0, _⟩ => show win1_1.index t (0 : Fin 2) * 5000 + 1 * p.val = P.val; omega
  | ⟨1, _⟩ => show win1_1.index t (1 : Fin 2) * 64 + 1 * j.val = j.val; omega

/-- Window 2's block at every point is its whole array. -/
theorem blk1_2 (c : Dev nD) (t : Fin cfg1.N) :
    (iblk1 V c 2 t : Vec Ideal S64x64 .f32) = (V c (Pipeline.arrRef spec1 2) : Mat 64 64) := by
  obtain ⟨-, -, -, -, e4, e5, -⟩ := idx1 t
  unfold iblk1
  funext y
  rw [View.read_apply]
  refine congrArg (fun i => (V c (Pipeline.arrRef spec1 2) : Mat 64 64) i) ?_
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Window 3's block at every point is its whole array. -/
theorem blk1_3 (c : Dev nD) (t : Fin cfg1.N) :
    (iblk1 V c 3 t : Vec Ideal S1x64 .f32) = (V c (Pipeline.arrRef spec1 3) : Mat 1 64) := by
  obtain ⟨-, -, -, -, -, -, e6, e7, -⟩ := idx1 t
  unfold iblk1
  funext y
  rw [View.read_apply]
  refine congrArg (fun i => (V c (Pipeline.arrRef spec1 3) : Mat 1 64) i) ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- What region 1 leaves in its output array: the dense layer of the sum of the two arrays it reads, as the region finds them. -/
abbrev val1 (c : Dev nD) : Mat 50000 64 :=
  dense (fun j => @HAdd.hAdd EReal EReal EReal _ ((V c (Pipeline.arrRef spec1 0) : Mat 50000 64) j) ((V c (Pipeline.arrRef spec1 1) : Mat 50000 64) j))
    (V c (Pipeline.arrRef spec1 2) : Mat 64 64) (rowOf (V c (Pipeline.arrRef spec1 3) : Mat 1 64))

/-- What point t writes back is block t of that array. -/
theorem flushed1 (c : Dev nD) (t : Fin cfg1.N) :
    (dat1 V c).flushed 4 t = ((cfg1.win 4).blk t).view.read (Elt Ideal) (val1 V c) := by
  show (cfg1.win 4).cut (grid1.coords t) ((dat1 V c).after 4 t) = _
  rw [after1_4]
  unfold out1_4
  rw [View.canon_unit_zero zeroOff]
  simp only [View.ld_unit_zero (S := S5000x64) zeroOff, View.ld_unit_zero (S := S64x64) zeroOff, View.ld_unit_zero (S := S1x64) zeroOff]
  obtain ⟨-, -, -, -, -, -, -, -, e8, e9⟩ := idx1 t
  funext y
  obtain ⟨p, q, rfl⟩ : ∃ (p : Fin 5000) (q : Fin 64), y = ix2 p q := ⟨y 0, y 1, eq_ix2 y⟩
  have hN : cfg1.N = 10 := N_1
  have hP : 5000 * t.val + p.val < 50000 := by have := t.isLt; omega
  show k1_pay1 (iblk1 V c 0 t) (iblk1 V c 1 t) (iblk1 V c 2 t) (iblk1 V c 3 t) (ix2 p q)
      = val1 V c (((cfg1.win 4).blk t).view.emb (ix2 p q))
  have hemb : ((cfg1.win 4).blk t).view.emb (ix2 p q) = ix2 (⟨5000 * t.val + p.val, hP⟩ : Fin 50000) q := by
    funext a; apply Fin.ext
    match a with
    | ⟨0, _⟩ => show win1_4.index t (0 : Fin 2) * 5000 + 1 * p.val = 5000 * t.val + p.val; omega
    | ⟨1, _⟩ => show win1_4.index t (1 : Fin 2) * 64 + 1 * q.val = q.val; omega
  rw [hemb]
  refine (congrFun (addLinearBody_eq (iblk1 V c 0 t) (iblk1 V c 1 t) (iblk1 V c 2 t) (iblk1 V c 3 t)) (ix2 p q)).trans ?_
  exact addLinear_rows (V c (Pipeline.arrRef spec1 0) : Mat 50000 64) (V c (Pipeline.arrRef spec1 1) : Mat 50000 64) (V c (Pipeline.arrRef spec1 2) : Mat 64 64) (V c (Pipeline.arrRef spec1 3) : Mat 1 64)
    (iblk1 V c 0 t) (iblk1 V c 1 t) (iblk1 V c 2 t) (iblk1 V c 3 t) p (⟨5000 * t.val + p.val, hP⟩ : Fin 50000) q
    (fun j => blk1_0 V c t p j (⟨5000 * t.val + p.val, hP⟩ : Fin 50000) rfl) (fun j => blk1_1 V c t p j (⟨5000 * t.val + p.val, hP⟩ : Fin 50000) rfl) (blk1_2 V c t) (blk1_3 V c t)

/-- Every row of the output array is in the block of the point its row number divided by 5000 names. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, e8, e9⟩ := idx1 t
  refine ⟨t, flush1_4 t, ?_⟩
  show i ∈ ((View.whole main_v25).slice (win1_4.rect t)).set
  rw [View.set_slice_whole, Rect.mem_set_unit]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- REGION 1: its output array ends holding the dense layer of the sum of the two arrays it reads. -/
theorem region1 (c : Dev nD) :
    (dat1 V c).arrAt 4 cfg1.N
      = (dense (fun j => @HAdd.hAdd EReal EReal EReal _ ((V c (Pipeline.arrRef spec1 0) : Mat 50000 64) j) ((V c (Pipeline.arrRef spec1 1) : Mat 50000 64) j))
        (V c (Pipeline.arrRef spec1 2) : Mat 64 64) (rowOf (V c (Pipeline.arrRef spec1 3) : Mat 1 64)) : Mat 50000 64) :=
  (dat1 V c).arrAt_eq_of_cover 4 (val1 V c) (fun t _ => flushed1 V c t) (fun i => cover1 i)

end Cert.KernelIdeal.Regions

end
-- ==== Proof.KRegionAffLinear.lean ====
/-
  The normalise-rectify-then-linear block program on the extended reals: max (t · sc + sh, 0) of a [5000, 64] block t
  with [1, 64] blocks of per-column factors and offsets, then the dense layer of that (the casts to a narrower float
  format on the way into the matrix unit are the identity on the extended reals). Row p of the result depends on row p
  of t only.
-/
import proofs.«100402_j28432683499906_1_alg».proof.Proof.Gen.KernelIdeal.Skeleton
import proofs.«100402_j28432683499906_1_alg».proof.Proof.GinTile

set_option maxRecDepth 16384

noncomputable section

namespace Cert.KernelIdeal.Regions

open Idealize.ShloMosaic Idealize.ShloMosaic.ValueIdx
open Cert.KernelIdeal Cert.KernelIdeal.Gen
open Cert.LibMatmulPlain Cert.Layers Cert.Net Cert.Gin

/-- The folded normalisation and rectifier of a loaded block: max (t · sc + sh, 0), the [1, 64] blocks sc and sh
    repeated down the rows (the cast of the block to its own shape is the identity). -/
theorem affBody_eq (t : Vec Ideal S5000x64 .f32) (sc sh : Vec Ideal S1x64 .f32) :
    maximumf (F := Ideal) (addf (F := Ideal) (mulf (F := Ideal) (shapeCast S5000x64 t shapeCasts_S5000x64_S5000x64)
              (broadcastTo S5000x64 (shapeCast S1x64 sc shapeCasts_S1x64_S1x64) broadcasts_S1x64_S5000x64))
            (broadcastTo S5000x64 (shapeCast S1x64 sh shapeCasts_S1x64_S1x64) broadcasts_S1x64_S5000x64))
          (broadcast S5000x64 (Scalar.ofBits (F := Ideal) .f32 0x00000000#32))
      = affRect (m := 5000) (n := 64) t sc sh :=
  (congrArg (fun z : Mat 5000 64 => (maximumf (addf (mulf z
              (broadcastTo S5000x64 (shapeCast S1x64 sc shapeCasts_S1x64_S1x64) broadcasts_S1x64_S5000x64))
            (broadcastTo S5000x64 (shapeCast S1x64 sh shapeCasts_S1x64_S1x64) broadcasts_S1x64_S5000x64))
          (broadcast S5000x64 (Scalar.ofBits (F := Ideal) .f32 0x00000000#32)) : Mat 5000 64))
      (shapeCast_self t shapeCasts_S5000x64_S5000x64)).trans
    (tileAffRect_eq t sc sh shapeCasts_S1x64_S1x64 broadcasts_S1x64_S5000x64)

/-- The body of the normalise-rectify-then-linear layer. -/
theorem affLinearBody_eq (t : Vec Ideal S5000x64 .f32) (sc sh : Vec Ideal S1x64 .f32) (w : Vec Ideal S64x64 .f32)
    (b : Vec Ideal S1x64 .f32) :
    addf (F := Ideal) (matmul (F := Ideal) dot_S5000x64_S64x64_S5000x64_1_0_0_1_n_n none
          (truncf (F := Ideal) .bf16 (maximumf (F := Ideal) (addf (F := Ideal) (mulf (F := Ideal) (shapeCast S5000x64 t shapeCasts_S5000x64_S5000x64)
              (broadcastTo S5000x64 (shapeCast S1x64 sc shapeCasts_S1x64_S1x64) broadcasts_S1x64_S5000x64))
            (broadcastTo S5000x64 (shapeCast S1x64 sh shapeCasts_S1x64_S1x64) broadcasts_S1x64_S5000x64))
          (broadcast S5000x64 (Scalar.ofBits (F := Ideal) .f32 0x00000000#32))) bitsLt_bf16_f32)
          (truncf (F := Ideal) .bf16 (shapeCast S64x64 w shapeCasts_S64x64_S64x64) bitsLt_bf16_f32)
          (constant (F := Ideal) S5000x64 .f32 0x00000000#32))
        (broadcastTo S5000x64 (shapeCast S1x64 b shapeCasts_S1x64_S1x64) broadcasts_S1x64_S5000x64)
      = dense (m := 5000) (k := 64) (n := 64) (affRect t sc sh) w (rowOf b) :=
  (tileLinear_eq dot_S5000x64_S64x64_S5000x64_1_0_0_1_n_n dot_S5000x64_S64x64_S5000x64_1_0_0_1_n_n_wf rfl
      (maximumf (F := Ideal) (addf (F := Ideal) (mulf (F := Ideal) (shapeCast S5000x64 t shapeCasts_S5000x64_S5000x64)
              (broadcastTo S5000x64 (shapeCast S1x64 sc shapeCasts_S1x64_S1x64) broadcasts_S1x64_S5000x64))
            (broadcastTo S5000x64 (shapeCast S1x64 sh shapeCasts_S1x64_S1x64) broadcasts_S1x64_S5000x64))
          (broadcast S5000x64 (Scalar.ofBits (F := Ideal) .f32 0x00000000#32)))
      (shapeCast S64x64 w shapeCasts_S64x64_S64x64) bitsLt_bf16_f32 b shapeCasts_S1x64_S1x64
      broadcasts_S1x64_S5000x64).trans
    (congrArg₂ (fun (z : Mat 5000 64) (u : Mat 64 64) => dense z u (rowOf b))
      (affBody_eq t sc sh) (shapeCast_self w shapeCasts_S64x64_S64x64))

/-- Row p of the block program's result is row P of the whole arrays' result. -/
theorem affLinear_rows (T : Mat 50000 64) (SC SH : Mat 1 64) (W : Mat 64 64) (B : Mat 1 64)
    (t : Mat 5000 64) (sc sh : Mat 1 64) (w : Mat 64 64) (b : Mat 1 64) (p : Fin 5000) (P : Fin 50000) (q : Fin 64)
    (ht : ∀ j : Fin 64, t (ix2 p j) = T (ix2 P j)) (hsc : sc = SC) (hsh : sh = SH) (hw : w = W) (hb : b = B) :
    dense (affRect t sc sh) w (rowOf b) (ix2 p q) = dense (affRect T SC SH) W (rowOf B) (ix2 P q) := by
  subst hsc hsh hw hb
  exact dense_rows (affRect T sc sh) (affRect t sc sh) w (rowOf b) p P
    (fun j => affRect_rows T t sc sh p P j (ht j)) q

end Cert.KernelIdeal.Regions

end
-- ==== Proof.KRegion2.lean ====
/-
  Region 2 of the kernel program (normalise and rectify, then a linear layer), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAffLinear

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 2: normalise and rectify, then a linear layer -/

/-- Which buffer each window of region 2 stages. -/
theorem arrRef2_0 : Pipeline.arrRef spec2 0 = main_v25 := rfl
theorem arrRef2_1 : Pipeline.arrRef spec2 1 = main_v44 := rfl
theorem arrRef2_2 : Pipeline.arrRef spec2 2 = main_v45 := rfl
theorem arrRef2_3 : Pipeline.arrRef spec2 3 = main_v41 := rfl
theorem arrRef2_4 : Pipeline.arrRef spec2 4 = main_v46 := rfl
theorem arrRef2_5 : Pipeline.arrRef spec2 5 = main_v47 := rfl

/-- The block indices over the grid: a [5000, 64] window steps down the rows with the point, the other windows stay
    at their whole array. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t is rows 5000 t … 5000 t + 4999 of its array. -/
theorem blk2_0 (c : Dev nD) (t : Fin cfg2.N) (p : Fin 5000) (j : Fin 64) (P : Fin 50000)
    (hP : P.val = 5000 * t.val + p.val) :
    (iblk2 V c 0 t : Vec Ideal S5000x64 .f32) (ix2 p j) = (V c (Pipeline.arrRef spec2 0) : Mat 50000 64) (ix2 P j) := by
  obtain ⟨e0, e1, -⟩ := idx2 t
  unfold iblk2
  rw [View.read_apply]
  refine congrArg (fun i => (V c (Pipeline.arrRef spec2 0) : Mat 50000 64) i) ?_
  funext a; apply Fin.ext
  match a with
  | ⟨0, _⟩ => show win2_0.index t (0 : Fin 2) * 5000 + 1 * p.val = P.val; omega
  | ⟨1, _⟩ => show win2_0.index t (1 : Fin 2) * 64 + 1 * j.val = j.val; omega

/-- Window 1's block at every point is its whole array. -/
theorem blk2_1 (c : Dev nD) (t : Fin cfg2.N) :
    (iblk2 V c 1 t : Vec Ideal S1x64 .f32) = (V c (Pipeline.arrRef spec2 1) : Mat 1 64) := by
  obtain ⟨-, -, e2, e3, -⟩ := idx2 t
  unfold iblk2
  funext y
  rw [View.read_apply]
  refine congrArg (fun i => (V c (Pipeline.arrRef spec2 1) : Mat 1 64) i) ?_
  funext a; apply Fin.ext
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- Window 2's block at every point is its whole array. -/
theorem blk2_2 (c : Dev nD) (t : Fin cfg2.N) :
    (iblk2 V c 2 t : Vec Ideal S1x64 .f32) = (V c (Pipeline.arrRef spec2 2) : Mat 1 64) := by
  obtain ⟨-, -, -, -, e4, e5, -⟩ := idx2 t
  unfold iblk2
  funext y
  rw [View.read_apply]
  refine congrArg (fun i => (V c (Pipeline.arrRef spec2 2) : Mat 1 64) i) ?_
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Window 3's block at every point is its whole array. -/
theorem blk2_3 (c : Dev nD) (t : Fin cfg2.N) :
    (iblk2 V c 3 t : Vec Ideal S64x64 .f32) = (V c (Pipeline.arrRef spec2 3) : Mat 64 64) := by
  obtain ⟨-, -, -, -, -, -, e6, e7, -⟩ := idx2 t
  unfold iblk2
  funext y
  rw [View.read_apply]
  refine congrArg (fun i => (V c (Pipeline.arrRef spec2 3) : Mat 64 64) i) ?_
  funext a; apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Window 4's block at every point is its whole array. -/
theorem blk2_4 (c : Dev nD) (t : Fin cfg2.N) :
    (iblk2 V c 4 t : Vec Ideal S1x64 .f32) = (V c (Pipeline.arrRef spec2 4) : Mat 1 64) := by
  obtain ⟨-, -, -, -, -, -, -, -, e8, e9, -⟩ := idx2 t
  unfold iblk2
  funext y
  rw [View.read_apply]
  refine congrArg (fun i => (V c (Pipeline.arrRef spec2 4) : Mat 1 64) i) ?_
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- What region 2 leaves in its output array: the dense layer of the normalised, rectified array it reads, as the region finds them. -/
abbrev val2 (c : Dev nD) : Mat 50000 64 :=
  dense (affRect (V c (Pipeline.arrRef spec2 0) : Mat 50000 64) (V c (Pipeline.arrRef spec2 1) : Mat 1 64)
      (V c (Pipeline.arrRef spec2 2) : Mat 1 64))
    (V c (Pipeline.arrRef spec2 3) : Mat 64 64) (rowOf (V c (Pipeline.arrRef spec2 4) : Mat 1 64))

/-- What point t writes back is block t of that array. -/
theorem flushed2 (c : Dev nD) (t : Fin cfg2.N) :
    (dat2 V c).flushed 5 t = ((cfg2.win 5).blk t).view.read (Elt Ideal) (val2 V c) := by
  show (cfg2.win 5).cut (grid2.coords t) ((dat2 V c).after 5 t) = _
  rw [after2_5]
  unfold out2_5
  rw [View.canon_unit_zero zeroOff]
  simp only [View.ld_unit_zero (S := S5000x64) zeroOff, View.ld_unit_zero (S := S1x64) zeroOff, View.ld_unit_zero (S := S64x64) zeroOff]
  obtain ⟨-, -, -, -, -, -, -, -, -, -, e10, e11⟩ := idx2 t
  funext y
  obtain ⟨p, q, rfl⟩ : ∃ (p : Fin 5000) (q : Fin 64), y = ix2 p q := ⟨y 0, y 1, eq_ix2 y⟩
  have hN : cfg2.N = 10 := N_2
  have hP : 5000 * t.val + p.val < 50000 := by have := t.isLt; omega
  show k2_pay1 (iblk2 V c 0 t) (iblk2 V c 1 t) (iblk2 V c 2 t) (iblk2 V c 3 t) (iblk2 V c 4 t) (ix2 p q)
      = val2 V c (((cfg2.win 5).blk t).view.emb (ix2 p q))
  have hemb : ((cfg2.win 5).blk t).view.emb (ix2 p q) = ix2 (⟨5000 * t.val + p.val, hP⟩ : Fin 50000) q := by
    funext a; apply Fin.ext
    match a with
    | ⟨0, _⟩ => show win2_5.index t (0 : Fin 2) * 5000 + 1 * p.val = 5000 * t.val + p.val; omega
    | ⟨1, _⟩ => show win2_5.index t (1 : Fin 2) * 64 + 1 * q.val = q.val; omega
  rw [hemb]
  refine (congrFun (affLinearBody_eq (iblk2 V c 0 t) (iblk2 V c 1 t) (iblk2 V c 2 t) (iblk2 V c 3 t) (iblk2 V c 4 t)) (ix2 p q)).trans ?_
  exact affLinear_rows (V c (Pipeline.arrRef spec2 0) : Mat 50000 64) (V c (Pipeline.arrRef spec2 1) : Mat 1 64) (V c (Pipeline.arrRef spec2 2) : Mat 1 64) (V c (Pipeline.arrRef spec2 3) : Mat 64 64) (V c (Pipeline.arrRef spec2 4) : Mat 1 64)
    (iblk2 V c 0 t) (iblk2 V c 1 t) (iblk2 V c 2 t) (iblk2 V c 3 t) (iblk2 V c 4 t) p (⟨5000 * t.val + p.val, hP⟩ : Fin 50000) q
    (fun j => blk2_0 V c t p j (⟨5000 * t.val + p.val, hP⟩ : Fin 50000) rfl) (blk2_1 V c t) (blk2_2 V c t) (blk2_3 V c t) (blk2_4 V c t)

/-- Every row of the output array is in the block of the point its row number divided by 5000 names. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, -, -, -, -, -, -, e10, e11⟩ := idx2 t
  refine ⟨t, flush2_5 t, ?_⟩
  show i ∈ ((View.whole main_v47).slice (win2_5.rect t)).set
  rw [View.set_slice_whole, Rect.mem_set_unit]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- REGION 2: its output array ends holding the dense layer of the normalised, rectified array it reads. -/
theorem region2 (c : Dev nD) :
    (dat2 V c).arrAt 5 cfg2.N
      = (dense (affRect (V c (Pipeline.arrRef spec2 0) : Mat 50000 64) (V c (Pipeline.arrRef spec2 1) : Mat 1 64)
          (V c (Pipeline.arrRef spec2 2) : Mat 1 64))
        (V c (Pipeline.arrRef spec2 3) : Mat 64 64) (rowOf (V c (Pipeline.arrRef spec2 4) : Mat 1 64)) : Mat 50000 64) :=
  (dat2 V c).arrAt_eq_of_cover 5 (val2 V c) (fun t _ => flushed2 V c t) (fun i => cover2 i)

end Cert.KernelIdeal.Regions

end
-- ==== Proof.KRegionAffAdd.lean ====
/-
  The normalise-rectify-then-add block program on the extended reals: max (t · sc + sh, 0) of a [5000, 64] block t
  with [1, 64] blocks of per-column factors and offsets, plus a second [5000, 64] block h entry by entry. Entry (p, q)
  of the result depends on entry (p, q) of t and of h only.
-/
import proofs.«100402_j28432683499906_1_alg».proof.Proof.Gen.KernelIdeal.Skeleton
import proofs.«100402_j28432683499906_1_alg».proof.Proof.GinTile

set_option maxRecDepth 16384

noncomputable section

namespace Cert.KernelIdeal.Regions

open Idealize.ShloMosaic Idealize.ShloMosaic.ValueIdx
open Cert.KernelIdeal Cert.KernelIdeal.Gen
open Cert.LibMatmulPlain Cert.Layers Cert.Net Cert.Gin

/-- The folded normalisation and rectifier of a loaded block: max (t · sc + sh, 0), the [1, 64] blocks sc and sh
    repeated down the rows (the cast of the block to its own shape is the identity). -/
theorem affAddAct_eq (t : Vec Ideal S5000x64 .f32) (sc sh : Vec Ideal S1x64 .f32) :
    maximumf (F := Ideal) (addf (F := Ideal) (mulf (F := Ideal) (shapeCast S5000x64 t shapeCasts_S5000x64_S5000x64)
              (broadcastTo S5000x64 (shapeCast S1x64 sc shapeCasts_S1x64_S1x64) broadcasts_S1x64_S5000x64))
            (broadcastTo S5000x64 (shapeCast S1x64 sh shapeCasts_S1x64_S1x64) broadcasts_S1x64_S5000x64))
          (broadcast S5000x64 (Scalar.ofBits (F := Ideal) .f32 0x00000000#32))
      = affRect (m := 5000) (n := 64) t sc sh :=
  (congrArg (fun z : Mat 5000 64 => (maximumf (addf (mulf z
              (broadcastTo S5000x64 (shapeCast S1x64 sc shapeCasts_S1x64_S1x64) broadcasts_S1x64_S5000x64))
            (broadcastTo S5000x64 (shapeCast S1x64 sh shapeCasts_S1x64_S1x64) broadcasts_S1x64_S5000x64))
          (broadcast S5000x64 (Scalar.ofBits (F := Ideal) .f32 0x00000000#32)) : Mat 5000 64))
      (shapeCast_self t shapeCasts_S5000x64_S5000x64)).trans
    (tileAffRect_eq t sc sh shapeCasts_S1x64_S1x64 broadcasts_S1x64_S5000x64)

/-- The body of the normalise-rectify-then-add layer. -/
theorem affAddBody_eq (t : Vec Ideal S5000x64 .f32) (sc sh : Vec Ideal S1x64 .f32) (h : Vec Ideal S5000x64 .f32) :
    addf (F := Ideal) (maximumf (F := Ideal) (addf (F := Ideal) (mulf (F := Ideal) (shapeCast S5000x64 t shapeCasts_S5000x64_S5000x64)
              (broadcastTo S5000x64 (shapeCast S1x64 sc shapeCasts_S1x64_S1x64) broadcasts_S1x64_S5000x64))
            (broadcastTo S5000x64 (shapeCast S1x64 sh shapeCasts_S1x64_S1x64) broadcasts_S1x64_S5000x64))
          (broadcast S5000x64 (Scalar.ofBits (F := Ideal) .f32 0x00000000#32)))
        (shapeCast S5000x64 h shapeCasts_S5000x64_S5000x64)
      = (fun i => affRect (m := 5000) (n := 64) t sc sh i + h i : Mat 5000 64) :=
  congrArg₂ (fun (z z' : Mat 5000 64) => (addf (F := Ideal) z z' : Mat 5000 64))
    (affAddAct_eq t sc sh) (shapeCast_self h shapeCasts_S5000x64_S5000x64)

/-- Entry (p, q) of the block program's result is entry (P, q) of the whole arrays' result. -/
theorem affAdd_rows (T : Mat 50000 64) (SC SH : Mat 1 64) (H : Mat 50000 64)
    (t : Mat 5000 64) (sc sh : Mat 1 64) (h : Mat 5000 64) (p : Fin 5000) (P : Fin 50000) (q : Fin 64)
    (ht : t (ix2 p q) = T (ix2 P q)) (hsc : sc = SC) (hsh : sh = SH) (hh : h (ix2 p q) = H (ix2 P q)) :
    (fun i => affRect t sc sh i + h i : Mat 5000 64) (ix2 p q)
      = (fun i => affRect T SC SH i + H i : Mat 50000 64) (ix2 P q) := by
  subst hsc hsh
  show affRect t sc sh (ix2 p q) + h (ix2 p q) = affRect T sc sh (ix2 P q) + H (ix2 P q)
  rw [affRect_rows T t sc sh p P q ht, hh]

end Cert.KernelIdeal.Regions

end
-- ==== Proof.KRegion3.lean ====
/-
  Region 3 of the kernel program (normalise and rectify, then add an array), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAffAdd

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 3: normalise and rectify, then add an array -/

/-- Which buffer each window of region 3 stages. -/
theorem arrRef3_0 : Pipeline.arrRef spec3 0 = main_v47 := rfl
theorem arrRef3_1 : Pipeline.arrRef spec3 1 = main_v62 := rfl
theorem arrRef3_2 : Pipeline.arrRef spec3 2 = main_v63 := rfl
theorem arrRef3_3 : Pipeline.arrRef spec3 3 = main_v2 := rfl
theorem arrRef3_4 : Pipeline.arrRef spec3 4 = main_v64 := rfl

/-- The block indices over the grid: a [5000, 64] window steps down the rows with the point, the other windows stay
    at their whole array. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Window 0's block at point t is rows 5000 t … 5000 t + 4999 of its array. -/
theorem blk3_0 (c : Dev nD) (t : Fin cfg3.N) (p : Fin 5000) (j : Fin 64) (P : Fin 50000)
    (hP : P.val = 5000 * t.val + p.val) :
    (iblk3 V c 0 t : Vec Ideal S5000x64 .f32) (ix2 p j) = (V c (Pipeline.arrRef spec3 0) : Mat 50000 64) (ix2 P j) := by
  obtain ⟨e0, e1, -⟩ := idx3 t
  unfold iblk3
  rw [View.read_apply]
  refine congrArg (fun i => (V c (Pipeline.arrRef spec3 0) : Mat 50000 64) i) ?_
  funext a; apply Fin.ext
  match a with
  | ⟨0, _⟩ => show win3_0.index t (0 : Fin 2) * 5000 + 1 * p.val = P.val; omega
  | ⟨1, _⟩ => show win3_0.index t (1 : Fin 2) * 64 + 1 * j.val = j.val; omega

/-- Window 1's block at every point is its whole array. -/
theorem blk3_1 (c : Dev nD) (t : Fin cfg3.N) :
    (iblk3 V c 1 t : Vec Ideal S1x64 .f32) = (V c (Pipeline.arrRef spec3 1) : Mat 1 64) := by
  obtain ⟨-, -, e2, e3, -⟩ := idx3 t
  unfold iblk3
  funext y
  rw [View.read_apply]
  refine congrArg (fun i => (V c (Pipeline.arrRef spec3 1) : Mat 1 64) i) ?_
  funext a; apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- Window 2's block at every point is its whole array. -/
theorem blk3_2 (c : Dev nD) (t : Fin cfg3.N) :
    (iblk3 V c 2 t : Vec Ideal S1x64 .f32) = (V c (Pipeline.arrRef spec3 2) : Mat 1 64) := by
  obtain ⟨-, -, -, -, e4, e5, -⟩ := idx3 t
  unfold iblk3
  funext y
  rw [View.read_apply]
  refine congrArg (fun i => (V c (Pipeline.arrRef spec3 2) : Mat 1 64) i) ?_
  funext a; apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- Window 3's block at point t is rows 5000 t … 5000 t + 4999 of its array. -/
theorem blk3_3 (c : Dev nD) (t : Fin cfg3.N) (p : Fin 5000) (j : Fin 64) (P : Fin 50000)
    (hP : P.val = 5000 * t.val + p.val) :
    (iblk3 V c 3 t : Vec Ideal S5000x64 .f32) (ix2 p j) = (V c (Pipeline.arrRef spec3 3) : Mat 50000 64) (ix2 P j) := by
  obtain ⟨-, -, -, -, -, -, e6, e7, -⟩ := idx3 t
  unfold iblk3
  rw [View.read_apply]
  refine congrArg (fun i => (V c (Pipeline.arrRef spec3 3) : Mat 50000 64) i) ?_
  funext a; apply Fin.ext
  match a with
  | ⟨0, _⟩ => show win3_3.index t (0 : Fin 2) * 5000 + 1 * p.val = P.val; omega
  | ⟨1, _⟩ => show win3_3.index t (1 : Fin 2) * 64 + 1 * j.val = j.val; omega

/-- What region 3 leaves in its output array: the normalised, rectified array it reads plus the second array, entry by entry, as the region finds them. -/
abbrev val3 (c : Dev nD) : Mat 50000 64 :=
  fun i => affRect (V c (Pipeline.arrRef spec3 0) : Mat 50000 64) (V c (Pipeline.arrRef spec3 1) : Mat 1 64)
      (V c (Pipeline.arrRef spec3 2) : Mat 1 64) i + (V c (Pipeline.arrRef spec3 3) : Mat 50000 64) i

/-- What point t writes back is block t of that array. -/
theorem flushed3 (c : Dev nD) (t : Fin cfg3.N) :
    (dat3 V c).flushed 4 t = ((cfg3.win 4).blk t).view.read (Elt Ideal) (val3 V c) := by
  show (cfg3.win 4).cut (grid3.coords t) ((dat3 V c).after 4 t) = _
  rw [after3_4]
  unfold out3_4
  rw [View.canon_unit_zero zeroOff]
  simp only [View.ld_unit_zero (S := S5000x64) zeroOff, View.ld_unit_zero (S := S1x64) zeroOff]
  obtain ⟨-, -, -, -, -, -, -, -, e8, e9⟩ := idx3 t
  funext y
  obtain ⟨p, q, rfl⟩ : ∃ (p : Fin 5000) (q : Fin 64), y = ix2 p q := ⟨y 0, y 1, eq_ix2 y⟩
  have hN : cfg3.N = 10 := N_3
  have hP : 5000 * t.val + p.val < 50000 := by have := t.isLt; omega
  show k3_pay1 (iblk3 V c 0 t) (iblk3 V c 1 t) (iblk3 V c 2 t) (iblk3 V c 3 t) (ix2 p q)
      = val3 V c (((cfg3.win 4).blk t).view.emb (ix2 p q))
  have hemb : ((cfg3.win 4).blk t).view.emb (ix2 p q) = ix2 (⟨5000 * t.val + p.val, hP⟩ : Fin 50000) q := by
    funext a; apply Fin.ext
    match a with
    | ⟨0, _⟩ => show win3_4.index t (0 : Fin 2) * 5000 + 1 * p.val = 5000 * t.val + p.val; omega
    | ⟨1, _⟩ => show win3_4.index t (1 : Fin 2) * 64 + 1 * q.val = q.val; omega
  rw [hemb]
  refine (congrFun (affAddBody_eq (iblk3 V c 0 t) (iblk3 V c 1 t) (iblk3 V c 2 t) (iblk3 V c 3 t)) (ix2 p q)).trans ?_
  exact affAdd_rows (V c (Pipeline.arrRef spec3 0) : Mat 50000 64) (V c (Pipeline.arrRef spec3 1) : Mat 1 64) (V c (Pipeline.arrRef spec3 2) : Mat 1 64) (V c (Pipeline.arrRef spec3 3) : Mat 50000 64)
    (iblk3 V c 0 t) (iblk3 V c 1 t) (iblk3 V c 2 t) (iblk3 V c 3 t) p (⟨5000 * t.val + p.val, hP⟩ : Fin 50000) q
    (blk3_0 V c t p q (⟨5000 * t.val + p.val, hP⟩ : Fin 50000) rfl) (blk3_1 V c t) (blk3_2 V c t) (blk3_3 V c t p q (⟨5000 * t.val + p.val, hP⟩ : Fin 50000) rfl)

/-- Every row of the output array is in the block of the point its row number divided by 5000 names. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, -, -, e8, e9⟩ := idx3 t
  refine ⟨t, flush3_4 t, ?_⟩
  show i ∈ ((View.whole main_v64).slice (win3_4.rect t)).set
  rw [View.set_slice_whole, Rect.mem_set_unit]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 64 ≤ (i 1).val ∧ (i 1).val < win3_4.index t (1 : Fin 2) * 64 + 64
    omega

/-- REGION 3: its output array ends holding the normalised, rectified array it reads plus the second array, entry by entry. -/
theorem region3 (c : Dev nD) :
    (dat3 V c).arrAt 4 cfg3.N
      = (fun i => affRect (V c (Pipeline.arrRef spec3 0) : Mat 50000 64) (V c (Pipeline.arrRef spec3 1) : Mat 1 64)
          (V c (Pipeline.arrRef spec3 2) : Mat 1 64) i + (V c (Pipeline.arrRef spec3 3) : Mat 50000 64) i : Mat 50000 64) :=
  (dat3 V c).arrAt_eq_of_cover 4 (val3 V c) (fun t _ => flushed3 V c t) (fun i => cover3 i)

end Cert.KernelIdeal.Regions

end
-- ==== Proof.KRegion4.lean ====
/-
  Region 4 of the kernel program (the sum of two arrays, then a linear layer), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAddLinear

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 4: the sum of two arrays, then a linear layer -/

/-- Which buffer each window of region 4 stages. -/
theorem arrRef4_0 : Pipeline.arrRef spec4 0 = main_v77 := rfl
theorem arrRef4_1 : Pipeline.arrRef spec4 1 = main_v64 := rfl
theorem arrRef4_2 : Pipeline.arrRef spec4 2 = main_v79 := rfl
theorem arrRef4_3 : Pipeline.arrRef spec4 3 = main_v82 := rfl
theorem arrRef4_4 : Pipeline.arrRef spec4 4 = main_v83 := rfl

/-- The block indices over the grid: a [5000, 64] window steps down the rows with the point, the other windows stay
    at their whole array. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Window 0's block at point t is rows 5000 t … 5000 t + 4999 of its array. -/
theorem blk4_0 (c : Dev nD) (t : Fin cfg4.N) (p : Fin 5000) (j : Fin 64) (P : Fin 50000)
    (hP : P.val = 5000 * t.val + p.val) :
    (iblk4 V c 0 t : Vec Ideal S5000x64 .f32) (ix2 p j) = (V c (Pipeline.arrRef spec4 0) : Mat 50000 64) (ix2 P j) := by
  obtain ⟨e0, e1, -⟩ := idx4 t
  unfold iblk4
  rw [View.read_apply]
  refine congrArg (fun i => (V c (Pipeline.arrRef spec4 0) : Mat 50000 64) i) ?_
  funext a; apply Fin.ext
  match a with
  | ⟨0, _⟩ => show win4_0.index t (0 : Fin 2) * 5000 + 1 * p.val = P.val; omega
  | ⟨1, _⟩ => show win4_0.index t (1 : Fin 2) * 64 + 1 * j.val = j.val; omega

/-- Window 1's block at point t is rows 5000 t … 5000 t + 4999 of its array. -/
theorem blk4_1 (c : Dev nD) (t : Fin cfg4.N) (p : Fin 5000) (j : Fin 64) (P : Fin 50000)
    (hP : P.val = 5000 * t.val + p.val) :
    (iblk4 V c 1 t : Vec Ideal S5000x64 .f32) (ix2 p j) = (V c (Pipeline.arrRef spec4 1) : Mat 50000 64) (ix2 P j) := by
  obtain ⟨-, -, e2, e3, -⟩ := idx4 t
  unfold iblk4
  rw [View.read_apply]
  refine congrArg (fun i => (V c (Pipeline.arrRef spec4 1) : Mat 50000 64) i) ?_
  funext a; apply Fin.ext
  match a with
  | ⟨0, _⟩ => show win4_1.index t (0 : Fin 2) * 5000 + 1 * p.val = P.val; omega
  | ⟨1, _⟩ => show win4_1.index t (1 : Fin 2) * 64 + 1 * j.val = j.val; omega

/-- Window 2's block at every point is its whole array. -/
theorem blk4_2 (c : Dev nD) (t : Fin cfg4.N) :
    (iblk4 V c 2 t : Vec Ideal S64x64 .f32) = (V c (Pipeline.arrRef spec4 2) : Mat 64 64) := by
  obtain ⟨-, -, -, -, e4, e5, -⟩ := idx4 t
  unfold iblk4
  funext y
  rw [View.read_apply]
  refine congrArg (fun i => (V c (Pipeline.arrRef spec4 2) : Mat 64 64) i) ?_
  funext a; apply Fin.ext
  match a with
  | ⟨0, _⟩ => show win4_2.index t (0 : Fin 2) * 64 + 1 * (y 0).val = (y 0).val; omega
  | ⟨1, _⟩ => show win4_2.index t (1 : Fin 2) * 64 + 1 * (y 1).val = (y 1).val; omega

/-- Window 3's block at every point is its whole array. -/
theorem blk4_3 (c : Dev nD) (t : Fin cfg4.N) :
    (iblk4 V c 3 t : Vec Ideal S1x64 .f32) = (V c (Pipeline.arrRef spec4 3) : Mat 1 64) := by
  obtain ⟨-, -, -, -, -, -, e6, e7, -⟩ := idx4 t
  unfold iblk4
  funext y
  rw [View.read_apply]
  refine congrArg (fun i => (V c (Pipeline.arrRef spec4 3) : Mat 1 64) i) ?_
  funext a; apply Fin.ext
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- What region 4 leaves in its output array: the dense layer of the sum of the two arrays it reads, as the region finds them. -/
abbrev val4 (c : Dev nD) : Mat 50000 64 :=
  dense (fun j => @HAdd.hAdd EReal EReal EReal _ ((V c (Pipeline.arrRef spec4 0) : Mat 50000 64) j) ((V c (Pipeline.arrRef spec4 1) : Mat 50000 64) j))
    (V c (Pipeline.arrRef spec4 2) : Mat 64 64) (rowOf (V c (Pipeline.arrRef spec4 3) : Mat 1 64))

/-- What point t writes back is block t of that array. -/
theorem flushed4 (c : Dev nD) (t : Fin cfg4.N) :
    (dat4 V c).flushed 4 t = ((cfg4.win 4).blk t).view.read (Elt Ideal) (val4 V c) := by
  show (cfg4.win 4).cut (grid4.coords t) ((dat4 V c).after 4 t) = _
  rw [after4_4]
  unfold out4_4
  rw [View.canon_unit_zero zeroOff]
  simp only [View.ld_unit_zero (S := S5000x64) zeroOff, View.ld_unit_zero (S := S64x64) zeroOff, View.ld_unit_zero (S := S1x64) zeroOff]
  obtain ⟨-, -, -, -, -, -, -, -, e8, e9⟩ := idx4 t
  funext y
  obtain ⟨p, q, rfl⟩ : ∃ (p : Fin 5000) (q : Fin 64), y = ix2 p q := ⟨y 0, y 1, eq_ix2 y⟩
  have hN : cfg4.N = 10 := N_4
  have hP : 5000 * t.val + p.val < 50000 := by have := t.isLt; omega
  show k4_pay1 (iblk4 V c 0 t) (iblk4 V c 1 t) (iblk4 V c 2 t) (iblk4 V c 3 t) (ix2 p q)
      = val4 V c (((cfg4.win 4).blk t).view.emb (ix2 p q))
  have hemb : ((cfg4.win 4).blk t).view.emb (ix2 p q) = ix2 (⟨5000 * t.val + p.val, hP⟩ : Fin 50000) q := by
    funext a; apply Fin.ext
    match a with
    | ⟨0, _⟩ => show win4_4.index t (0 : Fin 2) * 5000 + 1 * p.val = 5000 * t.val + p.val; omega
    | ⟨1, _⟩ => show win4_4.index t (1 : Fin 2) * 64 + 1 * q.val = q.val; omega
  rw [hemb]
  refine (congrFun (addLinearBody_eq (iblk4 V c 0 t) (iblk4 V c 1 t) (iblk4 V c 2 t) (iblk4 V c 3 t)) (ix2 p q)).trans ?_
  exact addLinear_rows (V c (Pipeline.arrRef spec4 0) : Mat 50000 64) (V c (Pipeline.arrRef spec4 1) : Mat 50000 64) (V c (Pipeline.arrRef spec4 2) : Mat 64 64) (V c (Pipeline.arrRef spec4 3) : Mat 1 64)
    (iblk4 V c 0 t) (iblk4 V c 1 t) (iblk4 V c 2 t) (iblk4 V c 3 t) p (⟨5000 * t.val + p.val, hP⟩ : Fin 50000) q
    (fun j => blk4_0 V c t p j (⟨5000 * t.val + p.val, hP⟩ : Fin 50000) rfl) (fun j => blk4_1 V c t p j (⟨5000 * t.val + p.val, hP⟩ : Fin 50000) rfl) (blk4_2 V c t) (blk4_3 V c t)

/-- Every row of the output array is in the block of the point its row number divided by 5000 names. -/
theorem cover4 (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by omega⟩, rfl⟩
  obtain ⟨-, -, -, -, -, -, -, -, e8, e9⟩ := idx4 t
  refine ⟨t, flush4_4 t, ?_⟩
  show i ∈ ((View.whole main_v83).slice (win4_4.rect t)).set
  rw [View.set_slice_whole, Rect.mem_set_unit]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 64 ≤ (i 1).val ∧ (i 1).val < win4_4.index t (1 : Fin 2) * 64 + 64
    omega

/-- REGION 4: its output array ends holding the dense layer of the sum of the two arrays it reads. -/
theorem region4 (c : Dev nD) :
    (dat4 V c).arrAt 4 cfg4.N
      = (dense (fun j => @HAdd.hAdd EReal EReal EReal _ ((V c (Pipeline.arrRef spec4 0) : Mat 50000 64) j) ((V c (Pipeline.arrRef spec4 1) : Mat 50000 64) j))
        (V c (Pipeline.arrRef spec4 2) : Mat 64 64) (rowOf (V c (Pipeline.arrRef spec4 3) : Mat 1 64)) : Mat 50000 64) :=
  (dat4 V c).arrAt_eq_of_cover 4 (val4 V c) (fun t _ => flushed4 V c t) (fun i => cover4 i)

end Cert.KernelIdeal.Regions

end
-- ==== Proof.KRegion5.lean ====
/-
  Region 5 of the kernel program (normalise and rectify, then a linear layer), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAffLinear

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 5: normalise and rectify, then a linear layer -/

/-- Which buffer each window of region 5 stages. -/
theorem arrRef5_0 : Pipeline.arrRef spec5 0 = main_v83 := rfl
theorem arrRef5_1 : Pipeline.arrRef spec5 1 = main_v102 := rfl
theorem arrRef5_2 : Pipeline.arrRef spec5 2 = main_v103 := rfl
theorem arrRef5_3 : Pipeline.arrRef spec5 3 = main_v99 := rfl
theorem arrRef5_4 : Pipeline.arrRef spec5 4 = main_v104 := rfl
theorem arrRef5_5 : Pipeline.arrRef spec5 5 = main_v105 := rfl

/-- The block indices over the grid: a [5000, 64] window steps down the rows with the point, the other windows stay
    at their whole array. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Window 0's block at point t is rows 5000 t … 5000 t + 4999 of its array. -/
theorem blk5_0 (c : Dev nD) (t : Fin cfg5.N) (p : Fin 5000) (j : Fin 64) (P : Fin 50000)
    (hP : P.val = 5000 * t.val + p.val) :
    (iblk5 V c 0 t : Vec Ideal S5000x64 .f32) (ix2 p j) = (V c (Pipeline.arrRef spec5 0) : Mat 50000 64) (ix2 P j) := by
  obtain ⟨e0, e1, -⟩ := idx5 t
  unfold iblk5
  rw [View.read_apply]
  refine congrArg (fun i => (V c (Pipeline.arrRef spec5 0) : Mat 50000 64) i) ?_
  funext a; apply Fin.ext
  match a with
  | ⟨0, _⟩ => show win5_0.index t (0 : Fin 2) * 5000 + 1 * p.val = P.val; omega
  | ⟨1, _⟩ => show win5_0.index t (1 : Fin 2) * 64 + 1 * j.val = j.val; omega

/-- Window 1's block at every point is its whole array. -/
theorem blk5_1 (c : Dev nD) (t : Fin cfg5.N) :
    (iblk5 V c 1 t : Vec Ideal S1x64 .f32) = (V c (Pipeline.arrRef spec5 1) : Mat 1 64) := by
  obtain ⟨-, -, e2, e3, -⟩ := idx5 t
  unfold iblk5
  funext y
  rw [View.read_apply]
  refine congrArg (fun i => (V c (Pipeline.arrRef spec5 1) : Mat 1 64) i) ?_
  funext a; apply Fin.ext
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- Window 2's block at every point is its whole array. -/
theorem blk5_2 (c : Dev nD) (t : Fin cfg5.N) :
    (iblk5 V c 2 t : Vec Ideal S1x64 .f32) = (V c (Pipeline.arrRef spec5 2) : Mat 1 64) := by
  obtain ⟨-, -, -, -, e4, e5, -⟩ := idx5 t
  unfold iblk5
  funext y
  rw [View.read_apply]
  refine congrArg (fun i => (V c (Pipeline.arrRef spec5 2) : Mat 1 64) i) ?_
  funext a; apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- Window 3's block at every point is its whole array. -/
theorem blk5_3 (c : Dev nD) (t : Fin cfg5.N) :
    (iblk5 V c 3 t : Vec Ideal S64x64 .f32) = (V c (Pipeline.arrRef spec5 3) : Mat 64 64) := by
  obtain ⟨-, -, -, -, -, -, e6, e7, -⟩ := idx5 t
  unfold iblk5
  funext y
  rw [View.read_apply]
  refine congrArg (fun i => (V c (Pipeline.arrRef spec5 3) : Mat 64 64) i) ?_
  funext a; apply Fin.ext
  match a with
  | ⟨0, _⟩ => show win5_3.index t (0 : Fin 2) * 64 + 1 * (y 0).val = (y 0).val; omega
  | ⟨1, _⟩ => show win5_3.index t (1 : Fin 2) * 64 + 1 * (y 1).val = (y 1).val; omega

/-- Window 4's block at every point is its whole array. -/
theorem blk5_4 (c : Dev nD) (t : Fin cfg5.N) :
    (iblk5 V c 4 t : Vec Ideal S1x64 .f32) = (V c (Pipeline.arrRef spec5 4) : Mat 1 64) := by
  obtain ⟨-, -, -, -, -, -, -, -, e8, e9, -⟩ := idx5 t
  unfold iblk5
  funext y
  rw [View.read_apply]
  refine congrArg (fun i => (V c (Pipeline.arrRef spec5 4) : Mat 1 64) i) ?_
  funext a; apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- What region 5 leaves in its output array: the dense layer of the normalised, rectified array it reads, as the region finds them. -/
abbrev val5 (c : Dev nD) : Mat 50000 64 :=
  dense (affRect (V c (Pipeline.arrRef spec5 0) : Mat 50000 64) (V c (Pipeline.arrRef spec5 1) : Mat 1 64)
      (V c (Pipeline.arrRef spec5 2) : Mat 1 64))
    (V c (Pipeline.arrRef spec5 3) : Mat 64 64) (rowOf (V c (Pipeline.arrRef spec5 4) : Mat 1 64))

/-- What point t writes back is block t of that array. -/
theorem flushed5 (c : Dev nD) (t : Fin cfg5.N) :
    (dat5 V c).flushed 5 t = ((cfg5.win 5).blk t).view.read (Elt Ideal) (val5 V c) := by
  show (cfg5.win 5).cut (grid5.coords t) ((dat5 V c).after 5 t) = _
  rw [after5_5]
  unfold out5_5
  rw [View.canon_unit_zero zeroOff]
  simp only [View.ld_unit_zero (S := S5000x64) zeroOff, View.ld_unit_zero (S := S1x64) zeroOff, View.ld_unit_zero (S := S64x64) zeroOff]
  obtain ⟨-, -, -, -, -, -, -, -, -, -, e10, e11⟩ := idx5 t
  funext y
  obtain ⟨p, q, rfl⟩ : ∃ (p : Fin 5000) (q : Fin 64), y = ix2 p q := ⟨y 0, y 1, eq_ix2 y⟩
  have hN : cfg5.N = 10 := N_5
  have hP : 5000 * t.val + p.val < 50000 := by have := t.isLt; omega
  show k5_pay1 (iblk5 V c 0 t) (iblk5 V c 1 t) (iblk5 V c 2 t) (iblk5 V c 3 t) (iblk5 V c 4 t) (ix2 p q)
      = val5 V c (((cfg5.win 5).blk t).view.emb (ix2 p q))
  have hemb : ((cfg5.win 5).blk t).view.emb (ix2 p q) = ix2 (⟨5000 * t.val + p.val, hP⟩ : Fin 50000) q := by
    funext a; apply Fin.ext
    match a with
    | ⟨0, _⟩ => show win5_5.index t (0 : Fin 2) * 5000 + 1 * p.val = 5000 * t.val + p.val; omega
    | ⟨1, _⟩ => show win5_5.index t (1 : Fin 2) * 64 + 1 * q.val = q.val; omega
  rw [hemb]
  refine (congrFun (affLinearBody_eq (iblk5 V c 0 t) (iblk5 V c 1 t) (iblk5 V c 2 t) (iblk5 V c 3 t) (iblk5 V c 4 t)) (ix2 p q)).trans ?_
  exact affLinear_rows (V c (Pipeline.arrRef spec5 0) : Mat 50000 64) (V c (Pipeline.arrRef spec5 1) : Mat 1 64) (V c (Pipeline.arrRef spec5 2) : Mat 1 64) (V c (Pipeline.arrRef spec5 3) : Mat 64 64) (V c (Pipeline.arrRef spec5 4) : Mat 1 64)
    (iblk5 V c 0 t) (iblk5 V c 1 t) (iblk5 V c 2 t) (iblk5 V c 3 t) (iblk5 V c 4 t) p (⟨5000 * t.val + p.val, hP⟩ : Fin 50000) q
    (fun j => blk5_0 V c t p j (⟨5000 * t.val + p.val, hP⟩ : Fin 50000) rfl) (blk5_1 V c t) (blk5_2 V c t) (blk5_3 V c t) (blk5_4 V c t)

/-- Every row of the output array is in the block of the point its row number divided by 5000 names. -/
theorem cover5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by omega⟩, rfl⟩
  obtain ⟨-, -, -, -, -, -, -, -, -, -, e10, e11⟩ := idx5 t
  refine ⟨t, flush5_5 t, ?_⟩
  show i ∈ ((View.whole main_v105).slice (win5_5.rect t)).set
  rw [View.set_slice_whole, Rect.mem_set_unit]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 64 ≤ (i 1).val ∧ (i 1).val < win5_5.index t (1 : Fin 2) * 64 + 64
    omega

/-- REGION 5: its output array ends holding the dense layer of the normalised, rectified array it reads. -/
theorem region5 (c : Dev nD) :
    (dat5 V c).arrAt 5 cfg5.N
      = (dense (affRect (V c (Pipeline.arrRef spec5 0) : Mat 50000 64) (V c (Pipeline.arrRef spec5 1) : Mat 1 64)
          (V c (Pipeline.arrRef spec5 2) : Mat 1 64))
        (V c (Pipeline.arrRef spec5 3) : Mat 64 64) (rowOf (V c (Pipeline.arrRef spec5 4) : Mat 1 64)) : Mat 50000 64) :=
  (dat5 V c).arrAt_eq_of_cover 5 (val5 V c) (fun t _ => flushed5 V c t) (fun i => cover5 i)

end Cert.KernelIdeal.Regions

end
-- ==== Proof.KRegion6.lean ====
/-
  Region 6 of the kernel program (normalise and rectify, then add an array), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAffAdd

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 6: normalise and rectify, then add an array -/

/-- Which buffer each window of region 6 stages. -/
theorem arrRef6_0 : Pipeline.arrRef spec6 0 = main_v105 := rfl
theorem arrRef6_1 : Pipeline.arrRef spec6 1 = main_v120 := rfl
theorem arrRef6_2 : Pipeline.arrRef spec6 2 = main_v121 := rfl
theorem arrRef6_3 : Pipeline.arrRef spec6 3 = main_v64 := rfl
theorem arrRef6_4 : Pipeline.arrRef spec6 4 = main_v122 := rfl

/-- The block indices over the grid: a [5000, 64] window steps down the rows with the point, the other windows stay
    at their whole array. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- Window 0's block at point t is rows 5000 t … 5000 t + 4999 of its array. -/
theorem blk6_0 (c : Dev nD) (t : Fin cfg6.N) (p : Fin 5000) (j : Fin 64) (P : Fin 50000)
    (hP : P.val = 5000 * t.val + p.val) :
    (iblk6 V c 0 t : Vec Ideal S5000x64 .f32) (ix2 p j) = (V c (Pipeline.arrRef spec6 0) : Mat 50000 64) (ix2 P j) := by
  obtain ⟨e0, e1, -⟩ := idx6 t
  unfold iblk6
  rw [View.read_apply]
  refine congrArg (fun i => (V c (Pipeline.arrRef spec6 0) : Mat 50000 64) i) ?_
  funext a; apply Fin.ext
  match a with
  | ⟨0, _⟩ => show win6_0.index t (0 : Fin 2) * 5000 + 1 * p.val = P.val; omega
  | ⟨1, _⟩ => show win6_0.index t (1 : Fin 2) * 64 + 1 * j.val = j.val; omega

/-- Window 1's block at every point is its whole array. -/
theorem blk6_1 (c : Dev nD) (t : Fin cfg6.N) :
    (iblk6 V c 1 t : Vec Ideal S1x64 .f32) = (V c (Pipeline.arrRef spec6 1) : Mat 1 64) := by
  obtain ⟨-, -, e2, e3, -⟩ := idx6 t
  unfold iblk6
  funext y
  rw [View.read_apply]
  refine congrArg (fun i => (V c (Pipeline.arrRef spec6 1) : Mat 1 64) i) ?_
  funext a; apply Fin.ext
  match a with
  | ⟨0, _⟩ => show win6_1.index t (0 : Fin 2) * 1 + 1 * (y 0).val = (y 0).val; omega
  | ⟨1, _⟩ => show win6_1.index t (1 : Fin 2) * 64 + 1 * (y 1).val = (y 1).val; omega

/-- Window 2's block at every point is its whole array. -/
theorem blk6_2 (c : Dev nD) (t : Fin cfg6.N) :
    (iblk6 V c 2 t : Vec Ideal S1x64 .f32) = (V c (Pipeline.arrRef spec6 2) : Mat 1 64) := by
  obtain ⟨-, -, -, -, e4, e5, -⟩ := idx6 t
  unfold iblk6
  funext y
  rw [View.read_apply]
  refine congrArg (fun i => (V c (Pipeline.arrRef spec6 2) : Mat 1 64) i) ?_
  funext a; apply Fin.ext
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Window 3's block at point t is rows 5000 t … 5000 t + 4999 of its array. -/
theorem blk6_3 (c : Dev nD) (t : Fin cfg6.N) (p : Fin 5000) (j : Fin 64) (P : Fin 50000)
    (hP : P.val = 5000 * t.val + p.val) :
    (iblk6 V c 3 t : Vec Ideal S5000x64 .f32) (ix2 p j) = (V c (Pipeline.arrRef spec6 3) : Mat 50000 64) (ix2 P j) := by
  obtain ⟨-, -, -, -, -, -, e6, e7, -⟩ := idx6 t
  unfold iblk6
  rw [View.read_apply]
  refine congrArg (fun i => (V c (Pipeline.arrRef spec6 3) : Mat 50000 64) i) ?_
  funext a; apply Fin.ext
  match a with
  | ⟨0, _⟩ => show win6_3.index t (0 : Fin 2) * 5000 + 1 * p.val = P.val; omega
  | ⟨1, _⟩ => show win6_3.index t (1 : Fin 2) * 64 + 1 * j.val = j.val; omega

/-- What region 6 leaves in its output array: the normalised, rectified array it reads plus the second array, entry by entry, as the region finds them. -/
abbrev val6 (c : Dev nD) : Mat 50000 64 :=
  fun i => affRect (V c (Pipeline.arrRef spec6 0) : Mat 50000 64) (V c (Pipeline.arrRef spec6 1) : Mat 1 64)
      (V c (Pipeline.arrRef spec6 2) : Mat 1 64) i + (V c (Pipeline.arrRef spec6 3) : Mat 50000 64) i

/-- What point t writes back is block t of that array. -/
theorem flushed6 (c : Dev nD) (t : Fin cfg6.N) :
    (dat6 V c).flushed 4 t = ((cfg6.win 4).blk t).view.read (Elt Ideal) (val6 V c) := by
  show (cfg6.win 4).cut (grid6.coords t) ((dat6 V c).after 4 t) = _
  rw [after6_4]
  unfold out6_4
  rw [View.canon_unit_zero zeroOff]
  simp only [View.ld_unit_zero (S := S5000x64) zeroOff, View.ld_unit_zero (S := S1x64) zeroOff]
  obtain ⟨-, -, -, -, -, -, -, -, e8, e9⟩ := idx6 t
  funext y
  obtain ⟨p, q, rfl⟩ : ∃ (p : Fin 5000) (q : Fin 64), y = ix2 p q := ⟨y 0, y 1, eq_ix2 y⟩
  have hN : cfg6.N = 10 := N_6
  have hP : 5000 * t.val + p.val < 50000 := by have := t.isLt; omega
  show k6_pay1 (iblk6 V c 0 t) (iblk6 V c 1 t) (iblk6 V c 2 t) (iblk6 V c 3 t) (ix2 p q)
      = val6 V c (((cfg6.win 4).blk t).view.emb (ix2 p q))
  have hemb : ((cfg6.win 4).blk t).view.emb (ix2 p q) = ix2 (⟨5000 * t.val + p.val, hP⟩ : Fin 50000) q := by
    funext a; apply Fin.ext
    match a with
    | ⟨0, _⟩ => show win6_4.index t (0 : Fin 2) * 5000 + 1 * p.val = 5000 * t.val + p.val; omega
    | ⟨1, _⟩ => show win6_4.index t (1 : Fin 2) * 64 + 1 * q.val = q.val; omega
  rw [hemb]
  refine (congrFun (affAddBody_eq (iblk6 V c 0 t) (iblk6 V c 1 t) (iblk6 V c 2 t) (iblk6 V c 3 t)) (ix2 p q)).trans ?_
  exact affAdd_rows (V c (Pipeline.arrRef spec6 0) : Mat 50000 64) (V c (Pipeline.arrRef spec6 1) : Mat 1 64) (V c (Pipeline.arrRef spec6 2) : Mat 1 64) (V c (Pipeline.arrRef spec6 3) : Mat 50000 64)
    (iblk6 V c 0 t) (iblk6 V c 1 t) (iblk6 V c 2 t) (iblk6 V c 3 t) p (⟨5000 * t.val + p.val, hP⟩ : Fin 50000) q
    (blk6_0 V c t p q (⟨5000 * t.val + p.val, hP⟩ : Fin 50000) rfl) (blk6_1 V c t) (blk6_2 V c t) (blk6_3 V c t p q (⟨5000 * t.val + p.val, hP⟩ : Fin 50000) rfl)

/-- Every row of the output array is in the block of the point its row number divided by 5000 names. -/
theorem cover6 (i : S50000x64.Idx) :
    ∃ t : Fin cfg6.N, (cfg6.win 4).flush t = true ∧ i ∈ ((cfg6.win 4).blk t).view.set := by
  have hi0 : (i 0).val < 50000 := (i 0).isLt
  have hi1 : (i 1).val < 64 := (i 1).isLt
  have hN : cfg6.N = 10 := N_6
  obtain ⟨t, ht⟩ : ∃ t : Fin cfg6.N, t.val = (i 0).val / 5000 := ⟨⟨(i 0).val / 5000, by omega⟩, rfl⟩
  obtain ⟨-, -, -, -, -, -, -, -, e8, e9⟩ := idx6 t
  refine ⟨t, flush6_4 t, ?_⟩
  show i ∈ ((View.whole main_v122).slice (win6_4.rect t)).set
  rw [View.set_slice_whole, Rect.mem_set_unit]
  intro a
  match a with
  | ⟨0, _⟩ =>
    show win6_4.index t (0 : Fin 2) * 5000 ≤ (i 0).val ∧ (i 0).val < win6_4.index t (0 : Fin 2) * 5000 + 5000
    omega
  | ⟨1, _⟩ =>
    show win6_4.index t (1 : Fin 2) * 64 ≤ (i 1).val ∧ (i 1).val < win6_4.index t (1 : Fin 2) * 64 + 64
    omega

/-- REGION 6: its output array ends holding the normalised, rectified array it reads plus the second array, entry by entry. -/
theorem region6 (c : Dev nD) :
    (dat6 V c).arrAt 4 cfg6.N
      = (fun i => affRect (V c (Pipeline.arrRef spec6 0) : Mat 50000 64) (V c (Pipeline.arrRef spec6 1) : Mat 1 64)
          (V c (Pipeline.arrRef spec6 2) : Mat 1 64) i + (V c (Pipeline.arrRef spec6 3) : Mat 50000 64) i : Mat 50000 64) :=
  (dat6 V c).arrAt_eq_of_cover 4 (val6 V c) (fun t _ => flushed6 V c t) (fun i => cover6 i)

end Cert.KernelIdeal.Regions

end
-- ==== Proof.KRegion7.lean ====
/-
  Region 7 of the kernel program (the sum of two arrays, then a linear layer), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAddLinear

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 7: the sum of two arrays, then a linear layer -/

/-- Which buffer each window of region 7 stages. -/
theorem arrRef7_0 : Pipeline.arrRef spec7 0 = main_v135 := rfl
theorem arrRef7_1 : Pipeline.arrRef spec7 1 = main_v122 := rfl
theorem arrRef7_2 : Pipeline.arrRef spec7 2 = main_v137 := rfl
theorem arrRef7_3 : Pipeline.arrRef spec7 3 = main_v140 := rfl
theorem arrRef7_4 : Pipeline.arrRef spec7 4 = main_v141 := rfl

/-- The block indices over the grid: a [5000, 64] window steps down the rows with the point, the other windows stay
    at their whole array. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Window 0's block at point t is rows 5000 t … 5000 t + 4999 of its array. -/
theorem blk7_0 (c : Dev nD) (t : Fin cfg7.N) (p : Fin 5000) (j : Fin 64) (P : Fin 50000)
    (hP : P.val = 5000 * t.val + p.val) :
    (iblk7 V c 0 t : Vec Ideal S5000x64 .f32) (ix2 p j) = (V c (Pipeline.arrRef spec7 0) : Mat 50000 64) (ix2 P j) := by
  obtain ⟨e0, e1, -⟩ := idx7 t
  unfold iblk7
  rw [View.read_apply]
  refine congrArg (fun i => (V c (Pipeline.arrRef spec7 0) : Mat 50000 64) i) ?_
  funext a; apply Fin.ext
  match a with
  | ⟨0, _⟩ => show win7_0.index t (0 : Fin 2) * 5000 + 1 * p.val = P.val; omega
  | ⟨1, _⟩ => show win7_0.index t (1 : Fin 2) * 64 + 1 * j.val = j.val; omega

/-- Window 1's block at point t is rows 5000 t … 5000 t + 4999 of its array. -/
theorem blk7_1 (c : Dev nD) (t : Fin cfg7.N) (p : Fin 5000) (j : Fin 64) (P : Fin 50000)
    (hP : P.val = 5000 * t.val + p.val) :
    (iblk7 V c 1 t : Vec Ideal S5000x64 .f32) (ix2 p j) = (V c (Pipeline.arrRef spec7 1) : Mat 50000 64) (ix2 P j) := by
  obtain ⟨-, -, e2, e3, -⟩ := idx7 t
  unfold iblk7
  rw [View.read_apply]
  refine congrArg (fun i => (V c (Pipeline.arrRef spec7 1) : Mat 50000 64) i) ?_
  funext a; apply Fin.ext
  match a with
  | ⟨0, _⟩ => show win7_1.index t (0 : Fin 2) * 5000 + 1 * p.val = P.val; omega
  | ⟨1, _⟩ => show win7_1.index t (1 : Fin 2) * 64 + 1 * j.val = j.val; omega

/-- Window 2's block at every point is its whole array. -/
theorem blk7_2 (c : Dev nD) (t : Fin cfg7.N) :
    (iblk7 V c 2 t : Vec Ideal S64x64 .f32) = (V c (Pipeline.arrRef spec7 2) : Mat 64 64) := by
  obtain ⟨-, -, -, -, e4, e5, -⟩ := idx7 t
  unfold iblk7
  funext y
  rw [View.read_apply]
  refine congrArg (fun i => (V c (Pipeline.arrRef spec7 2) : Mat 64 64) i) ?_
  funext a; apply Fin.ext
  match a with
  | ⟨0, _⟩ => show win7_2.index t (0 : Fin 2) * 64 + 1 * (y 0).val = (y 0).val; omega
  | ⟨1, _⟩ => show win7_2.index t (1 : Fin 2) * 64 + 1 * (y 1).val = (y 1).val; omega

/-- Window 3's block at every point is its whole array. -/
theorem blk7_3 (c : Dev nD) (t : Fin cfg7.N) :
    (iblk7 V c 3 t : Vec Ideal S1x64 .f32) = (V c (Pipeline.arrRef spec7 3) : Mat 1 64) := by
  obtain ⟨-, -, -, -, -, -, e6, e7, -⟩ := idx7 t
  unfold iblk7
  funext y
  rw [View.read_apply]
  refine congrArg (fun i => (V c (Pipeline.arrRef spec7 3) : Mat 1 64) i) ?_
  funext a; apply Fin.ext
  match a with
  | ⟨0, _⟩ => show win7_3.index t (0 : Fin 2) * 1 + 1 * (y 0).val = (y 0).val; omega
  | ⟨1, _⟩ => show win7_3.index t (1 : Fin 2) * 64 + 1 * (y 1).val = (y 1).val; omega

/-- What region 7 leaves in its output array: the dense layer of the sum of the two arrays it reads, as the region finds them. -/
abbrev val7 (c : Dev nD) : Mat 50000 64 :=
  dense (fun j => @HAdd.hAdd EReal EReal EReal _ ((V c (Pipeline.arrRef spec7 0) : Mat 50000 64) j) ((V c (Pipeline.arrRef spec7 1) : Mat 50000 64) j))
    (V c (Pipeline.arrRef spec7 2) : Mat 64 64) (rowOf (V c (Pipeline.arrRef spec7 3) : Mat 1 64))

/-- What point t writes back is block t of that array. -/
theorem flushed7 (c : Dev nD) (t : Fin cfg7.N) :
    (dat7 V c).flushed 4 t = ((cfg7.win 4).blk t).view.read (Elt Ideal) (val7 V c) := by
  show (cfg7.win 4).cut (grid7.coords t) ((dat7 V c).after 4 t) = _
  rw [after7_4]
  unfold out7_4
  rw [View.canon_unit_zero zeroOff]
  simp only [View.ld_unit_zero (S := S5000x64) zeroOff, View.ld_unit_zero (S := S64x64) zeroOff, View.ld_unit_zero (S := S1x64) zeroOff]
  obtain ⟨-, -, -, -, -, -, -, -, e8, e9⟩ := idx7 t
  funext y
  obtain ⟨p, q, rfl⟩ : ∃ (p : Fin 5000) (q : Fin 64), y = ix2 p q := ⟨y 0, y 1, eq_ix2 y⟩
  have hN : cfg7.N = 10 := N_7
  have hP : 5000 * t.val + p.val < 50000 := by have := t.isLt; omega
  show k7_pay1 (iblk7 V c 0 t) (iblk7 V c 1 t) (iblk7 V c 2 t) (iblk7 V c 3 t) (ix2 p q)
      = val7 V c (((cfg7.win 4).blk t).view.emb (ix2 p q))
  have hemb : ((cfg7.win 4).blk t).view.emb (ix2 p q) = ix2 (⟨5000 * t.val + p.val, hP⟩ : Fin 50000) q := by
    funext a; apply Fin.ext
    match a with
    | ⟨0, _⟩ => show win7_4.index t (0 : Fin 2) * 5000 + 1 * p.val = 5000 * t.val + p.val; omega
    | ⟨1, _⟩ => show win7_4.index t (1 : Fin 2) * 64 + 1 * q.val = q.val; omega
  rw [hemb]
  refine (congrFun (addLinearBody_eq (iblk7 V c 0 t) (iblk7 V c 1 t) (iblk7 V c 2 t) (iblk7 V c 3 t)) (ix2 p q)).trans ?_
  exact addLinear_rows (V c (Pipeline.arrRef spec7 0) : Mat 50000 64) (V c (Pipeline.arrRef spec7 1) : Mat 50000 64) (V c (Pipeline.arrRef spec7 2) : Mat 64 64) (V c (Pipeline.arrRef spec7 3) : Mat 1 64)
    (iblk7 V c 0 t) (iblk7 V c 1 t) (iblk7 V c 2 t) (iblk7 V c 3 t) p (⟨5000 * t.val + p.val, hP⟩ : Fin 50000) q
    (fun j => blk7_0 V c t p j (⟨5000 * t.val + p.val, hP⟩ : Fin 50000) rfl) (fun j => blk7_1 V c t p j (⟨5000 * t.val + p.val, hP⟩ : Fin 50000) rfl) (blk7_2 V c t) (blk7_3 V c t)

/-- Every row of the output array is in the block of the point its row number divided by 5000 names. -/
theorem cover7 (i : S50000x64.Idx) :
    ∃ t : Fin cfg7.N, (cfg7.win 4).flush t = true ∧ i ∈ ((cfg7.win 4).blk t).view.set := by
  have hi0 : (i 0).val < 50000 := (i 0).isLt
  have hi1 : (i 1).val < 64 := (i 1).isLt
  have hN : cfg7.N = 10 := N_7
  obtain ⟨t, ht⟩ : ∃ t : Fin cfg7.N, t.val = (i 0).val / 5000 := ⟨⟨(i 0).val / 5000, by omega⟩, rfl⟩
  obtain ⟨-, -, -, -, -, -, -, -, e8, e9⟩ := idx7 t
  refine ⟨t, flush7_4 t, ?_⟩
  show i ∈ ((View.whole main_v141).slice (win7_4.rect t)).set
  rw [View.set_slice_whole, Rect.mem_set_unit]
  intro a
  match a with
  | ⟨0, _⟩ =>
    show win7_4.index t (0 : Fin 2) * 5000 ≤ (i 0).val ∧ (i 0).val < win7_4.index t (0 : Fin 2) * 5000 + 5000
    omega
  | ⟨1, _⟩ =>
    show win7_4.index t (1 : Fin 2) * 64 ≤ (i 1).val ∧ (i 1).val < win7_4.index t (1 : Fin 2) * 64 + 64
    omega

/-- REGION 7: its output array ends holding the dense layer of the sum of the two arrays it reads. -/
theorem region7 (c : Dev nD) :
    (dat7 V c).arrAt 4 cfg7.N
      = (dense (fun j => @HAdd.hAdd EReal EReal EReal _ ((V c (Pipeline.arrRef spec7 0) : Mat 50000 64) j) ((V c (Pipeline.arrRef spec7 1) : Mat 50000 64) j))
        (V c (Pipeline.arrRef spec7 2) : Mat 64 64) (rowOf (V c (Pipeline.arrRef spec7 3) : Mat 1 64)) : Mat 50000 64) :=
  (dat7 V c).arrAt_eq_of_cover 4 (val7 V c) (fun t _ => flushed7 V c t) (fun i => cover7 i)

end Cert.KernelIdeal.Regions

end
-- ==== Proof.KRegion8.lean ====
/-
  Region 8 of the kernel program (normalise and rectify, then a linear layer), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAffLinear

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 8: normalise and rectify, then a linear layer -/

/-- Which buffer each window of region 8 stages. -/
theorem arrRef8_0 : Pipeline.arrRef spec8 0 = main_v141 := rfl
theorem arrRef8_1 : Pipeline.arrRef spec8 1 = main_v160 := rfl
theorem arrRef8_2 : Pipeline.arrRef spec8 2 = main_v161 := rfl
theorem arrRef8_3 : Pipeline.arrRef spec8 3 = main_v157 := rfl
theorem arrRef8_4 : Pipeline.arrRef spec8 4 = main_v162 := rfl
theorem arrRef8_5 : Pipeline.arrRef spec8 5 = main_v163 := rfl

/-- The block indices over the grid: a [5000, 64] window steps down the rows with the point, the other windows stay
    at their whole array. -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Window 0's block at point t is rows 5000 t … 5000 t + 4999 of its array. -/
theorem blk8_0 (c : Dev nD) (t : Fin cfg8.N) (p : Fin 5000) (j : Fin 64) (P : Fin 50000)
    (hP : P.val = 5000 * t.val + p.val) :
    (iblk8 V c 0 t : Vec Ideal S5000x64 .f32) (ix2 p j) = (V c (Pipeline.arrRef spec8 0) : Mat 50000 64) (ix2 P j) := by
  obtain ⟨e0, e1, -⟩ := idx8 t
  unfold iblk8
  rw [View.read_apply]
  refine congrArg (fun i => (V c (Pipeline.arrRef spec8 0) : Mat 50000 64) i) ?_
  funext a; apply Fin.ext
  match a with
  | ⟨0, _⟩ => show win8_0.index t (0 : Fin 2) * 5000 + 1 * p.val = P.val; omega
  | ⟨1, _⟩ => show win8_0.index t (1 : Fin 2) * 64 + 1 * j.val = j.val; omega

/-- Window 1's block at every point is its whole array. -/
theorem blk8_1 (c : Dev nD) (t : Fin cfg8.N) :
    (iblk8 V c 1 t : Vec Ideal S1x64 .f32) = (V c (Pipeline.arrRef spec8 1) : Mat 1 64) := by
  obtain ⟨-, -, e2, e3, -⟩ := idx8 t
  unfold iblk8
  funext y
  rw [View.read_apply]
  refine congrArg (fun i => (V c (Pipeline.arrRef spec8 1) : Mat 1 64) i) ?_
  funext a; apply Fin.ext
  match a with
  | ⟨0, _⟩ => show win8_1.index t (0 : Fin 2) * 1 + 1 * (y 0).val = (y 0).val; omega
  | ⟨1, _⟩ => show win8_1.index t (1 : Fin 2) * 64 + 1 * (y 1).val = (y 1).val; omega

/-- Window 2's block at every point is its whole array. -/
theorem blk8_2 (c : Dev nD) (t : Fin cfg8.N) :
    (iblk8 V c 2 t : Vec Ideal S1x64 .f32) = (V c (Pipeline.arrRef spec8 2) : Mat 1 64) := by
  obtain ⟨-, -, -, -, e4, e5, -⟩ := idx8 t
  unfold iblk8
  funext y
  rw [View.read_apply]
  refine congrArg (fun i => (V c (Pipeline.arrRef spec8 2) : Mat 1 64) i) ?_
  funext a; apply Fin.ext
  match a with
  | ⟨0, _⟩ => show win8_2.index t (0 : Fin 2) * 1 + 1 * (y 0).val = (y 0).val; omega
  | ⟨1, _⟩ => show win8_2.index t (1 : Fin 2) * 64 + 1 * (y 1).val = (y 1).val; omega

/-- Window 3's block at every point is its whole array. -/
theorem blk8_3 (c : Dev nD) (t : Fin cfg8.N) :
    (iblk8 V c 3 t : Vec Ideal S64x64 .f32) = (V c (Pipeline.arrRef spec8 3) : Mat 64 64) := by
  obtain ⟨-, -, -, -, -, -, e6, e7, -⟩ := idx8 t
  unfold iblk8
  funext y
  rw [View.read_apply]
  refine congrArg (fun i => (V c (Pipeline.arrRef spec8 3) : Mat 64 64) i) ?_
  funext a; apply Fin.ext
  match a with
  | ⟨0, _⟩ => show win8_3.index t (0 : Fin 2) * 64 + 1 * (y 0).val = (y 0).val; omega
  | ⟨1, _⟩ => show win8_3.index t (1 : Fin 2) * 64 + 1 * (y 1).val = (y 1).val; omega

/-- Window 4's block at every point is its whole array. -/
theorem blk8_4 (c : Dev nD) (t : Fin cfg8.N) :
    (iblk8 V c 4 t : Vec Ideal S1x64 .f32) = (V c (Pipeline.arrRef spec8 4) : Mat 1 64) := by
  obtain ⟨-, -, -, -, -, -, -, -, e8, e9, -⟩ := idx8 t
  unfold iblk8
  funext y
  rw [View.read_apply]
  refine congrArg (fun i => (V c (Pipeline.arrRef spec8 4) : Mat 1 64) i) ?_
  funext a; apply Fin.ext
  match a with
  | ⟨0, _⟩ => show win8_4.index t (0 : Fin 2) * 1 + 1 * (y 0).val = (y 0).val; omega
  | ⟨1, _⟩ => show win8_4.index t (1 : Fin 2) * 64 + 1 * (y 1).val = (y 1).val; omega

/-- What region 8 leaves in its output array: the dense layer of the normalised, rectified array it reads, as the region finds them. -/
abbrev val8 (c : Dev nD) : Mat 50000 64 :=
  dense (affRect (V c (Pipeline.arrRef spec8 0) : Mat 50000 64) (V c (Pipeline.arrRef spec8 1) : Mat 1 64)
      (V c (Pipeline.arrRef spec8 2) : Mat 1 64))
    (V c (Pipeline.arrRef spec8 3) : Mat 64 64) (rowOf (V c (Pipeline.arrRef spec8 4) : Mat 1 64))

/-- What point t writes back is block t of that array. -/
theorem flushed8 (c : Dev nD) (t : Fin cfg8.N) :
    (dat8 V c).flushed 5 t = ((cfg8.win 5).blk t).view.read (Elt Ideal) (val8 V c) := by
  show (cfg8.win 5).cut (grid8.coords t) ((dat8 V c).after 5 t) = _
  rw [after8_5]
  unfold out8_5
  rw [View.canon_unit_zero zeroOff]
  simp only [View.ld_unit_zero (S := S5000x64) zeroOff, View.ld_unit_zero (S := S1x64) zeroOff, View.ld_unit_zero (S := S64x64) zeroOff]
  obtain ⟨-, -, -, -, -, -, -, -, -, -, e10, e11⟩ := idx8 t
  funext y
  obtain ⟨p, q, rfl⟩ : ∃ (p : Fin 5000) (q : Fin 64), y = ix2 p q := ⟨y 0, y 1, eq_ix2 y⟩
  have hN : cfg8.N = 10 := N_8
  have hP : 5000 * t.val + p.val < 50000 := by have := t.isLt; omega
  show k8_pay1 (iblk8 V c 0 t) (iblk8 V c 1 t) (iblk8 V c 2 t) (iblk8 V c 3 t) (iblk8 V c 4 t) (ix2 p q)
      = val8 V c (((cfg8.win 5).blk t).view.emb (ix2 p q))
  have hemb : ((cfg8.win 5).blk t).view.emb (ix2 p q) = ix2 (⟨5000 * t.val + p.val, hP⟩ : Fin 50000) q := by
    funext a; apply Fin.ext
    match a with
    | ⟨0, _⟩ => show win8_5.index t (0 : Fin 2) * 5000 + 1 * p.val = 5000 * t.val + p.val; omega
    | ⟨1, _⟩ => show win8_5.index t (1 : Fin 2) * 64 + 1 * q.val = q.val; omega
  rw [hemb]
  refine (congrFun (affLinearBody_eq (iblk8 V c 0 t) (iblk8 V c 1 t) (iblk8 V c 2 t) (iblk8 V c 3 t) (iblk8 V c 4 t)) (ix2 p q)).trans ?_
  exact affLinear_rows (V c (Pipeline.arrRef spec8 0) : Mat 50000 64) (V c (Pipeline.arrRef spec8 1) : Mat 1 64) (V c (Pipeline.arrRef spec8 2) : Mat 1 64) (V c (Pipeline.arrRef spec8 3) : Mat 64 64) (V c (Pipeline.arrRef spec8 4) : Mat 1 64)
    (iblk8 V c 0 t) (iblk8 V c 1 t) (iblk8 V c 2 t) (iblk8 V c 3 t) (iblk8 V c 4 t) p (⟨5000 * t.val + p.val, hP⟩ : Fin 50000) q
    (fun j => blk8_0 V c t p j (⟨5000 * t.val + p.val, hP⟩ : Fin 50000) rfl) (blk8_1 V c t) (blk8_2 V c t) (blk8_3 V c t) (blk8_4 V c t)

/-- Every row of the output array is in the block of the point its row number divided by 5000 names. -/
theorem cover8 (i : S50000x64.Idx) :
    ∃ t : Fin cfg8.N, (cfg8.win 5).flush t = true ∧ i ∈ ((cfg8.win 5).blk t).view.set := by
  have hi0 : (i 0).val < 50000 := (i 0).isLt
  have hi1 : (i 1).val < 64 := (i 1).isLt
  have hN : cfg8.N = 10 := N_8
  obtain ⟨t, ht⟩ : ∃ t : Fin cfg8.N, t.val = (i 0).val / 5000 := ⟨⟨(i 0).val / 5000, by omega⟩, rfl⟩
  obtain ⟨-, -, -, -, -, -, -, -, -, -, e10, e11⟩ := idx8 t
  refine ⟨t, flush8_5 t, ?_⟩
  show i ∈ ((View.whole main_v163).slice (win8_5.rect t)).set
  rw [View.set_slice_whole, Rect.mem_set_unit]
  intro a
  match a with
  | ⟨0, _⟩ =>
    show win8_5.index t (0 : Fin 2) * 5000 ≤ (i 0).val ∧ (i 0).val < win8_5.index t (0 : Fin 2) * 5000 + 5000
    omega
  | ⟨1, _⟩ =>
    show win8_5.index t (1 : Fin 2) * 64 ≤ (i 1).val ∧ (i 1).val < win8_5.index t (1 : Fin 2) * 64 + 64
    omega

/-- REGION 8: its output array ends holding the dense layer of the normalised, rectified array it reads. -/
theorem region8 (c : Dev nD) :
    (dat8 V c).arrAt 5 cfg8.N
      = (dense (affRect (V c (Pipeline.arrRef spec8 0) : Mat 50000 64) (V c (Pipeline.arrRef spec8 1) : Mat 1 64)
          (V c (Pipeline.arrRef spec8 2) : Mat 1 64))
        (V c (Pipeline.arrRef spec8 3) : Mat 64 64) (rowOf (V c (Pipeline.arrRef spec8 4) : Mat 1 64)) : Mat 50000 64) :=
  (dat8 V c).arrAt_eq_of_cover 5 (val8 V c) (fun t _ => flushed8 V c t) (fun i => cover8 i)

end Cert.KernelIdeal.Regions

end
-- ==== Proof.KRegion9.lean ====
/-
  Region 9 of the kernel program (normalise and rectify, then add an array), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAffAdd

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 9: normalise and rectify, then add an array -/

/-- Which buffer each window of region 9 stages. -/
theorem arrRef9_0 : Pipeline.arrRef spec9 0 = main_v163 := rfl
theorem arrRef9_1 : Pipeline.arrRef spec9 1 = main_v178 := rfl
theorem arrRef9_2 : Pipeline.arrRef spec9 2 = main_v179 := rfl
theorem arrRef9_3 : Pipeline.arrRef spec9 3 = main_v122 := rfl
theorem arrRef9_4 : Pipeline.arrRef spec9 4 = main_v180 := rfl

/-- The block indices over the grid: a [5000, 64] window steps down the rows with the point, the other windows stay
    at their whole array. -/
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- Window 0's block at point t is rows 5000 t … 5000 t + 4999 of its array. -/
theorem blk9_0 (c : Dev nD) (t : Fin cfg9.N) (p : Fin 5000) (j : Fin 64) (P : Fin 50000)
    (hP : P.val = 5000 * t.val + p.val) :
    (iblk9 V c 0 t : Vec Ideal S5000x64 .f32) (ix2 p j) = (V c (Pipeline.arrRef spec9 0) : Mat 50000 64) (ix2 P j) := by
  obtain ⟨e0, e1, -⟩ := idx9 t
  unfold iblk9
  rw [View.read_apply]
  refine congrArg (fun i => (V c (Pipeline.arrRef spec9 0) : Mat 50000 64) i) ?_
  funext a; apply Fin.ext
  match a with
  | ⟨0, _⟩ => show win9_0.index t (0 : Fin 2) * 5000 + 1 * p.val = P.val; omega
  | ⟨1, _⟩ => show win9_0.index t (1 : Fin 2) * 64 + 1 * j.val = j.val; omega

/-- Window 1's block at every point is its whole array. -/
theorem blk9_1 (c : Dev nD) (t : Fin cfg9.N) :
    (iblk9 V c 1 t : Vec Ideal S1x64 .f32) = (V c (Pipeline.arrRef spec9 1) : Mat 1 64) := by
  obtain ⟨-, -, e2, e3, -⟩ := idx9 t
  unfold iblk9
  funext y
  rw [View.read_apply]
  refine congrArg (fun i => (V c (Pipeline.arrRef spec9 1) : Mat 1 64) i) ?_
  funext a; apply Fin.ext
  match a with
  | ⟨0, _⟩ => show win9_1.index t (0 : Fin 2) * 1 + 1 * (y 0).val = (y 0).val; omega
  | ⟨1, _⟩ => show win9_1.index t (1 : Fin 2) * 64 + 1 * (y 1).val = (y 1).val; omega

/-- Window 2's block at every point is its whole array. -/
theorem blk9_2 (c : Dev nD) (t : Fin cfg9.N) :
    (iblk9 V c 2 t : Vec Ideal S1x64 .f32) = (V c (Pipeline.arrRef spec9 2) : Mat 1 64) := by
  obtain ⟨-, -, -, -, e4, e5, -⟩ := idx9 t
  unfold iblk9
  funext y
  rw [View.read_apply]
  refine congrArg (fun i => (V c (Pipeline.arrRef spec9 2) : Mat 1 64) i) ?_
  funext a; apply Fin.ext
  match a with
  | ⟨0, _⟩ => show win9_2.index t (0 : Fin 2) * 1 + 1 * (y 0).val = (y 0).val; omega
  | ⟨1, _⟩ => show win9_2.index t (1 : Fin 2) * 64 + 1 * (y 1).val = (y 1).val; omega

/-- Window 3's block at point t is rows 5000 t … 5000 t + 4999 of its array. -/
theorem blk9_3 (c : Dev nD) (t : Fin cfg9.N) (p : Fin 5000) (j : Fin 64) (P : Fin 50000)
    (hP : P.val = 5000 * t.val + p.val) :
    (iblk9 V c 3 t : Vec Ideal S5000x64 .f32) (ix2 p j) = (V c (Pipeline.arrRef spec9 3) : Mat 50000 64) (ix2 P j) := by
  obtain ⟨-, -, -, -, -, -, e6, e7, -⟩ := idx9 t
  unfold iblk9
  rw [View.read_apply]
  refine congrArg (fun i => (V c (Pipeline.arrRef spec9 3) : Mat 50000 64) i) ?_
  funext a; apply Fin.ext
  match a with
  | ⟨0, _⟩ => show win9_3.index t (0 : Fin 2) * 5000 + 1 * p.val = P.val; omega
  | ⟨1, _⟩ => show win9_3.index t (1 : Fin 2) * 64 + 1 * j.val = j.val; omega

/-- What region 9 leaves in its output array: the normalised, rectified array it reads plus the second array, entry by entry, as the region finds them. -/
abbrev val9 (c : Dev nD) : Mat 50000 64 :=
  fun i => affRect (V c (Pipeline.arrRef spec9 0) : Mat 50000 64) (V c (Pipeline.arrRef spec9 1) : Mat 1 64)
      (V c (Pipeline.arrRef spec9 2) : Mat 1 64) i + (V c (Pipeline.arrRef spec9 3) : Mat 50000 64) i

/-- What point t writes back is block t of that array. -/
theorem flushed9 (c : Dev nD) (t : Fin cfg9.N) :
    (dat9 V c).flushed 4 t = ((cfg9.win 4).blk t).view.read (Elt Ideal) (val9 V c) := by
  show (cfg9.win 4).cut (grid9.coords t) ((dat9 V c).after 4 t) = _
  rw [after9_4]
  unfold out9_4
  rw [View.canon_unit_zero zeroOff]
  simp only [View.ld_unit_zero (S := S5000x64) zeroOff, View.ld_unit_zero (S := S1x64) zeroOff]
  obtain ⟨-, -, -, -, -, -, -, -, e8, e9⟩ := idx9 t
  funext y
  obtain ⟨p, q, rfl⟩ : ∃ (p : Fin 5000) (q : Fin 64), y = ix2 p q := ⟨y 0, y 1, eq_ix2 y⟩
  have hN : cfg9.N = 10 := N_9
  have hP : 5000 * t.val + p.val < 50000 := by have := t.isLt; omega
  show k9_pay1 (iblk9 V c 0 t) (iblk9 V c 1 t) (iblk9 V c 2 t) (iblk9 V c 3 t) (ix2 p q)
      = val9 V c (((cfg9.win 4).blk t).view.emb (ix2 p q))
  have hemb : ((cfg9.win 4).blk t).view.emb (ix2 p q) = ix2 (⟨5000 * t.val + p.val, hP⟩ : Fin 50000) q := by
    funext a; apply Fin.ext
    match a with
    | ⟨0, _⟩ => show win9_4.index t (0 : Fin 2) * 5000 + 1 * p.val = 5000 * t.val + p.val; omega
    | ⟨1, _⟩ => show win9_4.index t (1 : Fin 2) * 64 + 1 * q.val = q.val; omega
  rw [hemb]
  refine (congrFun (affAddBody_eq (iblk9 V c 0 t) (iblk9 V c 1 t) (iblk9 V c 2 t) (iblk9 V c 3 t)) (ix2 p q)).trans ?_
  exact affAdd_rows (V c (Pipeline.arrRef spec9 0) : Mat 50000 64) (V c (Pipeline.arrRef spec9 1) : Mat 1 64) (V c (Pipeline.arrRef spec9 2) : Mat 1 64) (V c (Pipeline.arrRef spec9 3) : Mat 50000 64)
    (iblk9 V c 0 t) (iblk9 V c 1 t) (iblk9 V c 2 t) (iblk9 V c 3 t) p (⟨5000 * t.val + p.val, hP⟩ : Fin 50000) q
    (blk9_0 V c t p q (⟨5000 * t.val + p.val, hP⟩ : Fin 50000) rfl) (blk9_1 V c t) (blk9_2 V c t) (blk9_3 V c t p q (⟨5000 * t.val + p.val, hP⟩ : Fin 50000) rfl)

/-- Every row of the output array is in the block of the point its row number divided by 5000 names. -/
theorem cover9 (i : S50000x64.Idx) :
    ∃ t : Fin cfg9.N, (cfg9.win 4).flush t = true ∧ i ∈ ((cfg9.win 4).blk t).view.set := by
  have hi0 : (i 0).val < 50000 := (i 0).isLt
  have hi1 : (i 1).val < 64 := (i 1).isLt
  have hN : cfg9.N = 10 := N_9
  obtain ⟨t, ht⟩ : ∃ t : Fin cfg9.N, t.val = (i 0).val / 5000 := ⟨⟨(i 0).val / 5000, by omega⟩, rfl⟩
  obtain ⟨-, -, -, -, -, -, -, -, e8, e9⟩ := idx9 t
  refine ⟨t, flush9_4 t, ?_⟩
  show i ∈ ((View.whole main_v180).slice (win9_4.rect t)).set
  rw [View.set_slice_whole, Rect.mem_set_unit]
  intro a
  match a with
  | ⟨0, _⟩ =>
    show win9_4.index t (0 : Fin 2) * 5000 ≤ (i 0).val ∧ (i 0).val < win9_4.index t (0 : Fin 2) * 5000 + 5000
    omega
  | ⟨1, _⟩ =>
    show win9_4.index t (1 : Fin 2) * 64 ≤ (i 1).val ∧ (i 1).val < win9_4.index t (1 : Fin 2) * 64 + 64
    omega

/-- REGION 9: its output array ends holding the normalised, rectified array it reads plus the second array, entry by entry. -/
theorem region9 (c : Dev nD) :
    (dat9 V c).arrAt 4 cfg9.N
      = (fun i => affRect (V c (Pipeline.arrRef spec9 0) : Mat 50000 64) (V c (Pipeline.arrRef spec9 1) : Mat 1 64)
          (V c (Pipeline.arrRef spec9 2) : Mat 1 64) i + (V c (Pipeline.arrRef spec9 3) : Mat 50000 64) i : Mat 50000 64) :=
  (dat9 V c).arrAt_eq_of_cover 4 (val9 V c) (fun t _ => flushed9 V c t) (fun i => cover9 i)

end Cert.KernelIdeal.Regions

end
-- ==== Proof.KRegion10.lean ====
/-
  Region 10 of the kernel program (the sum of two arrays, then a linear layer), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAddLinear

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 10: the sum of two arrays, then a linear layer -/

/-- Which buffer each window of region 10 stages. -/
theorem arrRef10_0 : Pipeline.arrRef spec10 0 = main_v193 := rfl
theorem arrRef10_1 : Pipeline.arrRef spec10 1 = main_v180 := rfl
theorem arrRef10_2 : Pipeline.arrRef spec10 2 = main_v195 := rfl
theorem arrRef10_3 : Pipeline.arrRef spec10 3 = main_v198 := rfl
theorem arrRef10_4 : Pipeline.arrRef spec10 4 = main_v199 := rfl

/-- The block indices over the grid: a [5000, 64] window steps down the rows with the point, the other windows stay
    at their whole array. -/
theorem idx10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

/-- Window 0's block at point t is rows 5000 t … 5000 t + 4999 of its array. -/
theorem blk10_0 (c : Dev nD) (t : Fin cfg10.N) (p : Fin 5000) (j : Fin 64) (P : Fin 50000)
    (hP : P.val = 5000 * t.val + p.val) :
    (iblk10 V c 0 t : Vec Ideal S5000x64 .f32) (ix2 p j) = (V c (Pipeline.arrRef spec10 0) : Mat 50000 64) (ix2 P j) := by
  obtain ⟨e0, e1, -⟩ := idx10 t
  unfold iblk10
  rw [View.read_apply]
  refine congrArg (fun i => (V c (Pipeline.arrRef spec10 0) : Mat 50000 64) i) ?_
  funext a; apply Fin.ext
  match a with
  | ⟨0, _⟩ => show win10_0.index t (0 : Fin 2) * 5000 + 1 * p.val = P.val; omega
  | ⟨1, _⟩ => show win10_0.index t (1 : Fin 2) * 64 + 1 * j.val = j.val; omega

/-- Window 1's block at point t is rows 5000 t … 5000 t + 4999 of its array. -/
theorem blk10_1 (c : Dev nD) (t : Fin cfg10.N) (p : Fin 5000) (j : Fin 64) (P : Fin 50000)
    (hP : P.val = 5000 * t.val + p.val) :
    (iblk10 V c 1 t : Vec Ideal S5000x64 .f32) (ix2 p j) = (V c (Pipeline.arrRef spec10 1) : Mat 50000 64) (ix2 P j) := by
  obtain ⟨-, -, e2, e3, -⟩ := idx10 t
  unfold iblk10
  rw [View.read_apply]
  refine congrArg (fun i => (V c (Pipeline.arrRef spec10 1) : Mat 50000 64) i) ?_
  funext a; apply Fin.ext
  match a with
  | ⟨0, _⟩ => show win10_1.index t (0 : Fin 2) * 5000 + 1 * p.val = P.val; omega
  | ⟨1, _⟩ => show win10_1.index t (1 : Fin 2) * 64 + 1 * j.val = j.val; omega

/-- Window 2's block at every point is its whole array. -/
theorem blk10_2 (c : Dev nD) (t : Fin cfg10.N) :
    (iblk10 V c 2 t : Vec Ideal S64x64 .f32) = (V c (Pipeline.arrRef spec10 2) : Mat 64 64) := by
  obtain ⟨-, -, -, -, e4, e5, -⟩ := idx10 t
  unfold iblk10
  funext y
  rw [View.read_apply]
  refine congrArg (fun i => (V c (Pipeline.arrRef spec10 2) : Mat 64 64) i) ?_
  funext a; apply Fin.ext
  match a with
  | ⟨0, _⟩ => show win10_2.index t (0 : Fin 2) * 64 + 1 * (y 0).val = (y 0).val; omega
  | ⟨1, _⟩ => show win10_2.index t (1 : Fin 2) * 64 + 1 * (y 1).val = (y 1).val; omega

/-- Window 3's block at every point is its whole array. -/
theorem blk10_3 (c : Dev nD) (t : Fin cfg10.N) :
    (iblk10 V c 3 t : Vec Ideal S1x64 .f32) = (V c (Pipeline.arrRef spec10 3) : Mat 1 64) := by
  obtain ⟨-, -, -, -, -, -, e6, e7, -⟩ := idx10 t
  unfold iblk10
  funext y
  rw [View.read_apply]
  refine congrArg (fun i => (V c (Pipeline.arrRef spec10 3) : Mat 1 64) i) ?_
  funext a; apply Fin.ext
  match a with
  | ⟨0, _⟩ => show win10_3.index t (0 : Fin 2) * 1 + 1 * (y 0).val = (y 0).val; omega
  | ⟨1, _⟩ => show win10_3.index t (1 : Fin 2) * 64 + 1 * (y 1).val = (y 1).val; omega

/-- What region 10 leaves in its output array: the dense layer of the sum of the two arrays it reads, as the region finds them. -/
abbrev val10 (c : Dev nD) : Mat 50000 64 :=
  dense (fun j => @HAdd.hAdd EReal EReal EReal _ ((V c (Pipeline.arrRef spec10 0) : Mat 50000 64) j) ((V c (Pipeline.arrRef spec10 1) : Mat 50000 64) j))
    (V c (Pipeline.arrRef spec10 2) : Mat 64 64) (rowOf (V c (Pipeline.arrRef spec10 3) : Mat 1 64))

/-- What point t writes back is block t of that array. -/
theorem flushed10 (c : Dev nD) (t : Fin cfg10.N) :
    (dat10 V c).flushed 4 t = ((cfg10.win 4).blk t).view.read (Elt Ideal) (val10 V c) := by
  show (cfg10.win 4).cut (grid10.coords t) ((dat10 V c).after 4 t) = _
  rw [after10_4]
  unfold out10_4
  rw [View.canon_unit_zero zeroOff]
  simp only [View.ld_unit_zero (S := S5000x64) zeroOff, View.ld_unit_zero (S := S64x64) zeroOff, View.ld_unit_zero (S := S1x64) zeroOff]
  obtain ⟨-, -, -, -, -, -, -, -, e8, e9⟩ := idx10 t
  funext y
  obtain ⟨p, q, rfl⟩ : ∃ (p : Fin 5000) (q : Fin 64), y = ix2 p q := ⟨y 0, y 1, eq_ix2 y⟩
  have hN : cfg10.N = 10 := N_10
  have hP : 5000 * t.val + p.val < 50000 := by have := t.isLt; omega
  show k10_pay1 (iblk10 V c 0 t) (iblk10 V c 1 t) (iblk10 V c 2 t) (iblk10 V c 3 t) (ix2 p q)
      = val10 V c (((cfg10.win 4).blk t).view.emb (ix2 p q))
  have hemb : ((cfg10.win 4).blk t).view.emb (ix2 p q) = ix2 (⟨5000 * t.val + p.val, hP⟩ : Fin 50000) q := by
    funext a; apply Fin.ext
    match a with
    | ⟨0, _⟩ => show win10_4.index t (0 : Fin 2) * 5000 + 1 * p.val = 5000 * t.val + p.val; omega
    | ⟨1, _⟩ => show win10_4.index t (1 : Fin 2) * 64 + 1 * q.val = q.val; omega
  rw [hemb]
  refine (congrFun (addLinearBody_eq (iblk10 V c 0 t) (iblk10 V c 1 t) (iblk10 V c 2 t) (iblk10 V c 3 t)) (ix2 p q)).trans ?_
  exact addLinear_rows (V c (Pipeline.arrRef spec10 0) : Mat 50000 64) (V c (Pipeline.arrRef spec10 1) : Mat 50000 64) (V c (Pipeline.arrRef spec10 2) : Mat 64 64) (V c (Pipeline.arrRef spec10 3) : Mat 1 64)
    (iblk10 V c 0 t) (iblk10 V c 1 t) (iblk10 V c 2 t) (iblk10 V c 3 t) p (⟨5000 * t.val + p.val, hP⟩ : Fin 50000) q
    (fun j => blk10_0 V c t p j (⟨5000 * t.val + p.val, hP⟩ : Fin 50000) rfl) (fun j => blk10_1 V c t p j (⟨5000 * t.val + p.val, hP⟩ : Fin 50000) rfl) (blk10_2 V c t) (blk10_3 V c t)

/-- Every row of the output array is in the block of the point its row number divided by 5000 names. -/
theorem cover10 (i : S50000x64.Idx) :
    ∃ t : Fin cfg10.N, (cfg10.win 4).flush t = true ∧ i ∈ ((cfg10.win 4).blk t).view.set := by
  have hi0 : (i 0).val < 50000 := (i 0).isLt
  have hi1 : (i 1).val < 64 := (i 1).isLt
  have hN : cfg10.N = 10 := N_10
  obtain ⟨t, ht⟩ : ∃ t : Fin cfg10.N, t.val = (i 0).val / 5000 := ⟨⟨(i 0).val / 5000, by omega⟩, rfl⟩
  obtain ⟨-, -, -, -, -, -, -, -, e8, e9⟩ := idx10 t
  refine ⟨t, flush10_4 t, ?_⟩
  show i ∈ ((View.whole main_v199).slice (win10_4.rect t)).set
  rw [View.set_slice_whole, Rect.mem_set_unit]
  intro a
  match a with
  | ⟨0, _⟩ =>
    show win10_4.index t (0 : Fin 2) * 5000 ≤ (i 0).val ∧ (i 0).val < win10_4.index t (0 : Fin 2) * 5000 + 5000
    omega
  | ⟨1, _⟩ =>
    show win10_4.index t (1 : Fin 2) * 64 ≤ (i 1).val ∧ (i 1).val < win10_4.index t (1 : Fin 2) * 64 + 64
    omega

/-- REGION 10: its output array ends holding the dense layer of the sum of the two arrays it reads. -/
theorem region10 (c : Dev nD) :
    (dat10 V c).arrAt 4 cfg10.N
      = (dense (fun j => @HAdd.hAdd EReal EReal EReal _ ((V c (Pipeline.arrRef spec10 0) : Mat 50000 64) j) ((V c (Pipeline.arrRef spec10 1) : Mat 50000 64) j))
        (V c (Pipeline.arrRef spec10 2) : Mat 64 64) (rowOf (V c (Pipeline.arrRef spec10 3) : Mat 1 64)) : Mat 50000 64) :=
  (dat10 V c).arrAt_eq_of_cover 4 (val10 V c) (fun t _ => flushed10 V c t) (fun i => cover10 i)

end Cert.KernelIdeal.Regions

end
-- ==== Proof.KRegion11.lean ====
/-
  Region 11 of the kernel program (normalise and rectify, then a linear layer), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAffLinear

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 11: normalise and rectify, then a linear layer -/

/-- Which buffer each window of region 11 stages. -/
theorem arrRef11_0 : Pipeline.arrRef spec11 0 = main_v199 := rfl
theorem arrRef11_1 : Pipeline.arrRef spec11 1 = main_v218 := rfl
theorem arrRef11_2 : Pipeline.arrRef spec11 2 = main_v219 := rfl
theorem arrRef11_3 : Pipeline.arrRef spec11 3 = main_v215 := rfl
theorem arrRef11_4 : Pipeline.arrRef spec11 4 = main_v220 := rfl
theorem arrRef11_5 : Pipeline.arrRef spec11 5 = main_v221 := rfl

/-- The block indices over the grid: a [5000, 64] window steps down the rows with the point, the other windows stay
    at their whole array. -/
theorem idx11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Window 0's block at point t is rows 5000 t … 5000 t + 4999 of its array. -/
theorem blk11_0 (c : Dev nD) (t : Fin cfg11.N) (p : Fin 5000) (j : Fin 64) (P : Fin 50000)
    (hP : P.val = 5000 * t.val + p.val) :
    (iblk11 V c 0 t : Vec Ideal S5000x64 .f32) (ix2 p j) = (V c (Pipeline.arrRef spec11 0) : Mat 50000 64) (ix2 P j) := by
  obtain ⟨e0, e1, -⟩ := idx11 t
  unfold iblk11
  rw [View.read_apply]
  refine congrArg (fun i => (V c (Pipeline.arrRef spec11 0) : Mat 50000 64) i) ?_
  funext a; apply Fin.ext
  match a with
  | ⟨0, _⟩ => show win11_0.index t (0 : Fin 2) * 5000 + 1 * p.val = P.val; omega
  | ⟨1, _⟩ => show win11_0.index t (1 : Fin 2) * 64 + 1 * j.val = j.val; omega

/-- Window 1's block at every point is its whole array. -/
theorem blk11_1 (c : Dev nD) (t : Fin cfg11.N) :
    (iblk11 V c 1 t : Vec Ideal S1x64 .f32) = (V c (Pipeline.arrRef spec11 1) : Mat 1 64) := by
  obtain ⟨-, -, e2, e3, -⟩ := idx11 t
  unfold iblk11
  funext y
  rw [View.read_apply]
  refine congrArg (fun i => (V c (Pipeline.arrRef spec11 1) : Mat 1 64) i) ?_
  funext a; apply Fin.ext
  match a with
  | ⟨0, _⟩ => show win11_1.index t (0 : Fin 2) * 1 + 1 * (y 0).val = (y 0).val; omega
  | ⟨1, _⟩ => show win11_1.index t (1 : Fin 2) * 64 + 1 * (y 1).val = (y 1).val; omega

/-- Window 2's block at every point is its whole array. -/
theorem blk11_2 (c : Dev nD) (t : Fin cfg11.N) :
    (iblk11 V c 2 t : Vec Ideal S1x64 .f32) = (V c (Pipeline.arrRef spec11 2) : Mat 1 64) := by
  obtain ⟨-, -, -, -, e4, e5, -⟩ := idx11 t
  unfold iblk11
  funext y
  rw [View.read_apply]
  refine congrArg (fun i => (V c (Pipeline.arrRef spec11 2) : Mat 1 64) i) ?_
  funext a; apply Fin.ext
  match a with
  | ⟨0, _⟩ => show win11_2.index t (0 : Fin 2) * 1 + 1 * (y 0).val = (y 0).val; omega
  | ⟨1, _⟩ => show win11_2.index t (1 : Fin 2) * 64 + 1 * (y 1).val = (y 1).val; omega

/-- Window 3's block at every point is its whole array. -/
theorem blk11_3 (c : Dev nD) (t : Fin cfg11.N) :
    (iblk11 V c 3 t : Vec Ideal S64x64 .f32) = (V c (Pipeline.arrRef spec11 3) : Mat 64 64) := by
  obtain ⟨-, -, -, -, -, -, e6, e7, -⟩ := idx11 t
  unfold iblk11
  funext y
  rw [View.read_apply]
  refine congrArg (fun i => (V c (Pipeline.arrRef spec11 3) : Mat 64 64) i) ?_
  funext a; apply Fin.ext
  match a with
  | ⟨0, _⟩ => show win11_3.index t (0 : Fin 2) * 64 + 1 * (y 0).val = (y 0).val; omega
  | ⟨1, _⟩ => show win11_3.index t (1 : Fin 2) * 64 + 1 * (y 1).val = (y 1).val; omega

/-- Window 4's block at every point is its whole array. -/
theorem blk11_4 (c : Dev nD) (t : Fin cfg11.N) :
    (iblk11 V c 4 t : Vec Ideal S1x64 .f32) = (V c (Pipeline.arrRef spec11 4) : Mat 1 64) := by
  obtain ⟨-, -, -, -, -, -, -, -, e8, e9, -⟩ := idx11 t
  unfold iblk11
  funext y
  rw [View.read_apply]
  refine congrArg (fun i => (V c (Pipeline.arrRef spec11 4) : Mat 1 64) i) ?_
  funext a; apply Fin.ext
  match a with
  | ⟨0, _⟩ => show win11_4.index t (0 : Fin 2) * 1 + 1 * (y 0).val = (y 0).val; omega
  | ⟨1, _⟩ => show win11_4.index t (1 : Fin 2) * 64 + 1 * (y 1).val = (y 1).val; omega

/-- What region 11 leaves in its output array: the dense layer of the normalised, rectified array it reads, as the region finds them. -/
abbrev val11 (c : Dev nD) : Mat 50000 64 :=
  dense (affRect (V c (Pipeline.arrRef spec11 0) : Mat 50000 64) (V c (Pipeline.arrRef spec11 1) : Mat 1 64)
      (V c (Pipeline.arrRef spec11 2) : Mat 1 64))
    (V c (Pipeline.arrRef spec11 3) : Mat 64 64) (rowOf (V c (Pipeline.arrRef spec11 4) : Mat 1 64))

/-- What point t writes back is block t of that array. -/
theorem flushed11 (c : Dev nD) (t : Fin cfg11.N) :
    (dat11 V c).flushed 5 t = ((cfg11.win 5).blk t).view.read (Elt Ideal) (val11 V c) := by
  show (cfg11.win 5).cut (grid11.coords t) ((dat11 V c).after 5 t) = _
  rw [after11_5]
  unfold out11_5
  rw [View.canon_unit_zero zeroOff]
  simp only [View.ld_unit_zero (S := S5000x64) zeroOff, View.ld_unit_zero (S := S1x64) zeroOff, View.ld_unit_zero (S := S64x64) zeroOff]
  obtain ⟨-, -, -, -, -, -, -, -, -, -, e10, e11⟩ := idx11 t
  funext y
  obtain ⟨p, q, rfl⟩ : ∃ (p : Fin 5000) (q : Fin 64), y = ix2 p q := ⟨y 0, y 1, eq_ix2 y⟩
  have hN : cfg11.N = 10 := N_11
  have hP : 5000 * t.val + p.val < 50000 := by have := t.isLt; omega
  show k11_pay1 (iblk11 V c 0 t) (iblk11 V c 1 t) (iblk11 V c 2 t) (iblk11 V c 3 t) (iblk11 V c 4 t) (ix2 p q)
      = val11 V c (((cfg11.win 5).blk t).view.emb (ix2 p q))
  have hemb : ((cfg11.win 5).blk t).view.emb (ix2 p q) = ix2 (⟨5000 * t.val + p.val, hP⟩ : Fin 50000) q := by
    funext a; apply Fin.ext
    match a with
    | ⟨0, _⟩ => show win11_5.index t (0 : Fin 2) * 5000 + 1 * p.val = 5000 * t.val + p.val; omega
    | ⟨1, _⟩ => show win11_5.index t (1 : Fin 2) * 64 + 1 * q.val = q.val; omega
  rw [hemb]
  refine (congrFun (affLinearBody_eq (iblk11 V c 0 t) (iblk11 V c 1 t) (iblk11 V c 2 t) (iblk11 V c 3 t) (iblk11 V c 4 t)) (ix2 p q)).trans ?_
  exact affLinear_rows (V c (Pipeline.arrRef spec11 0) : Mat 50000 64) (V c (Pipeline.arrRef spec11 1) : Mat 1 64) (V c (Pipeline.arrRef spec11 2) : Mat 1 64) (V c (Pipeline.arrRef spec11 3) : Mat 64 64) (V c (Pipeline.arrRef spec11 4) : Mat 1 64)
    (iblk11 V c 0 t) (iblk11 V c 1 t) (iblk11 V c 2 t) (iblk11 V c 3 t) (iblk11 V c 4 t) p (⟨5000 * t.val + p.val, hP⟩ : Fin 50000) q
    (fun j => blk11_0 V c t p j (⟨5000 * t.val + p.val, hP⟩ : Fin 50000) rfl) (blk11_1 V c t) (blk11_2 V c t) (blk11_3 V c t) (blk11_4 V c t)

/-- Every row of the output array is in the block of the point its row number divided by 5000 names. -/
theorem cover11 (i : S50000x64.Idx) :
    ∃ t : Fin cfg11.N, (cfg11.win 5).flush t = true ∧ i ∈ ((cfg11.win 5).blk t).view.set := by
  have hi0 : (i 0).val < 50000 := (i 0).isLt
  have hi1 : (i 1).val < 64 := (i 1).isLt
  have hN : cfg11.N = 10 := N_11
  obtain ⟨t, ht⟩ : ∃ t : Fin cfg11.N, t.val = (i 0).val / 5000 := ⟨⟨(i 0).val / 5000, by omega⟩, rfl⟩
  obtain ⟨-, -, -, -, -, -, -, -, -, -, e10, e11⟩ := idx11 t
  refine ⟨t, flush11_5 t, ?_⟩
  show i ∈ ((View.whole main_v221).slice (win11_5.rect t)).set
  rw [View.set_slice_whole, Rect.mem_set_unit]
  intro a
  match a with
  | ⟨0, _⟩ =>
    show win11_5.index t (0 : Fin 2) * 5000 ≤ (i 0).val ∧ (i 0).val < win11_5.index t (0 : Fin 2) * 5000 + 5000
    omega
  | ⟨1, _⟩ =>
    show win11_5.index t (1 : Fin 2) * 64 ≤ (i 1).val ∧ (i 1).val < win11_5.index t (1 : Fin 2) * 64 + 64
    omega

/-- REGION 11: its output array ends holding the dense layer of the normalised, rectified array it reads. -/
theorem region11 (c : Dev nD) :
    (dat11 V c).arrAt 5 cfg11.N
      = (dense (affRect (V c (Pipeline.arrRef spec11 0) : Mat 50000 64) (V c (Pipeline.arrRef spec11 1) : Mat 1 64)
          (V c (Pipeline.arrRef spec11 2) : Mat 1 64))
        (V c (Pipeline.arrRef spec11 3) : Mat 64 64) (rowOf (V c (Pipeline.arrRef spec11 4) : Mat 1 64)) : Mat 50000 64) :=
  (dat11 V c).arrAt_eq_of_cover 5 (val11 V c) (fun t _ => flushed11 V c t) (fun i => cover11 i)

end Cert.KernelIdeal.Regions

end
-- ==== Proof.KRegion12.lean ====
/-
  Region 12 of the kernel program (normalise and rectify, then add an array), on the extended reals, at any contents V of the buffers at the
  region's entry: the output array after the region's ten grid points, as an index formula of the arrays the region
  reads. Each point's block is rows 5000 t … 5000 t + 4999 of the [50000, 64] arrays, the [64, 64] and [1, 64] windows
  are whole at every point, every output row depends on the same row of the inputs only, and the ten blocks cover the
  output array.
-/
import proofs.«100402_j28432683499906_1_alg».proof.Proof.KernelIdealFrameP
import proofs.«100402_j28432683499906_1_alg».proof.Proof.KRegionAffAdd

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (V : (c : Dev nD) → (b : Ref sig .tc) → Buf (Elt Ideal) ((c : Thread nD τ).loc b))

/-- The zero offsets of a whole-buffer rectangle. -/
private theorem zeroOff : (![0, 0] : Fin 2 → Nat) = fun _ => 0 := funext fun a => by fin_cases a <;> rfl

/-! ## Region 12: normalise and rectify, then add an array -/

/-- Which buffer each window of region 12 stages. -/
theorem arrRef12_0 : Pipeline.arrRef spec12 0 = main_v221 := rfl
theorem arrRef12_1 : Pipeline.arrRef spec12 1 = main_v236 := rfl
theorem arrRef12_2 : Pipeline.arrRef spec12 2 = main_v237 := rfl
theorem arrRef12_3 : Pipeline.arrRef spec12 3 = main_v180 := rfl
theorem arrRef12_4 : Pipeline.arrRef spec12 4 = main_v238 := rfl

/-- The block indices over the grid: a [5000, 64] window steps down the rows with the point, the other windows stay
    at their whole array. -/
theorem idx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0 :=
  (by decide +kernel : ∀ t : Fin grid12.N, _)

/-- Window 0's block at point t is rows 5000 t … 5000 t + 4999 of its array. -/
theorem blk12_0 (c : Dev nD) (t : Fin cfg12.N) (p : Fin 5000) (j : Fin 64) (P : Fin 50000)
    (hP : P.val = 5000 * t.val + p.val) :
    (iblk12 V c 0 t : Vec Ideal S5000x64 .f32) (ix2 p j) = (V c (Pipeline.arrRef spec12 0) : Mat 50000 64) (ix2 P j) := by
  obtain ⟨e0, e1, -⟩ := idx12 t
  unfold iblk12
  rw [View.read_apply]
  refine congrArg (fun i => (V c (Pipeline.arrRef spec12 0) : Mat 50000 64) i) ?_
  funext a; apply Fin.ext
  match a with
  | ⟨0, _⟩ => show win12_0.index t (0 : Fin 2) * 5000 + 1 * p.val = P.val; omega
  | ⟨1, _⟩ => show win12_0.index t (1 : Fin 2) * 64 + 1 * j.val = j.val; omega

/-- Window 1's block at every point is its whole array. -/
theorem blk12_1 (c : Dev nD) (t : Fin cfg12.N) :
    (iblk12 V c 1 t : Vec Ideal S1x64 .f32) = (V c (Pipeline.arrRef spec12 1) : Mat 1 64) := by
  obtain ⟨-, -, e2, e3, -⟩ := idx12 t
  unfold iblk12
  funext y
  rw [View.read_apply]
  refine congrArg (fun i => (V c (Pipeline.arrRef spec12 1) : Mat 1 64) i) ?_
  funext a; apply Fin.ext
  match a with
  | ⟨0, _⟩ => show win12_1.index t (0 : Fin 2) * 1 + 1 * (y 0).val = (y 0).val; omega
  | ⟨1, _⟩ => show win12_1.index t (1 : Fin 2) * 64 + 1 * (y 1).val = (y 1).val; omega

/-- Window 2's block at every point is its whole array. -/
theorem blk12_2 (c : Dev nD) (t : Fin cfg12.N) :
    (iblk12 V c 2 t : Vec Ideal S1x64 .f32) = (V c (Pipeline.arrRef spec12 2) : Mat 1 64) := by
  obtain ⟨-, -, -, -, e4, e5, -⟩ := idx12 t
  unfold iblk12
  funext y
  rw [View.read_apply]
  refine congrArg (fun i => (V c (Pipeline.arrRef spec12 2) : Mat 1 64) i) ?_
  funext a; apply Fin.ext
  match a with
  | ⟨0, _⟩ => show win12_2.index t (0 : Fin 2) * 1 + 1 * (y 0).val = (y 0).val; omega
  | ⟨1, _⟩ => show win12_2.index t (1 : Fin 2) * 64 + 1 * (y 1).val = (y 1).val; omega

/-- Window 3's block at point t is rows 5000 t … 5000 t + 4999 of its array. -/
theorem blk12_3 (c : Dev nD) (t : Fin cfg12.N) (p : Fin 5000) (j : Fin 64) (P : Fin 50000)
    (hP : P.val = 5000 * t.val + p.val) :
    (iblk12 V c 3 t : Vec Ideal S5000x64 .f32) (ix2 p j) = (V c (Pipeline.arrRef spec12 3) : Mat 50000 64) (ix2 P j) := by
  obtain ⟨-, -, -, -, -, -, e6, e7, -⟩ := idx12 t
  unfold iblk12
  rw [View.read_apply]
  refine congrArg (fun i => (V c (Pipeline.arrRef spec12 3) : Mat 50000 64) i) ?_
  funext a; apply Fin.ext
  match a with
  | ⟨0, _⟩ => show win12_3.index t (0 : Fin 2) * 5000 + 1 * p.val = P.val; omega
  | ⟨1, _⟩ => show win12_3.index t (1 : Fin 2) * 64 + 1 * j.val = j.val; omega

/-- What region 12 leaves in its output array: the normalised, rectified array it reads plus the second array, entry by entry, as the region finds them. -/
abbrev val12 (c : Dev nD) : Mat 50000 64 :=
  fun i => affRect (V c (Pipeline.arrRef spec12 0) : Mat 50000 64) (V c (Pipeline.arrRef spec12 1) : Mat 1 64)
      (V c (Pipeline.arrRef spec12 2) : Mat 1 64) i + (V c (Pipeline.arrRef spec12 3) : Mat 50000 64) i

/-- What point t writes back is block t of that array. -/
theorem flushed12 (c : Dev nD) (t : Fin cfg12.N) :
    (dat12 V c).flushed 4 t = ((cfg12.win 4).blk t).view.read (Elt Ideal) (val12 V c) := by
  show (cfg12.win 4).cut (grid12.coords t) ((dat12 V c).after 4 t) = _
  rw [after12_4]
  unfold out12_4
  rw [View.canon_unit_zero zeroOff]
  simp only [View.ld_unit_zero (S := S5000x64) zeroOff, View.ld_unit_zero (S := S1x64) zeroOff]
  obtain ⟨-, -, -, -, -, -, -, -, e8, e9⟩ := idx12 t
  funext y
  obtain ⟨p, q, rfl⟩ : ∃ (p : Fin 5000) (q : Fin 64), y = ix2 p q := ⟨y 0, y 1, eq_ix2 y⟩
  have hN : cfg12.N = 10 := N_12
  have hP : 5000 * t.val + p.val < 50000 := by have := t.isLt; omega
  show k12_pay1 (iblk12 V c 0 t) (iblk12 V c 1 t) (iblk12 V c 2 t) (iblk12 V c 3 t) (ix2 p q)
      = val12 V c (((cfg12.win 4).blk t).view.emb (ix2 p q))
  have hemb : ((cfg12.win 4).blk t).view.emb (ix2 p q) = ix2 (⟨5000 * t.val + p.val, hP⟩ : Fin 50000) q := by
    funext a; apply Fin.ext
    match a with
    | ⟨0, _⟩ => show win12_4.index t (0 : Fin 2) * 5000 + 1 * p.val = 5000 * t.val + p.val; omega
    | ⟨1, _⟩ => show win12_4.index t (1 : Fin 2) * 64 + 1 * q.val = q.val; omega
  rw [hemb]
  refine (congrFun (affAddBody_eq (iblk12 V c 0 t) (iblk12 V c 1 t) (iblk12 V c 2 t) (iblk12 V c 3 t)) (ix2 p q)).trans ?_
  exact affAdd_rows (V c (Pipeline.arrRef spec12 0) : Mat 50000 64) (V c (Pipeline.arrRef spec12 1) : Mat 1 64) (V c (Pipeline.arrRef spec12 2) : Mat 1 64) (V c (Pipeline.arrRef spec12 3) : Mat 50000 64)
    (iblk12 V c 0 t) (iblk12 V c 1 t) (iblk12 V c 2 t) (iblk12 V c 3 t) p (⟨5000 * t.val + p.val, hP⟩ : Fin 50000) q
    (blk12_0 V c t p q (⟨5000 * t.val + p.val, hP⟩ : Fin 50000) rfl) (blk12_1 V c t) (blk12_2 V c t) (blk12_3 V c t p q (⟨5000 * t.val + p.val, hP⟩ : Fin 50000) rfl)

/-- Every row of the output array is in the block of the point its row number divided by 5000 names. -/
theorem cover12 (i : S50000x64.Idx) :
    ∃ t : Fin cfg12.N, (cfg12.win 4).flush t = true ∧ i ∈ ((cfg12.win 4).blk t).view.set := by
  have hi0 : (i 0).val < 50000 := (i 0).isLt
  have hi1 : (i 1).val < 64 := (i 1).isLt
  have hN : cfg12.N = 10 := N_12
  obtain ⟨t, ht⟩ : ∃ t : Fin cfg12.N, t.val = (i 0).val / 5000 := ⟨⟨(i 0).val / 5000, by omega⟩, rfl⟩
  obtain ⟨-, -, -, -, -, -, -, -, e8, e9⟩ := idx12 t
  refine ⟨t, flush12_4 t, ?_⟩
  show i ∈ ((View.whole main_v238).slice (win12_4.rect t)).set
  rw [View.set_slice_whole, Rect.mem_set_unit]
  intro a
  match a with
  | ⟨0, _⟩ =>
    show win12_4.index t (0 : Fin 2) * 5000 ≤ (i 0).val ∧ (i 0).val < win12_4.index t (0 : Fin 2) * 5000 + 5000
    omega
  | ⟨1, _⟩ =>
    show win12_4.index t (1 : Fin 2) * 64 ≤ (i 1).val ∧ (i 1).val < win12_4.index t (1 : Fin 2) * 64 + 64
    omega

/-- REGION 12: its output array ends holding the normalised, rectified array it reads plus the second array, entry by entry. -/
theorem region12 (c : Dev nD) :
    (dat12 V c).arrAt 4 cfg12.N
      = (fun i => affRect (V c (Pipeline.arrRef spec12 0) : Mat 50000 64) (V c (Pipeline.arrRef spec12 1) : Mat 1 64)
          (V c (Pipeline.arrRef spec12 2) : Mat 1 64) i + (V c (Pipeline.arrRef spec12 3) : Mat 50000 64) i : Mat 50000 64) :=
  (dat12 V c).arrAt_eq_of_cover 4 (val12 V c) (fun t _ => flushed12 V c t) (fun i => cover12 i)

end Cert.KernelIdeal.Regions

end
-- ==== Proof.KRegions.lean ====
/-
  The thirteen regions of the kernel program, collected: for each region K the theorem regionK says what the region's
  output array holds after its ten grid points, as an index formula of the arrays the region reads at its entry, and
  the theorems arrRefK_w name the buffer each window stages. Below, the same read along the run: the buffer contents
  at a region's exit are its entry contents with each of the region's arrays at what the ten points leave, so the
  output buffer at the exit holds the region's value (valK) of the entry contents.
-/
import proofs.«100402_j28432683499906_1_alg».proof.Proof.KRegion0
import proofs.«100402_j28432683499906_1_alg».proof.Proof.KRegion1
import proofs.«100402_j28432683499906_1_alg».proof.Proof.KRegion2
import proofs.«100402_j28432683499906_1_alg».proof.Proof.KRegion3
import proofs.«100402_j28432683499906_1_alg».proof.Proof.KRegion4
import proofs.«100402_j28432683499906_1_alg».proof.Proof.KRegion5
import proofs.«100402_j28432683499906_1_alg».proof.Proof.KRegion6
import proofs.«100402_j28432683499906_1_alg».proof.Proof.KRegion7
import proofs.«100402_j28432683499906_1_alg».proof.Proof.KRegion8
import proofs.«100402_j28432683499906_1_alg».proof.Proof.KRegion9
import proofs.«100402_j28432683499906_1_alg».proof.Proof.KRegion10
import proofs.«100402_j28432683499906_1_alg».proof.Proof.KRegion11
import proofs.«100402_j28432683499906_1_alg».proof.Proof.KRegion12

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.LibMatmulPlain Cert.Layers Cert.Net Cert.Gin

variable (m : (ℓ : Loc nD τ sig) → Buf (Elt Ideal) ℓ) (ρ : Dev nD → PrngReg)

/-- At region 0's exit its output buffer (main_v2) holds the region's value of the contents at its entry. -/
theorem exit0 (c : Dev nD) :
    W2 m ρ c (Proc.devRef .tc (Pipeline.arrRef spec0 3)) = val0 (V1 m ρ) c :=
  (W2_arr m ρ c 3).trans (region0 (V1 m ρ) c)

/-- At region 1's exit its output buffer (main_v25) holds the region's value of the contents at its entry. -/
theorem exit1 (c : Dev nD) :
    W4 m ρ c (Proc.devRef .tc (Pipeline.arrRef spec1 4)) = val1 (V3 m ρ) c :=
  (W4_arr m ρ c 4).trans (region1 (V3 m ρ) c)

/-- At region 2's exit its output buffer (main_v47) holds the region's value of the contents at its entry. -/
theorem exit2 (c : Dev nD) :
    W8 m ρ c (Proc.devRef .tc (Pipeline.arrRef spec2 5)) = val2 (V7 m ρ) c :=
  (W8_arr m ρ c 5).trans (region2 (V7 m ρ) c)

/-- At region 3's exit its output buffer (main_v64) holds the region's value of the contents at its entry. -/
theorem exit3 (c : Dev nD) :
    W12 m ρ c (Proc.devRef .tc (Pipeline.arrRef spec3 4)) = val3 (V11 m ρ) c :=
  (W12_arr m ρ c 4).trans (region3 (V11 m ρ) c)

/-- At region 4's exit its output buffer (main_v83) holds the region's value of the contents at its entry. -/
theorem exit4 (c : Dev nD) :
    W14 m ρ c (Proc.devRef .tc (Pipeline.arrRef spec4 4)) = val4 (V13 m ρ) c :=
  (W14_arr m ρ c 4).trans (region4 (V13 m ρ) c)

/-- At region 5's exit its output buffer (main_v105) holds the region's value of the contents at its entry. -/
theorem exit5 (c : Dev nD) :
    W18 m ρ c (Proc.devRef .tc (Pipeline.arrRef spec5 5)) = val5 (V17 m ρ) c :=
  (W18_arr m ρ c 5).trans (region5 (V17 m ρ) c)

/-- At region 6's exit its output buffer (main_v122) holds the region's value of the contents at its entry. -/
theorem exit6 (c : Dev nD) :
    W22 m ρ c (Proc.devRef .tc (Pipeline.arrRef spec6 4)) = val6 (V21 m ρ) c :=
  (W22_arr m ρ c 4).trans (region6 (V21 m ρ) c)

/-- At region 7's exit its output buffer (main_v141) holds the region's value of the contents at its entry. -/
theorem exit7 (c : Dev nD) :
    W24 m ρ c (Proc.devRef .tc (Pipeline.arrRef spec7 4)) = val7 (V23 m ρ) c :=
  (W24_arr m ρ c 4).trans (region7 (V23 m ρ) c)

/-- At region 8's exit its output buffer (main_v163) holds the region's value of the contents at its entry. -/
theorem exit8 (c : Dev nD) :
    W28 m ρ c (Proc.devRef .tc (Pipeline.arrRef spec8 5)) = val8 (V27 m ρ) c :=
  (W28_arr m ρ c 5).trans (region8 (V27 m ρ) c)

/-- At region 9's exit its output buffer (main_v180) holds the region's value of the contents at its entry. -/
theorem exit9 (c : Dev nD) :
    W32 m ρ c (Proc.devRef .tc (Pipeline.arrRef spec9 4)) = val9 (V31 m ρ) c :=
  (W32_arr m ρ c 4).trans (region9 (V31 m ρ) c)

/-- At region 10's exit its output buffer (main_v199) holds the region's value of the contents at its entry. -/
theorem exit10 (c : Dev nD) :
    W34 m ρ c (Proc.devRef .tc (Pipeline.arrRef spec10 4)) = val10 (V33 m ρ) c :=
  (W34_arr m ρ c 4).trans (region10 (V33 m ρ) c)

/-- At region 11's exit its output buffer (main_v221) holds the region's value of the contents at its entry. -/
theorem exit11 (c : Dev nD) :
    W38 m ρ c (Proc.devRef .tc (Pipeline.arrRef spec11 5)) = val11 (V37 m ρ) c :=
  (W38_arr m ρ c 5).trans (region11 (V37 m ρ) c)

/-- At region 12's exit its output buffer (main_v238) holds the region's value of the contents at its entry. -/
theorem exit12 (c : Dev nD) :
    W42 m ρ c (Proc.devRef .tc (Pipeline.arrRef spec12 4)) = val12 (V41 m ρ) c :=
  (W42_arr m ρ c 4).trans (region12 (V41 m ρ) c)

end Cert.KernelIdeal.Regions

end
-- ==== Proof.GinHost.lean ====
/-
  The host program's spellings of the layer's pieces, on the extended reals, for any extents.

  A column mean is the float sum down the rows from the zero word, over the count broadcast; the variance is the sum of
  the squared deviations over a count that the program computes as N − ddof and guards by a comparison (with ddof = 0
  the guard holds, so the quotient is taken); 1/√(v + ε) is the host's reciprocal square root of the sum with the ε word
  broadcast; a vector repeated down the rows is broadcast in two steps. Each is the index formula of the specification.
-/
import Idealize.ShloMosaic.Lib.ValueLayout
import Idealize.ShloMosaic.Lib.Pipeline.Value
import Idealize.ShloMosaic.PureOps.Ideal.Laws
import proofs.«100402_j28432683499906_1_alg».proof.Proof.GinSpec

noncomputable section

namespace Cert.Gin

open Idealize.ShloMosaic Idealize.ShloMosaic.ValueIdx Cert.LibMatmulPlain Cert.Layers Cert.Net Cert.Alg

variable {m n : Nat}

/-- A vector repeated down m rows in two broadcast steps, read at an index, is its entry at the column. -/
theorem bc2_apply (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (i : (⟨2, ![m, n]⟩ : Shape).Idx) :
    broadcastInDim ⟨2, ![m, n]⟩ ![0, 1] h2 (broadcastInDim ⟨2, ![1, n]⟩ ![1] h1 b) i = b (ix1 (i 1)) :=
  congrFun (hostBias_eq (m := m) b h1 h2) i

/-- A scalar broadcast over a vector shape, read at an index, is the scalar. -/
theorem bc0_apply {s : Shape} (x : FVec Ideal ⟨0, ![]⟩ .f32) (h : (⟨0, ![]⟩ : Shape).BroadcastsInDim s ![]) (i : s.Idx) :
    broadcastInDim s ![] h x i = x ix0 :=
  broadcastInDim_apply _ h x i ix0 fun ax => ax.elim0

/-- The column mean as the host spells it. -/
theorem hostMean_eq (t : FVec Ideal ⟨2, ![m, n]⟩ .f32) (cntw : BitVec 32)
    (hr : (⟨2, ![m, n]⟩ : Shape).ReducesTo [0] ⟨1, ![n]⟩) (hu : 0 < (⟨0, ![]⟩ : Shape).numel)
    (hb : (⟨0, ![]⟩ : Shape).BroadcastsInDim ⟨1, ![n]⟩ ![]) :
    Host.divf (Host.reduceAdd t (constant (F := Ideal) ⟨0, ![]⟩ .f32 0x00000000#32) hr hu)
        (broadcastInDim ⟨1, ![n]⟩ ![] hb (constant (F := Ideal) ⟨0, ![]⟩ .f32 cntw))
      = colMean (Ideal.ofBits .f32 cntw) t := by
  have hR : (⟨2, ![m, n]⟩ : Shape).Reduces [0] ⟨1, ![n]⟩ := ⟨hr.1, Nat.one_pos, hr.2⟩
  funext i
  obtain ⟨q, rfl⟩ : ∃ q : Fin n, i = ix1 q := ⟨i 0, eq_ix1 i⟩
  show Ideal.div (Ideal.hostReduceAdd hr t (Ideal.ofBits .f32 0x00000000#32) (ix1 q))
      (broadcastInDim ⟨1, ![n]⟩ ![] hb (constant (F := Ideal) ⟨0, ![]⟩ .f32 cntw) (ix1 q)) = _
  rw [bc0_apply, Ideal.hostReduceAdd_single hr hR, Ideal.ofBits_zero_f32]
  unfold colMean
  refine congrArg (fun s => Ideal.div (0 + s) _) (Finset.sum_congr rfl fun p _ => ?_)
  exact congrArg t (funext fun a => Fin.ext (by match a with | ⟨0, _⟩ => rfl | ⟨1, _⟩ => rfl))

end Cert.Gin

end
-- ==== Proof.GinHostVar.lean ====
/-
  The column variance, the count and ε words, and 1/√(v + ε), as the host program spells them, on the extended reals, for
  any extents.

  The variance of the columns of t is computed as: the column sums s from the zero word; the mean μ = s / N laid out as a
  [1, n] block (s broadcast to [1, n], over the count word broadcast); the deviations t − μ with μ repeated down the rows;
  their squares; the divisor d = N − float(0) (the count less the zero degrees-of-freedom correction); the quotient of the
  column sums of the squares by d; and a guard: where d > 0 the quotient is taken, otherwise a fixed word. With the count
  word denoting a positive real N: float(0) = 0, so d = N, the guard holds, and the result is the column mean of the
  squared deviations from the column mean — the specification's colVar.
-/
import proofs.«100402_j28432683499906_1_alg».proof.Proof.GinHost

noncomputable section

namespace Cert.Gin

open Idealize.ShloMosaic Idealize.ShloMosaic.ValueIdx Cert.LibMatmulPlain Cert.Layers Cert.Net Cert.Alg

variable {m n : Nat}

/-! ## The two words -/

/-- The word 0x47435000 has exponent field 142 and fraction field 4411392, so it denotes
    (2^23 + 4411392) · 2^(142 − 127 − 23) = 12800000 / 256 = 50000. -/
theorem cnt_word : Ideal.ofBits .f32 0x47435000#32 = ((50000 : ℝ) : EReal) := by
  simp [Ideal.ofBits, Ideal.ieee]
  rw [← EReal.coe_mul]
  norm_num

/-- The word 0x3727C5AC has exponent field 110, neither all zeros nor all ones, and a clear sign bit, so it denotes a
    positive real (about 10⁻⁵). -/
theorem eps_word : ∃ e : ℝ, 0 < e ∧ Ideal.ofBits .f32 0x3727C5AC#32 = (e : EReal) := by
  refine ⟨_, ?_, by simp [Ideal.ofBits, Ideal.ieee]; rfl⟩
  positivity

/-! ## Reading the pieces at an index -/

/-- The host's sum down the rows from the zero word, read at a column. -/
theorem hostColSum_apply (t : FVec Ideal ⟨2, ![m, n]⟩ .f32)
    (hr : (⟨2, ![m, n]⟩ : Shape).ReducesTo [0] ⟨1, ![n]⟩) (hu : 0 < (⟨0, ![]⟩ : Shape).numel) (q : Fin n) :
    Host.reduceAdd t (constant (F := Ideal) ⟨0, ![]⟩ .f32 0x00000000#32) hr hu (ix1 q) = 0 + ∑ p : Fin m, t (ix2 p q) := by
  have hR : (⟨2, ![m, n]⟩ : Shape).Reduces [0] ⟨1, ![n]⟩ := ⟨hr.1, Nat.one_pos, hr.2⟩
  show Ideal.hostReduceAdd hr t (Ideal.ofBits .f32 0x00000000#32) (ix1 q) = _
  rw [Ideal.hostReduceAdd_single hr hR, Ideal.ofBits_zero_f32]
  refine congrArg (fun s => 0 + s) (Finset.sum_congr rfl fun p _ => ?_)
  exact congrArg t (funext fun a => Fin.ext (by match a with | ⟨0, _⟩ => rfl | ⟨1, _⟩ => rfl))

/-- A [1, n] block repeated down m rows, read at (p, q), is its entry (0, q). -/
theorem bcRows_apply (x : FVec Ideal ⟨2, ![1, n]⟩ .f32)
    (h2 : (⟨2, ![1, n]⟩ : Shape).BroadcastsInDim ⟨2, ![m, n]⟩ ![0, 1]) (p : Fin m) (q : Fin n) :
    broadcastInDim ⟨2, ![m, n]⟩ ![0, 1] h2 x (ix2 p q) = x (ix2 (0 : Fin 1) q) :=
  broadcastInDim_apply _ h2 _ (ix2 p q) (ix2 (0 : Fin 1) q) fun ax => by
    match ax with
    | ⟨0, _⟩ => show (0 : Nat) = if (1 : Nat) = 1 then 0 else p.val; rw [if_pos rfl]
    | ⟨1, _⟩ => show q.val = if n = 1 then 0 else q.val; split_ifs with h <;> omega

/-- A vector laid out as a [1, n] block, read at (0, q), is its entry q. -/
theorem bcKeep_apply (s : FVec Ideal ⟨1, ![n]⟩ .f32)
    (h1 : (⟨1, ![n]⟩ : Shape).BroadcastsInDim ⟨2, ![1, n]⟩ ![1]) (q : Fin n) :
    broadcastInDim ⟨2, ![1, n]⟩ ![1] h1 s (ix2 (0 : Fin 1) q) = s (ix1 q) :=
  broadcastInDim_apply _ h1 s (ix2 (0 : Fin 1) q) (ix1 q) fun ax => by
    match ax with
    | ⟨0, _⟩ => show q.val = if n = 1 then 0 else q.val; split_ifs with h <;> omega

/-! ## The variance -/

/-- The divisor: the count word less the float of the integer zero. -/
def ddofH (cntw : BitVec 32) : FVec Ideal ⟨0, ![]⟩ .f32 :=
  subf (constant (F := Ideal) ⟨0, ![]⟩ .f32 cntw) (sitofp .f32 (constantI ⟨0, ![]⟩ 32 0#32))

/-- The mean as a [1, n] block: the column sums broadcast to [1, n], over the count word broadcast. -/
def meanKeepH (cntw : BitVec 32) (t : FVec Ideal ⟨2, ![m, n]⟩ .f32)
    (hr : (⟨2, ![m, n]⟩ : Shape).ReducesTo [0] ⟨1, ![n]⟩) (hu : 0 < (⟨0, ![]⟩ : Shape).numel)
    (h1 : (⟨1, ![n]⟩ : Shape).BroadcastsInDim ⟨2, ![1, n]⟩ ![1])
    (h0 : (⟨0, ![]⟩ : Shape).BroadcastsInDim ⟨2, ![1, n]⟩ ![]) : FVec Ideal ⟨2, ![1, n]⟩ .f32 :=
  Host.divf (broadcastInDim ⟨2, ![1, n]⟩ ![1] h1 (Host.reduceAdd t (constant (F := Ideal) ⟨0, ![]⟩ .f32 0x00000000#32) hr hu))
    (broadcastInDim ⟨2, ![1, n]⟩ ![] h0 (constant (F := Ideal) ⟨0, ![]⟩ .f32 cntw))

/-- The deviations from the mean, the mean block repeated down the rows. -/
def devH (cntw : BitVec 32) (t : FVec Ideal ⟨2, ![m, n]⟩ .f32)
    (hr : (⟨2, ![m, n]⟩ : Shape).ReducesTo [0] ⟨1, ![n]⟩) (hu : 0 < (⟨0, ![]⟩ : Shape).numel)
    (h1 : (⟨1, ![n]⟩ : Shape).BroadcastsInDim ⟨2, ![1, n]⟩ ![1])
    (h0 : (⟨0, ![]⟩ : Shape).BroadcastsInDim ⟨2, ![1, n]⟩ ![])
    (h2 : (⟨2, ![1, n]⟩ : Shape).BroadcastsInDim ⟨2, ![m, n]⟩ ![0, 1]) : FVec Ideal ⟨2, ![m, n]⟩ .f32 :=
  subf t (broadcastInDim ⟨2, ![m, n]⟩ ![0, 1] h2 (meanKeepH cntw t hr hu h1 h0))

/-- The variance of the columns as the host computes it (the operations in the program's order, composed). -/
def varH (cntw : BitVec 32) (t : FVec Ideal ⟨2, ![m, n]⟩ .f32)
    (hr : (⟨2, ![m, n]⟩ : Shape).ReducesTo [0] ⟨1, ![n]⟩) (hu : 0 < (⟨0, ![]⟩ : Shape).numel)
    (h1 : (⟨1, ![n]⟩ : Shape).BroadcastsInDim ⟨2, ![1, n]⟩ ![1])
    (h0 : (⟨0, ![]⟩ : Shape).BroadcastsInDim ⟨2, ![1, n]⟩ ![])
    (h2 : (⟨2, ![1, n]⟩ : Shape).BroadcastsInDim ⟨2, ![m, n]⟩ ![0, 1])
    (hb : (⟨0, ![]⟩ : Shape).BroadcastsInDim ⟨1, ![n]⟩ ![]) : FVec Ideal ⟨1, ![n]⟩ .f32 :=
  select
    (broadcastInDim ⟨1, ![n]⟩ ![] hb (cmpf .ogt (ddofH cntw) (constant (F := Ideal) ⟨0, ![]⟩ .f32 0x00000000#32)))
    (Host.divf
      (Host.reduceAdd (mulf (devH cntw t hr hu h1 h0 h2) (devH cntw t hr hu h1 h0 h2))
        (constant (F := Ideal) ⟨0, ![]⟩ .f32 0x00000000#32) hr hu)
      (broadcastInDim ⟨1, ![n]⟩ ![] hb (ddofH cntw)))
    (broadcastInDim ⟨1, ![n]⟩ ![] hb (id (constant (F := Ideal) ⟨0, ![]⟩ .f32 0x7FC00000#32)))

/-- varH written out operation by operation, as the program composes them. -/
theorem varH_def (cntw : BitVec 32) (t : FVec Ideal ⟨2, ![m, n]⟩ .f32)
    (hr : (⟨2, ![m, n]⟩ : Shape).ReducesTo [0] ⟨1, ![n]⟩) (hu : 0 < (⟨0, ![]⟩ : Shape).numel)
    (h1 : (⟨1, ![n]⟩ : Shape).BroadcastsInDim ⟨2, ![1, n]⟩ ![1])
    (h0 : (⟨0, ![]⟩ : Shape).BroadcastsInDim ⟨2, ![1, n]⟩ ![])
    (h2 : (⟨2, ![1, n]⟩ : Shape).BroadcastsInDim ⟨2, ![m, n]⟩ ![0, 1])
    (hb : (⟨0, ![]⟩ : Shape).BroadcastsInDim ⟨1, ![n]⟩ ![]) :
    select
      (broadcastInDim ⟨1, ![n]⟩ ![] hb
        (cmpf .ogt (subf (constant (F := Ideal) ⟨0, ![]⟩ .f32 cntw) (sitofp .f32 (constantI ⟨0, ![]⟩ 32 0#32)))
          (constant (F := Ideal) ⟨0, ![]⟩ .f32 0x00000000#32)))
      (Host.divf
        (Host.reduceAdd
          (mulf
            (subf t (broadcastInDim ⟨2, ![m, n]⟩ ![0, 1] h2
              (Host.divf
                (broadcastInDim ⟨2, ![1, n]⟩ ![1] h1
                  (Host.reduceAdd t (constant (F := Ideal) ⟨0, ![]⟩ .f32 0x00000000#32) hr hu))
                (broadcastInDim ⟨2, ![1, n]⟩ ![] h0 (constant (F := Ideal) ⟨0, ![]⟩ .f32 cntw)))))
            (subf t (broadcastInDim ⟨2, ![m, n]⟩ ![0, 1] h2
              (Host.divf
                (broadcastInDim ⟨2, ![1, n]⟩ ![1] h1
                  (Host.reduceAdd t (constant (F := Ideal) ⟨0, ![]⟩ .f32 0x00000000#32) hr hu))
                (broadcastInDim ⟨2, ![1, n]⟩ ![] h0 (constant (F := Ideal) ⟨0, ![]⟩ .f32 cntw))))))
          (constant (F := Ideal) ⟨0, ![]⟩ .f32 0x00000000#32) hr hu)
        (broadcastInDim ⟨1, ![n]⟩ ![] hb
          (subf (constant (F := Ideal) ⟨0, ![]⟩ .f32 cntw) (sitofp .f32 (constantI ⟨0, ![]⟩ 32 0#32)))))
      (broadcastInDim ⟨1, ![n]⟩ ![] hb (id (constant (F := Ideal) ⟨0, ![]⟩ .f32 0x7FC00000#32)))
      = varH cntw t hr hu h1 h0 h2 hb := rfl

/-- The divisor is the count: the float of the integer zero is 0. -/
theorem ddofH_apply (cntw : BitVec 32) (j : (⟨0, ![]⟩ : Shape).Idx) : ddofH cntw j = Ideal.ofBits .f32 cntw := by
  show Ideal.ofBits .f32 cntw - (((0#32 : BitVec 32).toInt : ℝ) : EReal) = _
  simp

/-- The mean block at (0, q) is the column mean. -/
theorem meanKeepH_apply (cntw : BitVec 32) (t : FVec Ideal ⟨2, ![m, n]⟩ .f32)
    (hr : (⟨2, ![m, n]⟩ : Shape).ReducesTo [0] ⟨1, ![n]⟩) (hu : 0 < (⟨0, ![]⟩ : Shape).numel)
    (h1 : (⟨1, ![n]⟩ : Shape).BroadcastsInDim ⟨2, ![1, n]⟩ ![1])
    (h0 : (⟨0, ![]⟩ : Shape).BroadcastsInDim ⟨2, ![1, n]⟩ ![]) (q : Fin n) :
    meanKeepH cntw t hr hu h1 h0 (ix2 (0 : Fin 1) q) = colMean (Ideal.ofBits .f32 cntw) t (ix1 q) := by
  show Ideal.div
      (broadcastInDim ⟨2, ![1, n]⟩ ![1] h1 (Host.reduceAdd t (constant (F := Ideal) ⟨0, ![]⟩ .f32 0x00000000#32) hr hu)
        (ix2 (0 : Fin 1) q))
      (broadcastInDim ⟨2, ![1, n]⟩ ![] h0 (constant (F := Ideal) ⟨0, ![]⟩ .f32 cntw) (ix2 (0 : Fin 1) q)) = _
  rw [bcKeep_apply, bc0_apply, hostColSum_apply]
  rfl

/-- The deviation at (p, q). -/
theorem devH_apply (cntw : BitVec 32) (t : FVec Ideal ⟨2, ![m, n]⟩ .f32)
    (hr : (⟨2, ![m, n]⟩ : Shape).ReducesTo [0] ⟨1, ![n]⟩) (hu : 0 < (⟨0, ![]⟩ : Shape).numel)
    (h1 : (⟨1, ![n]⟩ : Shape).BroadcastsInDim ⟨2, ![1, n]⟩ ![1])
    (h0 : (⟨0, ![]⟩ : Shape).BroadcastsInDim ⟨2, ![1, n]⟩ ![])
    (h2 : (⟨2, ![1, n]⟩ : Shape).BroadcastsInDim ⟨2, ![m, n]⟩ ![0, 1]) (p : Fin m) (q : Fin n) :
    devH cntw t hr hu h1 h0 h2 (ix2 p q) = t (ix2 p q) - colMean (Ideal.ofBits .f32 cntw) t (ix1 q) := by
  show t (ix2 p q) - broadcastInDim ⟨2, ![m, n]⟩ ![0, 1] h2 (meanKeepH cntw t hr hu h1 h0) (ix2 p q) = _
  rw [bcRows_apply, meanKeepH_apply]

/-- With the count word a positive real, the host's variance is the column mean of the squared deviations from the column
    mean: the divisor is the count, the guard "divisor > 0" holds, and the guarded choice takes the quotient. -/
theorem hostVar_eq (cntw : BitVec 32) {N : ℝ} (hN : 0 < N) (hc : Ideal.ofBits .f32 cntw = (N : EReal))
    (t : FVec Ideal ⟨2, ![m, n]⟩ .f32)
    (hr : (⟨2, ![m, n]⟩ : Shape).ReducesTo [0] ⟨1, ![n]⟩) (hu : 0 < (⟨0, ![]⟩ : Shape).numel)
    (h1 : (⟨1, ![n]⟩ : Shape).BroadcastsInDim ⟨2, ![1, n]⟩ ![1])
    (h0 : (⟨0, ![]⟩ : Shape).BroadcastsInDim ⟨2, ![1, n]⟩ ![])
    (h2 : (⟨2, ![1, n]⟩ : Shape).BroadcastsInDim ⟨2, ![m, n]⟩ ![0, 1])
    (hb : (⟨0, ![]⟩ : Shape).BroadcastsInDim ⟨1, ![n]⟩ ![]) :
    varH cntw t hr hu h1 h0 h2 hb = colVar (Ideal.ofBits .f32 cntw) (Ideal.ofBits .f32 cntw) t := by
  funext i
  obtain ⟨q, rfl⟩ : ∃ q : Fin n, i = ix1 q := ⟨i 0, eq_ix1 i⟩
  have hp : cmpf .ogt (ddofH cntw) (constant (F := Ideal) ⟨0, ![]⟩ .f32 0x00000000#32) ix0 = 1#1 := by
    show Ideal.cmp .ogt (ddofH cntw ix0) (Ideal.ofBits .f32 0x00000000#32) = 1#1
    rw [ddofH_apply, Ideal.ofBits_zero_f32, hc]
    show BitVec.ofBool (decide ((0 : EReal) < (N : EReal))) = 1#1
    rw [decide_eq_true (by exact_mod_cast hN)]
    rfl
  show Scalar.select
      (broadcastInDim ⟨1, ![n]⟩ ![] hb (cmpf .ogt (ddofH cntw) (constant (F := Ideal) ⟨0, ![]⟩ .f32 0x00000000#32)) (ix1 q))
      (Ideal.div
        (Host.reduceAdd (mulf (devH cntw t hr hu h1 h0 h2) (devH cntw t hr hu h1 h0 h2))
          (constant (F := Ideal) ⟨0, ![]⟩ .f32 0x00000000#32) hr hu (ix1 q))
        (broadcastInDim ⟨1, ![n]⟩ ![] hb (ddofH cntw) (ix1 q)))
      (broadcastInDim ⟨1, ![n]⟩ ![] hb (id (constant (F := Ideal) ⟨0, ![]⟩ .f32 0x7FC00000#32)) (ix1 q)) = _
  rw [broadcastInDim_apply _ hb _ (ix1 q) ix0 fun ax => ax.elim0, hp, bc0_apply (ddofH cntw), ddofH_apply, hostColSum_apply]
  show Ideal.div (0 + ∑ p : Fin m, devH cntw t hr hu h1 h0 h2 (ix2 p q) * devH cntw t hr hu h1 h0 h2 (ix2 p q)) _ = _
  unfold colVar
  refine congrArg (fun s => Ideal.div (0 + s) _) (Finset.sum_congr rfl fun p _ => ?_)
  rw [devH_apply]
  rfl

/-- At the count word of 50000. -/
theorem hostVar_eq_cnt (t : FVec Ideal ⟨2, ![m, n]⟩ .f32)
    (hr : (⟨2, ![m, n]⟩ : Shape).ReducesTo [0] ⟨1, ![n]⟩) (hu : 0 < (⟨0, ![]⟩ : Shape).numel)
    (h1 : (⟨1, ![n]⟩ : Shape).BroadcastsInDim ⟨2, ![1, n]⟩ ![1])
    (h0 : (⟨0, ![]⟩ : Shape).BroadcastsInDim ⟨2, ![1, n]⟩ ![])
    (h2 : (⟨2, ![1, n]⟩ : Shape).BroadcastsInDim ⟨2, ![m, n]⟩ ![0, 1])
    (hb : (⟨0, ![]⟩ : Shape).BroadcastsInDim ⟨1, ![n]⟩ ![]) :
    varH 0x47435000#32 t hr hu h1 h0 h2 hb
      = colVar (Ideal.ofBits .f32 0x47435000#32) (Ideal.ofBits .f32 0x47435000#32) t :=
  hostVar_eq _ (by norm_num : (0 : ℝ) < 50000) cnt_word t hr hu h1 h0 h2 hb

/-! ## 1 / √(v + ε) -/

/-- The host's reciprocal square root of v plus the ε word broadcast. -/
theorem hostInv_eq (epsw : BitVec 32) (v : FVec Ideal ⟨1, ![n]⟩ .f32)
    (hb : (⟨0, ![]⟩ : Shape).BroadcastsInDim ⟨1, ![n]⟩ ![]) :
    Host.rsqrt (addf v (broadcastInDim ⟨1, ![n]⟩ ![] hb (constant (F := Ideal) ⟨0, ![]⟩ .f32 epsw)))
      = colInv (Ideal.ofBits .f32 epsw) v := by
  funext i
  show Ideal.rsqrt (v i + broadcastInDim ⟨1, ![n]⟩ ![] hb (constant (F := Ideal) ⟨0, ![]⟩ .f32 epsw) i) = _
  rw [bc0_apply]
  rfl

end Cert.Gin

end
-- ==== Proof.GinHostNorm.lean ====
/-
  The host program's spellings of the normalisation stage, the dense stage and the folded parameters, on the extended
  reals, for any extents.

  The deviation-first normalisation: with each of the vectors μ, r, g, be laid out as one row and repeated down the rows,
  max ((((t − μ) · r) · g) + be, 0) entry by entry is the specification's actD. A general product plus a bias vector
  repeated down the rows is one dense layer. The folded parameters g · r and be − μ · (g · r), computed as vectors and then
  laid out as [1, n] blocks, have as their one row exactly those vectors, so the folded activation of a block is actS.
-/
import proofs.«100402_j28432683499906_1_alg».proof.Proof.GinHost
import proofs.«100402_j28432683499906_1_alg».proof.Proof.GinTile

noncomputable section

namespace Cert.Gin

open Idealize.ShloMosaic Idealize.ShloMosaic.ValueIdx Cert.LibMatmulPlain Cert.Layers Cert.Net Cert.Alg

variable {m k n : Nat}

/-! ## The deviation-first normalisation and rectifier -/

/-- ((t − μ) · r) · g + be with every vector repeated down the rows, then the maximum with the zero word broadcast. -/
theorem hostNorm_eq (t : FVec Ideal ⟨2, ![m, n]⟩ .f32) (mu r g be : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (hz : (⟨0, ![]⟩ : Shape).BroadcastsInDim ⟨2, ![m, n]⟩ ![]) :
    maximumf
        (addf
          (mulf
            (mulf (subf t (broadcastInDim ⟨2, ![m, n]⟩ ![0, 1] h2 (broadcastInDim ⟨2, ![1, n]⟩ ![1] h1 mu)))
              (broadcastInDim ⟨2, ![m, n]⟩ ![0, 1] h2 (broadcastInDim ⟨2, ![1, n]⟩ ![1] h1 r)))
            (broadcastInDim ⟨2, ![m, n]⟩ ![0, 1] h2 (broadcastInDim ⟨2, ![1, n]⟩ ![1] h1 g)))
          (broadcastInDim ⟨2, ![m, n]⟩ ![0, 1] h2 (broadcastInDim ⟨2, ![1, n]⟩ ![1] h1 be)))
        (broadcastInDim ⟨2, ![m, n]⟩ ![] hz (constant (F := Ideal) ⟨0, ![]⟩ .f32 0x00000000#32))
      = actD t mu r g be := by
  rw [hostRect_eq]
  unfold actD normD
  refine congrArg rect (funext fun i => ?_)
  show (t i - broadcastInDim ⟨2, ![m, n]⟩ ![0, 1] h2 (broadcastInDim ⟨2, ![1, n]⟩ ![1] h1 mu) i)
        * broadcastInDim ⟨2, ![m, n]⟩ ![0, 1] h2 (broadcastInDim ⟨2, ![1, n]⟩ ![1] h1 r) i
        * broadcastInDim ⟨2, ![m, n]⟩ ![0, 1] h2 (broadcastInDim ⟨2, ![1, n]⟩ ![1] h1 g) i
      + broadcastInDim ⟨2, ![m, n]⟩ ![0, 1] h2 (broadcastInDim ⟨2, ![1, n]⟩ ![1] h1 be) i = _
  rw [bc2_apply mu, bc2_apply r, bc2_apply g, bc2_apply be]

/-! ## The dense stage -/

/-- A general product contracting a's columns with w's rows, plus the bias vector repeated down the rows. -/
theorem hostDense_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    addf (Host.dotGeneral d none a w)
        (broadcastInDim ⟨2, ![m, n]⟩ ![0, 1] h2 (broadcastInDim ⟨2, ![1, n]⟩ ![1] h1 b))
      = dense a w b := by
  rw [hostMm_eq d wf hd, hostBias_eq]
  rfl

/-! ## The folded parameters as [1, n] blocks -/

/-- The one row of a vector laid out as a [1, n] block is the vector. -/
theorem rowOf_shapeCast (b : FVec Ideal ⟨1, ![n]⟩ .f32) (hc : (⟨1, ![n]⟩ : Shape).ShapeCasts ⟨2, ![1, n]⟩) :
    rowOf (shapeCast ⟨2, ![1, n]⟩ b hc) = b := by
  funext i
  obtain ⟨q, rfl⟩ : ∃ q : Fin n, i = ix1 q := ⟨i 0, eq_ix1 i⟩
  exact shapeCast_a_1a_apply b hc 0 q

/-- The scale block's row: g · r. -/
theorem foldScale_row (g r : FVec Ideal ⟨1, ![n]⟩ .f32) (hc : (⟨1, ![n]⟩ : Shape).ShapeCasts ⟨2, ![1, n]⟩) (q : Fin n) :
    rowOf (shapeCast ⟨2, ![1, n]⟩ (mulf g r) hc) (ix1 q) = g (ix1 q) * r (ix1 q) := by
  rw [rowOf_shapeCast]
  rfl

/-- The shift block's row: be − μ · (g · r). -/
theorem foldShift_row (be mu g r : FVec Ideal ⟨1, ![n]⟩ .f32) (hc : (⟨1, ![n]⟩ : Shape).ShapeCasts ⟨2, ![1, n]⟩)
    (q : Fin n) :
    rowOf (shapeCast ⟨2, ![1, n]⟩ (subf be (mulf mu (mulf g r))) hc) (ix1 q)
      = be (ix1 q) - mu (ix1 q) * (g (ix1 q) * r (ix1 q)) := by
  rw [rowOf_shapeCast]
  rfl

/-- The folded activation of a block with the two blocks as the program computes them is actS. -/
theorem affRect_fold_eq_actS (t : Mat m n) (mu r g be : FVec Ideal ⟨1, ![n]⟩ .f32)
    (hc : (⟨1, ![n]⟩ : Shape).ShapeCasts ⟨2, ![1, n]⟩) :
    affRect t (shapeCast ⟨2, ![1, n]⟩ (mulf g r) hc) (shapeCast ⟨2, ![1, n]⟩ (subf be (mulf mu (mulf g r))) hc)
      = actS t mu r g be :=
  affRect_eq_actS t _ _ mu r g be (foldScale_row g r hc) (foldShift_row be mu g r hc)

end Cert.Gin

end
-- ==== Proof.GinHostLayerK.lean ====
/-
  One layer as the folded-parameter program computes it, on the extended reals, for any extents.

  For an [n, c] array t, the host takes its column mean μ, its column variance v (count 50000, zero correction, guarded
  quotient) and r = 1/√(v + ε), folds them with a scale g and a shift be into the vectors g · r and be − μ · (g · r), and
  lays each out as a [1, c] block; a vector region then computes max (t · (g · r) + (be − μ · (g · r)), 0). That is the
  specification's folded activation of t with its own column statistics. Two such activations, each after a dense layer
  (whose bias arrives as a [1, c] block), around an aggregation, plus the input, make the specification's layer.
-/
import proofs.«100402_j28432683499906_1_alg».proof.Proof.GinHostVar
import proofs.«100402_j28432683499906_1_alg».proof.Proof.GinHostNorm

noncomputable section

namespace Cert.Gin

open Idealize.ShloMosaic Idealize.ShloMosaic.ValueIdx Cert.LibMatmulPlain Cert.Layers Cert.Net Cert.Alg

variable {n c : Nat}

/-- The shape facts the host's column statistics of an [n, c] array and their re-layouts use. -/
structure HostW (n c : Nat) : Prop where
  /-- summing down the rows leaves the columns -/
  hr : (⟨2, ![n, c]⟩ : Shape).ReducesTo [0] ⟨1, ![c]⟩
  /-- a rank-zero array has an element -/
  hu : 0 < (⟨0, ![]⟩ : Shape).numel
  /-- a vector laid out as one row -/
  h1 : (⟨1, ![c]⟩ : Shape).BroadcastsInDim ⟨2, ![1, c]⟩ ![1]
  /-- a scalar repeated along one row -/
  h0 : (⟨0, ![]⟩ : Shape).BroadcastsInDim ⟨2, ![1, c]⟩ ![]
  /-- one row repeated down the rows -/
  h2 : (⟨2, ![1, c]⟩ : Shape).BroadcastsInDim ⟨2, ![n, c]⟩ ![0, 1]
  /-- a scalar repeated along a vector -/
  hb : (⟨0, ![]⟩ : Shape).BroadcastsInDim ⟨1, ![c]⟩ ![]
  /-- a scalar repeated over the array -/
  hz : (⟨0, ![]⟩ : Shape).BroadcastsInDim ⟨2, ![n, c]⟩ ![]
  /-- a vector recast as a [1, c] block -/
  hc : (⟨1, ![c]⟩ : Shape).ShapeCasts ⟨2, ![1, c]⟩

/-! ## The column statistics with the program's words -/

/-- The column mean: the sum down the rows from the zero word over the count word 50000 broadcast. -/
def meanH (W : HostW n c) (t : FVec Ideal ⟨2, ![n, c]⟩ .f32) : FVec Ideal ⟨1, ![c]⟩ .f32 :=
  Host.divf (Host.reduceAdd t (constant (F := Ideal) ⟨0, ![]⟩ .f32 0x00000000#32) W.hr W.hu)
    (broadcastInDim ⟨1, ![c]⟩ ![] W.hb (constant (F := Ideal) ⟨0, ![]⟩ .f32 0x47435000#32))

/-- The column variance at the count word 50000. -/
def varHW (W : HostW n c) (t : FVec Ideal ⟨2, ![n, c]⟩ .f32) : FVec Ideal ⟨1, ![c]⟩ .f32 :=
  varH 0x47435000#32 t W.hr W.hu W.h1 W.h0 W.h2 W.hb

/-- 1/√(v + ε) with the ε word 0x3727C5AC broadcast. -/
def invH (W : HostW n c) (v : FVec Ideal ⟨1, ![c]⟩ .f32) : FVec Ideal ⟨1, ![c]⟩ .f32 :=
  Host.rsqrt (addf v (broadcastInDim ⟨1, ![c]⟩ ![] W.hb (constant (F := Ideal) ⟨0, ![]⟩ .f32 0x3727C5AC#32)))

theorem meanH_eq (W : HostW n c) (t : FVec Ideal ⟨2, ![n, c]⟩ .f32) :
    meanH W t = colMean (Ideal.ofBits .f32 0x47435000#32) t :=
  hostMean_eq t _ W.hr W.hu W.hb

theorem varHW_eq (W : HostW n c) (t : FVec Ideal ⟨2, ![n, c]⟩ .f32) :
    varHW W t = colVar (Ideal.ofBits .f32 0x47435000#32) (Ideal.ofBits .f32 0x47435000#32) t :=
  hostVar_eq_cnt t W.hr W.hu W.h1 W.h0 W.h2 W.hb

theorem invH_eq (W : HostW n c) (v : FVec Ideal ⟨1, ![c]⟩ .f32) :
    invH W v = colInv (Ideal.ofBits .f32 0x3727C5AC#32) v :=
  hostInv_eq _ v W.hb

/-! ## The folded parameters and the folded activation -/

/-- The folded scale g · r of t's statistics. -/
def scaleH (W : HostW n c) (t : FVec Ideal ⟨2, ![n, c]⟩ .f32) (g : FVec Ideal ⟨1, ![c]⟩ .f32) : FVec Ideal ⟨1, ![c]⟩ .f32 :=
  mulf g (invH W (varHW W t))

/-- The folded shift be − μ · (g · r) of t's statistics. -/
def shiftH (W : HostW n c) (t : FVec Ideal ⟨2, ![n, c]⟩ .f32) (g be : FVec Ideal ⟨1, ![c]⟩ .f32) :
    FVec Ideal ⟨1, ![c]⟩ .f32 :=
  subf be (mulf (meanH W t) (mulf g (invH W (varHW W t))))

theorem shiftH_def (W : HostW n c) (t : FVec Ideal ⟨2, ![n, c]⟩ .f32) (g be : FVec Ideal ⟨1, ![c]⟩ .f32) :
    subf be (mulf (meanH W t) (scaleH W t g)) = shiftH W t g be := rfl

/-- The folded activation of t: max (t · sc + sh, 0) with sc and sh the folded scale and shift as [1, c] blocks. -/
def actKH (W : HostW n c) (t : Mat n c) (g be : FVec Ideal ⟨1, ![c]⟩ .f32) : Mat n c :=
  affRect t (shapeCast ⟨2, ![1, c]⟩ (scaleH W t g) W.hc) (shapeCast ⟨2, ![1, c]⟩ (shiftH W t g be) W.hc)

/-- The folded activation is the specification's, with t's own column statistics. -/
theorem actKH_eq (W : HostW n c) (t : Mat n c) (g be : FVec Ideal ⟨1, ![c]⟩ .f32) :
    actKH W t g be
      = actWith actS (Ideal.ofBits .f32 0x47435000#32) (Ideal.ofBits .f32 0x47435000#32)
          (Ideal.ofBits .f32 0x3727C5AC#32) t g be := by
  unfold actKH scaleH shiftH actWith
  rw [affRect_fold_eq_actS t (meanH W t) (invH W (varHW W t)) g be W.hc, meanH_eq, invH_eq, varHW_eq]

/-! ## The layer -/

/-- One layer: aggregate and add, dense (bias as a [1, c] block), folded activation, dense, folded activation, add. -/
def layerKH (W : HostW n c) (agg : Mat n c → Mat n c) (W1 : Mat c c) (b1 g1 be1 : Row c) (W2 : Mat c c)
    (b2 go beo : Row c) (h : Mat n c) : Mat n c := fun i =>
  actKH W
      (dense
        (actKH W (dense (fun j => agg h j + h j) W1 (rowOf (shapeCast ⟨2, ![1, c]⟩ b1 W.hc))) g1 be1)
        W2 (rowOf (shapeCast ⟨2, ![1, c]⟩ b2 W.hc)))
      go beo i
    + h i

/-- It is the specification's layer with the folded activation. -/
theorem layerKH_eq (W : HostW n c) (agg : Mat n c → Mat n c) (W1 : Mat c c) (b1 g1 be1 : Row c) (W2 : Mat c c)
    (b2 go beo : Row c) (h : Mat n c) :
    layerKH W agg W1 b1 g1 be1 W2 b2 go beo h
      = layer actS agg (Ideal.ofBits .f32 0x47435000#32) (Ideal.ofBits .f32 0x47435000#32)
          (Ideal.ofBits .f32 0x3727C5AC#32) ⟨W1, b1, g1, be1, W2, b2, go, beo⟩ h := by
  unfold layerKH layer
  simp only [actKH_eq, rowOf_shapeCast]

end Cert.Gin

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibSparseReal.lean ====
/-
  Gathers and accumulating scatters keep real data real.

  A row gather x[idx] copies, for each index, one row of x (the index read signed and clamped into range): its entries
  are entries of x. An accumulating row scatter returns, at (p, q), the operand's entry plus the finite sum of the
  update entries (e, q) whose index is p. So if every entry of the inputs is a real, so is every entry of the result;
  and a neighbourhood sum — gather the rows at the sources, accumulate them at the destinations into zeros — of a real
  matrix is a real matrix, whatever the index words are.
-/
import proofs.«100402_j28432683499906_1_alg».proof.Proof.LibGatherRows
import proofs.«100402_j28432683499906_1_alg».proof.Proof.LibScatterRows
import proofs.«100402_j28432683499906_1_alg».proof.Proof.LibIsReal
import Idealize.ShloMosaic.Lib.ValueIdx

noncomputable section

namespace Cert.Lgnn.Sparse

open Idealize.ShloMosaic Idealize.ShloMosaic.ValueIdx Cert.Alg

variable {N E C w : Nat}

/-- A row gather of a real matrix is real, entry by entry. -/
theorem gather_isReal (hN : 0 < N)
    (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C])
    (hd : d = GatherRows.rowsDims N E C wf)
    (x : FVec Ideal ⟨2, ![N, C]⟩ .f32) (idx : IVec ⟨2, ![E, 1]⟩ w) (hx : ∀ i, IsReal (x i))
    (i : (⟨2, ![E, C]⟩ : Shape).Idx) : IsReal (Host.gather d x idx i) := by
  subst hd
  obtain ⟨e, q, rfl⟩ : ∃ (e : Fin E) (q : Fin C), i = ix2 e q := ⟨i 0, i 1, eq_ix2 i⟩
  rw [GatherRows.rows_gather_apply hN wf x idx e q]
  exact hx _

/-- An accumulating row scatter of real updates into a real operand is real, entry by entry. -/
theorem scatterAdd_isReal
    (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1)
    (hd : d = ScatterRows.rowsDims N E C wf)
    (x : FVec Ideal ⟨2, ![N, C]⟩ .f32) (idx : IVec ⟨2, ![E, 1]⟩ w) (upd : FVec Ideal ⟨2, ![E, C]⟩ .f32)
    (hx : ∀ i, IsReal (x i)) (hu : ∀ i, IsReal (upd i))
    (i : (⟨2, ![N, C]⟩ : Shape).Idx) : IsReal (Host.scatterAdd d x idx upd i) := by
  subst hd
  obtain ⟨p, q, rfl⟩ : ∃ (p : Fin N) (q : Fin C), i = ix2 p q := ⟨i 0, i 1, eq_ix2 i⟩
  change IsReal (Ideal.hostScatterAdd (ScatterRows.rowsDims N E C wf) x idx upd (ix2 p q))
  rw [ScatterRows.rows_scatterAdd_apply wf x idx upd p q]
  refine (hx _).add (IsReal.sum_univ _ fun e => ?_)
  split_ifs
  · exact hu _
  · exact IsReal.zero

end Cert.Lgnn.Sparse

end
-- ==== Proof.GinHostReal.lean ====
/-
  Re-laid arrays of reals are arrays of reals.

  A shape cast, a unit-stride slice and a broadcast each read, at every index of the result, one entry of the operand. So if
  every entry of the operand is a real, every entry of the result is. Constants whose word denotes a real are real.
-/
import Idealize.ShloMosaic.Lib.ValueLayout
import Idealize.ShloMosaic.Lib.Pipeline.Value
import Idealize.ShloMosaic.PureOps.Ideal.Laws
import proofs.«100402_j28432683499906_1_alg».proof.Proof.GinSpec

noncomputable section

namespace Cert.Gin

open Idealize.ShloMosaic Idealize.ShloMosaic.ValueIdx Cert.Layers Cert.Net Cert.Alg

variable {s s' : Shape}

/-- A shape cast of a real array is real. -/
theorem shapeCast_allReal (x : s.Idx → EReal) (hc : s.ShapeCasts s') (hx : AllReal x) : AllReal (shapeCast s' x hc) :=
  fun _ => hx _

/-- A unit-stride slice of a real array is real. -/
theorem extractStridedSlice_allReal (off : Fin s.rank → Nat) (x : s.Idx → EReal) (hs : s.Slices off s') (hx : AllReal x) :
    AllReal (extractStridedSlice s' off x hs) :=
  fun _ => hx _

/-- A broadcast of a real array along named axes is real. -/
theorem broadcastInDim_allReal (dims : Fin s.rank → Fin s'.rank) (h : s.BroadcastsInDim s' dims) (x : s.Idx → EReal)
    (hx : AllReal x) : AllReal (broadcastInDim s' dims h x) :=
  fun _ => hx _

/-- A broadcast of a real array along its trailing axes is real. -/
theorem broadcastTo_allReal (x : s.Idx → EReal) (h : s.Broadcasts s') (hx : AllReal x) : AllReal (broadcastTo s' x h) :=
  fun _ => hx _

/-- The zero word repeated over a shape is real. -/
theorem constant_zero_allReal : AllReal (constant (F := Ideal) s .f32 0x00000000#32) := fun _ => by
  show IsReal (Ideal.ofBits .f32 0x00000000#32)
  rw [Ideal.ofBits_zero_f32]
  exact IsReal.zero

/-- A constant whose word denotes a real is real. -/
theorem constant_allReal (w : BitVec 32) {r : ℝ} (hw : Ideal.ofBits .f32 w = (r : EReal)) :
    AllReal (constant (F := Ideal) s .f32 w) := fun _ => by
  show IsReal (Ideal.ofBits .f32 w)
  rw [hw]
  exact IsReal.coe r

/-- Entrywise sums, differences and products of real arrays are real. -/
theorem addf_allReal (x y : FVec Ideal s .f32) (hx : AllReal x) (hy : AllReal y) : AllReal (addf x y) :=
  fun i => (hx i).add (hy i)

theorem subf_allReal (x y : FVec Ideal s .f32) (hx : AllReal x) (hy : AllReal y) : AllReal (subf x y) :=
  fun i => (hx i).sub (hy i)

theorem mulf_allReal (x y : FVec Ideal s .f32) (hx : AllReal x) (hy : AllReal y) : AllReal (mulf x y) :=
  fun i => (hx i).mul (hy i)

end Cert.Gin

end
-- ==== Proof.GinHostAgg.lean ====
/-
  The neighbourhood aggregation as the host program spells it, and that it keeps real arrays real.

  For features h [N, C], source and destination index words [E, 1] and edge weights repeated across the columns [E, C]:
  gather the rows of h at the sources, multiply entry by entry by the weights, and accumulate the rows at the
  destinations into an all-zero [N, C] array. Every entry of a gathered row is an entry of h; every entry of the
  accumulated array is a zero plus a finite sum of weighted gathered entries. So real features and real weights give a
  real aggregate, whatever the index words are.
-/
import proofs.«100402_j28432683499906_1_alg».proof.Proof.LibSparseReal
import proofs.«100402_j28432683499906_1_alg».proof.Proof.GinHostReal

noncomputable section

namespace Cert.Gin

open Idealize.ShloMosaic Idealize.ShloMosaic.ValueIdx Cert.Layers Cert.Net Cert.Alg

variable {N E C : Nat}

/-- Gather at the sources, weight, accumulate at the destinations into zeros. -/
def aggOf (dg : GatherDims ⟨2, ![N, C]⟩ ⟨2, ![E, 1]⟩ ⟨2, ![E, C]⟩) (ds : ScatterDims ⟨2, ![N, C]⟩ ⟨2, ![E, 1]⟩ ⟨2, ![E, C]⟩)
    (src dst : IVec ⟨2, ![E, 1]⟩ 32) (wB : FVec Ideal ⟨2, ![E, C]⟩ .f32)
    (hz : (⟨0, ![]⟩ : Shape).BroadcastsInDim ⟨2, ![N, C]⟩ ![]) (h : Mat N C) : Mat N C :=
  Host.scatterAdd (F := Ideal) (φ := .f32) ds
    (broadcastInDim ⟨2, ![N, C]⟩ ![] hz (constant (F := Ideal) ⟨0, ![]⟩ .f32 0x00000000#32)) dst
    (mulf (F := Ideal) (φ := .f32) (Host.gather dg h src) wB)

/-- aggOf written out operation by operation. -/
theorem aggOf_def (dg : GatherDims ⟨2, ![N, C]⟩ ⟨2, ![E, 1]⟩ ⟨2, ![E, C]⟩)
    (ds : ScatterDims ⟨2, ![N, C]⟩ ⟨2, ![E, 1]⟩ ⟨2, ![E, C]⟩) (src dst : IVec ⟨2, ![E, 1]⟩ 32)
    (wB : FVec Ideal ⟨2, ![E, C]⟩ .f32) (hz : (⟨0, ![]⟩ : Shape).BroadcastsInDim ⟨2, ![N, C]⟩ ![])
    (h : FVec Ideal ⟨2, ![N, C]⟩ .f32) :
    Host.scatterAdd ds (broadcastInDim ⟨2, ![N, C]⟩ ![] hz (constant (F := Ideal) ⟨0, ![]⟩ .f32 0x00000000#32)) dst
        (mulf (Host.gather dg h src) wB)
      = aggOf dg ds src dst wB hz h := rfl

/-- Real features and real weights give a real aggregate. -/
theorem aggOf_isReal (hN : 0 < N) (dg : GatherDims ⟨2, ![N, C]⟩ ⟨2, ![E, 1]⟩ ⟨2, ![E, C]⟩)
    (wfg : GatherDims.WF ⟨2, ![N, C]⟩ ⟨2, ![E, 1]⟩ ⟨2, ![E, C]⟩ [1] [0] [] [0] [] 1 ![1, C])
    (hdg : dg = GatherRows.rowsDims N E C wfg)
    (ds : ScatterDims ⟨2, ![N, C]⟩ ⟨2, ![E, 1]⟩ ⟨2, ![E, C]⟩)
    (wfs : ScatterDims.WF ⟨2, ![N, C]⟩ ⟨2, ![E, 1]⟩ ⟨2, ![E, C]⟩ [1] [0] [0] 1)
    (hds : ds = ScatterRows.rowsDims N E C wfs)
    (src dst : IVec ⟨2, ![E, 1]⟩ 32) (wB : FVec Ideal ⟨2, ![E, C]⟩ .f32) (hw : AllReal wB)
    (hz : (⟨0, ![]⟩ : Shape).BroadcastsInDim ⟨2, ![N, C]⟩ ![]) (h : Mat N C) (hh : AllReal h) :
    AllReal (aggOf dg ds src dst wB hz h) := fun i =>
  Cert.Lgnn.Sparse.scatterAdd_isReal ds wfs hds _ dst _
    (broadcastInDim_allReal _ hz _ constant_zero_allReal)
    (fun j => (Cert.Lgnn.Sparse.gather_isReal hN dg wfg hdg h src hh j).mul (hw j)) i

/-- The edge weights laid out as a column and repeated across the columns are real when the weights are. -/
theorem weightBlock_allReal (w : FVec Ideal ⟨1, ![E]⟩ .f32)
    (h1 : (⟨1, ![E]⟩ : Shape).BroadcastsInDim ⟨2, ![E, 1]⟩ ![0])
    (h2 : (⟨2, ![E, 1]⟩ : Shape).BroadcastsInDim ⟨2, ![E, C]⟩ ![0, 1]) (hw : AllReal w) :
    AllReal (broadcastInDim ⟨2, ![E, C]⟩ ![0, 1] h2 (broadcastInDim ⟨2, ![E, 1]⟩ ![0] h1 w)) :=
  broadcastInDim_allReal _ h2 _ (broadcastInDim_allReal _ h1 _ hw)

end Cert.Gin

end
-- ==== Proof.GinNet.lean ====
/-
  The stack of four layers, by either spelling of the normalisation, and their agreement on real data.

  Each layer maps real features to real features (GinSpec's layer_eq), so the agreement of the two spellings and the
  realness of the features pass from one layer to the next.
-/
import proofs.«100402_j28432683499906_1_alg».proof.Proof.GinSpec

noncomputable section

namespace Cert.Gin

open Idealize.ShloMosaic Idealize.ShloMosaic.ValueIdx Cert.Layers Cert.Net Cert.Alg

variable {n c : Nat}

/-- Four layers, one after the other, over the activation's spelling. -/
def net (act : Mat n c → Row c → Row c → Row c → Row c → Mat n c) (agg : Mat n c → Mat n c) (cnt cnt' eps : EReal)
    (P0 P1 P2 P3 : Params c) (h0 : Mat n c) : Mat n c :=
  layer act agg cnt cnt' eps P3 (layer act agg cnt cnt' eps P2 (layer act agg cnt cnt' eps P1 (layer act agg cnt cnt' eps P0 h0)))

/-- On real features and real parameters the two spellings give the same stack. -/
theorem net_eq {cnt cnt' eps : EReal} {N N' e : ℝ} (hcnt : cnt = (N : EReal)) (hN : N ≠ 0) (hcnt' : cnt' = (N' : EReal))
    (hN' : 0 < N') (heps : eps = (e : EReal)) (he : 0 < e) (agg : Mat n c → Mat n c)
    (hagg : ∀ h, AllReal h → AllReal (agg h)) (P0 P1 P2 P3 : Params c) (hP0 : P0.Real) (hP1 : P1.Real) (hP2 : P2.Real)
    (hP3 : P3.Real) (h0 : Mat n c) (hh0 : AllReal h0) :
    net actS agg cnt cnt' eps P0 P1 P2 P3 h0 = net actD agg cnt cnt' eps P0 P1 P2 P3 h0 := by
  obtain ⟨e0, r0⟩ := layer_eq hcnt hN hcnt' hN' heps he agg hagg P0 hP0 h0 hh0
  obtain ⟨e1, r1⟩ := layer_eq hcnt hN hcnt' hN' heps he agg hagg P1 hP1 _ r0
  obtain ⟨e2, r2⟩ := layer_eq hcnt hN hcnt' hN' heps he agg hagg P2 hP2 _ r1
  obtain ⟨e3, -⟩ := layer_eq hcnt hN hcnt' hN' heps he agg hagg P3 hP3 _ r2
  unfold net
  rw [e0, e1, e2, e3]

end Cert.Gin

end
-- ==== Proof.LibFiniteEntry.lean ====
/-
  A float entry below +∞ in absolute value is a real number.

  On the extended reals the absolute value is max(x, −x). If it compares strictly below the word that denotes +∞, then
  x is neither +∞ (else max(x, −x) = +∞) nor −∞ (else −x = +∞), so x is a real. This is the element fact behind every
  precondition of the form "all entries of the array are finite", for an array of any shape.
-/
import proofs.«100402_j28432683499906_1_alg».proof.Proof.LibIsReal
import Idealize.ShloMosaic.PureOps.Ideal
import Idealize.ShloMosaic.Lib.ValueIdx
import Idealize.ShloMosaic.Lib.Pipeline.Value

noncomputable section

namespace Cert.Lgnn.Finite

open Idealize.ShloMosaic Idealize.ShloMosaic.ValueIdx Cert.Alg

/-- The +∞ word denotes +∞. -/
theorem inf_word : Ideal.ofBits .f32 0x7F800000#32 = ⊤ := by simp [Ideal.ofBits, Ideal.ieee]

/-- An entry whose absolute value compares below the +∞ word is a real. -/
theorem real_of_abs_lt_inf {s : Shape} (x : FVec Ideal s .f32) (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    IsReal (x i) := by
  rw [cmpf_apply, broadcastInDim_apply _ hb _ i ix0 fun ax => ax.elim0] at h
  change Ideal.cmp .olt (max (x i) (-(x i))) (Ideal.ofBits .f32 0x7F800000#32) = 1#1 at h
  rw [inf_word] at h
  have hlt : max (x i) (-(x i)) < ⊤ := by
    unfold Ideal.cmp at h
    by_contra hn
    simp [hn] at h
  obtain ⟨h1, h2⟩ := max_lt_iff.mp hlt
  refine IsReal.of_ne (ne_of_lt h1) fun hbot => ?_
  rw [hbot] at h2
  exact absurd h2 (by simp)

end Cert.Lgnn.Finite

end
-- ==== Proof.GinFinite.lean ====
/-
  From the precondition to real entries.

  The precondition is one boolean: the conjunction, over the float arguments, of "every entry's absolute value
  compares below +∞". A conjunction that is true has every conjunct true; a conjunction over all indices of an array
  that is true holds at each index; and an extended real whose absolute value is below +∞ is a real number. So under
  the precondition every entry of every float argument is a real.
-/
import proofs.«100402_j28432683499906_1_alg».proof.Proof.Gen.Pre_finite_inputs
import proofs.«100402_j28432683499906_1_alg».proof.Proof.LibFiniteEntry
import proofs.«100402_j28432683499906_1_alg».proof.Proof.GinSpec
import Idealize.ShloMosaic.Lib.ReduceAll
import Idealize.ShloMosaic.Lib.Affine

noncomputable section

namespace Cert.Gin

open Idealize.ShloMosaic Idealize.ShloMosaic.ValueIdx Cert.Alg Cert.Lgnn.Finite Cert.Pre_finite_inputs Cert.Pre_finite_inputs.Gen

instance : Subsingleton Cert.Pre_finite_inputs.S_.Idx := ⟨fun a b => funext fun d => d.elim0⟩

/-- One conjunct of the precondition: all entries compare below +∞ in absolute value, so all are reals. -/
theorem allReal_of_all {s : Shape} (x : FVec Ideal s .f32) (hb : S_.BroadcastsInDim s ![]) {axes : List (Fin s.rank)}
    (hr : s.ReducesTo axes S_) (hu : 0 < S_.numel) (init : IVec S_ 1)
    (e : Host.reduce IntOp.andi (cmpf .olt (Host.absf x) (broadcastInDim s ![] hb (constant (F := Ideal) S_ .f32 0x7F800000#32)))
          init hr hu ix0 = 1#1) : AllReal x :=
  fun i => real_of_abs_lt_inf x hb i (Host.reduce_andi_all _ init hr hu ix0 e i)

/-- Under the precondition every float argument has real entries. -/
theorem args_real (a0 : FVec Ideal S50000x1x64 .f32) (a1 : IVec S2x800000 32) (a2 : FVec Ideal S800000x3 .f32)
    (a3 : FVec Ideal S800000 .f32) (a4 : FVec Ideal S64x64 .f32) (a5 : FVec Ideal S64 .f32) (a6 : FVec Ideal S4x64x64 .f32)
    (a7 a8 a9 : FVec Ideal S4x64 .f32) (a10 : FVec Ideal S4x64x64 .f32) (a11 a12 a13 : FVec Ideal S4x64 .f32)
    (h : Cert.Pre_finite_inputs.fn (F := Ideal) a0 a1 a2 a3 a4 a5 a6 a7 a8 a9 a10 a11 a12 a13 = fun _ => 1#1) :
    AllReal a0 ∧ AllReal a3 ∧ AllReal a4 ∧ AllReal a5 ∧ AllReal a6 ∧ AllReal a7 ∧ AllReal a8 ∧ AllReal a9 ∧ AllReal a10
      ∧ AllReal a11 ∧ AllReal a12 ∧ AllReal a13 := by
  have h0 := congrFun h ix0
  dsimp only [Cert.Pre_finite_inputs.fn, fn_part1, fn_part2, fn_part3] at h0
  simp only [Idealize.ShloMosaic.andi, IntOp.andi_eq_one] at h0
  obtain ⟨⟨⟨⟨⟨⟨⟨⟨⟨⟨⟨⟨e0, -⟩, e3⟩, e4⟩, e5⟩, e6⟩, e7⟩, e8⟩, e9⟩, e10⟩, e11⟩, e12⟩, e13⟩ := h0
  exact ⟨allReal_of_all _ _ _ _ _ e0, allReal_of_all _ _ _ _ _ e3, allReal_of_all _ _ _ _ _ e4, allReal_of_all _ _ _ _ _ e5,
    allReal_of_all _ _ _ _ _ e6, allReal_of_all _ _ _ _ _ e7, allReal_of_all _ _ _ _ _ e8, allReal_of_all _ _ _ _ _ e9,
    allReal_of_all _ _ _ _ _ e10, allReal_of_all _ _ _ _ _ e11, allReal_of_all _ _ _ _ _ e12, allReal_of_all _ _ _ _ _ e13⟩

end Cert.Gin

end
-- ==== Proof.BridgeK.lean ====
/-
  The whole network over the argument arrays, in the kernel program's vocabulary, and its two spellings.

  The stacked parameter arrays are cut layer by layer; the first features are one dense layer of the input; every layer
  aggregates over the same edge table with the same weights. Under the precondition every float argument has real
  entries; a cut or a re-laying of a real array is real, the aggregation of real features with real weights is real, so
  the stack with the normalisation folded into a scale and a shift equals the stack with the deviation normalised.
-/
import proofs.«100402_j28432683499906_1_alg».proof.Proof.KHostDefs
import proofs.«100402_j28432683499906_1_alg».proof.Proof.GinHostAgg
import proofs.«100402_j28432683499906_1_alg».proof.Proof.GinHostVar
import proofs.«100402_j28432683499906_1_alg».proof.Proof.GinHostNorm
import proofs.«100402_j28432683499906_1_alg».proof.Proof.GinNet
import proofs.«100402_j28432683499906_1_alg».proof.Proof.GinFinite

set_option maxRecDepth 16384

noncomputable section

namespace Cert.Bridge

open Cert.KernelIdeal Cert.KernelIdeal.Gen Cert.KernelIdeal.KHost
open Idealize.ShloMosaic Idealize.ShloMosaic.ValueIdx Cert.Gin Cert.Layers Cert.Net Cert.Alg

/-- The row count as the programs write it (the float 50000). -/
abbrev cntE : EReal := Ideal.ofBits .f32 0x47435000#32
/-- The ε of the normalisation as the programs write it. -/
abbrev epsE : EReal := Ideal.ofBits .f32 0x3727C5AC#32

/-- One layer's parameters cut out of the stacked arrays. -/
def paramsK (a6 : CF Ideal S4x64x64) (a7 a8 a9 : CF Ideal S4x64) (a10 : CF Ideal S4x64x64) (a11 a12 a13 : CF Ideal S4x64)
    (o3 : Fin 3 → Nat) (h3 : S4x64x64.Slices o3 S1x64x64) (o2 : Fin 2 → Nat) (h2 : S4x64.Slices o2 S1x64) : Params 64 :=
  ⟨matAt a6 o3 h3, vecAt a7 o2 h2, vecAt a8 o2 h2, vecAt a9 o2 h2, matAt a10 o3 h3, vecAt a11 o2 h2, vecAt a12 o2 h2,
    vecAt a13 o2 h2⟩

theorem matAt_real (a : CF Ideal S4x64x64) (o : Fin 3 → Nat) (hs : S4x64x64.Slices o S1x64x64) (ha : AllReal a) :
    AllReal (s := S64x64) (matAt a o hs) :=
  fun i => shapeCast_allReal _ _ (extractStridedSlice_allReal _ _ _ ha) i

theorem vecAt_real (a : CF Ideal S4x64) (o : Fin 2 → Nat) (hs : S4x64.Slices o S1x64) (ha : AllReal a) :
    AllReal (s := S64) (vecAt a o hs) :=
  fun i => shapeCast_allReal _ _ (extractStridedSlice_allReal _ _ _ ha) i

theorem paramsK_real (a6 : CF Ideal S4x64x64) (a7 a8 a9 : CF Ideal S4x64) (a10 : CF Ideal S4x64x64) (a11 a12 a13 : CF Ideal S4x64)
    (o3 : Fin 3 → Nat) (h3 : S4x64x64.Slices o3 S1x64x64) (o2 : Fin 2 → Nat) (h2 : S4x64.Slices o2 S1x64)
    (r6 : AllReal a6) (r7 : AllReal a7) (r8 : AllReal a8) (r9 : AllReal a9) (r10 : AllReal a10) (r11 : AllReal a11)
    (r12 : AllReal a12) (r13 : AllReal a13) : (paramsK a6 a7 a8 a9 a10 a11 a12 a13 o3 h3 o2 h2).Real :=
  ⟨matAt_real a6 o3 h3 r6, vecAt_real a7 o2 h2 r7, vecAt_real a8 o2 h2 r8, vecAt_real a9 o2 h2 r9, matAt_real a10 o3 h3 r10,
    vecAt_real a11 o2 h2 r11, vecAt_real a12 o2 h2 r12, vecAt_real a13 o2 h2 r13⟩

/-- The aggregation over the edge table keeps real features real when the weights are real. -/
theorem agg_real (a1 : CI Ideal S2x800000) (a3 : CF Ideal S800000) (r3 : AllReal a3) (h : Mat 50000 64) (hh : AllReal h) :
    AllReal (s := S50000x64) (KHost.agg (F := Ideal) (edgeSrc a1) (edgeDst a1) a3 h) := by
  unfold KHost.agg
  exact aggOf_isReal (N := 50000) (E := 800000) (C := 64) (by decide) _ gather_S50000x64_S800000x1_S800000x64_1_0_n_n_0_1_164_wf rfl _
    scatter_S50000x64_S800000x1_S800000x64_1_0_0_1_wf rfl _ _ _ (weightBlock_allReal a3 _ _ r3) _ h hh

/-- The first features: one dense layer of the input. -/
def feat0 (a0 : CF Ideal S50000x1x64) (a4 : CF Ideal S64x64) (a5 : CF Ideal S64) : Mat 50000 64 :=
  dense (featIn a0 : Mat 50000 64) (a4 : Mat 64 64) (rowOf (asRow a5 : Mat 1 64))

theorem feat0_real (a0 : CF Ideal S50000x1x64) (a4 : CF Ideal S64x64) (a5 : CF Ideal S64) (r0 : AllReal a0) (r4 : AllReal a4)
    (r5 : AllReal a5) : AllReal (feat0 a0 a4 a5) :=
  dense_isReal _ _ _ (fun i => shapeCast_allReal _ _ r0 i) r4 (fun i => shapeCast_allReal (s' := S1x64) _ _ r5 _)

/-- The network over the argument arrays, by either spelling of the normalisation. -/
def netArgs (act : Mat 50000 64 → Row 64 → Row 64 → Row 64 → Row 64 → Mat 50000 64)
    (a0 : CF Ideal S50000x1x64) (a1 : CI Ideal S2x800000) (a3 : CF Ideal S800000) (a4 : CF Ideal S64x64) (a5 : CF Ideal S64)
    (a6 : CF Ideal S4x64x64) (a7 a8 a9 : CF Ideal S4x64) (a10 : CF Ideal S4x64x64) (a11 a12 a13 : CF Ideal S4x64) : Mat 50000 64 :=
  net act (fun h => KHost.agg (F := Ideal) (edgeSrc a1) (edgeDst a1) a3 h) cntE cntE epsE
    (paramsK a6 a7 a8 a9 a10 a11 a12 a13 ![0, 0, 0] slices_S4x64x64_S1x64x64_0_0_0 ![0, 0] slices_S4x64_S1x64_0_0)
    (paramsK a6 a7 a8 a9 a10 a11 a12 a13 ![1, 0, 0] slices_S4x64x64_S1x64x64_1_0_0 ![1, 0] slices_S4x64_S1x64_1_0)
    (paramsK a6 a7 a8 a9 a10 a11 a12 a13 ![2, 0, 0] slices_S4x64x64_S1x64x64_2_0_0 ![2, 0] slices_S4x64_S1x64_2_0)
    (paramsK a6 a7 a8 a9 a10 a11 a12 a13 ![3, 0, 0] slices_S4x64x64_S1x64x64_3_0_0 ![3, 0] slices_S4x64_S1x64_3_0)
    (feat0 a0 a4 a5)

/-- On real arguments the folded spelling and the deviation spelling give the same network. -/
theorem netArgs_eq (a0 : CF Ideal S50000x1x64) (a1 : CI Ideal S2x800000) (a3 : CF Ideal S800000) (a4 : CF Ideal S64x64)
    (a5 : CF Ideal S64) (a6 : CF Ideal S4x64x64) (a7 a8 a9 : CF Ideal S4x64) (a10 : CF Ideal S4x64x64) (a11 a12 a13 : CF Ideal S4x64)
    (r0 : AllReal a0) (r3 : AllReal a3) (r4 : AllReal a4) (r5 : AllReal a5) (r6 : AllReal a6) (r7 : AllReal a7) (r8 : AllReal a8)
    (r9 : AllReal a9) (r10 : AllReal a10) (r11 : AllReal a11) (r12 : AllReal a12) (r13 : AllReal a13) :
    netArgs actS a0 a1 a3 a4 a5 a6 a7 a8 a9 a10 a11 a12 a13 = netArgs actD a0 a1 a3 a4 a5 a6 a7 a8 a9 a10 a11 a12 a13 := by
  obtain ⟨e, he0, hee⟩ := eps_word
  exact net_eq (N := 50000) (N' := 50000) (e := e) cnt_word (by norm_num) cnt_word (by norm_num) hee he0 _
    (fun h hh => agg_real a1 a3 r3 h hh) _ _ _ _
    (paramsK_real _ _ _ _ _ _ _ _ _ _ _ _ r6 r7 r8 r9 r10 r11 r12 r13) (paramsK_real _ _ _ _ _ _ _ _ _ _ _ _ r6 r7 r8 r9 r10 r11 r12 r13)
    (paramsK_real _ _ _ _ _ _ _ _ _ _ _ _ r6 r7 r8 r9 r10 r11 r12 r13) (paramsK_real _ _ _ _ _ _ _ _ _ _ _ _ r6 r7 r8 r9 r10 r11 r12 r13)
    _ (feat0_real a0 a4 a5 r0 r4 r5)

end Cert.Bridge

end
-- ==== Proof.KValue.lean ====
/-
  The value of the kernel program: on the extended reals the result buffer after the run holds the network of the
  specification, with the normalisation folded into a scale and a shift, over the launch contents of the arguments.

  Each region's output array is an index formula of its input arrays (a dense layer; a dense layer of a sum; a dense
  layer of the folded activation; the folded activation plus the features). Put into the fold of the buffer contents
  through the run, a layer of the program is the host's literal composition of these with its column statistics, which
  is the specification's layer with the folded activation; four of them after the first dense layer are the network.
-/
import proofs.«100402_j28432683499906_1_alg».proof.Proof.KHostNet
import proofs.«100402_j28432683499906_1_alg».proof.Proof.KRegions
import proofs.«100402_j28432683499906_1_alg».proof.Proof.GinHostLayerK
import proofs.«100402_j28432683499906_1_alg».proof.Proof.BridgeK

set_option maxRecDepth 16384

noncomputable section

namespace Cert.KernelIdeal.KHost

open Cert.KernelIdeal Cert.KernelIdeal.Gen Cert.KernelIdeal.GenP
open Idealize.ShloMosaic Idealize.ShloMosaic.TcCoe Idealize.ShloMosaic.StableHlo Idealize.ShloMosaic.ValueIdx
open Cert.LibMatmulPlain Cert.Layers Cert.Net Cert.Gin Cert.Bridge

/-! ## What the four kinds of region compute -/

/-- A dense layer: x · w + b, the bias a [1, 64] block. -/
def linR : Reg0 Ideal := fun x w b =>
  (dense (x : Mat 50000 64) (w : Mat 64 64) (rowOf (b : Mat 1 64)) : Mat 50000 64)

/-- A dense layer of the sum of two arrays. -/
def addLinR : Reg1 Ideal := fun a h w b =>
  (dense (fun j => @HAdd.hAdd EReal EReal EReal _ ((a : Mat 50000 64) j) ((h : Mat 50000 64) j)) (w : Mat 64 64)
    (rowOf (b : Mat 1 64)) : Mat 50000 64)

/-- A dense layer of the folded activation max (t · sc + sh, 0). -/
def affLinR : Reg2 Ideal := fun t sc sh w b =>
  (dense (affRect (t : Mat 50000 64) (sc : Mat 1 64) (sh : Mat 1 64)) (w : Mat 64 64) (rowOf (b : Mat 1 64)) : Mat 50000 64)

/-- The folded activation plus the features. -/
def affAddR : Reg3 Ideal := fun t sc sh h =>
  (fun i => affRect (t : Mat 50000 64) (sc : Mat 1 64) (sh : Mat 1 64) i + (h : Mat 50000 64) i : Mat 50000 64)

/-- The shape facts the host's column statistics use, at this program's extents. -/
theorem hostW : HostW 50000 64 :=
  ⟨reducesTo_S50000x64_S64_d0, h_S_, bcast_S64_S1x64_1, bcast_S_S1x64, bcast_S1x64_S50000x64_0_1, bcast_S_S64,
    bcast_S_S50000x64, shapeCasts_S64_S1x64⟩

/-- A layer of the program over these regions is the specification's layer with the folded activation. -/
theorem kLayer_eq (src dst : CI Ideal S800000) (w : CF Ideal S800000) (W1 : CF Ideal S64x64) (b1 g1 be1 : CF Ideal S64)
    (W2 : CF Ideal S64x64) (b2 go beo : CF Ideal S64) (h : CF Ideal S50000x64) :
    kLayer addLinR affLinR affAddR src dst w W1 b1 g1 be1 W2 b2 go beo h
      = layer actS (fun h => agg (F := Ideal) src dst w h) cntE cntE epsE ⟨W1, b1, g1, be1, W2, b2, go, beo⟩ h :=
  (show kLayer addLinR affLinR affAddR src dst w W1 b1 g1 be1 W2 b2 go beo h
      = layerKH hostW (fun h => agg (F := Ideal) src dst w h) W1 b1 g1 be1 W2 b2 go beo h from rfl).trans
    (layerKH_eq hostW _ W1 b1 g1 be1 W2 b2 go beo h)

variable (m : (ℓ : Loc nD τ sig) → Buf (Elt Ideal) ℓ) (ρ : Dev nD → PrngReg)

/-- The result buffer at the last boundary holds the folded network of the launch contents of the arguments. -/
theorem kval (c : Dev nD) :
    W42 m ρ c (Proc.devRef .tc main_v238) = netArgs actS
      (m ((c : Thread nD τ).loc main_arg0))
      (m ((c : Thread nD τ).loc main_arg1))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13)) := by
  rw [net m ρ c linR addLinR affLinR affAddR
    (Regions.region0 (V1 m ρ) c)
    (Regions.region1 (V3 m ρ) c)
    (Regions.region2 (V7 m ρ) c)
    (Regions.region3 (V11 m ρ) c)
    (Regions.region4 (V13 m ρ) c)
    (Regions.region5 (V17 m ρ) c)
    (Regions.region6 (V21 m ρ) c)
    (Regions.region7 (V23 m ρ) c)
    (Regions.region8 (V27 m ρ) c)
    (Regions.region9 (V31 m ρ) c)
    (Regions.region10 (V33 m ρ) c)
    (Regions.region11 (V37 m ρ) c)
    (Regions.region12 (V41 m ρ) c)]
  rw [kLayer_eq, kLayer_eq, kLayer_eq, kLayer_eq]
  rfl

end Cert.KernelIdeal.KHost

end
-- ==== Proof.RefOps.lean ====
/- The operations of the reference program's @main, in order, with the two outlined functions (the per-column variance with its guarded quotient, and the rectifier) written out at each of their calls, as seven consecutive lists. -/
import proofs.«100402_j28432683499906_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, calls inlined (81 operations). -/
abbrev ops0 : List (HloOp τ sig (Elt F)) :=
  [ StableHlo.reshape main_arg0 main_v0 rfl shapeCasts_S50000x1x64_S50000x64,
    StableHlo.binary main_v0 main_arg4 main_v1 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S50000x64 ![0, 1] bcast_S1x64_S50000x64_0_1 : (⟨S1x64, .f32⟩ : BufTy).Contents (Elt F) → (⟨S50000x64, .f32⟩ : BufTy).Contents (Elt F)),
    StableHlo.binary main_v1 main_v3 main_v4 (addf : (⟨S50000x64, .f32⟩ : BufTy).Contents (Elt F) → (⟨S50000x64, .f32⟩ : BufTy).Contents (Elt F) → (⟨S50000x64, .f32⟩ : BufTy).Contents (Elt F)),
    StableHlo.unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v5 main_v6 rfl shapeCasts_S1x800000_S800000,
    StableHlo.unary main_arg1 main_v7 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v7 main_v8 rfl shapeCasts_S1x800000_S800000,
    StableHlo.nullary main_c (constantI S_ 32 0#32),
    StableHlo.unary main_c main_v9 (broadcastInDim S800000 ![] bcast_S_S800000 : (⟨S_, .i32⟩ : BufTy).Contents (Elt F) → (⟨S800000, .i32⟩ : BufTy).Contents (Elt F)),
    StableHlo.binary main_v6 main_v9 main_v10 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v11 (broadcastInDim S800000 ![] bcast_S_S800000 : (⟨S_, .i32⟩ : BufTy).Contents (Elt F) → (⟨S800000, .i32⟩ : BufTy).Contents (Elt F)),
    StableHlo.binary main_v6 main_v11 main_v12 (addi : (⟨S800000, .i32⟩ : BufTy).Contents (Elt F) → (⟨S800000, .i32⟩ : BufTy).Contents (Elt F) → (⟨S800000, .i32⟩ : BufTy).Contents (Elt F)),
    StableHlo.ternary main_v10 main_v12 main_v6 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v13 main_v14 (broadcastInDim S800000x1 ![0] bcast_S800000_S800000x1_0 : (⟨S800000, .i32⟩ : BufTy).Contents (Elt F) → (⟨S800000x1, .i32⟩ : BufTy).Contents (Elt F)),
    StableHlo.binary main_v4 main_v14 main_v15 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg3 main_v16 (broadcastInDim S800000x1 ![0] bcast_S800000_S800000x1_0 : (⟨S800000, .f32⟩ : BufTy).Contents (Elt F) → (⟨S800000x1, .f32⟩ : BufTy).Contents (Elt F)),
    StableHlo.unary main_v16 main_v17 (broadcastInDim S800000x64 ![0, 1] bcast_S800000x1_S800000x64_0_1 : (⟨S800000x1, .f32⟩ : BufTy).Contents (Elt F) → (⟨S800000x64, .f32⟩ : BufTy).Contents (Elt F)),
    StableHlo.binary main_v15 main_v17 main_v18 (mulf : (⟨S800000x64, .f32⟩ : BufTy).Contents (Elt F) → (⟨S800000x64, .f32⟩ : BufTy).Contents (Elt F) → (⟨S800000x64, .f32⟩ : BufTy).Contents (Elt F)),
    StableHlo.nullary main_cst (constant S_ .f32 0x00000000#32),
    StableHlo.unary main_cst main_v19 (broadcastInDim S50000x64 ![] bcast_S_S50000x64 : (⟨S_, .f32⟩ : BufTy).Contents (Elt F) → (⟨S50000x64, .f32⟩ : BufTy).Contents (Elt F)),
    StableHlo.unary main_v8 main_v20 (broadcastInDim S800000x1 ![0] bcast_S800000_S800000x1_0 : (⟨S800000, .i32⟩ : BufTy).Contents (Elt F) → (⟨S800000x1, .i32⟩ : BufTy).Contents (Elt F)),
    StableHlo.ternary main_v19 main_v20 main_v18 main_v21 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v21 main_v4 main_v22 (addf : (⟨S50000x64, .f32⟩ : BufTy).Contents (Elt F) → (⟨S50000x64, .f32⟩ : BufTy).Contents (Elt F) → (⟨S50000x64, .f32⟩ : BufTy).Contents (Elt F)),
    StableHlo.unary main_arg6 main_v23 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v23 main_v24 rfl shapeCasts_S1x64x64_S64x64,
    StableHlo.binary main_v22 main_v24 main_v25 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v26 ((extractStridedSlice S1x64 ![0, 0] · slices_S4x64_S1x64_0_0) : (⟨S4x64, .f32⟩ : BufTy).Contents (Elt F) → (⟨S1x64, .f32⟩ : BufTy).Contents (Elt F)),
    StableHlo.reshape main_v26 main_v27 rfl shapeCasts_S1x64_S64,
    StableHlo.unary main_v27 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S50000x64 ![0, 1] bcast_S1x64_S50000x64_0_1 : (⟨S1x64, .f32⟩ : BufTy).Contents (Elt F) → (⟨S50000x64, .f32⟩ : BufTy).Contents (Elt F)),
    StableHlo.binary main_v25 main_v29 main_v30 (addf : (⟨S50000x64, .f32⟩ : BufTy).Contents (Elt F) → (⟨S50000x64, .f32⟩ : BufTy).Contents (Elt F) → (⟨S50000x64, .f32⟩ : BufTy).Contents (Elt F)),
    StableHlo.unary main_arg8 main_v31 ((extractStridedSlice S1x64 ![0, 0] · slices_S4x64_S1x64_0_0) : (⟨S4x64, .f32⟩ : BufTy).Contents (Elt F) → (⟨S1x64, .f32⟩ : BufTy).Contents (Elt F)),
    StableHlo.reshape main_v31 main_v32 rfl shapeCasts_S1x64_S64,
    StableHlo.unary main_arg9 main_v33 ((extractStridedSlice S1x64 ![0, 0] · slices_S4x64_S1x64_0_0) : (⟨S4x64, .f32⟩ : BufTy).Contents (Elt F) → (⟨S1x64, .f32⟩ : BufTy).Contents (Elt F)),
    StableHlo.reshape main_v33 main_v34 rfl shapeCasts_S1x64_S64,
    StableHlo.nullary main_cst_1 (constant S_ .f32 0x00000000#32),
    StableHlo.binary main_v30 main_cst_1 main_v35 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_2 (constant S_ .f32 0x47435000#32),
    StableHlo.unary main_cst_2 main_v36 (broadcastInDim S64 ![] bcast_S_S64 : (⟨S_, .f32⟩ : BufTy).Contents (Elt F) → (⟨S64, .f32⟩ : BufTy).Contents (Elt F)),
    StableHlo.binary main_v35 main_v36 main_v37 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (.of main_v30) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v30) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v37 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S50000x64 ![0, 1] bcast_S1x64_S50000x64_0_1 : (⟨S1x64, .f32⟩ : BufTy).Contents (Elt F) → (⟨S50000x64, .f32⟩ : BufTy).Contents (Elt F)),
    StableHlo.binary main_v30 main_v40 main_v41 (subf : (⟨S50000x64, .f32⟩ : BufTy).Contents (Elt F) → (⟨S50000x64, .f32⟩ : BufTy).Contents (Elt F) → (⟨S50000x64, .f32⟩ : BufTy).Contents (Elt F)),
    StableHlo.nullary main_cst_4 (constant S_ .f32 0x3727C5AC#32),
    StableHlo.unary main_cst_4 main_v42 (broadcastInDim S64 ![] bcast_S_S64 : (⟨S_, .f32⟩ : BufTy).Contents (Elt F) → (⟨S64, .f32⟩ : BufTy).Contents (Elt F)),
    StableHlo.binary main_v38 main_v42 main_v43 (addf : (⟨S64, .f32⟩ : BufTy).Contents (Elt F) → (⟨S64, .f32⟩ : BufTy).Contents (Elt F) → (⟨S64, .f32⟩ : BufTy).Contents (Elt F)),
    StableHlo.unary main_v43 main_v44 (Host.rsqrt : (⟨S64, .f32⟩ : BufTy).Contents (Elt F) → (⟨S64, .f32⟩ : BufTy).Contents (Elt F)),
    StableHlo.unary main_v44 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S50000x64 ![0, 1] bcast_S1x64_S50000x64_0_1 : (⟨S1x64, .f32⟩ : BufTy).Contents (Elt F) → (⟨S50000x64, .f32⟩ : BufTy).Contents (Elt F)),
    StableHlo.binary main_v41 main_v46 main_v47 (mulf : (⟨S50000x64, .f32⟩ : BufTy).Contents (Elt F) → (⟨S50000x64, .f32⟩ : BufTy).Contents (Elt F) → (⟨S50000x64, .f32⟩ : BufTy).Contents (Elt F)),
    StableHlo.unary main_v32 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S50000x64 ![0, 1] bcast_S1x64_S50000x64_0_1 : (⟨S1x64, .f32⟩ : BufTy).Contents (Elt F) → (⟨S50000x64, .f32⟩ : BufTy).Contents (Elt F)),
    StableHlo.binary main_v47 main_v49 main_v50 (mulf : (⟨S50000x64, .f32⟩ : BufTy).Contents (Elt F) → (⟨S50000x64, .f32⟩ : BufTy).Contents (Elt F) → (⟨S50000x64, .f32⟩ : BufTy).Contents (Elt F)),
    StableHlo.unary main_v34 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S50000x64 ![0, 1] bcast_S1x64_S50000x64_0_1 : (⟨S1x64, .f32⟩ : BufTy).Contents (Elt F) → (⟨S50000x64, .f32⟩ : BufTy).Contents (Elt F)) ]

theorem ops0_sub : (ops0 : List (HloOp τ sig (Elt F))).Forall fun op => op.bufs ⊆ tcRefs τ sig :=
  ⟨reshape_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

/-- The operations of @main's window 1, calls inlined (85 operations). -/
abbrev ops1 : List (HloOp τ sig (Elt F)) :=
  [ StableHlo.binary main_v50 main_v52 main_v53 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v53) main_call1.v0 main_call1.v1 maximumf,
    StableHlo.unary main_arg10 main_v55 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v55 main_v56 rfl shapeCasts_S1x64x64_S64x64,
    StableHlo.binary main_v54 main_v56 main_v57 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v58 ((extractStridedSlice S1x64 ![0, 0] · slices_S4x64_S1x64_0_0) : (⟨S4x64, .f32⟩ : BufTy).Contents (Elt F) → (⟨S1x64, .f32⟩ : BufTy).Contents (Elt F)),
    StableHlo.reshape main_v58 main_v59 rfl shapeCasts_S1x64_S64,
    StableHlo.unary main_v59 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v61 main_v62 (addf : (⟨S50000x64, .f32⟩ : BufTy).Contents (Elt F) → (⟨S50000x64, .f32⟩ : BufTy).Contents (Elt F) → (⟨S50000x64, .f32⟩ : BufTy).Contents (Elt F)),
    StableHlo.unary main_arg12 main_v63 ((extractStridedSlice S1x64 ![0, 0] · slices_S4x64_S1x64_0_0) : (⟨S4x64, .f32⟩ : BufTy).Contents (Elt F) → (⟨S1x64, .f32⟩ : BufTy).Contents (Elt F)),
    StableHlo.reshape main_v63 main_v64 rfl shapeCasts_S1x64_S64,
    StableHlo.unary main_arg13 main_v65 ((extractStridedSlice S1x64 ![0, 0] · slices_S4x64_S1x64_0_0) : (⟨S4x64, .f32⟩ : BufTy).Contents (Elt F) → (⟨S1x64, .f32⟩ : BufTy).Contents (Elt F)),
    StableHlo.reshape main_v65 main_v66 rfl shapeCasts_S1x64_S64,
    StableHlo.nullary main_cst_5 (constant S_ .f32 0x00000000#32),
    StableHlo.binary main_v62 main_cst_5 main_v67 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_6 (constant S_ .f32 0x47435000#32),
    StableHlo.unary main_cst_6 main_v68 (broadcastInDim S64 ![] bcast_S_S64 : (⟨S_, .f32⟩ : BufTy).Contents (Elt F) → (⟨S64, .f32⟩ : BufTy).Contents (Elt F)),
    StableHlo.binary main_v67 main_v68 main_v69 (Host.divf : (⟨S64, .f32⟩ : BufTy).Contents (Elt F) → (⟨S64, .f32⟩ : BufTy).Contents (Elt F) → (⟨S64, .f32⟩ : BufTy).Contents (Elt F)),
    StableHlo.nullary main_c_7 (constantI S_ 32 0#32),
    StableHlo.TRef.nullary main_call2.cst (constant S_ .f32 0x00000000#32),
    StableHlo.TRef.binary (.of main_v62) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v62) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v69 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S50000x64 ![0, 1] bcast_S1x64_S50000x64_0_1 : (⟨S1x64, .f32⟩ : BufTy).Contents (Elt F) → (⟨S50000x64, .f32⟩ : BufTy).Contents (Elt F)),
    StableHlo.binary main_v62 main_v72 main_v73 (subf : (⟨S50000x64, .f32⟩ : BufTy).Contents (Elt F) → (⟨S50000x64, .f32⟩ : BufTy).Contents (Elt F) → (⟨S50000x64, .f32⟩ : BufTy).Contents (Elt F)),
    StableHlo.nullary main_cst_8 (constant S_ .f32 0x3727C5AC#32),
    StableHlo.unary main_cst_8 main_v74 (broadcastInDim S64 ![] bcast_S_S64 : (⟨S_, .f32⟩ : BufTy).Contents (Elt F) → (⟨S64, .f32⟩ : BufTy).Contents (Elt F)),
    StableHlo.binary main_v70 main_v74 main_v75 (addf : (⟨S64, .f32⟩ : BufTy).Contents (Elt F) → (⟨S64, .f32⟩ : BufTy).Contents (Elt F) → (⟨S64, .f32⟩ : BufTy).Contents (Elt F)),
    StableHlo.unary main_v75 main_v76 (Host.rsqrt : (⟨S64, .f32⟩ : BufTy).Contents (Elt F) → (⟨S64, .f32⟩ : BufTy).Contents (Elt F)),
    StableHlo.unary main_v76 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S50000x64 ![0, 1] bcast_S1x64_S50000x64_0_1 : (⟨S1x64, .f32⟩ : BufTy).Contents (Elt F) → (⟨S50000x64, .f32⟩ : BufTy).Contents (Elt F)),
    StableHlo.binary main_v73 main_v78 main_v79 (mulf : (⟨S50000x64, .f32⟩ : BufTy).Contents (Elt F) → (⟨S50000x64, .f32⟩ : BufTy).Contents (Elt F) → (⟨S50000x64, .f32⟩ : BufTy).Contents (Elt F)),
    StableHlo.unary main_v64 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S50000x64 ![0, 1] bcast_S1x64_S50000x64_0_1 : (⟨S1x64, .f32⟩ : BufTy).Contents (Elt F) → (⟨S50000x64, .f32⟩ : BufTy).Contents (Elt F)),
    StableHlo.binary main_v79 main_v81 main_v82 (mulf : (⟨S50000x64, .f32⟩ : BufTy).Contents (Elt F) → (⟨S50000x64, .f32⟩ : BufTy).Contents (Elt F) → (⟨S50000x64, .f32⟩ : BufTy).Contents (Elt F)),
    StableHlo.unary main_v66 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S50000x64 ![0, 1] bcast_S1x64_S50000x64_0_1 : (⟨S1x64, .f32⟩ : BufTy).Contents (Elt F) → (⟨S50000x64, .f32⟩ : BufTy).Contents (Elt F)),
    StableHlo.binary main_v82 main_v84 main_v85 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v85) main_call3.v0 main_call3.v1 maximumf,
    StableHlo.binary main_v86 main_v4 main_v87 (addf : (⟨S50000x64, .f32⟩ : BufTy).Contents (Elt F) → (⟨S50000x64, .f32⟩ : BufTy).Contents (Elt F) → (⟨S50000x64, .f32⟩ : BufTy).Contents (Elt F)),
    StableHlo.nullary main_c_9 (constantI S_ 32 0#32),
    StableHlo.unary main_c_9 main_v88 (broadcastInDim S800000 ![] bcast_S_S800000 : (⟨S_, .i32⟩ : BufTy).Contents (Elt F) → (⟨S800000, .i32⟩ : BufTy).Contents (Elt F)),
    StableHlo.binary main_v6 main_v88 main_v89 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v90 (broadcastInDim S800000 ![] bcast_S_S800000 : (⟨S_, .i32⟩ : BufTy).Contents (Elt F) → (⟨S800000, .i32⟩ : BufTy).Contents (Elt F)),
    StableHlo.binary main_v6 main_v90 main_v91 (addi : (⟨S800000, .i32⟩ : BufTy).Contents (Elt F) → (⟨S800000, .i32⟩ : BufTy).Contents (Elt F) → (⟨S800000, .i32⟩ : BufTy).Contents (Elt F)),
    StableHlo.ternary main_v89 main_v91 main_v6 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v92 main_v93 (broadcastInDim S800000x1 ![0] bcast_S800000_S800000x1_0 : (⟨S800000, .i32⟩ : BufTy).Contents (Elt F) → (⟨S800000x1, .i32⟩ : BufTy).Contents (Elt F)),
    StableHlo.binary main_v87 main_v93 main_v94 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg3 main_v95 (broadcastInDim S800000x1 ![0] bcast_S800000_S800000x1_0 : (⟨S800000, .f32⟩ : BufTy).Contents (Elt F) → (⟨S800000x1, .f32⟩ : BufTy).Contents (Elt F)),
    StableHlo.unary main_v95 main_v96 (broadcastInDim S800000x64 ![0, 1] bcast_S800000x1_S800000x64_0_1 : (⟨S800000x1, .f32⟩ : BufTy).Contents (Elt F) → (⟨S800000x64, .f32⟩ : BufTy).Contents (Elt F)),
    StableHlo.binary main_v94 main_v96 main_v97 (mulf : (⟨S800000x64, .f32⟩ : BufTy).Contents (Elt F) → (⟨S800000x64, .f32⟩ : BufTy).Contents (Elt F) → (⟨S800000x64, .f32⟩ : BufTy).Contents (Elt F)),
    StableHlo.nullary main_cst_11 (constant S_ .f32 0x00000000#32),
    StableHlo.unary main_cst_11 main_v98 (broadcastInDim S50000x64 ![] bcast_S_S50000x64 : (⟨S_, .f32⟩ : BufTy).Contents (Elt F) → (⟨S50000x64, .f32⟩ : BufTy).Contents (Elt F)),
    StableHlo.unary main_v8 main_v99 (broadcastInDim S800000x1 ![0] bcast_S800000_S800000x1_0 : (⟨S800000, .i32⟩ : BufTy).Contents (Elt F) → (⟨S800000x1, .i32⟩ : BufTy).Contents (Elt F)),
    StableHlo.ternary main_v98 main_v99 main_v97 main_v100 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v100 main_v87 main_v101 (addf : (⟨S50000x64, .f32⟩ : BufTy).Contents (Elt F) → (⟨S50000x64, .f32⟩ : BufTy).Contents (Elt F) → (⟨S50000x64, .f32⟩ : BufTy).Contents (Elt F)),
    StableHlo.unary main_arg6 main_v102 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v102 main_v103 rfl shapeCasts_S1x64x64_S64x64,
    StableHlo.binary main_v101 main_v103 main_v104 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v105 ((extractStridedSlice S1x64 ![1, 0] · slices_S4x64_S1x64_1_0) : (⟨S4x64, .f32⟩ : BufTy).Contents (Elt F) → (⟨S1x64, .f32⟩ : BufTy).Contents (Elt F)) ]

theorem ops1_sub : (ops1 : List (HloOp τ sig (Elt F))).Forall fun op => op.bufs ⊆ tcRefs τ sig :=
  ⟨binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub ..⟩

/-- The operations of @main's window 2, calls inlined (104 operations). -/
abbrev ops2 : List (HloOp τ sig (Elt F)) :=
  [ StableHlo.reshape main_v105 main_v106 rfl shapeCasts_S1x64_S64,
    StableHlo.unary main_v106 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S50000x64 ![0, 1] bcast_S1x64_S50000x64_0_1 : (⟨S1x64, .f32⟩ : BufTy).Contents (Elt F) → (⟨S50000x64, .f32⟩ : BufTy).Contents (Elt F)),
    StableHlo.binary main_v104 main_v108 main_v109 (addf : (⟨S50000x64, .f32⟩ : BufTy).Contents (Elt F) → (⟨S50000x64, .f32⟩ : BufTy).Contents (Elt F) → (⟨S50000x64, .f32⟩ : BufTy).Contents (Elt F)),
    StableHlo.unary main_arg8 main_v110 ((extractStridedSlice S1x64 ![1, 0] · slices_S4x64_S1x64_1_0) : (⟨S4x64, .f32⟩ : BufTy).Contents (Elt F) → (⟨S1x64, .f32⟩ : BufTy).Contents (Elt F)),
    StableHlo.reshape main_v110 main_v111 rfl shapeCasts_S1x64_S64,
    StableHlo.unary main_arg9 main_v112 ((extractStridedSlice S1x64 ![1, 0] · slices_S4x64_S1x64_1_0) : (⟨S4x64, .f32⟩ : BufTy).Contents (Elt F) → (⟨S1x64, .f32⟩ : BufTy).Contents (Elt F)),
    StableHlo.reshape main_v112 main_v113 rfl shapeCasts_S1x64_S64,
    StableHlo.nullary main_cst_12 (constant S_ .f32 0x00000000#32),
    StableHlo.binary main_v109 main_cst_12 main_v114 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_13 (constant S_ .f32 0x47435000#32),
    StableHlo.unary main_cst_13 main_v115 (broadcastInDim S64 ![] bcast_S_S64 : (⟨S_, .f32⟩ : BufTy).Contents (Elt F) → (⟨S64, .f32⟩ : BufTy).Contents (Elt F)),
    StableHlo.binary main_v114 main_v115 main_v116 (Host.divf : (⟨S64, .f32⟩ : BufTy).Contents (Elt F) → (⟨S64, .f32⟩ : BufTy).Contents (Elt F) → (⟨S64, .f32⟩ : BufTy).Contents (Elt F)),
    StableHlo.nullary main_c_14 (constantI S_ 32 0#32),
    StableHlo.TRef.nullary main_call4.cst (constant S_ .f32 0x00000000#32),
    StableHlo.TRef.binary (.of main_v109) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v109) main_call4.v4 main_call4.v5 subf,
    StableHlo.TRef.binary main_call4.v5 main_call4.v5 main_call4.v6 mulf,
    StableHlo.TRef.unary (.of main_c_14) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v116 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S50000x64 ![0, 1] bcast_S1x64_S50000x64_0_1 : (⟨S1x64, .f32⟩ : BufTy).Contents (Elt F) → (⟨S50000x64, .f32⟩ : BufTy).Contents (Elt F)),
    StableHlo.binary main_v109 main_v119 main_v120 (subf : (⟨S50000x64, .f32⟩ : BufTy).Contents (Elt F) → (⟨S50000x64, .f32⟩ : BufTy).Contents (Elt F) → (⟨S50000x64, .f32⟩ : BufTy).Contents (Elt F)),
    StableHlo.nullary main_cst_15 (constant S_ .f32 0x3727C5AC#32),
    StableHlo.unary main_cst_15 main_v121 (broadcastInDim S64 ![] bcast_S_S64 : (⟨S_, .f32⟩ : BufTy).Contents (Elt F) → (⟨S64, .f32⟩ : BufTy).Contents (Elt F)),
    StableHlo.binary main_v117 main_v121 main_v122 (addf : (⟨S64, .f32⟩ : BufTy).Contents (Elt F) → (⟨S64, .f32⟩ : BufTy).Contents (Elt F) → (⟨S64, .f32⟩ : BufTy).Contents (Elt F)),
    StableHlo.unary main_v122 main_v123 (Host.rsqrt : (⟨S64, .f32⟩ : BufTy).Contents (Elt F) → (⟨S64, .f32⟩ : BufTy).Contents (Elt F)),
    StableHlo.unary main_v123 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S50000x64 ![0, 1] bcast_S1x64_S50000x64_0_1 : (⟨S1x64, .f32⟩ : BufTy).Contents (Elt F) → (⟨S50000x64, .f32⟩ : BufTy).Contents (Elt F)),
    StableHlo.binary main_v120 main_v125 main_v126 (mulf : (⟨S50000x64, .f32⟩ : BufTy).Contents (Elt F) → (⟨S50000x64, .f32⟩ : BufTy).Contents (Elt F) → (⟨S50000x64, .f32⟩ : BufTy).Contents (Elt F)),
    StableHlo.unary main_v111 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S50000x64 ![0, 1] bcast_S1x64_S50000x64_0_1 : (⟨S1x64, .f32⟩ : BufTy).Contents (Elt F) → (⟨S50000x64, .f32⟩ : BufTy).Contents (Elt F)),
    StableHlo.binary main_v126 main_v128 main_v129 (mulf : (⟨S50000x64, .f32⟩ : BufTy).Contents (Elt F) → (⟨S50000x64, .f32⟩ : BufTy).Contents (Elt F) → (⟨S50000x64, .f32⟩ : BufTy).Contents (Elt F)),
    StableHlo.unary main_v113 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S50000x64 ![0, 1] bcast_S1x64_S50000x64_0_1 : (⟨S1x64, .f32⟩ : BufTy).Contents (Elt F) → (⟨S50000x64, .f32⟩ : BufTy).Contents (Elt F)),
    StableHlo.binary main_v129 main_v131 main_v132 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v132) main_call5.v0 main_call5.v1 maximumf,
    StableHlo.unary main_arg10 main_v134 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v134 main_v135 rfl shapeCasts_S1x64x64_S64x64,
    StableHlo.binary main_v133 main_v135 main_v136 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v137 ((extractStridedSlice S1x64 ![1, 0] · slices_S4x64_S1x64_1_0) : (⟨S4x64, .f32⟩ : BufTy).Contents (Elt F) → (⟨S1x64, .f32⟩ : BufTy).Contents (Elt F)),
    StableHlo.reshape main_v137 main_v138 rfl shapeCasts_S1x64_S64,
    StableHlo.unary main_v138 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S50000x64 ![0, 1] bcast_S1x64_S50000x64_0_1 : (⟨S1x64, .f32⟩ : BufTy).Contents (Elt F) → (⟨S50000x64, .f32⟩ : BufTy).Contents (Elt F)),
    StableHlo.binary main_v136 main_v140 main_v141 (addf : (⟨S50000x64, .f32⟩ : BufTy).Contents (Elt F) → (⟨S50000x64, .f32⟩ : BufTy).Contents (Elt F) → (⟨S50000x64, .f32⟩ : BufTy).Contents (Elt F)),
    StableHlo.unary main_arg12 main_v142 ((extractStridedSlice S1x64 ![1, 0] · slices_S4x64_S1x64_1_0) : (⟨S4x64, .f32⟩ : BufTy).Contents (Elt F) → (⟨S1x64, .f32⟩ : BufTy).Contents (Elt F)),
    StableHlo.reshape main_v142 main_v143 rfl shapeCasts_S1x64_S64,
    StableHlo.unary main_arg13 main_v144 ((extractStridedSlice S1x64 ![1, 0] · slices_S4x64_S1x64_1_0) : (⟨S4x64, .f32⟩ : BufTy).Contents (Elt F) → (⟨S1x64, .f32⟩ : BufTy).Contents (Elt F)),
    StableHlo.reshape main_v144 main_v145 rfl shapeCasts_S1x64_S64,
    StableHlo.nullary main_cst_16 (constant S_ .f32 0x00000000#32),
    StableHlo.binary main_v141 main_cst_16 main_v146 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_17 (constant S_ .f32 0x47435000#32),
    StableHlo.unary main_cst_17 main_v147 (broadcastInDim S64 ![] bcast_S_S64 : (⟨S_, .f32⟩ : BufTy).Contents (Elt F) → (⟨S64, .f32⟩ : BufTy).Contents (Elt F)),
    StableHlo.binary main_v146 main_v147 main_v148 (Host.divf : (⟨S64, .f32⟩ : BufTy).Contents (Elt F) → (⟨S64, .f32⟩ : BufTy).Contents (Elt F) → (⟨S64, .f32⟩ : BufTy).Contents (Elt F)),
    StableHlo.nullary main_c_18 (constantI S_ 32 0#32),
    StableHlo.TRef.nullary main_call6.cst (constant S_ .f32 0x00000000#32),
    StableHlo.TRef.binary (.of main_v141) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (.of main_v141) main_call6.v4 main_call6.v5 subf,
    StableHlo.TRef.binary main_call6.v5 main_call6.v5 main_call6.v6 mulf,
    StableHlo.TRef.unary (.of main_c_18) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v148 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S50000x64 ![0, 1] bcast_S1x64_S50000x64_0_1 : (⟨S1x64, .f32⟩ : BufTy).Contents (Elt F) → (⟨S50000x64, .f32⟩ : BufTy).Contents (Elt F)),
    StableHlo.binary main_v141 main_v151 main_v152 (subf : (⟨S50000x64, .f32⟩ : BufTy).Contents (Elt F) → (⟨S50000x64, .f32⟩ : BufTy).Contents (Elt F) → (⟨S50000x64, .f32⟩ : BufTy).Contents (Elt F)),
    StableHlo.nullary main_cst_19 (constant S_ .f32 0x3727C5AC#32),
    StableHlo.unary main_cst_19 main_v153 (broadcastInDim S64 ![] bcast_S_S64 : (⟨S_, .f32⟩ : BufTy).Contents (Elt F) → (⟨S64, .f32⟩ : BufTy).Contents (Elt F)),
    StableHlo.binary main_v149 main_v153 main_v154 (addf : (⟨S64, .f32⟩ : BufTy).Contents (Elt F) → (⟨S64, .f32⟩ : BufTy).Contents (Elt F) → (⟨S64, .f32⟩ : BufTy).Contents (Elt F)),
    StableHlo.unary main_v154 main_v155 (Host.rsqrt : (⟨S64, .f32⟩ : BufTy).Contents (Elt F) → (⟨S64, .f32⟩ : BufTy).Contents (Elt F)),
    StableHlo.unary main_v155 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S50000x64 ![0, 1] bcast_S1x64_S50000x64_0_1 : (⟨S1x64, .f32⟩ : BufTy).Contents (Elt F) → (⟨S50000x64, .f32⟩ : BufTy).Contents (Elt F)) ]

theorem ops2_sub : (ops2 : List (HloOp τ sig (Elt F))).Forall fun op => op.bufs ⊆ tcRefs τ sig :=
  ⟨reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

/-- The operations of @main's window 3, calls inlined (83 operations). -/
abbrev ops3 : List (HloOp τ sig (Elt F)) :=
  [ StableHlo.binary main_v152 main_v157 main_v158 (mulf : (⟨S50000x64, .f32⟩ : BufTy).Contents (Elt F) → (⟨S50000x64, .f32⟩ : BufTy).Contents (Elt F) → (⟨S50000x64, .f32⟩ : BufTy).Contents (Elt F)),
    StableHlo.unary main_v143 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S50000x64 ![0, 1] bcast_S1x64_S50000x64_0_1 : (⟨S1x64, .f32⟩ : BufTy).Contents (Elt F) → (⟨S50000x64, .f32⟩ : BufTy).Contents (Elt F)),
    StableHlo.binary main_v158 main_v160 main_v161 (mulf : (⟨S50000x64, .f32⟩ : BufTy).Contents (Elt F) → (⟨S50000x64, .f32⟩ : BufTy).Contents (Elt F) → (⟨S50000x64, .f32⟩ : BufTy).Contents (Elt F)),
    StableHlo.unary main_v145 main_v162 (broadcastInDim S1x64 ![1] bcast_S64_S1x64_1 : (⟨S64, .f32⟩ : BufTy).Contents (Elt F) → (⟨S1x64, .f32⟩ : BufTy).Contents (Elt F)),
    StableHlo.unary main_v162 main_v163 (broadcastInDim S50000x64 ![0, 1] bcast_S1x64_S50000x64_0_1 : (⟨S1x64, .f32⟩ : BufTy).Contents (Elt F) → (⟨S50000x64, .f32⟩ : BufTy).Contents (Elt F)),
    StableHlo.binary main_v161 main_v163 main_v164 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (.of main_v164) main_call7.v0 main_call7.v1 maximumf,
    StableHlo.binary main_v165 main_v87 main_v166 (addf : (⟨S50000x64, .f32⟩ : BufTy).Contents (Elt F) → (⟨S50000x64, .f32⟩ : BufTy).Contents (Elt F) → (⟨S50000x64, .f32⟩ : BufTy).Contents (Elt F)),
    StableHlo.nullary main_c_20 (constantI S_ 32 0#32),
    StableHlo.unary main_c_20 main_v167 (broadcastInDim S800000 ![] bcast_S_S800000 : (⟨S_, .i32⟩ : BufTy).Contents (Elt F) → (⟨S800000, .i32⟩ : BufTy).Contents (Elt F)),
    StableHlo.binary main_v6 main_v167 main_v168 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v169 (broadcastInDim S800000 ![] bcast_S_S800000 : (⟨S_, .i32⟩ : BufTy).Contents (Elt F) → (⟨S800000, .i32⟩ : BufTy).Contents (Elt F)),
    StableHlo.binary main_v6 main_v169 main_v170 (addi : (⟨S800000, .i32⟩ : BufTy).Contents (Elt F) → (⟨S800000, .i32⟩ : BufTy).Contents (Elt F) → (⟨S800000, .i32⟩ : BufTy).Contents (Elt F)),
    StableHlo.ternary main_v168 main_v170 main_v6 main_v171 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v171 main_v172 (broadcastInDim S800000x1 ![0] bcast_S800000_S800000x1_0 : (⟨S800000, .i32⟩ : BufTy).Contents (Elt F) → (⟨S800000x1, .i32⟩ : BufTy).Contents (Elt F)),
    StableHlo.binary main_v166 main_v172 main_v173 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg3 main_v174 (broadcastInDim S800000x1 ![0] bcast_S800000_S800000x1_0 : (⟨S800000, .f32⟩ : BufTy).Contents (Elt F) → (⟨S800000x1, .f32⟩ : BufTy).Contents (Elt F)),
    StableHlo.unary main_v174 main_v175 (broadcastInDim S800000x64 ![0, 1] bcast_S800000x1_S800000x64_0_1 : (⟨S800000x1, .f32⟩ : BufTy).Contents (Elt F) → (⟨S800000x64, .f32⟩ : BufTy).Contents (Elt F)),
    StableHlo.binary main_v173 main_v175 main_v176 (mulf : (⟨S800000x64, .f32⟩ : BufTy).Contents (Elt F) → (⟨S800000x64, .f32⟩ : BufTy).Contents (Elt F) → (⟨S800000x64, .f32⟩ : BufTy).Contents (Elt F)),
    StableHlo.nullary main_cst_22 (constant S_ .f32 0x00000000#32),
    StableHlo.unary main_cst_22 main_v177 (broadcastInDim S50000x64 ![] bcast_S_S50000x64 : (⟨S_, .f32⟩ : BufTy).Contents (Elt F) → (⟨S50000x64, .f32⟩ : BufTy).Contents (Elt F)),
    StableHlo.unary main_v8 main_v178 (broadcastInDim S800000x1 ![0] bcast_S800000_S800000x1_0 : (⟨S800000, .i32⟩ : BufTy).Contents (Elt F) → (⟨S800000x1, .i32⟩ : BufTy).Contents (Elt F)),
    StableHlo.ternary main_v177 main_v178 main_v176 main_v179 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v179 main_v166 main_v180 (addf : (⟨S50000x64, .f32⟩ : BufTy).Contents (Elt F) → (⟨S50000x64, .f32⟩ : BufTy).Contents (Elt F) → (⟨S50000x64, .f32⟩ : BufTy).Contents (Elt F)),
    StableHlo.unary main_arg6 main_v181 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v181 main_v182 rfl shapeCasts_S1x64x64_S64x64,
    StableHlo.binary main_v180 main_v182 main_v183 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v184 ((extractStridedSlice S1x64 ![2, 0] · slices_S4x64_S1x64_2_0) : (⟨S4x64, .f32⟩ : BufTy).Contents (Elt F) → (⟨S1x64, .f32⟩ : BufTy).Contents (Elt F)),
    StableHlo.reshape main_v184 main_v185 rfl shapeCasts_S1x64_S64,
    StableHlo.unary main_v185 main_v186 (broadcastInDim S1x64 ![1] bcast_S64_S1x64_1 : (⟨S64, .f32⟩ : BufTy).Contents (Elt F) → (⟨S1x64, .f32⟩ : BufTy).Contents (Elt F)),
    StableHlo.unary main_v186 main_v187 (broadcastInDim S50000x64 ![0, 1] bcast_S1x64_S50000x64_0_1 : (⟨S1x64, .f32⟩ : BufTy).Contents (Elt F) → (⟨S50000x64, .f32⟩ : BufTy).Contents (Elt F)),
    StableHlo.binary main_v183 main_v187 main_v188 (addf : (⟨S50000x64, .f32⟩ : BufTy).Contents (Elt F) → (⟨S50000x64, .f32⟩ : BufTy).Contents (Elt F) → (⟨S50000x64, .f32⟩ : BufTy).Contents (Elt F)),
    StableHlo.unary main_arg8 main_v189 ((extractStridedSlice S1x64 ![2, 0] · slices_S4x64_S1x64_2_0) : (⟨S4x64, .f32⟩ : BufTy).Contents (Elt F) → (⟨S1x64, .f32⟩ : BufTy).Contents (Elt F)),
    StableHlo.reshape main_v189 main_v190 rfl shapeCasts_S1x64_S64,
    StableHlo.unary main_arg9 main_v191 ((extractStridedSlice S1x64 ![2, 0] · slices_S4x64_S1x64_2_0) : (⟨S4x64, .f32⟩ : BufTy).Contents (Elt F) → (⟨S1x64, .f32⟩ : BufTy).Contents (Elt F)),
    StableHlo.reshape main_v191 main_v192 rfl shapeCasts_S1x64_S64,
    StableHlo.nullary main_cst_23 (constant S_ .f32 0x00000000#32),
    StableHlo.binary main_v188 main_cst_23 main_v193 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_24 (constant S_ .f32 0x47435000#32),
    StableHlo.unary main_cst_24 main_v194 (broadcastInDim S64 ![] bcast_S_S64 : (⟨S_, .f32⟩ : BufTy).Contents (Elt F) → (⟨S64, .f32⟩ : BufTy).Contents (Elt F)),
    StableHlo.binary main_v193 main_v194 main_v195 (Host.divf : (⟨S64, .f32⟩ : BufTy).Contents (Elt F) → (⟨S64, .f32⟩ : BufTy).Contents (Elt F) → (⟨S64, .f32⟩ : BufTy).Contents (Elt F)),
    StableHlo.nullary main_c_25 (constantI S_ 32 0#32),
    StableHlo.TRef.nullary main_call8.cst (constant S_ .f32 0x00000000#32),
    StableHlo.TRef.binary (.of main_v188) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v188) main_call8.v4 main_call8.v5 subf,
    StableHlo.TRef.binary main_call8.v5 main_call8.v5 main_call8.v6 mulf,
    StableHlo.TRef.unary (.of main_c_25) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v195 main_v197 (broadcastInDim S1x64 ![1] bcast_S64_S1x64_1 : (⟨S64, .f32⟩ : BufTy).Contents (Elt F) → (⟨S1x64, .f32⟩ : BufTy).Contents (Elt F)),
    StableHlo.unary main_v197 main_v198 (broadcastInDim S50000x64 ![0, 1] bcast_S1x64_S50000x64_0_1 : (⟨S1x64, .f32⟩ : BufTy).Contents (Elt F) → (⟨S50000x64, .f32⟩ : BufTy).Contents (Elt F)),
    StableHlo.binary main_v188 main_v198 main_v199 (subf : (⟨S50000x64, .f32⟩ : BufTy).Contents (Elt F) → (⟨S50000x64, .f32⟩ : BufTy).Contents (Elt F) → (⟨S50000x64, .f32⟩ : BufTy).Contents (Elt F)),
    StableHlo.nullary main_cst_26 (constant S_ .f32 0x3727C5AC#32),
    StableHlo.unary main_cst_26 main_v200 (broadcastInDim S64 ![] bcast_S_S64 : (⟨S_, .f32⟩ : BufTy).Contents (Elt F) → (⟨S64, .f32⟩ : BufTy).Contents (Elt F)),
    StableHlo.binary main_v196 main_v200 main_v201 (addf : (⟨S64, .f32⟩ : BufTy).Contents (Elt F) → (⟨S64, .f32⟩ : BufTy).Contents (Elt F) → (⟨S64, .f32⟩ : BufTy).Contents (Elt F)),
    StableHlo.unary main_v201 main_v202 (Host.rsqrt : (⟨S64, .f32⟩ : BufTy).Contents (Elt F) → (⟨S64, .f32⟩ : BufTy).Contents (Elt F)),
    StableHlo.unary main_v202 main_v203 (broadcastInDim S1x64 ![1] bcast_S64_S1x64_1 : (⟨S64, .f32⟩ : BufTy).Contents (Elt F) → (⟨S1x64, .f32⟩ : BufTy).Contents (Elt F)),
    StableHlo.unary main_v203 main_v204 (broadcastInDim S50000x64 ![0, 1] bcast_S1x64_S50000x64_0_1 : (⟨S1x64, .f32⟩ : BufTy).Contents (Elt F) → (⟨S50000x64, .f32⟩ : BufTy).Contents (Elt F)),
    StableHlo.binary main_v199 main_v204 main_v205 (mulf : (⟨S50000x64, .f32⟩ : BufTy).Contents (Elt F) → (⟨S50000x64, .f32⟩ : BufTy).Contents (Elt F) → (⟨S50000x64, .f32⟩ : BufTy).Contents (Elt F)),
    StableHlo.unary main_v190 main_v206 (broadcastInDim S1x64 ![1] bcast_S64_S1x64_1 : (⟨S64, .f32⟩ : BufTy).Contents (Elt F) → (⟨S1x64, .f32⟩ : BufTy).Contents (Elt F)),
    StableHlo.unary main_v206 main_v207 (broadcastInDim S50000x64 ![0, 1] bcast_S1x64_S50000x64_0_1 : (⟨S1x64, .f32⟩ : BufTy).Contents (Elt F) → (⟨S50000x64, .f32⟩ : BufTy).Contents (Elt F)),
    StableHlo.binary main_v205 main_v207 main_v208 (mulf : (⟨S50000x64, .f32⟩ : BufTy).Contents (Elt F) → (⟨S50000x64, .f32⟩ : BufTy).Contents (Elt F) → (⟨S50000x64, .f32⟩ : BufTy).Contents (Elt F)),
    StableHlo.unary main_v192 main_v209 (broadcastInDim S1x64 ![1] bcast_S64_S1x64_1 : (⟨S64, .f32⟩ : BufTy).Contents (Elt F) → (⟨S1x64, .f32⟩ : BufTy).Contents (Elt F)),
    StableHlo.unary main_v209 main_v210 (broadcastInDim S50000x64 ![0, 1] bcast_S1x64_S50000x64_0_1 : (⟨S1x64, .f32⟩ : BufTy).Contents (Elt F) → (⟨S50000x64, .f32⟩ : BufTy).Contents (Elt F)) ]

theorem ops3_sub : (ops3 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

/-- The operations of @main's window 4, calls inlined (85 operations). -/
abbrev ops4 : List (HloOp τ sig (Elt F)) :=
  [ StableHlo.binary main_v208 main_v210 main_v211 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v211) main_call9.v0 main_call9.v1 maximumf,
    StableHlo.unary main_arg10 main_v213 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v213 main_v214 rfl shapeCasts_S1x64x64_S64x64,
    StableHlo.binary main_v212 main_v214 main_v215 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v216 ((extractStridedSlice S1x64 ![2, 0] · slices_S4x64_S1x64_2_0) : (⟨S4x64, .f32⟩ : BufTy).Contents (Elt F) → (⟨S1x64, .f32⟩ : BufTy).Contents (Elt F)),
    StableHlo.reshape main_v216 main_v217 rfl shapeCasts_S1x64_S64,
    StableHlo.unary main_v217 main_v218 (broadcastInDim S1x64 ![1] bcast_S64_S1x64_1 : (⟨S64, .f32⟩ : BufTy).Contents (Elt F) → (⟨S1x64, .f32⟩ : BufTy).Contents (Elt F)),
    StableHlo.unary main_v218 main_v219 (broadcastInDim S50000x64 ![0, 1] bcast_S1x64_S50000x64_0_1 : (⟨S1x64, .f32⟩ : BufTy).Contents (Elt F) → (⟨S50000x64, .f32⟩ : BufTy).Contents (Elt F)),
    StableHlo.binary main_v215 main_v219 main_v220 (addf : (⟨S50000x64, .f32⟩ : BufTy).Contents (Elt F) → (⟨S50000x64, .f32⟩ : BufTy).Contents (Elt F) → (⟨S50000x64, .f32⟩ : BufTy).Contents (Elt F)),
    StableHlo.unary main_arg12 main_v221 ((extractStridedSlice S1x64 ![2, 0] · slices_S4x64_S1x64_2_0) : (⟨S4x64, .f32⟩ : BufTy).Contents (Elt F) → (⟨S1x64, .f32⟩ : BufTy).Contents (Elt F)),
    StableHlo.reshape main_v221 main_v222 rfl shapeCasts_S1x64_S64,
    StableHlo.unary main_arg13 main_v223 ((extractStridedSlice S1x64 ![2, 0] · slices_S4x64_S1x64_2_0) : (⟨S4x64, .f32⟩ : BufTy).Contents (Elt F) → (⟨S1x64, .f32⟩ : BufTy).Contents (Elt F)),
    StableHlo.reshape main_v223 main_v224 rfl shapeCasts_S1x64_S64,
    StableHlo.nullary main_cst_27 (constant S_ .f32 0x00000000#32),
    StableHlo.binary main_v220 main_cst_27 main_v225 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_28 (constant S_ .f32 0x47435000#32),
    StableHlo.unary main_cst_28 main_v226 (broadcastInDim S64 ![] bcast_S_S64 : (⟨S_, .f32⟩ : BufTy).Contents (Elt F) → (⟨S64, .f32⟩ : BufTy).Contents (Elt F)),
    StableHlo.binary main_v225 main_v226 main_v227 (Host.divf : (⟨S64, .f32⟩ : BufTy).Contents (Elt F) → (⟨S64, .f32⟩ : BufTy).Contents (Elt F) → (⟨S64, .f32⟩ : BufTy).Contents (Elt F)),
    StableHlo.nullary main_c_29 (constantI S_ 32 0#32),
    StableHlo.TRef.nullary main_call10.cst (constant S_ .f32 0x00000000#32),
    StableHlo.TRef.binary (.of main_v220) main_call10.cst main_call10.v0 (fun x v => Host.reduceAdd x v reducesTo_S50000x64_S64_d0 h_S_),
    StableHlo.TRef.unary main_call10.v0 main_call10.v1 (broadcastInDim S1x64 ![1] bcast_S64_S1x64_1),
    StableHlo.TRef.nullary main_call10.cst_0 (constant S_ .f32 0x47435000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S50000x64 ![0, 1] bcast_S1x64_S50000x64_0_1),
    StableHlo.TRef.binary (.of main_v220) main_call10.v4 main_call10.v5 subf,
    StableHlo.TRef.binary main_call10.v5 main_call10.v5 main_call10.v6 mulf,
    StableHlo.TRef.unary (.of main_c_29) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v227 main_v229 (broadcastInDim S1x64 ![1] bcast_S64_S1x64_1 : (⟨S64, .f32⟩ : BufTy).Contents (Elt F) → (⟨S1x64, .f32⟩ : BufTy).Contents (Elt F)),
    StableHlo.unary main_v229 main_v230 (broadcastInDim S50000x64 ![0, 1] bcast_S1x64_S50000x64_0_1 : (⟨S1x64, .f32⟩ : BufTy).Contents (Elt F) → (⟨S50000x64, .f32⟩ : BufTy).Contents (Elt F)),
    StableHlo.binary main_v220 main_v230 main_v231 (subf : (⟨S50000x64, .f32⟩ : BufTy).Contents (Elt F) → (⟨S50000x64, .f32⟩ : BufTy).Contents (Elt F) → (⟨S50000x64, .f32⟩ : BufTy).Contents (Elt F)),
    StableHlo.nullary main_cst_30 (constant S_ .f32 0x3727C5AC#32),
    StableHlo.unary main_cst_30 main_v232 (broadcastInDim S64 ![] bcast_S_S64 : (⟨S_, .f32⟩ : BufTy).Contents (Elt F) → (⟨S64, .f32⟩ : BufTy).Contents (Elt F)),
    StableHlo.binary main_v228 main_v232 main_v233 (addf : (⟨S64, .f32⟩ : BufTy).Contents (Elt F) → (⟨S64, .f32⟩ : BufTy).Contents (Elt F) → (⟨S64, .f32⟩ : BufTy).Contents (Elt F)),
    StableHlo.unary main_v233 main_v234 (Host.rsqrt : (⟨S64, .f32⟩ : BufTy).Contents (Elt F) → (⟨S64, .f32⟩ : BufTy).Contents (Elt F)),
    StableHlo.unary main_v234 main_v235 (broadcastInDim S1x64 ![1] bcast_S64_S1x64_1 : (⟨S64, .f32⟩ : BufTy).Contents (Elt F) → (⟨S1x64, .f32⟩ : BufTy).Contents (Elt F)),
    StableHlo.unary main_v235 main_v236 (broadcastInDim S50000x64 ![0, 1] bcast_S1x64_S50000x64_0_1 : (⟨S1x64, .f32⟩ : BufTy).Contents (Elt F) → (⟨S50000x64, .f32⟩ : BufTy).Contents (Elt F)),
    StableHlo.binary main_v231 main_v236 main_v237 (mulf : (⟨S50000x64, .f32⟩ : BufTy).Contents (Elt F) → (⟨S50000x64, .f32⟩ : BufTy).Contents (Elt F) → (⟨S50000x64, .f32⟩ : BufTy).Contents (Elt F)),
    StableHlo.unary main_v222 main_v238 (broadcastInDim S1x64 ![1] bcast_S64_S1x64_1 : (⟨S64, .f32⟩ : BufTy).Contents (Elt F) → (⟨S1x64, .f32⟩ : BufTy).Contents (Elt F)),
    StableHlo.unary main_v238 main_v239 (broadcastInDim S50000x64 ![0, 1] bcast_S1x64_S50000x64_0_1 : (⟨S1x64, .f32⟩ : BufTy).Contents (Elt F) → (⟨S50000x64, .f32⟩ : BufTy).Contents (Elt F)),
    StableHlo.binary main_v237 main_v239 main_v240 (mulf : (⟨S50000x64, .f32⟩ : BufTy).Contents (Elt F) → (⟨S50000x64, .f32⟩ : BufTy).Contents (Elt F) → (⟨S50000x64, .f32⟩ : BufTy).Contents (Elt F)),
    StableHlo.unary main_v224 main_v241 (broadcastInDim S1x64 ![1] bcast_S64_S1x64_1 : (⟨S64, .f32⟩ : BufTy).Contents (Elt F) → (⟨S1x64, .f32⟩ : BufTy).Contents (Elt F)),
    StableHlo.unary main_v241 main_v242 (broadcastInDim S50000x64 ![0, 1] bcast_S1x64_S50000x64_0_1 : (⟨S1x64, .f32⟩ : BufTy).Contents (Elt F) → (⟨S50000x64, .f32⟩ : BufTy).Contents (Elt F)),
    StableHlo.binary main_v240 main_v242 main_v243 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (.of main_v243) main_call11.v0 main_call11.v1 maximumf,
    StableHlo.binary main_v244 main_v166 main_v245 (addf : (⟨S50000x64, .f32⟩ : BufTy).Contents (Elt F) → (⟨S50000x64, .f32⟩ : BufTy).Contents (Elt F) → (⟨S50000x64, .f32⟩ : BufTy).Contents (Elt F)),
    StableHlo.nullary main_c_31 (constantI S_ 32 0#32),
    StableHlo.unary main_c_31 main_v246 (broadcastInDim S800000 ![] bcast_S_S800000 : (⟨S_, .i32⟩ : BufTy).Contents (Elt F) → (⟨S800000, .i32⟩ : BufTy).Contents (Elt F)),
    StableHlo.binary main_v6 main_v246 main_v247 (cmpi .slt : (⟨S800000, .i32⟩ : BufTy).Contents (Elt F) → (⟨S800000, .i32⟩ : BufTy).Contents (Elt F) → (⟨S800000, .i1⟩ : BufTy).Contents (Elt F)),
    StableHlo.nullary main_c_32 (constantI S_ 32 50000#32),
    StableHlo.unary main_c_32 main_v248 (broadcastInDim S800000 ![] bcast_S_S800000 : (⟨S_, .i32⟩ : BufTy).Contents (Elt F) → (⟨S800000, .i32⟩ : BufTy).Contents (Elt F)),
    StableHlo.binary main_v6 main_v248 main_v249 (addi : (⟨S800000, .i32⟩ : BufTy).Contents (Elt F) → (⟨S800000, .i32⟩ : BufTy).Contents (Elt F) → (⟨S800000, .i32⟩ : BufTy).Contents (Elt F)),
    StableHlo.ternary main_v247 main_v249 main_v6 main_v250 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v250 main_v251 (broadcastInDim S800000x1 ![0] bcast_S800000_S800000x1_0 : (⟨S800000, .i32⟩ : BufTy).Contents (Elt F) → (⟨S800000x1, .i32⟩ : BufTy).Contents (Elt F)),
    StableHlo.binary main_v245 main_v251 main_v252 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg3 main_v253 (broadcastInDim S800000x1 ![0] bcast_S800000_S800000x1_0 : (⟨S800000, .f32⟩ : BufTy).Contents (Elt F) → (⟨S800000x1, .f32⟩ : BufTy).Contents (Elt F)),
    StableHlo.unary main_v253 main_v254 (broadcastInDim S800000x64 ![0, 1] bcast_S800000x1_S800000x64_0_1 : (⟨S800000x1, .f32⟩ : BufTy).Contents (Elt F) → (⟨S800000x64, .f32⟩ : BufTy).Contents (Elt F)),
    StableHlo.binary main_v252 main_v254 main_v255 (mulf : (⟨S800000x64, .f32⟩ : BufTy).Contents (Elt F) → (⟨S800000x64, .f32⟩ : BufTy).Contents (Elt F) → (⟨S800000x64, .f32⟩ : BufTy).Contents (Elt F)),
    StableHlo.nullary main_cst_33 (constant S_ .f32 0x00000000#32),
    StableHlo.unary main_cst_33 main_v256 (broadcastInDim S50000x64 ![] bcast_S_S50000x64 : (⟨S_, .f32⟩ : BufTy).Contents (Elt F) → (⟨S50000x64, .f32⟩ : BufTy).Contents (Elt F)),
    StableHlo.unary main_v8 main_v257 (broadcastInDim S800000x1 ![0] bcast_S800000_S800000x1_0 : (⟨S800000, .i32⟩ : BufTy).Contents (Elt F) → (⟨S800000x1, .i32⟩ : BufTy).Contents (Elt F)),
    StableHlo.ternary main_v256 main_v257 main_v255 main_v258 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v258 main_v245 main_v259 (addf : (⟨S50000x64, .f32⟩ : BufTy).Contents (Elt F) → (⟨S50000x64, .f32⟩ : BufTy).Contents (Elt F) → (⟨S50000x64, .f32⟩ : BufTy).Contents (Elt F)),
    StableHlo.unary main_arg6 main_v260 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v260 main_v261 rfl shapeCasts_S1x64x64_S64x64,
    StableHlo.binary main_v259 main_v261 main_v262 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v263 ((extractStridedSlice S1x64 ![3, 0] · slices_S4x64_S1x64_3_0) : (⟨S4x64, .f32⟩ : BufTy).Contents (Elt F) → (⟨S1x64, .f32⟩ : BufTy).Contents (Elt F)) ]

theorem ops4_sub : (ops4 : List (HloOp τ sig (Elt F))).Forall fun op => op.bufs ⊆ tcRefs τ sig :=
  ⟨binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub ..⟩

/-- The operations of @main's window 5, calls inlined (104 operations). -/
abbrev ops5 : List (HloOp τ sig (Elt F)) :=
  [ StableHlo.reshape main_v263 main_v264 rfl shapeCasts_S1x64_S64,
    StableHlo.unary main_v264 main_v265 (broadcastInDim S1x64 ![1] bcast_S64_S1x64_1 : (⟨S64, .f32⟩ : BufTy).Contents (Elt F) → (⟨S1x64, .f32⟩ : BufTy).Contents (Elt F)),
    StableHlo.unary main_v265 main_v266 (broadcastInDim S50000x64 ![0, 1] bcast_S1x64_S50000x64_0_1 : (⟨S1x64, .f32⟩ : BufTy).Contents (Elt F) → (⟨S50000x64, .f32⟩ : BufTy).Contents (Elt F)),
    StableHlo.binary main_v262 main_v266 main_v267 (addf : (⟨S50000x64, .f32⟩ : BufTy).Contents (Elt F) → (⟨S50000x64, .f32⟩ : BufTy).Contents (Elt F) → (⟨S50000x64, .f32⟩ : BufTy).Contents (Elt F)),
    StableHlo.unary main_arg8 main_v268 ((extractStridedSlice S1x64 ![3, 0] · slices_S4x64_S1x64_3_0) : (⟨S4x64, .f32⟩ : BufTy).Contents (Elt F) → (⟨S1x64, .f32⟩ : BufTy).Contents (Elt F)),
    StableHlo.reshape main_v268 main_v269 rfl shapeCasts_S1x64_S64,
    StableHlo.unary main_arg9 main_v270 ((extractStridedSlice S1x64 ![3, 0] · slices_S4x64_S1x64_3_0) : (⟨S4x64, .f32⟩ : BufTy).Contents (Elt F) → (⟨S1x64, .f32⟩ : BufTy).Contents (Elt F)),
    StableHlo.reshape main_v270 main_v271 rfl shapeCasts_S1x64_S64,
    StableHlo.nullary main_cst_34 (constant S_ .f32 0x00000000#32),
    StableHlo.binary main_v267 main_cst_34 main_v272 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_35 (constant S_ .f32 0x47435000#32),
    StableHlo.unary main_cst_35 main_v273 (broadcastInDim S64 ![] bcast_S_S64 : (⟨S_, .f32⟩ : BufTy).Contents (Elt F) → (⟨S64, .f32⟩ : BufTy).Contents (Elt F)),
    StableHlo.binary main_v272 main_v273 main_v274 (Host.divf : (⟨S64, .f32⟩ : BufTy).Contents (Elt F) → (⟨S64, .f32⟩ : BufTy).Contents (Elt F) → (⟨S64, .f32⟩ : BufTy).Contents (Elt F)),
    StableHlo.nullary main_c_36 (constantI S_ 32 0#32),
    StableHlo.TRef.nullary main_call12.cst (constant S_ .f32 0x00000000#32),
    StableHlo.TRef.binary (.of main_v267) main_call12.cst main_call12.v0 (fun x v => Host.reduceAdd x v reducesTo_S50000x64_S64_d0 h_S_),
    StableHlo.TRef.unary main_call12.v0 main_call12.v1 (broadcastInDim S1x64 ![1] bcast_S64_S1x64_1),
    StableHlo.TRef.nullary main_call12.cst_0 (constant S_ .f32 0x47435000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S50000x64 ![0, 1] bcast_S1x64_S50000x64_0_1),
    StableHlo.TRef.binary (.of main_v267) main_call12.v4 main_call12.v5 subf,
    StableHlo.TRef.binary main_call12.v5 main_call12.v5 main_call12.v6 mulf,
    StableHlo.TRef.unary (.of main_c_36) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S64 ![] bcast_S_S64),
    StableHlo.TRef.ternary main_call12.v12 main_call12.v11 main_call12.call0.v1 main_call12.call0.v2 (fun p a b => select (broadcastInDim S64 ![] bcast_S_S64 p) a b),
    StableHlo.unary main_v274 main_v276 (broadcastInDim S1x64 ![1] bcast_S64_S1x64_1 : (⟨S64, .f32⟩ : BufTy).Contents (Elt F) → (⟨S1x64, .f32⟩ : BufTy).Contents (Elt F)),
    StableHlo.unary main_v276 main_v277 (broadcastInDim S50000x64 ![0, 1] bcast_S1x64_S50000x64_0_1 : (⟨S1x64, .f32⟩ : BufTy).Contents (Elt F) → (⟨S50000x64, .f32⟩ : BufTy).Contents (Elt F)),
    StableHlo.binary main_v267 main_v277 main_v278 (subf : (⟨S50000x64, .f32⟩ : BufTy).Contents (Elt F) → (⟨S50000x64, .f32⟩ : BufTy).Contents (Elt F) → (⟨S50000x64, .f32⟩ : BufTy).Contents (Elt F)),
    StableHlo.nullary main_cst_37 (constant S_ .f32 0x3727C5AC#32),
    StableHlo.unary main_cst_37 main_v279 (broadcastInDim S64 ![] bcast_S_S64 : (⟨S_, .f32⟩ : BufTy).Contents (Elt F) → (⟨S64, .f32⟩ : BufTy).Contents (Elt F)),
    StableHlo.binary main_v275 main_v279 main_v280 (addf : (⟨S64, .f32⟩ : BufTy).Contents (Elt F) → (⟨S64, .f32⟩ : BufTy).Contents (Elt F) → (⟨S64, .f32⟩ : BufTy).Contents (Elt F)),
    StableHlo.unary main_v280 main_v281 (Host.rsqrt : (⟨S64, .f32⟩ : BufTy).Contents (Elt F) → (⟨S64, .f32⟩ : BufTy).Contents (Elt F)),
    StableHlo.unary main_v281 main_v282 (broadcastInDim S1x64 ![1] bcast_S64_S1x64_1 : (⟨S64, .f32⟩ : BufTy).Contents (Elt F) → (⟨S1x64, .f32⟩ : BufTy).Contents (Elt F)),
    StableHlo.unary main_v282 main_v283 (broadcastInDim S50000x64 ![0, 1] bcast_S1x64_S50000x64_0_1 : (⟨S1x64, .f32⟩ : BufTy).Contents (Elt F) → (⟨S50000x64, .f32⟩ : BufTy).Contents (Elt F)),
    StableHlo.binary main_v278 main_v283 main_v284 (mulf : (⟨S50000x64, .f32⟩ : BufTy).Contents (Elt F) → (⟨S50000x64, .f32⟩ : BufTy).Contents (Elt F) → (⟨S50000x64, .f32⟩ : BufTy).Contents (Elt F)),
    StableHlo.unary main_v269 main_v285 (broadcastInDim S1x64 ![1] bcast_S64_S1x64_1 : (⟨S64, .f32⟩ : BufTy).Contents (Elt F) → (⟨S1x64, .f32⟩ : BufTy).Contents (Elt F)),
    StableHlo.unary main_v285 main_v286 (broadcastInDim S50000x64 ![0, 1] bcast_S1x64_S50000x64_0_1 : (⟨S1x64, .f32⟩ : BufTy).Contents (Elt F) → (⟨S50000x64, .f32⟩ : BufTy).Contents (Elt F)),
    StableHlo.binary main_v284 main_v286 main_v287 (mulf : (⟨S50000x64, .f32⟩ : BufTy).Contents (Elt F) → (⟨S50000x64, .f32⟩ : BufTy).Contents (Elt F) → (⟨S50000x64, .f32⟩ : BufTy).Contents (Elt F)),
    StableHlo.unary main_v271 main_v288 (broadcastInDim S1x64 ![1] bcast_S64_S1x64_1 : (⟨S64, .f32⟩ : BufTy).Contents (Elt F) → (⟨S1x64, .f32⟩ : BufTy).Contents (Elt F)),
    StableHlo.unary main_v288 main_v289 (broadcastInDim S50000x64 ![0, 1] bcast_S1x64_S50000x64_0_1 : (⟨S1x64, .f32⟩ : BufTy).Contents (Elt F) → (⟨S50000x64, .f32⟩ : BufTy).Contents (Elt F)),
    StableHlo.binary main_v287 main_v289 main_v290 (addf : (⟨S50000x64, .f32⟩ : BufTy).Contents (Elt F) → (⟨S50000x64, .f32⟩ : BufTy).Contents (Elt F) → (⟨S50000x64, .f32⟩ : BufTy).Contents (Elt F)),
    StableHlo.TRef.nullary main_call13.cst (constant S_ .f32 0x00000000#32),
    StableHlo.TRef.unary main_call13.cst main_call13.v0 (broadcastInDim S50000x64 ![] bcast_S_S50000x64),
    StableHlo.TRef.binary (.of main_v290) main_call13.v0 main_call13.v1 maximumf,
    StableHlo.unary main_arg10 main_v292 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v292 main_v293 rfl shapeCasts_S1x64x64_S64x64,
    StableHlo.binary main_v291 main_v293 main_v294 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v295 ((extractStridedSlice S1x64 ![3, 0] · slices_S4x64_S1x64_3_0) : (⟨S4x64, .f32⟩ : BufTy).Contents (Elt F) → (⟨S1x64, .f32⟩ : BufTy).Contents (Elt F)),
    StableHlo.reshape main_v295 main_v296 rfl shapeCasts_S1x64_S64,
    StableHlo.unary main_v296 main_v297 (broadcastInDim S1x64 ![1] bcast_S64_S1x64_1 : (⟨S64, .f32⟩ : BufTy).Contents (Elt F) → (⟨S1x64, .f32⟩ : BufTy).Contents (Elt F)),
    StableHlo.unary main_v297 main_v298 (broadcastInDim S50000x64 ![0, 1] bcast_S1x64_S50000x64_0_1 : (⟨S1x64, .f32⟩ : BufTy).Contents (Elt F) → (⟨S50000x64, .f32⟩ : BufTy).Contents (Elt F)),
    StableHlo.binary main_v294 main_v298 main_v299 (addf : (⟨S50000x64, .f32⟩ : BufTy).Contents (Elt F) → (⟨S50000x64, .f32⟩ : BufTy).Contents (Elt F) → (⟨S50000x64, .f32⟩ : BufTy).Contents (Elt F)),
    StableHlo.unary main_arg12 main_v300 ((extractStridedSlice S1x64 ![3, 0] · slices_S4x64_S1x64_3_0) : (⟨S4x64, .f32⟩ : BufTy).Contents (Elt F) → (⟨S1x64, .f32⟩ : BufTy).Contents (Elt F)),
    StableHlo.reshape main_v300 main_v301 rfl shapeCasts_S1x64_S64,
    StableHlo.unary main_arg13 main_v302 ((extractStridedSlice S1x64 ![3, 0] · slices_S4x64_S1x64_3_0) : (⟨S4x64, .f32⟩ : BufTy).Contents (Elt F) → (⟨S1x64, .f32⟩ : BufTy).Contents (Elt F)),
    StableHlo.reshape main_v302 main_v303 rfl shapeCasts_S1x64_S64,
    StableHlo.nullary main_cst_38 (constant S_ .f32 0x00000000#32),
    StableHlo.binary main_v299 main_cst_38 main_v304 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_39 (constant S_ .f32 0x47435000#32),
    StableHlo.unary main_cst_39 main_v305 (broadcastInDim S64 ![] bcast_S_S64 : (⟨S_, .f32⟩ : BufTy).Contents (Elt F) → (⟨S64, .f32⟩ : BufTy).Contents (Elt F)),
    StableHlo.binary main_v304 main_v305 main_v306 (Host.divf : (⟨S64, .f32⟩ : BufTy).Contents (Elt F) → (⟨S64, .f32⟩ : BufTy).Contents (Elt F) → (⟨S64, .f32⟩ : BufTy).Contents (Elt F)),
    StableHlo.nullary main_c_40 (constantI S_ 32 0#32),
    StableHlo.TRef.nullary main_call14.cst (constant S_ .f32 0x00000000#32),
    StableHlo.TRef.binary (.of main_v299) main_call14.cst main_call14.v0 (fun x v => Host.reduceAdd x v reducesTo_S50000x64_S64_d0 h_S_),
    StableHlo.TRef.unary main_call14.v0 main_call14.v1 (broadcastInDim S1x64 ![1] bcast_S64_S1x64_1),
    StableHlo.TRef.nullary main_call14.cst_0 (constant S_ .f32 0x47435000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S50000x64 ![0, 1] bcast_S1x64_S50000x64_0_1),
    StableHlo.TRef.binary (.of main_v299) main_call14.v4 main_call14.v5 subf,
    StableHlo.TRef.binary main_call14.v5 main_call14.v5 main_call14.v6 mulf,
    StableHlo.TRef.unary (.of main_c_40) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S64 ![] bcast_S_S64),
    StableHlo.TRef.ternary main_call14.v12 main_call14.v11 main_call14.call0.v1 main_call14.call0.v2 (fun p a b => select (broadcastInDim S64 ![] bcast_S_S64 p) a b),
    StableHlo.unary main_v306 main_v308 (broadcastInDim S1x64 ![1] bcast_S64_S1x64_1 : (⟨S64, .f32⟩ : BufTy).Contents (Elt F) → (⟨S1x64, .f32⟩ : BufTy).Contents (Elt F)),
    StableHlo.unary main_v308 main_v309 (broadcastInDim S50000x64 ![0, 1] bcast_S1x64_S50000x64_0_1 : (⟨S1x64, .f32⟩ : BufTy).Contents (Elt F) → (⟨S50000x64, .f32⟩ : BufTy).Contents (Elt F)),
    StableHlo.binary main_v299 main_v309 main_v310 (subf : (⟨S50000x64, .f32⟩ : BufTy).Contents (Elt F) → (⟨S50000x64, .f32⟩ : BufTy).Contents (Elt F) → (⟨S50000x64, .f32⟩ : BufTy).Contents (Elt F)),
    StableHlo.nullary main_cst_41 (constant S_ .f32 0x3727C5AC#32),
    StableHlo.unary main_cst_41 main_v311 (broadcastInDim S64 ![] bcast_S_S64 : (⟨S_, .f32⟩ : BufTy).Contents (Elt F) → (⟨S64, .f32⟩ : BufTy).Contents (Elt F)),
    StableHlo.binary main_v307 main_v311 main_v312 (addf : (⟨S64, .f32⟩ : BufTy).Contents (Elt F) → (⟨S64, .f32⟩ : BufTy).Contents (Elt F) → (⟨S64, .f32⟩ : BufTy).Contents (Elt F)),
    StableHlo.unary main_v312 main_v313 (Host.rsqrt : (⟨S64, .f32⟩ : BufTy).Contents (Elt F) → (⟨S64, .f32⟩ : BufTy).Contents (Elt F)),
    StableHlo.unary main_v313 main_v314 (broadcastInDim S1x64 ![1] bcast_S64_S1x64_1 : (⟨S64, .f32⟩ : BufTy).Contents (Elt F) → (⟨S1x64, .f32⟩ : BufTy).Contents (Elt F)),
    StableHlo.unary main_v314 main_v315 (broadcastInDim S50000x64 ![0, 1] bcast_S1x64_S50000x64_0_1 : (⟨S1x64, .f32⟩ : BufTy).Contents (Elt F) → (⟨S50000x64, .f32⟩ : BufTy).Contents (Elt F)) ]

theorem ops5_sub : (ops5 : List (HloOp τ sig (Elt F))).Forall fun op => op.bufs ⊆ tcRefs τ sig :=
  ⟨reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

/-- The operations of @main's window 6, calls inlined (11 operations). -/
abbrev ops6 : List (HloOp τ sig (Elt F)) :=
  [ StableHlo.binary main_v310 main_v315 main_v316 (mulf : (⟨S50000x64, .f32⟩ : BufTy).Contents (Elt F) → (⟨S50000x64, .f32⟩ : BufTy).Contents (Elt F) → (⟨S50000x64, .f32⟩ : BufTy).Contents (Elt F)),
    StableHlo.unary main_v301 main_v317 (broadcastInDim S1x64 ![1] bcast_S64_S1x64_1 : (⟨S64, .f32⟩ : BufTy).Contents (Elt F) → (⟨S1x64, .f32⟩ : BufTy).Contents (Elt F)),
    StableHlo.unary main_v317 main_v318 (broadcastInDim S50000x64 ![0, 1] bcast_S1x64_S50000x64_0_1 : (⟨S1x64, .f32⟩ : BufTy).Contents (Elt F) → (⟨S50000x64, .f32⟩ : BufTy).Contents (Elt F)),
    StableHlo.binary main_v316 main_v318 main_v319 (mulf : (⟨S50000x64, .f32⟩ : BufTy).Contents (Elt F) → (⟨S50000x64, .f32⟩ : BufTy).Contents (Elt F) → (⟨S50000x64, .f32⟩ : BufTy).Contents (Elt F)),
    StableHlo.unary main_v303 main_v320 (broadcastInDim S1x64 ![1] bcast_S64_S1x64_1 : (⟨S64, .f32⟩ : BufTy).Contents (Elt F) → (⟨S1x64, .f32⟩ : BufTy).Contents (Elt F)),
    StableHlo.unary main_v320 main_v321 (broadcastInDim S50000x64 ![0, 1] bcast_S1x64_S50000x64_0_1 : (⟨S1x64, .f32⟩ : BufTy).Contents (Elt F) → (⟨S50000x64, .f32⟩ : BufTy).Contents (Elt F)),
    StableHlo.binary main_v319 main_v321 main_v322 (addf : (⟨S50000x64, .f32⟩ : BufTy).Contents (Elt F) → (⟨S50000x64, .f32⟩ : BufTy).Contents (Elt F) → (⟨S50000x64, .f32⟩ : BufTy).Contents (Elt F)),
    StableHlo.TRef.nullary main_call15.cst (constant S_ .f32 0x00000000#32),
    StableHlo.TRef.unary main_call15.cst main_call15.v0 (broadcastInDim S50000x64 ![] bcast_S_S50000x64),
    StableHlo.TRef.binary (.of main_v322) main_call15.v0 main_call15.v1 maximumf,
    StableHlo.binary main_v323 main_v245 main_v324 (addf : (⟨S50000x64, .f32⟩ : BufTy).Contents (Elt F) → (⟨S50000x64, .f32⟩ : BufTy).Contents (Elt F) → (⟨S50000x64, .f32⟩ : BufTy).Contents (Elt F)) ]

theorem ops6_sub : (ops6 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

end Cert.ReferenceIdeal.Hand

end
-- ==== Proof.RefRun.lean ====
/-
  The reference program's run, read back. Its @main is a straight line of host operations once the outlined
  functions (the per-column variance with its guarded quotient, and the rectifier) are written out at their calls;
  the line is cut in the seven consecutive parts of @main. Every weakly fair execution terminates with each
  buffer at the fold of the operations over the launch contents, and no operation writes an argument.
-/
import proofs.«100402_j28432683499906_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 0 of @main is its operations in order. -/
theorem part0_eq (c : Dev nD) : main_part0 (F := F) c = seq ops0 := by
  simp only [main_part0, fn_var.body, fn_where.body, fn_relu.body, seq, bind_assoc, pure_bind]
  rfl
theorem ops0_fresh : (ops0 : List (HloOp τ sig (Elt F))).Forall fun op => op.fresh = ∅ := by
  simp only [List.Forall]; repeat' constructor

/-- Window 1 of @main is its operations in order. -/
theorem part1_eq (c : Dev nD) : main_part1 (F := F) c = seq ops1 := by
  simp only [main_part1, fn_var.body, fn_where.body, fn_relu.body, seq, bind_assoc, pure_bind]
  rfl
theorem ops1_fresh : (ops1 : List (HloOp τ sig (Elt F))).Forall fun op => op.fresh = ∅ := by
  simp only [List.Forall]; repeat' constructor

/-- Window 2 of @main is its operations in order. -/
theorem part2_eq (c : Dev nD) : main_part2 (F := F) c = seq ops2 := by
  simp only [main_part2, fn_var.body, fn_where.body, fn_relu.body, seq, bind_assoc, pure_bind]
  rfl
theorem ops2_fresh : (ops2 : List (HloOp τ sig (Elt F))).Forall fun op => op.fresh = ∅ := by
  simp only [List.Forall]; repeat' constructor

/-- Window 3 of @main is its operations in order. -/
theorem part3_eq (c : Dev nD) : main_part3 (F := F) c = seq ops3 := by
  simp only [main_part3, fn_var.body, fn_where.body, fn_relu.body, seq, bind_assoc, pure_bind]
  rfl
theorem ops3_fresh : (ops3 : List (HloOp τ sig (Elt F))).Forall fun op => op.fresh = ∅ := by
  simp only [List.Forall]; repeat' constructor

/-- Window 4 of @main is its operations in order. -/
theorem part4_eq (c : Dev nD) : main_part4 (F := F) c = seq ops4 := by
  simp only [main_part4, fn_var.body, fn_where.body, fn_relu.body, seq, bind_assoc, pure_bind]
  rfl
theorem ops4_fresh : (ops4 : List (HloOp τ sig (Elt F))).Forall fun op => op.fresh = ∅ := by
  simp only [List.Forall]; repeat' constructor

/-- Window 5 of @main is its operations in order. -/
theorem part5_eq (c : Dev nD) : main_part5 (F := F) c = seq ops5 := by
  simp only [main_part5, fn_var.body, fn_where.body, fn_relu.body, seq, bind_assoc, pure_bind]
  rfl
theorem ops5_fresh : (ops5 : List (HloOp τ sig (Elt F))).Forall fun op => op.fresh = ∅ := by
  simp only [List.Forall]; repeat' constructor

/-- Window 6 of @main is its operations in order. -/
theorem part6_eq (c : Dev nD) : main_part6 (F := F) c = seq ops6 := by
  simp only [main_part6, fn_var.body, fn_where.body, fn_relu.body, seq, bind_assoc, pure_bind]
theorem ops6_fresh : (ops6 : List (HloOp τ sig (Elt F))).Forall fun op => op.fresh = ∅ := by
  simp only [List.Forall]; repeat' constructor

/-- All of @main's operations, window after window. -/
abbrev ops : List (HloOp τ sig (Elt F)) := ops0 ++ (ops1 ++ (ops2 ++ (ops3 ++ (ops4 ++ (ops5 ++ ops6)))))

theorem main_eq (c : Dev nD) : main (F := F) c = seq ops := by
  simp only [ops, seq_append, ← part0_eq c, ← part1_eq c, ← part2_eq c, ← part3_eq c, ← part4_eq c, ← part5_eq c, ← part6_eq c]
  rfl

theorem ops_sub : (ops : List (HloOp τ sig (Elt F))).Forall fun op => op.bufs ⊆ tcRefs τ sig := by
  simp only [ops, List.forall_append]
  exact ⟨ops0_sub, ops1_sub, ops2_sub, ops3_sub, ops4_sub, ops5_sub, ops6_sub⟩

theorem ops_fresh : ∀ op ∈ (ops : List (HloOp τ sig (Elt F))), op.fresh = ∅ := by
  have h : (ops : List (HloOp τ sig (Elt F))).Forall fun op => op.fresh = ∅ := by
    simp only [ops, List.forall_append]
    exact ⟨ops0_fresh, ops1_fresh, ops2_fresh, ops3_fresh, ops4_fresh, ops5_fresh, ops6_fresh⟩
  exact List.forall_iff_forall_mem.mp h

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, nothing faulting, with every buffer at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefKeptW.lean ====
/- For each of the seven lists of the reference program's operations: the buffers its operations write, and that every other buffer's contents pass through the list unchanged. -/
import proofs.«100402_j28432683499906_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A reference on a list is, as a device buffer, in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references window 0's operations write, in order (81). -/
noncomputable def W0 : List (Ref sig .tc) :=
  [ main_v0,
    main_v1,
    main_v2,
    main_v3,
    main_v4,
    main_v5,
    main_v6,
    main_v7,
    main_v8,
    main_c,
    main_v9,
    main_v10,
    main_c_0,
    main_v11,
    main_v12,
    main_v13,
    main_v14,
    main_v15,
    main_v16,
    main_v17,
    main_v18,
    main_cst,
    main_v19,
    main_v20,
    main_v21,
    main_v22,
    main_v23,
    main_v24,
    main_v25,
    main_v26,
    main_v27,
    main_v28,
    main_v29,
    main_v30,
    main_v31,
    main_v32,
    main_v33,
    main_v34,
    main_cst_1,
    main_v35,
    main_cst_2,
    main_v36,
    main_v37,
    main_c_3,
    main_call0.cst.ref,
    main_call0.v0.ref,
    main_call0.v1.ref,
    main_call0.cst_0.ref,
    main_call0.v2.ref,
    main_call0.v3.ref,
    main_call0.v4.ref,
    main_call0.v5.ref,
    main_call0.v6.ref,
    main_call0.v7.ref,
    main_call0.cst_1.ref,
    main_call0.v8.ref,
    main_call0.cst_2.ref,
    main_call0.v9.ref,
    main_call0.v10.ref,
    main_call0.v11.ref,
    main_call0.cst_3.ref,
    main_call0.v12.ref,
    main_call0.cst_4.ref,
    main_call0.call0.v0.ref,
    main_call0.call0.v1.ref,
    main_call0.call0.v2.ref,
    main_v39,
    main_v40,
    main_v41,
    main_cst_4,
    main_v42,
    main_v43,
    main_v44,
    main_v45,
    main_v46,
    main_v47,
    main_v48,
    main_v49,
    main_v50,
    main_v51,
    main_v52 ]

/-- Each operation of window 0 writes one reference, and it is on the list. -/
theorem writes0 : (ops0 : List (HloOp τ sig (Elt F))).Forall fun op => op.writes ⊆ ((W0).map (Proc.devRef (τ := τ) .tc)).toFinset :=
  ⟨single_sub_of_mem (y := main_v0) (by decide),
   single_sub_of_mem (y := main_v1) (by decide),
   single_sub_of_mem (y := main_v2) (by decide),
   single_sub_of_mem (y := main_v3) (by decide),
   single_sub_of_mem (y := main_v4) (by decide),
   single_sub_of_mem (y := main_v5) (by decide),
   single_sub_of_mem (y := main_v6) (by decide),
   single_sub_of_mem (y := main_v7) (by decide),
   single_sub_of_mem (y := main_v8) (by decide),
   single_sub_of_mem (y := main_c) (by decide),
   single_sub_of_mem (y := main_v9) (by decide),
   single_sub_of_mem (y := main_v10) (by decide),
   single_sub_of_mem (y := main_c_0) (by decide),
   single_sub_of_mem (y := main_v11) (by decide),
   single_sub_of_mem (y := main_v12) (by decide),
   single_sub_of_mem (y := main_v13) (by decide),
   single_sub_of_mem (y := main_v14) (by decide),
   single_sub_of_mem (y := main_v15) (by decide),
   single_sub_of_mem (y := main_v16) (by decide),
   single_sub_of_mem (y := main_v17) (by decide),
   single_sub_of_mem (y := main_v18) (by decide),
   single_sub_of_mem (y := main_cst) (by decide),
   single_sub_of_mem (y := main_v19) (by decide),
   single_sub_of_mem (y := main_v20) (by decide),
   single_sub_of_mem (y := main_v21) (by decide),
   single_sub_of_mem (y := main_v22) (by decide),
   single_sub_of_mem (y := main_v23) (by decide),
   single_sub_of_mem (y := main_v24) (by decide),
   single_sub_of_mem (y := main_v25) (by decide),
   single_sub_of_mem (y := main_v26) (by decide),
   single_sub_of_mem (y := main_v27) (by decide),
   single_sub_of_mem (y := main_v28) (by decide),
   single_sub_of_mem (y := main_v29) (by decide),
   single_sub_of_mem (y := main_v30) (by decide),
   single_sub_of_mem (y := main_v31) (by decide),
   single_sub_of_mem (y := main_v32) (by decide),
   single_sub_of_mem (y := main_v33) (by decide),
   single_sub_of_mem (y := main_v34) (by decide),
   single_sub_of_mem (y := main_cst_1) (by decide),
   single_sub_of_mem (y := main_v35) (by decide),
   single_sub_of_mem (y := main_cst_2) (by decide),
   single_sub_of_mem (y := main_v36) (by decide),
   single_sub_of_mem (y := main_v37) (by decide),
   single_sub_of_mem (y := main_c_3) (by decide),
   single_sub_of_mem (y := main_call0.cst.ref) (by decide),
   single_sub_of_mem (y := main_call0.v0.ref) (by decide),
   single_sub_of_mem (y := main_call0.v1.ref) (by decide),
   single_sub_of_mem (y := main_call0.cst_0.ref) (by decide),
   single_sub_of_mem (y := main_call0.v2.ref) (by decide),
   single_sub_of_mem (y := main_call0.v3.ref) (by decide),
   single_sub_of_mem (y := main_call0.v4.ref) (by decide),
   single_sub_of_mem (y := main_call0.v5.ref) (by decide),
   single_sub_of_mem (y := main_call0.v6.ref) (by decide),
   single_sub_of_mem (y := main_call0.v7.ref) (by decide),
   single_sub_of_mem (y := main_call0.cst_1.ref) (by decide),
   single_sub_of_mem (y := main_call0.v8.ref) (by decide),
   single_sub_of_mem (y := main_call0.cst_2.ref) (by decide),
   single_sub_of_mem (y := main_call0.v9.ref) (by decide),
   single_sub_of_mem (y := main_call0.v10.ref) (by decide),
   single_sub_of_mem (y := main_call0.v11.ref) (by decide),
   single_sub_of_mem (y := main_call0.cst_3.ref) (by decide),
   single_sub_of_mem (y := main_call0.v12.ref) (by decide),
   single_sub_of_mem (y := main_call0.cst_4.ref) (by decide),
   single_sub_of_mem (y := main_call0.call0.v0.ref) (by decide),
   single_sub_of_mem (y := main_call0.call0.v1.ref) (by decide),
   single_sub_of_mem (y := main_call0.call0.v2.ref) (by decide),
   single_sub_of_mem (y := main_v39) (by decide),
   single_sub_of_mem (y := main_v40) (by decide),
   single_sub_of_mem (y := main_v41) (by decide),
   single_sub_of_mem (y := main_cst_4) (by decide),
   single_sub_of_mem (y := main_v42) (by decide),
   single_sub_of_mem (y := main_v43) (by decide),
   single_sub_of_mem (y := main_v44) (by decide),
   single_sub_of_mem (y := main_v45) (by decide),
   single_sub_of_mem (y := main_v46) (by decide),
   single_sub_of_mem (y := main_v47) (by decide),
   single_sub_of_mem (y := main_v48) (by decide),
   single_sub_of_mem (y := main_v49) (by decide),
   single_sub_of_mem (y := main_v50) (by decide),
   single_sub_of_mem (y := main_v51) (by decide),
   single_sub_of_mem (y := main_v52) (by decide)⟩

/-- The references window 1's operations write, in order (85). -/
noncomputable def W1 : List (Ref sig .tc) :=
  [ main_v53,
    main_call1.cst.ref,
    main_call1.v0.ref,
    main_call1.v1.ref,
    main_v55,
    main_v56,
    main_v57,
    main_v58,
    main_v59,
    main_v60,
    main_v61,
    main_v62,
    main_v63,
    main_v64,
    main_v65,
    main_v66,
    main_cst_5,
    main_v67,
    main_cst_6,
    main_v68,
    main_v69,
    main_c_7,
    main_call2.cst.ref,
    main_call2.v0.ref,
    main_call2.v1.ref,
    main_call2.cst_0.ref,
    main_call2.v2.ref,
    main_call2.v3.ref,
    main_call2.v4.ref,
    main_call2.v5.ref,
    main_call2.v6.ref,
    main_call2.v7.ref,
    main_call2.cst_1.ref,
    main_call2.v8.ref,
    main_call2.cst_2.ref,
    main_call2.v9.ref,
    main_call2.v10.ref,
    main_call2.v11.ref,
    main_call2.cst_3.ref,
    main_call2.v12.ref,
    main_call2.cst_4.ref,
    main_call2.call0.v0.ref,
    main_call2.call0.v1.ref,
    main_call2.call0.v2.ref,
    main_v71,
    main_v72,
    main_v73,
    main_cst_8,
    main_v74,
    main_v75,
    main_v76,
    main_v77,
    main_v78,
    main_v79,
    main_v80,
    main_v81,
    main_v82,
    main_v83,
    main_v84,
    main_v85,
    main_call3.cst.ref,
    main_call3.v0.ref,
    main_call3.v1.ref,
    main_v87,
    main_c_9,
    main_v88,
    main_v89,
    main_c_10,
    main_v90,
    main_v91,
    main_v92,
    main_v93,
    main_v94,
    main_v95,
    main_v96,
    main_v97,
    main_cst_11,
    main_v98,
    main_v99,
    main_v100,
    main_v101,
    main_v102,
    main_v103,
    main_v104,
    main_v105 ]

/-- Each operation of window 1 writes one reference, and it is on the list. -/
theorem writes1 : (ops1 : List (HloOp τ sig (Elt F))).Forall fun op => op.writes ⊆ ((W1).map (Proc.devRef (τ := τ) .tc)).toFinset :=
  ⟨single_sub_of_mem (y := main_v53) (by decide),
   single_sub_of_mem (y := main_call1.cst.ref) (by decide),
   single_sub_of_mem (y := main_call1.v0.ref) (by decide),
   single_sub_of_mem (y := main_call1.v1.ref) (by decide),
   single_sub_of_mem (y := main_v55) (by decide),
   single_sub_of_mem (y := main_v56) (by decide),
   single_sub_of_mem (y := main_v57) (by decide),
   single_sub_of_mem (y := main_v58) (by decide),
   single_sub_of_mem (y := main_v59) (by decide),
   single_sub_of_mem (y := main_v60) (by decide),
   single_sub_of_mem (y := main_v61) (by decide),
   single_sub_of_mem (y := main_v62) (by decide),
   single_sub_of_mem (y := main_v63) (by decide),
   single_sub_of_mem (y := main_v64) (by decide),
   single_sub_of_mem (y := main_v65) (by decide),
   single_sub_of_mem (y := main_v66) (by decide),
   single_sub_of_mem (y := main_cst_5) (by decide),
   single_sub_of_mem (y := main_v67) (by decide),
   single_sub_of_mem (y := main_cst_6) (by decide),
   single_sub_of_mem (y := main_v68) (by decide),
   single_sub_of_mem (y := main_v69) (by decide),
   single_sub_of_mem (y := main_c_7) (by decide),
   single_sub_of_mem (y := main_call2.cst.ref) (by decide),
   single_sub_of_mem (y := main_call2.v0.ref) (by decide),
   single_sub_of_mem (y := main_call2.v1.ref) (by decide),
   single_sub_of_mem (y := main_call2.cst_0.ref) (by decide),
   single_sub_of_mem (y := main_call2.v2.ref) (by decide),
   single_sub_of_mem (y := main_call2.v3.ref) (by decide),
   single_sub_of_mem (y := main_call2.v4.ref) (by decide),
   single_sub_of_mem (y := main_call2.v5.ref) (by decide),
   single_sub_of_mem (y := main_call2.v6.ref) (by decide),
   single_sub_of_mem (y := main_call2.v7.ref) (by decide),
   single_sub_of_mem (y := main_call2.cst_1.ref) (by decide),
   single_sub_of_mem (y := main_call2.v8.ref) (by decide),
   single_sub_of_mem (y := main_call2.cst_2.ref) (by decide),
   single_sub_of_mem (y := main_call2.v9.ref) (by decide),
   single_sub_of_mem (y := main_call2.v10.ref) (by decide),
   single_sub_of_mem (y := main_call2.v11.ref) (by decide),
   single_sub_of_mem (y := main_call2.cst_3.ref) (by decide),
   single_sub_of_mem (y := main_call2.v12.ref) (by decide),
   single_sub_of_mem (y := main_call2.cst_4.ref) (by decide),
   single_sub_of_mem (y := main_call2.call0.v0.ref) (by decide),
   single_sub_of_mem (y := main_call2.call0.v1.ref) (by decide),
   single_sub_of_mem (y := main_call2.call0.v2.ref) (by decide),
   single_sub_of_mem (y := main_v71) (by decide),
   single_sub_of_mem (y := main_v72) (by decide),
   single_sub_of_mem (y := main_v73) (by decide),
   single_sub_of_mem (y := main_cst_8) (by decide),
   single_sub_of_mem (y := main_v74) (by decide),
   single_sub_of_mem (y := main_v75) (by decide),
   single_sub_of_mem (y := main_v76) (by decide),
   single_sub_of_mem (y := main_v77) (by decide),
   single_sub_of_mem (y := main_v78) (by decide),
   single_sub_of_mem (y := main_v79) (by decide),
   single_sub_of_mem (y := main_v80) (by decide),
   single_sub_of_mem (y := main_v81) (by decide),
   single_sub_of_mem (y := main_v82) (by decide),
   single_sub_of_mem (y := main_v83) (by decide),
   single_sub_of_mem (y := main_v84) (by decide),
   single_sub_of_mem (y := main_v85) (by decide),
   single_sub_of_mem (y := main_call3.cst.ref) (by decide),
   single_sub_of_mem (y := main_call3.v0.ref) (by decide),
   single_sub_of_mem (y := main_call3.v1.ref) (by decide),
   single_sub_of_mem (y := main_v87) (by decide),
   single_sub_of_mem (y := main_c_9) (by decide),
   single_sub_of_mem (y := main_v88) (by decide),
   single_sub_of_mem (y := main_v89) (by decide),
   single_sub_of_mem (y := main_c_10) (by decide),
   single_sub_of_mem (y := main_v90) (by decide),
   single_sub_of_mem (y := main_v91) (by decide),
   single_sub_of_mem (y := main_v92) (by decide),
   single_sub_of_mem (y := main_v93) (by decide),
   single_sub_of_mem (y := main_v94) (by decide),
   single_sub_of_mem (y := main_v95) (by decide),
   single_sub_of_mem (y := main_v96) (by decide),
   single_sub_of_mem (y := main_v97) (by decide),
   single_sub_of_mem (y := main_cst_11) (by decide),
   single_sub_of_mem (y := main_v98) (by decide),
   single_sub_of_mem (y := main_v99) (by decide),
   single_sub_of_mem (y := main_v100) (by decide),
   single_sub_of_mem (y := main_v101) (by decide),
   single_sub_of_mem (y := main_v102) (by decide),
   single_sub_of_mem (y := main_v103) (by decide),
   single_sub_of_mem (y := main_v104) (by decide),
   single_sub_of_mem (y := main_v105) (by decide)⟩

/-- The references window 2's operations write, in order (104). -/
noncomputable def W2 : List (Ref sig .tc) :=
  [ main_v106,
    main_v107,
    main_v108,
    main_v109,
    main_v110,
    main_v111,
    main_v112,
    main_v113,
    main_cst_12,
    main_v114,
    main_cst_13,
    main_v115,
    main_v116,
    main_c_14,
    main_call4.cst.ref,
    main_call4.v0.ref,
    main_call4.v1.ref,
    main_call4.cst_0.ref,
    main_call4.v2.ref,
    main_call4.v3.ref,
    main_call4.v4.ref,
    main_call4.v5.ref,
    main_call4.v6.ref,
    main_call4.v7.ref,
    main_call4.cst_1.ref,
    main_call4.v8.ref,
    main_call4.cst_2.ref,
    main_call4.v9.ref,
    main_call4.v10.ref,
    main_call4.v11.ref,
    main_call4.cst_3.ref,
    main_call4.v12.ref,
    main_call4.cst_4.ref,
    main_call4.call0.v0.ref,
    main_call4.call0.v1.ref,
    main_call4.call0.v2.ref,
    main_v118,
    main_v119,
    main_v120,
    main_cst_15,
    main_v121,
    main_v122,
    main_v123,
    main_v124,
    main_v125,
    main_v126,
    main_v127,
    main_v128,
    main_v129,
    main_v130,
    main_v131,
    main_v132,
    main_call5.cst.ref,
    main_call5.v0.ref,
    main_call5.v1.ref,
    main_v134,
    main_v135,
    main_v136,
    main_v137,
    main_v138,
    main_v139,
    main_v140,
    main_v141,
    main_v142,
    main_v143,
    main_v144,
    main_v145,
    main_cst_16,
    main_v146,
    main_cst_17,
    main_v147,
    main_v148,
    main_c_18,
    main_call6.cst.ref,
    main_call6.v0.ref,
    main_call6.v1.ref,
    main_call6.cst_0.ref,
    main_call6.v2.ref,
    main_call6.v3.ref,
    main_call6.v4.ref,
    main_call6.v5.ref,
    main_call6.v6.ref,
    main_call6.v7.ref,
    main_call6.cst_1.ref,
    main_call6.v8.ref,
    main_call6.cst_2.ref,
    main_call6.v9.ref,
    main_call6.v10.ref,
    main_call6.v11.ref,
    main_call6.cst_3.ref,
    main_call6.v12.ref,
    main_call6.cst_4.ref,
    main_call6.call0.v0.ref,
    main_call6.call0.v1.ref,
    main_call6.call0.v2.ref,
    main_v150,
    main_v151,
    main_v152,
    main_cst_19,
    main_v153,
    main_v154,
    main_v155,
    main_v156,
    main_v157 ]

/-- Each operation of window 2 writes one reference, and it is on the list. -/
theorem writes2 : (ops2 : List (HloOp τ sig (Elt F))).Forall fun op => op.writes ⊆ ((W2).map (Proc.devRef (τ := τ) .tc)).toFinset :=
  ⟨single_sub_of_mem (y := main_v106) (by decide),
   single_sub_of_mem (y := main_v107) (by decide),
   single_sub_of_mem (y := main_v108) (by decide),
   single_sub_of_mem (y := main_v109) (by decide),
   single_sub_of_mem (y := main_v110) (by decide),
   single_sub_of_mem (y := main_v111) (by decide),
   single_sub_of_mem (y := main_v112) (by decide),
   single_sub_of_mem (y := main_v113) (by decide),
   single_sub_of_mem (y := main_cst_12) (by decide),
   single_sub_of_mem (y := main_v114) (by decide),
   single_sub_of_mem (y := main_cst_13) (by decide),
   single_sub_of_mem (y := main_v115) (by decide),
   single_sub_of_mem (y := main_v116) (by decide),
   single_sub_of_mem (y := main_c_14) (by decide),
   single_sub_of_mem (y := main_call4.cst.ref) (by decide),
   single_sub_of_mem (y := main_call4.v0.ref) (by decide),
   single_sub_of_mem (y := main_call4.v1.ref) (by decide),
   single_sub_of_mem (y := main_call4.cst_0.ref) (by decide),
   single_sub_of_mem (y := main_call4.v2.ref) (by decide),
   single_sub_of_mem (y := main_call4.v3.ref) (by decide),
   single_sub_of_mem (y := main_call4.v4.ref) (by decide),
   single_sub_of_mem (y := main_call4.v5.ref) (by decide),
   single_sub_of_mem (y := main_call4.v6.ref) (by decide),
   single_sub_of_mem (y := main_call4.v7.ref) (by decide),
   single_sub_of_mem (y := main_call4.cst_1.ref) (by decide),
   single_sub_of_mem (y := main_call4.v8.ref) (by decide),
   single_sub_of_mem (y := main_call4.cst_2.ref) (by decide),
   single_sub_of_mem (y := main_call4.v9.ref) (by decide),
   single_sub_of_mem (y := main_call4.v10.ref) (by decide),
   single_sub_of_mem (y := main_call4.v11.ref) (by decide),
   single_sub_of_mem (y := main_call4.cst_3.ref) (by decide),
   single_sub_of_mem (y := main_call4.v12.ref) (by decide),
   single_sub_of_mem (y := main_call4.cst_4.ref) (by decide),
   single_sub_of_mem (y := main_call4.call0.v0.ref) (by decide),
   single_sub_of_mem (y := main_call4.call0.v1.ref) (by decide),
   single_sub_of_mem (y := main_call4.call0.v2.ref) (by decide),
   single_sub_of_mem (y := main_v118) (by decide),
   single_sub_of_mem (y := main_v119) (by decide),
   single_sub_of_mem (y := main_v120) (by decide),
   single_sub_of_mem (y := main_cst_15) (by decide),
   single_sub_of_mem (y := main_v121) (by decide),
   single_sub_of_mem (y := main_v122) (by decide),
   single_sub_of_mem (y := main_v123) (by decide),
   single_sub_of_mem (y := main_v124) (by decide),
   single_sub_of_mem (y := main_v125) (by decide),
   single_sub_of_mem (y := main_v126) (by decide),
   single_sub_of_mem (y := main_v127) (by decide),
   single_sub_of_mem (y := main_v128) (by decide),
   single_sub_of_mem (y := main_v129) (by decide),
   single_sub_of_mem (y := main_v130) (by decide),
   single_sub_of_mem (y := main_v131) (by decide),
   single_sub_of_mem (y := main_v132) (by decide),
   single_sub_of_mem (y := main_call5.cst.ref) (by decide),
   single_sub_of_mem (y := main_call5.v0.ref) (by decide),
   single_sub_of_mem (y := main_call5.v1.ref) (by decide),
   single_sub_of_mem (y := main_v134) (by decide),
   single_sub_of_mem (y := main_v135) (by decide),
   single_sub_of_mem (y := main_v136) (by decide),
   single_sub_of_mem (y := main_v137) (by decide),
   single_sub_of_mem (y := main_v138) (by decide),
   single_sub_of_mem (y := main_v139) (by decide),
   single_sub_of_mem (y := main_v140) (by decide),
   single_sub_of_mem (y := main_v141) (by decide),
   single_sub_of_mem (y := main_v142) (by decide),
   single_sub_of_mem (y := main_v143) (by decide),
   single_sub_of_mem (y := main_v144) (by decide),
   single_sub_of_mem (y := main_v145) (by decide),
   single_sub_of_mem (y := main_cst_16) (by decide),
   single_sub_of_mem (y := main_v146) (by decide),
   single_sub_of_mem (y := main_cst_17) (by decide),
   single_sub_of_mem (y := main_v147) (by decide),
   single_sub_of_mem (y := main_v148) (by decide),
   single_sub_of_mem (y := main_c_18) (by decide),
   single_sub_of_mem (y := main_call6.cst.ref) (by decide),
   single_sub_of_mem (y := main_call6.v0.ref) (by decide),
   single_sub_of_mem (y := main_call6.v1.ref) (by decide),
   single_sub_of_mem (y := main_call6.cst_0.ref) (by decide),
   single_sub_of_mem (y := main_call6.v2.ref) (by decide),
   single_sub_of_mem (y := main_call6.v3.ref) (by decide),
   single_sub_of_mem (y := main_call6.v4.ref) (by decide),
   single_sub_of_mem (y := main_call6.v5.ref) (by decide),
   single_sub_of_mem (y := main_call6.v6.ref) (by decide),
   single_sub_of_mem (y := main_call6.v7.ref) (by decide),
   single_sub_of_mem (y := main_call6.cst_1.ref) (by decide),
   single_sub_of_mem (y := main_call6.v8.ref) (by decide),
   single_sub_of_mem (y := main_call6.cst_2.ref) (by decide),
   single_sub_of_mem (y := main_call6.v9.ref) (by decide),
   single_sub_of_mem (y := main_call6.v10.ref) (by decide),
   single_sub_of_mem (y := main_call6.v11.ref) (by decide),
   single_sub_of_mem (y := main_call6.cst_3.ref) (by decide),
   single_sub_of_mem (y := main_call6.v12.ref) (by decide),
   single_sub_of_mem (y := main_call6.cst_4.ref) (by decide),
   single_sub_of_mem (y := main_call6.call0.v0.ref) (by decide),
   single_sub_of_mem (y := main_call6.call0.v1.ref) (by decide),
   single_sub_of_mem (y := main_call6.call0.v2.ref) (by decide),
   single_sub_of_mem (y := main_v150) (by decide),
   single_sub_of_mem (y := main_v151) (by decide),
   single_sub_of_mem (y := main_v152) (by decide),
   single_sub_of_mem (y := main_cst_19) (by decide),
   single_sub_of_mem (y := main_v153) (by decide),
   single_sub_of_mem (y := main_v154) (by decide),
   single_sub_of_mem (y := main_v155) (by decide),
   single_sub_of_mem (y := main_v156) (by decide),
   single_sub_of_mem (y := main_v157) (by decide)⟩

/-- The references window 3's operations write, in order (83). -/
noncomputable def W3 : List (Ref sig .tc) :=
  [ main_v158,
    main_v159,
    main_v160,
    main_v161,
    main_v162,
    main_v163,
    main_v164,
    main_call7.cst.ref,
    main_call7.v0.ref,
    main_call7.v1.ref,
    main_v166,
    main_c_20,
    main_v167,
    main_v168,
    main_c_21,
    main_v169,
    main_v170,
    main_v171,
    main_v172,
    main_v173,
    main_v174,
    main_v175,
    main_v176,
    main_cst_22,
    main_v177,
    main_v178,
    main_v179,
    main_v180,
    main_v181,
    main_v182,
    main_v183,
    main_v184,
    main_v185,
    main_v186,
    main_v187,
    main_v188,
    main_v189,
    main_v190,
    main_v191,
    main_v192,
    main_cst_23,
    main_v193,
    main_cst_24,
    main_v194,
    main_v195,
    main_c_25,
    main_call8.cst.ref,
    main_call8.v0.ref,
    main_call8.v1.ref,
    main_call8.cst_0.ref,
    main_call8.v2.ref,
    main_call8.v3.ref,
    main_call8.v4.ref,
    main_call8.v5.ref,
    main_call8.v6.ref,
    main_call8.v7.ref,
    main_call8.cst_1.ref,
    main_call8.v8.ref,
    main_call8.cst_2.ref,
    main_call8.v9.ref,
    main_call8.v10.ref,
    main_call8.v11.ref,
    main_call8.cst_3.ref,
    main_call8.v12.ref,
    main_call8.cst_4.ref,
    main_call8.call0.v0.ref,
    main_call8.call0.v1.ref,
    main_call8.call0.v2.ref,
    main_v197,
    main_v198,
    main_v199,
    main_cst_26,
    main_v200,
    main_v201,
    main_v202,
    main_v203,
    main_v204,
    main_v205,
    main_v206,
    main_v207,
    main_v208,
    main_v209,
    main_v210 ]

/-- Each operation of window 3 writes one reference, and it is on the list. -/
theorem writes3 : (ops3 : List (HloOp τ sig (Elt F))).Forall fun op => op.writes ⊆ ((W3).map (Proc.devRef (τ := τ) .tc)).toFinset :=
  ⟨single_sub_of_mem (y := main_v158) (by decide),
   single_sub_of_mem (y := main_v159) (by decide),
   single_sub_of_mem (y := main_v160) (by decide),
   single_sub_of_mem (y := main_v161) (by decide),
   single_sub_of_mem (y := main_v162) (by decide),
   single_sub_of_mem (y := main_v163) (by decide),
   single_sub_of_mem (y := main_v164) (by decide),
   single_sub_of_mem (y := main_call7.cst.ref) (by decide),
   single_sub_of_mem (y := main_call7.v0.ref) (by decide),
   single_sub_of_mem (y := main_call7.v1.ref) (by decide),
   single_sub_of_mem (y := main_v166) (by decide),
   single_sub_of_mem (y := main_c_20) (by decide),
   single_sub_of_mem (y := main_v167) (by decide),
   single_sub_of_mem (y := main_v168) (by decide),
   single_sub_of_mem (y := main_c_21) (by decide),
   single_sub_of_mem (y := main_v169) (by decide),
   single_sub_of_mem (y := main_v170) (by decide),
   single_sub_of_mem (y := main_v171) (by decide),
   single_sub_of_mem (y := main_v172) (by decide),
   single_sub_of_mem (y := main_v173) (by decide),
   single_sub_of_mem (y := main_v174) (by decide),
   single_sub_of_mem (y := main_v175) (by decide),
   single_sub_of_mem (y := main_v176) (by decide),
   single_sub_of_mem (y := main_cst_22) (by decide),
   single_sub_of_mem (y := main_v177) (by decide),
   single_sub_of_mem (y := main_v178) (by decide),
   single_sub_of_mem (y := main_v179) (by decide),
   single_sub_of_mem (y := main_v180) (by decide),
   single_sub_of_mem (y := main_v181) (by decide),
   single_sub_of_mem (y := main_v182) (by decide),
   single_sub_of_mem (y := main_v183) (by decide),
   single_sub_of_mem (y := main_v184) (by decide),
   single_sub_of_mem (y := main_v185) (by decide),
   single_sub_of_mem (y := main_v186) (by decide),
   single_sub_of_mem (y := main_v187) (by decide),
   single_sub_of_mem (y := main_v188) (by decide),
   single_sub_of_mem (y := main_v189) (by decide),
   single_sub_of_mem (y := main_v190) (by decide),
   single_sub_of_mem (y := main_v191) (by decide),
   single_sub_of_mem (y := main_v192) (by decide),
   single_sub_of_mem (y := main_cst_23) (by decide),
   single_sub_of_mem (y := main_v193) (by decide),
   single_sub_of_mem (y := main_cst_24) (by decide),
   single_sub_of_mem (y := main_v194) (by decide),
   single_sub_of_mem (y := main_v195) (by decide),
   single_sub_of_mem (y := main_c_25) (by decide),
   single_sub_of_mem (y := main_call8.cst.ref) (by decide),
   single_sub_of_mem (y := main_call8.v0.ref) (by decide),
   single_sub_of_mem (y := main_call8.v1.ref) (by decide),
   single_sub_of_mem (y := main_call8.cst_0.ref) (by decide),
   single_sub_of_mem (y := main_call8.v2.ref) (by decide),
   single_sub_of_mem (y := main_call8.v3.ref) (by decide),
   single_sub_of_mem (y := main_call8.v4.ref) (by decide),
   single_sub_of_mem (y := main_call8.v5.ref) (by decide),
   single_sub_of_mem (y := main_call8.v6.ref) (by decide),
   single_sub_of_mem (y := main_call8.v7.ref) (by decide),
   single_sub_of_mem (y := main_call8.cst_1.ref) (by decide),
   single_sub_of_mem (y := main_call8.v8.ref) (by decide),
   single_sub_of_mem (y := main_call8.cst_2.ref) (by decide),
   single_sub_of_mem (y := main_call8.v9.ref) (by decide),
   single_sub_of_mem (y := main_call8.v10.ref) (by decide),
   single_sub_of_mem (y := main_call8.v11.ref) (by decide),
   single_sub_of_mem (y := main_call8.cst_3.ref) (by decide),
   single_sub_of_mem (y := main_call8.v12.ref) (by decide),
   single_sub_of_mem (y := main_call8.cst_4.ref) (by decide),
   single_sub_of_mem (y := main_call8.call0.v0.ref) (by decide),
   single_sub_of_mem (y := main_call8.call0.v1.ref) (by decide),
   single_sub_of_mem (y := main_call8.call0.v2.ref) (by decide),
   single_sub_of_mem (y := main_v197) (by decide),
   single_sub_of_mem (y := main_v198) (by decide),
   single_sub_of_mem (y := main_v199) (by decide),
   single_sub_of_mem (y := main_cst_26) (by decide),
   single_sub_of_mem (y := main_v200) (by decide),
   single_sub_of_mem (y := main_v201) (by decide),
   single_sub_of_mem (y := main_v202) (by decide),
   single_sub_of_mem (y := main_v203) (by decide),
   single_sub_of_mem (y := main_v204) (by decide),
   single_sub_of_mem (y := main_v205) (by decide),
   single_sub_of_mem (y := main_v206) (by decide),
   single_sub_of_mem (y := main_v207) (by decide),
   single_sub_of_mem (y := main_v208) (by decide),
   single_sub_of_mem (y := main_v209) (by decide),
   single_sub_of_mem (y := main_v210) (by decide)⟩

/-- The references window 4's operations write, in order (85). -/
noncomputable def W4 : List (Ref sig .tc) :=
  [ main_v211,
    main_call9.cst.ref,
    main_call9.v0.ref,
    main_call9.v1.ref,
    main_v213,
    main_v214,
    main_v215,
    main_v216,
    main_v217,
    main_v218,
    main_v219,
    main_v220,
    main_v221,
    main_v222,
    main_v223,
    main_v224,
    main_cst_27,
    main_v225,
    main_cst_28,
    main_v226,
    main_v227,
    main_c_29,
    main_call10.cst.ref,
    main_call10.v0.ref,
    main_call10.v1.ref,
    main_call10.cst_0.ref,
    main_call10.v2.ref,
    main_call10.v3.ref,
    main_call10.v4.ref,
    main_call10.v5.ref,
    main_call10.v6.ref,
    main_call10.v7.ref,
    main_call10.cst_1.ref,
    main_call10.v8.ref,
    main_call10.cst_2.ref,
    main_call10.v9.ref,
    main_call10.v10.ref,
    main_call10.v11.ref,
    main_call10.cst_3.ref,
    main_call10.v12.ref,
    main_call10.cst_4.ref,
    main_call10.call0.v0.ref,
    main_call10.call0.v1.ref,
    main_call10.call0.v2.ref,
    main_v229,
    main_v230,
    main_v231,
    main_cst_30,
    main_v232,
    main_v233,
    main_v234,
    main_v235,
    main_v236,
    main_v237,
    main_v238,
    main_v239,
    main_v240,
    main_v241,
    main_v242,
    main_v243,
    main_call11.cst.ref,
    main_call11.v0.ref,
    main_call11.v1.ref,
    main_v245,
    main_c_31,
    main_v246,
    main_v247,
    main_c_32,
    main_v248,
    main_v249,
    main_v250,
    main_v251,
    main_v252,
    main_v253,
    main_v254,
    main_v255,
    main_cst_33,
    main_v256,
    main_v257,
    main_v258,
    main_v259,
    main_v260,
    main_v261,
    main_v262,
    main_v263 ]

/-- Each operation of window 4 writes one reference, and it is on the list. -/
theorem writes4 : (ops4 : List (HloOp τ sig (Elt F))).Forall fun op => op.writes ⊆ ((W4).map (Proc.devRef (τ := τ) .tc)).toFinset :=
  ⟨single_sub_of_mem (y := main_v211) (by decide),
   single_sub_of_mem (y := main_call9.cst.ref) (by decide),
   single_sub_of_mem (y := main_call9.v0.ref) (by decide),
   single_sub_of_mem (y := main_call9.v1.ref) (by decide),
   single_sub_of_mem (y := main_v213) (by decide),
   single_sub_of_mem (y := main_v214) (by decide),
   single_sub_of_mem (y := main_v215) (by decide),
   single_sub_of_mem (y := main_v216) (by decide),
   single_sub_of_mem (y := main_v217) (by decide),
   single_sub_of_mem (y := main_v218) (by decide),
   single_sub_of_mem (y := main_v219) (by decide),
   single_sub_of_mem (y := main_v220) (by decide),
   single_sub_of_mem (y := main_v221) (by decide),
   single_sub_of_mem (y := main_v222) (by decide),
   single_sub_of_mem (y := main_v223) (by decide),
   single_sub_of_mem (y := main_v224) (by decide),
   single_sub_of_mem (y := main_cst_27) (by decide),
   single_sub_of_mem (y := main_v225) (by decide),
   single_sub_of_mem (y := main_cst_28) (by decide),
   single_sub_of_mem (y := main_v226) (by decide),
   single_sub_of_mem (y := main_v227) (by decide),
   single_sub_of_mem (y := main_c_29) (by decide),
   single_sub_of_mem (y := main_call10.cst.ref) (by decide),
   single_sub_of_mem (y := main_call10.v0.ref) (by decide),
   single_sub_of_mem (y := main_call10.v1.ref) (by decide),
   single_sub_of_mem (y := main_call10.cst_0.ref) (by decide),
   single_sub_of_mem (y := main_call10.v2.ref) (by decide),
   single_sub_of_mem (y := main_call10.v3.ref) (by decide),
   single_sub_of_mem (y := main_call10.v4.ref) (by decide),
   single_sub_of_mem (y := main_call10.v5.ref) (by decide),
   single_sub_of_mem (y := main_call10.v6.ref) (by decide),
   single_sub_of_mem (y := main_call10.v7.ref) (by decide),
   single_sub_of_mem (y := main_call10.cst_1.ref) (by decide),
   single_sub_of_mem (y := main_call10.v8.ref) (by decide),
   single_sub_of_mem (y := main_call10.cst_2.ref) (by decide),
   single_sub_of_mem (y := main_call10.v9.ref) (by decide),
   single_sub_of_mem (y := main_call10.v10.ref) (by decide),
   single_sub_of_mem (y := main_call10.v11.ref) (by decide),
   single_sub_of_mem (y := main_call10.cst_3.ref) (by decide),
   single_sub_of_mem (y := main_call10.v12.ref) (by decide),
   single_sub_of_mem (y := main_call10.cst_4.ref) (by decide),
   single_sub_of_mem (y := main_call10.call0.v0.ref) (by decide),
   single_sub_of_mem (y := main_call10.call0.v1.ref) (by decide),
   single_sub_of_mem (y := main_call10.call0.v2.ref) (by decide),
   single_sub_of_mem (y := main_v229) (by decide),
   single_sub_of_mem (y := main_v230) (by decide),
   single_sub_of_mem (y := main_v231) (by decide),
   single_sub_of_mem (y := main_cst_30) (by decide),
   single_sub_of_mem (y := main_v232) (by decide),
   single_sub_of_mem (y := main_v233) (by decide),
   single_sub_of_mem (y := main_v234) (by decide),
   single_sub_of_mem (y := main_v235) (by decide),
   single_sub_of_mem (y := main_v236) (by decide),
   single_sub_of_mem (y := main_v237) (by decide),
   single_sub_of_mem (y := main_v238) (by decide),
   single_sub_of_mem (y := main_v239) (by decide),
   single_sub_of_mem (y := main_v240) (by decide),
   single_sub_of_mem (y := main_v241) (by decide),
   single_sub_of_mem (y := main_v242) (by decide),
   single_sub_of_mem (y := main_v243) (by decide),
   single_sub_of_mem (y := main_call11.cst.ref) (by decide),
   single_sub_of_mem (y := main_call11.v0.ref) (by decide),
   single_sub_of_mem (y := main_call11.v1.ref) (by decide),
   single_sub_of_mem (y := main_v245) (by decide),
   single_sub_of_mem (y := main_c_31) (by decide),
   single_sub_of_mem (y := main_v246) (by decide),
   single_sub_of_mem (y := main_v247) (by decide),
   single_sub_of_mem (y := main_c_32) (by decide),
   single_sub_of_mem (y := main_v248) (by decide),
   single_sub_of_mem (y := main_v249) (by decide),
   single_sub_of_mem (y := main_v250) (by decide),
   single_sub_of_mem (y := main_v251) (by decide),
   single_sub_of_mem (y := main_v252) (by decide),
   single_sub_of_mem (y := main_v253) (by decide),
   single_sub_of_mem (y := main_v254) (by decide),
   single_sub_of_mem (y := main_v255) (by decide),
   single_sub_of_mem (y := main_cst_33) (by decide),
   single_sub_of_mem (y := main_v256) (by decide),
   single_sub_of_mem (y := main_v257) (by decide),
   single_sub_of_mem (y := main_v258) (by decide),
   single_sub_of_mem (y := main_v259) (by decide),
   single_sub_of_mem (y := main_v260) (by decide),
   single_sub_of_mem (y := main_v261) (by decide),
   single_sub_of_mem (y := main_v262) (by decide),
   single_sub_of_mem (y := main_v263) (by decide)⟩

/-- The references window 5's operations write, in order (104). -/
noncomputable def W5 : List (Ref sig .tc) :=
  [ main_v264,
    main_v265,
    main_v266,
    main_v267,
    main_v268,
    main_v269,
    main_v270,
    main_v271,
    main_cst_34,
    main_v272,
    main_cst_35,
    main_v273,
    main_v274,
    main_c_36,
    main_call12.cst.ref,
    main_call12.v0.ref,
    main_call12.v1.ref,
    main_call12.cst_0.ref,
    main_call12.v2.ref,
    main_call12.v3.ref,
    main_call12.v4.ref,
    main_call12.v5.ref,
    main_call12.v6.ref,
    main_call12.v7.ref,
    main_call12.cst_1.ref,
    main_call12.v8.ref,
    main_call12.cst_2.ref,
    main_call12.v9.ref,
    main_call12.v10.ref,
    main_call12.v11.ref,
    main_call12.cst_3.ref,
    main_call12.v12.ref,
    main_call12.cst_4.ref,
    main_call12.call0.v0.ref,
    main_call12.call0.v1.ref,
    main_call12.call0.v2.ref,
    main_v276,
    main_v277,
    main_v278,
    main_cst_37,
    main_v279,
    main_v280,
    main_v281,
    main_v282,
    main_v283,
    main_v284,
    main_v285,
    main_v286,
    main_v287,
    main_v288,
    main_v289,
    main_v290,
    main_call13.cst.ref,
    main_call13.v0.ref,
    main_call13.v1.ref,
    main_v292,
    main_v293,
    main_v294,
    main_v295,
    main_v296,
    main_v297,
    main_v298,
    main_v299,
    main_v300,
    main_v301,
    main_v302,
    main_v303,
    main_cst_38,
    main_v304,
    main_cst_39,
    main_v305,
    main_v306,
    main_c_40,
    main_call14.cst.ref,
    main_call14.v0.ref,
    main_call14.v1.ref,
    main_call14.cst_0.ref,
    main_call14.v2.ref,
    main_call14.v3.ref,
    main_call14.v4.ref,
    main_call14.v5.ref,
    main_call14.v6.ref,
    main_call14.v7.ref,
    main_call14.cst_1.ref,
    main_call14.v8.ref,
    main_call14.cst_2.ref,
    main_call14.v9.ref,
    main_call14.v10.ref,
    main_call14.v11.ref,
    main_call14.cst_3.ref,
    main_call14.v12.ref,
    main_call14.cst_4.ref,
    main_call14.call0.v0.ref,
    main_call14.call0.v1.ref,
    main_call14.call0.v2.ref,
    main_v308,
    main_v309,
    main_v310,
    main_cst_41,
    main_v311,
    main_v312,
    main_v313,
    main_v314,
    main_v315 ]

/-- Each operation of window 5 writes one reference, and it is on the list. -/
theorem writes5 : (ops5 : List (HloOp τ sig (Elt F))).Forall fun op => op.writes ⊆ ((W5).map (Proc.devRef (τ := τ) .tc)).toFinset :=
  ⟨single_sub_of_mem (y := main_v264) (by decide),
   single_sub_of_mem (y := main_v265) (by decide),
   single_sub_of_mem (y := main_v266) (by decide),
   single_sub_of_mem (y := main_v267) (by decide),
   single_sub_of_mem (y := main_v268) (by decide),
   single_sub_of_mem (y := main_v269) (by decide),
   single_sub_of_mem (y := main_v270) (by decide),
   single_sub_of_mem (y := main_v271) (by decide),
   single_sub_of_mem (y := main_cst_34) (by decide),
   single_sub_of_mem (y := main_v272) (by decide),
   single_sub_of_mem (y := main_cst_35) (by decide),
   single_sub_of_mem (y := main_v273) (by decide),
   single_sub_of_mem (y := main_v274) (by decide),
   single_sub_of_mem (y := main_c_36) (by decide),
   single_sub_of_mem (y := main_call12.cst.ref) (by decide),
   single_sub_of_mem (y := main_call12.v0.ref) (by decide),
   single_sub_of_mem (y := main_call12.v1.ref) (by decide),
   single_sub_of_mem (y := main_call12.cst_0.ref) (by decide),
   single_sub_of_mem (y := main_call12.v2.ref) (by decide),
   single_sub_of_mem (y := main_call12.v3.ref) (by decide),
   single_sub_of_mem (y := main_call12.v4.ref) (by decide),
   single_sub_of_mem (y := main_call12.v5.ref) (by decide),
   single_sub_of_mem (y := main_call12.v6.ref) (by decide),
   single_sub_of_mem (y := main_call12.v7.ref) (by decide),
   single_sub_of_mem (y := main_call12.cst_1.ref) (by decide),
   single_sub_of_mem (y := main_call12.v8.ref) (by decide),
   single_sub_of_mem (y := main_call12.cst_2.ref) (by decide),
   single_sub_of_mem (y := main_call12.v9.ref) (by decide),
   single_sub_of_mem (y := main_call12.v10.ref) (by decide),
   single_sub_of_mem (y := main_call12.v11.ref) (by decide),
   single_sub_of_mem (y := main_call12.cst_3.ref) (by decide),
   single_sub_of_mem (y := main_call12.v12.ref) (by decide),
   single_sub_of_mem (y := main_call12.cst_4.ref) (by decide),
   single_sub_of_mem (y := main_call12.call0.v0.ref) (by decide),
   single_sub_of_mem (y := main_call12.call0.v1.ref) (by decide),
   single_sub_of_mem (y := main_call12.call0.v2.ref) (by decide),
   single_sub_of_mem (y := main_v276) (by decide),
   single_sub_of_mem (y := main_v277) (by decide),
   single_sub_of_mem (y := main_v278) (by decide),
   single_sub_of_mem (y := main_cst_37) (by decide),
   single_sub_of_mem (y := main_v279) (by decide),
   single_sub_of_mem (y := main_v280) (by decide),
   single_sub_of_mem (y := main_v281) (by decide),
   single_sub_of_mem (y := main_v282) (by decide),
   single_sub_of_mem (y := main_v283) (by decide),
   single_sub_of_mem (y := main_v284) (by decide),
   single_sub_of_mem (y := main_v285) (by decide),
   single_sub_of_mem (y := main_v286) (by decide),
   single_sub_of_mem (y := main_v287) (by decide),
   single_sub_of_mem (y := main_v288) (by decide),
   single_sub_of_mem (y := main_v289) (by decide),
   single_sub_of_mem (y := main_v290) (by decide),
   single_sub_of_mem (y := main_call13.cst.ref) (by decide),
   single_sub_of_mem (y := main_call13.v0.ref) (by decide),
   single_sub_of_mem (y := main_call13.v1.ref) (by decide),
   single_sub_of_mem (y := main_v292) (by decide),
   single_sub_of_mem (y := main_v293) (by decide),
   single_sub_of_mem (y := main_v294) (by decide),
   single_sub_of_mem (y := main_v295) (by decide),
   single_sub_of_mem (y := main_v296) (by decide),
   single_sub_of_mem (y := main_v297) (by decide),
   single_sub_of_mem (y := main_v298) (by decide),
   single_sub_of_mem (y := main_v299) (by decide),
   single_sub_of_mem (y := main_v300) (by decide),
   single_sub_of_mem (y := main_v301) (by decide),
   single_sub_of_mem (y := main_v302) (by decide),
   single_sub_of_mem (y := main_v303) (by decide),
   single_sub_of_mem (y := main_cst_38) (by decide),
   single_sub_of_mem (y := main_v304) (by decide),
   single_sub_of_mem (y := main_cst_39) (by decide),
   single_sub_of_mem (y := main_v305) (by decide),
   single_sub_of_mem (y := main_v306) (by decide),
   single_sub_of_mem (y := main_c_40) (by decide),
   single_sub_of_mem (y := main_call14.cst.ref) (by decide),
   single_sub_of_mem (y := main_call14.v0.ref) (by decide),
   single_sub_of_mem (y := main_call14.v1.ref) (by decide),
   single_sub_of_mem (y := main_call14.cst_0.ref) (by decide),
   single_sub_of_mem (y := main_call14.v2.ref) (by decide),
   single_sub_of_mem (y := main_call14.v3.ref) (by decide),
   single_sub_of_mem (y := main_call14.v4.ref) (by decide),
   single_sub_of_mem (y := main_call14.v5.ref) (by decide),
   single_sub_of_mem (y := main_call14.v6.ref) (by decide),
   single_sub_of_mem (y := main_call14.v7.ref) (by decide),
   single_sub_of_mem (y := main_call14.cst_1.ref) (by decide),
   single_sub_of_mem (y := main_call14.v8.ref) (by decide),
   single_sub_of_mem (y := main_call14.cst_2.ref) (by decide),
   single_sub_of_mem (y := main_call14.v9.ref) (by decide),
   single_sub_of_mem (y := main_call14.v10.ref) (by decide),
   single_sub_of_mem (y := main_call14.v11.ref) (by decide),
   single_sub_of_mem (y := main_call14.cst_3.ref) (by decide),
   single_sub_of_mem (y := main_call14.v12.ref) (by decide),
   single_sub_of_mem (y := main_call14.cst_4.ref) (by decide),
   single_sub_of_mem (y := main_call14.call0.v0.ref) (by decide),
   single_sub_of_mem (y := main_call14.call0.v1.ref) (by decide),
   single_sub_of_mem (y := main_call14.call0.v2.ref) (by decide),
   single_sub_of_mem (y := main_v308) (by decide),
   single_sub_of_mem (y := main_v309) (by decide),
   single_sub_of_mem (y := main_v310) (by decide),
   single_sub_of_mem (y := main_cst_41) (by decide),
   single_sub_of_mem (y := main_v311) (by decide),
   single_sub_of_mem (y := main_v312) (by decide),
   single_sub_of_mem (y := main_v313) (by decide),
   single_sub_of_mem (y := main_v314) (by decide),
   single_sub_of_mem (y := main_v315) (by decide)⟩

/-- The references window 6's operations write, in order (11). -/
noncomputable def W6 : List (Ref sig .tc) :=
  [ main_v316,
    main_v317,
    main_v318,
    main_v319,
    main_v320,
    main_v321,
    main_v322,
    main_call15.cst.ref,
    main_call15.v0.ref,
    main_call15.v1.ref,
    main_v324 ]

/-- Each operation of window 6 writes one reference, and it is on the list. -/
theorem writes6 : (ops6 : List (HloOp τ sig (Elt F))).Forall fun op => op.writes ⊆ ((W6).map (Proc.devRef (τ := τ) .tc)).toFinset :=
  ⟨single_sub_of_mem (y := main_v316) (by decide),
   single_sub_of_mem (y := main_v317) (by decide),
   single_sub_of_mem (y := main_v318) (by decide),
   single_sub_of_mem (y := main_v319) (by decide),
   single_sub_of_mem (y := main_v320) (by decide),
   single_sub_of_mem (y := main_v321) (by decide),
   single_sub_of_mem (y := main_v322) (by decide),
   single_sub_of_mem (y := main_call15.cst.ref) (by decide),
   single_sub_of_mem (y := main_call15.v0.ref) (by decide),
   single_sub_of_mem (y := main_call15.v1.ref) (by decide),
   single_sub_of_mem (y := main_v324) (by decide)⟩

end Cert.ReferenceIdeal.Hand

end
-- ==== Proof.LibHostStages.lean ====
/-
  Two facts about a straight line of host operations, for any topology, buffer signature and element values.

  Running two lists of operations one after the other is running their concatenation (`after_append`): a long program can
  be read back stage by stage, each stage from ANY contents before it.

  An outlined function's intermediate values live in buffers typed through the call's record; a value is stored into
  such a buffer and read back through a change of type along the buffer's type equation, there and back. The round trip
  is the identity (`ofBuf_toBuf`): rewriting with it removes those changes of type in pairs, however deeply the function's
  operations nest them, before two spellings of the function's result are compared.
-/
import Idealize.ShloMosaic.Lib.StableHlo.Run

noncomputable section

namespace Cert.Lib.HostStages

open Idealize.ShloMosaic Idealize.ShloMosaic.StableHlo

variable {τ : Topo} {sig : RefSig} {Val : EltTy → Type}

/-- Running two lists of operations one after the other is running their concatenation. -/
theorem after_append (l₁ l₂ : List (HloOp τ sig Val)) :
    ∀ V : Valuation τ sig Val, after (l₁ ++ l₂) V = after l₂ (after l₁ V) := by
  induction l₁ with
  | nil => intro V; rfl
  | cons op l ih => intro V; exact ih (op.result V)

/-- A value stored in a typed buffer and read back is the value. -/
theorem ofBuf_toBuf {T : BufTy} (x : TRef sig T) (v : T.Contents Val) : x.ofBuf (x.toBuf v) = v := by
  obtain ⟨r, h, _, _⟩ := x
  subst h
  rfl

end Cert.Lib.HostStages

end
-- ==== Proof.RefKept.lean ====
/-
  No operation of the reference program writes an argument.

  Each of the seven parts of @main has operations that write only the buffers on that part's list; an argument is on none of the seven
  lists; and a buffer that neither of two stretches of operations changes is not changed by the one run after the other.
  So the fold of all the operations over any contents leaves every argument as it was. Together with the program's run
  (each buffer ends at the fold of the operations over the launch contents, and the launch contents of a device at a
  buffer are the memory at that buffer's location) this is the frame: after the run every argument holds what it held. The same run names the result buffer's contents.
-/
import proofs.«100402_j28432683499906_1_alg».proof.Proof.RefRun
import proofs.«100402_j28432683499906_1_alg».proof.Proof.RefKeptW
import proofs.«100402_j28432683499906_1_alg».proof.Proof.LibHostStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer that neither of two stretches of operations changes is unchanged by the first followed by the second. -/
theorem kept_append {l₁ l₂ : List (HloOp τ sig (Elt F))} {b : DevRef τ sig}
    (h₁ : ∀ V : Valuation τ sig (Elt F), after l₁ V b = V b) (h₂ : ∀ V : Valuation τ sig (Elt F), after l₂ V b = V b)
    (V : Valuation τ sig (Elt F)) : after (l₁ ++ l₂) V b = V b := by
  rw [Cert.Lib.HostStages.after_append, h₂, h₁]

/-- A reference on none of the seven windows' lists of written references keeps its contents through all the
    operations, whatever the contents before them. -/
theorem kept {r : Ref sig .tc}
    (h : r ∉ W0 ∧ r ∉ W1 ∧ r ∉ W2 ∧ r ∉ W3 ∧ r ∉ W4 ∧ r ∉ W5 ∧ r ∉ W6) (V : Valuation τ sig (Elt F)) :
    after ops V (Proc.devRef .tc r) = V (Proc.devRef .tc r) :=
  kept_append (fun V => after_of_writes_sub ops0 V writes0 h.1)
    (kept_append (fun V => after_of_writes_sub ops1 V writes1 h.2.1)
      (kept_append (fun V => after_of_writes_sub ops2 V writes2 h.2.2.1)
        (kept_append (fun V => after_of_writes_sub ops3 V writes3 h.2.2.2.1)
          (kept_append (fun V => after_of_writes_sub ops4 V writes4 h.2.2.2.2.1)
            (kept_append (fun V => after_of_writes_sub ops5 V writes5 h.2.2.2.2.2.1)
              (fun V => after_of_writes_sub ops6 V writes6 h.2.2.2.2.2.2)))))) V

/-- The run of the reference program with its result named: every weakly fair execution terminates with the result
    buffer at the fold of all the operations over the launch contents, and each of the fourteen arguments holding what
    it held at the launch. -/
theorem refRun (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v324) = after ops (launchContents m c) (Proc.devRef .tc main_v324)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c main_v324,
     (h c main_arg0).trans (kept (r := main_arg0) (by decide) (launchContents m c)),
     (h c main_arg1).trans (kept (r := main_arg1) (by decide) (launchContents m c)),
     (h c main_arg2).trans (kept (r := main_arg2) (by decide) (launchContents m c)),
     (h c main_arg3).trans (kept (r := main_arg3) (by decide) (launchContents m c)),
     (h c main_arg4).trans (kept (r := main_arg4) (by decide) (launchContents m c)),
     (h c main_arg5).trans (kept (r := main_arg5) (by decide) (launchContents m c)),
     (h c main_arg6).trans (kept (r := main_arg6) (by decide) (launchContents m c)),
     (h c main_arg7).trans (kept (r := main_arg7) (by decide) (launchContents m c)),
     (h c main_arg8).trans (kept (r := main_arg8) (by decide) (launchContents m c)),
     (h c main_arg9).trans (kept (r := main_arg9) (by decide) (launchContents m c)),
     (h c main_arg10).trans (kept (r := main_arg10) (by decide) (launchContents m c)),
     (h c main_arg11).trans (kept (r := main_arg11) (by decide) (launchContents m c)),
     (h c main_arg12).trans (kept (r := main_arg12) (by decide) (launchContents m c)),
     (h c main_arg13).trans (kept (r := main_arg13) (by decide) (launchContents m c))⟩) (run_main m ρ)

/-- The frame of the reference program: every weakly fair execution terminates with each of the fourteen arguments
    holding what it held at the launch. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (refRun m ρ)

end Cert.ReferenceIdeal.Hand

end
-- ==== Proof.RefValueOps.lean ====
/- The reference program's operations regrouped by stage — the embedding of the features and the edge table, then one list per layer: the same operations in the same order. -/
import proofs.«100402_j28432683499906_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the embedding of the features and the two rows of the edge table (9). -/
abbrev opsPre : List (HloOp τ sig (Elt F)) :=
  [ StableHlo.reshape main_arg0 main_v0 rfl shapeCasts_S50000x1x64_S50000x64,
    StableHlo.binary main_v0 main_arg4 main_v1 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S50000x64 ![0, 1] bcast_S1x64_S50000x64_0_1 : (⟨S1x64, .f32⟩ : BufTy).Contents (Elt F) → (⟨S50000x64, .f32⟩ : BufTy).Contents (Elt F)),
    StableHlo.binary main_v1 main_v3 main_v4 (addf : (⟨S50000x64, .f32⟩ : BufTy).Contents (Elt F) → (⟨S50000x64, .f32⟩ : BufTy).Contents (Elt F) → (⟨S50000x64, .f32⟩ : BufTy).Contents (Elt F)),
    StableHlo.unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v5 main_v6 rfl shapeCasts_S1x800000_S800000,
    StableHlo.unary main_arg1 main_v7 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v7 main_v8 rfl shapeCasts_S1x800000_S800000 ]

/-- The operations of layer 0 (136). -/
abbrev opsL0 : List (HloOp τ sig (Elt F)) :=
  [ StableHlo.nullary main_c (constantI S_ 32 0#32),
    StableHlo.unary main_c main_v9 (broadcastInDim S800000 ![] bcast_S_S800000 : (⟨S_, .i32⟩ : BufTy).Contents (Elt F) → (⟨S800000, .i32⟩ : BufTy).Contents (Elt F)),
    StableHlo.binary main_v6 main_v9 main_v10 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v11 (broadcastInDim S800000 ![] bcast_S_S800000 : (⟨S_, .i32⟩ : BufTy).Contents (Elt F) → (⟨S800000, .i32⟩ : BufTy).Contents (Elt F)),
    StableHlo.binary main_v6 main_v11 main_v12 (addi : (⟨S800000, .i32⟩ : BufTy).Contents (Elt F) → (⟨S800000, .i32⟩ : BufTy).Contents (Elt F) → (⟨S800000, .i32⟩ : BufTy).Contents (Elt F)),
    StableHlo.ternary main_v10 main_v12 main_v6 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v13 main_v14 (broadcastInDim S800000x1 ![0] bcast_S800000_S800000x1_0 : (⟨S800000, .i32⟩ : BufTy).Contents (Elt F) → (⟨S800000x1, .i32⟩ : BufTy).Contents (Elt F)),
    StableHlo.binary main_v4 main_v14 main_v15 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg3 main_v16 (broadcastInDim S800000x1 ![0] bcast_S800000_S800000x1_0 : (⟨S800000, .f32⟩ : BufTy).Contents (Elt F) → (⟨S800000x1, .f32⟩ : BufTy).Contents (Elt F)),
    StableHlo.unary main_v16 main_v17 (broadcastInDim S800000x64 ![0, 1] bcast_S800000x1_S800000x64_0_1 : (⟨S800000x1, .f32⟩ : BufTy).Contents (Elt F) → (⟨S800000x64, .f32⟩ : BufTy).Contents (Elt F)),
    StableHlo.binary main_v15 main_v17 main_v18 (mulf : (⟨S800000x64, .f32⟩ : BufTy).Contents (Elt F) → (⟨S800000x64, .f32⟩ : BufTy).Contents (Elt F) → (⟨S800000x64, .f32⟩ : BufTy).Contents (Elt F)),
    StableHlo.nullary main_cst (constant S_ .f32 0x00000000#32),
    StableHlo.unary main_cst main_v19 (broadcastInDim S50000x64 ![] bcast_S_S50000x64 : (⟨S_, .f32⟩ : BufTy).Contents (Elt F) → (⟨S50000x64, .f32⟩ : BufTy).Contents (Elt F)),
    StableHlo.unary main_v8 main_v20 (broadcastInDim S800000x1 ![0] bcast_S800000_S800000x1_0 : (⟨S800000, .i32⟩ : BufTy).Contents (Elt F) → (⟨S800000x1, .i32⟩ : BufTy).Contents (Elt F)),
    StableHlo.ternary main_v19 main_v20 main_v18 main_v21 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v21 main_v4 main_v22 (addf : (⟨S50000x64, .f32⟩ : BufTy).Contents (Elt F) → (⟨S50000x64, .f32⟩ : BufTy).Contents (Elt F) → (⟨S50000x64, .f32⟩ : BufTy).Contents (Elt F)),
    StableHlo.unary main_arg6 main_v23 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v23 main_v24 rfl shapeCasts_S1x64x64_S64x64,
    StableHlo.binary main_v22 main_v24 main_v25 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v26 ((extractStridedSlice S1x64 ![0, 0] · slices_S4x64_S1x64_0_0) : (⟨S4x64, .f32⟩ : BufTy).Contents (Elt F) → (⟨S1x64, .f32⟩ : BufTy).Contents (Elt F)),
    StableHlo.reshape main_v26 main_v27 rfl shapeCasts_S1x64_S64,
    StableHlo.unary main_v27 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S50000x64 ![0, 1] bcast_S1x64_S50000x64_0_1 : (⟨S1x64, .f32⟩ : BufTy).Contents (Elt F) → (⟨S50000x64, .f32⟩ : BufTy).Contents (Elt F)),
    StableHlo.binary main_v25 main_v29 main_v30 (addf : (⟨S50000x64, .f32⟩ : BufTy).Contents (Elt F) → (⟨S50000x64, .f32⟩ : BufTy).Contents (Elt F) → (⟨S50000x64, .f32⟩ : BufTy).Contents (Elt F)),
    StableHlo.unary main_arg8 main_v31 ((extractStridedSlice S1x64 ![0, 0] · slices_S4x64_S1x64_0_0) : (⟨S4x64, .f32⟩ : BufTy).Contents (Elt F) → (⟨S1x64, .f32⟩ : BufTy).Contents (Elt F)),
    StableHlo.reshape main_v31 main_v32 rfl shapeCasts_S1x64_S64,
    StableHlo.unary main_arg9 main_v33 ((extractStridedSlice S1x64 ![0, 0] · slices_S4x64_S1x64_0_0) : (⟨S4x64, .f32⟩ : BufTy).Contents (Elt F) → (⟨S1x64, .f32⟩ : BufTy).Contents (Elt F)),
    StableHlo.reshape main_v33 main_v34 rfl shapeCasts_S1x64_S64,
    StableHlo.nullary main_cst_1 (constant S_ .f32 0x00000000#32),
    StableHlo.binary main_v30 main_cst_1 main_v35 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_2 (constant S_ .f32 0x47435000#32),
    StableHlo.unary main_cst_2 main_v36 (broadcastInDim S64 ![] bcast_S_S64 : (⟨S_, .f32⟩ : BufTy).Contents (Elt F) → (⟨S64, .f32⟩ : BufTy).Contents (Elt F)),
    StableHlo.binary main_v35 main_v36 main_v37 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call0.cst (constant S_ .f32 0x00000000#32),
    StableHlo.TRef.binary (.of main_v30) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v30) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v37 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S50000x64 ![0, 1] bcast_S1x64_S50000x64_0_1 : (⟨S1x64, .f32⟩ : BufTy).Contents (Elt F) → (⟨S50000x64, .f32⟩ : BufTy).Contents (Elt F)),
    StableHlo.binary main_v30 main_v40 main_v41 (subf : (⟨S50000x64, .f32⟩ : BufTy).Contents (Elt F) → (⟨S50000x64, .f32⟩ : BufTy).Contents (Elt F) → (⟨S50000x64, .f32⟩ : BufTy).Contents (Elt F)),
    StableHlo.nullary main_cst_4 (constant S_ .f32 0x3727C5AC#32),
    StableHlo.unary main_cst_4 main_v42 (broadcastInDim S64 ![] bcast_S_S64 : (⟨S_, .f32⟩ : BufTy).Contents (Elt F) → (⟨S64, .f32⟩ : BufTy).Contents (Elt F)),
    StableHlo.binary main_v38 main_v42 main_v43 (addf : (⟨S64, .f32⟩ : BufTy).Contents (Elt F) → (⟨S64, .f32⟩ : BufTy).Contents (Elt F) → (⟨S64, .f32⟩ : BufTy).Contents (Elt F)),
    StableHlo.unary main_v43 main_v44 (Host.rsqrt : (⟨S64, .f32⟩ : BufTy).Contents (Elt F) → (⟨S64, .f32⟩ : BufTy).Contents (Elt F)),
    StableHlo.unary main_v44 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S50000x64 ![0, 1] bcast_S1x64_S50000x64_0_1 : (⟨S1x64, .f32⟩ : BufTy).Contents (Elt F) → (⟨S50000x64, .f32⟩ : BufTy).Contents (Elt F)),
    StableHlo.binary main_v41 main_v46 main_v47 (mulf : (⟨S50000x64, .f32⟩ : BufTy).Contents (Elt F) → (⟨S50000x64, .f32⟩ : BufTy).Contents (Elt F) → (⟨S50000x64, .f32⟩ : BufTy).Contents (Elt F)),
    StableHlo.unary main_v32 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S50000x64 ![0, 1] bcast_S1x64_S50000x64_0_1 : (⟨S1x64, .f32⟩ : BufTy).Contents (Elt F) → (⟨S50000x64, .f32⟩ : BufTy).Contents (Elt F)),
    StableHlo.binary main_v47 main_v49 main_v50 (mulf : (⟨S50000x64, .f32⟩ : BufTy).Contents (Elt F) → (⟨S50000x64, .f32⟩ : BufTy).Contents (Elt F) → (⟨S50000x64, .f32⟩ : BufTy).Contents (Elt F)),
    StableHlo.unary main_v34 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S50000x64 ![0, 1] bcast_S1x64_S50000x64_0_1 : (⟨S1x64, .f32⟩ : BufTy).Contents (Elt F) → (⟨S50000x64, .f32⟩ : BufTy).Contents (Elt F)),
    StableHlo.binary main_v50 main_v52 main_v53 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v53) main_call1.v0 main_call1.v1 maximumf,
    StableHlo.unary main_arg10 main_v55 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v55 main_v56 rfl shapeCasts_S1x64x64_S64x64,
    StableHlo.binary main_v54 main_v56 main_v57 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v58 ((extractStridedSlice S1x64 ![0, 0] · slices_S4x64_S1x64_0_0) : (⟨S4x64, .f32⟩ : BufTy).Contents (Elt F) → (⟨S1x64, .f32⟩ : BufTy).Contents (Elt F)),
    StableHlo.reshape main_v58 main_v59 rfl shapeCasts_S1x64_S64,
    StableHlo.unary main_v59 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S50000x64 ![0, 1] bcast_S1x64_S50000x64_0_1 : (⟨S1x64, .f32⟩ : BufTy).Contents (Elt F) → (⟨S50000x64, .f32⟩ : BufTy).Contents (Elt F)),
    StableHlo.binary main_v57 main_v61 main_v62 (addf : (⟨S50000x64, .f32⟩ : BufTy).Contents (Elt F) → (⟨S50000x64, .f32⟩ : BufTy).Contents (Elt F) → (⟨S50000x64, .f32⟩ : BufTy).Contents (Elt F)),
    StableHlo.unary main_arg12 main_v63 ((extractStridedSlice S1x64 ![0, 0] · slices_S4x64_S1x64_0_0) : (⟨S4x64, .f32⟩ : BufTy).Contents (Elt F) → (⟨S1x64, .f32⟩ : BufTy).Contents (Elt F)),
    StableHlo.reshape main_v63 main_v64 rfl shapeCasts_S1x64_S64,
    StableHlo.unary main_arg13 main_v65 ((extractStridedSlice S1x64 ![0, 0] · slices_S4x64_S1x64_0_0) : (⟨S4x64, .f32⟩ : BufTy).Contents (Elt F) → (⟨S1x64, .f32⟩ : BufTy).Contents (Elt F)),
    StableHlo.reshape main_v65 main_v66 rfl shapeCasts_S1x64_S64,
    StableHlo.nullary main_cst_5 (constant S_ .f32 0x00000000#32),
    StableHlo.binary main_v62 main_cst_5 main_v67 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_6 (constant S_ .f32 0x47435000#32),
    StableHlo.unary main_cst_6 main_v68 (broadcastInDim S64 ![] bcast_S_S64 : (⟨S_, .f32⟩ : BufTy).Contents (Elt F) → (⟨S64, .f32⟩ : BufTy).Contents (Elt F)),
    StableHlo.binary main_v67 main_v68 main_v69 (Host.divf : (⟨S64, .f32⟩ : BufTy).Contents (Elt F) → (⟨S64, .f32⟩ : BufTy).Contents (Elt F) → (⟨S64, .f32⟩ : BufTy).Contents (Elt F)),
    StableHlo.nullary main_c_7 (constantI S_ 32 0#32),
    StableHlo.TRef.nullary main_call2.cst (constant S_ .f32 0x00000000#32),
    StableHlo.TRef.binary (.of main_v62) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v62) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v69 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S50000x64 ![0, 1] bcast_S1x64_S50000x64_0_1 : (⟨S1x64, .f32⟩ : BufTy).Contents (Elt F) → (⟨S50000x64, .f32⟩ : BufTy).Contents (Elt F)),
    StableHlo.binary main_v62 main_v72 main_v73 (subf : (⟨S50000x64, .f32⟩ : BufTy).Contents (Elt F) → (⟨S50000x64, .f32⟩ : BufTy).Contents (Elt F) → (⟨S50000x64, .f32⟩ : BufTy).Contents (Elt F)),
    StableHlo.nullary main_cst_8 (constant S_ .f32 0x3727C5AC#32),
    StableHlo.unary main_cst_8 main_v74 (broadcastInDim S64 ![] bcast_S_S64 : (⟨S_, .f32⟩ : BufTy).Contents (Elt F) → (⟨S64, .f32⟩ : BufTy).Contents (Elt F)),
    StableHlo.binary main_v70 main_v74 main_v75 (addf : (⟨S64, .f32⟩ : BufTy).Contents (Elt F) → (⟨S64, .f32⟩ : BufTy).Contents (Elt F) → (⟨S64, .f32⟩ : BufTy).Contents (Elt F)),
    StableHlo.unary main_v75 main_v76 (Host.rsqrt : (⟨S64, .f32⟩ : BufTy).Contents (Elt F) → (⟨S64, .f32⟩ : BufTy).Contents (Elt F)),
    StableHlo.unary main_v76 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S50000x64 ![0, 1] bcast_S1x64_S50000x64_0_1 : (⟨S1x64, .f32⟩ : BufTy).Contents (Elt F) → (⟨S50000x64, .f32⟩ : BufTy).Contents (Elt F)),
    StableHlo.binary main_v73 main_v78 main_v79 (mulf : (⟨S50000x64, .f32⟩ : BufTy).Contents (Elt F) → (⟨S50000x64, .f32⟩ : BufTy).Contents (Elt F) → (⟨S50000x64, .f32⟩ : BufTy).Contents (Elt F)),
    StableHlo.unary main_v64 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S50000x64 ![0, 1] bcast_S1x64_S50000x64_0_1 : (⟨S1x64, .f32⟩ : BufTy).Contents (Elt F) → (⟨S50000x64, .f32⟩ : BufTy).Contents (Elt F)),
    StableHlo.binary main_v79 main_v81 main_v82 (mulf : (⟨S50000x64, .f32⟩ : BufTy).Contents (Elt F) → (⟨S50000x64, .f32⟩ : BufTy).Contents (Elt F) → (⟨S50000x64, .f32⟩ : BufTy).Contents (Elt F)),
    StableHlo.unary main_v66 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S50000x64 ![0, 1] bcast_S1x64_S50000x64_0_1 : (⟨S1x64, .f32⟩ : BufTy).Contents (Elt F) → (⟨S50000x64, .f32⟩ : BufTy).Contents (Elt F)),
    StableHlo.binary main_v82 main_v84 main_v85 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v85) main_call3.v0 main_call3.v1 maximumf,
    StableHlo.binary main_v86 main_v4 main_v87 (addf : (⟨S50000x64, .f32⟩ : BufTy).Contents (Elt F) → (⟨S50000x64, .f32⟩ : BufTy).Contents (Elt F) → (⟨S50000x64, .f32⟩ : BufTy).Contents (Elt F)) ]

/-- The operations of layer 1 (136). -/
abbrev opsL1 : List (HloOp τ sig (Elt F)) :=
  [ StableHlo.nullary main_c_9 (constantI S_ 32 0#32),
    StableHlo.unary main_c_9 main_v88 (broadcastInDim S800000 ![] bcast_S_S800000 : (⟨S_, .i32⟩ : BufTy).Contents (Elt F) → (⟨S800000, .i32⟩ : BufTy).Contents (Elt F)),
    StableHlo.binary main_v6 main_v88 main_v89 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v90 (broadcastInDim S800000 ![] bcast_S_S800000 : (⟨S_, .i32⟩ : BufTy).Contents (Elt F) → (⟨S800000, .i32⟩ : BufTy).Contents (Elt F)),
    StableHlo.binary main_v6 main_v90 main_v91 (addi : (⟨S800000, .i32⟩ : BufTy).Contents (Elt F) → (⟨S800000, .i32⟩ : BufTy).Contents (Elt F) → (⟨S800000, .i32⟩ : BufTy).Contents (Elt F)),
    StableHlo.ternary main_v89 main_v91 main_v6 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v92 main_v93 (broadcastInDim S800000x1 ![0] bcast_S800000_S800000x1_0 : (⟨S800000, .i32⟩ : BufTy).Contents (Elt F) → (⟨S800000x1, .i32⟩ : BufTy).Contents (Elt F)),
    StableHlo.binary main_v87 main_v93 main_v94 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg3 main_v95 (broadcastInDim S800000x1 ![0] bcast_S800000_S800000x1_0 : (⟨S800000, .f32⟩ : BufTy).Contents (Elt F) → (⟨S800000x1, .f32⟩ : BufTy).Contents (Elt F)),
    StableHlo.unary main_v95 main_v96 (broadcastInDim S800000x64 ![0, 1] bcast_S800000x1_S800000x64_0_1 : (⟨S800000x1, .f32⟩ : BufTy).Contents (Elt F) → (⟨S800000x64, .f32⟩ : BufTy).Contents (Elt F)),
    StableHlo.binary main_v94 main_v96 main_v97 (mulf : (⟨S800000x64, .f32⟩ : BufTy).Contents (Elt F) → (⟨S800000x64, .f32⟩ : BufTy).Contents (Elt F) → (⟨S800000x64, .f32⟩ : BufTy).Contents (Elt F)),
    StableHlo.nullary main_cst_11 (constant S_ .f32 0x00000000#32),
    StableHlo.unary main_cst_11 main_v98 (broadcastInDim S50000x64 ![] bcast_S_S50000x64 : (⟨S_, .f32⟩ : BufTy).Contents (Elt F) → (⟨S50000x64, .f32⟩ : BufTy).Contents (Elt F)),
    StableHlo.unary main_v8 main_v99 (broadcastInDim S800000x1 ![0] bcast_S800000_S800000x1_0 : (⟨S800000, .i32⟩ : BufTy).Contents (Elt F) → (⟨S800000x1, .i32⟩ : BufTy).Contents (Elt F)),
    StableHlo.ternary main_v98 main_v99 main_v97 main_v100 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v100 main_v87 main_v101 (addf : (⟨S50000x64, .f32⟩ : BufTy).Contents (Elt F) → (⟨S50000x64, .f32⟩ : BufTy).Contents (Elt F) → (⟨S50000x64, .f32⟩ : BufTy).Contents (Elt F)),
    StableHlo.unary main_arg6 main_v102 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v102 main_v103 rfl shapeCasts_S1x64x64_S64x64,
    StableHlo.binary main_v101 main_v103 main_v104 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v105 ((extractStridedSlice S1x64 ![1, 0] · slices_S4x64_S1x64_1_0) : (⟨S4x64, .f32⟩ : BufTy).Contents (Elt F) → (⟨S1x64, .f32⟩ : BufTy).Contents (Elt F)),
    StableHlo.reshape main_v105 main_v106 rfl shapeCasts_S1x64_S64,
    StableHlo.unary main_v106 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S50000x64 ![0, 1] bcast_S1x64_S50000x64_0_1 : (⟨S1x64, .f32⟩ : BufTy).Contents (Elt F) → (⟨S50000x64, .f32⟩ : BufTy).Contents (Elt F)),
    StableHlo.binary main_v104 main_v108 main_v109 (addf : (⟨S50000x64, .f32⟩ : BufTy).Contents (Elt F) → (⟨S50000x64, .f32⟩ : BufTy).Contents (Elt F) → (⟨S50000x64, .f32⟩ : BufTy).Contents (Elt F)),
    StableHlo.unary main_arg8 main_v110 ((extractStridedSlice S1x64 ![1, 0] · slices_S4x64_S1x64_1_0) : (⟨S4x64, .f32⟩ : BufTy).Contents (Elt F) → (⟨S1x64, .f32⟩ : BufTy).Contents (Elt F)),
    StableHlo.reshape main_v110 main_v111 rfl shapeCasts_S1x64_S64,
    StableHlo.unary main_arg9 main_v112 ((extractStridedSlice S1x64 ![1, 0] · slices_S4x64_S1x64_1_0) : (⟨S4x64, .f32⟩ : BufTy).Contents (Elt F) → (⟨S1x64, .f32⟩ : BufTy).Contents (Elt F)),
    StableHlo.reshape main_v112 main_v113 rfl shapeCasts_S1x64_S64,
    StableHlo.nullary main_cst_12 (constant S_ .f32 0x00000000#32),
    StableHlo.binary main_v109 main_cst_12 main_v114 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_13 (constant S_ .f32 0x47435000#32),
    StableHlo.unary main_cst_13 main_v115 (broadcastInDim S64 ![] bcast_S_S64 : (⟨S_, .f32⟩ : BufTy).Contents (Elt F) → (⟨S64, .f32⟩ : BufTy).Contents (Elt F)),
    StableHlo.binary main_v114 main_v115 main_v116 (Host.divf : (⟨S64, .f32⟩ : BufTy).Contents (Elt F) → (⟨S64, .f32⟩ : BufTy).Contents (Elt F) → (⟨S64, .f32⟩ : BufTy).Contents (Elt F)),
    StableHlo.nullary main_c_14 (constantI S_ 32 0#32),
    StableHlo.TRef.nullary main_call4.cst (constant S_ .f32 0x00000000#32),
    StableHlo.TRef.binary (.of main_v109) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v109) main_call4.v4 main_call4.v5 subf,
    StableHlo.TRef.binary main_call4.v5 main_call4.v5 main_call4.v6 mulf,
    StableHlo.TRef.unary (.of main_c_14) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v116 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S50000x64 ![0, 1] bcast_S1x64_S50000x64_0_1 : (⟨S1x64, .f32⟩ : BufTy).Contents (Elt F) → (⟨S50000x64, .f32⟩ : BufTy).Contents (Elt F)),
    StableHlo.binary main_v109 main_v119 main_v120 (subf : (⟨S50000x64, .f32⟩ : BufTy).Contents (Elt F) → (⟨S50000x64, .f32⟩ : BufTy).Contents (Elt F) → (⟨S50000x64, .f32⟩ : BufTy).Contents (Elt F)),
    StableHlo.nullary main_cst_15 (constant S_ .f32 0x3727C5AC#32),
    StableHlo.unary main_cst_15 main_v121 (broadcastInDim S64 ![] bcast_S_S64 : (⟨S_, .f32⟩ : BufTy).Contents (Elt F) → (⟨S64, .f32⟩ : BufTy).Contents (Elt F)),
    StableHlo.binary main_v117 main_v121 main_v122 (addf : (⟨S64, .f32⟩ : BufTy).Contents (Elt F) → (⟨S64, .f32⟩ : BufTy).Contents (Elt F) → (⟨S64, .f32⟩ : BufTy).Contents (Elt F)),
    StableHlo.unary main_v122 main_v123 (Host.rsqrt : (⟨S64, .f32⟩ : BufTy).Contents (Elt F) → (⟨S64, .f32⟩ : BufTy).Contents (Elt F)),
    StableHlo.unary main_v123 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S50000x64 ![0, 1] bcast_S1x64_S50000x64_0_1 : (⟨S1x64, .f32⟩ : BufTy).Contents (Elt F) → (⟨S50000x64, .f32⟩ : BufTy).Contents (Elt F)),
    StableHlo.binary main_v120 main_v125 main_v126 (mulf : (⟨S50000x64, .f32⟩ : BufTy).Contents (Elt F) → (⟨S50000x64, .f32⟩ : BufTy).Contents (Elt F) → (⟨S50000x64, .f32⟩ : BufTy).Contents (Elt F)),
    StableHlo.unary main_v111 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S50000x64 ![0, 1] bcast_S1x64_S50000x64_0_1 : (⟨S1x64, .f32⟩ : BufTy).Contents (Elt F) → (⟨S50000x64, .f32⟩ : BufTy).Contents (Elt F)),
    StableHlo.binary main_v126 main_v128 main_v129 (mulf : (⟨S50000x64, .f32⟩ : BufTy).Contents (Elt F) → (⟨S50000x64, .f32⟩ : BufTy).Contents (Elt F) → (⟨S50000x64, .f32⟩ : BufTy).Contents (Elt F)),
    StableHlo.unary main_v113 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S50000x64 ![0, 1] bcast_S1x64_S50000x64_0_1 : (⟨S1x64, .f32⟩ : BufTy).Contents (Elt F) → (⟨S50000x64, .f32⟩ : BufTy).Contents (Elt F)),
    StableHlo.binary main_v129 main_v131 main_v132 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v132) main_call5.v0 main_call5.v1 maximumf,
    StableHlo.unary main_arg10 main_v134 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v134 main_v135 rfl shapeCasts_S1x64x64_S64x64,
    StableHlo.binary main_v133 main_v135 main_v136 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v137 ((extractStridedSlice S1x64 ![1, 0] · slices_S4x64_S1x64_1_0) : (⟨S4x64, .f32⟩ : BufTy).Contents (Elt F) → (⟨S1x64, .f32⟩ : BufTy).Contents (Elt F)),
    StableHlo.reshape main_v137 main_v138 rfl shapeCasts_S1x64_S64,
    StableHlo.unary main_v138 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S50000x64 ![0, 1] bcast_S1x64_S50000x64_0_1 : (⟨S1x64, .f32⟩ : BufTy).Contents (Elt F) → (⟨S50000x64, .f32⟩ : BufTy).Contents (Elt F)),
    StableHlo.binary main_v136 main_v140 main_v141 (addf : (⟨S50000x64, .f32⟩ : BufTy).Contents (Elt F) → (⟨S50000x64, .f32⟩ : BufTy).Contents (Elt F) → (⟨S50000x64, .f32⟩ : BufTy).Contents (Elt F)),
    StableHlo.unary main_arg12 main_v142 ((extractStridedSlice S1x64 ![1, 0] · slices_S4x64_S1x64_1_0) : (⟨S4x64, .f32⟩ : BufTy).Contents (Elt F) → (⟨S1x64, .f32⟩ : BufTy).Contents (Elt F)),
    StableHlo.reshape main_v142 main_v143 rfl shapeCasts_S1x64_S64,
    StableHlo.unary main_arg13 main_v144 ((extractStridedSlice S1x64 ![1, 0] · slices_S4x64_S1x64_1_0) : (⟨S4x64, .f32⟩ : BufTy).Contents (Elt F) → (⟨S1x64, .f32⟩ : BufTy).Contents (Elt F)),
    StableHlo.reshape main_v144 main_v145 rfl shapeCasts_S1x64_S64,
    StableHlo.nullary main_cst_16 (constant S_ .f32 0x00000000#32),
    StableHlo.binary main_v141 main_cst_16 main_v146 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_17 (constant S_ .f32 0x47435000#32),
    StableHlo.unary main_cst_17 main_v147 (broadcastInDim S64 ![] bcast_S_S64 : (⟨S_, .f32⟩ : BufTy).Contents (Elt F) → (⟨S64, .f32⟩ : BufTy).Contents (Elt F)),
    StableHlo.binary main_v146 main_v147 main_v148 (Host.divf : (⟨S64, .f32⟩ : BufTy).Contents (Elt F) → (⟨S64, .f32⟩ : BufTy).Contents (Elt F) → (⟨S64, .f32⟩ : BufTy).Contents (Elt F)),
    StableHlo.nullary main_c_18 (constantI S_ 32 0#32),
    StableHlo.TRef.nullary main_call6.cst (constant S_ .f32 0x00000000#32),
    StableHlo.TRef.binary (.of main_v141) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (.of main_v141) main_call6.v4 main_call6.v5 subf,
    StableHlo.TRef.binary main_call6.v5 main_call6.v5 main_call6.v6 mulf,
    StableHlo.TRef.unary (.of main_c_18) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v148 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S50000x64 ![0, 1] bcast_S1x64_S50000x64_0_1 : (⟨S1x64, .f32⟩ : BufTy).Contents (Elt F) → (⟨S50000x64, .f32⟩ : BufTy).Contents (Elt F)),
    StableHlo.binary main_v141 main_v151 main_v152 (subf : (⟨S50000x64, .f32⟩ : BufTy).Contents (Elt F) → (⟨S50000x64, .f32⟩ : BufTy).Contents (Elt F) → (⟨S50000x64, .f32⟩ : BufTy).Contents (Elt F)),
    StableHlo.nullary main_cst_19 (constant S_ .f32 0x3727C5AC#32),
    StableHlo.unary main_cst_19 main_v153 (broadcastInDim S64 ![] bcast_S_S64 : (⟨S_, .f32⟩ : BufTy).Contents (Elt F) → (⟨S64, .f32⟩ : BufTy).Contents (Elt F)),
    StableHlo.binary main_v149 main_v153 main_v154 (addf : (⟨S64, .f32⟩ : BufTy).Contents (Elt F) → (⟨S64, .f32⟩ : BufTy).Contents (Elt F) → (⟨S64, .f32⟩ : BufTy).Contents (Elt F)),
    StableHlo.unary main_v154 main_v155 (Host.rsqrt : (⟨S64, .f32⟩ : BufTy).Contents (Elt F) → (⟨S64, .f32⟩ : BufTy).Contents (Elt F)),
    StableHlo.unary main_v155 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S50000x64 ![0, 1] bcast_S1x64_S50000x64_0_1 : (⟨S1x64, .f32⟩ : BufTy).Contents (Elt F) → (⟨S50000x64, .f32⟩ : BufTy).Contents (Elt F)),
    StableHlo.binary main_v152 main_v157 main_v158 (mulf : (⟨S50000x64, .f32⟩ : BufTy).Contents (Elt F) → (⟨S50000x64, .f32⟩ : BufTy).Contents (Elt F) → (⟨S50000x64, .f32⟩ : BufTy).Contents (Elt F)),
    StableHlo.unary main_v143 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S50000x64 ![0, 1] bcast_S1x64_S50000x64_0_1 : (⟨S1x64, .f32⟩ : BufTy).Contents (Elt F) → (⟨S50000x64, .f32⟩ : BufTy).Contents (Elt F)),
    StableHlo.binary main_v158 main_v160 main_v161 (mulf : (⟨S50000x64, .f32⟩ : BufTy).Contents (Elt F) → (⟨S50000x64, .f32⟩ : BufTy).Contents (Elt F) → (⟨S50000x64, .f32⟩ : BufTy).Contents (Elt F)),
    StableHlo.unary main_v145 main_v162 (broadcastInDim S1x64 ![1] bcast_S64_S1x64_1 : (⟨S64, .f32⟩ : BufTy).Contents (Elt F) → (⟨S1x64, .f32⟩ : BufTy).Contents (Elt F)),
    StableHlo.unary main_v162 main_v163 (broadcastInDim S50000x64 ![0, 1] bcast_S1x64_S50000x64_0_1 : (⟨S1x64, .f32⟩ : BufTy).Contents (Elt F) → (⟨S50000x64, .f32⟩ : BufTy).Contents (Elt F)),
    StableHlo.binary main_v161 main_v163 main_v164 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (.of main_v164) main_call7.v0 main_call7.v1 maximumf,
    StableHlo.binary main_v165 main_v87 main_v166 (addf : (⟨S50000x64, .f32⟩ : BufTy).Contents (Elt F) → (⟨S50000x64, .f32⟩ : BufTy).Contents (Elt F) → (⟨S50000x64, .f32⟩ : BufTy).Contents (Elt F)) ]

/-- The operations of layer 2 (136). -/
abbrev opsL2 : List (HloOp τ sig (Elt F)) :=
  [ StableHlo.nullary main_c_20 (constantI S_ 32 0#32),
    StableHlo.unary main_c_20 main_v167 (broadcastInDim S800000 ![] bcast_S_S800000 : (⟨S_, .i32⟩ : BufTy).Contents (Elt F) → (⟨S800000, .i32⟩ : BufTy).Contents (Elt F)),
    StableHlo.binary main_v6 main_v167 main_v168 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v169 (broadcastInDim S800000 ![] bcast_S_S800000 : (⟨S_, .i32⟩ : BufTy).Contents (Elt F) → (⟨S800000, .i32⟩ : BufTy).Contents (Elt F)),
    StableHlo.binary main_v6 main_v169 main_v170 (addi : (⟨S800000, .i32⟩ : BufTy).Contents (Elt F) → (⟨S800000, .i32⟩ : BufTy).Contents (Elt F) → (⟨S800000, .i32⟩ : BufTy).Contents (Elt F)),
    StableHlo.ternary main_v168 main_v170 main_v6 main_v171 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v171 main_v172 (broadcastInDim S800000x1 ![0] bcast_S800000_S800000x1_0 : (⟨S800000, .i32⟩ : BufTy).Contents (Elt F) → (⟨S800000x1, .i32⟩ : BufTy).Contents (Elt F)),
    StableHlo.binary main_v166 main_v172 main_v173 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg3 main_v174 (broadcastInDim S800000x1 ![0] bcast_S800000_S800000x1_0 : (⟨S800000, .f32⟩ : BufTy).Contents (Elt F) → (⟨S800000x1, .f32⟩ : BufTy).Contents (Elt F)),
    StableHlo.unary main_v174 main_v175 (broadcastInDim S800000x64 ![0, 1] bcast_S800000x1_S800000x64_0_1 : (⟨S800000x1, .f32⟩ : BufTy).Contents (Elt F) → (⟨S800000x64, .f32⟩ : BufTy).Contents (Elt F)),
    StableHlo.binary main_v173 main_v175 main_v176 (mulf : (⟨S800000x64, .f32⟩ : BufTy).Contents (Elt F) → (⟨S800000x64, .f32⟩ : BufTy).Contents (Elt F) → (⟨S800000x64, .f32⟩ : BufTy).Contents (Elt F)),
    StableHlo.nullary main_cst_22 (constant S_ .f32 0x00000000#32),
    StableHlo.unary main_cst_22 main_v177 (broadcastInDim S50000x64 ![] bcast_S_S50000x64 : (⟨S_, .f32⟩ : BufTy).Contents (Elt F) → (⟨S50000x64, .f32⟩ : BufTy).Contents (Elt F)),
    StableHlo.unary main_v8 main_v178 (broadcastInDim S800000x1 ![0] bcast_S800000_S800000x1_0 : (⟨S800000, .i32⟩ : BufTy).Contents (Elt F) → (⟨S800000x1, .i32⟩ : BufTy).Contents (Elt F)),
    StableHlo.ternary main_v177 main_v178 main_v176 main_v179 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v179 main_v166 main_v180 (addf : (⟨S50000x64, .f32⟩ : BufTy).Contents (Elt F) → (⟨S50000x64, .f32⟩ : BufTy).Contents (Elt F) → (⟨S50000x64, .f32⟩ : BufTy).Contents (Elt F)),
    StableHlo.unary main_arg6 main_v181 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v181 main_v182 rfl shapeCasts_S1x64x64_S64x64,
    StableHlo.binary main_v180 main_v182 main_v183 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v184 ((extractStridedSlice S1x64 ![2, 0] · slices_S4x64_S1x64_2_0) : (⟨S4x64, .f32⟩ : BufTy).Contents (Elt F) → (⟨S1x64, .f32⟩ : BufTy).Contents (Elt F)),
    StableHlo.reshape main_v184 main_v185 rfl shapeCasts_S1x64_S64,
    StableHlo.unary main_v185 main_v186 (broadcastInDim S1x64 ![1] bcast_S64_S1x64_1 : (⟨S64, .f32⟩ : BufTy).Contents (Elt F) → (⟨S1x64, .f32⟩ : BufTy).Contents (Elt F)),
    StableHlo.unary main_v186 main_v187 (broadcastInDim S50000x64 ![0, 1] bcast_S1x64_S50000x64_0_1 : (⟨S1x64, .f32⟩ : BufTy).Contents (Elt F) → (⟨S50000x64, .f32⟩ : BufTy).Contents (Elt F)),
    StableHlo.binary main_v183 main_v187 main_v188 (addf : (⟨S50000x64, .f32⟩ : BufTy).Contents (Elt F) → (⟨S50000x64, .f32⟩ : BufTy).Contents (Elt F) → (⟨S50000x64, .f32⟩ : BufTy).Contents (Elt F)),
    StableHlo.unary main_arg8 main_v189 ((extractStridedSlice S1x64 ![2, 0] · slices_S4x64_S1x64_2_0) : (⟨S4x64, .f32⟩ : BufTy).Contents (Elt F) → (⟨S1x64, .f32⟩ : BufTy).Contents (Elt F)),
    StableHlo.reshape main_v189 main_v190 rfl shapeCasts_S1x64_S64,
    StableHlo.unary main_arg9 main_v191 ((extractStridedSlice S1x64 ![2, 0] · slices_S4x64_S1x64_2_0) : (⟨S4x64, .f32⟩ : BufTy).Contents (Elt F) → (⟨S1x64, .f32⟩ : BufTy).Contents (Elt F)),
    StableHlo.reshape main_v191 main_v192 rfl shapeCasts_S1x64_S64,
    StableHlo.nullary main_cst_23 (constant S_ .f32 0x00000000#32),
    StableHlo.binary main_v188 main_cst_23 main_v193 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_24 (constant S_ .f32 0x47435000#32),
    StableHlo.unary main_cst_24 main_v194 (broadcastInDim S64 ![] bcast_S_S64 : (⟨S_, .f32⟩ : BufTy).Contents (Elt F) → (⟨S64, .f32⟩ : BufTy).Contents (Elt F)),
    StableHlo.binary main_v193 main_v194 main_v195 (Host.divf : (⟨S64, .f32⟩ : BufTy).Contents (Elt F) → (⟨S64, .f32⟩ : BufTy).Contents (Elt F) → (⟨S64, .f32⟩ : BufTy).Contents (Elt F)),
    StableHlo.nullary main_c_25 (constantI S_ 32 0#32),
    StableHlo.TRef.nullary main_call8.cst (constant S_ .f32 0x00000000#32),
    StableHlo.TRef.binary (.of main_v188) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v188) main_call8.v4 main_call8.v5 subf,
    StableHlo.TRef.binary main_call8.v5 main_call8.v5 main_call8.v6 mulf,
    StableHlo.TRef.unary (.of main_c_25) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v195 main_v197 (broadcastInDim S1x64 ![1] bcast_S64_S1x64_1 : (⟨S64, .f32⟩ : BufTy).Contents (Elt F) → (⟨S1x64, .f32⟩ : BufTy).Contents (Elt F)),
    StableHlo.unary main_v197 main_v198 (broadcastInDim S50000x64 ![0, 1] bcast_S1x64_S50000x64_0_1 : (⟨S1x64, .f32⟩ : BufTy).Contents (Elt F) → (⟨S50000x64, .f32⟩ : BufTy).Contents (Elt F)),
    StableHlo.binary main_v188 main_v198 main_v199 (subf : (⟨S50000x64, .f32⟩ : BufTy).Contents (Elt F) → (⟨S50000x64, .f32⟩ : BufTy).Contents (Elt F) → (⟨S50000x64, .f32⟩ : BufTy).Contents (Elt F)),
    StableHlo.nullary main_cst_26 (constant S_ .f32 0x3727C5AC#32),
    StableHlo.unary main_cst_26 main_v200 (broadcastInDim S64 ![] bcast_S_S64 : (⟨S_, .f32⟩ : BufTy).Contents (Elt F) → (⟨S64, .f32⟩ : BufTy).Contents (Elt F)),
    StableHlo.binary main_v196 main_v200 main_v201 (addf : (⟨S64, .f32⟩ : BufTy).Contents (Elt F) → (⟨S64, .f32⟩ : BufTy).Contents (Elt F) → (⟨S64, .f32⟩ : BufTy).Contents (Elt F)),
    StableHlo.unary main_v201 main_v202 (Host.rsqrt : (⟨S64, .f32⟩ : BufTy).Contents (Elt F) → (⟨S64, .f32⟩ : BufTy).Contents (Elt F)),
    StableHlo.unary main_v202 main_v203 (broadcastInDim S1x64 ![1] bcast_S64_S1x64_1 : (⟨S64, .f32⟩ : BufTy).Contents (Elt F) → (⟨S1x64, .f32⟩ : BufTy).Contents (Elt F)),
    StableHlo.unary main_v203 main_v204 (broadcastInDim S50000x64 ![0, 1] bcast_S1x64_S50000x64_0_1 : (⟨S1x64, .f32⟩ : BufTy).Contents (Elt F) → (⟨S50000x64, .f32⟩ : BufTy).Contents (Elt F)),
    StableHlo.binary main_v199 main_v204 main_v205 (mulf : (⟨S50000x64, .f32⟩ : BufTy).Contents (Elt F) → (⟨S50000x64, .f32⟩ : BufTy).Contents (Elt F) → (⟨S50000x64, .f32⟩ : BufTy).Contents (Elt F)),
    StableHlo.unary main_v190 main_v206 (broadcastInDim S1x64 ![1] bcast_S64_S1x64_1 : (⟨S64, .f32⟩ : BufTy).Contents (Elt F) → (⟨S1x64, .f32⟩ : BufTy).Contents (Elt F)),
    StableHlo.unary main_v206 main_v207 (broadcastInDim S50000x64 ![0, 1] bcast_S1x64_S50000x64_0_1 : (⟨S1x64, .f32⟩ : BufTy).Contents (Elt F) → (⟨S50000x64, .f32⟩ : BufTy).Contents (Elt F)),
    StableHlo.binary main_v205 main_v207 main_v208 (mulf : (⟨S50000x64, .f32⟩ : BufTy).Contents (Elt F) → (⟨S50000x64, .f32⟩ : BufTy).Contents (Elt F) → (⟨S50000x64, .f32⟩ : BufTy).Contents (Elt F)),
    StableHlo.unary main_v192 main_v209 (broadcastInDim S1x64 ![1] bcast_S64_S1x64_1 : (⟨S64, .f32⟩ : BufTy).Contents (Elt F) → (⟨S1x64, .f32⟩ : BufTy).Contents (Elt F)),
    StableHlo.unary main_v209 main_v210 (broadcastInDim S50000x64 ![0, 1] bcast_S1x64_S50000x64_0_1 : (⟨S1x64, .f32⟩ : BufTy).Contents (Elt F) → (⟨S50000x64, .f32⟩ : BufTy).Contents (Elt F)),
    StableHlo.binary main_v208 main_v210 main_v211 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v211) main_call9.v0 main_call9.v1 maximumf,
    StableHlo.unary main_arg10 main_v213 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v213 main_v214 rfl shapeCasts_S1x64x64_S64x64,
    StableHlo.binary main_v212 main_v214 main_v215 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v216 ((extractStridedSlice S1x64 ![2, 0] · slices_S4x64_S1x64_2_0) : (⟨S4x64, .f32⟩ : BufTy).Contents (Elt F) → (⟨S1x64, .f32⟩ : BufTy).Contents (Elt F)),
    StableHlo.reshape main_v216 main_v217 rfl shapeCasts_S1x64_S64,
    StableHlo.unary main_v217 main_v218 (broadcastInDim S1x64 ![1] bcast_S64_S1x64_1 : (⟨S64, .f32⟩ : BufTy).Contents (Elt F) → (⟨S1x64, .f32⟩ : BufTy).Contents (Elt F)),
    StableHlo.unary main_v218 main_v219 (broadcastInDim S50000x64 ![0, 1] bcast_S1x64_S50000x64_0_1 : (⟨S1x64, .f32⟩ : BufTy).Contents (Elt F) → (⟨S50000x64, .f32⟩ : BufTy).Contents (Elt F)),
    StableHlo.binary main_v215 main_v219 main_v220 (addf : (⟨S50000x64, .f32⟩ : BufTy).Contents (Elt F) → (⟨S50000x64, .f32⟩ : BufTy).Contents (Elt F) → (⟨S50000x64, .f32⟩ : BufTy).Contents (Elt F)),
    StableHlo.unary main_arg12 main_v221 ((extractStridedSlice S1x64 ![2, 0] · slices_S4x64_S1x64_2_0) : (⟨S4x64, .f32⟩ : BufTy).Contents (Elt F) → (⟨S1x64, .f32⟩ : BufTy).Contents (Elt F)),
    StableHlo.reshape main_v221 main_v222 rfl shapeCasts_S1x64_S64,
    StableHlo.unary main_arg13 main_v223 ((extractStridedSlice S1x64 ![2, 0] · slices_S4x64_S1x64_2_0) : (⟨S4x64, .f32⟩ : BufTy).Contents (Elt F) → (⟨S1x64, .f32⟩ : BufTy).Contents (Elt F)),
    StableHlo.reshape main_v223 main_v224 rfl shapeCasts_S1x64_S64,
    StableHlo.nullary main_cst_27 (constant S_ .f32 0x00000000#32),
    StableHlo.binary main_v220 main_cst_27 main_v225 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_28 (constant S_ .f32 0x47435000#32),
    StableHlo.unary main_cst_28 main_v226 (broadcastInDim S64 ![] bcast_S_S64 : (⟨S_, .f32⟩ : BufTy).Contents (Elt F) → (⟨S64, .f32⟩ : BufTy).Contents (Elt F)),
    StableHlo.binary main_v225 main_v226 main_v227 (Host.divf : (⟨S64, .f32⟩ : BufTy).Contents (Elt F) → (⟨S64, .f32⟩ : BufTy).Contents (Elt F) → (⟨S64, .f32⟩ : BufTy).Contents (Elt F)),
    StableHlo.nullary main_c_29 (constantI S_ 32 0#32),
    StableHlo.TRef.nullary main_call10.cst (constant S_ .f32 0x00000000#32),
    StableHlo.TRef.binary (.of main_v220) main_call10.cst main_call10.v0 (fun x v => Host.reduceAdd x v reducesTo_S50000x64_S64_d0 h_S_),
    StableHlo.TRef.unary main_call10.v0 main_call10.v1 (broadcastInDim S1x64 ![1] bcast_S64_S1x64_1),
    StableHlo.TRef.nullary main_call10.cst_0 (constant S_ .f32 0x47435000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S50000x64 ![0, 1] bcast_S1x64_S50000x64_0_1),
    StableHlo.TRef.binary (.of main_v220) main_call10.v4 main_call10.v5 subf,
    StableHlo.TRef.binary main_call10.v5 main_call10.v5 main_call10.v6 mulf,
    StableHlo.TRef.unary (.of main_c_29) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v227 main_v229 (broadcastInDim S1x64 ![1] bcast_S64_S1x64_1 : (⟨S64, .f32⟩ : BufTy).Contents (Elt F) → (⟨S1x64, .f32⟩ : BufTy).Contents (Elt F)),
    StableHlo.unary main_v229 main_v230 (broadcastInDim S50000x64 ![0, 1] bcast_S1x64_S50000x64_0_1 : (⟨S1x64, .f32⟩ : BufTy).Contents (Elt F) → (⟨S50000x64, .f32⟩ : BufTy).Contents (Elt F)),
    StableHlo.binary main_v220 main_v230 main_v231 (subf : (⟨S50000x64, .f32⟩ : BufTy).Contents (Elt F) → (⟨S50000x64, .f32⟩ : BufTy).Contents (Elt F) → (⟨S50000x64, .f32⟩ : BufTy).Contents (Elt F)),
    StableHlo.nullary main_cst_30 (constant S_ .f32 0x3727C5AC#32),
    StableHlo.unary main_cst_30 main_v232 (broadcastInDim S64 ![] bcast_S_S64 : (⟨S_, .f32⟩ : BufTy).Contents (Elt F) → (⟨S64, .f32⟩ : BufTy).Contents (Elt F)),
    StableHlo.binary main_v228 main_v232 main_v233 (addf : (⟨S64, .f32⟩ : BufTy).Contents (Elt F) → (⟨S64, .f32⟩ : BufTy).Contents (Elt F) → (⟨S64, .f32⟩ : BufTy).Contents (Elt F)),
    StableHlo.unary main_v233 main_v234 (Host.rsqrt : (⟨S64, .f32⟩ : BufTy).Contents (Elt F) → (⟨S64, .f32⟩ : BufTy).Contents (Elt F)),
    StableHlo.unary main_v234 main_v235 (broadcastInDim S1x64 ![1] bcast_S64_S1x64_1 : (⟨S64, .f32⟩ : BufTy).Contents (Elt F) → (⟨S1x64, .f32⟩ : BufTy).Contents (Elt F)),
    StableHlo.unary main_v235 main_v236 (broadcastInDim S50000x64 ![0, 1] bcast_S1x64_S50000x64_0_1 : (⟨S1x64, .f32⟩ : BufTy).Contents (Elt F) → (⟨S50000x64, .f32⟩ : BufTy).Contents (Elt F)),
    StableHlo.binary main_v231 main_v236 main_v237 (mulf : (⟨S50000x64, .f32⟩ : BufTy).Contents (Elt F) → (⟨S50000x64, .f32⟩ : BufTy).Contents (Elt F) → (⟨S50000x64, .f32⟩ : BufTy).Contents (Elt F)),
    StableHlo.unary main_v222 main_v238 (broadcastInDim S1x64 ![1] bcast_S64_S1x64_1 : (⟨S64, .f32⟩ : BufTy).Contents (Elt F) → (⟨S1x64, .f32⟩ : BufTy).Contents (Elt F)),
    StableHlo.unary main_v238 main_v239 (broadcastInDim S50000x64 ![0, 1] bcast_S1x64_S50000x64_0_1 : (⟨S1x64, .f32⟩ : BufTy).Contents (Elt F) → (⟨S50000x64, .f32⟩ : BufTy).Contents (Elt F)),
    StableHlo.binary main_v237 main_v239 main_v240 (mulf : (⟨S50000x64, .f32⟩ : BufTy).Contents (Elt F) → (⟨S50000x64, .f32⟩ : BufTy).Contents (Elt F) → (⟨S50000x64, .f32⟩ : BufTy).Contents (Elt F)),
    StableHlo.unary main_v224 main_v241 (broadcastInDim S1x64 ![1] bcast_S64_S1x64_1 : (⟨S64, .f32⟩ : BufTy).Contents (Elt F) → (⟨S1x64, .f32⟩ : BufTy).Contents (Elt F)),
    StableHlo.unary main_v241 main_v242 (broadcastInDim S50000x64 ![0, 1] bcast_S1x64_S50000x64_0_1 : (⟨S1x64, .f32⟩ : BufTy).Contents (Elt F) → (⟨S50000x64, .f32⟩ : BufTy).Contents (Elt F)),
    StableHlo.binary main_v240 main_v242 main_v243 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (.of main_v243) main_call11.v0 main_call11.v1 maximumf,
    StableHlo.binary main_v244 main_v166 main_v245 (addf : (⟨S50000x64, .f32⟩ : BufTy).Contents (Elt F) → (⟨S50000x64, .f32⟩ : BufTy).Contents (Elt F) → (⟨S50000x64, .f32⟩ : BufTy).Contents (Elt F)) ]

/-- The operations of layer 3 (136). -/
abbrev opsL3 : List (HloOp τ sig (Elt F)) :=
  [ StableHlo.nullary main_c_31 (constantI S_ 32 0#32),
    StableHlo.unary main_c_31 main_v246 (broadcastInDim S800000 ![] bcast_S_S800000 : (⟨S_, .i32⟩ : BufTy).Contents (Elt F) → (⟨S800000, .i32⟩ : BufTy).Contents (Elt F)),
    StableHlo.binary main_v6 main_v246 main_v247 (cmpi .slt : (⟨S800000, .i32⟩ : BufTy).Contents (Elt F) → (⟨S800000, .i32⟩ : BufTy).Contents (Elt F) → (⟨S800000, .i1⟩ : BufTy).Contents (Elt F)),
    StableHlo.nullary main_c_32 (constantI S_ 32 50000#32),
    StableHlo.unary main_c_32 main_v248 (broadcastInDim S800000 ![] bcast_S_S800000 : (⟨S_, .i32⟩ : BufTy).Contents (Elt F) → (⟨S800000, .i32⟩ : BufTy).Contents (Elt F)),
    StableHlo.binary main_v6 main_v248 main_v249 (addi : (⟨S800000, .i32⟩ : BufTy).Contents (Elt F) → (⟨S800000, .i32⟩ : BufTy).Contents (Elt F) → (⟨S800000, .i32⟩ : BufTy).Contents (Elt F)),
    StableHlo.ternary main_v247 main_v249 main_v6 main_v250 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v250 main_v251 (broadcastInDim S800000x1 ![0] bcast_S800000_S800000x1_0 : (⟨S800000, .i32⟩ : BufTy).Contents (Elt F) → (⟨S800000x1, .i32⟩ : BufTy).Contents (Elt F)),
    StableHlo.binary main_v245 main_v251 main_v252 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg3 main_v253 (broadcastInDim S800000x1 ![0] bcast_S800000_S800000x1_0 : (⟨S800000, .f32⟩ : BufTy).Contents (Elt F) → (⟨S800000x1, .f32⟩ : BufTy).Contents (Elt F)),
    StableHlo.unary main_v253 main_v254 (broadcastInDim S800000x64 ![0, 1] bcast_S800000x1_S800000x64_0_1 : (⟨S800000x1, .f32⟩ : BufTy).Contents (Elt F) → (⟨S800000x64, .f32⟩ : BufTy).Contents (Elt F)),
    StableHlo.binary main_v252 main_v254 main_v255 (mulf : (⟨S800000x64, .f32⟩ : BufTy).Contents (Elt F) → (⟨S800000x64, .f32⟩ : BufTy).Contents (Elt F) → (⟨S800000x64, .f32⟩ : BufTy).Contents (Elt F)),
    StableHlo.nullary main_cst_33 (constant S_ .f32 0x00000000#32),
    StableHlo.unary main_cst_33 main_v256 (broadcastInDim S50000x64 ![] bcast_S_S50000x64 : (⟨S_, .f32⟩ : BufTy).Contents (Elt F) → (⟨S50000x64, .f32⟩ : BufTy).Contents (Elt F)),
    StableHlo.unary main_v8 main_v257 (broadcastInDim S800000x1 ![0] bcast_S800000_S800000x1_0 : (⟨S800000, .i32⟩ : BufTy).Contents (Elt F) → (⟨S800000x1, .i32⟩ : BufTy).Contents (Elt F)),
    StableHlo.ternary main_v256 main_v257 main_v255 main_v258 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v258 main_v245 main_v259 (addf : (⟨S50000x64, .f32⟩ : BufTy).Contents (Elt F) → (⟨S50000x64, .f32⟩ : BufTy).Contents (Elt F) → (⟨S50000x64, .f32⟩ : BufTy).Contents (Elt F)),
    StableHlo.unary main_arg6 main_v260 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v260 main_v261 rfl shapeCasts_S1x64x64_S64x64,
    StableHlo.binary main_v259 main_v261 main_v262 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v263 ((extractStridedSlice S1x64 ![3, 0] · slices_S4x64_S1x64_3_0) : (⟨S4x64, .f32⟩ : BufTy).Contents (Elt F) → (⟨S1x64, .f32⟩ : BufTy).Contents (Elt F)),
    StableHlo.reshape main_v263 main_v264 rfl shapeCasts_S1x64_S64,
    StableHlo.unary main_v264 main_v265 (broadcastInDim S1x64 ![1] bcast_S64_S1x64_1 : (⟨S64, .f32⟩ : BufTy).Contents (Elt F) → (⟨S1x64, .f32⟩ : BufTy).Contents (Elt F)),
    StableHlo.unary main_v265 main_v266 (broadcastInDim S50000x64 ![0, 1] bcast_S1x64_S50000x64_0_1 : (⟨S1x64, .f32⟩ : BufTy).Contents (Elt F) → (⟨S50000x64, .f32⟩ : BufTy).Contents (Elt F)),
    StableHlo.binary main_v262 main_v266 main_v267 (addf : (⟨S50000x64, .f32⟩ : BufTy).Contents (Elt F) → (⟨S50000x64, .f32⟩ : BufTy).Contents (Elt F) → (⟨S50000x64, .f32⟩ : BufTy).Contents (Elt F)),
    StableHlo.unary main_arg8 main_v268 ((extractStridedSlice S1x64 ![3, 0] · slices_S4x64_S1x64_3_0) : (⟨S4x64, .f32⟩ : BufTy).Contents (Elt F) → (⟨S1x64, .f32⟩ : BufTy).Contents (Elt F)),
    StableHlo.reshape main_v268 main_v269 rfl shapeCasts_S1x64_S64,
    StableHlo.unary main_arg9 main_v270 ((extractStridedSlice S1x64 ![3, 0] · slices_S4x64_S1x64_3_0) : (⟨S4x64, .f32⟩ : BufTy).Contents (Elt F) → (⟨S1x64, .f32⟩ : BufTy).Contents (Elt F)),
    StableHlo.reshape main_v270 main_v271 rfl shapeCasts_S1x64_S64,
    StableHlo.nullary main_cst_34 (constant S_ .f32 0x00000000#32),
    StableHlo.binary main_v267 main_cst_34 main_v272 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_35 (constant S_ .f32 0x47435000#32),
    StableHlo.unary main_cst_35 main_v273 (broadcastInDim S64 ![] bcast_S_S64 : (⟨S_, .f32⟩ : BufTy).Contents (Elt F) → (⟨S64, .f32⟩ : BufTy).Contents (Elt F)),
    StableHlo.binary main_v272 main_v273 main_v274 (Host.divf : (⟨S64, .f32⟩ : BufTy).Contents (Elt F) → (⟨S64, .f32⟩ : BufTy).Contents (Elt F) → (⟨S64, .f32⟩ : BufTy).Contents (Elt F)),
    StableHlo.nullary main_c_36 (constantI S_ 32 0#32),
    StableHlo.TRef.nullary main_call12.cst (constant S_ .f32 0x00000000#32),
    StableHlo.TRef.binary (.of main_v267) main_call12.cst main_call12.v0 (fun x v => Host.reduceAdd x v reducesTo_S50000x64_S64_d0 h_S_),
    StableHlo.TRef.unary main_call12.v0 main_call12.v1 (broadcastInDim S1x64 ![1] bcast_S64_S1x64_1),
    StableHlo.TRef.nullary main_call12.cst_0 (constant S_ .f32 0x47435000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S50000x64 ![0, 1] bcast_S1x64_S50000x64_0_1),
    StableHlo.TRef.binary (.of main_v267) main_call12.v4 main_call12.v5 subf,
    StableHlo.TRef.binary main_call12.v5 main_call12.v5 main_call12.v6 mulf,
    StableHlo.TRef.unary (.of main_c_36) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S64 ![] bcast_S_S64),
    StableHlo.TRef.ternary main_call12.v12 main_call12.v11 main_call12.call0.v1 main_call12.call0.v2 (fun p a b => select (broadcastInDim S64 ![] bcast_S_S64 p) a b),
    StableHlo.unary main_v274 main_v276 (broadcastInDim S1x64 ![1] bcast_S64_S1x64_1 : (⟨S64, .f32⟩ : BufTy).Contents (Elt F) → (⟨S1x64, .f32⟩ : BufTy).Contents (Elt F)),
    StableHlo.unary main_v276 main_v277 (broadcastInDim S50000x64 ![0, 1] bcast_S1x64_S50000x64_0_1 : (⟨S1x64, .f32⟩ : BufTy).Contents (Elt F) → (⟨S50000x64, .f32⟩ : BufTy).Contents (Elt F)),
    StableHlo.binary main_v267 main_v277 main_v278 (subf : (⟨S50000x64, .f32⟩ : BufTy).Contents (Elt F) → (⟨S50000x64, .f32⟩ : BufTy).Contents (Elt F) → (⟨S50000x64, .f32⟩ : BufTy).Contents (Elt F)),
    StableHlo.nullary main_cst_37 (constant S_ .f32 0x3727C5AC#32),
    StableHlo.unary main_cst_37 main_v279 (broadcastInDim S64 ![] bcast_S_S64 : (⟨S_, .f32⟩ : BufTy).Contents (Elt F) → (⟨S64, .f32⟩ : BufTy).Contents (Elt F)),
    StableHlo.binary main_v275 main_v279 main_v280 (addf : (⟨S64, .f32⟩ : BufTy).Contents (Elt F) → (⟨S64, .f32⟩ : BufTy).Contents (Elt F) → (⟨S64, .f32⟩ : BufTy).Contents (Elt F)),
    StableHlo.unary main_v280 main_v281 (Host.rsqrt : (⟨S64, .f32⟩ : BufTy).Contents (Elt F) → (⟨S64, .f32⟩ : BufTy).Contents (Elt F)),
    StableHlo.unary main_v281 main_v282 (broadcastInDim S1x64 ![1] bcast_S64_S1x64_1 : (⟨S64, .f32⟩ : BufTy).Contents (Elt F) → (⟨S1x64, .f32⟩ : BufTy).Contents (Elt F)),
    StableHlo.unary main_v282 main_v283 (broadcastInDim S50000x64 ![0, 1] bcast_S1x64_S50000x64_0_1 : (⟨S1x64, .f32⟩ : BufTy).Contents (Elt F) → (⟨S50000x64, .f32⟩ : BufTy).Contents (Elt F)),
    StableHlo.binary main_v278 main_v283 main_v284 (mulf : (⟨S50000x64, .f32⟩ : BufTy).Contents (Elt F) → (⟨S50000x64, .f32⟩ : BufTy).Contents (Elt F) → (⟨S50000x64, .f32⟩ : BufTy).Contents (Elt F)),
    StableHlo.unary main_v269 main_v285 (broadcastInDim S1x64 ![1] bcast_S64_S1x64_1 : (⟨S64, .f32⟩ : BufTy).Contents (Elt F) → (⟨S1x64, .f32⟩ : BufTy).Contents (Elt F)),
    StableHlo.unary main_v285 main_v286 (broadcastInDim S50000x64 ![0, 1] bcast_S1x64_S50000x64_0_1 : (⟨S1x64, .f32⟩ : BufTy).Contents (Elt F) → (⟨S50000x64, .f32⟩ : BufTy).Contents (Elt F)),
    StableHlo.binary main_v284 main_v286 main_v287 (mulf : (⟨S50000x64, .f32⟩ : BufTy).Contents (Elt F) → (⟨S50000x64, .f32⟩ : BufTy).Contents (Elt F) → (⟨S50000x64, .f32⟩ : BufTy).Contents (Elt F)),
    StableHlo.unary main_v271 main_v288 (broadcastInDim S1x64 ![1] bcast_S64_S1x64_1 : (⟨S64, .f32⟩ : BufTy).Contents (Elt F) → (⟨S1x64, .f32⟩ : BufTy).Contents (Elt F)),
    StableHlo.unary main_v288 main_v289 (broadcastInDim S50000x64 ![0, 1] bcast_S1x64_S50000x64_0_1 : (⟨S1x64, .f32⟩ : BufTy).Contents (Elt F) → (⟨S50000x64, .f32⟩ : BufTy).Contents (Elt F)),
    StableHlo.binary main_v287 main_v289 main_v290 (addf : (⟨S50000x64, .f32⟩ : BufTy).Contents (Elt F) → (⟨S50000x64, .f32⟩ : BufTy).Contents (Elt F) → (⟨S50000x64, .f32⟩ : BufTy).Contents (Elt F)),
    StableHlo.TRef.nullary main_call13.cst (constant S_ .f32 0x00000000#32),
    StableHlo.TRef.unary main_call13.cst main_call13.v0 (broadcastInDim S50000x64 ![] bcast_S_S50000x64),
    StableHlo.TRef.binary (.of main_v290) main_call13.v0 main_call13.v1 maximumf,
    StableHlo.unary main_arg10 main_v292 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v292 main_v293 rfl shapeCasts_S1x64x64_S64x64,
    StableHlo.binary main_v291 main_v293 main_v294 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v295 ((extractStridedSlice S1x64 ![3, 0] · slices_S4x64_S1x64_3_0) : (⟨S4x64, .f32⟩ : BufTy).Contents (Elt F) → (⟨S1x64, .f32⟩ : BufTy).Contents (Elt F)),
    StableHlo.reshape main_v295 main_v296 rfl shapeCasts_S1x64_S64,
    StableHlo.unary main_v296 main_v297 (broadcastInDim S1x64 ![1] bcast_S64_S1x64_1 : (⟨S64, .f32⟩ : BufTy).Contents (Elt F) → (⟨S1x64, .f32⟩ : BufTy).Contents (Elt F)),
    StableHlo.unary main_v297 main_v298 (broadcastInDim S50000x64 ![0, 1] bcast_S1x64_S50000x64_0_1 : (⟨S1x64, .f32⟩ : BufTy).Contents (Elt F) → (⟨S50000x64, .f32⟩ : BufTy).Contents (Elt F)),
    StableHlo.binary main_v294 main_v298 main_v299 (addf : (⟨S50000x64, .f32⟩ : BufTy).Contents (Elt F) → (⟨S50000x64, .f32⟩ : BufTy).Contents (Elt F) → (⟨S50000x64, .f32⟩ : BufTy).Contents (Elt F)),
    StableHlo.unary main_arg12 main_v300 ((extractStridedSlice S1x64 ![3, 0] · slices_S4x64_S1x64_3_0) : (⟨S4x64, .f32⟩ : BufTy).Contents (Elt F) → (⟨S1x64, .f32⟩ : BufTy).Contents (Elt F)),
    StableHlo.reshape main_v300 main_v301 rfl shapeCasts_S1x64_S64,
    StableHlo.unary main_arg13 main_v302 ((extractStridedSlice S1x64 ![3, 0] · slices_S4x64_S1x64_3_0) : (⟨S4x64, .f32⟩ : BufTy).Contents (Elt F) → (⟨S1x64, .f32⟩ : BufTy).Contents (Elt F)),
    StableHlo.reshape main_v302 main_v303 rfl shapeCasts_S1x64_S64,
    StableHlo.nullary main_cst_38 (constant S_ .f32 0x00000000#32),
    StableHlo.binary main_v299 main_cst_38 main_v304 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_39 (constant S_ .f32 0x47435000#32),
    StableHlo.unary main_cst_39 main_v305 (broadcastInDim S64 ![] bcast_S_S64 : (⟨S_, .f32⟩ : BufTy).Contents (Elt F) → (⟨S64, .f32⟩ : BufTy).Contents (Elt F)),
    StableHlo.binary main_v304 main_v305 main_v306 (Host.divf : (⟨S64, .f32⟩ : BufTy).Contents (Elt F) → (⟨S64, .f32⟩ : BufTy).Contents (Elt F) → (⟨S64, .f32⟩ : BufTy).Contents (Elt F)),
    StableHlo.nullary main_c_40 (constantI S_ 32 0#32),
    StableHlo.TRef.nullary main_call14.cst (constant S_ .f32 0x00000000#32),
    StableHlo.TRef.binary (.of main_v299) main_call14.cst main_call14.v0 (fun x v => Host.reduceAdd x v reducesTo_S50000x64_S64_d0 h_S_),
    StableHlo.TRef.unary main_call14.v0 main_call14.v1 (broadcastInDim S1x64 ![1] bcast_S64_S1x64_1),
    StableHlo.TRef.nullary main_call14.cst_0 (constant S_ .f32 0x47435000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S50000x64 ![0, 1] bcast_S1x64_S50000x64_0_1),
    StableHlo.TRef.binary (.of main_v299) main_call14.v4 main_call14.v5 subf,
    StableHlo.TRef.binary main_call14.v5 main_call14.v5 main_call14.v6 mulf,
    StableHlo.TRef.unary (.of main_c_40) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S64 ![] bcast_S_S64),
    StableHlo.TRef.ternary main_call14.v12 main_call14.v11 main_call14.call0.v1 main_call14.call0.v2 (fun p a b => select (broadcastInDim S64 ![] bcast_S_S64 p) a b),
    StableHlo.unary main_v306 main_v308 (broadcastInDim S1x64 ![1] bcast_S64_S1x64_1 : (⟨S64, .f32⟩ : BufTy).Contents (Elt F) → (⟨S1x64, .f32⟩ : BufTy).Contents (Elt F)),
    StableHlo.unary main_v308 main_v309 (broadcastInDim S50000x64 ![0, 1] bcast_S1x64_S50000x64_0_1 : (⟨S1x64, .f32⟩ : BufTy).Contents (Elt F) → (⟨S50000x64, .f32⟩ : BufTy).Contents (Elt F)),
    StableHlo.binary main_v299 main_v309 main_v310 (subf : (⟨S50000x64, .f32⟩ : BufTy).Contents (Elt F) → (⟨S50000x64, .f32⟩ : BufTy).Contents (Elt F) → (⟨S50000x64, .f32⟩ : BufTy).Contents (Elt F)),
    StableHlo.nullary main_cst_41 (constant S_ .f32 0x3727C5AC#32),
    StableHlo.unary main_cst_41 main_v311 (broadcastInDim S64 ![] bcast_S_S64 : (⟨S_, .f32⟩ : BufTy).Contents (Elt F) → (⟨S64, .f32⟩ : BufTy).Contents (Elt F)),
    StableHlo.binary main_v307 main_v311 main_v312 (addf : (⟨S64, .f32⟩ : BufTy).Contents (Elt F) → (⟨S64, .f32⟩ : BufTy).Contents (Elt F) → (⟨S64, .f32⟩ : BufTy).Contents (Elt F)),
    StableHlo.unary main_v312 main_v313 (Host.rsqrt : (⟨S64, .f32⟩ : BufTy).Contents (Elt F) → (⟨S64, .f32⟩ : BufTy).Contents (Elt F)),
    StableHlo.unary main_v313 main_v314 (broadcastInDim S1x64 ![1] bcast_S64_S1x64_1 : (⟨S64, .f32⟩ : BufTy).Contents (Elt F) → (⟨S1x64, .f32⟩ : BufTy).Contents (Elt F)),
    StableHlo.unary main_v314 main_v315 (broadcastInDim S50000x64 ![0, 1] bcast_S1x64_S50000x64_0_1 : (⟨S1x64, .f32⟩ : BufTy).Contents (Elt F) → (⟨S50000x64, .f32⟩ : BufTy).Contents (Elt F)),
    StableHlo.binary main_v310 main_v315 main_v316 (mulf : (⟨S50000x64, .f32⟩ : BufTy).Contents (Elt F) → (⟨S50000x64, .f32⟩ : BufTy).Contents (Elt F) → (⟨S50000x64, .f32⟩ : BufTy).Contents (Elt F)),
    StableHlo.unary main_v301 main_v317 (broadcastInDim S1x64 ![1] bcast_S64_S1x64_1 : (⟨S64, .f32⟩ : BufTy).Contents (Elt F) → (⟨S1x64, .f32⟩ : BufTy).Contents (Elt F)),
    StableHlo.unary main_v317 main_v318 (broadcastInDim S50000x64 ![0, 1] bcast_S1x64_S50000x64_0_1 : (⟨S1x64, .f32⟩ : BufTy).Contents (Elt F) → (⟨S50000x64, .f32⟩ : BufTy).Contents (Elt F)),
    StableHlo.binary main_v316 main_v318 main_v319 (mulf : (⟨S50000x64, .f32⟩ : BufTy).Contents (Elt F) → (⟨S50000x64, .f32⟩ : BufTy).Contents (Elt F) → (⟨S50000x64, .f32⟩ : BufTy).Contents (Elt F)),
    StableHlo.unary main_v303 main_v320 (broadcastInDim S1x64 ![1] bcast_S64_S1x64_1 : (⟨S64, .f32⟩ : BufTy).Contents (Elt F) → (⟨S1x64, .f32⟩ : BufTy).Contents (Elt F)),
    StableHlo.unary main_v320 main_v321 (broadcastInDim S50000x64 ![0, 1] bcast_S1x64_S50000x64_0_1 : (⟨S1x64, .f32⟩ : BufTy).Contents (Elt F) → (⟨S50000x64, .f32⟩ : BufTy).Contents (Elt F)),
    StableHlo.binary main_v319 main_v321 main_v322 (addf : (⟨S50000x64, .f32⟩ : BufTy).Contents (Elt F) → (⟨S50000x64, .f32⟩ : BufTy).Contents (Elt F) → (⟨S50000x64, .f32⟩ : BufTy).Contents (Elt F)),
    StableHlo.TRef.nullary main_call15.cst (constant S_ .f32 0x00000000#32),
    StableHlo.TRef.unary main_call15.cst main_call15.v0 (broadcastInDim S50000x64 ![] bcast_S_S50000x64),
    StableHlo.TRef.binary (.of main_v322) main_call15.v0 main_call15.v1 maximumf,
    StableHlo.binary main_v323 main_v245 main_v324 (addf : (⟨S50000x64, .f32⟩ : BufTy).Contents (Elt F) → (⟨S50000x64, .f32⟩ : BufTy).Contents (Elt F) → (⟨S50000x64, .f32⟩ : BufTy).Contents (Elt F)) ]

/-- The seven parts in a row are the five stages in a row: the same operations in the same order. -/
theorem ops_cut : (ops0 ++ (ops1 ++ (ops2 ++ (ops3 ++ (ops4 ++ (ops5 ++ ops6))))) : List (HloOp τ sig (Elt F)))
    = opsPre ++ (opsL0 ++ (opsL1 ++ (opsL2 ++ opsL3))) := rfl

end Cert.ReferenceIdeal.Hand

end
-- ==== Proof.RefValueW.lean ====
/- For each stage's list of operations: the buffers it writes, and that every other buffer's contents pass through the list unchanged. -/
import proofs.«100402_j28432683499906_1_alg».proof.Proof.RefValueOps
import proofs.«100402_j28432683499906_1_alg».proof.Proof.RefKeptW

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references stage Pre's operations write, in order (9). -/
noncomputable def WPre : List (Ref sig .tc) :=
  [ main_v0,
    main_v1,
    main_v2,
    main_v3,
    main_v4,
    main_v5,
    main_v6,
    main_v7,
    main_v8 ]

/-- Each operation of stage Pre writes one reference, and it is on the list. -/
theorem writesPre : (opsPre : List (HloOp τ sig (Elt F))).Forall fun op => op.writes ⊆ ((WPre).map (Proc.devRef (τ := τ) .tc)).toFinset :=
  ⟨single_sub_of_mem (y := main_v0) (by decide),
   single_sub_of_mem (y := main_v1) (by decide),
   single_sub_of_mem (y := main_v2) (by decide),
   single_sub_of_mem (y := main_v3) (by decide),
   single_sub_of_mem (y := main_v4) (by decide),
   single_sub_of_mem (y := main_v5) (by decide),
   single_sub_of_mem (y := main_v6) (by decide),
   single_sub_of_mem (y := main_v7) (by decide),
   single_sub_of_mem (y := main_v8) (by decide)⟩

/-- The references stage L0's operations write, in order (136). -/
noncomputable def WL0 : List (Ref sig .tc) :=
  [ main_c,
    main_v9,
    main_v10,
    main_c_0,
    main_v11,
    main_v12,
    main_v13,
    main_v14,
    main_v15,
    main_v16,
    main_v17,
    main_v18,
    main_cst,
    main_v19,
    main_v20,
    main_v21,
    main_v22,
    main_v23,
    main_v24,
    main_v25,
    main_v26,
    main_v27,
    main_v28,
    main_v29,
    main_v30,
    main_v31,
    main_v32,
    main_v33,
    main_v34,
    main_cst_1,
    main_v35,
    main_cst_2,
    main_v36,
    main_v37,
    main_c_3,
    main_call0.cst.ref,
    main_call0.v0.ref,
    main_call0.v1.ref,
    main_call0.cst_0.ref,
    main_call0.v2.ref,
    main_call0.v3.ref,
    main_call0.v4.ref,
    main_call0.v5.ref,
    main_call0.v6.ref,
    main_call0.v7.ref,
    main_call0.cst_1.ref,
    main_call0.v8.ref,
    main_call0.cst_2.ref,
    main_call0.v9.ref,
    main_call0.v10.ref,
    main_call0.v11.ref,
    main_call0.cst_3.ref,
    main_call0.v12.ref,
    main_call0.cst_4.ref,
    main_call0.call0.v0.ref,
    main_call0.call0.v1.ref,
    main_call0.call0.v2.ref,
    main_v39,
    main_v40,
    main_v41,
    main_cst_4,
    main_v42,
    main_v43,
    main_v44,
    main_v45,
    main_v46,
    main_v47,
    main_v48,
    main_v49,
    main_v50,
    main_v51,
    main_v52,
    main_v53,
    main_call1.cst.ref,
    main_call1.v0.ref,
    main_call1.v1.ref,
    main_v55,
    main_v56,
    main_v57,
    main_v58,
    main_v59,
    main_v60,
    main_v61,
    main_v62,
    main_v63,
    main_v64,
    main_v65,
    main_v66,
    main_cst_5,
    main_v67,
    main_cst_6,
    main_v68,
    main_v69,
    main_c_7,
    main_call2.cst.ref,
    main_call2.v0.ref,
    main_call2.v1.ref,
    main_call2.cst_0.ref,
    main_call2.v2.ref,
    main_call2.v3.ref,
    main_call2.v4.ref,
    main_call2.v5.ref,
    main_call2.v6.ref,
    main_call2.v7.ref,
    main_call2.cst_1.ref,
    main_call2.v8.ref,
    main_call2.cst_2.ref,
    main_call2.v9.ref,
    main_call2.v10.ref,
    main_call2.v11.ref,
    main_call2.cst_3.ref,
    main_call2.v12.ref,
    main_call2.cst_4.ref,
    main_call2.call0.v0.ref,
    main_call2.call0.v1.ref,
    main_call2.call0.v2.ref,
    main_v71,
    main_v72,
    main_v73,
    main_cst_8,
    main_v74,
    main_v75,
    main_v76,
    main_v77,
    main_v78,
    main_v79,
    main_v80,
    main_v81,
    main_v82,
    main_v83,
    main_v84,
    main_v85,
    main_call3.cst.ref,
    main_call3.v0.ref,
    main_call3.v1.ref,
    main_v87 ]

/-- Each operation of stage L0 writes one reference, and it is on the list. -/
theorem writesL0 : (opsL0 : List (HloOp τ sig (Elt F))).Forall fun op => op.writes ⊆ ((WL0).map (Proc.devRef (τ := τ) .tc)).toFinset :=
  ⟨single_sub_of_mem (y := main_c) (by decide),
   single_sub_of_mem (y := main_v9) (by decide),
   single_sub_of_mem (y := main_v10) (by decide),
   single_sub_of_mem (y := main_c_0) (by decide),
   single_sub_of_mem (y := main_v11) (by decide),
   single_sub_of_mem (y := main_v12) (by decide),
   single_sub_of_mem (y := main_v13) (by decide),
   single_sub_of_mem (y := main_v14) (by decide),
   single_sub_of_mem (y := main_v15) (by decide),
   single_sub_of_mem (y := main_v16) (by decide),
   single_sub_of_mem (y := main_v17) (by decide),
   single_sub_of_mem (y := main_v18) (by decide),
   single_sub_of_mem (y := main_cst) (by decide),
   single_sub_of_mem (y := main_v19) (by decide),
   single_sub_of_mem (y := main_v20) (by decide),
   single_sub_of_mem (y := main_v21) (by decide),
   single_sub_of_mem (y := main_v22) (by decide),
   single_sub_of_mem (y := main_v23) (by decide),
   single_sub_of_mem (y := main_v24) (by decide),
   single_sub_of_mem (y := main_v25) (by decide),
   single_sub_of_mem (y := main_v26) (by decide),
   single_sub_of_mem (y := main_v27) (by decide),
   single_sub_of_mem (y := main_v28) (by decide),
   single_sub_of_mem (y := main_v29) (by decide),
   single_sub_of_mem (y := main_v30) (by decide),
   single_sub_of_mem (y := main_v31) (by decide),
   single_sub_of_mem (y := main_v32) (by decide),
   single_sub_of_mem (y := main_v33) (by decide),
   single_sub_of_mem (y := main_v34) (by decide),
   single_sub_of_mem (y := main_cst_1) (by decide),
   single_sub_of_mem (y := main_v35) (by decide),
   single_sub_of_mem (y := main_cst_2) (by decide),
   single_sub_of_mem (y := main_v36) (by decide),
   single_sub_of_mem (y := main_v37) (by decide),
   single_sub_of_mem (y := main_c_3) (by decide),
   single_sub_of_mem (y := main_call0.cst.ref) (by decide),
   single_sub_of_mem (y := main_call0.v0.ref) (by decide),
   single_sub_of_mem (y := main_call0.v1.ref) (by decide),
   single_sub_of_mem (y := main_call0.cst_0.ref) (by decide),
   single_sub_of_mem (y := main_call0.v2.ref) (by decide),
   single_sub_of_mem (y := main_call0.v3.ref) (by decide),
   single_sub_of_mem (y := main_call0.v4.ref) (by decide),
   single_sub_of_mem (y := main_call0.v5.ref) (by decide),
   single_sub_of_mem (y := main_call0.v6.ref) (by decide),
   single_sub_of_mem (y := main_call0.v7.ref) (by decide),
   single_sub_of_mem (y := main_call0.cst_1.ref) (by decide),
   single_sub_of_mem (y := main_call0.v8.ref) (by decide),
   single_sub_of_mem (y := main_call0.cst_2.ref) (by decide),
   single_sub_of_mem (y := main_call0.v9.ref) (by decide),
   single_sub_of_mem (y := main_call0.v10.ref) (by decide),
   single_sub_of_mem (y := main_call0.v11.ref) (by decide),
   single_sub_of_mem (y := main_call0.cst_3.ref) (by decide),
   single_sub_of_mem (y := main_call0.v12.ref) (by decide),
   single_sub_of_mem (y := main_call0.cst_4.ref) (by decide),
   single_sub_of_mem (y := main_call0.call0.v0.ref) (by decide),
   single_sub_of_mem (y := main_call0.call0.v1.ref) (by decide),
   single_sub_of_mem (y := main_call0.call0.v2.ref) (by decide),
   single_sub_of_mem (y := main_v39) (by decide),
   single_sub_of_mem (y := main_v40) (by decide),
   single_sub_of_mem (y := main_v41) (by decide),
   single_sub_of_mem (y := main_cst_4) (by decide),
   single_sub_of_mem (y := main_v42) (by decide),
   single_sub_of_mem (y := main_v43) (by decide),
   single_sub_of_mem (y := main_v44) (by decide),
   single_sub_of_mem (y := main_v45) (by decide),
   single_sub_of_mem (y := main_v46) (by decide),
   single_sub_of_mem (y := main_v47) (by decide),
   single_sub_of_mem (y := main_v48) (by decide),
   single_sub_of_mem (y := main_v49) (by decide),
   single_sub_of_mem (y := main_v50) (by decide),
   single_sub_of_mem (y := main_v51) (by decide),
   single_sub_of_mem (y := main_v52) (by decide),
   single_sub_of_mem (y := main_v53) (by decide),
   single_sub_of_mem (y := main_call1.cst.ref) (by decide),
   single_sub_of_mem (y := main_call1.v0.ref) (by decide),
   single_sub_of_mem (y := main_call1.v1.ref) (by decide),
   single_sub_of_mem (y := main_v55) (by decide),
   single_sub_of_mem (y := main_v56) (by decide),
   single_sub_of_mem (y := main_v57) (by decide),
   single_sub_of_mem (y := main_v58) (by decide),
   single_sub_of_mem (y := main_v59) (by decide),
   single_sub_of_mem (y := main_v60) (by decide),
   single_sub_of_mem (y := main_v61) (by decide),
   single_sub_of_mem (y := main_v62) (by decide),
   single_sub_of_mem (y := main_v63) (by decide),
   single_sub_of_mem (y := main_v64) (by decide),
   single_sub_of_mem (y := main_v65) (by decide),
   single_sub_of_mem (y := main_v66) (by decide),
   single_sub_of_mem (y := main_cst_5) (by decide),
   single_sub_of_mem (y := main_v67) (by decide),
   single_sub_of_mem (y := main_cst_6) (by decide),
   single_sub_of_mem (y := main_v68) (by decide),
   single_sub_of_mem (y := main_v69) (by decide),
   single_sub_of_mem (y := main_c_7) (by decide),
   single_sub_of_mem (y := main_call2.cst.ref) (by decide),
   single_sub_of_mem (y := main_call2.v0.ref) (by decide),
   single_sub_of_mem (y := main_call2.v1.ref) (by decide),
   single_sub_of_mem (y := main_call2.cst_0.ref) (by decide),
   single_sub_of_mem (y := main_call2.v2.ref) (by decide),
   single_sub_of_mem (y := main_call2.v3.ref) (by decide),
   single_sub_of_mem (y := main_call2.v4.ref) (by decide),
   single_sub_of_mem (y := main_call2.v5.ref) (by decide),
   single_sub_of_mem (y := main_call2.v6.ref) (by decide),
   single_sub_of_mem (y := main_call2.v7.ref) (by decide),
   single_sub_of_mem (y := main_call2.cst_1.ref) (by decide),
   single_sub_of_mem (y := main_call2.v8.ref) (by decide),
   single_sub_of_mem (y := main_call2.cst_2.ref) (by decide),
   single_sub_of_mem (y := main_call2.v9.ref) (by decide),
   single_sub_of_mem (y := main_call2.v10.ref) (by decide),
   single_sub_of_mem (y := main_call2.v11.ref) (by decide),
   single_sub_of_mem (y := main_call2.cst_3.ref) (by decide),
   single_sub_of_mem (y := main_call2.v12.ref) (by decide),
   single_sub_of_mem (y := main_call2.cst_4.ref) (by decide),
   single_sub_of_mem (y := main_call2.call0.v0.ref) (by decide),
   single_sub_of_mem (y := main_call2.call0.v1.ref) (by decide),
   single_sub_of_mem (y := main_call2.call0.v2.ref) (by decide),
   single_sub_of_mem (y := main_v71) (by decide),
   single_sub_of_mem (y := main_v72) (by decide),
   single_sub_of_mem (y := main_v73) (by decide),
   single_sub_of_mem (y := main_cst_8) (by decide),
   single_sub_of_mem (y := main_v74) (by decide),
   single_sub_of_mem (y := main_v75) (by decide),
   single_sub_of_mem (y := main_v76) (by decide),
   single_sub_of_mem (y := main_v77) (by decide),
   single_sub_of_mem (y := main_v78) (by decide),
   single_sub_of_mem (y := main_v79) (by decide),
   single_sub_of_mem (y := main_v80) (by decide),
   single_sub_of_mem (y := main_v81) (by decide),
   single_sub_of_mem (y := main_v82) (by decide),
   single_sub_of_mem (y := main_v83) (by decide),
   single_sub_of_mem (y := main_v84) (by decide),
   single_sub_of_mem (y := main_v85) (by decide),
   single_sub_of_mem (y := main_call3.cst.ref) (by decide),
   single_sub_of_mem (y := main_call3.v0.ref) (by decide),
   single_sub_of_mem (y := main_call3.v1.ref) (by decide),
   single_sub_of_mem (y := main_v87) (by decide)⟩

/-- The references stage L1's operations write, in order (136). -/
noncomputable def WL1 : List (Ref sig .tc) :=
  [ main_c_9,
    main_v88,
    main_v89,
    main_c_10,
    main_v90,
    main_v91,
    main_v92,
    main_v93,
    main_v94,
    main_v95,
    main_v96,
    main_v97,
    main_cst_11,
    main_v98,
    main_v99,
    main_v100,
    main_v101,
    main_v102,
    main_v103,
    main_v104,
    main_v105,
    main_v106,
    main_v107,
    main_v108,
    main_v109,
    main_v110,
    main_v111,
    main_v112,
    main_v113,
    main_cst_12,
    main_v114,
    main_cst_13,
    main_v115,
    main_v116,
    main_c_14,
    main_call4.cst.ref,
    main_call4.v0.ref,
    main_call4.v1.ref,
    main_call4.cst_0.ref,
    main_call4.v2.ref,
    main_call4.v3.ref,
    main_call4.v4.ref,
    main_call4.v5.ref,
    main_call4.v6.ref,
    main_call4.v7.ref,
    main_call4.cst_1.ref,
    main_call4.v8.ref,
    main_call4.cst_2.ref,
    main_call4.v9.ref,
    main_call4.v10.ref,
    main_call4.v11.ref,
    main_call4.cst_3.ref,
    main_call4.v12.ref,
    main_call4.cst_4.ref,
    main_call4.call0.v0.ref,
    main_call4.call0.v1.ref,
    main_call4.call0.v2.ref,
    main_v118,
    main_v119,
    main_v120,
    main_cst_15,
    main_v121,
    main_v122,
    main_v123,
    main_v124,
    main_v125,
    main_v126,
    main_v127,
    main_v128,
    main_v129,
    main_v130,
    main_v131,
    main_v132,
    main_call5.cst.ref,
    main_call5.v0.ref,
    main_call5.v1.ref,
    main_v134,
    main_v135,
    main_v136,
    main_v137,
    main_v138,
    main_v139,
    main_v140,
    main_v141,
    main_v142,
    main_v143,
    main_v144,
    main_v145,
    main_cst_16,
    main_v146,
    main_cst_17,
    main_v147,
    main_v148,
    main_c_18,
    main_call6.cst.ref,
    main_call6.v0.ref,
    main_call6.v1.ref,
    main_call6.cst_0.ref,
    main_call6.v2.ref,
    main_call6.v3.ref,
    main_call6.v4.ref,
    main_call6.v5.ref,
    main_call6.v6.ref,
    main_call6.v7.ref,
    main_call6.cst_1.ref,
    main_call6.v8.ref,
    main_call6.cst_2.ref,
    main_call6.v9.ref,
    main_call6.v10.ref,
    main_call6.v11.ref,
    main_call6.cst_3.ref,
    main_call6.v12.ref,
    main_call6.cst_4.ref,
    main_call6.call0.v0.ref,
    main_call6.call0.v1.ref,
    main_call6.call0.v2.ref,
    main_v150,
    main_v151,
    main_v152,
    main_cst_19,
    main_v153,
    main_v154,
    main_v155,
    main_v156,
    main_v157,
    main_v158,
    main_v159,
    main_v160,
    main_v161,
    main_v162,
    main_v163,
    main_v164,
    main_call7.cst.ref,
    main_call7.v0.ref,
    main_call7.v1.ref,
    main_v166 ]

/-- Each operation of stage L1 writes one reference, and it is on the list. -/
theorem writesL1 : (opsL1 : List (HloOp τ sig (Elt F))).Forall fun op => op.writes ⊆ ((WL1).map (Proc.devRef (τ := τ) .tc)).toFinset :=
  ⟨single_sub_of_mem (y := main_c_9) (by decide),
   single_sub_of_mem (y := main_v88) (by decide),
   single_sub_of_mem (y := main_v89) (by decide),
   single_sub_of_mem (y := main_c_10) (by decide),
   single_sub_of_mem (y := main_v90) (by decide),
   single_sub_of_mem (y := main_v91) (by decide),
   single_sub_of_mem (y := main_v92) (by decide),
   single_sub_of_mem (y := main_v93) (by decide),
   single_sub_of_mem (y := main_v94) (by decide),
   single_sub_of_mem (y := main_v95) (by decide),
   single_sub_of_mem (y := main_v96) (by decide),
   single_sub_of_mem (y := main_v97) (by decide),
   single_sub_of_mem (y := main_cst_11) (by decide),
   single_sub_of_mem (y := main_v98) (by decide),
   single_sub_of_mem (y := main_v99) (by decide),
   single_sub_of_mem (y := main_v100) (by decide),
   single_sub_of_mem (y := main_v101) (by decide),
   single_sub_of_mem (y := main_v102) (by decide),
   single_sub_of_mem (y := main_v103) (by decide),
   single_sub_of_mem (y := main_v104) (by decide),
   single_sub_of_mem (y := main_v105) (by decide),
   single_sub_of_mem (y := main_v106) (by decide),
   single_sub_of_mem (y := main_v107) (by decide),
   single_sub_of_mem (y := main_v108) (by decide),
   single_sub_of_mem (y := main_v109) (by decide),
   single_sub_of_mem (y := main_v110) (by decide),
   single_sub_of_mem (y := main_v111) (by decide),
   single_sub_of_mem (y := main_v112) (by decide),
   single_sub_of_mem (y := main_v113) (by decide),
   single_sub_of_mem (y := main_cst_12) (by decide),
   single_sub_of_mem (y := main_v114) (by decide),
   single_sub_of_mem (y := main_cst_13) (by decide),
   single_sub_of_mem (y := main_v115) (by decide),
   single_sub_of_mem (y := main_v116) (by decide),
   single_sub_of_mem (y := main_c_14) (by decide),
   single_sub_of_mem (y := main_call4.cst.ref) (by decide),
   single_sub_of_mem (y := main_call4.v0.ref) (by decide),
   single_sub_of_mem (y := main_call4.v1.ref) (by decide),
   single_sub_of_mem (y := main_call4.cst_0.ref) (by decide),
   single_sub_of_mem (y := main_call4.v2.ref) (by decide),
   single_sub_of_mem (y := main_call4.v3.ref) (by decide),
   single_sub_of_mem (y := main_call4.v4.ref) (by decide),
   single_sub_of_mem (y := main_call4.v5.ref) (by decide),
   single_sub_of_mem (y := main_call4.v6.ref) (by decide),
   single_sub_of_mem (y := main_call4.v7.ref) (by decide),
   single_sub_of_mem (y := main_call4.cst_1.ref) (by decide),
   single_sub_of_mem (y := main_call4.v8.ref) (by decide),
   single_sub_of_mem (y := main_call4.cst_2.ref) (by decide),
   single_sub_of_mem (y := main_call4.v9.ref) (by decide),
   single_sub_of_mem (y := main_call4.v10.ref) (by decide),
   single_sub_of_mem (y := main_call4.v11.ref) (by decide),
   single_sub_of_mem (y := main_call4.cst_3.ref) (by decide),
   single_sub_of_mem (y := main_call4.v12.ref) (by decide),
   single_sub_of_mem (y := main_call4.cst_4.ref) (by decide),
   single_sub_of_mem (y := main_call4.call0.v0.ref) (by decide),
   single_sub_of_mem (y := main_call4.call0.v1.ref) (by decide),
   single_sub_of_mem (y := main_call4.call0.v2.ref) (by decide),
   single_sub_of_mem (y := main_v118) (by decide),
   single_sub_of_mem (y := main_v119) (by decide),
   single_sub_of_mem (y := main_v120) (by decide),
   single_sub_of_mem (y := main_cst_15) (by decide),
   single_sub_of_mem (y := main_v121) (by decide),
   single_sub_of_mem (y := main_v122) (by decide),
   single_sub_of_mem (y := main_v123) (by decide),
   single_sub_of_mem (y := main_v124) (by decide),
   single_sub_of_mem (y := main_v125) (by decide),
   single_sub_of_mem (y := main_v126) (by decide),
   single_sub_of_mem (y := main_v127) (by decide),
   single_sub_of_mem (y := main_v128) (by decide),
   single_sub_of_mem (y := main_v129) (by decide),
   single_sub_of_mem (y := main_v130) (by decide),
   single_sub_of_mem (y := main_v131) (by decide),
   single_sub_of_mem (y := main_v132) (by decide),
   single_sub_of_mem (y := main_call5.cst.ref) (by decide),
   single_sub_of_mem (y := main_call5.v0.ref) (by decide),
   single_sub_of_mem (y := main_call5.v1.ref) (by decide),
   single_sub_of_mem (y := main_v134) (by decide),
   single_sub_of_mem (y := main_v135) (by decide),
   single_sub_of_mem (y := main_v136) (by decide),
   single_sub_of_mem (y := main_v137) (by decide),
   single_sub_of_mem (y := main_v138) (by decide),
   single_sub_of_mem (y := main_v139) (by decide),
   single_sub_of_mem (y := main_v140) (by decide),
   single_sub_of_mem (y := main_v141) (by decide),
   single_sub_of_mem (y := main_v142) (by decide),
   single_sub_of_mem (y := main_v143) (by decide),
   single_sub_of_mem (y := main_v144) (by decide),
   single_sub_of_mem (y := main_v145) (by decide),
   single_sub_of_mem (y := main_cst_16) (by decide),
   single_sub_of_mem (y := main_v146) (by decide),
   single_sub_of_mem (y := main_cst_17) (by decide),
   single_sub_of_mem (y := main_v147) (by decide),
   single_sub_of_mem (y := main_v148) (by decide),
   single_sub_of_mem (y := main_c_18) (by decide),
   single_sub_of_mem (y := main_call6.cst.ref) (by decide),
   single_sub_of_mem (y := main_call6.v0.ref) (by decide),
   single_sub_of_mem (y := main_call6.v1.ref) (by decide),
   single_sub_of_mem (y := main_call6.cst_0.ref) (by decide),
   single_sub_of_mem (y := main_call6.v2.ref) (by decide),
   single_sub_of_mem (y := main_call6.v3.ref) (by decide),
   single_sub_of_mem (y := main_call6.v4.ref) (by decide),
   single_sub_of_mem (y := main_call6.v5.ref) (by decide),
   single_sub_of_mem (y := main_call6.v6.ref) (by decide),
   single_sub_of_mem (y := main_call6.v7.ref) (by decide),
   single_sub_of_mem (y := main_call6.cst_1.ref) (by decide),
   single_sub_of_mem (y := main_call6.v8.ref) (by decide),
   single_sub_of_mem (y := main_call6.cst_2.ref) (by decide),
   single_sub_of_mem (y := main_call6.v9.ref) (by decide),
   single_sub_of_mem (y := main_call6.v10.ref) (by decide),
   single_sub_of_mem (y := main_call6.v11.ref) (by decide),
   single_sub_of_mem (y := main_call6.cst_3.ref) (by decide),
   single_sub_of_mem (y := main_call6.v12.ref) (by decide),
   single_sub_of_mem (y := main_call6.cst_4.ref) (by decide),
   single_sub_of_mem (y := main_call6.call0.v0.ref) (by decide),
   single_sub_of_mem (y := main_call6.call0.v1.ref) (by decide),
   single_sub_of_mem (y := main_call6.call0.v2.ref) (by decide),
   single_sub_of_mem (y := main_v150) (by decide),
   single_sub_of_mem (y := main_v151) (by decide),
   single_sub_of_mem (y := main_v152) (by decide),
   single_sub_of_mem (y := main_cst_19) (by decide),
   single_sub_of_mem (y := main_v153) (by decide),
   single_sub_of_mem (y := main_v154) (by decide),
   single_sub_of_mem (y := main_v155) (by decide),
   single_sub_of_mem (y := main_v156) (by decide),
   single_sub_of_mem (y := main_v157) (by decide),
   single_sub_of_mem (y := main_v158) (by decide),
   single_sub_of_mem (y := main_v159) (by decide),
   single_sub_of_mem (y := main_v160) (by decide),
   single_sub_of_mem (y := main_v161) (by decide),
   single_sub_of_mem (y := main_v162) (by decide),
   single_sub_of_mem (y := main_v163) (by decide),
   single_sub_of_mem (y := main_v164) (by decide),
   single_sub_of_mem (y := main_call7.cst.ref) (by decide),
   single_sub_of_mem (y := main_call7.v0.ref) (by decide),
   single_sub_of_mem (y := main_call7.v1.ref) (by decide),
   single_sub_of_mem (y := main_v166) (by decide)⟩

/-- The references stage L2's operations write, in order (136). -/
noncomputable def WL2 : List (Ref sig .tc) :=
  [ main_c_20,
    main_v167,
    main_v168,
    main_c_21,
    main_v169,
    main_v170,
    main_v171,
    main_v172,
    main_v173,
    main_v174,
    main_v175,
    main_v176,
    main_cst_22,
    main_v177,
    main_v178,
    main_v179,
    main_v180,
    main_v181,
    main_v182,
    main_v183,
    main_v184,
    main_v185,
    main_v186,
    main_v187,
    main_v188,
    main_v189,
    main_v190,
    main_v191,
    main_v192,
    main_cst_23,
    main_v193,
    main_cst_24,
    main_v194,
    main_v195,
    main_c_25,
    main_call8.cst.ref,
    main_call8.v0.ref,
    main_call8.v1.ref,
    main_call8.cst_0.ref,
    main_call8.v2.ref,
    main_call8.v3.ref,
    main_call8.v4.ref,
    main_call8.v5.ref,
    main_call8.v6.ref,
    main_call8.v7.ref,
    main_call8.cst_1.ref,
    main_call8.v8.ref,
    main_call8.cst_2.ref,
    main_call8.v9.ref,
    main_call8.v10.ref,
    main_call8.v11.ref,
    main_call8.cst_3.ref,
    main_call8.v12.ref,
    main_call8.cst_4.ref,
    main_call8.call0.v0.ref,
    main_call8.call0.v1.ref,
    main_call8.call0.v2.ref,
    main_v197,
    main_v198,
    main_v199,
    main_cst_26,
    main_v200,
    main_v201,
    main_v202,
    main_v203,
    main_v204,
    main_v205,
    main_v206,
    main_v207,
    main_v208,
    main_v209,
    main_v210,
    main_v211,
    main_call9.cst.ref,
    main_call9.v0.ref,
    main_call9.v1.ref,
    main_v213,
    main_v214,
    main_v215,
    main_v216,
    main_v217,
    main_v218,
    main_v219,
    main_v220,
    main_v221,
    main_v222,
    main_v223,
    main_v224,
    main_cst_27,
    main_v225,
    main_cst_28,
    main_v226,
    main_v227,
    main_c_29,
    main_call10.cst.ref,
    main_call10.v0.ref,
    main_call10.v1.ref,
    main_call10.cst_0.ref,
    main_call10.v2.ref,
    main_call10.v3.ref,
    main_call10.v4.ref,
    main_call10.v5.ref,
    main_call10.v6.ref,
    main_call10.v7.ref,
    main_call10.cst_1.ref,
    main_call10.v8.ref,
    main_call10.cst_2.ref,
    main_call10.v9.ref,
    main_call10.v10.ref,
    main_call10.v11.ref,
    main_call10.cst_3.ref,
    main_call10.v12.ref,
    main_call10.cst_4.ref,
    main_call10.call0.v0.ref,
    main_call10.call0.v1.ref,
    main_call10.call0.v2.ref,
    main_v229,
    main_v230,
    main_v231,
    main_cst_30,
    main_v232,
    main_v233,
    main_v234,
    main_v235,
    main_v236,
    main_v237,
    main_v238,
    main_v239,
    main_v240,
    main_v241,
    main_v242,
    main_v243,
    main_call11.cst.ref,
    main_call11.v0.ref,
    main_call11.v1.ref,
    main_v245 ]

/-- Each operation of stage L2 writes one reference, and it is on the list. -/
theorem writesL2 : (opsL2 : List (HloOp τ sig (Elt F))).Forall fun op => op.writes ⊆ ((WL2).map (Proc.devRef (τ := τ) .tc)).toFinset :=
  ⟨single_sub_of_mem (y := main_c_20) (by decide),
   single_sub_of_mem (y := main_v167) (by decide),
   single_sub_of_mem (y := main_v168) (by decide),
   single_sub_of_mem (y := main_c_21) (by decide),
   single_sub_of_mem (y := main_v169) (by decide),
   single_sub_of_mem (y := main_v170) (by decide),
   single_sub_of_mem (y := main_v171) (by decide),
   single_sub_of_mem (y := main_v172) (by decide),
   single_sub_of_mem (y := main_v173) (by decide),
   single_sub_of_mem (y := main_v174) (by decide),
   single_sub_of_mem (y := main_v175) (by decide),
   single_sub_of_mem (y := main_v176) (by decide),
   single_sub_of_mem (y := main_cst_22) (by decide),
   single_sub_of_mem (y := main_v177) (by decide),
   single_sub_of_mem (y := main_v178) (by decide),
   single_sub_of_mem (y := main_v179) (by decide),
   single_sub_of_mem (y := main_v180) (by decide),
   single_sub_of_mem (y := main_v181) (by decide),
   single_sub_of_mem (y := main_v182) (by decide),
   single_sub_of_mem (y := main_v183) (by decide),
   single_sub_of_mem (y := main_v184) (by decide),
   single_sub_of_mem (y := main_v185) (by decide),
   single_sub_of_mem (y := main_v186) (by decide),
   single_sub_of_mem (y := main_v187) (by decide),
   single_sub_of_mem (y := main_v188) (by decide),
   single_sub_of_mem (y := main_v189) (by decide),
   single_sub_of_mem (y := main_v190) (by decide),
   single_sub_of_mem (y := main_v191) (by decide),
   single_sub_of_mem (y := main_v192) (by decide),
   single_sub_of_mem (y := main_cst_23) (by decide),
   single_sub_of_mem (y := main_v193) (by decide),
   single_sub_of_mem (y := main_cst_24) (by decide),
   single_sub_of_mem (y := main_v194) (by decide),
   single_sub_of_mem (y := main_v195) (by decide),
   single_sub_of_mem (y := main_c_25) (by decide),
   single_sub_of_mem (y := main_call8.cst.ref) (by decide),
   single_sub_of_mem (y := main_call8.v0.ref) (by decide),
   single_sub_of_mem (y := main_call8.v1.ref) (by decide),
   single_sub_of_mem (y := main_call8.cst_0.ref) (by decide),
   single_sub_of_mem (y := main_call8.v2.ref) (by decide),
   single_sub_of_mem (y := main_call8.v3.ref) (by decide),
   single_sub_of_mem (y := main_call8.v4.ref) (by decide),
   single_sub_of_mem (y := main_call8.v5.ref) (by decide),
   single_sub_of_mem (y := main_call8.v6.ref) (by decide),
   single_sub_of_mem (y := main_call8.v7.ref) (by decide),
   single_sub_of_mem (y := main_call8.cst_1.ref) (by decide),
   single_sub_of_mem (y := main_call8.v8.ref) (by decide),
   single_sub_of_mem (y := main_call8.cst_2.ref) (by decide),
   single_sub_of_mem (y := main_call8.v9.ref) (by decide),
   single_sub_of_mem (y := main_call8.v10.ref) (by decide),
   single_sub_of_mem (y := main_call8.v11.ref) (by decide),
   single_sub_of_mem (y := main_call8.cst_3.ref) (by decide),
   single_sub_of_mem (y := main_call8.v12.ref) (by decide),
   single_sub_of_mem (y := main_call8.cst_4.ref) (by decide),
   single_sub_of_mem (y := main_call8.call0.v0.ref) (by decide),
   single_sub_of_mem (y := main_call8.call0.v1.ref) (by decide),
   single_sub_of_mem (y := main_call8.call0.v2.ref) (by decide),
   single_sub_of_mem (y := main_v197) (by decide),
   single_sub_of_mem (y := main_v198) (by decide),
   single_sub_of_mem (y := main_v199) (by decide),
   single_sub_of_mem (y := main_cst_26) (by decide),
   single_sub_of_mem (y := main_v200) (by decide),
   single_sub_of_mem (y := main_v201) (by decide),
   single_sub_of_mem (y := main_v202) (by decide),
   single_sub_of_mem (y := main_v203) (by decide),
   single_sub_of_mem (y := main_v204) (by decide),
   single_sub_of_mem (y := main_v205) (by decide),
   single_sub_of_mem (y := main_v206) (by decide),
   single_sub_of_mem (y := main_v207) (by decide),
   single_sub_of_mem (y := main_v208) (by decide),
   single_sub_of_mem (y := main_v209) (by decide),
   single_sub_of_mem (y := main_v210) (by decide),
   single_sub_of_mem (y := main_v211) (by decide),
   single_sub_of_mem (y := main_call9.cst.ref) (by decide),
   single_sub_of_mem (y := main_call9.v0.ref) (by decide),
   single_sub_of_mem (y := main_call9.v1.ref) (by decide),
   single_sub_of_mem (y := main_v213) (by decide),
   single_sub_of_mem (y := main_v214) (by decide),
   single_sub_of_mem (y := main_v215) (by decide),
   single_sub_of_mem (y := main_v216) (by decide),
   single_sub_of_mem (y := main_v217) (by decide),
   single_sub_of_mem (y := main_v218) (by decide),
   single_sub_of_mem (y := main_v219) (by decide),
   single_sub_of_mem (y := main_v220) (by decide),
   single_sub_of_mem (y := main_v221) (by decide),
   single_sub_of_mem (y := main_v222) (by decide),
   single_sub_of_mem (y := main_v223) (by decide),
   single_sub_of_mem (y := main_v224) (by decide),
   single_sub_of_mem (y := main_cst_27) (by decide),
   single_sub_of_mem (y := main_v225) (by decide),
   single_sub_of_mem (y := main_cst_28) (by decide),
   single_sub_of_mem (y := main_v226) (by decide),
   single_sub_of_mem (y := main_v227) (by decide),
   single_sub_of_mem (y := main_c_29) (by decide),
   single_sub_of_mem (y := main_call10.cst.ref) (by decide),
   single_sub_of_mem (y := main_call10.v0.ref) (by decide),
   single_sub_of_mem (y := main_call10.v1.ref) (by decide),
   single_sub_of_mem (y := main_call10.cst_0.ref) (by decide),
   single_sub_of_mem (y := main_call10.v2.ref) (by decide),
   single_sub_of_mem (y := main_call10.v3.ref) (by decide),
   single_sub_of_mem (y := main_call10.v4.ref) (by decide),
   single_sub_of_mem (y := main_call10.v5.ref) (by decide),
   single_sub_of_mem (y := main_call10.v6.ref) (by decide),
   single_sub_of_mem (y := main_call10.v7.ref) (by decide),
   single_sub_of_mem (y := main_call10.cst_1.ref) (by decide),
   single_sub_of_mem (y := main_call10.v8.ref) (by decide),
   single_sub_of_mem (y := main_call10.cst_2.ref) (by decide),
   single_sub_of_mem (y := main_call10.v9.ref) (by decide),
   single_sub_of_mem (y := main_call10.v10.ref) (by decide),
   single_sub_of_mem (y := main_call10.v11.ref) (by decide),
   single_sub_of_mem (y := main_call10.cst_3.ref) (by decide),
   single_sub_of_mem (y := main_call10.v12.ref) (by decide),
   single_sub_of_mem (y := main_call10.cst_4.ref) (by decide),
   single_sub_of_mem (y := main_call10.call0.v0.ref) (by decide),
   single_sub_of_mem (y := main_call10.call0.v1.ref) (by decide),
   single_sub_of_mem (y := main_call10.call0.v2.ref) (by decide),
   single_sub_of_mem (y := main_v229) (by decide),
   single_sub_of_mem (y := main_v230) (by decide),
   single_sub_of_mem (y := main_v231) (by decide),
   single_sub_of_mem (y := main_cst_30) (by decide),
   single_sub_of_mem (y := main_v232) (by decide),
   single_sub_of_mem (y := main_v233) (by decide),
   single_sub_of_mem (y := main_v234) (by decide),
   single_sub_of_mem (y := main_v235) (by decide),
   single_sub_of_mem (y := main_v236) (by decide),
   single_sub_of_mem (y := main_v237) (by decide),
   single_sub_of_mem (y := main_v238) (by decide),
   single_sub_of_mem (y := main_v239) (by decide),
   single_sub_of_mem (y := main_v240) (by decide),
   single_sub_of_mem (y := main_v241) (by decide),
   single_sub_of_mem (y := main_v242) (by decide),
   single_sub_of_mem (y := main_v243) (by decide),
   single_sub_of_mem (y := main_call11.cst.ref) (by decide),
   single_sub_of_mem (y := main_call11.v0.ref) (by decide),
   single_sub_of_mem (y := main_call11.v1.ref) (by decide),
   single_sub_of_mem (y := main_v245) (by decide)⟩

/-- The references stage L3's operations write, in order (136). -/
noncomputable def WL3 : List (Ref sig .tc) :=
  [ main_c_31,
    main_v246,
    main_v247,
    main_c_32,
    main_v248,
    main_v249,
    main_v250,
    main_v251,
    main_v252,
    main_v253,
    main_v254,
    main_v255,
    main_cst_33,
    main_v256,
    main_v257,
    main_v258,
    main_v259,
    main_v260,
    main_v261,
    main_v262,
    main_v263,
    main_v264,
    main_v265,
    main_v266,
    main_v267,
    main_v268,
    main_v269,
    main_v270,
    main_v271,
    main_cst_34,
    main_v272,
    main_cst_35,
    main_v273,
    main_v274,
    main_c_36,
    main_call12.cst.ref,
    main_call12.v0.ref,
    main_call12.v1.ref,
    main_call12.cst_0.ref,
    main_call12.v2.ref,
    main_call12.v3.ref,
    main_call12.v4.ref,
    main_call12.v5.ref,
    main_call12.v6.ref,
    main_call12.v7.ref,
    main_call12.cst_1.ref,
    main_call12.v8.ref,
    main_call12.cst_2.ref,
    main_call12.v9.ref,
    main_call12.v10.ref,
    main_call12.v11.ref,
    main_call12.cst_3.ref,
    main_call12.v12.ref,
    main_call12.cst_4.ref,
    main_call12.call0.v0.ref,
    main_call12.call0.v1.ref,
    main_call12.call0.v2.ref,
    main_v276,
    main_v277,
    main_v278,
    main_cst_37,
    main_v279,
    main_v280,
    main_v281,
    main_v282,
    main_v283,
    main_v284,
    main_v285,
    main_v286,
    main_v287,
    main_v288,
    main_v289,
    main_v290,
    main_call13.cst.ref,
    main_call13.v0.ref,
    main_call13.v1.ref,
    main_v292,
    main_v293,
    main_v294,
    main_v295,
    main_v296,
    main_v297,
    main_v298,
    main_v299,
    main_v300,
    main_v301,
    main_v302,
    main_v303,
    main_cst_38,
    main_v304,
    main_cst_39,
    main_v305,
    main_v306,
    main_c_40,
    main_call14.cst.ref,
    main_call14.v0.ref,
    main_call14.v1.ref,
    main_call14.cst_0.ref,
    main_call14.v2.ref,
    main_call14.v3.ref,
    main_call14.v4.ref,
    main_call14.v5.ref,
    main_call14.v6.ref,
    main_call14.v7.ref,
    main_call14.cst_1.ref,
    main_call14.v8.ref,
    main_call14.cst_2.ref,
    main_call14.v9.ref,
    main_call14.v10.ref,
    main_call14.v11.ref,
    main_call14.cst_3.ref,
    main_call14.v12.ref,
    main_call14.cst_4.ref,
    main_call14.call0.v0.ref,
    main_call14.call0.v1.ref,
    main_call14.call0.v2.ref,
    main_v308,
    main_v309,
    main_v310,
    main_cst_41,
    main_v311,
    main_v312,
    main_v313,
    main_v314,
    main_v315,
    main_v316,
    main_v317,
    main_v318,
    main_v319,
    main_v320,
    main_v321,
    main_v322,
    main_call15.cst.ref,
    main_call15.v0.ref,
    main_call15.v1.ref,
    main_v324 ]

/-- Each operation of stage L3 writes one reference, and it is on the list. -/
theorem writesL3 : (opsL3 : List (HloOp τ sig (Elt F))).Forall fun op => op.writes ⊆ ((WL3).map (Proc.devRef (τ := τ) .tc)).toFinset :=
  ⟨single_sub_of_mem (y := main_c_31) (by decide),
   single_sub_of_mem (y := main_v246) (by decide),
   single_sub_of_mem (y := main_v247) (by decide),
   single_sub_of_mem (y := main_c_32) (by decide),
   single_sub_of_mem (y := main_v248) (by decide),
   single_sub_of_mem (y := main_v249) (by decide),
   single_sub_of_mem (y := main_v250) (by decide),
   single_sub_of_mem (y := main_v251) (by decide),
   single_sub_of_mem (y := main_v252) (by decide),
   single_sub_of_mem (y := main_v253) (by decide),
   single_sub_of_mem (y := main_v254) (by decide),
   single_sub_of_mem (y := main_v255) (by decide),
   single_sub_of_mem (y := main_cst_33) (by decide),
   single_sub_of_mem (y := main_v256) (by decide),
   single_sub_of_mem (y := main_v257) (by decide),
   single_sub_of_mem (y := main_v258) (by decide),
   single_sub_of_mem (y := main_v259) (by decide),
   single_sub_of_mem (y := main_v260) (by decide),
   single_sub_of_mem (y := main_v261) (by decide),
   single_sub_of_mem (y := main_v262) (by decide),
   single_sub_of_mem (y := main_v263) (by decide),
   single_sub_of_mem (y := main_v264) (by decide),
   single_sub_of_mem (y := main_v265) (by decide),
   single_sub_of_mem (y := main_v266) (by decide),
   single_sub_of_mem (y := main_v267) (by decide),
   single_sub_of_mem (y := main_v268) (by decide),
   single_sub_of_mem (y := main_v269) (by decide),
   single_sub_of_mem (y := main_v270) (by decide),
   single_sub_of_mem (y := main_v271) (by decide),
   single_sub_of_mem (y := main_cst_34) (by decide),
   single_sub_of_mem (y := main_v272) (by decide),
   single_sub_of_mem (y := main_cst_35) (by decide),
   single_sub_of_mem (y := main_v273) (by decide),
   single_sub_of_mem (y := main_v274) (by decide),
   single_sub_of_mem (y := main_c_36) (by decide),
   single_sub_of_mem (y := main_call12.cst.ref) (by decide),
   single_sub_of_mem (y := main_call12.v0.ref) (by decide),
   single_sub_of_mem (y := main_call12.v1.ref) (by decide),
   single_sub_of_mem (y := main_call12.cst_0.ref) (by decide),
   single_sub_of_mem (y := main_call12.v2.ref) (by decide),
   single_sub_of_mem (y := main_call12.v3.ref) (by decide),
   single_sub_of_mem (y := main_call12.v4.ref) (by decide),
   single_sub_of_mem (y := main_call12.v5.ref) (by decide),
   single_sub_of_mem (y := main_call12.v6.ref) (by decide),
   single_sub_of_mem (y := main_call12.v7.ref) (by decide),
   single_sub_of_mem (y := main_call12.cst_1.ref) (by decide),
   single_sub_of_mem (y := main_call12.v8.ref) (by decide),
   single_sub_of_mem (y := main_call12.cst_2.ref) (by decide),
   single_sub_of_mem (y := main_call12.v9.ref) (by decide),
   single_sub_of_mem (y := main_call12.v10.ref) (by decide),
   single_sub_of_mem (y := main_call12.v11.ref) (by decide),
   single_sub_of_mem (y := main_call12.cst_3.ref) (by decide),
   single_sub_of_mem (y := main_call12.v12.ref) (by decide),
   single_sub_of_mem (y := main_call12.cst_4.ref) (by decide),
   single_sub_of_mem (y := main_call12.call0.v0.ref) (by decide),
   single_sub_of_mem (y := main_call12.call0.v1.ref) (by decide),
   single_sub_of_mem (y := main_call12.call0.v2.ref) (by decide),
   single_sub_of_mem (y := main_v276) (by decide),
   single_sub_of_mem (y := main_v277) (by decide),
   single_sub_of_mem (y := main_v278) (by decide),
   single_sub_of_mem (y := main_cst_37) (by decide),
   single_sub_of_mem (y := main_v279) (by decide),
   single_sub_of_mem (y := main_v280) (by decide),
   single_sub_of_mem (y := main_v281) (by decide),
   single_sub_of_mem (y := main_v282) (by decide),
   single_sub_of_mem (y := main_v283) (by decide),
   single_sub_of_mem (y := main_v284) (by decide),
   single_sub_of_mem (y := main_v285) (by decide),
   single_sub_of_mem (y := main_v286) (by decide),
   single_sub_of_mem (y := main_v287) (by decide),
   single_sub_of_mem (y := main_v288) (by decide),
   single_sub_of_mem (y := main_v289) (by decide),
   single_sub_of_mem (y := main_v290) (by decide),
   single_sub_of_mem (y := main_call13.cst.ref) (by decide),
   single_sub_of_mem (y := main_call13.v0.ref) (by decide),
   single_sub_of_mem (y := main_call13.v1.ref) (by decide),
   single_sub_of_mem (y := main_v292) (by decide),
   single_sub_of_mem (y := main_v293) (by decide),
   single_sub_of_mem (y := main_v294) (by decide),
   single_sub_of_mem (y := main_v295) (by decide),
   single_sub_of_mem (y := main_v296) (by decide),
   single_sub_of_mem (y := main_v297) (by decide),
   single_sub_of_mem (y := main_v298) (by decide),
   single_sub_of_mem (y := main_v299) (by decide),
   single_sub_of_mem (y := main_v300) (by decide),
   single_sub_of_mem (y := main_v301) (by decide),
   single_sub_of_mem (y := main_v302) (by decide),
   single_sub_of_mem (y := main_v303) (by decide),
   single_sub_of_mem (y := main_cst_38) (by decide),
   single_sub_of_mem (y := main_v304) (by decide),
   single_sub_of_mem (y := main_cst_39) (by decide),
   single_sub_of_mem (y := main_v305) (by decide),
   single_sub_of_mem (y := main_v306) (by decide),
   single_sub_of_mem (y := main_c_40) (by decide),
   single_sub_of_mem (y := main_call14.cst.ref) (by decide),
   single_sub_of_mem (y := main_call14.v0.ref) (by decide),
   single_sub_of_mem (y := main_call14.v1.ref) (by decide),
   single_sub_of_mem (y := main_call14.cst_0.ref) (by decide),
   single_sub_of_mem (y := main_call14.v2.ref) (by decide),
   single_sub_of_mem (y := main_call14.v3.ref) (by decide),
   single_sub_of_mem (y := main_call14.v4.ref) (by decide),
   single_sub_of_mem (y := main_call14.v5.ref) (by decide),
   single_sub_of_mem (y := main_call14.v6.ref) (by decide),
   single_sub_of_mem (y := main_call14.v7.ref) (by decide),
   single_sub_of_mem (y := main_call14.cst_1.ref) (by decide),
   single_sub_of_mem (y := main_call14.v8.ref) (by decide),
   single_sub_of_mem (y := main_call14.cst_2.ref) (by decide),
   single_sub_of_mem (y := main_call14.v9.ref) (by decide),
   single_sub_of_mem (y := main_call14.v10.ref) (by decide),
   single_sub_of_mem (y := main_call14.v11.ref) (by decide),
   single_sub_of_mem (y := main_call14.cst_3.ref) (by decide),
   single_sub_of_mem (y := main_call14.v12.ref) (by decide),
   single_sub_of_mem (y := main_call14.cst_4.ref) (by decide),
   single_sub_of_mem (y := main_call14.call0.v0.ref) (by decide),
   single_sub_of_mem (y := main_call14.call0.v1.ref) (by decide),
   single_sub_of_mem (y := main_call14.call0.v2.ref) (by decide),
   single_sub_of_mem (y := main_v308) (by decide),
   single_sub_of_mem (y := main_v309) (by decide),
   single_sub_of_mem (y := main_v310) (by decide),
   single_sub_of_mem (y := main_cst_41) (by decide),
   single_sub_of_mem (y := main_v311) (by decide),
   single_sub_of_mem (y := main_v312) (by decide),
   single_sub_of_mem (y := main_v313) (by decide),
   single_sub_of_mem (y := main_v314) (by decide),
   single_sub_of_mem (y := main_v315) (by decide),
   single_sub_of_mem (y := main_v316) (by decide),
   single_sub_of_mem (y := main_v317) (by decide),
   single_sub_of_mem (y := main_v318) (by decide),
   single_sub_of_mem (y := main_v319) (by decide),
   single_sub_of_mem (y := main_v320) (by decide),
   single_sub_of_mem (y := main_v321) (by decide),
   single_sub_of_mem (y := main_v322) (by decide),
   single_sub_of_mem (y := main_call15.cst.ref) (by decide),
   single_sub_of_mem (y := main_call15.v0.ref) (by decide),
   single_sub_of_mem (y := main_call15.v1.ref) (by decide),
   single_sub_of_mem (y := main_v324) (by decide)⟩

end Cert.ReferenceIdeal.Hand

end
-- ==== Proof.RefDefs.lean ====
/-
  The reference program's stages as named terms over contents of any float type.

  The program embeds the input features by one dense map and then applies four layers. A layer aggregates the node
  features over the edges (gather the source rows, a negative source index wrapped around by the node count, weight them
  edge by edge, and add them into the destination rows from zero), adds the features, and applies twice: a dense map, a
  normalisation over the rows by the column statistics (the mean; the variance through the outlined function with its
  count N − ddof and the guard on that count; the reciprocal square root after adding ε) written deviation first,
  ((t − μ) · r) · g + be, and the rectifier; and finally adds the layer's input. Each layer cuts its weights out of the
  stacked parameter arrays. The terms are spelled exactly as the operations compose, so that reading a stretch of
  operations back gives them.
-/
import proofs.«100402_j28432683499906_1_alg».proof.Proof.Gen.ReferenceIdeal
import Idealize.ShloMosaic.Lib.StableHlo.Run

set_option maxRecDepth 16384

noncomputable section

namespace Cert.ReferenceIdeal.Val

open Cert.ReferenceIdeal Cert.ReferenceIdeal.Gen
open Idealize.ShloMosaic Idealize.ShloMosaic.TcCoe Idealize.ShloMosaic.StableHlo

variable {F : FTy → Type} [FloatOps F]

/-- Float contents of a shape. -/
abbrev CF (F : FTy → Type) (s : Shape) : Type := (⟨s, .f32⟩ : BufTy).Contents (Elt F)
/-- Index-word contents of a shape. -/
abbrev CI (F : FTy → Type) (s : Shape) : Type := (⟨s, .i32⟩ : BufTy).Contents (Elt F)

/-! ## The input features -/

/-- The [N, 1, C] input features as an [N, C] matrix. -/
def featIn (x : CF F S50000x1x64) : CF F S50000x64 := fun i =>
  shapeCast S50000x64 x shapeCasts_S50000x1x64_S50000x64 i

/-! ## The edges -/

/-- Row 0 of the edge table: each edge's source node. -/
def edgeSrc (e : CI F S2x800000) : CI F S800000 := fun i =>
  shapeCast S800000 (extractStridedSlice S1x800000 ![0, 0] e slices_S2x800000_S1x800000_0_0) shapeCasts_S1x800000_S800000 i

/-- Row 1 of the edge table: each edge's destination node. -/
def edgeDst (e : CI F S2x800000) : CI F S800000 := fun i =>
  shapeCast S800000 (extractStridedSlice S1x800000 ![1, 0] e slices_S2x800000_S1x800000_1_0) shapeCasts_S1x800000_S800000 i

/-- The weighted aggregation: row d of the result is the sum, from zero, over the edges into d of the edge's weight times
    the features' row at the edge's source (a negative source counted from the end). -/
def agg (src dst : CI F S800000) (w : CF F S800000) (h : CF F S50000x64) : CF F S50000x64 :=
  Host.scatterAdd scatter_S50000x64_S800000x1_S800000x64_1_0_0_1
    (broadcastInDim S50000x64 ![] bcast_S_S50000x64 (constant (F := F) S_ FTy.f32 0x00000000#32))
    (broadcastInDim S800000x1 ![0] bcast_S800000_S800000x1_0 dst)
    (mulf
      (Host.gather gather_S50000x64_S800000x1_S800000x64_1_0_n_n_0_1_164 h
        (broadcastInDim S800000x1 ![0] bcast_S800000_S800000x1_0
          (select
            (cmpi CmpIPredicate.slt src (broadcastInDim S800000 ![] bcast_S_S800000 (constantI S_ 32 0#32)))
            (addi src (broadcastInDim S800000 ![] bcast_S_S800000 (constantI S_ 32 50000#32)))
            src)))
      (broadcastInDim S800000x64 ![0, 1] bcast_S800000x1_S800000x64_0_1
        (broadcastInDim S800000x1 ![0] bcast_S800000_S800000x1_0 w)))

/-! ## A layer's parameters out of the stacked arrays -/

/-- One [64, 64] matrix of a stack of four. -/
def matAt (a : CF F S4x64x64) (o : Fin 3 → Nat) (hs : S4x64x64.Slices o S1x64x64) : CF F S64x64 := fun i =>
  shapeCast S64x64 (extractStridedSlice S1x64x64 o a hs) shapeCasts_S1x64x64_S64x64 i

/-- One [64] vector of a stack of four. -/
def vecAt (a : CF F S4x64) (o : Fin 2 → Nat) (hs : S4x64.Slices o S1x64) : CF F S64 := fun i =>
  shapeCast S64 (extractStridedSlice S1x64 o a hs) shapeCasts_S1x64_S64 i

/-! ## Column statistics -/

/-- The column mean: the sum down the rows from zero over the row count. -/
def mean (t : CF F S50000x64) : CF F S64 :=
  Host.divf (Host.reduceAdd t (constant (F := F) S_ FTy.f32 0x00000000#32) reducesTo_S50000x64_S64_d0 h_S_)
    (broadcastInDim S64 ![] bcast_S_S64 (constant (F := F) S_ FTy.f32 0x47435000#32))

/-- The column variance as the outlined function computes it from the features and the ddof word. -/
def var (t : CF F S50000x64) (ddof : CI F S_) : CF F S64 :=
  select
    (broadcastInDim S64 ![] bcast_S_S64
      (cmpf CmpFPredicate.ogt (subf (constant (F := F) S_ FTy.f32 0x47435000#32) (sitofp FTy.f32 ddof)) (constant (F := F) S_ FTy.f32 0x00000000#32)))
    (Host.divf
      (Host.reduceAdd
        (mulf
          (subf t (broadcastInDim S50000x64 ![0, 1] bcast_S1x64_S50000x64_0_1
            (Host.divf
              (broadcastInDim S1x64 ![1] bcast_S64_S1x64_1
                (Host.reduceAdd t (constant (F := F) S_ FTy.f32 0x00000000#32) reducesTo_S50000x64_S64_d0 h_S_))
              (broadcastInDim S1x64 ![] bcast_S_S1x64 (constant (F := F) S_ FTy.f32 0x47435000#32)))))
          (subf t (broadcastInDim S50000x64 ![0, 1] bcast_S1x64_S50000x64_0_1
            (Host.divf
              (broadcastInDim S1x64 ![1] bcast_S64_S1x64_1
                (Host.reduceAdd t (constant (F := F) S_ FTy.f32 0x00000000#32) reducesTo_S50000x64_S64_d0 h_S_))
              (broadcastInDim S1x64 ![] bcast_S_S1x64 (constant (F := F) S_ FTy.f32 0x47435000#32))))))
        (constant (F := F) S_ FTy.f32 0x00000000#32) reducesTo_S50000x64_S64_d0 h_S_)
      (broadcastInDim S64 ![] bcast_S_S64 (subf (constant (F := F) S_ FTy.f32 0x47435000#32) (sitofp FTy.f32 ddof))))
    (broadcastInDim S64 ![] bcast_S_S64 (id (constant (F := F) S_ FTy.f32 0x7FC00000#32)))

/-- The ddof word of the program: zero. -/
def ddof0 : CI F S_ := constantI S_ 32 0#32

/-- 1 / √(v + ε), column by column. -/
def inv (v : CF F S64) : CF F S64 :=
  Host.rsqrt (addf v (broadcastInDim S64 ![] bcast_S_S64 (constant (F := F) S_ FTy.f32 0x3727C5AC#32)))

/-! ## The reference's own stages -/

/-- A [64] vector repeated down the rows, in the program's two broadcast steps. -/
def bc2 (v : CF F S64) : CF F S50000x64 :=
  broadcastInDim S50000x64 ![0, 1] bcast_S1x64_S50000x64_0_1 (broadcastInDim S1x64 ![1] bcast_S64_S1x64_1 v)

/-- The dense map a · w + b, the bias repeated down the rows. -/
def denseH (a : CF F S50000x64) (w : CF F S64x64) (b : CF F S64) : CF F S50000x64 :=
  addf (Host.dotGeneral dot_S50000x64_S64x64_S50000x64_1_0_0_1_n_n none a w) (bc2 b)

/-- The normalisation, deviation first: ((t − μ) · r) · g + be, every vector repeated down the rows. -/
def normH (t : CF F S50000x64) (mu r g be : CF F S64) : CF F S50000x64 :=
  addf (mulf (mulf (subf t (bc2 mu)) (bc2 r)) (bc2 g)) (bc2 be)

/-- The rectifier: the maximum with the zero word repeated over the array. -/
def reluH (t : CF F S50000x64) : CF F S50000x64 :=
  maximumf t (broadcastInDim S50000x64 ![] bcast_S_S50000x64 (constant (F := F) S_ FTy.f32 0x00000000#32))

/-- Normalise by the array's own column statistics, then rectify. -/
def actH (t : CF F S50000x64) (g be : CF F S64) : CF F S50000x64 :=
  reluH (normH t (mean t) (inv (var t ddof0)) g be)

/-- One layer: aggregate and add, dense, activate, dense, activate, add the input. -/
def layerH (w1 : CF F S64x64) (b1 g1 be1 : CF F S64) (w2 : CF F S64x64) (b2 go beo : CF F S64)
    (src dst : CI F S800000) (w : CF F S800000) (h : CF F S50000x64) : CF F S50000x64 :=
  addf (actH (denseH (actH (denseH (addf (agg src dst w h) h) w1 b1) g1 be1) w2 b2) go beo) h

end Cert.ReferenceIdeal.Val

end
-- ==== Proof.RefValuePre.lean ====
/-
  The reference program's first stage read back: from ANY contents before it, the features' buffer holds the dense
  embedding of the input features, and the two index buffers hold the two rows of the edge table.
-/
import proofs.«100402_j28432683499906_1_alg».proof.Proof.RefValueOps
import proofs.«100402_j28432683499906_1_alg».proof.Proof.RefDefs

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.ShloMosaic.StableHlo

variable {F : FTy → Type} [FloatOps F]

/-- The embedded features: the input as a matrix, times the embedding's weights, plus its bias down the rows. -/
theorem pre_feat (V : Valuation τ sig (Elt F)) :
    StableHlo.after opsPre V (Proc.devRef .tc main_v4)
      = denseH (featIn (V (Proc.devRef .tc main_arg0))) (V (Proc.devRef .tc main_arg4)) (V (Proc.devRef .tc main_arg5)) := by
  after_results_simp
  rfl

/-- Each edge's source node. -/
theorem pre_src (V : Valuation τ sig (Elt F)) :
    StableHlo.after opsPre V (Proc.devRef .tc main_v6) = edgeSrc (V (Proc.devRef .tc main_arg1)) := by
  after_results_simp
  rfl

/-- Each edge's destination node. -/
theorem pre_dst (V : Valuation τ sig (Elt F)) :
    StableHlo.after opsPre V (Proc.devRef .tc main_v8) = edgeDst (V (Proc.devRef .tc main_arg1)) := by
  after_results_simp
  rfl

end Cert.ReferenceIdeal.Val

end
-- ==== Proof.RefValueL0.lean ====
/-
  The first layer of the reference program read back: from ANY contents before the layer's operations, the buffer
  the layer ends in holds the layer's term of the contents at the layer's inputs — its slices of the eight stacked
  parameter arrays, the two rows of the edge table, the edge weights and the features the layer starts from.
-/
import proofs.«100402_j28432683499906_1_alg».proof.Proof.RefValueOps
import proofs.«100402_j28432683499906_1_alg».proof.Proof.RefDefs

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.ShloMosaic.StableHlo

variable {F : FTy → Type} [FloatOps F]

set_option maxHeartbeats 8000000 in
theorem layer0_value (V : Valuation τ sig (Elt F)) :
    StableHlo.after opsL0 V (Proc.devRef .tc main_v87)
      = layerH (matAt (V (Proc.devRef .tc main_arg6)) ![0, 0, 0] slices_S4x64x64_S1x64x64_0_0_0) (vecAt (V (Proc.devRef .tc main_arg7)) ![0, 0] slices_S4x64_S1x64_0_0) (vecAt (V (Proc.devRef .tc main_arg8)) ![0, 0] slices_S4x64_S1x64_0_0) (vecAt (V (Proc.devRef .tc main_arg9)) ![0, 0] slices_S4x64_S1x64_0_0)
          (matAt (V (Proc.devRef .tc main_arg10)) ![0, 0, 0] slices_S4x64x64_S1x64x64_0_0_0) (vecAt (V (Proc.devRef .tc main_arg11)) ![0, 0] slices_S4x64_S1x64_0_0) (vecAt (V (Proc.devRef .tc main_arg12)) ![0, 0] slices_S4x64_S1x64_0_0) (vecAt (V (Proc.devRef .tc main_arg13)) ![0, 0] slices_S4x64_S1x64_0_0)
          (V (Proc.devRef .tc main_v6)) (V (Proc.devRef .tc main_v8)) (V (Proc.devRef .tc main_arg3)) (V (Proc.devRef .tc main_v4)) := by
  after_results_simp
  rfl

end Cert.ReferenceIdeal.Val

end
-- ==== Proof.RefValueL1.lean ====
/-
  The second layer of the reference program read back: from ANY contents before the layer's operations, the buffer
  the layer ends in holds the layer's term of the contents at the layer's inputs — its slices of the eight stacked
  parameter arrays, the two rows of the edge table, the edge weights and the features the layer starts from.
-/
import proofs.«100402_j28432683499906_1_alg».proof.Proof.RefValueOps
import proofs.«100402_j28432683499906_1_alg».proof.Proof.RefDefs

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.ShloMosaic.StableHlo

variable {F : FTy → Type} [FloatOps F]

set_option maxHeartbeats 8000000 in
theorem layer1_value (V : Valuation τ sig (Elt F)) :
    StableHlo.after opsL1 V (Proc.devRef .tc main_v166)
      = layerH (matAt (V (Proc.devRef .tc main_arg6)) ![1, 0, 0] slices_S4x64x64_S1x64x64_1_0_0) (vecAt (V (Proc.devRef .tc main_arg7)) ![1, 0] slices_S4x64_S1x64_1_0) (vecAt (V (Proc.devRef .tc main_arg8)) ![1, 0] slices_S4x64_S1x64_1_0) (vecAt (V (Proc.devRef .tc main_arg9)) ![1, 0] slices_S4x64_S1x64_1_0)
          (matAt (V (Proc.devRef .tc main_arg10)) ![1, 0, 0] slices_S4x64x64_S1x64x64_1_0_0) (vecAt (V (Proc.devRef .tc main_arg11)) ![1, 0] slices_S4x64_S1x64_1_0) (vecAt (V (Proc.devRef .tc main_arg12)) ![1, 0] slices_S4x64_S1x64_1_0) (vecAt (V (Proc.devRef .tc main_arg13)) ![1, 0] slices_S4x64_S1x64_1_0)
          (V (Proc.devRef .tc main_v6)) (V (Proc.devRef .tc main_v8)) (V (Proc.devRef .tc main_arg3)) (V (Proc.devRef .tc main_v87)) := by
  after_results_simp
  rfl

end Cert.ReferenceIdeal.Val

end
-- ==== Proof.RefValueL2.lean ====
/-
  The third layer of the reference program read back: from ANY contents before the layer's operations, the buffer
  the layer ends in holds the layer's term of the contents at the layer's inputs — its slices of the eight stacked
  parameter arrays, the two rows of the edge table, the edge weights and the features the layer starts from.
-/
import proofs.«100402_j28432683499906_1_alg».proof.Proof.RefValueOps
import proofs.«100402_j28432683499906_1_alg».proof.Proof.RefDefs

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.ShloMosaic.StableHlo

variable {F : FTy → Type} [FloatOps F]

set_option maxHeartbeats 8000000 in
theorem layer2_value (V : Valuation τ sig (Elt F)) :
    StableHlo.after opsL2 V (Proc.devRef .tc main_v245)
      = layerH (matAt (V (Proc.devRef .tc main_arg6)) ![2, 0, 0] slices_S4x64x64_S1x64x64_2_0_0) (vecAt (V (Proc.devRef .tc main_arg7)) ![2, 0] slices_S4x64_S1x64_2_0) (vecAt (V (Proc.devRef .tc main_arg8)) ![2, 0] slices_S4x64_S1x64_2_0) (vecAt (V (Proc.devRef .tc main_arg9)) ![2, 0] slices_S4x64_S1x64_2_0)
          (matAt (V (Proc.devRef .tc main_arg10)) ![2, 0, 0] slices_S4x64x64_S1x64x64_2_0_0) (vecAt (V (Proc.devRef .tc main_arg11)) ![2, 0] slices_S4x64_S1x64_2_0) (vecAt (V (Proc.devRef .tc main_arg12)) ![2, 0] slices_S4x64_S1x64_2_0) (vecAt (V (Proc.devRef .tc main_arg13)) ![2, 0] slices_S4x64_S1x64_2_0)
          (V (Proc.devRef .tc main_v6)) (V (Proc.devRef .tc main_v8)) (V (Proc.devRef .tc main_arg3)) (V (Proc.devRef .tc main_v166)) := by
  after_results_simp
  rfl

end Cert.ReferenceIdeal.Val

end
-- ==== Proof.RefValueL3.lean ====
/-
  The fourth layer of the reference program read back: from ANY contents before the layer's operations, the buffer
  the layer ends in holds the layer's term of the contents at the layer's inputs — its slices of the eight stacked
  parameter arrays, the two rows of the edge table, the edge weights and the features the layer starts from.
-/
import proofs.«100402_j28432683499906_1_alg».proof.Proof.RefValueOps
import proofs.«100402_j28432683499906_1_alg».proof.Proof.RefDefs

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.ShloMosaic.StableHlo

variable {F : FTy → Type} [FloatOps F]

set_option maxHeartbeats 8000000 in
theorem layer3_value (V : Valuation τ sig (Elt F)) :
    StableHlo.after opsL3 V (Proc.devRef .tc main_v324)
      = layerH (matAt (V (Proc.devRef .tc main_arg6)) ![3, 0, 0] slices_S4x64x64_S1x64x64_3_0_0) (vecAt (V (Proc.devRef .tc main_arg7)) ![3, 0] slices_S4x64_S1x64_3_0) (vecAt (V (Proc.devRef .tc main_arg8)) ![3, 0] slices_S4x64_S1x64_3_0) (vecAt (V (Proc.devRef .tc main_arg9)) ![3, 0] slices_S4x64_S1x64_3_0)
          (matAt (V (Proc.devRef .tc main_arg10)) ![3, 0, 0] slices_S4x64x64_S1x64x64_3_0_0) (vecAt (V (Proc.devRef .tc main_arg11)) ![3, 0] slices_S4x64_S1x64_3_0) (vecAt (V (Proc.devRef .tc main_arg12)) ![3, 0] slices_S4x64_S1x64_3_0) (vecAt (V (Proc.devRef .tc main_arg13)) ![3, 0] slices_S4x64_S1x64_3_0)
          (V (Proc.devRef .tc main_v6)) (V (Proc.devRef .tc main_v8)) (V (Proc.devRef .tc main_arg3)) (V (Proc.devRef .tc main_v245)) := by
  after_results_simp
  rfl

end Cert.ReferenceIdeal.Val

end
-- ==== Proof.GinHostLayerR.lean ====
/-
  One layer as the deviation-first program computes it on the host, on the extended reals, for any extents.

  A dense stage is a general product plus the bias vector laid out as one row and repeated down the rows. A normalisation
  stage takes the column mean μ, the column variance v (count 50000, zero correction, guarded quotient) and
  r = 1/√(v + ε) of its input t, repeats each of μ, r, g, be down the rows, and computes max (((t − μ) · r) · g + be, 0)
  — the specification's deviation-first activation of t with its own column statistics. The layer: aggregate and add the
  input, dense, normalise, dense, normalise, add the input.
-/
import proofs.«100402_j28432683499906_1_alg».proof.Proof.GinHostLayerK
import proofs.«100402_j28432683499906_1_alg».proof.Proof.GinHostReal

noncomputable section

namespace Cert.Gin

open Idealize.ShloMosaic Idealize.ShloMosaic.ValueIdx Cert.LibMatmulPlain Cert.Layers Cert.Net Cert.Alg

variable {n c : Nat}

/-- A vector laid out as one row and repeated down the rows. -/
def bcRowsH (W : HostW n c) (b : FVec Ideal ⟨1, ![c]⟩ .f32) : FVec Ideal ⟨2, ![n, c]⟩ .f32 :=
  broadcastInDim ⟨2, ![n, c]⟩ ![0, 1] W.h2 (broadcastInDim ⟨2, ![1, c]⟩ ![1] W.h1 b)

/-- The dense stage on the host: a general product plus the bias repeated down the rows. -/
def denseRH (W : HostW n c) (d : DotDims ⟨2, ![n, c]⟩ ⟨2, ![c, c]⟩ ⟨2, ![n, c]⟩) (a : FVec Ideal ⟨2, ![n, c]⟩ .f32)
    (w : FVec Ideal ⟨2, ![c, c]⟩ .f32) (b : FVec Ideal ⟨1, ![c]⟩ .f32) : FVec Ideal ⟨2, ![n, c]⟩ .f32 :=
  addf (Host.dotGeneral d none a w) (bcRowsH W b)

/-- The normalisation stage on the host: ((t − μ) · r) · g + be with each vector repeated down the rows, then the
    maximum with the zero word broadcast. -/
def actRH (W : HostW n c) (t : FVec Ideal ⟨2, ![n, c]⟩ .f32) (g be : FVec Ideal ⟨1, ![c]⟩ .f32) :
    FVec Ideal ⟨2, ![n, c]⟩ .f32 :=
  maximumf
    (addf
      (mulf (mulf (subf t (bcRowsH W (meanH W t))) (bcRowsH W (invH W (varHW W t)))) (bcRowsH W g))
      (bcRowsH W be))
    (broadcastInDim ⟨2, ![n, c]⟩ ![] W.hz (constant (F := Ideal) ⟨0, ![]⟩ .f32 0x00000000#32))

/-- The layer on the host. -/
def layerRH (W : HostW n c) (d : DotDims ⟨2, ![n, c]⟩ ⟨2, ![c, c]⟩ ⟨2, ![n, c]⟩) (agg : Mat n c → Mat n c) (W1 : Mat c c)
    (b1 g1 be1 : Row c) (W2 : Mat c c) (b2 go beo : Row c) (h : Mat n c) : Mat n c :=
  addf (F := Ideal) (φ := .f32)
    (actRH W (denseRH W d (actRH W (denseRH W d (addf (F := Ideal) (φ := .f32) (agg h) h) W1 b1) g1 be1) W2 b2) go beo) h

/-- The dense stage is the specification's dense layer. -/
theorem denseRH_eq (W : HostW n c) (d : DotDims ⟨2, ![n, c]⟩ ⟨2, ![c, c]⟩ ⟨2, ![n, c]⟩)
    (wf : DotDims.WF ⟨2, ![n, c]⟩ ⟨2, ![c, c]⟩ ⟨2, ![n, c]⟩ [1] [0] [0] [1] [] []) (hd : d = plainDims n c c wf)
    (a : FVec Ideal ⟨2, ![n, c]⟩ .f32) (w : FVec Ideal ⟨2, ![c, c]⟩ .f32) (b : FVec Ideal ⟨1, ![c]⟩ .f32) :
    denseRH W d a w b = dense a w b :=
  hostDense_eq d wf hd a w b W.h1 W.h2

/-- The normalisation stage is the specification's deviation-first activation with t's own column statistics. -/
theorem actRH_eq (W : HostW n c) (t : FVec Ideal ⟨2, ![n, c]⟩ .f32) (g be : FVec Ideal ⟨1, ![c]⟩ .f32) :
    actRH W t g be
      = actWith actD (Ideal.ofBits .f32 0x47435000#32) (Ideal.ofBits .f32 0x47435000#32)
          (Ideal.ofBits .f32 0x3727C5AC#32) t g be := by
  unfold actRH bcRowsH actWith
  rw [hostNorm_eq t (meanH W t) (invH W (varHW W t)) g be W.h1 W.h2 W.hz, meanH_eq, invH_eq, varHW_eq]

/-- The layer on the host is the specification's layer with the deviation-first activation. -/
theorem layerRH_eq (W : HostW n c) (d : DotDims ⟨2, ![n, c]⟩ ⟨2, ![c, c]⟩ ⟨2, ![n, c]⟩)
    (wf : DotDims.WF ⟨2, ![n, c]⟩ ⟨2, ![c, c]⟩ ⟨2, ![n, c]⟩ [1] [0] [0] [1] [] []) (hd : d = plainDims n c c wf)
    (agg : Mat n c → Mat n c) (W1 : Mat c c) (b1 g1 be1 : Row c) (W2 : Mat c c) (b2 go beo : Row c) (h : Mat n c) :
    layerRH W d agg W1 b1 g1 be1 W2 b2 go beo h
      = layer actD agg (Ideal.ofBits .f32 0x47435000#32) (Ideal.ofBits .f32 0x47435000#32)
          (Ideal.ofBits .f32 0x3727C5AC#32) ⟨W1, b1, g1, be1, W2, b2, go, beo⟩ h := by
  unfold layerRH layer
  simp only [denseRH_eq W d wf hd, actRH_eq]
  rfl

/-! ## Real parameters -/

/-- Eight real arrays make real parameters. -/
theorem params_real (W1 : Mat c c) (b1 g1 be1 : Row c) (W2 : Mat c c) (b2 go beo : Row c) (hW1 : AllReal W1)
    (hb1 : AllReal b1) (hg1 : AllReal g1) (hbe1 : AllReal be1) (hW2 : AllReal W2) (hb2 : AllReal b2) (hgo : AllReal go)
    (hbeo : AllReal beo) : (⟨W1, b1, g1, be1, W2, b2, go, beo⟩ : Params c).Real :=
  ⟨hW1, hb1, hg1, hbe1, hW2, hb2, hgo, hbeo⟩

/-- One [c, c] matrix cut out of a stack of real matrices is real. -/
theorem matCut_allReal {l : Nat} (a : FVec Ideal ⟨3, ![l, c, c]⟩ .f32) (o : Fin 3 → Nat)
    (hs : (⟨3, ![l, c, c]⟩ : Shape).Slices o ⟨3, ![1, c, c]⟩) (hcast : (⟨3, ![1, c, c]⟩ : Shape).ShapeCasts ⟨2, ![c, c]⟩)
    (ha : AllReal a) : AllReal (shapeCast ⟨2, ![c, c]⟩ (extractStridedSlice ⟨3, ![1, c, c]⟩ o a hs) hcast) :=
  shapeCast_allReal _ hcast (extractStridedSlice_allReal o a hs ha)

/-- One [c] vector cut out of a stack of real vectors is real. -/
theorem vecCut_allReal {l : Nat} (a : FVec Ideal ⟨2, ![l, c]⟩ .f32) (o : Fin 2 → Nat)
    (hs : (⟨2, ![l, c]⟩ : Shape).Slices o ⟨2, ![1, c]⟩) (hcast : (⟨2, ![1, c]⟩ : Shape).ShapeCasts ⟨1, ![c]⟩)
    (ha : AllReal a) : AllReal (shapeCast ⟨1, ![c]⟩ (extractStridedSlice ⟨2, ![1, c]⟩ o a hs) hcast) :=
  shapeCast_allReal _ hcast (extractStridedSlice_allReal o a hs ha)

end Cert.Gin

end
-- ==== Proof.RefValue.lean ====
/-
  The reference program's result buffer after all its operations, as a function of the arguments.

  The operations, cut at the layer boundaries, are read back stage by stage, each stage from ANY contents before it: the
  first stage leaves the embedded features and the two rows of the edge table; each layer leaves its own term of its
  slices of the stacked parameters, the edge rows, the edge weights and the features it starts from. No layer writes an
  argument or an edge row, so a later layer finds them as the first stage left them, and the four layers' terms nest.

  On the extended reals a layer's term is the specification's layer with the deviation-first normalisation, the
  aggregation being the program's own gather, weight and scatter over the edge table, and the first stage's term is a
  dense layer of the input; so the result is the specification's stack of four layers over the argument arrays.
-/
import proofs.«100402_j28432683499906_1_alg».proof.Proof.RefRun
import proofs.«100402_j28432683499906_1_alg».proof.Proof.RefValueW
import proofs.«100402_j28432683499906_1_alg».proof.Proof.RefValuePre
import proofs.«100402_j28432683499906_1_alg».proof.Proof.RefValueL0
import proofs.«100402_j28432683499906_1_alg».proof.Proof.RefValueL1
import proofs.«100402_j28432683499906_1_alg».proof.Proof.RefValueL2
import proofs.«100402_j28432683499906_1_alg».proof.Proof.RefValueL3
import proofs.«100402_j28432683499906_1_alg».proof.Proof.LibHostStages
import proofs.«100402_j28432683499906_1_alg».proof.Proof.GinHostLayerR
import proofs.«100402_j28432683499906_1_alg».proof.Proof.GinNet

set_option maxRecDepth 16384

noncomputable section

namespace Cert.ReferenceIdeal.Val

open Cert.ReferenceIdeal Cert.ReferenceIdeal.Gen Cert.ReferenceIdeal.Hand
open Idealize.ShloMosaic Idealize.ShloMosaic.TcCoe Idealize.SL.Sem Idealize.ShloMosaic.StableHlo

/-! ## The literal composition, over contents of any float type -/

section Literal

variable {F : FTy → Type} [FloatOps F]

/-- A layer's term with its parameters cut out of the stacked arrays at one offset. -/
def layerAt (a6 : CF F S4x64x64) (a7 a8 a9 : CF F S4x64) (a10 : CF F S4x64x64) (a11 a12 a13 : CF F S4x64)
    (o3 : Fin 3 → Nat) (h3 : S4x64x64.Slices o3 S1x64x64) (o2 : Fin 2 → Nat) (h2 : S4x64.Slices o2 S1x64)
    (src dst : CI F S800000) (w : CF F S800000) (h : CF F S50000x64) : CF F S50000x64 :=
  layerH (matAt a6 o3 h3) (vecAt a7 o2 h2) (vecAt a8 o2 h2) (vecAt a9 o2 h2) (matAt a10 o3 h3) (vecAt a11 o2 h2)
    (vecAt a12 o2 h2) (vecAt a13 o2 h2) src dst w h

/-- The whole program's term: four layers over the embedded features, all over the same edge table and weights. -/
def netH (a0 : CF F S50000x1x64) (a1 : CI F S2x800000) (a3 : CF F S800000) (a4 : CF F S64x64) (a5 : CF F S64)
    (a6 : CF F S4x64x64) (a7 a8 a9 : CF F S4x64) (a10 : CF F S4x64x64) (a11 a12 a13 : CF F S4x64) : CF F S50000x64 :=
  layerAt a6 a7 a8 a9 a10 a11 a12 a13 ![3, 0, 0] slices_S4x64x64_S1x64x64_3_0_0 ![3, 0] slices_S4x64_S1x64_3_0
      (edgeSrc a1) (edgeDst a1) a3
      (layerAt a6 a7 a8 a9 a10 a11 a12 a13 ![2, 0, 0] slices_S4x64x64_S1x64x64_2_0_0 ![2, 0] slices_S4x64_S1x64_2_0
      (edgeSrc a1) (edgeDst a1) a3
      (layerAt a6 a7 a8 a9 a10 a11 a12 a13 ![1, 0, 0] slices_S4x64x64_S1x64x64_1_0_0 ![1, 0] slices_S4x64_S1x64_1_0
      (edgeSrc a1) (edgeDst a1) a3
      (layerAt a6 a7 a8 a9 a10 a11 a12 a13 ![0, 0, 0] slices_S4x64x64_S1x64x64_0_0_0 ![0, 0] slices_S4x64_S1x64_0_0
      (edgeSrc a1) (edgeDst a1) a3
      (denseH (featIn a0) a4 a5))))

/-- A reference a stage does not write keeps its contents through the stage. -/
theorem keptPre {r : Ref sig .tc} (hr : r ∉ WPre) (V : Valuation τ sig (Elt F)) :
    StableHlo.after opsPre V (Proc.devRef .tc r) = V (Proc.devRef .tc r) := after_of_writes_sub opsPre V writesPre hr
theorem keptL0 {r : Ref sig .tc} (hr : r ∉ WL0) (V : Valuation τ sig (Elt F)) :
    StableHlo.after opsL0 V (Proc.devRef .tc r) = V (Proc.devRef .tc r) := after_of_writes_sub opsL0 V writesL0 hr
theorem keptL1 {r : Ref sig .tc} (hr : r ∉ WL1) (V : Valuation τ sig (Elt F)) :
    StableHlo.after opsL1 V (Proc.devRef .tc r) = V (Proc.devRef .tc r) := after_of_writes_sub opsL1 V writesL1 hr
theorem keptL2 {r : Ref sig .tc} (hr : r ∉ WL2) (V : Valuation τ sig (Elt F)) :
    StableHlo.after opsL2 V (Proc.devRef .tc r) = V (Proc.devRef .tc r) := after_of_writes_sub opsL2 V writesL2 hr

/-- The result buffer after all the operations, from any contents: the program's term of the contents at the
    arguments. -/
theorem value (V : Valuation τ sig (Elt F)) :
    StableHlo.after ops V (Proc.devRef .tc main_v324)
      = netH (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  show StableHlo.after (ops0 ++ (ops1 ++ (ops2 ++ (ops3 ++ (ops4 ++ (ops5 ++ ops6)))))) V _ = _
  rw [ops_cut, Cert.Lib.HostStages.after_append, Cert.Lib.HostStages.after_append, Cert.Lib.HostStages.after_append,
    Cert.Lib.HostStages.after_append, layer3_value]
  rw [keptL2 (r := main_arg3) (by decide),
    keptL2 (r := main_arg6) (by decide),
    keptL2 (r := main_arg7) (by decide),
    keptL2 (r := main_arg8) (by decide),
    keptL2 (r := main_arg9) (by decide),
    keptL2 (r := main_arg10) (by decide),
    keptL2 (r := main_arg11) (by decide),
    keptL2 (r := main_arg12) (by decide),
    keptL2 (r := main_arg13) (by decide),
    keptL2 (r := main_v6) (by decide),
    keptL2 (r := main_v8) (by decide),
    layer2_value]
  rw [keptL1 (r := main_arg3) (by decide),
    keptL1 (r := main_arg6) (by decide),
    keptL1 (r := main_arg7) (by decide),
    keptL1 (r := main_arg8) (by decide),
    keptL1 (r := main_arg9) (by decide),
    keptL1 (r := main_arg10) (by decide),
    keptL1 (r := main_arg11) (by decide),
    keptL1 (r := main_arg12) (by decide),
    keptL1 (r := main_arg13) (by decide),
    keptL1 (r := main_v6) (by decide),
    keptL1 (r := main_v8) (by decide),
    layer1_value]
  rw [keptL0 (r := main_arg3) (by decide),
    keptL0 (r := main_arg6) (by decide),
    keptL0 (r := main_arg7) (by decide),
    keptL0 (r := main_arg8) (by decide),
    keptL0 (r := main_arg9) (by decide),
    keptL0 (r := main_arg10) (by decide),
    keptL0 (r := main_arg11) (by decide),
    keptL0 (r := main_arg12) (by decide),
    keptL0 (r := main_arg13) (by decide),
    keptL0 (r := main_v6) (by decide),
    keptL0 (r := main_v8) (by decide),
    layer0_value]
  rw [keptPre (r := main_arg3) (by decide),
    keptPre (r := main_arg6) (by decide),
    keptPre (r := main_arg7) (by decide),
    keptPre (r := main_arg8) (by decide),
    keptPre (r := main_arg9) (by decide),
    keptPre (r := main_arg10) (by decide),
    keptPre (r := main_arg11) (by decide),
    keptPre (r := main_arg12) (by decide),
    keptPre (r := main_arg13) (by decide),
    pre_src, pre_dst, pre_feat]
  rfl

end Literal

/-! ## On the extended reals: the specification's stack -/

section Spec

/-- The shape facts of the column statistics of a [50000, 64] array, from the program's own witnesses. -/
theorem hostW : Cert.Gin.HostW 50000 64 :=
  ⟨reducesTo_S50000x64_S64_d0, h_S_, bcast_S64_S1x64_1, bcast_S_S1x64, bcast_S1x64_S50000x64_0_1, bcast_S_S64,
    bcast_S_S50000x64, by decide⟩

/-- The dense stage is the specification's dense layer. -/
theorem denseH_eq (a : CF Ideal S50000x64) (w : CF Ideal S64x64) (b : CF Ideal S64) :
    denseH (F := Ideal) a w b = Cert.Layers.dense (a : Cert.Layers.Mat 50000 64) (w : Cert.Layers.Mat 64 64) (b : Cert.Layers.Row 64) :=
  Cert.Gin.hostDense_eq dot_S50000x64_S64x64_S50000x64_1_0_0_1_n_n dot_S50000x64_S64x64_S50000x64_1_0_0_1_n_n_wf rfl a w b
    bcast_S64_S1x64_1 bcast_S1x64_S50000x64_0_1

/-- A layer's term is the specification's layer, deviation first, over the program's aggregation. -/
theorem layerH_eq (w1 : CF Ideal S64x64) (b1 g1 be1 : CF Ideal S64) (w2 : CF Ideal S64x64) (b2 go beo : CF Ideal S64)
    (src dst : CI Ideal S800000) (w : CF Ideal S800000) (h : CF Ideal S50000x64) :
    layerH (F := Ideal) w1 b1 g1 be1 w2 b2 go beo src dst w h
      = Cert.Gin.layer Cert.Gin.actD (fun x => agg (F := Ideal) src dst w x) (Ideal.ofBits .f32 0x47435000#32) (Ideal.ofBits .f32 0x47435000#32) (Ideal.ofBits .f32 0x3727C5AC#32)
          ⟨w1, b1, g1, be1, w2, b2, go, beo⟩ h :=
  Cert.Gin.layerRH_eq hostW dot_S50000x64_S64x64_S50000x64_1_0_0_1_n_n dot_S50000x64_S64x64_S50000x64_1_0_0_1_n_n_wf rfl
    (fun x => agg (F := Ideal) src dst w x) w1 b1 g1 be1 w2 b2 go beo h

/-- One layer's parameters cut out of the stacked arrays. -/
def paramsR (a6 : CF Ideal S4x64x64) (a7 a8 a9 : CF Ideal S4x64) (a10 : CF Ideal S4x64x64) (a11 a12 a13 : CF Ideal S4x64)
    (o3 : Fin 3 → Nat) (h3 : S4x64x64.Slices o3 S1x64x64) (o2 : Fin 2 → Nat) (h2 : S4x64.Slices o2 S1x64) : Cert.Gin.Params 64 :=
  ⟨matAt a6 o3 h3, vecAt a7 o2 h2, vecAt a8 o2 h2, vecAt a9 o2 h2, matAt a10 o3 h3, vecAt a11 o2 h2, vecAt a12 o2 h2,
    vecAt a13 o2 h2⟩

/-- The program's term is the specification's stack of four layers over the argument arrays. -/
theorem netH_eq (a0 : CF Ideal S50000x1x64) (a1 : CI Ideal S2x800000) (a3 : CF Ideal S800000) (a4 : CF Ideal S64x64) (a5 : CF Ideal S64)
    (a6 : CF Ideal S4x64x64) (a7 a8 a9 : CF Ideal S4x64) (a10 : CF Ideal S4x64x64) (a11 a12 a13 : CF Ideal S4x64) :
    netH (F := Ideal) a0 a1 a3 a4 a5 a6 a7 a8 a9 a10 a11 a12 a13
      = Cert.Gin.net Cert.Gin.actD (fun x => agg (F := Ideal) (edgeSrc a1) (edgeDst a1) a3 x) (Ideal.ofBits .f32 0x47435000#32) (Ideal.ofBits .f32 0x47435000#32) (Ideal.ofBits .f32 0x3727C5AC#32)
          (paramsR a6 a7 a8 a9 a10 a11 a12 a13 ![0, 0, 0] slices_S4x64x64_S1x64x64_0_0_0 ![0, 0] slices_S4x64_S1x64_0_0)
          (paramsR a6 a7 a8 a9 a10 a11 a12 a13 ![1, 0, 0] slices_S4x64x64_S1x64x64_1_0_0 ![1, 0] slices_S4x64_S1x64_1_0)
          (paramsR a6 a7 a8 a9 a10 a11 a12 a13 ![2, 0, 0] slices_S4x64x64_S1x64x64_2_0_0 ![2, 0] slices_S4x64_S1x64_2_0)
          (paramsR a6 a7 a8 a9 a10 a11 a12 a13 ![3, 0, 0] slices_S4x64x64_S1x64x64_3_0_0 ![3, 0] slices_S4x64_S1x64_3_0)
          (Cert.Layers.dense (featIn a0 : Cert.Layers.Mat 50000 64) (a4 : Cert.Layers.Mat 64 64) (a5 : Cert.Layers.Row 64)) := by
  unfold netH layerAt Cert.Gin.net paramsR
  rw [layerH_eq, layerH_eq, layerH_eq, layerH_eq, denseH_eq]

/-- The reference's result buffer after its operations, from the launch contents of a device: the specification's stack
    over the memory at the arguments' locations. -/
theorem rval (m : (ℓ : Loc nD τ sig) → Buf (Elt Ideal) ℓ) (c : Dev nD) :
    StableHlo.after (ops (F := Ideal)) (launchContents m c) (Proc.devRef .tc main_v324)
      = Cert.Gin.net Cert.Gin.actD
          (fun x => agg (F := Ideal) (edgeSrc (m ((c.tc : Thread nD τ).loc main_arg1))) (edgeDst (m ((c.tc : Thread nD τ).loc main_arg1))) (m ((c.tc : Thread nD τ).loc main_arg3)) x)
          (Ideal.ofBits .f32 0x47435000#32) (Ideal.ofBits .f32 0x47435000#32) (Ideal.ofBits .f32 0x3727C5AC#32)
          (paramsR (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
            ![0, 0, 0] slices_S4x64x64_S1x64x64_0_0_0 ![0, 0] slices_S4x64_S1x64_0_0)
          (paramsR (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
            ![1, 0, 0] slices_S4x64x64_S1x64x64_1_0_0 ![1, 0] slices_S4x64_S1x64_1_0)
          (paramsR (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
            ![2, 0, 0] slices_S4x64x64_S1x64x64_2_0_0 ![2, 0] slices_S4x64_S1x64_2_0)
          (paramsR (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
            ![3, 0, 0] slices_S4x64x64_S1x64x64_3_0_0 ![3, 0] slices_S4x64_S1x64_3_0)
          (Cert.Layers.dense (featIn (m ((c.tc : Thread nD τ).loc main_arg0)) : Cert.Layers.Mat 50000 64) ((m ((c.tc : Thread nD τ).loc main_arg4)) : Cert.Layers.Mat 64 64)
            ((m ((c.tc : Thread nD τ).loc main_arg5)) : Cert.Layers.Row 64)) :=
  (value (launchContents m c)).trans (netH_eq _ _ _ _ _ _ _ _ _ _ _ _ _)

end Spec

end Cert.ReferenceIdeal.Val

end
-- ==== Proof.Bridge.lean ====
/-
  The two programs' networks agree on finite arguments.

  The kernel program's result is the stack of four layers with the normalisation folded into a scale and a shift, the
  reference's the stack with the deviation normalised, scaled and shifted; both over the same cuts of the same argument
  arrays, the same aggregation over the same edge table, the same first dense layer (a [64] bias laid out as a [1, 64]
  block and read back is the bias). On real entries the two spellings agree, and the precondition makes every entry real.
-/
import proofs.«100402_j28432683499906_1_alg».proof.Proof.BridgeK
import proofs.«100402_j28432683499906_1_alg».proof.Proof.RefValue

set_option maxRecDepth 16384

noncomputable section

namespace Cert.Bridge

open Cert.KernelIdeal Cert.KernelIdeal.Gen Cert.KernelIdeal.KHost
open Idealize.ShloMosaic Idealize.ShloMosaic.ValueIdx Cert.Gin Cert.Layers Cert.Net Cert.Alg

/-- The first features with the bias read directly. -/
theorem feat0_eq (a0 : CF Ideal S50000x1x64) (a4 : CF Ideal S64x64) (a5 : CF Ideal S64) :
    feat0 a0 a4 a5 = dense (featIn a0 : Mat 50000 64) (a4 : Mat 64 64) (a5 : Row 64) := by
  unfold feat0
  rw [show rowOf (asRow a5 : Mat 1 64) = (a5 : Row 64) from rowOf_shapeCast (n := 64) a5 shapeCasts_S64_S1x64]

/-- Under the precondition the folded network equals the deviation network. -/
theorem netArgs_agree (a0 : CF Ideal S50000x1x64) (a1 : CI Ideal S2x800000) (a2 : CF Ideal S800000x3) (a3 : CF Ideal S800000)
    (a4 : CF Ideal S64x64) (a5 : CF Ideal S64) (a6 : CF Ideal S4x64x64) (a7 a8 a9 : CF Ideal S4x64) (a10 : CF Ideal S4x64x64)
    (a11 a12 a13 : CF Ideal S4x64)
    (hfin : Cert.Pre_finite_inputs.fn (F := Ideal) a0 a1 a2 a3 a4 a5 a6 a7 a8 a9 a10 a11 a12 a13 = fun _ => 1#1) :
    netArgs actS a0 a1 a3 a4 a5 a6 a7 a8 a9 a10 a11 a12 a13 = netArgs actD a0 a1 a3 a4 a5 a6 a7 a8 a9 a10 a11 a12 a13 := by
  obtain ⟨r0, r3, r4, r5, r6, r7, r8, r9, r10, r11, r12, r13⟩ := args_real a0 a1 a2 a3 a4 a5 a6 a7 a8 a9 a10 a11 a12 a13 hfin
  exact netArgs_eq a0 a1 a3 a4 a5 a6 a7 a8 a9 a10 a11 a12 a13 r0 r3 r4 r5 r6 r7 r8 r9 r10 r11 r12 r13

/-- The reference's stack, written with the reference program's own cuts, aggregation and first dense layer, is the
    deviation network over the same arrays: the two programs cut, aggregate and embed by the same operations. -/
theorem netRef_eq (a0 : CF Ideal S50000x1x64) (a1 : CI Ideal S2x800000) (a3 : CF Ideal S800000) (a4 : CF Ideal S64x64)
    (a5 : CF Ideal S64) (a6 : CF Ideal S4x64x64) (a7 a8 a9 : CF Ideal S4x64) (a10 : CF Ideal S4x64x64) (a11 a12 a13 : CF Ideal S4x64)
    (s30 : S4x64x64.Slices ![0, 0, 0] S1x64x64) (s20 : S4x64.Slices ![0, 0] S1x64)
    (s31 : S4x64x64.Slices ![1, 0, 0] S1x64x64) (s21 : S4x64.Slices ![1, 0] S1x64)
    (s32 : S4x64x64.Slices ![2, 0, 0] S1x64x64) (s22 : S4x64.Slices ![2, 0] S1x64)
    (s33 : S4x64x64.Slices ![3, 0, 0] S1x64x64) (s23 : S4x64.Slices ![3, 0] S1x64) :
    Cert.Gin.net actD
        (fun x => Cert.ReferenceIdeal.Val.agg (F := Ideal) (Cert.ReferenceIdeal.Val.edgeSrc a1) (Cert.ReferenceIdeal.Val.edgeDst a1) a3 x)
        (Ideal.ofBits .f32 0x47435000#32) (Ideal.ofBits .f32 0x47435000#32) (Ideal.ofBits .f32 0x3727C5AC#32)
        (Cert.ReferenceIdeal.Val.paramsR a6 a7 a8 a9 a10 a11 a12 a13 ![0, 0, 0] s30 ![0, 0] s20)
        (Cert.ReferenceIdeal.Val.paramsR a6 a7 a8 a9 a10 a11 a12 a13 ![1, 0, 0] s31 ![1, 0] s21)
        (Cert.ReferenceIdeal.Val.paramsR a6 a7 a8 a9 a10 a11 a12 a13 ![2, 0, 0] s32 ![2, 0] s22)
        (Cert.ReferenceIdeal.Val.paramsR a6 a7 a8 a9 a10 a11 a12 a13 ![3, 0, 0] s33 ![3, 0] s23)
        (dense (Cert.ReferenceIdeal.Val.featIn (F := Ideal) a0 : Mat 50000 64) (a4 : Mat 64 64) (a5 : Row 64))
      = netArgs actD a0 a1 a3 a4 a5 a6 a7 a8 a9 a10 a11 a12 a13 := by
  unfold netArgs
  rw [feat0_eq]
  rfl

end Cert.Bridge

end
-- ==== Proof.lean ====
/-
  The certificate of the four-layer graph network: the kernel program (thirteen vector regions among host operations)
  against the array reference.

  Frames: the kernel programs' frames are the frame certificates of the run through the thirteen regions and the host
  operations between them; the reference's frame is its run read back, no operation writing an argument.
  Idealization: nothing was rewritten, so there is nothing to preserve.
  Values: on the extended reals the kernel program ends with the stack of four layers whose normalisation is folded into
  a scale g · r and a shift be − m · (g · r), the reference with the stack whose normalisation is ((t − m) · r) · g + be;
  r = 1 / √(v + ε) with v the column variance. The two agree when every entry is a real number — distributivity, which
  the extended reals have on reals only — and the precondition (every float argument finite) makes every entry real:
  sums and products of reals, column means, variances (nonnegative, so v + ε > 0), reciprocal square roots of positive
  reals, rectifiers and edge-wise aggregations of reals are real.
-/
import proofs.«100402_j28432683499906_1_alg».proof.Defs
import proofs.«100402_j28432683499906_1_alg».proof.Proof.Gen.Kernel
import proofs.«100402_j28432683499906_1_alg».proof.Proof.Gen.KernelIdeal
import proofs.«100402_j28432683499906_1_alg».proof.Proof.Gen.ReferenceIdeal
import proofs.«100402_j28432683499906_1_alg».proof.Proof.Gen.Pre_finite_inputs
import proofs.«100402_j28432683499906_1_alg».proof.Proof.KernelFrameP
import proofs.«100402_j28432683499906_1_alg».proof.Proof.KernelRun
import proofs.«100402_j28432683499906_1_alg».proof.Proof.KValue
import proofs.«100402_j28432683499906_1_alg».proof.Proof.RefKept
import proofs.«100402_j28432683499906_1_alg».proof.Proof.RefValue
import proofs.«100402_j28432683499906_1_alg».proof.Proof.Bridge
import Idealize.ShloMosaic.Adequacy
import Idealize.ShloMosaic.Init

set_option maxRecDepth 16384

noncomputable section

namespace Cert.Proof

open Idealize.ShloMosaic Idealize.SL.Sem Cert.Layers Cert.Gin Cert.Bridge

/-- What both programs end with on device c: the folded network over the kernel program's argument arrays. -/
def result (m : (ℓ : Loc Cert.KernelIdeal.nD Cert.KernelIdeal.τ Cert.KernelIdeal.sig) → Buf (Elt Ideal) ℓ) (c : Dev Cert.KernelIdeal.nD) : Mat 50000 64 :=
  netArgs actS
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => Cert.ReferenceIdeal.Hand.frame (F := Ideal) m ρ,
  trivial,
  fun m g m' g' hpre hagree =>
    ⟨fun c => result m c,
     (θ_run Cert.KernelIdeal.defs _ _).mono (fun _ h c => ⟨(h c).1.trans (Cert.KernelIdeal.KHost.kval m g c), (h c).2⟩)
       (Cert.KernelIdeal.Run.run_main (F := Ideal) m g),
     (θ_run Cert.ReferenceIdeal.defs _ _).mono (fun _ h c => ⟨by
         rw [(h c).1, Cert.ReferenceIdeal.Val.rval m' c, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
         exact (netRef_eq _ _ _ _ _ _ _ _ _ _ _ _ _ _ _ _ _ _ _ _ _).trans (netArgs_agree _ _ _ _ _ _ _ _ _ _ _ _ _ _ (hpre c)).symm, (h c).2⟩)
       (Cert.ReferenceIdeal.Hand.refRun (F := Ideal) m' g')⟩⟩

end Cert.Proof

end
